-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v430)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v430) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v554) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x48 : Shape := ⟨2, ![50000, 48]⟩
abbrev S500000x32 : Shape := ⟨2, ![500000, 32]⟩
abbrev S128x64 : Shape := ⟨2, ![128, 64]⟩
abbrev S128 : Shape := ⟨1, ![128]⟩
abbrev S128x128 : Shape := ⟨2, ![128, 128]⟩
abbrev S128x48 : Shape := ⟨2, ![128, 48]⟩
abbrev S3x4x128x128 : Shape := ⟨4, ![3, 4, 128, 128]⟩
abbrev S3x4x128 : Shape := ⟨3, ![3, 4, 128]⟩
abbrev S128x256 : Shape := ⟨2, ![128, 256]⟩
abbrev S1x128 : Shape := ⟨2, ![1, 128]⟩
abbrev S1 : Shape := ⟨1, ![1]⟩
abbrev S128x160 : Shape := ⟨2, ![128, 160]⟩
abbrev S64x128 : Shape := ⟨2, ![64, 128]⟩
abbrev S64 : Shape := ⟨1, ![64]⟩
abbrev S2x64 : Shape := ⟨2, ![2, 64]⟩
abbrev S2 : Shape := ⟨1, ![2]⟩
abbrev S2x500000 : Shape := ⟨2, ![2, 500000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x48 : S_.BroadcastsInDim S50000x48 (![] : Fin 0 → Fin S50000x48.rank)
  reducesTo_S50000x48_S_d0_1 : S50000x48.ReducesTo [0, 1] S_
  bcast_S_S500000x32 : S_.BroadcastsInDim S500000x32 (![] : Fin 0 → Fin S500000x32.rank)
  reducesTo_S500000x32_S_d0_1 : S500000x32.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x48 : S_.BroadcastsInDim S128x48 (![] : Fin 0 → Fin S128x48.rank)
  reducesTo_S128x48_S_d0_1 : S128x48.ReducesTo [0, 1] S_
  bcast_S_S3x4x128x128 : S_.BroadcastsInDim S3x4x128x128 (![] : Fin 0 → Fin S3x4x128x128.rank)
  reducesTo_S3x4x128x128_S_d0_1_2_3 : S3x4x128x128.ReducesTo [0, 1, 2, 3] S_
  bcast_S_S3x4x128 : S_.BroadcastsInDim S3x4x128 (![] : Fin 0 → Fin S3x4x128.rank)
  reducesTo_S3x4x128_S_d0_1_2 : S3x4x128.ReducesTo [0, 1, 2] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128x160 : S_.BroadcastsInDim S128x160 (![] : Fin 0 → Fin S128x160.rank)
  reducesTo_S128x160_S_d0_1 : S128x160.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg21 : FVec F S64 .f32) (main_arg22 : FVec F S2x64 .f32) (main_arg23 : FVec F S2 .f32) (main_v98 : IVec S_ 1) (main_v101 : IVec S64x128 1) (main_c_39 : IVec S_ 1) : IVec S_ 1 :=
  let main_v102 : IVec S_ 1 := (fun x v => Host.reduce IntOp.andi x v reducesTo_S64x128_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S2x64 .f32 := Host.absf main_arg22
  let main_cst_42 : FVec F S_ .f32 := constant S_ .f32 0x7F800000#32
  let main_v110 : FVec F S2x64 .f32 := broadcastInDim S2x64 ![] bcast_S_S2x64 main_cst_42
  let main_v111 : IVec S2x64 1 := cmpf .olt main_v109 main_v110
  let main_c_43 : IVec S_ 1 := constantI S_ 1 1#1
  let main_v112 : IVec S_ 1 := (fun x v => Host.reduce IntOp.andi x v reducesTo_S2x64_S_d0_1 h_S_) main_v111 main_c_43
  let main_v113 : IVec S_ 1 := andi main_v108 main_v112
  let main_v114 : FVec F S2 .f32 := Host.absf main_arg23
  let main_cst_44 : FVec F S_ .f32 := constant S_ .f32 0x7F800000#32
  let main_v115 : FVec F S2 .f32 := broadcastInDim S2 ![] bcast_S_S2 main_cst_44
  let main_v116 : IVec S2 1 := cmpf .olt main_v114 main_v115
  let main_c_45 : IVec S_ 1 := constantI S_ 1 1#1
  let main_v117 : IVec S_ 1 := (fun x v => Host.reduce IntOp.andi x v reducesTo_S2_S_d0 h_S_) main_v116 main_c_45
  let main_v118 : IVec S_ 1 := andi main_v113 main_v117
  main_v118

def fn_part5 {F : FTy → Type} [FloatOps F] (main_arg18 : FVec F S128x160 .f32) (main_arg19 : FVec F S128 .f32) (main_arg20 : FVec F S64x128 .f32) (main_arg21 : FVec F S64 .f32) (main_arg22 : FVec F S2x64 .f32) (main_arg23 : FVec F S2 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S128x160 .f32 := Host.absf main_arg18
  let main_cst_34 : FVec F S_ .f32 := constant S_ .f32 0x7F800000#32
  let main_v90 : FVec F S128x160 .f32 := broadcastInDim S128x160 ![] bcast_S_S128x160 main_cst_34
  let main_v91 : IVec S128x160 1 := cmpf .olt main_v89 main_v90
  let main_c_35 : IVec S_ 1 := constantI S_ 1 1#1
  let main_v92 : IVec S_ 1 := (fun x v => Host.reduce IntOp.andi x v reducesTo_S128x160_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S64x128 .f32 := Host.absf main_arg20
  let main_cst_38 : FVec F S_ .f32 := constant S_ .f32 0x7F800000#32
  let main_v100 : FVec F S64x128 .f32 := broadcastInDim S64x128 ![] bcast_S_S64x128 main_cst_38
  let main_v101 : IVec S64x128 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S128x256 .f32) (main_arg15 : FVec F S128 .f32) (main_arg16 : FVec F S1x128 .f32) (main_arg17 : FVec F S1 .f32) (main_arg18 : FVec F S128x160 .f32) (main_arg19 : FVec F S128 .f32) (main_arg20 : FVec F S64x128 .f32) (main_arg21 : FVec F S64 .f32) (main_arg22 : FVec F S2x64 .f32) (main_arg23 : FVec F S2 .f32) (main_v63 : IVec S_ 1) (main_v67 : IVec S_ 1) : IVec S_ 1 :=
  let main_v68 : IVec S_ 1 := andi main_v63 main_v67
  let main_v69 : FVec F S128x256 .f32 := Host.absf main_arg14
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S1x128 .f32 := Host.absf main_arg16
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S3x4x128x128 .f32) (main_arg12 : FVec F S3x4x128 .f32) (main_arg13 : FVec F S3x4x128x128 .f32) (main_arg14 : FVec F S128x256 .f32) (main_arg15 : FVec F S128 .f32) (main_arg16 : FVec F S1x128 .f32) (main_arg17 : FVec F S1 .f32) (main_arg18 : FVec F S128x160 .f32) (main_arg19 : FVec F S128 .f32) (main_arg20 : FVec F S64x128 .f32) (main_arg21 : FVec F S64 .f32) (main_arg22 : FVec F S2x64 .f32) (main_arg23 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S3x4x128x128 .f32 := Host.absf main_arg11
  let main_cst_20 : FVec F S_ .f32 := constant S_ .f32 0x7F800000#32
  let main_v55 : FVec F S3x4x128x128 .f32 := broadcastInDim S3x4x128x128 ![] bcast_S_S3x4x128x128 main_cst_20
  let main_v56 : IVec S3x4x128x128 1 := cmpf .olt main_v54 main_v55
  let main_c_21 : IVec S_ 1 := constantI S_ 1 1#1
  let main_v57 : IVec S_ 1 := (fun x v => Host.reduce IntOp.andi x v reducesTo_S3x4x128x128_S_d0_1_2_3 h_S_) main_v56 main_c_21
  let main_v58 : IVec S_ 1 := andi main_v53 main_v57
  let main_v59 : FVec F S3x4x128 .f32 := Host.absf main_arg12
  let main_cst_22 : FVec F S_ .f32 := constant S_ .f32 0x7F800000#32
  let main_v60 : FVec F S3x4x128 .f32 := broadcastInDim S3x4x128 ![] bcast_S_S3x4x128 main_cst_22
  let main_v61 : IVec S3x4x128 1 := cmpf .olt main_v59 main_v60
  let main_c_23 : IVec S_ 1 := constantI S_ 1 1#1
  let main_v62 : IVec S_ 1 := (fun x v => Host.reduce IntOp.andi x v reducesTo_S3x4x128_S_d0_1_2 h_S_) main_v61 main_c_23
  let main_v63 : IVec S_ 1 := andi main_v58 main_v62
  let main_v64 : FVec F S3x4x128x128 .f32 := Host.absf main_arg13
  let main_cst_24 : FVec F S_ .f32 := constant S_ .f32 0x7F800000#32
  let main_v65 : FVec F S3x4x128x128 .f32 := broadcastInDim S3x4x128x128 ![] bcast_S_S3x4x128x128 main_cst_24
  let main_v66 : IVec S3x4x128x128 1 := cmpf .olt main_v64 main_v65
  let main_c_25 : IVec S_ 1 := constantI S_ 1 1#1
  let main_v67 : IVec S_ 1 := (fun x v => Host.reduce IntOp.andi x v reducesTo_S3x4x128x128_S_d0_1_2_3 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S128x48 .f32) (main_arg8 : FVec F S128 .f32) (main_arg9 : FVec F S128x128 .f32) (main_arg10 : FVec F S128 .f32) (main_arg11 : FVec F S3x4x128x128 .f32) (main_arg12 : FVec F S3x4x128 .f32) (main_arg13 : FVec F S3x4x128x128 .f32) (main_arg14 : FVec F S128x256 .f32) (main_arg15 : FVec F S128 .f32) (main_arg16 : FVec F S1x128 .f32) (main_arg17 : FVec F S1 .f32) (main_arg18 : FVec F S128x160 .f32) (main_arg19 : FVec F S128 .f32) (main_arg20 : FVec F S64x128 .f32) (main_arg21 : FVec F S64 .f32) (main_arg22 : FVec F S2x64 .f32) (main_arg23 : FVec F S2 .f32) (main_v33 : IVec S_ 1) : IVec S_ 1 :=
  let main_v34 : FVec F S128x48 .f32 := Host.absf main_arg7
  let main_cst_12 : FVec F S_ .f32 := constant S_ .f32 0x7F800000#32
  let main_v35 : FVec F S128x48 .f32 := broadcastInDim S128x48 ![] bcast_S_S128x48 main_cst_12
  let main_v36 : IVec S128x48 1 := cmpf .olt main_v34 main_v35
  let main_c_13 : IVec S_ 1 := constantI S_ 1 1#1
  let main_v37 : IVec S_ 1 := (fun x v => Host.reduce IntOp.andi x v reducesTo_S128x48_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S128 .f32) (main_arg5 : FVec F S128x128 .f32) (main_arg6 : FVec F S128 .f32) (main_arg7 : FVec F S128x48 .f32) (main_arg8 : FVec F S128 .f32) (main_arg9 : FVec F S128x128 .f32) (main_arg10 : FVec F S128 .f32) (main_arg11 : FVec F S3x4x128x128 .f32) (main_arg12 : FVec F S3x4x128 .f32) (main_arg13 : FVec F S3x4x128x128 .f32) (main_arg14 : FVec F S128x256 .f32) (main_arg15 : FVec F S128 .f32) (main_arg16 : FVec F S1x128 .f32) (main_arg17 : FVec F S1 .f32) (main_arg18 : FVec F S128x160 .f32) (main_arg19 : FVec F S128 .f32) (main_arg20 : FVec F S64x128 .f32) (main_arg21 : FVec F S64 .f32) (main_arg22 : FVec F S2x64 .f32) (main_arg23 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x64 .f32) (main_arg1 : FVec F S50000x48 .f32) (main_arg2 : FVec F S500000x32 .f32) (main_arg3 : FVec F S128x64 .f32) (main_arg4 : FVec F S128 .f32) (main_arg5 : FVec F S128x128 .f32) (main_arg6 : FVec F S128 .f32) (main_arg7 : FVec F S128x48 .f32) (main_arg8 : FVec F S128 .f32) (main_arg9 : FVec F S128x128 .f32) (main_arg10 : FVec F S128 .f32) (main_arg11 : FVec F S3x4x128x128 .f32) (main_arg12 : FVec F S3x4x128 .f32) (main_arg13 : FVec F S3x4x128x128 .f32) (main_arg14 : FVec F S128x256 .f32) (main_arg15 : FVec F S128 .f32) (main_arg16 : FVec F S1x128 .f32) (main_arg17 : FVec F S1 .f32) (main_arg18 : FVec F S128x160 .f32) (main_arg19 : FVec F S128 .f32) (main_arg20 : FVec F S64x128 .f32) (main_arg21 : FVec F S64 .f32) (main_arg22 : FVec F S2x64 .f32) (main_arg23 : FVec F S2 .f32) (main_arg24 : IVec S2x500000 32) (main_arg25 : IVec S2x500000 32) (main_arg26 : IVec S2x500000 32) (main_arg27 : IVec S2x500000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x48 .f32 := Host.absf main_arg1
  let main_cst_0 : FVec F S_ .f32 := constant S_ .f32 0x7F800000#32
  let main_v5 : FVec F S50000x48 .f32 := broadcastInDim S50000x48 ![] bcast_S_S50000x48 main_cst_0
  let main_v6 : IVec S50000x48 1 := cmpf .olt main_v4 main_v5
  let main_c_1 : IVec S_ 1 := constantI S_ 1 1#1
  let main_v7 : IVec S_ 1 := (fun x v => Host.reduce IntOp.andi x v reducesTo_S50000x48_S_d0_1 h_S_) main_v6 main_c_1
  let main_v8 : IVec S_ 1 := andi main_v3 main_v7
  let main_v9 : FVec F S500000x32 .f32 := Host.absf main_arg2
  let main_cst_2 : FVec F S_ .f32 := constant S_ .f32 0x7F800000#32
  let main_v10 : FVec F S500000x32 .f32 := broadcastInDim S500000x32 ![] bcast_S_S500000x32 main_cst_2
  let main_v11 : IVec S500000x32 1 := cmpf .olt main_v9 main_v10
  let main_c_3 : IVec S_ 1 := constantI S_ 1 1#1
  let main_v12 : IVec S_ 1 := (fun x v => Host.reduce IntOp.andi x v reducesTo_S500000x32_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x64 : Shape := ⟨2, ![50000, 64]⟩
abbrev S50000x48 : Shape := ⟨2, ![50000, 48]⟩
abbrev S500000x32 : Shape := ⟨2, ![500000, 32]⟩
abbrev S128x64 : Shape := ⟨2, ![128, 64]⟩
abbrev S128 : Shape := ⟨1, ![128]⟩
abbrev S128x128 : Shape := ⟨2, ![128, 128]⟩
abbrev S128x48 : Shape := ⟨2, ![128, 48]⟩
abbrev S3x4x128x128 : Shape := ⟨4, ![3, 4, 128, 128]⟩
abbrev S3x4x128 : Shape := ⟨3, ![3, 4, 128]⟩
abbrev S128x256 : Shape := ⟨2, ![128, 256]⟩
abbrev S1x128 : Shape := ⟨2, ![1, 128]⟩
abbrev S1 : Shape := ⟨1, ![1]⟩
abbrev S128x160 : Shape := ⟨2, ![128, 160]⟩
abbrev S64x128 : Shape := ⟨2, ![64, 128]⟩
abbrev S64 : Shape := ⟨1, ![64]⟩
abbrev S2x64 : Shape := ⟨2, ![2, 64]⟩
abbrev S2 : Shape := ⟨1, ![2]⟩
abbrev S2x500000 : Shape := ⟨2, ![2, 500000]⟩
abbrev S50000x128 : Shape := ⟨2, ![50000, 128]⟩
abbrev S5000x64 : Shape := ⟨2, ![5000, 64]⟩
abbrev S5000x128 : Shape := ⟨2, ![5000, 128]⟩
abbrev S48x128 : Shape := ⟨2, ![48, 128]⟩
abbrev S5000x48 : Shape := ⟨2, ![5000, 48]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x1x128x128 : Shape := ⟨4, ![1, 1, 128, 128]⟩
abbrev S1x1x128 : Shape := ⟨3, ![1, 1, 128]⟩
abbrev S128x32 : Shape := ⟨2, ![128, 32]⟩
abbrev S128x1 : Shape := ⟨2, ![128, 1]⟩
abbrev S32x128 : Shape := ⟨2, ![32, 128]⟩
abbrev S64x2 : Shape := ⟨2, ![64, 2]⟩
abbrev S1x1 : Shape := ⟨2, ![1, 1]⟩
abbrev S1x64 : Shape := ⟨2, ![1, 64]⟩
abbrev S1x2 : Shape := ⟨2, ![1, 2]⟩
abbrev S4096x128 : Shape := ⟨2, ![4096, 128]⟩
abbrev S4096x32 : Shape := ⟨2, ![4096, 32]⟩
abbrev S2x4096 : Shape := ⟨2, ![2, 4096]⟩
abbrev S4096x1 : Shape := ⟨2, ![4096, 1]⟩
abbrev S4096x64 : Shape := ⟨2, ![4096, 64]⟩
abbrev S4096x2 : Shape := ⟨2, ![4096, 2]⟩
abbrev S500000x2 : Shape := ⟨2, ![500000, 2]⟩

abbrev nBuf : Space → Nat
  | .hbm => 511
  | .vmem => 128
  | .smem => 0
  | _ => 0

abbrev hbmTy0_0 (i : Nat) : BufTy := match i % 128 with
  | 0 => ⟨S50000x64, .f32⟩
  | 1 => ⟨S50000x48, .f32⟩
  | 2 => ⟨S500000x32, .f32⟩
  | 3 => ⟨S128x64, .f32⟩
  | 4 => ⟨S128, .f32⟩
  | 5 => ⟨S128x128, .f32⟩
  | 6 => ⟨S128, .f32⟩
  | 7 => ⟨S128x48, .f32⟩
  | 8 => ⟨S128, .f32⟩
  | 9 => ⟨S128x128, .f32⟩
  | 10 => ⟨S128, .f32⟩
  | 11 => ⟨S3x4x128x128, .f32⟩
  | 12 => ⟨S3x4x128, .f32⟩
  | 13 => ⟨S3x4x128x128, .f32⟩
  | 14 => ⟨S128x256, .f32⟩
  | 15 => ⟨S128, .f32⟩
  | 16 => ⟨S1x128, .f32⟩
  | 17 => ⟨S1, .f32⟩
  | 18 => ⟨S128x160, .f32⟩
  | 19 => ⟨S128, .f32⟩
  | 20 => ⟨S64x128, .f32⟩
  | 21 => ⟨S64, .f32⟩
  | 22 => ⟨S2x64, .f32⟩
  | 23 => ⟨S2, .f32⟩
  | 24 => ⟨S2x500000, .i32⟩
  | 25 => ⟨S2x500000, .i32⟩
  | 26 => ⟨S2x500000, .i32⟩
  | 27 => ⟨S2x500000, .i32⟩
  | 28 => ⟨S64x128, .f32⟩
  | 29 => ⟨S128x128, .f32⟩
  | 30 => ⟨S1x128, .f32⟩
  | 31 => ⟨S1x128, .f32⟩
  | 32 => ⟨S50000x128, .f32⟩
  | 33 => ⟨S48x128, .f32⟩
  | 34 => ⟨S128x128, .f32⟩
  | 35 => ⟨S1x128, .f32⟩
  | 36 => ⟨S1x128, .f32⟩
  | 37 => ⟨S50000x128, .f32⟩
  | 38 => ⟨S1x500000, .i32⟩
  | 39 => ⟨S500000, .i32⟩
  | 40 => ⟨S_, .i32⟩
  | 41 => ⟨S500000, .i32⟩
  | 42 => ⟨S_, .i32⟩
  | 43 => ⟨S50000, .i32⟩
  | 44 => ⟨S500000x1, .i32⟩
  | 45 => ⟨S50000, .i32⟩
  | 46 => ⟨S50000, .f32⟩
  | 47 => ⟨S_, .f32⟩
  | 48 => ⟨S50000, .f32⟩
  | 49 => ⟨S50000, .f32⟩
  | 50 => ⟨S1x500000, .i32⟩
  | 51 => ⟨S500000, .i32⟩
  | 52 => ⟨S_, .i32⟩
  | 53 => ⟨S500000, .i32⟩
  | 54 => ⟨S_, .i32⟩
  | 55 => ⟨S50000, .i32⟩
  | 56 => ⟨S500000x1, .i32⟩
  | 57 => ⟨S50000, .i32⟩
  | 58 => ⟨S50000, .f32⟩
  | 59 => ⟨S_, .f32⟩
  | 60 => ⟨S50000, .f32⟩
  | 61 => ⟨S50000, .f32⟩
  | 62 => ⟨S1x500000, .i32⟩
  | 63 => ⟨S500000, .i32⟩
  | 64 => ⟨S_, .i32⟩
  | 65 => ⟨S500000, .i32⟩
  | 66 => ⟨S_, .i32⟩
  | 67 => ⟨S50000, .i32⟩
  | 68 => ⟨S500000x1, .i32⟩
  | 69 => ⟨S50000, .i32⟩
  | 70 => ⟨S50000, .f32⟩
  | 71 => ⟨S_, .f32⟩
  | 72 => ⟨S50000, .f32⟩
  | 73 => ⟨S50000, .f32⟩
  | 74 => ⟨S1x500000, .i32⟩
  | 75 => ⟨S500000, .i32⟩
  | 76 => ⟨S_, .i32⟩
  | 77 => ⟨S500000, .i32⟩
  | 78 => ⟨S_, .i32⟩
  | 79 => ⟨S50000, .i32⟩
  | 80 => ⟨S500000x1, .i32⟩
  | 81 => ⟨S50000, .i32⟩
  | 82 => ⟨S50000, .f32⟩
  | 83 => ⟨S_, .f32⟩
  | 84 => ⟨S50000, .f32⟩
  | 85 => ⟨S50000, .f32⟩
  | 86 => ⟨S1x500000, .i32⟩
  | 87 => ⟨S500000, .i32⟩
  | 88 => ⟨S1x500000, .i32⟩
  | 89 => ⟨S500000, .i32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x128, .f32⟩
  | 99 => ⟨S_, .f32⟩
  | 100 => ⟨S50000x128, .f32⟩
  | 101 => ⟨S500000x1, .i32⟩
  | 102 => ⟨S50000x128, .f32⟩
  | 103 => ⟨S50000x1, .f32⟩
  | 104 => ⟨S50000x128, .f32⟩
  | 105 => ⟨S50000x128, .f32⟩
  | 106 => ⟨S1x500000, .i32⟩
  | 107 => ⟨S500000, .i32⟩
  | 108 => ⟨S1x500000, .i32⟩
  | 109 => ⟨S500000, .i32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x128, .f32⟩
  | 119 => ⟨S_, .f32⟩
  | 120 => ⟨S50000x128, .f32⟩
  | 121 => ⟨S500000x1, .i32⟩
  | 122 => ⟨S50000x128, .f32⟩
  | 123 => ⟨S50000x1, .f32⟩
  | 124 => ⟨S50000x128, .f32⟩
  | 125 => ⟨S50000x128, .f32⟩
  | 126 => ⟨S1x500000, .i32⟩
  | 127 => ⟨S500000, .i32⟩
  | _ => ⟨S50000x64, .f32⟩

abbrev hbmTy0_1 (i : Nat) : BufTy := match i % 128 with
  | 0 => ⟨S1x500000, .i32⟩
  | 1 => ⟨S500000, .i32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000x128, .f32⟩
  | 11 => ⟨S_, .f32⟩
  | 12 => ⟨S50000x128, .f32⟩
  | 13 => ⟨S500000x1, .i32⟩
  | 14 => ⟨S50000x128, .f32⟩
  | 15 => ⟨S50000x1, .f32⟩
  | 16 => ⟨S50000x128, .f32⟩
  | 17 => ⟨S50000x128, .f32⟩
  | 18 => ⟨S1x500000, .i32⟩
  | 19 => ⟨S500000, .i32⟩
  | 20 => ⟨S1x500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .f32⟩
  | 32 => ⟨S50000x128, .f32⟩
  | 33 => ⟨S500000x1, .i32⟩
  | 34 => ⟨S50000x128, .f32⟩
  | 35 => ⟨S50000x1, .f32⟩
  | 36 => ⟨S50000x128, .f32⟩
  | 37 => ⟨S50000x128, .f32⟩
  | 38 => ⟨S1x1x128x128, .f32⟩
  | 39 => ⟨S128x128, .f32⟩
  | 40 => ⟨S1x1x128, .f32⟩
  | 41 => ⟨S128, .f32⟩
  | 42 => ⟨S1x1x128x128, .f32⟩
  | 43 => ⟨S128x128, .f32⟩
  | 44 => ⟨S1x1x128x128, .f32⟩
  | 45 => ⟨S128x128, .f32⟩
  | 46 => ⟨S1x1x128, .f32⟩
  | 47 => ⟨S128, .f32⟩
  | 48 => ⟨S1x1x128x128, .f32⟩
  | 49 => ⟨S128x128, .f32⟩
  | 50 => ⟨S128x128, .f32⟩
  | 51 => ⟨S128x128, .bf16⟩
  | 52 => ⟨S128x128, .f32⟩
  | 53 => ⟨S128x128, .bf16⟩
  | 54 => ⟨S128x128, .f32⟩
  | 55 => ⟨S128x128, .bf16⟩
  | 56 => ⟨S128x128, .f32⟩
  | 57 => ⟨S128x128, .bf16⟩
  | 58 => ⟨S1x128, .f32⟩
  | 59 => ⟨S1x128, .f32⟩
  | 60 => ⟨S50000x128, .f32⟩
  | 61 => ⟨S1x1x128x128, .f32⟩
  | 62 => ⟨S128x128, .f32⟩
  | 63 => ⟨S1x1x128, .f32⟩
  | 64 => ⟨S128, .f32⟩
  | 65 => ⟨S1x1x128x128, .f32⟩
  | 66 => ⟨S128x128, .f32⟩
  | 67 => ⟨S1x1x128x128, .f32⟩
  | 68 => ⟨S128x128, .f32⟩
  | 69 => ⟨S1x1x128, .f32⟩
  | 70 => ⟨S128, .f32⟩
  | 71 => ⟨S1x1x128x128, .f32⟩
  | 72 => ⟨S128x128, .f32⟩
  | 73 => ⟨S128x128, .f32⟩
  | 74 => ⟨S128x128, .bf16⟩
  | 75 => ⟨S128x128, .f32⟩
  | 76 => ⟨S128x128, .bf16⟩
  | 77 => ⟨S128x128, .f32⟩
  | 78 => ⟨S128x128, .bf16⟩
  | 79 => ⟨S128x128, .f32⟩
  | 80 => ⟨S128x128, .bf16⟩
  | 81 => ⟨S1x128, .f32⟩
  | 82 => ⟨S1x128, .f32⟩
  | 83 => ⟨S50000x128, .f32⟩
  | 84 => ⟨S1x500000, .i32⟩
  | 85 => ⟨S500000, .i32⟩
  | 86 => ⟨S1x500000, .i32⟩
  | 87 => ⟨S500000, .i32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x128, .f32⟩
  | 97 => ⟨S_, .f32⟩
  | 98 => ⟨S50000x128, .f32⟩
  | 99 => ⟨S500000x1, .i32⟩
  | 100 => ⟨S50000x128, .f32⟩
  | 101 => ⟨S50000x1, .f32⟩
  | 102 => ⟨S50000x128, .f32⟩
  | 103 => ⟨S50000x128, .f32⟩
  | 104 => ⟨S1x500000, .i32⟩
  | 105 => ⟨S500000, .i32⟩
  | 106 => ⟨S1x500000, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S_, .f32⟩
  | 118 => ⟨S50000x128, .f32⟩
  | 119 => ⟨S500000x1, .i32⟩
  | 120 => ⟨S50000x128, .f32⟩
  | 121 => ⟨S50000x1, .f32⟩
  | 122 => ⟨S50000x128, .f32⟩
  | 123 => ⟨S50000x128, .f32⟩
  | 124 => ⟨S1x500000, .i32⟩
  | 125 => ⟨S500000, .i32⟩
  | 126 => ⟨S1x500000, .i32⟩
  | 127 => ⟨S500000, .i32⟩
  | _ => ⟨S50000x64, .f32⟩

abbrev hbmTy0_2 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x128, .f32⟩
  | 9 => ⟨S_, .f32⟩
  | 10 => ⟨S50000x128, .f32⟩
  | 11 => ⟨S500000x1, .i32⟩
  | 12 => ⟨S50000x128, .f32⟩
  | 13 => ⟨S50000x1, .f32⟩
  | 14 => ⟨S50000x128, .f32⟩
  | 15 => ⟨S50000x128, .f32⟩
  | 16 => ⟨S1x500000, .i32⟩
  | 17 => ⟨S500000, .i32⟩
  | 18 => ⟨S1x500000, .i32⟩
  | 19 => ⟨S500000, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x128, .f32⟩
  | 29 => ⟨S_, .f32⟩
  | 30 => ⟨S50000x128, .f32⟩
  | 31 => ⟨S500000x1, .i32⟩
  | 32 => ⟨S50000x128, .f32⟩
  | 33 => ⟨S50000x1, .f32⟩
  | 34 => ⟨S50000x128, .f32⟩
  | 35 => ⟨S50000x128, .f32⟩
  | 36 => ⟨S1x1x128x128, .f32⟩
  | 37 => ⟨S128x128, .f32⟩
  | 38 => ⟨S1x1x128, .f32⟩
  | 39 => ⟨S128, .f32⟩
  | 40 => ⟨S1x1x128x128, .f32⟩
  | 41 => ⟨S128x128, .f32⟩
  | 42 => ⟨S1x1x128x128, .f32⟩
  | 43 => ⟨S128x128, .f32⟩
  | 44 => ⟨S1x1x128, .f32⟩
  | 45 => ⟨S128, .f32⟩
  | 46 => ⟨S1x1x128x128, .f32⟩
  | 47 => ⟨S128x128, .f32⟩
  | 48 => ⟨S128x128, .f32⟩
  | 49 => ⟨S128x128, .bf16⟩
  | 50 => ⟨S128x128, .f32⟩
  | 51 => ⟨S128x128, .bf16⟩
  | 52 => ⟨S128x128, .f32⟩
  | 53 => ⟨S128x128, .bf16⟩
  | 54 => ⟨S128x128, .f32⟩
  | 55 => ⟨S128x128, .bf16⟩
  | 56 => ⟨S1x128, .f32⟩
  | 57 => ⟨S1x128, .f32⟩
  | 58 => ⟨S50000x128, .f32⟩
  | 59 => ⟨S1x1x128x128, .f32⟩
  | 60 => ⟨S128x128, .f32⟩
  | 61 => ⟨S1x1x128, .f32⟩
  | 62 => ⟨S128, .f32⟩
  | 63 => ⟨S1x1x128x128, .f32⟩
  | 64 => ⟨S128x128, .f32⟩
  | 65 => ⟨S1x1x128x128, .f32⟩
  | 66 => ⟨S128x128, .f32⟩
  | 67 => ⟨S1x1x128, .f32⟩
  | 68 => ⟨S128, .f32⟩
  | 69 => ⟨S1x1x128x128, .f32⟩
  | 70 => ⟨S128x128, .f32⟩
  | 71 => ⟨S128x128, .f32⟩
  | 72 => ⟨S128x128, .bf16⟩
  | 73 => ⟨S128x128, .f32⟩
  | 74 => ⟨S128x128, .bf16⟩
  | 75 => ⟨S128x128, .f32⟩
  | 76 => ⟨S128x128, .bf16⟩
  | 77 => ⟨S128x128, .f32⟩
  | 78 => ⟨S128x128, .bf16⟩
  | 79 => ⟨S1x128, .f32⟩
  | 80 => ⟨S1x128, .f32⟩
  | 81 => ⟨S50000x128, .f32⟩
  | 82 => ⟨S1x500000, .i32⟩
  | 83 => ⟨S500000, .i32⟩
  | 84 => ⟨S1x500000, .i32⟩
  | 85 => ⟨S500000, .i32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x128, .f32⟩
  | 95 => ⟨S_, .f32⟩
  | 96 => ⟨S50000x128, .f32⟩
  | 97 => ⟨S500000x1, .i32⟩
  | 98 => ⟨S50000x128, .f32⟩
  | 99 => ⟨S50000x1, .f32⟩
  | 100 => ⟨S50000x128, .f32⟩
  | 101 => ⟨S50000x128, .f32⟩
  | 102 => ⟨S1x500000, .i32⟩
  | 103 => ⟨S500000, .i32⟩
  | 104 => ⟨S1x500000, .i32⟩
  | 105 => ⟨S500000, .i32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S500000x128, .f32⟩
  | 115 => ⟨S_, .f32⟩
  | 116 => ⟨S50000x128, .f32⟩
  | 117 => ⟨S500000x1, .i32⟩
  | 118 => ⟨S50000x128, .f32⟩
  | 119 => ⟨S50000x1, .f32⟩
  | 120 => ⟨S50000x128, .f32⟩
  | 121 => ⟨S50000x128, .f32⟩
  | 122 => ⟨S1x500000, .i32⟩
  | 123 => ⟨S500000, .i32⟩
  | 124 => ⟨S1x500000, .i32⟩
  | 125 => ⟨S500000, .i32⟩
  | 126 => ⟨S_, .i32⟩
  | 127 => ⟨S500000, .i32⟩
  | _ => ⟨S50000x64, .f32⟩

abbrev hbmTy0_3 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x128, .f32⟩
  | 7 => ⟨S_, .f32⟩
  | 8 => ⟨S50000x128, .f32⟩
  | 9 => ⟨S500000x1, .i32⟩
  | 10 => ⟨S50000x128, .f32⟩
  | 11 => ⟨S50000x1, .f32⟩
  | 12 => ⟨S50000x128, .f32⟩
  | 13 => ⟨S50000x128, .f32⟩
  | 14 => ⟨S1x500000, .i32⟩
  | 15 => ⟨S500000, .i32⟩
  | 16 => ⟨S1x500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x128, .f32⟩
  | 27 => ⟨S_, .f32⟩
  | 28 => ⟨S50000x128, .f32⟩
  | 29 => ⟨S500000x1, .i32⟩
  | 30 => ⟨S50000x128, .f32⟩
  | 31 => ⟨S50000x1, .f32⟩
  | 32 => ⟨S50000x128, .f32⟩
  | 33 => ⟨S50000x128, .f32⟩
  | 34 => ⟨S1x1x128x128, .f32⟩
  | 35 => ⟨S128x128, .f32⟩
  | 36 => ⟨S1x1x128, .f32⟩
  | 37 => ⟨S128, .f32⟩
  | 38 => ⟨S1x1x128x128, .f32⟩
  | 39 => ⟨S128x128, .f32⟩
  | 40 => ⟨S1x1x128x128, .f32⟩
  | 41 => ⟨S128x128, .f32⟩
  | 42 => ⟨S1x1x128, .f32⟩
  | 43 => ⟨S128, .f32⟩
  | 44 => ⟨S1x1x128x128, .f32⟩
  | 45 => ⟨S128x128, .f32⟩
  | 46 => ⟨S128x128, .f32⟩
  | 47 => ⟨S128x128, .bf16⟩
  | 48 => ⟨S128x128, .f32⟩
  | 49 => ⟨S128x128, .bf16⟩
  | 50 => ⟨S128x128, .f32⟩
  | 51 => ⟨S128x128, .bf16⟩
  | 52 => ⟨S128x128, .f32⟩
  | 53 => ⟨S128x128, .bf16⟩
  | 54 => ⟨S1x128, .f32⟩
  | 55 => ⟨S1x128, .f32⟩
  | 56 => ⟨S50000x128, .f32⟩
  | 57 => ⟨S1x1x128x128, .f32⟩
  | 58 => ⟨S128x128, .f32⟩
  | 59 => ⟨S1x1x128, .f32⟩
  | 60 => ⟨S128, .f32⟩
  | 61 => ⟨S1x1x128x128, .f32⟩
  | 62 => ⟨S128x128, .f32⟩
  | 63 => ⟨S1x1x128x128, .f32⟩
  | 64 => ⟨S128x128, .f32⟩
  | 65 => ⟨S1x1x128, .f32⟩
  | 66 => ⟨S128, .f32⟩
  | 67 => ⟨S1x1x128x128, .f32⟩
  | 68 => ⟨S128x128, .f32⟩
  | 69 => ⟨S128x128, .f32⟩
  | 70 => ⟨S128x128, .bf16⟩
  | 71 => ⟨S128x128, .f32⟩
  | 72 => ⟨S128x128, .bf16⟩
  | 73 => ⟨S128x128, .f32⟩
  | 74 => ⟨S128x128, .bf16⟩
  | 75 => ⟨S128x128, .f32⟩
  | 76 => ⟨S128x128, .bf16⟩
  | 77 => ⟨S1x128, .f32⟩
  | 78 => ⟨S1x128, .f32⟩
  | 79 => ⟨S50000x128, .f32⟩
  | 80 => ⟨S1x500000, .i32⟩
  | 81 => ⟨S500000, .i32⟩
  | 82 => ⟨S1x500000, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x128, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x128, .f32⟩
  | 102 => ⟨S128x128, .f32⟩
  | 103 => ⟨S128x128, .f32⟩
  | 104 => ⟨S128x128, .f32⟩
  | 105 => ⟨S128x32, .f32⟩
  | 106 => ⟨S128x128, .f32⟩
  | 107 => ⟨S128x128, .bf16⟩
  | 108 => ⟨S128x128, .f32⟩
  | 109 => ⟨S128x128, .bf16⟩
  | 110 => ⟨S128x1, .f32⟩
  | 111 => ⟨S128x1, .bf16⟩
  | 112 => ⟨S128x128, .f32⟩
  | 113 => ⟨S128x128, .bf16⟩
  | 114 => ⟨S32x128, .f32⟩
  | 115 => ⟨S32x128, .bf16⟩
  | 116 => ⟨S128x64, .f32⟩
  | 117 => ⟨S128x64, .bf16⟩
  | 118 => ⟨S64x2, .f32⟩
  | 119 => ⟨S64x2, .bf16⟩
  | 120 => ⟨S1x128, .f32⟩
  | 121 => ⟨S1x1, .f32⟩
  | 122 => ⟨S1x128, .f32⟩
  | 123 => ⟨S1x64, .f32⟩
  | 124 => ⟨S1x2, .f32⟩
  | 125 => ⟨S2x500000, .f32⟩
  | 126 => ⟨S500000x2, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x48, .f32⟩
  | .local _ .vmem, ⟨9, _⟩ => ⟨S5000x48, .f32⟩
  | .local _ .vmem, ⟨10, _⟩ => ⟨S48x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S1x128, .f32⟩
  | .local _ .vmem, ⟨24, _⟩ => ⟨S128x128, .bf16⟩
  | .local _ .vmem, ⟨25, _⟩ => ⟨S128x128, .bf16⟩
  | .local _ .vmem, ⟨26, _⟩ => ⟨S1x128, .f32⟩
  | .local _ .vmem, ⟨27, _⟩ => ⟨S128x128, .bf16⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .bf16⟩
  | .local _ .vmem, ⟨37, _⟩ => ⟨S1x128, .f32⟩
  | .local _ .vmem, ⟨38, _⟩ => ⟨S128x128, .bf16⟩
  | .local _ .vmem, ⟨39, _⟩ => ⟨S128x128, .bf16⟩
  | .local _ .vmem, ⟨40, _⟩ => ⟨S1x128, .f32⟩
  | .local _ .vmem, ⟨41, _⟩ => ⟨S128x128, .bf16⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .bf16⟩
  | .local _ .vmem, ⟨53, _⟩ => ⟨S1x128, .f32⟩
  | .local _ .vmem, ⟨54, _⟩ => ⟨S128x128, .bf16⟩
  | .local _ .vmem, ⟨55, _⟩ => ⟨S128x128, .bf16⟩
  | .local _ .vmem, ⟨56, _⟩ => ⟨S1x128, .f32⟩
  | .local _ .vmem, ⟨57, _⟩ => ⟨S128x128, .bf16⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x128, .bf16⟩
  | .local _ .vmem, ⟨69, _⟩ => ⟨S1x128, .f32⟩
  | .local _ .vmem, ⟨70, _⟩ => ⟨S128x128, .bf16⟩
  | .local _ .vmem, ⟨71, _⟩ => ⟨S128x128, .bf16⟩
  | .local _ .vmem, ⟨72, _⟩ => ⟨S1x128, .f32⟩
  | .local _ .vmem, ⟨73, _⟩ => ⟨S128x128, .bf16⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S128x128, .bf16⟩
  | .local _ .vmem, ⟨85, _⟩ => ⟨S1x128, .f32⟩
  | .local _ .vmem, ⟨86, _⟩ => ⟨S128x128, .bf16⟩
  | .local _ .vmem, ⟨87, _⟩ => ⟨S128x128, .bf16⟩
  | .local _ .vmem, ⟨88, _⟩ => ⟨S1x128, .f32⟩
  | .local _ .vmem, ⟨89, _⟩ => ⟨S128x128, .bf16⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S5000x128, .f32⟩
  | .local _ .vmem, ⟨98, _⟩ => ⟨S5000x128, .f32⟩
  | .local _ .vmem, ⟨99, _⟩ => ⟨S5000x128, .f32⟩
  | .local _ .vmem, ⟨100, _⟩ => ⟨S128x128, .bf16⟩
  | .local _ .vmem, ⟨101, _⟩ => ⟨S1x128, .f32⟩
  | .local _ .vmem, ⟨102, _⟩ => ⟨S128x128, .bf16⟩
  | .local _ .vmem, ⟨103, _⟩ => ⟨S128x128, .bf16⟩
  | .local _ .vmem, ⟨104, _⟩ => ⟨S1x128, .f32⟩
  | .local _ .vmem, ⟨105, _⟩ => ⟨S128x128, .bf16⟩
  | .local _ .vmem, ⟨106, _⟩ => ⟨S5000x128, .f32⟩
  | .local _ .vmem, ⟨107, _⟩ => ⟨S5000x128, .f32⟩
  | .local _ .vmem, ⟨108, _⟩ => ⟨S4096x128, .f32⟩
  | .local _ .vmem, ⟨109, _⟩ => ⟨S4096x128, .f32⟩
  | .local _ .vmem, ⟨110, _⟩ => ⟨S4096x128, .f32⟩
  | .local _ .vmem, ⟨111, _⟩ => ⟨S4096x128, .f32⟩
  | .local _ .vmem, ⟨112, _⟩ => ⟨S4096x32, .f32⟩
  | .local _ .vmem, ⟨113, _⟩ => ⟨S4096x32, .f32⟩
  | .local _ .vmem, ⟨114, _⟩ => ⟨S128x128, .bf16⟩
  | .local _ .vmem, ⟨115, _⟩ => ⟨S128x128, .bf16⟩
  | .local _ .vmem, ⟨116, _⟩ => ⟨S1x128, .f32⟩
  | .local _ .vmem, ⟨117, _⟩ => ⟨S128x1, .bf16⟩
  | .local _ .vmem, ⟨118, _⟩ => ⟨S1x1, .f32⟩
  | .local _ .vmem, ⟨119, _⟩ => ⟨S128x128, .bf16⟩
  | .local _ .vmem, ⟨120, _⟩ => ⟨S32x128, .bf16⟩
  | .local _ .vmem, ⟨121, _⟩ => ⟨S1x128, .f32⟩
  | .local _ .vmem, ⟨122, _⟩ => ⟨S128x64, .bf16⟩
  | .local _ .vmem, ⟨123, _⟩ => ⟨S1x64, .f32⟩
  | .local _ .vmem, ⟨124, _⟩ => ⟨S64x2, .bf16⟩
  | .local _ .vmem, ⟨125, _⟩ => ⟨S1x2, .f32⟩
  | .local _ .vmem, ⟨126, _⟩ => ⟨S2x4096, .f32⟩
  | .local _ .vmem, ⟨127, _⟩ => ⟨S2x4096, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_c_0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_1 : Ref sig .tc := ⟨.hbm, 52, rfl⟩
abbrev main_v21 : Ref sig .tc := ⟨.hbm, 53, rfl⟩
abbrev main_c_2 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_3 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_4 : Ref sig .tc := ⟨.hbm, 64, rfl⟩
abbrev main_v30 : Ref sig .tc := ⟨.hbm, 65, rfl⟩
abbrev main_c_5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_6 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_7 : Ref sig .tc := ⟨.hbm, 76, rfl⟩
abbrev main_v39 : Ref sig .tc := ⟨.hbm, 77, rfl⟩
abbrev main_c_8 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_9 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_10 : Ref sig .tc := ⟨.hbm, 90, rfl⟩
abbrev main_v50 : Ref sig .tc := ⟨.hbm, 91, rfl⟩
abbrev main_v51 : Ref sig .tc := ⟨.hbm, 92, rfl⟩
abbrev main_c_11 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_12 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_13 : Ref sig .tc := ⟨.hbm, 110, rfl⟩
abbrev main_v67 : Ref sig .tc := ⟨.hbm, 111, rfl⟩
abbrev main_v68 : Ref sig .tc := ⟨.hbm, 112, rfl⟩
abbrev main_c_14 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_16 : Ref sig .tc := ⟨.hbm, 130, rfl⟩
abbrev main_v84 : Ref sig .tc := ⟨.hbm, 131, rfl⟩
abbrev main_v85 : Ref sig .tc := ⟨.hbm, 132, rfl⟩
abbrev main_c_17 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_18 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_c_19 : Ref sig .tc := ⟨.hbm, 150, rfl⟩
abbrev main_v101 : Ref sig .tc := ⟨.hbm, 151, rfl⟩
abbrev main_v102 : Ref sig .tc := ⟨.hbm, 152, rfl⟩
abbrev main_c_20 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_21 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_c_22 : Ref sig .tc := ⟨.hbm, 216, rfl⟩
abbrev main_v164 : Ref sig .tc := ⟨.hbm, 217, rfl⟩
abbrev main_v165 : Ref sig .tc := ⟨.hbm, 218, rfl⟩
abbrev main_c_23 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_24 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_c_25 : Ref sig .tc := ⟨.hbm, 236, rfl⟩
abbrev main_v181 : Ref sig .tc := ⟨.hbm, 237, rfl⟩
abbrev main_v182 : Ref sig .tc := ⟨.hbm, 238, rfl⟩
abbrev main_c_26 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_cst_27 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_c_28 : Ref sig .tc := ⟨.hbm, 256, rfl⟩
abbrev main_v198 : Ref sig .tc := ⟨.hbm, 257, rfl⟩
abbrev main_v199 : Ref sig .tc := ⟨.hbm, 258, rfl⟩
abbrev main_c_29 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_30 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_c_31 : Ref sig .tc := ⟨.hbm, 276, rfl⟩
abbrev main_v215 : Ref sig .tc := ⟨.hbm, 277, rfl⟩
abbrev main_v216 : Ref sig .tc := ⟨.hbm, 278, rfl⟩
abbrev main_c_32 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_cst_33 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_c_34 : Ref sig .tc := ⟨.hbm, 342, rfl⟩
abbrev main_v278 : Ref sig .tc := ⟨.hbm, 343, rfl⟩
abbrev main_v279 : Ref sig .tc := ⟨.hbm, 344, rfl⟩
abbrev main_c_35 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_cst_36 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_c_37 : Ref sig .tc := ⟨.hbm, 362, rfl⟩
abbrev main_v295 : Ref sig .tc := ⟨.hbm, 363, rfl⟩
abbrev main_v296 : Ref sig .tc := ⟨.hbm, 364, rfl⟩
abbrev main_c_38 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_cst_39 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_c_40 : Ref sig .tc := ⟨.hbm, 382, rfl⟩
abbrev main_v312 : Ref sig .tc := ⟨.hbm, 383, rfl⟩
abbrev main_v313 : Ref sig .tc := ⟨.hbm, 384, rfl⟩
abbrev main_c_41 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_cst_42 : Ref sig .tc := ⟨.hbm, 391, rfl⟩
abbrev main_v319 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_v326 : Ref sig .tc := ⟨.hbm, 399, rfl⟩
abbrev main_v327 : Ref sig .tc := ⟨.hbm, 400, rfl⟩
abbrev main_v328 : Ref sig .tc := ⟨.hbm, 401, rfl⟩
abbrev main_c_43 : Ref sig .tc := ⟨.hbm, 402, rfl⟩
abbrev main_v329 : Ref sig .tc := ⟨.hbm, 403, rfl⟩
abbrev main_v330 : Ref sig .tc := ⟨.hbm, 404, rfl⟩
abbrev main_c_44 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_cst_45 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_v340 : Ref sig .tc := ⟨.hbm, 416, rfl⟩
abbrev main_v341 : Ref sig .tc := ⟨.hbm, 417, rfl⟩
abbrev main_v342 : Ref sig .tc := ⟨.hbm, 418, rfl⟩
abbrev main_v343 : Ref sig .tc := ⟨.hbm, 419, rfl⟩
abbrev main_v344 : Ref sig .tc := ⟨.hbm, 420, rfl⟩
abbrev main_v345 : Ref sig .tc := ⟨.hbm, 421, rfl⟩
abbrev main_v346 : Ref sig .tc := ⟨.hbm, 422, rfl⟩
abbrev main_v347 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_v355 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_v362 : Ref sig .tc := ⟨.hbm, 438, rfl⟩
abbrev main_v363 : Ref sig .tc := ⟨.hbm, 439, rfl⟩
abbrev main_v364 : Ref sig .tc := ⟨.hbm, 440, rfl⟩
abbrev main_v365 : Ref sig .tc := ⟨.hbm, 441, rfl⟩
abbrev main_v366 : Ref sig .tc := ⟨.hbm, 442, rfl⟩
abbrev main_v367 : Ref sig .tc := ⟨.hbm, 443, rfl⟩
abbrev main_v368 : Ref sig .tc := ⟨.hbm, 444, rfl⟩
abbrev main_v369 : Ref sig .tc := ⟨.hbm, 445, rfl⟩
abbrev main_v370 : Ref sig .tc := ⟨.hbm, 446, rfl⟩
abbrev main_v371 : Ref sig .tc := ⟨.hbm, 447, rfl⟩
abbrev main_v372 : Ref sig .tc := ⟨.hbm, 448, rfl⟩
abbrev main_v373 : Ref sig .tc := ⟨.hbm, 449, rfl⟩
abbrev main_v374 : Ref sig .tc := ⟨.hbm, 450, rfl⟩
abbrev main_v375 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_v387 : Ref sig .tc := ⟨.hbm, 463, rfl⟩
abbrev main_v388 : Ref sig .tc := ⟨.hbm, 464, rfl⟩
abbrev main_v389 : Ref sig .tc := ⟨.hbm, 465, rfl⟩
abbrev main_v390 : Ref sig .tc := ⟨.hbm, 466, rfl⟩
abbrev main_v391 : Ref sig .tc := ⟨.hbm, 467, rfl⟩
abbrev main_c_46 : Ref sig .tc := ⟨.hbm, 468, rfl⟩
abbrev main_v392 : Ref sig .tc := ⟨.hbm, 469, rfl⟩
abbrev main_v393 : Ref sig .tc := ⟨.hbm, 470, rfl⟩
abbrev main_c_47 : Ref sig .tc := ⟨.hbm, 471, rfl⟩
abbrev main_v394 : Ref sig .tc := ⟨.hbm, 472, rfl⟩
abbrev main_v395 : Ref sig .tc := ⟨.hbm, 473, rfl⟩
abbrev main_v396 : Ref sig .tc := ⟨.hbm, 474, rfl⟩
abbrev main_v397 : Ref sig .tc := ⟨.hbm, 475, rfl⟩
abbrev main_v398 : Ref sig .tc := ⟨.hbm, 476, rfl⟩
abbrev main_c_48 : Ref sig .tc := ⟨.hbm, 477, rfl⟩
abbrev main_v399 : Ref sig .tc := ⟨.hbm, 478, rfl⟩
abbrev main_v400 : Ref sig .tc := ⟨.hbm, 479, rfl⟩
abbrev main_c_49 : Ref sig .tc := ⟨.hbm, 480, rfl⟩
abbrev main_v401 : Ref sig .tc := ⟨.hbm, 481, rfl⟩
abbrev main_v402 : Ref sig .tc := ⟨.hbm, 482, rfl⟩
abbrev main_v403 : Ref sig .tc := ⟨.hbm, 483, rfl⟩
abbrev main_v404 : Ref sig .tc := ⟨.hbm, 484, rfl⟩
abbrev main_v405 : Ref sig .tc := ⟨.hbm, 485, rfl⟩
abbrev main_v406 : Ref sig .tc := ⟨.hbm, 486, rfl⟩
abbrev main_v407 : Ref sig .tc := ⟨.hbm, 487, rfl⟩
abbrev main_v408 : Ref sig .tc := ⟨.hbm, 488, rfl⟩
abbrev main_v409 : Ref sig .tc := ⟨.hbm, 489, rfl⟩
abbrev main_v410 : Ref sig .tc := ⟨.hbm, 490, rfl⟩
abbrev main_v411 : Ref sig .tc := ⟨.hbm, 491, rfl⟩
abbrev main_v412 : Ref sig .tc := ⟨.hbm, 492, rfl⟩
abbrev main_v413 : Ref sig .tc := ⟨.hbm, 493, rfl⟩
abbrev main_v414 : Ref sig .tc := ⟨.hbm, 494, rfl⟩
abbrev main_v415 : Ref sig .tc := ⟨.hbm, 495, rfl⟩
abbrev main_v416 : Ref sig .tc := ⟨.hbm, 496, rfl⟩
abbrev main_v417 : Ref sig .tc := ⟨.hbm, 497, rfl⟩
abbrev main_v418 : Ref sig .tc := ⟨.hbm, 498, rfl⟩
abbrev main_v419 : Ref sig .tc := ⟨.hbm, 499, rfl⟩
abbrev main_v420 : Ref sig .tc := ⟨.hbm, 500, rfl⟩
abbrev main_v421 : Ref sig .tc := ⟨.hbm, 501, rfl⟩
abbrev main_v422 : Ref sig .tc := ⟨.hbm, 502, rfl⟩
abbrev main_v423 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev main_v429 : Ref sig .tc := ⟨.hbm, 509, rfl⟩
abbrev main_v430 : Ref sig .tc := ⟨.hbm, 510, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg9_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg10_0 : Ref sig .tc := ⟨.vmem, 58, rfl⟩
abbrev cc4_stg10_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg2_1 : Ref sig .tc := ⟨.vmem, 65, rfl⟩
abbrev cc5_stg3_0 : Ref sig .tc := ⟨.vmem, 66, rfl⟩
abbrev cc5_stg3_1 : Ref sig .tc := ⟨.vmem, 67, rfl⟩
abbrev cc5_stg4_0 : Ref sig .tc := ⟨.vmem, 68, rfl⟩
abbrev cc5_stg5_0 : Ref sig .tc := ⟨.vmem, 69, rfl⟩
abbrev cc5_stg6_0 : Ref sig .tc := ⟨.vmem, 70, rfl⟩
abbrev cc5_stg7_0 : Ref sig .tc := ⟨.vmem, 71, rfl⟩
abbrev cc5_stg8_0 : Ref sig .tc := ⟨.vmem, 72, rfl⟩
abbrev cc5_stg9_0 : Ref sig .tc := ⟨.vmem, 73, rfl⟩
abbrev cc5_stg10_0 : Ref sig .tc := ⟨.vmem, 74, rfl⟩
abbrev cc5_stg10_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg2_1 : Ref sig .tc := ⟨.vmem, 81, rfl⟩
abbrev cc6_stg3_0 : Ref sig .tc := ⟨.vmem, 82, rfl⟩
abbrev cc6_stg3_1 : Ref sig .tc := ⟨.vmem, 83, rfl⟩
abbrev cc6_stg4_0 : Ref sig .tc := ⟨.vmem, 84, rfl⟩
abbrev cc6_stg5_0 : Ref sig .tc := ⟨.vmem, 85, rfl⟩
abbrev cc6_stg6_0 : Ref sig .tc := ⟨.vmem, 86, rfl⟩
abbrev cc6_stg7_0 : Ref sig .tc := ⟨.vmem, 87, rfl⟩
abbrev cc6_stg8_0 : Ref sig .tc := ⟨.vmem, 88, rfl⟩
abbrev cc6_stg9_0 : Ref sig .tc := ⟨.vmem, 89, rfl⟩
abbrev cc6_stg10_0 : Ref sig .tc := ⟨.vmem, 90, rfl⟩
abbrev cc6_stg10_1 : Ref sig .tc := ⟨.vmem, 91, rfl⟩
abbrev cc7_stg0_0 : Ref sig .tc := ⟨.vmem, 92, rfl⟩
abbrev cc7_stg0_1 : Ref sig .tc := ⟨.vmem, 93, rfl⟩
abbrev cc7_stg1_0 : Ref sig .tc := ⟨.vmem, 94, rfl⟩
abbrev cc7_stg1_1 : Ref sig .tc := ⟨.vmem, 95, rfl⟩
abbrev cc7_stg2_0 : Ref sig .tc := ⟨.vmem, 96, rfl⟩
abbrev cc7_stg2_1 : Ref sig .tc := ⟨.vmem, 97, rfl⟩
abbrev cc7_stg3_0 : Ref sig .tc := ⟨.vmem, 98, rfl⟩
abbrev cc7_stg3_1 : Ref sig .tc := ⟨.vmem, 99, rfl⟩
abbrev cc7_stg4_0 : Ref sig .tc := ⟨.vmem, 100, rfl⟩
abbrev cc7_stg5_0 : Ref sig .tc := ⟨.vmem, 101, rfl⟩
abbrev cc7_stg6_0 : Ref sig .tc := ⟨.vmem, 102, rfl⟩
abbrev cc7_stg7_0 : Ref sig .tc := ⟨.vmem, 103, rfl⟩
abbrev cc7_stg8_0 : Ref sig .tc := ⟨.vmem, 104, rfl⟩
abbrev cc7_stg9_0 : Ref sig .tc := ⟨.vmem, 105, rfl⟩
abbrev cc7_stg10_0 : Ref sig .tc := ⟨.vmem, 106, rfl⟩
abbrev cc7_stg10_1 : Ref sig .tc := ⟨.vmem, 107, rfl⟩
abbrev cc8_stg0_0 : Ref sig .tc := ⟨.vmem, 108, rfl⟩
abbrev cc8_stg0_1 : Ref sig .tc := ⟨.vmem, 109, rfl⟩
abbrev cc8_stg1_0 : Ref sig .tc := ⟨.vmem, 110, rfl⟩
abbrev cc8_stg1_1 : Ref sig .tc := ⟨.vmem, 111, rfl⟩
abbrev cc8_stg2_0 : Ref sig .tc := ⟨.vmem, 112, rfl⟩
abbrev cc8_stg2_1 : Ref sig .tc := ⟨.vmem, 113, rfl⟩
abbrev cc8_stg3_0 : Ref sig .tc := ⟨.vmem, 114, rfl⟩
abbrev cc8_stg4_0 : Ref sig .tc := ⟨.vmem, 115, rfl⟩
abbrev cc8_stg5_0 : Ref sig .tc := ⟨.vmem, 116, rfl⟩
abbrev cc8_stg6_0 : Ref sig .tc := ⟨.vmem, 117, rfl⟩
abbrev cc8_stg7_0 : Ref sig .tc := ⟨.vmem, 118, rfl⟩
abbrev cc8_stg8_0 : Ref sig .tc := ⟨.vmem, 119, rfl⟩
abbrev cc8_stg9_0 : Ref sig .tc := ⟨.vmem, 120, rfl⟩
abbrev cc8_stg10_0 : Ref sig .tc := ⟨.vmem, 121, rfl⟩
abbrev cc8_stg11_0 : Ref sig .tc := ⟨.vmem, 122, rfl⟩
abbrev cc8_stg12_0 : Ref sig .tc := ⟨.vmem, 123, rfl⟩
abbrev cc8_stg13_0 : Ref sig .tc := ⟨.vmem, 124, rfl⟩
abbrev cc8_stg14_0 : Ref sig .tc := ⟨.vmem, 125, rfl⟩
abbrev cc8_stg15_0 : Ref sig .tc := ⟨.vmem, 126, rfl⟩
abbrev cc8_stg15_1 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem9_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem10_0 : DmaSem sig := 58
abbrev cc4_sem10_1 : DmaSem sig := 59
abbrev cc5_sem0_0 : DmaSem sig := 60
abbrev cc5_sem0_1 : DmaSem sig := 61
abbrev cc5_sem1_0 : DmaSem sig := 62
abbrev cc5_sem1_1 : DmaSem sig := 63
abbrev cc5_sem2_0 : DmaSem sig := 64
abbrev cc5_sem2_1 : DmaSem sig := 65
abbrev cc5_sem3_0 : DmaSem sig := 66
abbrev cc5_sem3_1 : DmaSem sig := 67
abbrev cc5_sem4_0 : DmaSem sig := 68
abbrev cc5_sem5_0 : DmaSem sig := 69
abbrev cc5_sem6_0 : DmaSem sig := 70
abbrev cc5_sem7_0 : DmaSem sig := 71
abbrev cc5_sem8_0 : DmaSem sig := 72
abbrev cc5_sem9_0 : DmaSem sig := 73
abbrev cc5_sem10_0 : DmaSem sig := 74
abbrev cc5_sem10_1 : DmaSem sig := 75
abbrev cc6_sem0_0 : DmaSem sig := 76
abbrev cc6_sem0_1 : DmaSem sig := 77
abbrev cc6_sem1_0 : DmaSem sig := 78
abbrev cc6_sem1_1 : DmaSem sig := 79
abbrev cc6_sem2_0 : DmaSem sig := 80
abbrev cc6_sem2_1 : DmaSem sig := 81
abbrev cc6_sem3_0 : DmaSem sig := 82
abbrev cc6_sem3_1 : DmaSem sig := 83
abbrev cc6_sem4_0 : DmaSem sig := 84
abbrev cc6_sem5_0 : DmaSem sig := 85
abbrev cc6_sem6_0 : DmaSem sig := 86
abbrev cc6_sem7_0 : DmaSem sig := 87
abbrev cc6_sem8_0 : DmaSem sig := 88
abbrev cc6_sem9_0 : DmaSem sig := 89
abbrev cc6_sem10_0 : DmaSem sig := 90
abbrev cc6_sem10_1 : DmaSem sig := 91
abbrev cc7_sem0_0 : DmaSem sig := 92
abbrev cc7_sem0_1 : DmaSem sig := 93
abbrev cc7_sem1_0 : DmaSem sig := 94
abbrev cc7_sem1_1 : DmaSem sig := 95
abbrev cc7_sem2_0 : DmaSem sig := 96
abbrev cc7_sem2_1 : DmaSem sig := 97
abbrev cc7_sem3_0 : DmaSem sig := 98
abbrev cc7_sem3_1 : DmaSem sig := 99
abbrev cc7_sem4_0 : DmaSem sig := 100
abbrev cc7_sem5_0 : DmaSem sig := 101
abbrev cc7_sem6_0 : DmaSem sig := 102
abbrev cc7_sem7_0 : DmaSem sig := 103
abbrev cc7_sem8_0 : DmaSem sig := 104
abbrev cc7_sem9_0 : DmaSem sig := 105
abbrev cc7_sem10_0 : DmaSem sig := 106
abbrev cc7_sem10_1 : DmaSem sig := 107
abbrev cc8_sem0_0 : DmaSem sig := 108
abbrev cc8_sem0_1 : DmaSem sig := 109
abbrev cc8_sem1_0 : DmaSem sig := 110
abbrev cc8_sem1_1 : DmaSem sig := 111
abbrev cc8_sem2_0 : DmaSem sig := 112
abbrev cc8_sem2_1 : DmaSem sig := 113
abbrev cc8_sem3_0 : DmaSem sig := 114
abbrev cc8_sem4_0 : DmaSem sig := 115
abbrev cc8_sem5_0 : DmaSem sig := 116
abbrev cc8_sem6_0 : DmaSem sig := 117
abbrev cc8_sem7_0 : DmaSem sig := 118
abbrev cc8_sem8_0 : DmaSem sig := 119
abbrev cc8_sem9_0 : DmaSem sig := 120
abbrev cc8_sem10_0 : DmaSem sig := 121
abbrev cc8_sem11_0 : DmaSem sig := 122
abbrev cc8_sem12_0 : DmaSem sig := 123
abbrev cc8_sem13_0 : DmaSem sig := 124
abbrev cc8_sem14_0 : DmaSem sig := 125
abbrev cc8_sem15_0 : DmaSem sig := 126
abbrev cc8_sem15_1 : DmaSem sig := 127

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S48x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x128 .bf16 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S5000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128x128 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S5000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x128 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S128x128 .bf16 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S5000x128 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S128x128 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x128 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128x128 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S128x128 .bf16 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S5000x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev grid8 : Pipeline.Grid := ⟨1, ![123], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_14 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_15 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 2 → Memref sig .tc .vmem S4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4096x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x1 .bf16 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S128x128 .bf16 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S32x128 .bf16 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x128 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S128x64 .bf16 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S1x64 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 1 → Memref sig .tc .vmem S64x2 .bf16 := fun | 0 => Memref.whole cc8_stg13_0 | ⟨_ + 1, h⟩ => absurd h (Nat.not_lt.2 (Nat.le_add_left _ _))
abbrev sem8_13 : Fin 1 → DmaSem sig := fun | 0 => cc8_sem13_0 | ⟨_ + 1, h⟩ => absurd h (Nat.not_lt.2 (Nat.le_add_left _ _))
abbrev reads8_13 : Fin grid8.rank → Bool := ![false]

abbrev stage8_14 : Fin 1 → Memref sig .tc .vmem S1x2 .f32 := fun | 0 => Memref.whole cc8_stg14_0 | ⟨_ + 1, h⟩ => absurd h (Nat.not_lt.2 (Nat.le_add_left _ _))
abbrev sem8_14 : Fin 1 → DmaSem sig := fun | 0 => cc8_sem14_0 | ⟨_ + 1, h⟩ => absurd h (Nat.not_lt.2 (Nat.le_add_left _ _))
abbrev reads8_14 : Fin grid8.rank → Bool := ![false]

abbrev stage8_15 : Fin 2 → Memref sig .tc .vmem S2x4096 .f32 := fun | 0 => Memref.whole cc8_stg15_0 | 1 => Memref.whole cc8_stg15_1 | ⟨_ + 2, h⟩ => absurd h (Nat.not_lt.2 (Nat.le_add_left _ _))
abbrev sem8_15 : Fin 2 → DmaSem sig := fun | 0 => cc8_sem15_0 | 1 => cc8_sem15_1 | ⟨_ + 2, h⟩ => absurd h (Nat.not_lt.2 (Nat.le_add_left _ _))
abbrev reads8_15 : Fin grid8.rank → Bool := ![true]

class Facts₀ : Prop where
  transposes_S128x64_S64x128_1_0 : S128x64.Transposes [1, 0] S64x128
  transposes_S128x128_S128x128_1_0 : S128x128.Transposes [1, 0] S128x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  transposes_S128x48_S48x128_1_0 : S128x48.Transposes [1, 0] S48x128
  inb_S5000x48_S5000x48_0_0 : ∀ a, (![0, 0] : Fin 2 → Nat) a + S5000x48.size a ≤ S5000x48.size a
  h_S5000x48 : 0 < S5000x48.numel
  inb_S48x128_S48x128_0_0 : ∀ a, (![0, 0] : Fin 2 → Nat) a + S48x128.size a ≤ S48x128.size a
  h_S48x128 : 0 < S48x128.numel
  shapeCasts_S48x128_S48x128 : S48x128.ShapeCasts S48x128
  slices_S2x500000_S1x500000_1_0 : S2x500000.Slices ![1, 0] S1x500000
  shapeCasts_S1x500000_S500000 : S1x500000.ShapeCasts S500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  slices_S2x500000_S1x500000_0_0 : S2x500000.Slices ![0, 0] S1x500000
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x4x128x128_S1x1x128x128_0_0_0_0 : S3x4x128x128.Slices ![0, 0, 0, 0] S1x1x128x128
  shapeCasts_S1x1x128x128_S128x128 : S1x1x128x128.ShapeCasts S128x128
  slices_S3x4x128_S1x1x128_0_0_0 : S3x4x128.Slices ![0, 0, 0] S1x1x128
  shapeCasts_S1x1x128_S128 : S1x1x128.ShapeCasts S128
  slices_S3x4x128x128_S1x1x128x128_0_3_0_0 : S3x4x128x128.Slices ![0, 3, 0, 0] S1x1x128x128
  slices_S3x4x128_S1x1x128_0_3_0 : S3x4x128.Slices ![0, 3, 0] S1x1x128
  bitsLt_bf16_f32 : FTy.bits .bf16 < FTy.bits .f32
  shapeCasts_S5000x128_S5000x128 : S5000x128.ShapeCasts S5000x128
  slices_S3x4x128x128_S1x1x128x128_0_1_0_0 : S3x4x128x128.Slices ![0, 1, 0, 0] S1x1x128x128
  slices_S3x4x128_S1x1x128_0_1_0 : S3x4x128.Slices ![0, 1, 0] S1x1x128
  slices_S3x4x128x128_S1x1x128x128_0_2_0_0 : S3x4x128x128.Slices ![0, 2, 0, 0] S1x1x128x128
  slices_S3x4x128_S1x1x128_0_2_0 : S3x4x128.Slices ![0, 2, 0] S1x1x128
  slices_S3x4x128x128_S1x1x128x128_1_0_0_0 : S3x4x128x128.Slices ![1, 0, 0, 0] S1x1x128x128
  slices_S3x4x128_S1x1x128_1_0_0 : S3x4x128.Slices ![1, 0, 0] S1x1x128
  slices_S3x4x128x128_S1x1x128x128_1_3_0_0 : S3x4x128x128.Slices ![1, 3, 0, 0] S1x1x128x128
  slices_S3x4x128_S1x1x128_1_3_0 : S3x4x128.Slices ![1, 3, 0] S1x1x128
  slices_S3x4x128x128_S1x1x128x128_1_1_0_0 : S3x4x128x128.Slices ![1, 1, 0, 0] S1x1x128x128
  slices_S3x4x128_S1x1x128_1_1_0 : S3x4x128.Slices ![1, 1, 0] S1x1x128
  slices_S3x4x128x128_S1x1x128x128_1_2_0_0 : S3x4x128x128.Slices ![1, 2, 0, 0] S1x1x128x128
  slices_S3x4x128_S1x1x128_1_2_0 : S3x4x128.Slices ![1, 2, 0] S1x1x128
  slices_S3x4x128x128_S1x1x128x128_2_0_0_0 : S3x4x128x128.Slices ![2, 0, 0, 0] S1x1x128x128
  slices_S3x4x128_S1x1x128_2_0_0 : S3x4x128.Slices ![2, 0, 0] S1x1x128
  slices_S3x4x128x128_S1x1x128x128_2_3_0_0 : S3x4x128x128.Slices ![2, 3, 0, 0] S1x1x128x128
  slices_S3x4x128_S1x1x128_2_3_0 : S3x4x128.Slices ![2, 3, 0] S1x1x128
  slices_S3x4x128x128_S1x1x128x128_2_1_0_0 : S3x4x128x128.Slices ![2, 1, 0, 0] S1x1x128x128
  slices_S3x4x128_S1x1x128_2_1_0 : S3x4x128.Slices ![2, 1, 0] S1x1x128
  slices_S3x4x128x128_S1x1x128x128_2_2_0_0 : S3x4x128x128.Slices ![2, 2, 0, 0] S1x1x128x128
  slices_S3x4x128_S1x1x128_2_2_0 : S3x4x128.Slices ![2, 2, 0] S1x1x128
  slices_S128x256_S128x128_0_0 : S128x256.Slices ![0, 0] S128x128
  slices_S128x256_S128x128_0_128 : S128x256.Slices ![0, 128] S128x128
  slices_S128x160_S128x128_0_0 : S128x160.Slices ![0, 0] S128x128
  slices_S128x160_S128x32_0_128 : S128x160.Slices ![0, 128] S128x32
  transposes_S1x128_S128x1_1_0 : S1x128.Transposes [1, 0] S128x1
  transposes_S128x32_S32x128_1_0 : S128x32.Transposes [1, 0] S32x128
  transposes_S64x128_S128x64_1_0 : S64x128.Transposes [1, 0] S128x64
  transposes_S2x64_S64x2_1_0 : S2x64.Transposes [1, 0] S64x2
  shapeCasts_S1_S1x1 : S1.ShapeCasts S1x1
  shapeCasts_S64_S1x64 : S64.ShapeCasts S1x64
  shapeCasts_S2_S1x2 : S2.ShapeCasts S1x2
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x32_S4096x32_0_0 : ∀ a, (![0, 0] : Fin 2 → Nat) a + S4096x32.size a ≤ S4096x32.size a
  h_S4096x32 : 0 < S4096x32.numel
  broadcasts_S1x128_S4096x128 : S1x128.Broadcasts S4096x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  broadcasts_S4096x1_S4096x128 : S4096x1.Broadcasts S4096x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  transposes_S4096x2_p1_0_S2x4096 : S4096x2.Transposes [1, 0] S2x4096
  inb_S2x4096_S2x4096_0_0 : ∀ a, (![0, 0] : Fin 2 → Nat) a + S2x4096.size a ≤ S2x4096.size a
  h_S2x4096 : 0 < S2x4096.numel
  transposes_S2x500000_S500000x2_1_0 : S2x500000.Transposes [1, 0] S500000x2
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x48_S48x128_S5000x128_1_0_0_1_n_n_wf : DotDims.WF S5000x48 S48x128 S5000x128 [1] [0] [0] [1] [] []
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  dot_S4096x32_S32x128_S4096x128_1_0_0_1_n_n_wf : DotDims.WF S4096x32 S32x128 S4096x128 [1] [0] [0] [1] [] []
  dot_S4096x128_S128x64_S4096x64_1_0_0_1_n_n_wf : DotDims.WF S4096x128 S128x64 S4096x64 [1] [0] [0] [1] [] []
  dot_S4096x64_S64x2_S4096x2_1_0_0_1_n_n_wf : DotDims.WF S4096x64 S64x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S50000x48.size a
  hwx1_0 : ∀ i : grid1.Coords, EltTy.bits .f32 = 32 ∨ (Rect.block (s := S50000x48) S5000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S48x128.size a ≤ S48x128.size a
  hwx1_1 : ∀ i : grid1.Coords, EltTy.bits .f32 = 32 ∨ (Rect.block (s := S48x128) S48x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .bf16 = 32 ∨ (Rect.block (s := S128x128) S128x128.size (cc2_transform_8 i) (hinb2_8 i)).WholeWords (EltTy.packing .bf16)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .bf16 = 32 ∨ (Rect.block (s := S128x128) S128x128.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .bf16 = 32 ∨ (Rect.block (s := S128x128) S128x128.size (cc3_transform_8 i) (hinb3_8 i)).WholeWords (EltTy.packing .bf16)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .bf16 = 32 ∨ (Rect.block (s := S128x128) S128x128.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .bf16 = 32 ∨ (Rect.block (s := S128x128) S128x128.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x128.size a ≤ S128x128.size a
  hwx4_9 : ∀ i : grid4.Coords, EltTy.bits .bf16 = 32 ∨ (Rect.block (s := S128x128) S128x128.size (cc4_transform_9 i) (hinb4_9 i)).WholeWords (EltTy.packing .bf16)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S5000x128.size a ≤ S50000x128.size a
  hwx4_10 : ∀ i : grid4.Coords, EltTy.bits .f32 = 32 ∨ (Rect.block (s := S50000x128) S5000x128.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .bf16 = 32 ∨ (Rect.block (s := S128x128) S128x128.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .bf16 = 32 ∨ (Rect.block (s := S128x128) S128x128.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .bf16 = 32 ∨ (Rect.block (s := S128x128) S128x128.size (cc5_transform_7 i) (hinb5_7 i)).WholeWords (EltTy.packing .bf16)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128x128.size a ≤ S128x128.size a
  hwx5_9 : ∀ i : grid5.Coords, EltTy.bits .bf16 = 32 ∨ (Rect.block (s := S128x128) S128x128.size (cc5_transform_9 i) (hinb5_9 i)).WholeWords (EltTy.packing .bf16)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S5000x128.size a ≤ S50000x128.size a
  hwx5_10 : ∀ i : grid5.Coords, EltTy.bits .f32 = 32 ∨ (Rect.block (s := S50000x128) S5000x128.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .bf16 = 32 ∨ (Rect.block (s := S128x128) S128x128.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .bf16 = 32 ∨ (Rect.block (s := S128x128) S128x128.size (cc6_transform_6 i) (hinb6_6 i)).WholeWords (EltTy.packing .bf16)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .bf16 = 32 ∨ (Rect.block (s := S128x128) S128x128.size (cc6_transform_7 i) (hinb6_7 i)).WholeWords (EltTy.packing .bf16)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S128x128.size a ≤ S128x128.size a
  hwx6_9 : ∀ i : grid6.Coords, EltTy.bits .bf16 = 32 ∨ (Rect.block (s := S128x128) S128x128.size (cc6_transform_9 i) (hinb6_9 i)).WholeWords (EltTy.packing .bf16)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S5000x128.size a ≤ S50000x128.size a
  hwx6_10 : ∀ i : grid6.Coords, EltTy.bits .f32 = 32 ∨ (Rect.block (s := S50000x128) S5000x128.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .bf16 = 32 ∨ (Rect.block (s := S128x128) S128x128.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x128.size a ≤ S128x128.size a
  hwx7_6 : ∀ i : grid7.Coords, EltTy.bits .bf16 = 32 ∨ (Rect.block (s := S128x128) S128x128.size (cc7_transform_6 i) (hinb7_6 i)).WholeWords (EltTy.packing .bf16)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128x128.size a ≤ S128x128.size a
  hwx7_7 : ∀ i : grid7.Coords, EltTy.bits .bf16 = 32 ∨ (Rect.block (s := S128x128) S128x128.size (cc7_transform_7 i) (hinb7_7 i)).WholeWords (EltTy.packing .bf16)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S128x128.size a ≤ S128x128.size a
  hwx7_9 : ∀ i : grid7.Coords, EltTy.bits .bf16 = 32 ∨ (Rect.block (s := S128x128) S128x128.size (cc7_transform_9 i) (hinb7_9 i)).WholeWords (EltTy.packing .bf16)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S5000x128.size a ≤ S50000x128.size a
  hwx7_10 : ∀ i : grid7.Coords, EltTy.bits .f32 = 32 ∨ (Rect.block (s := S50000x128) S5000x128.size (cc7_transform_10 i) (hinb7_10 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hstart8_0 : ∀ (i : grid8.Coords) a, cc8_transform_0 i a * S4096x128.size a < S500000x128.size a
  hwx8_0 : ∀ i : grid8.Coords, EltTy.bits .f32 = 32 ∨ (Rect.unit (s := S500000x128) (fun a => cc8_transform_0 i a * S4096x128.size a) (fun a => (Pipeline.Clip.of (cc8_transform_0 i a) (S4096x128.size a) (S500000x128.size a)).extent (S4096x128.size a)) fun a => Pipeline.Clip.inb (Pipeline.Clip.ok_of (hstart8_0 i a))).WholeWords (EltTy.packing .f32)
  hwxs8_0 : ∀ i : grid8.Coords, EltTy.bits .f32 = 32 ∨ (Rect.unit (s := S4096x128) (fun _ => 0) (fun a => (Pipeline.Clip.of (cc8_transform_0 i a) (S4096x128.size a) (S500000x128.size a)).extent (S4096x128.size a)) fun a => (Nat.zero_add _).trans_le (Pipeline.Clip.extent_le (Pipeline.Clip.ok_of (hstart8_0 i a)))).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hstart8_1 : ∀ (i : grid8.Coords) a, cc8_transform_1 i a * S4096x128.size a < S500000x128.size a
  hwx8_1 : ∀ i : grid8.Coords, EltTy.bits .f32 = 32 ∨ (Rect.unit (s := S500000x128) (fun a => cc8_transform_1 i a * S4096x128.size a) (fun a => (Pipeline.Clip.of (cc8_transform_1 i a) (S4096x128.size a) (S500000x128.size a)).extent (S4096x128.size a)) fun a => Pipeline.Clip.inb (Pipeline.Clip.ok_of (hstart8_1 i a))).WholeWords (EltTy.packing .f32)
  hwxs8_1 : ∀ i : grid8.Coords, EltTy.bits .f32 = 32 ∨ (Rect.unit (s := S4096x128) (fun _ => 0) (fun a => (Pipeline.Clip.of (cc8_transform_1 i a) (S4096x128.size a) (S500000x128.size a)).extent (S4096x128.size a)) fun a => (Nat.zero_add _).trans_le (Pipeline.Clip.extent_le (Pipeline.Clip.ok_of (hstart8_1 i a)))).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hstart8_2 : ∀ (i : grid8.Coords) a, cc8_transform_2 i a * S4096x32.size a < S500000x32.size a
  hwx8_2 : ∀ i : grid8.Coords, EltTy.bits .f32 = 32 ∨ (Rect.unit (s := S500000x32) (fun a => cc8_transform_2 i a * S4096x32.size a) (fun a => (Pipeline.Clip.of (cc8_transform_2 i a) (S4096x32.size a) (S500000x32.size a)).extent (S4096x32.size a)) fun a => Pipeline.Clip.inb (Pipeline.Clip.ok_of (hstart8_2 i a))).WholeWords (EltTy.packing .f32)
  hwxs8_2 : ∀ i : grid8.Coords, EltTy.bits .f32 = 32 ∨ (Rect.unit (s := S4096x32) (fun _ => 0) (fun a => (Pipeline.Clip.of (cc8_transform_2 i a) (S4096x32.size a) (S500000x32.size a)).extent (S4096x32.size a)) fun a => (Nat.zero_add _).trans_le (Pipeline.Clip.extent_le (Pipeline.Clip.ok_of (hstart8_2 i a)))).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .bf16 = 32 ∨ (Rect.block (s := S128x128) S128x128.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .bf16 = 32 ∨ (Rect.block (s := S128x128) S128x128.size (cc8_transform_4 i) (hinb8_4 i)).WholeWords (EltTy.packing .bf16)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x1.size a ≤ S128x1.size a
  hwx8_6 : ∀ i : grid8.Coords, EltTy.bits .bf16 = 32 ∨ (Rect.block (s := S128x1) S128x1.size (cc8_transform_6 i) (hinb8_6 i)).WholeWords (EltTy.packing .bf16)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x1.size a ≤ S1x1.size a
  hwx8_7 : ∀ i : grid8.Coords, EltTy.bits .f32 = 32 ∨ (Rect.block (s := S1x1) S1x1.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S128x128.size a ≤ S128x128.size a
  hwx8_8 : ∀ i : grid8.Coords, EltTy.bits .bf16 = 32 ∨ (Rect.block (s := S128x128) S128x128.size (cc8_transform_8 i) (hinb8_8 i)).WholeWords (EltTy.packing .bf16)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S32x128.size a ≤ S32x128.size a
  hwx8_9 : ∀ i : grid8.Coords, EltTy.bits .bf16 = 32 ∨ (Rect.block (s := S32x128) S32x128.size (cc8_transform_9 i) (hinb8_9 i)).WholeWords (EltTy.packing .bf16)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x128.size a ≤ S1x128.size a
  hwx8_10 : ∀ i : grid8.Coords, EltTy.bits .f32 = 32 ∨ (Rect.block (s := S1x128) S1x128.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S128x64.size a ≤ S128x64.size a
  hwx8_11 : ∀ i : grid8.Coords, EltTy.bits .bf16 = 32 ∨ (Rect.block (s := S128x64) S128x64.size (cc8_transform_11 i) (hinb8_11 i)).WholeWords (EltTy.packing .bf16)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S1x64.size a ≤ S1x64.size a
  hwx8_12 : ∀ i : grid8.Coords, EltTy.bits .f32 = 32 ∨ (Rect.block (s := S1x64) S1x64.size (cc8_transform_12 i) (hinb8_12 i)).WholeWords (EltTy.packing .f32)
  hstage8_13 : ∀ j, (stage8_13 j).IsWhole
  nbuf8_13 : grid8.bufCount reads8_13 true = 1
  hreads8_13 : ∀ i i' : grid8.Coords, (∀ a, reads8_13 a = true → i a = i' a) → cc8_transform_13 i = cc8_transform_13 i'
  hinb8_13 : ∀ (i : grid8.Coords) a, (cc8_transform_13 i a + 1) * S64x2.size a ≤ S64x2.size a
  hwx8_13 : ∀ i : grid8.Coords, EltTy.bits .bf16 = 32 ∨ (Rect.block (s := S64x2) S64x2.size (cc8_transform_13 i) (hinb8_13 i)).WholeWords (EltTy.packing .bf16)
  hstage8_14 : ∀ j, (stage8_14 j).IsWhole
  nbuf8_14 : grid8.bufCount reads8_14 true = 1
  hreads8_14 : ∀ i i' : grid8.Coords, (∀ a, reads8_14 a = true → i a = i' a) → cc8_transform_14 i = cc8_transform_14 i'
  hinb8_14 : ∀ (i : grid8.Coords) a, (cc8_transform_14 i a + 1) * S1x2.size a ≤ S1x2.size a
  hwx8_14 : ∀ i : grid8.Coords, EltTy.bits .f32 = 32 ∨ (Rect.block (s := S1x2) S1x2.size (cc8_transform_14 i) (hinb8_14 i)).WholeWords (EltTy.packing .f32)
  hstage8_15 : ∀ j, (stage8_15 j).IsWhole
  nbuf8_15 : grid8.bufCount reads8_15 false = 2
  hreads8_15 : ∀ i i' : grid8.Coords, (∀ a, reads8_15 a = true → i a = i' a) → cc8_transform_15 i = cc8_transform_15 i'
  hstart8_15 : ∀ (i : grid8.Coords) a, cc8_transform_15 i a * S2x4096.size a < S2x500000.size a
  hwx8_15 : ∀ i : grid8.Coords, EltTy.bits .f32 = 32 ∨ (Rect.unit (s := S2x500000) (fun a => cc8_transform_15 i a * S2x4096.size a) (fun a => (Pipeline.Clip.of (cc8_transform_15 i a) (S2x4096.size a) (S2x500000.size a)).extent (S2x4096.size a)) fun a => Pipeline.Clip.inb (Pipeline.Clip.ok_of (hstart8_15 i a))).WholeWords (EltTy.packing .f32)
  hwxs8_15 : ∀ i : grid8.Coords, EltTy.bits .f32 = 32 ∨ (Rect.unit (s := S2x4096) (fun _ => 0) (fun a => (Pipeline.Clip.of (cc8_transform_15 i a) (S2x4096.size a) (S2x500000.size a)).extent (S2x4096.size a)) fun a => (Nat.zero_add _).trans_le (Pipeline.Clip.extent_le (Pipeline.Clip.ok_of (hstart8_15 i a)))).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x48_S48x128_S5000x128_1_0_0_1_n_n : DotDims S5000x48 S48x128 S5000x128 where
  lhsContracting := [1]
  rhsContracting := [0]
  lhsNonContracting := [0]
  rhsNonContracting := [1]
  lhsBatch := []
  rhsBatch := []
  wf := dot_S5000x48_S48x128_S5000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x2_S4096x2_1_0_0_1_n_n : DotDims S4096x64 S64x2 S4096x2 where
  lhsContracting := [1]
  rhsContracting := [0]
  lhsNonContracting := [0]
  rhsNonContracting := [1]
  lhsBatch := []
  rhsBatch := []
  wf := dot_S4096x64_S64x2_S4096x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S48x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v113) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v127) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v134) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v129) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v131) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v135) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v133) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v136) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v150) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v157) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v152) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v154) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v158) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v156) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v159) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v176) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v227) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v136) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v136) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v241) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v248) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v243) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v245) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v249) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v247) S128x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v250) S5000x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v193) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v210) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v159) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v159) S5000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v264) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v271) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v266) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v268) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v272) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v270) S128x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v273) S5000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v290) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v341) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v250) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v250) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v355) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v362) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v357) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v359) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v363) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v361) S128x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v364) S5000x128.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v307) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v324) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v273) S5000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v273) S5000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v378) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v385) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v380) S128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v382) S128x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v386) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v384) S128x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v387) S5000x128.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

abbrev win8_0 : Pipeline.Window sig grid8 :=
  Pipeline.Window.ofSpecClip (Memref.whole main_v398) S4096x128.size cc8_transform_0 reads8_0 false false 2 stage8_0 sem8_0
    hrank8 hreads8_0 hstart8_0 nbuf8_0 (Memref.isWhole_whole _) hwx8_0 hwxs8_0 hstage8_0

abbrev win8_1 : Pipeline.Window sig grid8 :=
  Pipeline.Window.ofSpecClip (Memref.whole main_v405) S4096x128.size cc8_transform_1 reads8_1 false false 2 stage8_1 sem8_1
    hrank8 hreads8_1 hstart8_1 nbuf8_1 (Memref.isWhole_whole _) hwx8_1 hwxs8_1 hstage8_1

abbrev win8_2 : Pipeline.Window sig grid8 :=
  Pipeline.Window.ofSpecClip (Memref.whole main_arg2) S4096x32.size cc8_transform_2 reads8_2 false false 2 stage8_2 sem8_2
    hrank8 hreads8_2 hstart8_2 nbuf8_2 (Memref.isWhole_whole _) hwx8_2 hwxs8_2 hstage8_2

abbrev win8_3 : Pipeline.Window sig grid8 :=
  Pipeline.Window.ofSpec (Memref.whole main_v411) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v413) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v424) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v415) S128x1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v425) S1x1.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v417) S128x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v419) S32x128.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v426) S1x128.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v421) S128x64.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v427) S1x64.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_v423) S64x2.size cc8_transform_13 reads8_13 false true 1 stage8_13 sem8_13
    hrank8 hreads8_13 hinb8_13 nbuf8_13 (Memref.isWhole_whole _) hwx8_13 hstage8_13

abbrev win8_14 : Pipeline.Window sig grid8 :=
  Pipeline.Window.ofSpec (Memref.whole main_v428) S1x2.size cc8_transform_14 reads8_14 false true 1 stage8_14 sem8_14
    hrank8 hreads8_14 hinb8_14 nbuf8_14 (Memref.isWhole_whole _) hwx8_14 hstage8_14

abbrev win8_15 : Pipeline.Window sig grid8 :=
  Pipeline.Window.ofSpecClip (Memref.whole main_v429) S2x4096.size cc8_transform_15 reads8_15 true false 2 stage8_15 sem8_15
    hrank8 hreads8_15 hstart8_15 nbuf8_15 (Memref.isWhole_whole _) hwx8_15 hwxs8_15 hstage8_15

abbrev win8 : Fin 16 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | 14 => win8_14 | 15 => win8_15 | ⟨_ + 16, h⟩ => absurd h (Nat.not_lt.2 (Nat.le_add_left _ _))
abbrev spec8 : Fin 16 → Pipeline.WinSpec sig grid8.rank := fun w => (win8 w).toWinSpec

class Facts : Prop extends Facts₀ where

variable [Facts]
-- ==== ReferenceIdeal.lean ====
abbrev S50000x64 : Shape := ⟨2, ![50000, 64]⟩
abbrev S50000x48 : Shape := ⟨2, ![50000, 48]⟩
abbrev S500000x32 : Shape := ⟨2, ![500000, 32]⟩
abbrev S128x64 : Shape := ⟨2, ![128, 64]⟩
abbrev S128 : Shape := ⟨1, ![128]⟩
abbrev S128x128 : Shape := ⟨2, ![128, 128]⟩
abbrev S128x48 : Shape := ⟨2, ![128, 48]⟩
abbrev S3x4x128x128 : Shape := ⟨4, ![3, 4, 128, 128]⟩
abbrev S3x4x128 : Shape := ⟨3, ![3, 4, 128]⟩
abbrev S128x256 : Shape := ⟨2, ![128, 256]⟩
abbrev S1x128 : Shape := ⟨2, ![1, 128]⟩
abbrev S1 : Shape := ⟨1, ![1]⟩
abbrev S128x160 : Shape := ⟨2, ![128, 160]⟩
abbrev S64x128 : Shape := ⟨2, ![64, 128]⟩
abbrev S64 : Shape := ⟨1, ![64]⟩
abbrev S2x64 : Shape := ⟨2, ![2, 64]⟩
abbrev S2 : Shape := ⟨1, ![2]⟩
abbrev S2x500000 : Shape := ⟨2, ![2, 500000]⟩
abbrev S50000x128 : Shape := ⟨2, ![50000, 128]⟩
abbrev S_ : Shape := ⟨0, ![]⟩
abbrev S48x128 : Shape := ⟨2, ![48, 128]⟩
abbrev S1x1x128x128 : Shape := ⟨4, ![1, 1, 128, 128]⟩
abbrev S1x1x128 : Shape := ⟨3, ![1, 1, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S500000x256 : Shape := ⟨2, ![500000, 256]⟩
abbrev S256x128 : Shape := ⟨2, ![256, 128]⟩
abbrev S128x1 : Shape := ⟨2, ![128, 1]⟩
abbrev S1x1 : Shape := ⟨2, ![1, 1]⟩
abbrev S500000x160 : Shape := ⟨2, ![500000, 160]⟩
abbrev S160x128 : Shape := ⟨2, ![160, 128]⟩
abbrev S500000x64 : Shape := ⟨2, ![500000, 64]⟩
abbrev S1x64 : Shape := ⟨2, ![1, 64]⟩
abbrev S64x2 : Shape := ⟨2, ![64, 2]⟩
abbrev S500000x2 : Shape := ⟨2, ![500000, 2]⟩
abbrev S1x2 : Shape := ⟨2, ![1, 2]⟩

abbrev nBuf : Space → Nat
  | .hbm => 690
  | .vmem => 0
  | .smem => 0
  | _ => 0

abbrev hbmTy0_0 (i : Nat) : BufTy := match i % 128 with
  | 0 => ⟨S50000x64, .f32⟩
  | 1 => ⟨S50000x48, .f32⟩
  | 2 => ⟨S500000x32, .f32⟩
  | 3 => ⟨S128x64, .f32⟩
  | 4 => ⟨S128, .f32⟩
  | 5 => ⟨S128x128, .f32⟩
  | 6 => ⟨S128, .f32⟩
  | 7 => ⟨S128x48, .f32⟩
  | 8 => ⟨S128, .f32⟩
  | 9 => ⟨S128x128, .f32⟩
  | 10 => ⟨S128, .f32⟩
  | 11 => ⟨S3x4x128x128, .f32⟩
  | 12 => ⟨S3x4x128, .f32⟩
  | 13 => ⟨S3x4x128x128, .f32⟩
  | 14 => ⟨S128x256, .f32⟩
  | 15 => ⟨S128, .f32⟩
  | 16 => ⟨S1x128, .f32⟩
  | 17 => ⟨S1, .f32⟩
  | 18 => ⟨S128x160, .f32⟩
  | 19 => ⟨S128, .f32⟩
  | 20 => ⟨S64x128, .f32⟩
  | 21 => ⟨S64, .f32⟩
  | 22 => ⟨S2x64, .f32⟩
  | 23 => ⟨S2, .f32⟩
  | 24 => ⟨S2x500000, .i32⟩
  | 25 => ⟨S2x500000, .i32⟩
  | 26 => ⟨S2x500000, .i32⟩
  | 27 => ⟨S2x500000, .i32⟩
  | 28 => ⟨S64x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S128x128, .f32⟩
  | 37 => ⟨S50000x128, .f32⟩
  | 38 => ⟨S1x128, .f32⟩
  | 39 => ⟨S50000x128, .f32⟩
  | 40 => ⟨S50000x128, .f32⟩
  | 41 => ⟨S48x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S128x128, .f32⟩
  | 50 => ⟨S50000x128, .f32⟩
  | 51 => ⟨S1x128, .f32⟩
  | 52 => ⟨S50000x128, .f32⟩
  | 53 => ⟨S50000x128, .f32⟩
  | 54 => ⟨S1x1x128x128, .f32⟩
  | 55 => ⟨S128x128, .f32⟩
  | 56 => ⟨S1x1x128, .f32⟩
  | 57 => ⟨S128, .f32⟩
  | 58 => ⟨S1x1x128x128, .f32⟩
  | 59 => ⟨S128x128, .f32⟩
  | 60 => ⟨S1x500000, .i32⟩
  | 61 => ⟨S500000, .i32⟩
  | 62 => ⟨S1x500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x128, .f32⟩
  | 73 => ⟨S_, .f32⟩
  | 74 => ⟨S50000x128, .f32⟩
  | 75 => ⟨S500000x1, .i32⟩
  | 76 => ⟨S50000x128, .f32⟩
  | 77 => ⟨S_, .f32⟩
  | 78 => ⟨S500000, .f32⟩
  | 79 => ⟨S_, .f32⟩
  | 80 => ⟨S50000, .f32⟩
  | 81 => ⟨S500000x1, .i32⟩
  | 82 => ⟨S50000, .f32⟩
  | 83 => ⟨S_, .f32⟩
  | 84 => ⟨S50000, .f32⟩
  | 85 => ⟨S50000, .f32⟩
  | 86 => ⟨S50000x1, .f32⟩
  | 87 => ⟨S50000x128, .f32⟩
  | 88 => ⟨S50000x128, .f32⟩
  | 89 => ⟨S128x128, .f32⟩
  | 90 => ⟨S50000x128, .f32⟩
  | 91 => ⟨S1x128, .f32⟩
  | 92 => ⟨S50000x128, .f32⟩
  | 93 => ⟨S50000x128, .f32⟩
  | 94 => ⟨S128x128, .f32⟩
  | 95 => ⟨S50000x128, .f32⟩
  | 96 => ⟨S50000x128, .f32⟩
  | 97 => ⟨S1x1x128x128, .f32⟩
  | 98 => ⟨S128x128, .f32⟩
  | 99 => ⟨S1x1x128, .f32⟩
  | 100 => ⟨S128, .f32⟩
  | 101 => ⟨S1x1x128x128, .f32⟩
  | 102 => ⟨S128x128, .f32⟩
  | 103 => ⟨S1x500000, .i32⟩
  | 104 => ⟨S500000, .i32⟩
  | 105 => ⟨S1x500000, .i32⟩
  | 106 => ⟨S500000, .i32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x128, .f32⟩
  | 116 => ⟨S_, .f32⟩
  | 117 => ⟨S50000x128, .f32⟩
  | 118 => ⟨S500000x1, .i32⟩
  | 119 => ⟨S50000x128, .f32⟩
  | 120 => ⟨S_, .f32⟩
  | 121 => ⟨S500000, .f32⟩
  | 122 => ⟨S_, .f32⟩
  | 123 => ⟨S50000, .f32⟩
  | 124 => ⟨S500000x1, .i32⟩
  | 125 => ⟨S50000, .f32⟩
  | 126 => ⟨S_, .f32⟩
  | 127 => ⟨S50000, .f32⟩
  | _ => ⟨S50000x64, .f32⟩

abbrev hbmTy0_1 (i : Nat) : BufTy := match i % 128 with
  | 0 => ⟨S50000, .f32⟩
  | 1 => ⟨S50000x1, .f32⟩
  | 2 => ⟨S50000x128, .f32⟩
  | 3 => ⟨S50000x128, .f32⟩
  | 4 => ⟨S128x128, .f32⟩
  | 5 => ⟨S50000x128, .f32⟩
  | 6 => ⟨S1x128, .f32⟩
  | 7 => ⟨S50000x128, .f32⟩
  | 8 => ⟨S50000x128, .f32⟩
  | 9 => ⟨S128x128, .f32⟩
  | 10 => ⟨S50000x128, .f32⟩
  | 11 => ⟨S50000x128, .f32⟩
  | 12 => ⟨S1x1x128x128, .f32⟩
  | 13 => ⟨S128x128, .f32⟩
  | 14 => ⟨S1x1x128, .f32⟩
  | 15 => ⟨S128, .f32⟩
  | 16 => ⟨S1x1x128x128, .f32⟩
  | 17 => ⟨S128x128, .f32⟩
  | 18 => ⟨S1x500000, .i32⟩
  | 19 => ⟨S500000, .i32⟩
  | 20 => ⟨S1x500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .f32⟩
  | 32 => ⟨S50000x128, .f32⟩
  | 33 => ⟨S500000x1, .i32⟩
  | 34 => ⟨S50000x128, .f32⟩
  | 35 => ⟨S_, .f32⟩
  | 36 => ⟨S500000, .f32⟩
  | 37 => ⟨S_, .f32⟩
  | 38 => ⟨S50000, .f32⟩
  | 39 => ⟨S500000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S128x128, .f32⟩
  | 48 => ⟨S50000x128, .f32⟩
  | 49 => ⟨S1x128, .f32⟩
  | 50 => ⟨S50000x128, .f32⟩
  | 51 => ⟨S50000x128, .f32⟩
  | 52 => ⟨S128x128, .f32⟩
  | 53 => ⟨S50000x128, .f32⟩
  | 54 => ⟨S50000x128, .f32⟩
  | 55 => ⟨S1x1x128x128, .f32⟩
  | 56 => ⟨S128x128, .f32⟩
  | 57 => ⟨S1x1x128, .f32⟩
  | 58 => ⟨S128, .f32⟩
  | 59 => ⟨S1x1x128x128, .f32⟩
  | 60 => ⟨S128x128, .f32⟩
  | 61 => ⟨S1x500000, .i32⟩
  | 62 => ⟨S500000, .i32⟩
  | 63 => ⟨S1x500000, .i32⟩
  | 64 => ⟨S500000, .i32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x128, .f32⟩
  | 74 => ⟨S_, .f32⟩
  | 75 => ⟨S50000x128, .f32⟩
  | 76 => ⟨S500000x1, .i32⟩
  | 77 => ⟨S50000x128, .f32⟩
  | 78 => ⟨S_, .f32⟩
  | 79 => ⟨S500000, .f32⟩
  | 80 => ⟨S_, .f32⟩
  | 81 => ⟨S50000, .f32⟩
  | 82 => ⟨S500000x1, .i32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x128, .f32⟩
  | 89 => ⟨S50000x128, .f32⟩
  | 90 => ⟨S128x128, .f32⟩
  | 91 => ⟨S50000x128, .f32⟩
  | 92 => ⟨S1x128, .f32⟩
  | 93 => ⟨S50000x128, .f32⟩
  | 94 => ⟨S50000x128, .f32⟩
  | 95 => ⟨S128x128, .f32⟩
  | 96 => ⟨S50000x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S1x1x128x128, .f32⟩
  | 113 => ⟨S128x128, .f32⟩
  | 114 => ⟨S1x1x128, .f32⟩
  | 115 => ⟨S128, .f32⟩
  | 116 => ⟨S1x1x128x128, .f32⟩
  | 117 => ⟨S128x128, .f32⟩
  | 118 => ⟨S1x500000, .i32⟩
  | 119 => ⟨S500000, .i32⟩
  | 120 => ⟨S1x500000, .i32⟩
  | 121 => ⟨S500000, .i32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S50000x64, .f32⟩

abbrev hbmTy0_2 (i : Nat) : BufTy := match i % 128 with
  | 0 => ⟨S500000, .i32⟩
  | 1 => ⟨S500000x1, .i32⟩
  | 2 => ⟨S500000x128, .f32⟩
  | 3 => ⟨S_, .f32⟩
  | 4 => ⟨S50000x128, .f32⟩
  | 5 => ⟨S500000x1, .i32⟩
  | 6 => ⟨S50000x128, .f32⟩
  | 7 => ⟨S_, .f32⟩
  | 8 => ⟨S500000, .f32⟩
  | 9 => ⟨S_, .f32⟩
  | 10 => ⟨S50000, .f32⟩
  | 11 => ⟨S500000x1, .i32⟩
  | 12 => ⟨S50000, .f32⟩
  | 13 => ⟨S_, .f32⟩
  | 14 => ⟨S50000, .f32⟩
  | 15 => ⟨S50000, .f32⟩
  | 16 => ⟨S50000x1, .f32⟩
  | 17 => ⟨S50000x128, .f32⟩
  | 18 => ⟨S50000x128, .f32⟩
  | 19 => ⟨S128x128, .f32⟩
  | 20 => ⟨S50000x128, .f32⟩
  | 21 => ⟨S1x128, .f32⟩
  | 22 => ⟨S50000x128, .f32⟩
  | 23 => ⟨S50000x128, .f32⟩
  | 24 => ⟨S128x128, .f32⟩
  | 25 => ⟨S50000x128, .f32⟩
  | 26 => ⟨S50000x128, .f32⟩
  | 27 => ⟨S1x1x128x128, .f32⟩
  | 28 => ⟨S128x128, .f32⟩
  | 29 => ⟨S1x1x128, .f32⟩
  | 30 => ⟨S128, .f32⟩
  | 31 => ⟨S1x1x128x128, .f32⟩
  | 32 => ⟨S128x128, .f32⟩
  | 33 => ⟨S1x500000, .i32⟩
  | 34 => ⟨S500000, .i32⟩
  | 35 => ⟨S1x500000, .i32⟩
  | 36 => ⟨S500000, .i32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x128, .f32⟩
  | 46 => ⟨S_, .f32⟩
  | 47 => ⟨S50000x128, .f32⟩
  | 48 => ⟨S500000x1, .i32⟩
  | 49 => ⟨S50000x128, .f32⟩
  | 50 => ⟨S_, .f32⟩
  | 51 => ⟨S500000, .f32⟩
  | 52 => ⟨S_, .f32⟩
  | 53 => ⟨S50000, .f32⟩
  | 54 => ⟨S500000x1, .i32⟩
  | 55 => ⟨S50000, .f32⟩
  | 56 => ⟨S_, .f32⟩
  | 57 => ⟨S50000, .f32⟩
  | 58 => ⟨S50000, .f32⟩
  | 59 => ⟨S50000x1, .f32⟩
  | 60 => ⟨S50000x128, .f32⟩
  | 61 => ⟨S50000x128, .f32⟩
  | 62 => ⟨S128x128, .f32⟩
  | 63 => ⟨S50000x128, .f32⟩
  | 64 => ⟨S1x128, .f32⟩
  | 65 => ⟨S50000x128, .f32⟩
  | 66 => ⟨S50000x128, .f32⟩
  | 67 => ⟨S128x128, .f32⟩
  | 68 => ⟨S50000x128, .f32⟩
  | 69 => ⟨S50000x128, .f32⟩
  | 70 => ⟨S1x1x128x128, .f32⟩
  | 71 => ⟨S128x128, .f32⟩
  | 72 => ⟨S1x1x128, .f32⟩
  | 73 => ⟨S128, .f32⟩
  | 74 => ⟨S1x1x128x128, .f32⟩
  | 75 => ⟨S128x128, .f32⟩
  | 76 => ⟨S1x500000, .i32⟩
  | 77 => ⟨S500000, .i32⟩
  | 78 => ⟨S1x500000, .i32⟩
  | 79 => ⟨S500000, .i32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S500000x128, .f32⟩
  | 89 => ⟨S_, .f32⟩
  | 90 => ⟨S50000x128, .f32⟩
  | 91 => ⟨S500000x1, .i32⟩
  | 92 => ⟨S50000x128, .f32⟩
  | 93 => ⟨S_, .f32⟩
  | 94 => ⟨S500000, .f32⟩
  | 95 => ⟨S_, .f32⟩
  | 96 => ⟨S50000, .f32⟩
  | 97 => ⟨S500000x1, .i32⟩
  | 98 => ⟨S50000, .f32⟩
  | 99 => ⟨S_, .f32⟩
  | 100 => ⟨S50000, .f32⟩
  | 101 => ⟨S50000, .f32⟩
  | 102 => ⟨S50000x1, .f32⟩
  | 103 => ⟨S50000x128, .f32⟩
  | 104 => ⟨S50000x128, .f32⟩
  | 105 => ⟨S128x128, .f32⟩
  | 106 => ⟨S50000x128, .f32⟩
  | 107 => ⟨S1x128, .f32⟩
  | 108 => ⟨S50000x128, .f32⟩
  | 109 => ⟨S50000x128, .f32⟩
  | 110 => ⟨S128x128, .f32⟩
  | 111 => ⟨S50000x128, .f32⟩
  | 112 => ⟨S50000x128, .f32⟩
  | 113 => ⟨S1x1x128x128, .f32⟩
  | 114 => ⟨S128x128, .f32⟩
  | 115 => ⟨S1x1x128, .f32⟩
  | 116 => ⟨S128, .f32⟩
  | 117 => ⟨S1x1x128x128, .f32⟩
  | 118 => ⟨S128x128, .f32⟩
  | 119 => ⟨S1x500000, .i32⟩
  | 120 => ⟨S500000, .i32⟩
  | 121 => ⟨S1x500000, .i32⟩
  | 122 => ⟨S500000, .i32⟩
  | 123 => ⟨S_, .i32⟩
  | 124 => ⟨S500000, .i32⟩
  | 125 => ⟨S500000, .i1⟩
  | 126 => ⟨S_, .i32⟩
  | 127 => ⟨S500000, .i32⟩
  | _ => ⟨S50000x64, .f32⟩

abbrev hbmTy0_3 (i : Nat) : BufTy := match i % 128 with
  | 0 => ⟨S500000, .i32⟩
  | 1 => ⟨S500000, .i32⟩
  | 2 => ⟨S500000x1, .i32⟩
  | 3 => ⟨S500000x128, .f32⟩
  | 4 => ⟨S_, .f32⟩
  | 5 => ⟨S50000x128, .f32⟩
  | 6 => ⟨S500000x1, .i32⟩
  | 7 => ⟨S50000x128, .f32⟩
  | 8 => ⟨S_, .f32⟩
  | 9 => ⟨S500000, .f32⟩
  | 10 => ⟨S_, .f32⟩
  | 11 => ⟨S50000, .f32⟩
  | 12 => ⟨S500000x1, .i32⟩
  | 13 => ⟨S50000, .f32⟩
  | 14 => ⟨S_, .f32⟩
  | 15 => ⟨S50000, .f32⟩
  | 16 => ⟨S50000, .f32⟩
  | 17 => ⟨S50000x1, .f32⟩
  | 18 => ⟨S50000x128, .f32⟩
  | 19 => ⟨S50000x128, .f32⟩
  | 20 => ⟨S128x128, .f32⟩
  | 21 => ⟨S50000x128, .f32⟩
  | 22 => ⟨S1x128, .f32⟩
  | 23 => ⟨S50000x128, .f32⟩
  | 24 => ⟨S50000x128, .f32⟩
  | 25 => ⟨S128x128, .f32⟩
  | 26 => ⟨S50000x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S1x1x128x128, .f32⟩
  | 45 => ⟨S128x128, .f32⟩
  | 46 => ⟨S1x1x128, .f32⟩
  | 47 => ⟨S128, .f32⟩
  | 48 => ⟨S1x1x128x128, .f32⟩
  | 49 => ⟨S128x128, .f32⟩
  | 50 => ⟨S1x500000, .i32⟩
  | 51 => ⟨S500000, .i32⟩
  | 52 => ⟨S1x500000, .i32⟩
  | 53 => ⟨S500000, .i32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x128, .f32⟩
  | 63 => ⟨S_, .f32⟩
  | 64 => ⟨S50000x128, .f32⟩
  | 65 => ⟨S500000x1, .i32⟩
  | 66 => ⟨S50000x128, .f32⟩
  | 67 => ⟨S_, .f32⟩
  | 68 => ⟨S500000, .f32⟩
  | 69 => ⟨S_, .f32⟩
  | 70 => ⟨S50000, .f32⟩
  | 71 => ⟨S500000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x128, .f32⟩
  | 78 => ⟨S50000x128, .f32⟩
  | 79 => ⟨S128x128, .f32⟩
  | 80 => ⟨S50000x128, .f32⟩
  | 81 => ⟨S1x128, .f32⟩
  | 82 => ⟨S50000x128, .f32⟩
  | 83 => ⟨S50000x128, .f32⟩
  | 84 => ⟨S128x128, .f32⟩
  | 85 => ⟨S50000x128, .f32⟩
  | 86 => ⟨S50000x128, .f32⟩
  | 87 => ⟨S1x1x128x128, .f32⟩
  | 88 => ⟨S128x128, .f32⟩
  | 89 => ⟨S1x1x128, .f32⟩
  | 90 => ⟨S128, .f32⟩
  | 91 => ⟨S1x1x128x128, .f32⟩
  | 92 => ⟨S128x128, .f32⟩
  | 93 => ⟨S1x500000, .i32⟩
  | 94 => ⟨S500000, .i32⟩
  | 95 => ⟨S1x500000, .i32⟩
  | 96 => ⟨S500000, .i32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x128, .f32⟩
  | 106 => ⟨S_, .f32⟩
  | 107 => ⟨S50000x128, .f32⟩
  | 108 => ⟨S500000x1, .i32⟩
  | 109 => ⟨S50000x128, .f32⟩
  | 110 => ⟨S_, .f32⟩
  | 111 => ⟨S500000, .f32⟩
  | 112 => ⟨S_, .f32⟩
  | 113 => ⟨S50000, .f32⟩
  | 114 => ⟨S500000x1, .i32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S128x128, .f32⟩
  | 123 => ⟨S50000x128, .f32⟩
  | 124 => ⟨S1x128, .f32⟩
  | 125 => ⟨S50000x128, .f32⟩
  | 126 => ⟨S50000x128, .f32⟩
  | 127 => ⟨S128x128, .f32⟩
  | _ => ⟨S50000x64, .f32⟩

abbrev hbmTy0_4 (i : Nat) : BufTy := match i % 128 with
  | 0 => ⟨S50000x128, .f32⟩
  | 1 => ⟨S50000x128, .f32⟩
  | 2 => ⟨S1x1x128x128, .f32⟩
  | 3 => ⟨S128x128, .f32⟩
  | 4 => ⟨S1x1x128, .f32⟩
  | 5 => ⟨S128, .f32⟩
  | 6 => ⟨S1x1x128x128, .f32⟩
  | 7 => ⟨S128x128, .f32⟩
  | 8 => ⟨S1x500000, .i32⟩
  | 9 => ⟨S500000, .i32⟩
  | 10 => ⟨S1x500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x128, .f32⟩
  | 21 => ⟨S_, .f32⟩
  | 22 => ⟨S50000x128, .f32⟩
  | 23 => ⟨S500000x1, .i32⟩
  | 24 => ⟨S50000x128, .f32⟩
  | 25 => ⟨S_, .f32⟩
  | 26 => ⟨S500000, .f32⟩
  | 27 => ⟨S_, .f32⟩
  | 28 => ⟨S50000, .f32⟩
  | 29 => ⟨S500000x1, .i32⟩
  | 30 => ⟨S50000, .f32⟩
  | 31 => ⟨S_, .f32⟩
  | 32 => ⟨S50000, .f32⟩
  | 33 => ⟨S50000, .f32⟩
  | 34 => ⟨S50000x1, .f32⟩
  | 35 => ⟨S50000x128, .f32⟩
  | 36 => ⟨S50000x128, .f32⟩
  | 37 => ⟨S128x128, .f32⟩
  | 38 => ⟨S50000x128, .f32⟩
  | 39 => ⟨S1x128, .f32⟩
  | 40 => ⟨S50000x128, .f32⟩
  | 41 => ⟨S50000x128, .f32⟩
  | 42 => ⟨S128x128, .f32⟩
  | 43 => ⟨S50000x128, .f32⟩
  | 44 => ⟨S50000x128, .f32⟩
  | 45 => ⟨S1x1x128x128, .f32⟩
  | 46 => ⟨S128x128, .f32⟩
  | 47 => ⟨S1x1x128, .f32⟩
  | 48 => ⟨S128, .f32⟩
  | 49 => ⟨S1x1x128x128, .f32⟩
  | 50 => ⟨S128x128, .f32⟩
  | 51 => ⟨S1x500000, .i32⟩
  | 52 => ⟨S500000, .i32⟩
  | 53 => ⟨S1x500000, .i32⟩
  | 54 => ⟨S500000, .i32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .f32⟩
  | 65 => ⟨S50000x128, .f32⟩
  | 66 => ⟨S500000x1, .i32⟩
  | 67 => ⟨S50000x128, .f32⟩
  | 68 => ⟨S_, .f32⟩
  | 69 => ⟨S500000, .f32⟩
  | 70 => ⟨S_, .f32⟩
  | 71 => ⟨S50000, .f32⟩
  | 72 => ⟨S500000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S128x128, .f32⟩
  | 81 => ⟨S50000x128, .f32⟩
  | 82 => ⟨S1x128, .f32⟩
  | 83 => ⟨S50000x128, .f32⟩
  | 84 => ⟨S50000x128, .f32⟩
  | 85 => ⟨S128x128, .f32⟩
  | 86 => ⟨S50000x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S1x500000, .i32⟩
  | 105 => ⟨S500000, .i32⟩
  | 106 => ⟨S1x500000, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x128, .f32⟩
  | 126 => ⟨S500000x256, .f32⟩
  | 127 => ⟨S256x128, .f32⟩
  | _ => ⟨S50000x64, .f32⟩

abbrev hbmTy0_5 (i : Nat) : BufTy := match i % 128 with
  | 0 => ⟨S500000x128, .f32⟩
  | 1 => ⟨S1x128, .f32⟩
  | 2 => ⟨S500000x128, .f32⟩
  | 3 => ⟨S500000x128, .f32⟩
  | 4 => ⟨S_, .f32⟩
  | 5 => ⟨S500000x128, .f32⟩
  | 6 => ⟨S500000x128, .f32⟩
  | 7 => ⟨S128x1, .f32⟩
  | 8 => ⟨S500000x1, .f32⟩
  | 9 => ⟨S1x1, .f32⟩
  | 10 => ⟨S500000x1, .f32⟩
  | 11 => ⟨S500000x1, .f32⟩
  | 12 => ⟨S500000x1, .f32⟩
  | 13 => ⟨S500000x1, .f32⟩
  | 14 => ⟨S_, .f32⟩
  | 15 => ⟨S500000x1, .f32⟩
  | 16 => ⟨S500000x1, .f32⟩
  | 17 => ⟨S_, .f32⟩
  | 18 => ⟨S500000x1, .f32⟩
  | 19 => ⟨S500000x1, .f32⟩
  | 20 => ⟨S500000x128, .f32⟩
  | 21 => ⟨S500000x128, .f32⟩
  | 22 => ⟨S_, .f32⟩
  | 23 => ⟨S500000x1, .f32⟩
  | 24 => ⟨S500000x1, .f32⟩
  | 25 => ⟨S500000x128, .f32⟩
  | 26 => ⟨S500000x128, .f32⟩
  | 27 => ⟨S500000x128, .f32⟩
  | 28 => ⟨S500000x160, .f32⟩
  | 29 => ⟨S160x128, .f32⟩
  | 30 => ⟨S500000x128, .f32⟩
  | 31 => ⟨S1x128, .f32⟩
  | 32 => ⟨S500000x128, .f32⟩
  | 33 => ⟨S500000x128, .f32⟩
  | 34 => ⟨S_, .f32⟩
  | 35 => ⟨S500000x128, .f32⟩
  | 36 => ⟨S500000x128, .f32⟩
  | 37 => ⟨S128x64, .f32⟩
  | 38 => ⟨S500000x64, .f32⟩
  | 39 => ⟨S1x64, .f32⟩
  | 40 => ⟨S500000x64, .f32⟩
  | 41 => ⟨S500000x64, .f32⟩
  | 42 => ⟨S_, .f32⟩
  | 43 => ⟨S500000x64, .f32⟩
  | 44 => ⟨S500000x64, .f32⟩
  | 45 => ⟨S64x2, .f32⟩
  | 46 => ⟨S500000x2, .f32⟩
  | 47 => ⟨S1x2, .f32⟩
  | 48 => ⟨S500000x2, .f32⟩
  | 49 => ⟨S500000x2, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call0_cst : Ref sig .tc := ⟨.hbm, 33, rfl⟩
abbrev main_call0_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_call1_cst : Ref sig .tc := ⟨.hbm, 46, rfl⟩
abbrev main_call1_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c : Ref sig .tc := ⟨.hbm, 64, rfl⟩
abbrev main_v32 : Ref sig .tc := ⟨.hbm, 65, rfl⟩
abbrev main_v33 : Ref sig .tc := ⟨.hbm, 66, rfl⟩
abbrev main_c_0 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_1 : Ref sig .tc := ⟨.hbm, 77, rfl⟩
abbrev main_v42 : Ref sig .tc := ⟨.hbm, 78, rfl⟩
abbrev main_cst_2 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_3 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_4 : Ref sig .tc := ⟨.hbm, 107, rfl⟩
abbrev main_v69 : Ref sig .tc := ⟨.hbm, 108, rfl⟩
abbrev main_v70 : Ref sig .tc := ⟨.hbm, 109, rfl⟩
abbrev main_c_5 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_6 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_7 : Ref sig .tc := ⟨.hbm, 120, rfl⟩
abbrev main_v79 : Ref sig .tc := ⟨.hbm, 121, rfl⟩
abbrev main_cst_8 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_9 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_10 : Ref sig .tc := ⟨.hbm, 150, rfl⟩
abbrev main_v106 : Ref sig .tc := ⟨.hbm, 151, rfl⟩
abbrev main_v107 : Ref sig .tc := ⟨.hbm, 152, rfl⟩
abbrev main_c_11 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_12 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_13 : Ref sig .tc := ⟨.hbm, 163, rfl⟩
abbrev main_v116 : Ref sig .tc := ⟨.hbm, 164, rfl⟩
abbrev main_cst_14 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_15 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_16 : Ref sig .tc := ⟨.hbm, 193, rfl⟩
abbrev main_v143 : Ref sig .tc := ⟨.hbm, 194, rfl⟩
abbrev main_v144 : Ref sig .tc := ⟨.hbm, 195, rfl⟩
abbrev main_c_17 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_18 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_19 : Ref sig .tc := ⟨.hbm, 206, rfl⟩
abbrev main_v153 : Ref sig .tc := ⟨.hbm, 207, rfl⟩
abbrev main_cst_20 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_21 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_22 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_cst_23 : Ref sig .tc := ⟨.hbm, 231, rfl⟩
abbrev main_v174 : Ref sig .tc := ⟨.hbm, 232, rfl⟩
abbrev main_v175 : Ref sig .tc := ⟨.hbm, 233, rfl⟩
abbrev main_call2_cst : Ref sig .tc := ⟨.hbm, 234, rfl⟩
abbrev main_call2_v0 : Ref sig .tc := ⟨.hbm, 235, rfl⟩
abbrev main_v176 : Ref sig .tc := ⟨.hbm, 236, rfl⟩
abbrev main_call3_cst : Ref sig .tc := ⟨.hbm, 237, rfl⟩
abbrev main_call3_v0 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_c_24 : Ref sig .tc := ⟨.hbm, 250, rfl⟩
abbrev main_v188 : Ref sig .tc := ⟨.hbm, 251, rfl⟩
abbrev main_v189 : Ref sig .tc := ⟨.hbm, 252, rfl⟩
abbrev main_c_25 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_cst_26 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_cst_27 : Ref sig .tc := ⟨.hbm, 263, rfl⟩
abbrev main_v198 : Ref sig .tc := ⟨.hbm, 264, rfl⟩
abbrev main_cst_28 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_cst_29 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_c_30 : Ref sig .tc := ⟨.hbm, 293, rfl⟩
abbrev main_v225 : Ref sig .tc := ⟨.hbm, 294, rfl⟩
abbrev main_v226 : Ref sig .tc := ⟨.hbm, 295, rfl⟩
abbrev main_c_31 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_cst_32 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_cst_33 : Ref sig .tc := ⟨.hbm, 306, rfl⟩
abbrev main_v235 : Ref sig .tc := ⟨.hbm, 307, rfl⟩
abbrev main_cst_34 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_cst_35 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_c_36 : Ref sig .tc := ⟨.hbm, 336, rfl⟩
abbrev main_v262 : Ref sig .tc := ⟨.hbm, 337, rfl⟩
abbrev main_v263 : Ref sig .tc := ⟨.hbm, 338, rfl⟩
abbrev main_c_37 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_cst_38 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_cst_39 : Ref sig .tc := ⟨.hbm, 349, rfl⟩
abbrev main_v272 : Ref sig .tc := ⟨.hbm, 350, rfl⟩
abbrev main_cst_40 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_cst_41 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_c_42 : Ref sig .tc := ⟨.hbm, 379, rfl⟩
abbrev main_v299 : Ref sig .tc := ⟨.hbm, 380, rfl⟩
abbrev main_v300 : Ref sig .tc := ⟨.hbm, 381, rfl⟩
abbrev main_c_43 : Ref sig .tc := ⟨.hbm, 382, rfl⟩
abbrev main_v301 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_cst_44 : Ref sig .tc := ⟨.hbm, 388, rfl⟩
abbrev main_v306 : Ref sig .tc := ⟨.hbm, 389, rfl⟩
abbrev main_v307 : Ref sig .tc := ⟨.hbm, 390, rfl⟩
abbrev main_v308 : Ref sig .tc := ⟨.hbm, 391, rfl⟩
abbrev main_cst_45 : Ref sig .tc := ⟨.hbm, 392, rfl⟩
abbrev main_v309 : Ref sig .tc := ⟨.hbm, 393, rfl⟩
abbrev main_cst_46 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_cst_47 : Ref sig .tc := ⟨.hbm, 398, rfl⟩
abbrev main_v313 : Ref sig .tc := ⟨.hbm, 399, rfl⟩
abbrev main_v314 : Ref sig .tc := ⟨.hbm, 400, rfl⟩
abbrev main_v315 : Ref sig .tc := ⟨.hbm, 401, rfl⟩
abbrev main_v316 : Ref sig .tc := ⟨.hbm, 402, rfl⟩
abbrev main_v317 : Ref sig .tc := ⟨.hbm, 403, rfl⟩
abbrev main_v318 : Ref sig .tc := ⟨.hbm, 404, rfl⟩
abbrev main_v319 : Ref sig .tc := ⟨.hbm, 405, rfl⟩
abbrev main_v320 : Ref sig .tc := ⟨.hbm, 406, rfl⟩
abbrev main_v321 : Ref sig .tc := ⟨.hbm, 407, rfl⟩
abbrev main_v322 : Ref sig .tc := ⟨.hbm, 408, rfl⟩
abbrev main_v323 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_cst_48 : Ref sig .tc := ⟨.hbm, 413, rfl⟩
abbrev main_v327 : Ref sig .tc := ⟨.hbm, 414, rfl⟩
abbrev main_v328 : Ref sig .tc := ⟨.hbm, 415, rfl⟩
abbrev main_v329 : Ref sig .tc := ⟨.hbm, 416, rfl⟩
abbrev main_cst_49 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_call4_cst : Ref sig .tc := ⟨.hbm, 421, rfl⟩
abbrev main_call4_v0 : Ref sig .tc := ⟨.hbm, 422, rfl⟩
abbrev main_v333 : Ref sig .tc := ⟨.hbm, 423, rfl⟩
abbrev main_v334 : Ref sig .tc := ⟨.hbm, 424, rfl⟩
abbrev main_call5_cst : Ref sig .tc := ⟨.hbm, 425, rfl⟩
abbrev main_call5_v0 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_c_50 : Ref sig .tc := ⟨.hbm, 438, rfl⟩
abbrev main_v346 : Ref sig .tc := ⟨.hbm, 439, rfl⟩
abbrev main_v347 : Ref sig .tc := ⟨.hbm, 440, rfl⟩
abbrev main_c_51 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_cst_52 : Ref sig .tc := ⟨.hbm, 447, rfl⟩
abbrev main_v353 : Ref sig .tc := ⟨.hbm, 448, rfl⟩
abbrev main_v354 : Ref sig .tc := ⟨.hbm, 449, rfl⟩
abbrev main_v355 : Ref sig .tc := ⟨.hbm, 450, rfl⟩
abbrev main_cst_53 : Ref sig .tc := ⟨.hbm, 451, rfl⟩
abbrev main_v356 : Ref sig .tc := ⟨.hbm, 452, rfl⟩
abbrev main_cst_54 : Ref sig .tc := ⟨.hbm, 453, rfl⟩
abbrev main_v357 : Ref sig .tc := ⟨.hbm, 454, rfl⟩
abbrev main_v358 : Ref sig .tc := ⟨.hbm, 455, rfl⟩
abbrev main_v359 : Ref sig .tc := ⟨.hbm, 456, rfl⟩
abbrev main_cst_55 : Ref sig .tc := ⟨.hbm, 457, rfl⟩
abbrev main_v360 : Ref sig .tc := ⟨.hbm, 458, rfl⟩
abbrev main_v361 : Ref sig .tc := ⟨.hbm, 459, rfl⟩
abbrev main_v362 : Ref sig .tc := ⟨.hbm, 460, rfl⟩
abbrev main_v363 : Ref sig .tc := ⟨.hbm, 461, rfl⟩
abbrev main_v364 : Ref sig .tc := ⟨.hbm, 462, rfl⟩
abbrev main_v365 : Ref sig .tc := ⟨.hbm, 463, rfl⟩
abbrev main_v366 : Ref sig .tc := ⟨.hbm, 464, rfl⟩
abbrev main_v367 : Ref sig .tc := ⟨.hbm, 465, rfl⟩
abbrev main_v368 : Ref sig .tc := ⟨.hbm, 466, rfl⟩
abbrev main_v369 : Ref sig .tc := ⟨.hbm, 467, rfl⟩
abbrev main_v370 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_v376 : Ref sig .tc := ⟨.hbm, 474, rfl⟩
abbrev main_v377 : Ref sig .tc := ⟨.hbm, 475, rfl⟩
abbrev main_v378 : Ref sig .tc := ⟨.hbm, 476, rfl⟩
abbrev main_v379 : Ref sig .tc := ⟨.hbm, 477, rfl⟩
abbrev main_v380 : Ref sig .tc := ⟨.hbm, 478, rfl⟩
abbrev main_v381 : Ref sig .tc := ⟨.hbm, 479, rfl⟩
abbrev main_v382 : Ref sig .tc := ⟨.hbm, 480, rfl⟩
abbrev main_c_56 : Ref sig .tc := ⟨.hbm, 481, rfl⟩
abbrev main_v383 : Ref sig .tc := ⟨.hbm, 482, rfl⟩
abbrev main_v384 : Ref sig .tc := ⟨.hbm, 483, rfl⟩
abbrev main_c_57 : Ref sig .tc := ⟨.hbm, 484, rfl⟩
abbrev main_v385 : Ref sig .tc := ⟨.hbm, 485, rfl⟩
abbrev main_v386 : Ref sig .tc := ⟨.hbm, 486, rfl⟩
abbrev main_v387 : Ref sig .tc := ⟨.hbm, 487, rfl⟩
abbrev main_v388 : Ref sig .tc := ⟨.hbm, 488, rfl⟩
abbrev main_v389 : Ref sig .tc := ⟨.hbm, 489, rfl⟩
abbrev main_cst_58 : Ref sig .tc := ⟨.hbm, 490, rfl⟩
abbrev main_v390 : Ref sig .tc := ⟨.hbm, 491, rfl⟩
abbrev main_v391 : Ref sig .tc := ⟨.hbm, 492, rfl⟩
abbrev main_v392 : Ref sig .tc := ⟨.hbm, 493, rfl⟩
abbrev main_cst_59 : Ref sig .tc := ⟨.hbm, 494, rfl⟩
abbrev main_v393 : Ref sig .tc := ⟨.hbm, 495, rfl⟩
abbrev main_cst_60 : Ref sig .tc := ⟨.hbm, 496, rfl⟩
abbrev main_v394 : Ref sig .tc := ⟨.hbm, 497, rfl⟩
abbrev main_v395 : Ref sig .tc := ⟨.hbm, 498, rfl⟩
abbrev main_v396 : Ref sig .tc := ⟨.hbm, 499, rfl⟩
abbrev main_cst_61 : Ref sig .tc := ⟨.hbm, 500, rfl⟩
abbrev main_v397 : Ref sig .tc := ⟨.hbm, 501, rfl⟩
abbrev main_v398 : Ref sig .tc := ⟨.hbm, 502, rfl⟩
abbrev main_v399 : Ref sig .tc := ⟨.hbm, 503, rfl⟩
abbrev main_v400 : Ref sig .tc := ⟨.hbm, 504, rfl⟩
abbrev main_v401 : Ref sig .tc := ⟨.hbm, 505, rfl⟩
abbrev main_v402 : Ref sig .tc := ⟨.hbm, 506, rfl⟩
abbrev main_v403 : Ref sig .tc := ⟨.hbm, 507, rfl⟩
abbrev main_v404 : Ref sig .tc := ⟨.hbm, 508, rfl⟩
abbrev main_v405 : Ref sig .tc := ⟨.hbm, 509, rfl⟩
abbrev main_v406 : Ref sig .tc := ⟨.hbm, 510, rfl⟩
abbrev main_v407 : Ref sig .tc := ⟨.hbm, 511, rfl⟩
abbrev main_v408 : Ref sig .tc := ⟨.hbm, 512, rfl⟩
abbrev main_v409 : Ref sig .tc := ⟨.hbm, 513, rfl⟩
abbrev main_v410 : Ref sig .tc := ⟨.hbm, 514, rfl⟩
abbrev main_v411 : Ref sig .tc := ⟨.hbm, 515, rfl⟩
abbrev main_v412 : Ref sig .tc := ⟨.hbm, 516, rfl⟩
abbrev main_v413 : Ref sig .tc := ⟨.hbm, 517, rfl⟩
abbrev main_v414 : Ref sig .tc := ⟨.hbm, 518, rfl⟩
abbrev main_v415 : Ref sig .tc := ⟨.hbm, 519, rfl⟩
abbrev main_v416 : Ref sig .tc := ⟨.hbm, 520, rfl⟩
abbrev main_v417 : Ref sig .tc := ⟨.hbm, 521, rfl⟩
abbrev main_v418 : Ref sig .tc := ⟨.hbm, 522, rfl⟩
abbrev main_v419 : Ref sig .tc := ⟨.hbm, 523, rfl⟩
abbrev main_c_62 : Ref sig .tc := ⟨.hbm, 524, rfl⟩
abbrev main_v420 : Ref sig .tc := ⟨.hbm, 525, rfl⟩
abbrev main_v421 : Ref sig .tc := ⟨.hbm, 526, rfl⟩
abbrev main_c_63 : Ref sig .tc := ⟨.hbm, 527, rfl⟩
abbrev main_v422 : Ref sig .tc := ⟨.hbm, 528, rfl⟩
abbrev main_v423 : Ref sig .tc := ⟨.hbm, 529, rfl⟩
abbrev main_v424 : Ref sig .tc := ⟨.hbm, 530, rfl⟩
abbrev main_v425 : Ref sig .tc := ⟨.hbm, 531, rfl⟩
abbrev main_v426 : Ref sig .tc := ⟨.hbm, 532, rfl⟩
abbrev main_cst_64 : Ref sig .tc := ⟨.hbm, 533, rfl⟩
abbrev main_v427 : Ref sig .tc := ⟨.hbm, 534, rfl⟩
abbrev main_v428 : Ref sig .tc := ⟨.hbm, 535, rfl⟩
abbrev main_v429 : Ref sig .tc := ⟨.hbm, 536, rfl⟩
abbrev main_cst_65 : Ref sig .tc := ⟨.hbm, 537, rfl⟩
abbrev main_v430 : Ref sig .tc := ⟨.hbm, 538, rfl⟩
abbrev main_cst_66 : Ref sig .tc := ⟨.hbm, 539, rfl⟩
abbrev main_v431 : Ref sig .tc := ⟨.hbm, 540, rfl⟩
abbrev main_v432 : Ref sig .tc := ⟨.hbm, 541, rfl⟩
abbrev main_v433 : Ref sig .tc := ⟨.hbm, 542, rfl⟩
abbrev main_cst_67 : Ref sig .tc := ⟨.hbm, 543, rfl⟩
abbrev main_v434 : Ref sig .tc := ⟨.hbm, 544, rfl⟩
abbrev main_v435 : Ref sig .tc := ⟨.hbm, 545, rfl⟩
abbrev main_v436 : Ref sig .tc := ⟨.hbm, 546, rfl⟩
abbrev main_v437 : Ref sig .tc := ⟨.hbm, 547, rfl⟩
abbrev main_v438 : Ref sig .tc := ⟨.hbm, 548, rfl⟩
abbrev main_v439 : Ref sig .tc := ⟨.hbm, 549, rfl⟩
abbrev main_v440 : Ref sig .tc := ⟨.hbm, 550, rfl⟩
abbrev main_v441 : Ref sig .tc := ⟨.hbm, 551, rfl⟩
abbrev main_v442 : Ref sig .tc := ⟨.hbm, 552, rfl⟩
abbrev main_v443 : Ref sig .tc := ⟨.hbm, 553, rfl⟩
abbrev main_v444 : Ref sig .tc := ⟨.hbm, 554, rfl⟩
abbrev main_v445 : Ref sig .tc := ⟨.hbm, 555, rfl⟩
abbrev main_v446 : Ref sig .tc := ⟨.hbm, 556, rfl⟩
abbrev main_v447 : Ref sig .tc := ⟨.hbm, 557, rfl⟩
abbrev main_v448 : Ref sig .tc := ⟨.hbm, 558, rfl⟩
abbrev main_v449 : Ref sig .tc := ⟨.hbm, 559, rfl⟩
abbrev main_v450 : Ref sig .tc := ⟨.hbm, 560, rfl⟩
abbrev main_v451 : Ref sig .tc := ⟨.hbm, 561, rfl⟩
abbrev main_v452 : Ref sig .tc := ⟨.hbm, 562, rfl⟩
abbrev main_v453 : Ref sig .tc := ⟨.hbm, 563, rfl⟩
abbrev main_v454 : Ref sig .tc := ⟨.hbm, 564, rfl⟩
abbrev main_v455 : Ref sig .tc := ⟨.hbm, 565, rfl⟩
abbrev main_v456 : Ref sig .tc := ⟨.hbm, 566, rfl⟩
abbrev main_c_68 : Ref sig .tc := ⟨.hbm, 567, rfl⟩
abbrev main_v457 : Ref sig .tc := ⟨.hbm, 568, rfl⟩
abbrev main_v458 : Ref sig .tc := ⟨.hbm, 569, rfl⟩
abbrev main_c_69 : Ref sig .tc := ⟨.hbm, 570, rfl⟩
abbrev main_v459 : Ref sig .tc := ⟨.hbm, 571, rfl⟩
abbrev main_v460 : Ref sig .tc := ⟨.hbm, 572, rfl⟩
abbrev main_v461 : Ref sig .tc := ⟨.hbm, 573, rfl⟩
abbrev main_v462 : Ref sig .tc := ⟨.hbm, 574, rfl⟩
abbrev main_v463 : Ref sig .tc := ⟨.hbm, 575, rfl⟩
abbrev main_cst_70 : Ref sig .tc := ⟨.hbm, 576, rfl⟩
abbrev main_v464 : Ref sig .tc := ⟨.hbm, 577, rfl⟩
abbrev main_v465 : Ref sig .tc := ⟨.hbm, 578, rfl⟩
abbrev main_v466 : Ref sig .tc := ⟨.hbm, 579, rfl⟩
abbrev main_cst_71 : Ref sig .tc := ⟨.hbm, 580, rfl⟩
abbrev main_v467 : Ref sig .tc := ⟨.hbm, 581, rfl⟩
abbrev main_cst_72 : Ref sig .tc := ⟨.hbm, 582, rfl⟩
abbrev main_v468 : Ref sig .tc := ⟨.hbm, 583, rfl⟩
abbrev main_v469 : Ref sig .tc := ⟨.hbm, 584, rfl⟩
abbrev main_v470 : Ref sig .tc := ⟨.hbm, 585, rfl⟩
abbrev main_cst_73 : Ref sig .tc := ⟨.hbm, 586, rfl⟩
abbrev main_v471 : Ref sig .tc := ⟨.hbm, 587, rfl⟩
abbrev main_v472 : Ref sig .tc := ⟨.hbm, 588, rfl⟩
abbrev main_v473 : Ref sig .tc := ⟨.hbm, 589, rfl⟩
abbrev main_v474 : Ref sig .tc := ⟨.hbm, 590, rfl⟩
abbrev main_v475 : Ref sig .tc := ⟨.hbm, 591, rfl⟩
abbrev main_v476 : Ref sig .tc := ⟨.hbm, 592, rfl⟩
abbrev main_v477 : Ref sig .tc := ⟨.hbm, 593, rfl⟩
abbrev main_v478 : Ref sig .tc := ⟨.hbm, 594, rfl⟩
abbrev main_v479 : Ref sig .tc := ⟨.hbm, 595, rfl⟩
abbrev main_v480 : Ref sig .tc := ⟨.hbm, 596, rfl⟩
abbrev main_v481 : Ref sig .tc := ⟨.hbm, 597, rfl⟩
abbrev main_v482 : Ref sig .tc := ⟨.hbm, 598, rfl⟩
abbrev main_v483 : Ref sig .tc := ⟨.hbm, 599, rfl⟩
abbrev main_v484 : Ref sig .tc := ⟨.hbm, 600, rfl⟩
abbrev main_cst_74 : Ref sig .tc := ⟨.hbm, 601, rfl⟩
abbrev main_v485 : Ref sig .tc := ⟨.hbm, 602, rfl⟩
abbrev main_v486 : Ref sig .tc := ⟨.hbm, 603, rfl⟩
abbrev main_v487 : Ref sig .tc := ⟨.hbm, 604, rfl⟩
abbrev main_cst_75 : Ref sig .tc := ⟨.hbm, 605, rfl⟩
abbrev main_v488 : Ref sig .tc := ⟨.hbm, 606, rfl⟩
abbrev main_v489 : Ref sig .tc := ⟨.hbm, 607, rfl⟩
abbrev main_v490 : Ref sig .tc := ⟨.hbm, 608, rfl⟩
abbrev main_call6_cst : Ref sig .tc := ⟨.hbm, 609, rfl⟩
abbrev main_call6_v0 : Ref sig .tc := ⟨.hbm, 610, rfl⟩
abbrev main_v491 : Ref sig .tc := ⟨.hbm, 611, rfl⟩
abbrev main_v492 : Ref sig .tc := ⟨.hbm, 612, rfl⟩
abbrev main_call7_cst : Ref sig .tc := ⟨.hbm, 613, rfl⟩
abbrev main_call7_v0 : Ref sig .tc := ⟨.hbm, 614, rfl⟩
abbrev main_v493 : Ref sig .tc := ⟨.hbm, 615, rfl⟩
abbrev main_v494 : Ref sig .tc := ⟨.hbm, 616, rfl⟩
abbrev main_v495 : Ref sig .tc := ⟨.hbm, 617, rfl⟩
abbrev main_v496 : Ref sig .tc := ⟨.hbm, 618, rfl⟩
abbrev main_v497 : Ref sig .tc := ⟨.hbm, 619, rfl⟩
abbrev main_c_76 : Ref sig .tc := ⟨.hbm, 620, rfl⟩
abbrev main_v498 : Ref sig .tc := ⟨.hbm, 621, rfl⟩
abbrev main_v499 : Ref sig .tc := ⟨.hbm, 622, rfl⟩
abbrev main_c_77 : Ref sig .tc := ⟨.hbm, 623, rfl⟩
abbrev main_v500 : Ref sig .tc := ⟨.hbm, 624, rfl⟩
abbrev main_v501 : Ref sig .tc := ⟨.hbm, 625, rfl⟩
abbrev main_v502 : Ref sig .tc := ⟨.hbm, 626, rfl⟩
abbrev main_v503 : Ref sig .tc := ⟨.hbm, 627, rfl⟩
abbrev main_v504 : Ref sig .tc := ⟨.hbm, 628, rfl⟩
abbrev main_c_78 : Ref sig .tc := ⟨.hbm, 629, rfl⟩
abbrev main_v505 : Ref sig .tc := ⟨.hbm, 630, rfl⟩
abbrev main_v506 : Ref sig .tc := ⟨.hbm, 631, rfl⟩
abbrev main_c_79 : Ref sig .tc := ⟨.hbm, 632, rfl⟩
abbrev main_v507 : Ref sig .tc := ⟨.hbm, 633, rfl⟩
abbrev main_v508 : Ref sig .tc := ⟨.hbm, 634, rfl⟩
abbrev main_v509 : Ref sig .tc := ⟨.hbm, 635, rfl⟩
abbrev main_v510 : Ref sig .tc := ⟨.hbm, 636, rfl⟩
abbrev main_v511 : Ref sig .tc := ⟨.hbm, 637, rfl⟩
abbrev main_v512 : Ref sig .tc := ⟨.hbm, 638, rfl⟩
abbrev main_v513 : Ref sig .tc := ⟨.hbm, 639, rfl⟩
abbrev main_v514 : Ref sig .tc := ⟨.hbm, 640, rfl⟩
abbrev main_v515 : Ref sig .tc := ⟨.hbm, 641, rfl⟩
abbrev main_v516 : Ref sig .tc := ⟨.hbm, 642, rfl⟩
abbrev main_v517 : Ref sig .tc := ⟨.hbm, 643, rfl⟩
abbrev main_call8_cst : Ref sig .tc := ⟨.hbm, 644, rfl⟩
abbrev main_call8_v0 : Ref sig .tc := ⟨.hbm, 645, rfl⟩
abbrev main_v518 : Ref sig .tc := ⟨.hbm, 646, rfl⟩
abbrev main_v519 : Ref sig .tc := ⟨.hbm, 647, rfl⟩
abbrev main_v520 : Ref sig .tc := ⟨.hbm, 648, rfl⟩
abbrev main_v521 : Ref sig .tc := ⟨.hbm, 649, rfl⟩
abbrev main_v522 : Ref sig .tc := ⟨.hbm, 650, rfl⟩
abbrev main_v523 : Ref sig .tc := ⟨.hbm, 651, rfl⟩
abbrev main_v524 : Ref sig .tc := ⟨.hbm, 652, rfl⟩
abbrev main_v525 : Ref sig .tc := ⟨.hbm, 653, rfl⟩
abbrev main_cst_80 : Ref sig .tc := ⟨.hbm, 654, rfl⟩
abbrev main_v526 : Ref sig .tc := ⟨.hbm, 655, rfl⟩
abbrev main_v527 : Ref sig .tc := ⟨.hbm, 656, rfl⟩
abbrev main_cst_81 : Ref sig .tc := ⟨.hbm, 657, rfl⟩
abbrev main_v528 : Ref sig .tc := ⟨.hbm, 658, rfl⟩
abbrev main_v529 : Ref sig .tc := ⟨.hbm, 659, rfl⟩
abbrev main_v530 : Ref sig .tc := ⟨.hbm, 660, rfl⟩
abbrev main_v531 : Ref sig .tc := ⟨.hbm, 661, rfl⟩
abbrev main_cst_82 : Ref sig .tc := ⟨.hbm, 662, rfl⟩
abbrev main_v532 : Ref sig .tc := ⟨.hbm, 663, rfl⟩
abbrev main_v533 : Ref sig .tc := ⟨.hbm, 664, rfl⟩
abbrev main_v534 : Ref sig .tc := ⟨.hbm, 665, rfl⟩
abbrev main_v535 : Ref sig .tc := ⟨.hbm, 666, rfl⟩
abbrev main_v536 : Ref sig .tc := ⟨.hbm, 667, rfl⟩
abbrev main_v537 : Ref sig .tc := ⟨.hbm, 668, rfl⟩
abbrev main_v538 : Ref sig .tc := ⟨.hbm, 669, rfl⟩
abbrev main_v539 : Ref sig .tc := ⟨.hbm, 670, rfl⟩
abbrev main_v540 : Ref sig .tc := ⟨.hbm, 671, rfl⟩
abbrev main_v541 : Ref sig .tc := ⟨.hbm, 672, rfl⟩
abbrev main_v542 : Ref sig .tc := ⟨.hbm, 673, rfl⟩
abbrev main_call9_cst : Ref sig .tc := ⟨.hbm, 674, rfl⟩
abbrev main_call9_v0 : Ref sig .tc := ⟨.hbm, 675, rfl⟩
abbrev main_v543 : Ref sig .tc := ⟨.hbm, 676, rfl⟩
abbrev main_v544 : Ref sig .tc := ⟨.hbm, 677, rfl⟩
abbrev main_v545 : Ref sig .tc := ⟨.hbm, 678, rfl⟩
abbrev main_v546 : Ref sig .tc := ⟨.hbm, 679, rfl⟩
abbrev main_v547 : Ref sig .tc := ⟨.hbm, 680, rfl⟩
abbrev main_v548 : Ref sig .tc := ⟨.hbm, 681, rfl⟩
abbrev main_call10_cst : Ref sig .tc := ⟨.hbm, 682, rfl⟩
abbrev main_call10_v0 : Ref sig .tc := ⟨.hbm, 683, rfl⟩
abbrev main_v549 : Ref sig .tc := ⟨.hbm, 684, rfl⟩
abbrev main_v550 : Ref sig .tc := ⟨.hbm, 685, rfl⟩
abbrev main_v551 : Ref sig .tc := ⟨.hbm, 686, rfl⟩
abbrev main_v552 : Ref sig .tc := ⟨.hbm, 687, rfl⟩
abbrev main_v553 : Ref sig .tc := ⟨.hbm, 688, rfl⟩
abbrev main_v554 : Ref sig .tc := ⟨.hbm, 689, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  transposes_S128x48_S48x128_1_0 : S128x48.Transposes [1, 0] S48x128
  slices_S3x4x128x128_S1x1x128x128_0_0_0_0 : S3x4x128x128.Slices ![0, 0, 0, 0] S1x1x128x128
  shapeCasts_S1x1x128x128_S128x128 : S1x1x128x128.ShapeCasts S128x128
  slices_S3x4x128_S1x1x128_0_0_0 : S3x4x128.Slices ![0, 0, 0] S1x1x128
  shapeCasts_S1x1x128_S128 : S1x1x128.ShapeCasts S128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x4x128x128_S1x1x128x128_0_1_0_0 : S3x4x128x128.Slices ![0, 1, 0, 0] S1x1x128x128
  slices_S3x4x128_S1x1x128_0_1_0 : S3x4x128.Slices ![0, 1, 0] S1x1x128
  slices_S3x4x128x128_S1x1x128x128_0_2_0_0 : S3x4x128x128.Slices ![0, 2, 0, 0] S1x1x128x128
  slices_S3x4x128_S1x1x128_0_2_0 : S3x4x128.Slices ![0, 2, 0] S1x1x128
  slices_S3x4x128x128_S1x1x128x128_0_3_0_0 : S3x4x128x128.Slices ![0, 3, 0, 0] S1x1x128x128
  slices_S3x4x128_S1x1x128_0_3_0 : S3x4x128.Slices ![0, 3, 0] S1x1x128
  slices_S3x4x128x128_S1x1x128x128_1_0_0_0 : S3x4x128x128.Slices ![1, 0, 0, 0] S1x1x128x128
  slices_S3x4x128_S1x1x128_1_0_0 : S3x4x128.Slices ![1, 0, 0] S1x1x128
  slices_S3x4x128x128_S1x1x128x128_1_1_0_0 : S3x4x128x128.Slices ![1, 1, 0, 0] S1x1x128x128
  slices_S3x4x128_S1x1x128_1_1_0 : S3x4x128.Slices ![1, 1, 0] S1x1x128
  slices_S3x4x128x128_S1x1x128x128_1_2_0_0 : S3x4x128x128.Slices ![1, 2, 0, 0] S1x1x128x128
  slices_S3x4x128_S1x1x128_1_2_0 : S3x4x128.Slices ![1, 2, 0] S1x1x128
  slices_S3x4x128x128_S1x1x128x128_1_3_0_0 : S3x4x128x128.Slices ![1, 3, 0, 0] S1x1x128x128
  slices_S3x4x128_S1x1x128_1_3_0 : S3x4x128.Slices ![1, 3, 0] S1x1x128
  slices_S3x4x128x128_S1x1x128x128_2_0_0_0 : S3x4x128x128.Slices ![2, 0, 0, 0] S1x1x128x128
  slices_S3x4x128_S1x1x128_2_0_0 : S3x4x128.Slices ![2, 0, 0] S1x1x128
  slices_S3x4x128x128_S1x1x128x128_2_1_0_0 : S3x4x128x128.Slices ![2, 1, 0, 0] S1x1x128x128
  slices_S3x4x128_S1x1x128_2_1_0 : S3x4x128.Slices ![2, 1, 0] S1x1x128
  slices_S3x4x128x128_S1x1x128x128_2_2_0_0 : S3x4x128x128.Slices ![2, 2, 0, 0] S1x1x128x128
  slices_S3x4x128_S1x1x128_2_2_0 : S3x4x128.Slices ![2, 2, 0] S1x1x128
  slices_S3x4x128x128_S1x1x128x128_2_3_0_0 : S3x4x128x128.Slices ![2, 3, 0, 0] S1x1x128x128
  slices_S3x4x128_S1x1x128_2_3_0 : S3x4x128.Slices ![2, 3, 0] S1x1x128
  concatenates_S500000x128_S500000x128_S500000x256_d1 : Shape.Concatenates [S500000x128, S500000x128] S500000x256 1
  transposes_S128x256_S256x128_1_0 : S128x256.Transposes [1, 0] S256x128
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  concatenates_S500000x128_S500000x32_S500000x160_d1 : Shape.Concatenates [S500000x128, S500000x32] S500000x160 1
  transposes_S128x160_S160x128_1_0 : S128x160.Transposes [1, 0] S160x128
  transposes_S64x128_S128x64_1_0 : S64x128.Transposes [1, 0] S128x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  transposes_S2x64_S64x2_1_0 : S2x64.Transposes [1, 0] S64x2
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  dot_S50000x48_S48x128_S50000x128_1_0_0_1_n_n_wf : DotDims.WF S50000x48 S48x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []
  dot_S500000x160_S160x128_S500000x128_1_0_0_1_n_n_wf : DotDims.WF S500000x160 S160x128 S500000x128 [1] [0] [0] [1] [] []
  dot_S500000x128_S128x64_S500000x64_1_0_0_1_n_n_wf : DotDims.WF S500000x128 S128x64 S500000x64 [1] [0] [0] [1] [] []
  dot_S500000x64_S64x2_S500000x2_1_0_0_1_n_n_wf : DotDims.WF S500000x64 S64x2 S500000x2 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x48_S48x128_S50000x128_1_0_0_1_n_n : DotDims S50000x48 S48x128 S50000x128 where
  lhsContracting := [1]
  rhsContracting := [0]
  lhsNonContracting := [0]
  rhsNonContracting := [1]
  lhsBatch := []
  rhsBatch := []
  wf := dot_S50000x48_S48x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def dot_S500000x160_S160x128_S500000x128_1_0_0_1_n_n : DotDims S500000x160 S160x128 S500000x128 where
  lhsContracting := [1]
  rhsContracting := [0]
  lhsNonContracting := [0]
  rhsNonContracting := [1]
  lhsBatch := []
  rhsBatch := []
  wf := dot_S500000x160_S160x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x2_S500000x2_1_0_0_1_n_n : DotDims S500000x64 S64x2 S500000x2 where
  lhsContracting := [1]
  rhsContracting := [0]
  lhsNonContracting := [0]
  rhsNonContracting := [1]
  lhsBatch := []
  rhsBatch := []
  wf := dot_S500000x64_S64x2_S500000x2_1_0_0_1_n_n_wf

class Facts : Prop extends Facts₀ where

variable [Facts]
-- ==== Proof.KHost.lean ====
import proofs.«166951_j44444321579084_2_alg».proof.Proof.Gen.Kernel.Launch

/-! # What the host pieces of @main allocate and write

@main's host operations come in 18 pieces (a stretch between two kernel calls, cut where it is long). Each
operation writes exactly one buffer, its result, and allocates none. For every piece we record the list of the
references its operations write; a reference outside that list keeps its contents through the piece
(`StableHlo.after_of_writes_sub`), which is how an argument array is read back to the launch memory. -/

set_option maxRecDepth 8192

noncomputable section

namespace Cert.Kernel.Hand

open Cert.Kernel Cert.Kernel.Gen
open Idealize.ShloMosaic Idealize.ShloMosaic.TcCoe

variable {F : FTy → Type} [FloatOps F]

/-- One operation's result is among the listed references: what it writes is the singleton of its result
    (`StableHlo.*_writes`), and the result is found in the list by evaluation. -/
local macro "result_listed" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))

/-- No operation of `main_part0_ops0` allocates a buffer. -/
theorem main_part0_ops0_fresh : (main_part0_ops0 : List (HloOp τ sig (Elt F))).Forall fun op => op.fresh = ∅ := by
  simp only [List.Forall]; repeat' constructor
/-- The references the 4 operations of `main_part0_ops0` write, in order. -/
abbrev main_part0_ops0_W : List (Ref sig .tc) :=
  [main_v0, main_v1, main_v2, main_v3]
/-- Each operation's result is in that list. -/
theorem main_part0_ops0_writes : (main_part0_ops0 : List (HloOp τ sig (Elt F))).Forall fun op =>
    op.writes ⊆ (main_part0_ops0_W.map (Proc.devRef (τ := τ) .tc)).toFinset := by
  simp only [List.Forall]; repeat' apply And.intro
  all_goals result_listed

/-- No operation of `main_part0_ops1` allocates a buffer. -/
theorem main_part0_ops1_fresh : (main_part0_ops1 : List (HloOp τ sig (Elt F))).Forall fun op => op.fresh = ∅ := by
  simp only [List.Forall]; repeat' constructor
/-- The references the 4 operations of `main_part0_ops1` write, in order. -/
abbrev main_part0_ops1_W : List (Ref sig .tc) :=
  [main_v5, main_v6, main_v7, main_v8]
/-- Each operation's result is in that list. -/
theorem main_part0_ops1_writes : (main_part0_ops1 : List (HloOp τ sig (Elt F))).Forall fun op =>
    op.writes ⊆ (main_part0_ops1_W.map (Proc.devRef (τ := τ) .tc)).toFinset := by
  simp only [List.Forall]; repeat' apply And.intro
  all_goals result_listed

/-- No operation of `main_part0_ops2` allocates a buffer. -/
theorem main_part0_ops2_fresh : (main_part0_ops2 : List (HloOp τ sig (Elt F))).Forall fun op => op.fresh = ∅ := by
  simp only [List.Forall]; repeat' constructor
/-- The references the 50 operations of `main_part0_ops2` write, in order. -/
abbrev main_part0_ops2_W : List (Ref sig .tc) :=
  [main_v10, main_v11, main_c, main_v12, main_c_0, main_v13, main_v14, main_v15, main_v16, main_cst,
   main_v17, main_v18, main_v19, main_v20, main_c_1, main_v21, main_c_2, main_v22, main_v23, main_v24,
   main_v25, main_cst_3, main_v26, main_v27, main_v28, main_v29, main_c_4, main_v30, main_c_5, main_v31,
   main_v32, main_v33, main_v34, main_cst_6, main_v35, main_v36, main_v37, main_v38, main_c_7, main_v39,
   main_c_8, main_v40, main_v41, main_v42, main_v43, main_cst_9, main_v44, main_v45, main_v46, main_v47]
/-- Each operation's result is in that list. -/
theorem main_part0_ops2_writes : (main_part0_ops2 : List (HloOp τ sig (Elt F))).Forall fun op =>
    op.writes ⊆ (main_part0_ops2_W.map (Proc.devRef (τ := τ) .tc)).toFinset := by
  simp only [List.Forall]; repeat' apply And.intro
  all_goals result_listed

/-- No operation of `main_part1_ops0` allocates a buffer. -/
theorem main_part1_ops0_fresh : (main_part1_ops0 : List (HloOp τ sig (Elt F))).Forall fun op => op.fresh = ∅ := by
  simp only [List.Forall]; repeat' constructor
/-- The references the 60 operations of `main_part1_ops0` write, in order. -/
abbrev main_part1_ops0_W : List (Ref sig .tc) :=
  [main_v48, main_v49, main_c_10, main_v50, main_v51, main_c_11, main_v52, main_v53, main_v54, main_v55,
   main_v56, main_cst_12, main_v57, main_v58, main_v59, main_v60, main_v61, main_v62, main_v63, main_v64,
   main_v65, main_v66, main_c_13, main_v67, main_v68, main_c_14, main_v69, main_v70, main_v71, main_v72,
   main_v73, main_cst_15, main_v74, main_v75, main_v76, main_v77, main_v78, main_v79, main_v80, main_v81,
   main_v82, main_v83, main_c_16, main_v84, main_v85, main_c_17, main_v86, main_v87, main_v88, main_v89,
   main_v90, main_cst_18, main_v91, main_v92, main_v93, main_v94, main_v95, main_v96, main_v97, main_v98]
/-- Each operation's result is in that list. -/
theorem main_part1_ops0_writes : (main_part1_ops0 : List (HloOp τ sig (Elt F))).Forall fun op =>
    op.writes ⊆ (main_part1_ops0_W.map (Proc.devRef (τ := τ) .tc)).toFinset := by
  simp only [List.Forall]; repeat' apply And.intro
  all_goals result_listed

/-- No operation of `main_part2_ops0` allocates a buffer. -/
theorem main_part2_ops0_fresh : (main_part2_ops0 : List (HloOp τ sig (Elt F))).Forall fun op => op.fresh = ∅ := by
  simp only [List.Forall]; repeat' constructor
/-- The references the 40 operations of `main_part2_ops0` write, in order. -/
abbrev main_part2_ops0_W : List (Ref sig .tc) :=
  [main_v99, main_v100, main_c_19, main_v101, main_v102, main_c_20, main_v103, main_v104, main_v105, main_v106,
   main_v107, main_cst_21, main_v108, main_v109, main_v110, main_v111, main_v112, main_v113, main_v114, main_v115,
   main_v116, main_v117, main_v118, main_v119, main_v120, main_v121, main_v122, main_v123, main_v124, main_v125,
   main_v126, main_v127, main_v128, main_v129, main_v130, main_v131, main_v132, main_v133, main_v134, main_v135]
/-- Each operation's result is in that list. -/
theorem main_part2_ops0_writes : (main_part2_ops0 : List (HloOp τ sig (Elt F))).Forall fun op =>
    op.writes ⊆ (main_part2_ops0_W.map (Proc.devRef (τ := τ) .tc)).toFinset := by
  simp only [List.Forall]; repeat' apply And.intro
  all_goals result_listed

/-- No operation of `main_part2_ops1` allocates a buffer. -/
theorem main_part2_ops1_fresh : (main_part2_ops1 : List (HloOp τ sig (Elt F))).Forall fun op => op.fresh = ∅ := by
  simp only [List.Forall]; repeat' constructor
/-- The references the 19 operations of `main_part2_ops1` write, in order. -/
abbrev main_part2_ops1_W : List (Ref sig .tc) :=
  [main_v137, main_v138, main_v139, main_v140, main_v141, main_v142, main_v143, main_v144, main_v145, main_v146,
   main_v147, main_v148, main_v149, main_v150, main_v151, main_v152, main_v153, main_v154, main_v155]
/-- Each operation's result is in that list. -/
theorem main_part2_ops1_writes : (main_part2_ops1 : List (HloOp τ sig (Elt F))).Forall fun op =>
    op.writes ⊆ (main_part2_ops1_W.map (Proc.devRef (τ := τ) .tc)).toFinset := by
  simp only [List.Forall]; repeat' apply And.intro
  all_goals result_listed

/-- No operation of `main_part3_ops0` allocates a buffer. -/
theorem main_part3_ops0_fresh : (main_part3_ops0 : List (HloOp τ sig (Elt F))).Forall fun op => op.fresh = ∅ := by
  simp only [List.Forall]; repeat' constructor
/-- The references the 3 operations of `main_part3_ops0` write, in order. -/
abbrev main_part3_ops0_W : List (Ref sig .tc) :=
  [main_v156, main_v157, main_v158]
/-- Each operation's result is in that list. -/
theorem main_part3_ops0_writes : (main_part3_ops0 : List (HloOp τ sig (Elt F))).Forall fun op =>
    op.writes ⊆ (main_part3_ops0_W.map (Proc.devRef (τ := τ) .tc)).toFinset := by
  simp only [List.Forall]; repeat' apply And.intro
  all_goals result_listed

/-- No operation of `main_part3_ops1` allocates a buffer. -/
theorem main_part3_ops1_fresh : (main_part3_ops1 : List (HloOp τ sig (Elt F))).Forall fun op => op.fresh = ∅ := by
  simp only [List.Forall]; repeat' constructor
/-- The references the 56 operations of `main_part3_ops1` write, in order. -/
abbrev main_part3_ops1_W : List (Ref sig .tc) :=
  [main_v160, main_v161, main_v162, main_v163, main_c_22, main_v164, main_v165, main_c_23, main_v166, main_v167,
   main_v168, main_v169, main_v170, main_cst_24, main_v171, main_v172, main_v173, main_v174, main_v175, main_v176,
   main_v177, main_v178, main_v179, main_v180, main_c_25, main_v181, main_v182, main_c_26, main_v183, main_v184,
   main_v185, main_v186, main_v187, main_cst_27, main_v188, main_v189, main_v190, main_v191, main_v192, main_v193,
   main_v194, main_v195, main_v196, main_v197, main_c_28, main_v198, main_v199, main_c_29, main_v200, main_v201,
   main_v202, main_v203, main_v204, main_cst_30, main_v205, main_v206]
/-- Each operation's result is in that list. -/
theorem main_part3_ops1_writes : (main_part3_ops1 : List (HloOp τ sig (Elt F))).Forall fun op =>
    op.writes ⊆ (main_part3_ops1_W.map (Proc.devRef (τ := τ) .tc)).toFinset := by
  simp only [List.Forall]; repeat' apply And.intro
  all_goals result_listed

/-- No operation of `main_part4_ops0` allocates a buffer. -/
theorem main_part4_ops0_fresh : (main_part4_ops0 : List (HloOp τ sig (Elt F))).Forall fun op => op.fresh = ∅ := by
  simp only [List.Forall]; repeat' constructor
/-- The references the 46 operations of `main_part4_ops0` write, in order. -/
abbrev main_part4_ops0_W : List (Ref sig .tc) :=
  [main_v207, main_v208, main_v209, main_v210, main_v211, main_v212, main_v213, main_v214, main_c_31, main_v215,
   main_v216, main_c_32, main_v217, main_v218, main_v219, main_v220, main_v221, main_cst_33, main_v222, main_v223,
   main_v224, main_v225, main_v226, main_v227, main_v228, main_v229, main_v230, main_v231, main_v232, main_v233,
   main_v234, main_v235, main_v236, main_v237, main_v238, main_v239, main_v240, main_v241, main_v242, main_v243,
   main_v244, main_v245, main_v246, main_v247, main_v248, main_v249]
/-- Each operation's result is in that list. -/
theorem main_part4_ops0_writes : (main_part4_ops0 : List (HloOp τ sig (Elt F))).Forall fun op =>
    op.writes ⊆ (main_part4_ops0_W.map (Proc.devRef (τ := τ) .tc)).toFinset := by
  simp only [List.Forall]; repeat' apply And.intro
  all_goals result_listed

/-- No operation of `main_part4_ops1` allocates a buffer. -/
theorem main_part4_ops1_fresh : (main_part4_ops1 : List (HloOp τ sig (Elt F))).Forall fun op => op.fresh = ∅ := by
  simp only [List.Forall]; repeat' constructor
/-- The references the 13 operations of `main_part4_ops1` write, in order. -/
abbrev main_part4_ops1_W : List (Ref sig .tc) :=
  [main_v251, main_v252, main_v253, main_v254, main_v255, main_v256, main_v257, main_v258, main_v259, main_v260,
   main_v261, main_v262, main_v263]
/-- Each operation's result is in that list. -/
theorem main_part4_ops1_writes : (main_part4_ops1 : List (HloOp τ sig (Elt F))).Forall fun op =>
    op.writes ⊆ (main_part4_ops1_W.map (Proc.devRef (τ := τ) .tc)).toFinset := by
  simp only [List.Forall]; repeat' apply And.intro
  all_goals result_listed

/-- No operation of `main_part5_ops0` allocates a buffer. -/
theorem main_part5_ops0_fresh : (main_part5_ops0 : List (HloOp τ sig (Elt F))).Forall fun op => op.fresh = ∅ := by
  simp only [List.Forall]; repeat' constructor
/-- The references the 9 operations of `main_part5_ops0` write, in order. -/
abbrev main_part5_ops0_W : List (Ref sig .tc) :=
  [main_v264, main_v265, main_v266, main_v267, main_v268, main_v269, main_v270, main_v271, main_v272]
/-- Each operation's result is in that list. -/
theorem main_part5_ops0_writes : (main_part5_ops0 : List (HloOp τ sig (Elt F))).Forall fun op =>
    op.writes ⊆ (main_part5_ops0_W.map (Proc.devRef (τ := τ) .tc)).toFinset := by
  simp only [List.Forall]; repeat' apply And.intro
  all_goals result_listed

/-- No operation of `main_part5_ops1` allocates a buffer. -/
theorem main_part5_ops1_fresh : (main_part5_ops1 : List (HloOp τ sig (Elt F))).Forall fun op => op.fresh = ∅ := by
  simp only [List.Forall]; repeat' constructor
/-- The references the 50 operations of `main_part5_ops1` write, in order. -/
abbrev main_part5_ops1_W : List (Ref sig .tc) :=
  [main_v274, main_v275, main_v276, main_v277, main_c_34, main_v278, main_v279, main_c_35, main_v280, main_v281,
   main_v282, main_v283, main_v284, main_cst_36, main_v285, main_v286, main_v287, main_v288, main_v289, main_v290,
   main_v291, main_v292, main_v293, main_v294, main_c_37, main_v295, main_v296, main_c_38, main_v297, main_v298,
   main_v299, main_v300, main_v301, main_cst_39, main_v302, main_v303, main_v304, main_v305, main_v306, main_v307,
   main_v308, main_v309, main_v310, main_v311, main_c_40, main_v312, main_v313, main_c_41, main_v314, main_v315]
/-- Each operation's result is in that list. -/
theorem main_part5_ops1_writes : (main_part5_ops1 : List (HloOp τ sig (Elt F))).Forall fun op =>
    op.writes ⊆ (main_part5_ops1_W.map (Proc.devRef (τ := τ) .tc)).toFinset := by
  simp only [List.Forall]; repeat' apply And.intro
  all_goals result_listed

/-- No operation of `main_part6_ops0` allocates a buffer. -/
theorem main_part6_ops0_fresh : (main_part6_ops0 : List (HloOp τ sig (Elt F))).Forall fun op => op.fresh = ∅ := by
  simp only [List.Forall]; repeat' constructor
/-- The references the 52 operations of `main_part6_ops0` write, in order. -/
abbrev main_part6_ops0_W : List (Ref sig .tc) :=
  [main_v316, main_v317, main_v318, main_cst_42, main_v319, main_v320, main_v321, main_v322, main_v323, main_v324,
   main_v325, main_v326, main_v327, main_v328, main_c_43, main_v329, main_v330, main_c_44, main_v331, main_v332,
   main_v333, main_v334, main_v335, main_cst_45, main_v336, main_v337, main_v338, main_v339, main_v340, main_v341,
   main_v342, main_v343, main_v344, main_v345, main_v346, main_v347, main_v348, main_v349, main_v350, main_v351,
   main_v352, main_v353, main_v354, main_v355, main_v356, main_v357, main_v358, main_v359, main_v360, main_v361,
   main_v362, main_v363]
/-- Each operation's result is in that list. -/
theorem main_part6_ops0_writes : (main_part6_ops0 : List (HloOp τ sig (Elt F))).Forall fun op =>
    op.writes ⊆ (main_part6_ops0_W.map (Proc.devRef (τ := τ) .tc)).toFinset := by
  simp only [List.Forall]; repeat' apply And.intro
  all_goals result_listed

/-- No operation of `main_part6_ops1` allocates a buffer. -/
theorem main_part6_ops1_fresh : (main_part6_ops1 : List (HloOp τ sig (Elt F))).Forall fun op => op.fresh = ∅ := by
  simp only [List.Forall]; repeat' constructor
/-- The references the 7 operations of `main_part6_ops1` write, in order. -/
abbrev main_part6_ops1_W : List (Ref sig .tc) :=
  [main_v365, main_v366, main_v367, main_v368, main_v369, main_v370, main_v371]
/-- Each operation's result is in that list. -/
theorem main_part6_ops1_writes : (main_part6_ops1 : List (HloOp τ sig (Elt F))).Forall fun op =>
    op.writes ⊆ (main_part6_ops1_W.map (Proc.devRef (τ := τ) .tc)).toFinset := by
  simp only [List.Forall]; repeat' apply And.intro
  all_goals result_listed

/-- No operation of `main_part7_ops0` allocates a buffer. -/
theorem main_part7_ops0_fresh : (main_part7_ops0 : List (HloOp τ sig (Elt F))).Forall fun op => op.fresh = ∅ := by
  simp only [List.Forall]; repeat' constructor
/-- The references the 15 operations of `main_part7_ops0` write, in order. -/
abbrev main_part7_ops0_W : List (Ref sig .tc) :=
  [main_v372, main_v373, main_v374, main_v375, main_v376, main_v377, main_v378, main_v379, main_v380, main_v381,
   main_v382, main_v383, main_v384, main_v385, main_v386]
/-- Each operation's result is in that list. -/
theorem main_part7_ops0_writes : (main_part7_ops0 : List (HloOp τ sig (Elt F))).Forall fun op =>
    op.writes ⊆ (main_part7_ops0_W.map (Proc.devRef (τ := τ) .tc)).toFinset := by
  simp only [List.Forall]; repeat' apply And.intro
  all_goals result_listed

/-- No operation of `main_part7_ops1` allocates a buffer. -/
theorem main_part7_ops1_fresh : (main_part7_ops1 : List (HloOp τ sig (Elt F))).Forall fun op => op.fresh = ∅ := by
  simp only [List.Forall]; repeat' constructor
/-- The references the 44 operations of `main_part7_ops1` write, in order. -/
abbrev main_part7_ops1_W : List (Ref sig .tc) :=
  [main_v388, main_v389, main_v390, main_v391, main_c_46, main_v392, main_v393, main_c_47, main_v394, main_v395,
   main_v396, main_v397, main_v398, main_c_48, main_v399, main_v400, main_c_49, main_v401, main_v402, main_v403,
   main_v404, main_v405, main_v406, main_v407, main_v408, main_v409, main_v410, main_v411, main_v412, main_v413,
   main_v414, main_v415, main_v416, main_v417, main_v418, main_v419, main_v420, main_v421, main_v422, main_v423,
   main_v424, main_v425, main_v426, main_v427]
/-- Each operation's result is in that list. -/
theorem main_part7_ops1_writes : (main_part7_ops1 : List (HloOp τ sig (Elt F))).Forall fun op =>
    op.writes ⊆ (main_part7_ops1_W.map (Proc.devRef (τ := τ) .tc)).toFinset := by
  simp only [List.Forall]; repeat' apply And.intro
  all_goals result_listed

/-- No operation of `main_part8_ops0` allocates a buffer. -/
theorem main_part8_ops0_fresh : (main_part8_ops0 : List (HloOp τ sig (Elt F))).Forall fun op => op.fresh = ∅ := by
  simp only [List.Forall]; repeat' constructor
/-- The references the 1 operation of `main_part8_ops0` write, in order. -/
abbrev main_part8_ops0_W : List (Ref sig .tc) :=
  [main_v428]
/-- Each operation's result is in that list. -/
theorem main_part8_ops0_writes : (main_part8_ops0 : List (HloOp τ sig (Elt F))).Forall fun op =>
    op.writes ⊆ (main_part8_ops0_W.map (Proc.devRef (τ := τ) .tc)).toFinset := by
  simp only [List.Forall]; result_listed

/-- No operation of `main_part8_ops1` allocates a buffer. -/
theorem main_part8_ops1_fresh : (main_part8_ops1 : List (HloOp τ sig (Elt F))).Forall fun op => op.fresh = ∅ := by
  simp only [List.Forall]; repeat' constructor
/-- The references the 1 operation of `main_part8_ops1` write, in order. -/
abbrev main_part8_ops1_W : List (Ref sig .tc) :=
  [main_v430]
/-- Each operation's result is in that list. -/
theorem main_part8_ops1_writes : (main_part8_ops1 : List (HloOp τ sig (Elt F))).Forall fun op =>
    op.writes ⊆ (main_part8_ops1_W.map (Proc.devRef (τ := τ) .tc)).toFinset := by
  simp only [List.Forall]; result_listed

end Cert.Kernel.Hand

end
-- ==== Proof.KFrameR0.lean ====
import proofs.«166951_j44444321579084_2_alg».proof.Proof.Gen.Kernel.Launch
import proofs.«166951_j44444321579084_2_alg».proof.Proof.Gen.Kernel.Skeleton
import proofs.«166951_j44444321579084_2_alg».proof.Proof.Gen.Kernel.Points
import Idealize.ShloMosaic.Lib.Pipeline.FrameBody
import Idealize.ShloMosaic.Lib.Ring
import Idealize.ShloMosaic.Lib.Tactic

/-!
# The two-layer perceptron region 0: what its body leaves, at any entry contents

The region runs the body `relu (x · W₁ + b₁) · W₂ + b₂` over ten row blocks of 5000 rows. Its input windows are
the row block of `x` (moving with the grid point) and the four parameter arrays `W₁, b₁, W₂, b₂` (one block each,
the same at every point); its one output window is the row block of the result.

At a parameter `V` — the buffers' contents when the region is entered — this module states: each window's block
at a point read off its array; that every input's staging buffer holds that block when the body is called,
fetched at that point or not; the output buffer after the body as a function of the five input blocks (the one
store's payload laid over the whole buffer); the body's triple; and the pipeline's proof data with its body
obligation: the inputs are left as found, the output block is that function of the input blocks, nothing else
is touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every point, whether the pipeline fetched it
    there or not (when it did not, the block index has not moved since the point before), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: its current staging buffer holds its block at every point, whether the pipeline fetched it
    there or not (when it did not, the block index has not moved since the point before), for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: its current staging buffer holds its block at every point, whether the pipeline fetched it
    there or not (when it did not, the block index has not moved since the point before), for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3: its current staging buffer holds its block at every point, whether the pipeline fetched it
    there or not (when it did not, the block index has not moved since the point before), for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4: its current staging buffer holds its block at every point, whether the pipeline fetched it
    there or not (when it did not, the block index has not moved since the point before), for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S1x128 := Rect.unit (s := S1x128) ![0, 0] S1x128.size inb_S1x128_S1x128_0_0
abbrev r0_5 : Rect S5000x128 := Rect.unit (s := S5000x128) ![0, 0] S5000x128.size inb_S5000x128_S5000x128_0_0

/-! ## What the body leaves in the output window's buffer -/

/-- The output buffer after the body, from the five input blocks: the one store's payload
    `relu (x₀ · x₁ + x₂) · x₃ + x₄` (rows of `x₂`, `x₄` repeated down the block), laid over the whole buffer. -/
def out0_5 (x0 : Vec F S5000x64 .f32) (x1 : Vec F S64x128 .f32) (x2 : Vec F S1x128 .f32) (x3 : Vec F S128x128 .f32) (x4 : Vec F S1x128 .f32) : Vec F S5000x128 .f32 :=
  View.canon [⟨r0_5, k0_pay1 (View.ld x0 r0_0) (View.ld x1 r0_1) (View.ld x2 r0_2) (View.ld x3 r0_3) (View.ld x4 r0_4)⟩]

/-- The store's rectangle is the whole buffer, so it covers every index. -/
theorem cover0_5 (p0 : Vec F S5000x128 .f32) (y : S5000x128.Idx) :
    ∃ pc ∈ ([⟨r0_5, p0⟩] : List (View.Piece (Elt F) S5000x128 .f32)), y ∈ pc.1.set :=
  View.cover_of_tiled [⟨r0_5, p0⟩] S5000x128.size (by rfl) y

/-! ## The body's triple -/

set_option maxHeartbeats 1000000 in
/-- The body on whole staging buffers, the inputs' reading `x₀ … x₄` and the output's holding anything, runs to the
    continuation with the inputs' as they were and the output's at `out0_5` of them. The body also loads the
    output buffer before storing to it; the value loaded is used nowhere, so any prior contents do. -/
theorem sound_kernel0 (c : Dev nD) (E : Set ℕ) (i : grid0.Coords) (arg0 : Memref sig .tc .vmem S5000x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x64 .f32) (x1 : Vec F S64x128 .f32) (x2 : Vec F S1x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__mlp2_kernel i arg0 harg0 arg1 harg1 arg2 harg2 arg3 harg3 arg4 harg4 arg5 harg5) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; the invariant is the rest of
    the core's scoped memory and its generator register, untouched; nothing is owed; full shares (no two windows
    of this call share an array). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KFrameR1.lean ====
import proofs.«166951_j44444321579084_2_alg».proof.Proof.Gen.Kernel.Launch
import proofs.«166951_j44444321579084_2_alg».proof.Proof.Gen.Kernel.Skeleton
import proofs.«166951_j44444321579084_2_alg».proof.Proof.Gen.Kernel.Points
import Idealize.ShloMosaic.Lib.Pipeline.FrameBody
import Idealize.ShloMosaic.Lib.Ring
import Idealize.ShloMosaic.Lib.Tactic

/-!
# The two-layer perceptron region 1: what its body leaves, at any entry contents

The region runs the body `relu (x · W₁ + b₁) · W₂ + b₂` over ten row blocks of 5000 rows. Its input windows are
the row block of `x` (moving with the grid point) and the four parameter arrays `W₁, b₁, W₂, b₂` (one block each,
the same at every point); its one output window is the row block of the result.

At a parameter `V` — the buffers' contents when the region is entered — this module states: each window's block
at a point read off its array; that every input's staging buffer holds that block when the body is called,
fetched at that point or not; the output buffer after the body as a function of the five input blocks (the one
store's payload laid over the whole buffer); the body's triple; and the pipeline's proof data with its body
obligation: the inputs are left as found, the output block is that function of the input blocks, nothing else
is touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every point, whether the pipeline fetched it
    there or not (when it did not, the block index has not moved since the point before), for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: its current staging buffer holds its block at every point, whether the pipeline fetched it
    there or not (when it did not, the block index has not moved since the point before), for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: its current staging buffer holds its block at every point, whether the pipeline fetched it
    there or not (when it did not, the block index has not moved since the point before), for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: its current staging buffer holds its block at every point, whether the pipeline fetched it
    there or not (when it did not, the block index has not moved since the point before), for any proof data whose
    array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: its current staging buffer holds its block at every point, whether the pipeline fetched it
    there or not (when it did not, the block index has not moved since the point before), for any proof data whose
    array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_0 : Rect S5000x48 := Rect.unit (s := S5000x48) ![0, 0] S5000x48.size inb_S5000x48_S5000x48_0_0
abbrev r1_1 : Rect S48x128 := Rect.unit (s := S48x128) ![0, 0] S48x128.size inb_S48x128_S48x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0
abbrev r1_5 : Rect S5000x128 := Rect.unit (s := S5000x128) ![0, 0] S5000x128.size inb_S5000x128_S5000x128_0_0

/-! ## What the body leaves in the output window's buffer -/

/-- The output buffer after the body, from the five input blocks: the one store's payload
    `relu (x₀ · x₁ + x₂) · x₃ + x₄` (rows of `x₂`, `x₄` repeated down the block), laid over the whole buffer. -/
def out1_5 (x0 : Vec F S5000x48 .f32) (x1 : Vec F S48x128 .f32) (x2 : Vec F S1x128 .f32) (x3 : Vec F S128x128 .f32) (x4 : Vec F S1x128 .f32) : Vec F S5000x128 .f32 :=
  View.canon [⟨r1_5, k1_pay1 (View.ld x0 r1_0) (View.ld x1 r1_1) (View.ld x2 r1_2) (View.ld x3 r1_3) (View.ld x4 r1_4)⟩]

/-- The store's rectangle is the whole buffer, so it covers every index. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

/-! ## The body's triple -/

set_option maxHeartbeats 1000000 in
/-- The body on whole staging buffers, the inputs' reading `x₀ … x₄` and the output's holding anything, runs to the
    continuation with the inputs' as they were and the output's at `out1_5` of them. The body also loads the
    output buffer before storing to it; the value loaded is used nowhere, so any prior contents do. -/
theorem sound_kernel1 (c : Dev nD) (E : Set ℕ) (i : grid1.Coords) (arg0 : Memref sig .tc .vmem S5000x48 .f32) (harg0 : arg0.IsWhole) (arg1 : Memref sig .tc .vmem S48x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x48 .f32) (x1 : Vec F S48x128 .f32) (x2 : Vec F S1x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__mlp2_kernel i arg0 harg0 arg1 harg1 arg2 harg2 arg3 harg3 arg4 harg4 arg5 harg5) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; the invariant is the rest of
    the core's scoped memory and its generator register, untouched; nothing is owed; full shares (no two windows
    of this call share an array). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.KFrameR2.lean ====
import proofs.«166951_j44444321579084_2_alg».proof.Proof.Gen.Kernel.Launch
import proofs.«166951_j44444321579084_2_alg».proof.Proof.Gen.Kernel.Skeleton
import proofs.«166951_j44444321579084_2_alg».proof.Proof.Gen.Kernel.Points
import Idealize.ShloMosaic.Lib.Pipeline.FrameBody
import Idealize.ShloMosaic.Lib.Ring
import Idealize.ShloMosaic.Lib.Tactic

/-!
# Region 2: the fused two-branch layer kernel, the body half of its frame

The body reads nine whole staging buffers (three row blocks of 5000 rows, four 128x128 weight matrices and two bias rows),
computes the maximum of ((x0 W3 + b4 + x2 W5) + (x1 W6 + b7 + x2 W8)) / 2 and 0, and stores it over the whole of the
tenth buffer. So what it leaves in the output buffer is one closed function of the nine input blocks, and every input
buffer is left as it was found. All of this is stated at a parameter `V`, the buffer contents when the region is
entered, and for any float instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    window's block index has not moved since the point before, and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    window's block index has not moved since the point before, and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    window's block index has not moved since the point before, and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    window's block index has not moved since the point before, and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched
    window's block index has not moved since the point before, and the body left the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an unfetched
    window's block index has not moved since the point before, and the body left the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: an unfetched
    window's block index has not moved since the point before, and the body left the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: an unfetched
    window's block index has not moved since the point before, and the body left the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not: an unfetched
    window's block index has not moved since the point before, and the body left the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S5000x128 := Rect.unit (s := S5000x128) ![0, 0] S5000x128.size inb_S5000x128_S5000x128_0_0
abbrev r2_b : Rect S128x128 := Rect.unit (s := S128x128) ![0, 0] S128x128.size inb_S128x128_S128x128_0_0
abbrev r2_c : Rect S1x128 := Rect.unit (s := S1x128) ![0, 0] S1x128.size inb_S1x128_S1x128_0_0

/-! ## What the body leaves in the output window's buffer -/

/-- Window 9's staging buffer after the body, from the input windows' blocks: its one store, over the whole buffer,
    of the maximum of the halved sum of the two branches and zero. -/
def out2_9 (x0 : Vec F S5000x128 .f32) (x1 : Vec F S5000x128 .f32) (x2 : Vec F S5000x128 .f32) (x3 : Vec F S128x128 .bf16) (x4 : Vec F S1x128 .f32) (x5 : Vec F S128x128 .bf16) (x6 : Vec F S128x128 .bf16) (x7 : Vec F S1x128 .f32) (x8 : Vec F S128x128 .bf16) : Vec F S5000x128 .f32 :=
  View.canon [⟨r2_a, k2_pay1 (k2_pay2 (View.ld x0 r2_a) (View.ld x1 r2_a) (View.ld x2 r2_a) (View.ld x3 r2_b) (View.ld x4 r2_c) (View.ld x5 r2_b) (View.ld x6 r2_b) (View.ld x7 r2_c) (View.ld x8 r2_b)) (k2_pay3 (F := F))⟩]

/-- The store covers the buffer. -/
theorem cover2_9 (p0 : Vec F S5000x128 .f32) (y : S5000x128.Idx) :
    ∃ pc ∈ ([⟨r2_a, p0⟩] : List (View.Piece (Elt F) S5000x128 .f32)), y ∈ pc.1.set :=
  View.cover_of_tiled [⟨r2_a, p0⟩] S5000x128.size (by rfl) y

/-! ## The body's triple -/

set_option maxHeartbeats 1000000 in
/-- The kernel body on whole staging memrefs, the inputs' at read contents `xW` and the output's at anything, runs to the
    continuation holding the inputs' as they were and the output's at `out2_9` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S5000x128 .f32) (harg10 : arg10.IsWhole)
    (x0 : Vec F S5000x128 .f32) (x1 : Vec F S5000x128 .f32) (x2 : Vec F S5000x128 .f32) (x3 : Vec F S128x128 .bf16) (x4 : Vec F S1x128 .f32) (x5 : Vec F S128x128 .bf16) (x6 : Vec F S128x128 .bf16) (x7 : Vec F S1x128 .f32) (x8 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__sage_fuse_kernel_noresid i arg1 harg1 arg2 harg2 arg3 harg3 arg4 harg4 arg5 harg5 arg6 harg6 arg7 harg7 arg8 harg8 arg9 harg9 arg10 harg10) K := by
  simp only [cc2__sage_fuse_kernel_noresid_eq_skeleton]; unfold cc2__sage_fuse_kernel_noresid_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-! ## The pipeline's proof data -/

/-- The proof data of this pipeline on core `c`: the arrays as the region finds them; after the body at point `t` each
    input's buffer at its block and the output's at `out2_9` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the kernel's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFrameR3.lean ====
import proofs.«166951_j44444321579084_2_alg».proof.Proof.Gen.Kernel.Launch
import proofs.«166951_j44444321579084_2_alg».proof.Proof.Gen.Kernel.Skeleton
import proofs.«166951_j44444321579084_2_alg».proof.Proof.Gen.Kernel.Points
import Idealize.ShloMosaic.Lib.Pipeline.FrameBody
import Idealize.ShloMosaic.Lib.Ring
import Idealize.ShloMosaic.Lib.Tactic

/-!
# Region 3: the fused two-branch layer kernel, the body half of its frame

The body reads nine whole staging buffers (three row blocks of 5000 rows, four 128x128 weight matrices and two bias rows),
computes the maximum of ((x0 W3 + b4 + x2 W5) + (x1 W6 + b7 + x2 W8)) / 2 and 0, and stores it over the whole of the
tenth buffer. So what it leaves in the output buffer is one closed function of the nine input blocks, and every input
buffer is left as it was found. All of this is stated at a parameter `V`, the buffer contents when the region is
entered, and for any float instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: an unfetched
    window's block index has not moved since the point before, and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: an unfetched
    window's block index has not moved since the point before, and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: an unfetched
    window's block index has not moved since the point before, and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: an unfetched
    window's block index has not moved since the point before, and the body left the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: an unfetched
    window's block index has not moved since the point before, and the body left the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not: an unfetched
    window's block index has not moved since the point before, and the body left the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not: an unfetched
    window's block index has not moved since the point before, and the body left the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not: an unfetched
    window's block index has not moved since the point before, and the body left the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not: an unfetched
    window's block index has not moved since the point before, and the body left the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S5000x128 := Rect.unit (s := S5000x128) ![0, 0] S5000x128.size inb_S5000x128_S5000x128_0_0
abbrev r3_b : Rect S128x128 := Rect.unit (s := S128x128) ![0, 0] S128x128.size inb_S128x128_S128x128_0_0
abbrev r3_c : Rect S1x128 := Rect.unit (s := S1x128) ![0, 0] S1x128.size inb_S1x128_S1x128_0_0

/-! ## What the body leaves in the output window's buffer -/

/-- Window 9's staging buffer after the body, from the input windows' blocks: its one store, over the whole buffer,
    of the maximum of the halved sum of the two branches and zero. -/
def out3_9 (x0 : Vec F S5000x128 .f32) (x1 : Vec F S5000x128 .f32) (x2 : Vec F S5000x128 .f32) (x3 : Vec F S128x128 .bf16) (x4 : Vec F S1x128 .f32) (x5 : Vec F S128x128 .bf16) (x6 : Vec F S128x128 .bf16) (x7 : Vec F S1x128 .f32) (x8 : Vec F S128x128 .bf16) : Vec F S5000x128 .f32 :=
  View.canon [⟨r3_a, k3_pay1 (k3_pay2 (View.ld x0 r3_a) (View.ld x1 r3_a) (View.ld x2 r3_a) (View.ld x3 r3_b) (View.ld x4 r3_c) (View.ld x5 r3_b) (View.ld x6 r3_b) (View.ld x7 r3_c) (View.ld x8 r3_b)) (k3_pay3 (F := F))⟩]

/-- The store covers the buffer. -/
theorem cover3_9 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

/-! ## The body's triple -/

set_option maxHeartbeats 1000000 in
/-- The kernel body on whole staging memrefs, the inputs' at read contents `xW` and the output's at anything, runs to the
    continuation holding the inputs' as they were and the output's at `out3_9` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S5000x128 .f32) (harg10 : arg10.IsWhole)
    (x0 : Vec F S5000x128 .f32) (x1 : Vec F S5000x128 .f32) (x2 : Vec F S5000x128 .f32) (x3 : Vec F S128x128 .bf16) (x4 : Vec F S1x128 .f32) (x5 : Vec F S128x128 .bf16) (x6 : Vec F S128x128 .bf16) (x7 : Vec F S1x128 .f32) (x8 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__sage_fuse_kernel_noresid i arg1 harg1 arg2 harg2 arg3 harg3 arg4 harg4 arg5 harg5 arg6 harg6 arg7 harg7 arg8 harg8 arg9 harg9 arg10 harg10) K := by
  simp only [cc3__sage_fuse_kernel_noresid_eq_skeleton]; unfold cc3__sage_fuse_kernel_noresid_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover3_9 _)

/-! ## The pipeline's proof data -/

/-- The proof data of this pipeline on core `c`: the arrays as the region finds them; after the body at point `t` each
    input's buffer at its block and the output's at `out3_9` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the kernel's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KFrameR4.lean ====
import proofs.«166951_j44444321579084_2_alg».proof.Proof.Gen.Kernel.Launch
import proofs.«166951_j44444321579084_2_alg».proof.Proof.Gen.Kernel.Skeleton
import proofs.«166951_j44444321579084_2_alg».proof.Proof.Gen.Kernel.Points
import Idealize.ShloMosaic.Lib.Pipeline.FrameBody
import Idealize.ShloMosaic.Lib.Tactic

/-!
# The body half of the region of custom call 4

At an arbitrary content `V` of the TensorCore's buffers on entry to the region: every input window's staging
buffer holds the window's block of its array at every grid point, the body leaves in the output window's staging
buffer the one value it stores there (a function of the ten input blocks), and with these the body meets the
pipeline's obligation at every point. Two of the input windows read the same array; the proof data hold that
array at the two halves of the full share, and nothing in the body's triple depends on that split, since the
body only ever sees staging buffers, each whole at the full share.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, whether the block was fetched at
that point or at an earlier one (a window whose block index does not move is fetched once): for any proof data
whose array is `V`'s and whose body leaves the block in place. Every input window here is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- The output window's staging buffer after the body, from the ten input blocks: its one store, of the whole
    buffer. The stored value is the second payload (the half-sum of the two affine maps of the neighbour and self
    features) applied to the first (the residual added, then the maximum with zero). -/
def out4_10 (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) : Vec F S5000x128 .f32 :=
  View.canon [⟨r4_0, k4_pay1 (k4_pay2 (View.ld x0 r4_0) (View.ld x1 r4_0) (View.ld x2 r4_0) (View.ld x4 r4_1) (View.ld x5 r4_2) (View.ld x6 r4_1) (View.ld x7 r4_1) (View.ld x8 r4_2) (View.ld x9 r4_1)) (View.ld x3 r4_0)⟩]

/-- The one store covers the buffer. -/
theorem cover4_10 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs — the inputs' at contents `x0 … x9`, the output's at anything — runs
    to a state holding the inputs' as they were and the output's at `out4_10` of the inputs. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S5000x128 .f32) (harg11 : arg11.IsWhole)
    (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (out4_10 x0 x1 x2 x3 x4 x5 x6 x7 x8 x9)) -∗ K ⟨⟩))
      ⊢ wp frame (wpE (defs₀ (F := F)) Variants.none c none) E (cc4__sage_fuse_kernel_resid i arg1 harg1 arg2 harg2 arg3 harg3 arg4 harg4 arg5 harg5 arg6 harg6 arg7 harg7 arg8 harg8 arg9 harg9 arg10 harg10 arg11 harg11) K := by
  simp only [cc4__sage_fuse_kernel_resid_eq_skeleton]; unfold cc4__sage_fuse_kernel_resid_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover4_10 _)

/-! ## The pipeline's proof data -/

/-- The proof data of this pipeline on core `c`: the arrays as the region finds them; after the body at point `t`
    each input's buffer at its block and the output's at `out4_10` of the input blocks; the invariant is the
    untouched rest; nothing owed. Windows 2 and 3 read one array, held at the left and right halves of the full
    share; every other array is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := Pipeline.ΦA spec4 c
  q w := match w with
    | ⟨2, _⟩ => fullShare.left
    | ⟨3, _⟩ => fullShare.right
    | _ => fullShare
  owed _ := 0

theorem A_eq4 (c : Dev nD) (w : Fin cfg4.W) : (dat4 V c).A w = V c (Pipeline.arrRef spec4 w) := by
  dsimp only [dat4]

theorem q_eq4 (c : Dev nD) : (dat4 V c).q = fun w => match w with
    | ⟨2, _⟩ => fullShare.left
    | ⟨3, _⟩ => fullShare.right
    | _ => fullShare := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

/-- The body at any point: the inputs' memrefs hold their blocks, so the triple applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.KFrameR5.lean ====
import proofs.«166951_j44444321579084_2_alg».proof.Proof.Gen.Kernel.Launch
import proofs.«166951_j44444321579084_2_alg».proof.Proof.Gen.Kernel.Skeleton
import proofs.«166951_j44444321579084_2_alg».proof.Proof.Gen.Kernel.Points
import Idealize.ShloMosaic.Lib.Pipeline.FrameBody
import Idealize.ShloMosaic.Lib.Tactic

/-!
# The body half of the region of custom call 5

At an arbitrary content `V` of the TensorCore's buffers on entry to the region: every input window's staging
buffer holds the window's block of its array at every grid point, the body leaves in the output window's staging
buffer the one value it stores there (a function of the ten input blocks), and with these the body meets the
pipeline's obligation at every point. Two of the input windows read the same array; the proof data hold that
array at the two halves of the full share, and nothing in the body's triple depends on that split, since the
body only ever sees staging buffers, each whole at the full share.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every point, whether the block was fetched at
that point or at an earlier one (a window whose block index does not move is fetched once): for any proof data
whose array is `V`'s and whose body leaves the block in place. Every input window here is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-! ## What the body leaves in the output window's buffer -/

/-- The output window's staging buffer after the body, from the ten input blocks: its one store, of the whole
    buffer. The stored value is the second payload (the half-sum of the two affine maps of the neighbour and self
    features) applied to the first (the residual added, then the maximum with zero). -/
def out5_10 (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) : Vec F S5000x128 .f32 :=
  View.canon [⟨r5_0, k5_pay1 (k5_pay2 (View.ld x0 r5_0) (View.ld x1 r5_0) (View.ld x2 r5_0) (View.ld x4 r5_1) (View.ld x5 r5_2) (View.ld x6 r5_1) (View.ld x7 r5_1) (View.ld x8 r5_2) (View.ld x9 r5_1)) (View.ld x3 r5_0)⟩]

/-- The one store covers the buffer. -/
theorem cover5_10 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs — the inputs' at contents `x0 … x9`, the output's at anything — runs
    to a state holding the inputs' as they were and the output's at `out5_10` of the inputs. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S5000x128 .f32) (harg11 : arg11.IsWhole)
    (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (out5_10 x0 x1 x2 x3 x4 x5 x6 x7 x8 x9)) -∗ K ⟨⟩))
      ⊢ wp frame (wpE (defs₀ (F := F)) Variants.none c none) E (cc5__sage_fuse_kernel_resid i arg1 harg1 arg2 harg2 arg3 harg3 arg4 harg4 arg5 harg5 arg6 harg6 arg7 harg7 arg8 harg8 arg9 harg9 arg10 harg10 arg11 harg11) K := by
  simp only [cc5__sage_fuse_kernel_resid_eq_skeleton]; unfold cc5__sage_fuse_kernel_resid_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover5_10 _)

/-! ## The pipeline's proof data -/

/-- The proof data of this pipeline on core `c`: the arrays as the region finds them; after the body at point `t`
    each input's buffer at its block and the output's at `out5_10` of the input blocks; the invariant is the
    untouched rest; nothing owed. Windows 2 and 3 read one array, held at the left and right halves of the full
    share; every other array is held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)
  Φ _ := Pipeline.ΦA spec5 c
  q w := match w with
    | ⟨2, _⟩ => fullShare.left
    | ⟨3, _⟩ => fullShare.right
    | _ => fullShare
  owed _ := 0

theorem A_eq5 (c : Dev nD) (w : Fin cfg5.W) : (dat5 V c).A w = V c (Pipeline.arrRef spec5 w) := by
  dsimp only [dat5]

theorem q_eq5 (c : Dev nD) : (dat5 V c).q = fun w => match w with
    | ⟨2, _⟩ => fullShare.left
    | ⟨3, _⟩ => fullShare.right
    | _ => fullShare := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

/-- The body at any point: the inputs' memrefs hold their blocks, so the triple applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ (grid5.coords t) _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.KFrameR6.lean ====
import proofs.«166951_j44444321579084_2_alg».proof.Proof.Gen.Kernel.Launch
import proofs.«166951_j44444321579084_2_alg».proof.Proof.Gen.Kernel.Skeleton
import proofs.«166951_j44444321579084_2_alg».proof.Proof.Gen.Kernel.Points
import Idealize.ShloMosaic.Lib.Pipeline.FrameBody
import Idealize.ShloMosaic.Lib.Tactic

/-!
# The body half of the region of custom call 6

At an arbitrary content `V` of the TensorCore's buffers on entry to the region: every input window's staging
buffer holds the window's block of its array at every grid point, the body leaves in the output window's staging
buffer the one value it stores there (a function of the ten input blocks), and with these the body meets the
pipeline's obligation at every point. Two of the input windows read the same array; the proof data hold that
array at the two halves of the full share, and nothing in the body's triple depends on that split, since the
body only ever sees staging buffers, each whole at the full share.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, whether the block was fetched at
that point or at an earlier one (a window whose block index does not move is fetched once): for any proof data
whose array is `V`'s and whose body leaves the block in place. Every input window here is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole of its buffer -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0

/-! ## What the body leaves in the output window's buffer -/

/-- The output window's staging buffer after the body, from the ten input blocks: its one store, of the whole
    buffer. The stored value is the second payload (the half-sum of the two affine maps of the neighbour and self
    features) applied to the first (the residual added, then the maximum with zero). -/
def out6_10 (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) : Vec F S5000x128 .f32 :=
  View.canon [⟨r6_0, k6_pay1 (k6_pay2 (View.ld x0 r6_0) (View.ld x1 r6_0) (View.ld x2 r6_0) (View.ld x4 r6_1) (View.ld x5 r6_2) (View.ld x6 r6_1) (View.ld x7 r6_1) (View.ld x8 r6_2) (View.ld x9 r6_1)) (View.ld x3 r6_0)⟩]

/-- The one store covers the buffer. -/
theorem cover6_10 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging memrefs — the inputs' at contents `x0 … x9`, the output's at anything — runs
    to a state holding the inputs' as they were and the output's at `out6_10` of the inputs. -/
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S5000x128 .f32) (harg11 : arg11.IsWhole)
    (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (out6_10 x0 x1 x2 x3 x4 x5 x6 x7 x8 x9)) -∗ K ⟨⟩))
      ⊢ wp frame (wpE (defs₀ (F := F)) Variants.none c none) E (cc6__sage_fuse_kernel_resid i arg1 harg1 arg2 harg2 arg3 harg3 arg4 harg4 arg5 harg5 arg6 harg6 arg7 harg7 arg8 harg8 arg9 harg9 arg10 harg10 arg11 harg11) K := by
  simp only [cc6__sage_fuse_kernel_resid_eq_skeleton]; unfold cc6__sage_fuse_kernel_resid_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover6_10 _)

/-! ## The pipeline's proof data -/

/-- The proof data of this pipeline on core `c`: the arrays as the region finds them; after the body at point `t`
    each input's buffer at its block and the output's at `out6_10` of the input blocks; the invariant is the
    untouched rest; nothing owed. Windows 2 and 3 read one array, held at the left and right halves of the full
    share; every other array is held whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => out6_10 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)
  Φ _ := Pipeline.ΦA spec6 c
  q w := match w with
    | ⟨2, _⟩ => fullShare.left
    | ⟨3, _⟩ => fullShare.right
    | _ => fullShare
  owed _ := 0

theorem A_eq6 (c : Dev nD) (w : Fin cfg6.W) : (dat6 V c).A w = V c (Pipeline.arrRef spec6 w) := by
  dsimp only [dat6]

theorem q_eq6 (c : Dev nD) : (dat6 V c).q = fun w => match w with
    | ⟨2, _⟩ => fullShare.left
    | ⟨3, _⟩ => fullShare.right
    | _ => fullShare := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t))

/-- The body at any point: the inputs' memrefs hold their blocks, so the triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ (grid6.coords t) _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KFrameR7.lean ====
import proofs.«166951_j44444321579084_2_alg».proof.Proof.Gen.Kernel.Launch
import proofs.«166951_j44444321579084_2_alg».proof.Proof.Gen.Kernel.Skeleton
import proofs.«166951_j44444321579084_2_alg».proof.Proof.Gen.Kernel.Points
import Idealize.ShloMosaic.Lib.Pipeline.FrameBody
import Idealize.ShloMosaic.Lib.Tactic

/-!
# The body half of the region of custom call 7

At an arbitrary content `V` of the TensorCore's buffers on entry to the region: every input window's staging
buffer holds the window's block of its array at every grid point, the body leaves in the output window's staging
buffer the one value it stores there (a function of the ten input blocks), and with these the body meets the
pipeline's obligation at every point. Two of the input windows read the same array; the proof data hold that
array at the two halves of the full share, and nothing in the body's triple depends on that split, since the
body only ever sees staging buffers, each whole at the full share.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, whether the block was fetched at
that point or at an earlier one (a window whose block index does not move is fetched once): for any proof data
whose array is `V`'s and whose body leaves the block in place. Every input window here is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is the whole of its buffer -/

abbrev r7_0 : Rect S5000x128 := Rect.unit (s := S5000x128) ![0, 0] S5000x128.size inb_S5000x128_S5000x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0

/-! ## What the body leaves in the output window's buffer -/

/-- The output window's staging buffer after the body, from the ten input blocks: its one store, of the whole
    buffer. The stored value is the second payload (the half-sum of the two affine maps of the neighbour and self
    features) applied to the first (the residual added, then the maximum with zero). -/
def out7_10 (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) : Vec F S5000x128 .f32 :=
  View.canon [⟨r7_0, k7_pay1 (k7_pay2 (View.ld x0 r7_0) (View.ld x1 r7_0) (View.ld x2 r7_0) (View.ld x4 r7_1) (View.ld x5 r7_2) (View.ld x6 r7_1) (View.ld x7 r7_1) (View.ld x8 r7_2) (View.ld x9 r7_1)) (View.ld x3 r7_0)⟩]

/-- The one store covers the buffer. -/
theorem cover7_10 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs — the inputs' at contents `x0 … x9`, the output's at anything — runs
    to a state holding the inputs' as they were and the output's at `out7_10` of the inputs. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S5000x128 .f32) (harg11 : arg11.IsWhole)
    (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (out7_10 x0 x1 x2 x3 x4 x5 x6 x7 x8 x9)) -∗ K ⟨⟩))
      ⊢ wp frame (wpE (defs₀ (F := F)) Variants.none c none) E (cc7__sage_fuse_kernel_resid i arg1 harg1 arg2 harg2 arg3 harg3 arg4 harg4 arg5 harg5 arg6 harg6 arg7 harg7 arg8 harg8 arg9 harg9 arg10 harg10 arg11 harg11) K := by
  simp only [cc7__sage_fuse_kernel_resid_eq_skeleton]; unfold cc7__sage_fuse_kernel_resid_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover7_10 _)

/-! ## The pipeline's proof data -/

/-- The proof data of this pipeline on core `c`: the arrays as the region finds them; after the body at point `t`
    each input's buffer at its block and the output's at `out7_10` of the input blocks; the invariant is the
    untouched rest; nothing owed. Windows 2 and 3 read one array, held at the left and right halves of the full
    share; every other array is held whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => out7_10 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)
  Φ _ := Pipeline.ΦA spec7 c
  q w := match w with
    | ⟨2, _⟩ => fullShare.left
    | ⟨3, _⟩ => fullShare.right
    | _ => fullShare
  owed _ := 0

theorem A_eq7 (c : Dev nD) (w : Fin cfg7.W) : (dat7 V c).A w = V c (Pipeline.arrRef spec7 w) := by
  dsimp only [dat7]

theorem q_eq7 (c : Dev nD) : (dat7 V c).q = fun w => match w with
    | ⟨2, _⟩ => fullShare.left
    | ⟨3, _⟩ => fullShare.right
    | _ => fullShare := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = out7_10 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t))

/-- The body at any point: the inputs' memrefs hold their blocks, so the triple applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel7 c Set.univ (grid7.coords t) _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.KFrameR8.lean ====
import proofs.«166951_j44444321579084_2_alg».proof.Proof.Gen.Kernel.Launch
import proofs.«166951_j44444321579084_2_alg».proof.Proof.Gen.Kernel.Skeleton
import proofs.«166951_j44444321579084_2_alg».proof.Proof.Gen.Kernel.Points
import Idealize.ShloMosaic.Lib.Pipeline.FrameBody
import Idealize.ShloMosaic.Lib.Tactic

/-!
# The ninth kernel call of @main (the gated MLP head), as a pipeline body: what each staging buffer holds

The call walks the 500000 edges in 123 blocks of 4096 rows. Three operands are indexed by the edge (two
feature arrays of 128 lanes and one of 32), twelve are constant weights and biases fetched once, and the result is a
`2 × 500000` array written in blocks of 4096 columns. 500000 = 122 · 4096 + 288, so the last block of each
edge-indexed operand and of the result overhangs its array: a fetch there fills the first 288 rows of the staging
buffer and leaves the other 3808 at contents nothing names, and the write-back copies only the first 288 columns.

This module states, for ANY scalar model `F`: the blocks read off the arrays as the call finds them, what the
body finds in each staging buffer, the body's triple on staging buffers at ARBITRARY contents (the body is three
whole loads of the edge blocks, twelve whole loads of the constants and one whole store), the proof data, and the
body obligation in which the RESULT's staging buffer is not described: at an abstract `F` a matrix product is
a function of its whole operands, so nothing says that the first 288 columns of the last result block do not depend
on the unnamed rows of the edge blocks. An obligation that does describe it needs that row-by-row dependence and is
proved where the scalar model provides it.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it: for an edge-indexed window at the
    last point, the 288 rows (the result: columns) inside the array. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Edge-indexed window 0 is fetched at every point: its staging buffer holds the block on the rows inside the
    array and, past them, whatever `d` the fetch left. -/
theorem before8_0_of {c : Dev nD} (dat : Dat τ (Elt F) Unit ℕ (UR sig nD τ) ℕ cfg8 c) (hA : dat.A 0 = V c (Pipeline.arrRef spec8 0))
    (t : Fin cfg8.N) (d) : dat.before 0 t d = (cfg8.win 0).fill (cfg8.grid.coords t) d (iblk8 V c 0 t) := by
  rw [dat.before_fetched 0 t (fetch8_0 t) d]; unfold Dat.fetched Dat.blockOf iblk8; rw [hA]

/-- Edge-indexed window 1 is fetched at every point: its staging buffer holds the block on the rows inside the
    array and, past them, whatever `d` the fetch left. -/
theorem before8_1_of {c : Dev nD} (dat : Dat τ (Elt F) Unit ℕ (UR sig nD τ) ℕ cfg8 c) (hA : dat.A 1 = V c (Pipeline.arrRef spec8 1))
    (t : Fin cfg8.N) (d) : dat.before 1 t d = (cfg8.win 1).fill (cfg8.grid.coords t) d (iblk8 V c 1 t) := by
  rw [dat.before_fetched 1 t (fetch8_1 t) d]; unfold Dat.fetched Dat.blockOf iblk8; rw [hA]

/-- Edge-indexed window 2 is fetched at every point: its staging buffer holds the block on the rows inside the
    array and, past them, whatever `d` the fetch left. -/
theorem before8_2_of {c : Dev nD} (dat : Dat τ (Elt F) Unit ℕ (UR sig nD τ) ℕ cfg8 c) (hA : dat.A 2 = V c (Pipeline.arrRef spec8 2))
    (t : Fin cfg8.N) (d) : dat.before 2 t d = (cfg8.win 2).fill (cfg8.grid.coords t) d (iblk8 V c 2 t) := by
  rw [dat.before_fetched 2 t (fetch8_2 t) d]; unfold Dat.fetched Dat.blockOf iblk8; rw [hA]

/-- Constant window 3 is fetched at the first point only and the body leaves it in place: its one staging buffer
    holds its block (the whole array) at every point. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Constant window 4 is fetched at the first point only and the body leaves it in place: its one staging buffer
    holds its block (the whole array) at every point. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Constant window 5 is fetched at the first point only and the body leaves it in place: its one staging buffer
    holds its block (the whole array) at every point. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Constant window 6 is fetched at the first point only and the body leaves it in place: its one staging buffer
    holds its block (the whole array) at every point. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Constant window 7 is fetched at the first point only and the body leaves it in place: its one staging buffer
    holds its block (the whole array) at every point. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Constant window 8 is fetched at the first point only and the body leaves it in place: its one staging buffer
    holds its block (the whole array) at every point. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- Constant window 9 is fetched at the first point only and the body leaves it in place: its one staging buffer
    holds its block (the whole array) at every point. -/
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)

/-- Constant window 10 is fetched at the first point only and the body leaves it in place: its one staging buffer
    holds its block (the whole array) at every point. -/
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-- Constant window 11 is fetched at the first point only and the body leaves it in place: its one staging buffer
    holds its block (the whole array) at every point. -/
theorem before8_11_of {c : Dev nD} (dat : Dat τ (Elt F) Unit ℕ (UR sig nD τ) ℕ cfg8 c) (hA : dat.A 11 = V c (Pipeline.arrRef spec8 11))
    (hafter : ∀ t, dat.after 11 t = iblk8 V c 11 t) (t : Fin cfg8.N) (d) : dat.before 11 t d = iblk8 V c 11 t :=
  (dat.before_in_eq_fetched 11 rfl (fun _ => rfl) (fun _ _ _ => rfl) (fun t => by rw [hafter]; unfold Dat.blockOf iblk8; rw [hA]; try rfl) t d).trans
    (by unfold Dat.fetched Dat.blockOf iblk8; rw [hA]; try rfl)

/-- Constant window 12 is fetched at the first point only and the body leaves it in place: its one staging buffer
    holds its block (the whole array) at every point. -/
theorem before8_12_of {c : Dev nD} (dat : Dat τ (Elt F) Unit ℕ (UR sig nD τ) ℕ cfg8 c) (hA : dat.A 12 = V c (Pipeline.arrRef spec8 12))
    (hafter : ∀ t, dat.after 12 t = iblk8 V c 12 t) (t : Fin cfg8.N) (d) : dat.before 12 t d = iblk8 V c 12 t :=
  (dat.before_in_eq_fetched 12 rfl (fun _ => rfl) (fun _ _ _ => rfl) (fun t => by rw [hafter]; unfold Dat.blockOf iblk8; rw [hA]; try rfl) t d).trans
    (by unfold Dat.fetched Dat.blockOf iblk8; rw [hA]; try rfl)

/-- Constant window 13 is fetched at the first point only and the body leaves it in place: its one staging buffer
    holds its block (the whole array) at every point. -/
theorem before8_13_of {c : Dev nD} (dat : Dat τ (Elt F) Unit ℕ (UR sig nD τ) ℕ cfg8 c) (hA : dat.A 13 = V c (Pipeline.arrRef spec8 13))
    (hafter : ∀ t, dat.after 13 t = iblk8 V c 13 t) (t : Fin cfg8.N) (d) : dat.before 13 t d = iblk8 V c 13 t :=
  (dat.before_in_eq_fetched 13 rfl (fun _ => rfl) (fun _ _ _ => rfl) (fun t => by rw [hafter]; unfold Dat.blockOf iblk8; rw [hA]; try rfl) t d).trans
    (by unfold Dat.fetched Dat.blockOf iblk8; rw [hA]; try rfl)

/-- Constant window 14 is fetched at the first point only and the body leaves it in place: its one staging buffer
    holds its block (the whole array) at every point. -/
theorem before8_14_of {c : Dev nD} (dat : Dat τ (Elt F) Unit ℕ (UR sig nD τ) ℕ cfg8 c) (hA : dat.A 14 = V c (Pipeline.arrRef spec8 14))
    (hafter : ∀ t, dat.after 14 t = iblk8 V c 14 t) (t : Fin cfg8.N) (d) : dat.before 14 t d = iblk8 V c 14 t :=
  (dat.before_in_eq_fetched 14 rfl (fun _ => rfl) (fun _ _ _ => rfl) (fun t => by rw [hafter]; unfold Dat.blockOf iblk8; rw [hA]; try rfl) t d).trans
    (by unfold Dat.fetched Dat.blockOf iblk8; rw [hA]; try rfl)

/-- The result's block is written back at every point, so the body always finds its staging buffer at contents
    nothing names. -/
theorem before8_15_of {c : Dev nD} (dat : Dat τ (Elt F) Unit ℕ (UR sig nD τ) ℕ cfg8 c) (t : Fin cfg8.N) (d) :
    dat.before 15 t d = d :=
  dat.before_out_reset 15 rfl t
    (by
      by_cases h : t.val = 0
      · exact .inl h
      · exact .inr ⟨h, flush8_15 _⟩) d

/-! ## The body's accesses: every load and the one store span a whole staging buffer -/

abbrev ld8_0 : Rect S4096x128 := Rect.unit (s := S4096x128) ![0, 0] S4096x128.size inb_S4096x128_S4096x128_0_0
abbrev ld8_1 : Rect S4096x128 := Rect.unit (s := S4096x128) ![0, 0] S4096x128.size inb_S4096x128_S4096x128_0_0
abbrev ld8_2 : Rect S4096x32 := Rect.unit (s := S4096x32) ![0, 0] S4096x32.size inb_S4096x32_S4096x32_0_0
abbrev ld8_3 : Rect S128x128 := Rect.unit (s := S128x128) ![0, 0] S128x128.size inb_S128x128_S128x128_0_0
abbrev ld8_4 : Rect S128x128 := Rect.unit (s := S128x128) ![0, 0] S128x128.size inb_S128x128_S128x128_0_0
abbrev ld8_5 : Rect S1x128 := Rect.unit (s := S1x128) ![0, 0] S1x128.size inb_S1x128_S1x128_0_0
abbrev ld8_6 : Rect S128x1 := Rect.unit (s := S128x1) ![0, 0] S128x1.size inb_S128x1_S128x1_0_0
abbrev ld8_7 : Rect S1x1 := Rect.unit (s := S1x1) ![0, 0] S1x1.size inb_S1x1_S1x1_0_0
abbrev ld8_8 : Rect S128x128 := Rect.unit (s := S128x128) ![0, 0] S128x128.size inb_S128x128_S128x128_0_0
abbrev ld8_9 : Rect S32x128 := Rect.unit (s := S32x128) ![0, 0] S32x128.size inb_S32x128_S32x128_0_0
abbrev ld8_10 : Rect S1x128 := Rect.unit (s := S1x128) ![0, 0] S1x128.size inb_S1x128_S1x128_0_0
abbrev ld8_11 : Rect S128x64 := Rect.unit (s := S128x64) ![0, 0] S128x64.size inb_S128x64_S128x64_0_0
abbrev ld8_12 : Rect S1x64 := Rect.unit (s := S1x64) ![0, 0] S1x64.size inb_S1x64_S1x64_0_0
abbrev ld8_13 : Rect S64x2 := Rect.unit (s := S64x2) ![0, 0] S64x2.size inb_S64x2_S64x2_0_0
abbrev ld8_14 : Rect S1x2 := Rect.unit (s := S1x2) ![0, 0] S1x2.size inb_S1x2_S1x2_0_0
abbrev st8r_15 : Rect S2x4096 := Rect.unit (s := S2x4096) ![0, 0] S2x4096.size inb_S2x4096_S2x4096_0_0

/-! ## What the body leaves in the result's staging buffer -/

/-- The result's staging buffer after the body, from the contents of the fifteen input buffers: its one store,
    of the gated, three-layer product chain of the three edge blocks with the twelve constants, transposed. -/
def out8_15 (x0 : Vec F S4096x128 .f32) (x1 : Vec F S4096x128 .f32) (x2 : Vec F S4096x32 .f32) (x3 : Vec F S128x128 .bf16) (x4 : Vec F S128x128 .bf16) (x5 : Vec F S1x128 .f32) (x6 : Vec F S128x1 .bf16) (x7 : Vec F S1x1 .f32) (x8 : Vec F S128x128 .bf16) (x9 : Vec F S32x128 .bf16) (x10 : Vec F S1x128 .f32) (x11 : Vec F S128x64 .bf16) (x12 : Vec F S1x64 .f32) (x13 : Vec F S64x2 .bf16) (x14 : Vec F S1x2 .f32) : Vec F S2x4096 .f32 :=
  View.canon [⟨st8r_15, k8_pay1 (k8_pay2 (View.ld x2 ld8_2)) (k8_pay3 (View.ld x0 ld8_0) (View.ld x1 ld8_1) (View.ld x3 ld8_3) (View.ld x4 ld8_4) (View.ld x5 ld8_5) (View.ld x6 ld8_6) (View.ld x7 ld8_7)) (View.ld x8 ld8_8) (View.ld x9 ld8_9) (View.ld x10 ld8_10) (View.ld x11 ld8_11) (View.ld x12 ld8_12) (View.ld x13 ld8_13) (View.ld x14 ld8_14)⟩]

/-- The one store spans the buffer. -/
theorem cover8_15 (p0 : Vec F S2x4096 .f32) (y : S2x4096.Idx) :
    ∃ pc ∈ ([⟨st8r_15, p0⟩] : List (View.Piece (Elt F) S2x4096 .f32)), y ∈ pc.1.set :=
  View.cover_of_tiled [⟨st8r_15, p0⟩] S2x4096.size (by rfl) y

/-! ## The body's triple -/

set_option maxHeartbeats 1000000 in
/-- The kernel body on whole staging buffers, the inputs' at ANY read contents `x0 … x14` and the result's at
    anything, runs to the continuation holding the inputs' as they were and the result's at `out8_15` of them. -/
theorem sound_kernel8 (c : Dev nD) (E : Set ℕ) (i : grid8.Coords) (arg1 : Memref sig .tc .vmem S4096x128 .f32) (harg1 : arg1.IsWhole) (arg2 : Memref sig .tc .vmem S4096x128 .f32) (harg2 : arg2.IsWhole) (arg3 : Memref sig .tc .vmem S4096x32 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x1 .bf16) (harg7 : arg7.IsWhole) (arg8 : Memref sig .tc .vmem S1x1 .f32) (harg8 : arg8.IsWhole) (arg9 : Memref sig .tc .vmem S128x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x64 .bf16) (harg12 : arg12.IsWhole) (arg13 : Memref sig .tc .vmem S1x64 .f32) (harg13 : arg13.IsWhole) (arg14 : Memref sig .tc .vmem S64x2 .bf16) (harg14 : arg14.IsWhole) (arg15 : Memref sig .tc .vmem S1x2 .f32) (harg15 : arg15.IsWhole) (arg16 : Memref sig .tc .vmem S2x4096 .f32) (harg16 : arg16.IsWhole)
    (x0 : Vec F S4096x128 .f32) (x1 : Vec F S4096x128 .f32) (x2 : Vec F S4096x32 .f32) (x3 : Vec F S128x128 .bf16) (x4 : Vec F S128x128 .bf16) (x5 : Vec F S1x128 .f32) (x6 : Vec F S128x1 .bf16) (x7 : Vec F S1x1 .f32) (x8 : Vec F S128x128 .bf16) (x9 : Vec F S32x128 .bf16) (x10 : Vec F S1x128 .f32) (x11 : Vec F S128x64 .bf16) (x12 : Vec F S1x64 .f32) (x13 : Vec F S64x2 .bf16) (x14 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out8_15 x0 x1 x2 x3 x4 x5 x6 x7 x8 x9 x10 x11 x12 x13 x14)) -∗ K ⟨⟩))
      ⊢ wp frame (wpE (defs₀ (F := F)) Variants.none c none) E (cc8__gate_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc8__gate_mlp_kernel_eq_skeleton]; unfold cc8__gate_mlp_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  try dsimp only
  exact View.read_writes_eq_canon _ _ _ (cover8_15 _)

/-! ## The proof data -/

/-- Edge-indexed window 0's block at point `t` filled out to the staging buffer's shape with the zero word past the
    array's end: a name for contents that ARE the block on the rows inside the array (all the obligation reads of it). -/
def xin8_0 (c : Dev nD) (t : Fin cfg8.N) : Vec F S4096x128 .f32 :=
  (cfg8.win 0).fill (cfg8.grid.coords t) (fun _ => Scalar.ofBits .f32 0#32) (iblk8 V c 0 t)

/-- Edge-indexed window 1's block at point `t` filled out to the staging buffer's shape with the zero word past the
    array's end: a name for contents that ARE the block on the rows inside the array (all the obligation reads of it). -/
def xin8_1 (c : Dev nD) (t : Fin cfg8.N) : Vec F S4096x128 .f32 :=
  (cfg8.win 1).fill (cfg8.grid.coords t) (fun _ => Scalar.ofBits .f32 0#32) (iblk8 V c 1 t)

/-- Edge-indexed window 2's block at point `t` filled out to the staging buffer's shape with the zero word past the
    array's end: a name for contents that ARE the block on the rows inside the array (all the obligation reads of it). -/
def xin8_2 (c : Dev nD) (t : Fin cfg8.N) : Vec F S4096x32 .f32 :=
  (cfg8.win 2).fill (cfg8.grid.coords t) (fun _ => Scalar.ofBits .f32 0#32) (iblk8 V c 2 t)

/-- The proof data of this pipeline on core `c`: the arrays as the call finds them (`V`); after the body at point
    `t` each constant's buffer at its block, each edge-indexed input's at its block (zero-filled past the array's
    end), the result's at `out8_15` of those; the invariant the scoped rest and the generator register, untouched;
    nothing owed; full shares. -/
def dat8 (c : Dev nD) : Dat τ (Elt F) Unit ℕ (UR sig nD τ) ℕ cfg8 c where
  A w := V c (Pipeline.arrRef spec8 w)
  after w t := match w with
    | ⟨0, _⟩ => xin8_0 V c t
    | ⟨1, _⟩ => xin8_1 V c t
    | ⟨2, _⟩ => xin8_2 V c t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => iblk8 V c 14 t
    | ⟨15, _⟩ => out8_15 (xin8_0 V c t) (xin8_1 V c t) (xin8_2 V c t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t)
    | ⟨_ + 16, h⟩ => absurd h (Nat.not_lt.2 (Nat.le_add_left _ _))
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = xin8_0 V c t := by dsimp only [dat8]
theorem after8_1 (c : Dev nD) (t : Fin cfg8.N) : (dat8 V c).after 1 t = xin8_1 V c t := by dsimp only [dat8]
theorem after8_2 (c : Dev nD) (t : Fin cfg8.N) : (dat8 V c).after 2 t = xin8_2 V c t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = iblk8 V c 11 t := by dsimp only [dat8]
theorem after8_12 (c : Dev nD) (t : Fin cfg8.N) : (dat8 V c).after 12 t = iblk8 V c 12 t := by dsimp only [dat8]
theorem after8_13 (c : Dev nD) (t : Fin cfg8.N) : (dat8 V c).after 13 t = iblk8 V c 13 t := by dsimp only [dat8]
theorem after8_14 (c : Dev nD) (t : Fin cfg8.N) : (dat8 V c).after 14 t = iblk8 V c 14 t := by dsimp only [dat8]
theorem after8_15 (c : Dev nD) (t : Fin cfg8.N) : (dat8 V c).after 15 t = out8_15 (xin8_0 V c t) (xin8_1 V c t) (xin8_2 V c t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) := by dsimp only [dat8]

/-- What the body finds, window by window. -/
theorem before8_0 (c : Dev nD) (t : Fin cfg8.N) (d) : (dat8 V c).before 0 t d = (cfg8.win 0).fill (cfg8.grid.coords t) d (iblk8 V c 0 t) :=
  before8_0_of V (dat8 V c) (A_eq8 V c 0) t d
theorem before8_1 (c : Dev nD) (t : Fin cfg8.N) (d) : (dat8 V c).before 1 t d = (cfg8.win 1).fill (cfg8.grid.coords t) d (iblk8 V c 1 t) :=
  before8_1_of V (dat8 V c) (A_eq8 V c 1) t d
theorem before8_2 (c : Dev nD) (t : Fin cfg8.N) (d) : (dat8 V c).before 2 t d = (cfg8.win 2).fill (cfg8.grid.coords t) d (iblk8 V c 2 t) :=
  before8_2_of V (dat8 V c) (A_eq8 V c 2) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d
theorem before8_11 (c : Dev nD) (t : Fin cfg8.N) (d) : (dat8 V c).before 11 t d = iblk8 V c 11 t :=
  before8_11_of V (dat8 V c) (A_eq8 V c 11) (after8_11 V c) t d
theorem before8_12 (c : Dev nD) (t : Fin cfg8.N) (d) : (dat8 V c).before 12 t d = iblk8 V c 12 t :=
  before8_12_of V (dat8 V c) (A_eq8 V c 12) (after8_12 V c) t d
theorem before8_13 (c : Dev nD) (t : Fin cfg8.N) (d) : (dat8 V c).before 13 t d = iblk8 V c 13 t :=
  before8_13_of V (dat8 V c) (A_eq8 V c 13) (after8_13 V c) t d
theorem before8_14 (c : Dev nD) (t : Fin cfg8.N) (d) : (dat8 V c).before 14 t d = iblk8 V c 14 t :=
  before8_14_of V (dat8 V c) (A_eq8 V c 14) (after8_14 V c) t d
theorem before8_15 (c : Dev nD) (t : Fin cfg8.N) (d) : (dat8 V c).before 15 t d = d := before8_15_of (dat8 V c) t d

/-- On the rows inside the array, what the proof data says an edge-indexed input's buffer holds after the body is the
    block: filling any contents with that part gives the block filled out with those contents. -/
theorem keep8_0 (c : Dev nD) (t : Fin cfg8.N) (d : (cfg8.win 0).block.Idx → Elt F (cfg8.win 0).elt) :
    (cfg8.win 0).fill (cfg8.grid.coords t) d ((cfg8.win 0).cut (cfg8.grid.coords t) ((dat8 V c).after 0 t))
      = (cfg8.win 0).fill (cfg8.grid.coords t) d (iblk8 V c 0 t) := by
  rw [after8_0]; unfold xin8_0; rw [Window.cut_fill]
theorem keep8_1 (c : Dev nD) (t : Fin cfg8.N) (d : (cfg8.win 1).block.Idx → Elt F (cfg8.win 1).elt) :
    (cfg8.win 1).fill (cfg8.grid.coords t) d ((cfg8.win 1).cut (cfg8.grid.coords t) ((dat8 V c).after 1 t))
      = (cfg8.win 1).fill (cfg8.grid.coords t) d (iblk8 V c 1 t) := by
  rw [after8_1]; unfold xin8_1; rw [Window.cut_fill]
theorem keep8_2 (c : Dev nD) (t : Fin cfg8.N) (d : (cfg8.win 2).block.Idx → Elt F (cfg8.win 2).elt) :
    (cfg8.win 2).fill (cfg8.grid.coords t) d ((cfg8.win 2).cut (cfg8.grid.coords t) ((dat8 V c).after 2 t))
      = (cfg8.win 2).fill (cfg8.grid.coords t) d (iblk8 V c 2 t) := by
  rw [after8_2]; unfold xin8_2; rw [Window.cut_fill]

/-! ## The body obligation that does not describe the result's buffer -/

/-- The windows whose staging buffer the obligation below hands over and takes back at unstated contents: the
    result's. -/
def fgt8 : Fin cfg8.W → Bool := fun w => decide (w = 15)

/-- What the body is called with at point `t`: the invariant, nothing owed, the fifteen input buffers at what the
    fetches left and the result's at anything, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d))
    ∗ (∃ d, owns (c : Thread nD τ) (st8_13 t) fullShare ((dat8 V c).before 13 t d))
    ∗ (∃ d, owns (c : Thread nD τ) (st8_14 t) fullShare ((dat8 V c).before 14 t d))
    ∗ (∃ X, owns (c : Thread nD τ) (st8_15 t) fullShare X))

/-- and what it returns: the edge-indexed inputs' buffers at their blocks on the rows inside the array, the constants'
    at their blocks, the result's at anything. -/
def bodyPost8 (c : Dev nD) (t : Fin cfg8.N) : sProp 𝕄 :=
  iprop((dat8 V c).Φ t.succ ∗ (dat8 V c).owesAt () t.succ
    ∗ (∃ d, owns (c : Thread nD τ) (st8_0 t) fullShare ((cfg8.win 0).fill (cfg8.grid.coords t) d ((cfg8.win 0).cut (cfg8.grid.coords t) ((dat8 V c).after 0 t))))
    ∗ (∃ d, owns (c : Thread nD τ) (st8_1 t) fullShare ((cfg8.win 1).fill (cfg8.grid.coords t) d ((cfg8.win 1).cut (cfg8.grid.coords t) ((dat8 V c).after 1 t))))
    ∗ (∃ d, owns (c : Thread nD τ) (st8_2 t) fullShare ((cfg8.win 2).fill (cfg8.grid.coords t) d ((cfg8.win 2).cut (cfg8.grid.coords t) ((dat8 V c).after 2 t))))
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t)
    ∗ owns (c : Thread nD τ) (st8_13 t) fullShare ((dat8 V c).after 13 t)
    ∗ owns (c : Thread nD τ) (st8_14 t) fullShare ((dat8 V c).after 14 t)
    ∗ (∃ X, owns (c : Thread nD τ) (st8_15 t) fullShare X))

/-- The body at any point: whatever the input buffers hold, `sound_kernel8` applies; the inputs come back as they
    were, the invariant and the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10, before8_11, before8_12, before8_13, before8_14]
  rw [show (dat8 V c).Φ t.succ = (dat8 V c).Φ t.castSucc from rfl,
    show (dat8 V c).owesAt () t.succ = (dat8 V c).owesAt () t.castSucc from rfl,
    after8_3, after8_4, after8_5, after8_6, after8_7, after8_8, after8_9, after8_10, after8_11, after8_12, after8_13, after8_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%X15, H15⟩⟩
  iapply (sound_kernel8 c Set.univ _ _ _ _ _ _ _ _ _ _ _ _ _ _ _ _ _ _ _ _ _ _ _ _ _ _ _ _ _ _ _ _ _
    ((cfg8.win 0).fill (cfg8.grid.coords t) d0 (iblk8 V c 0 t)) ((cfg8.win 1).fill (cfg8.grid.coords t) d1 (iblk8 V c 1 t)) ((cfg8.win 2).fill (cfg8.grid.coords t) d2 (iblk8 V c 2 t))
    (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexists d0; rw [keep8_0 V c t d0]; iexact H0
  isplitl [H1]; · iexists d1; rw [keep8_1 V c t d1]; iexact H1
  isplitl [H2]; · iexists d2; rw [keep8_2 V c t d2]; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

/-- The body obligation at every point, the result's buffer forgotten (`fgt8`): for any scalar model. -/
theorem body_obligation8_fgt (c : Dev nD) :
    BodyObligationLoose (dat8 (F := F) V c) (defs₀ (F := F)) Variants.none () Set.univ fgt8 := fun t => by
  rw [bigSep_W8, bigSep_W8]
  exact sound_body8 V c t

end Cert.Kernel.Hand

end
-- ==== Proof.KFold.lean ====
import proofs.«166951_j44444321579084_2_alg».proof.Proof.KHost
import proofs.«166951_j44444321579084_2_alg».proof.Proof.KFrameR0
import proofs.«166951_j44444321579084_2_alg».proof.Proof.KFrameR1
import proofs.«166951_j44444321579084_2_alg».proof.Proof.KFrameR2
import proofs.«166951_j44444321579084_2_alg».proof.Proof.KFrameR3
import proofs.«166951_j44444321579084_2_alg».proof.Proof.KFrameR4
import proofs.«166951_j44444321579084_2_alg».proof.Proof.KFrameR5
import proofs.«166951_j44444321579084_2_alg».proof.Proof.KFrameR6
import proofs.«166951_j44444321579084_2_alg».proof.Proof.KFrameR7
import proofs.«166951_j44444321579084_2_alg».proof.Proof.KFrameR8
import Idealize.ShloMosaic.Lib.Pipeline.RegionsLoop
import Idealize.ShloMosaic.Lib.Pipeline.FrameSuffix

/-! # @main's buffer contents, item by item

@main is 27 items in order: 18 host pieces and 9 kernel regions. `W0` is the launch memory read at a core's buffers;
item `j` takes the contents `Wj` to `W(j+1)`:

* a host piece rewrites the results of its operations, in order (`StableHlo.after`);
* a kernel region leaves every buffer as entered except its output window's array, which ends at what the
  pipeline's write-backs leave (`Dat.arrAt … N`). For the calls whose windows are handed distinct arrays the exit
  contents are written with `Pipeline.withArrays` (every window's array at its `arrAt … N`, which for an input is its
  entry contents); for the four calls that hand one array to two input windows they are the entry contents
  updated at the output array alone.

Every item therefore leaves a reference it does not write as it found it (`W(j+1)_of`), and a reference no item
writes — every argument of @main — ends holding its launch contents (`W27_of_unwritten`, `W27_main_argJ`).

For call 8 the closed form the proof data give its output block is NOT what the body stores there at the array's
edge (the run reads that window as forgotten: KRel.lean). `W26` and `W27` are therefore the contents the named data
would leave; the run uses them only through `W27_main_argJ`, at references other than `main_v429` and `main_v430`,
where every item's effect is as described above.

The second half fixes what the run of the segments is stated over: every pipeline's proof data at its region's
entry contents (`pdats`), the thread state riding beside the buffers (`R`), a host piece as a segment (`hseg`). -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After item 0, the host piece `main_part0_ops0`. -/
abbrev W1 : Dev nD → Valuation τ sig (Elt F) := fun c => StableHlo.after main_part0_ops0 (W0 m ρ c)
/-- The piece leaves a reference it does not write as it found it. -/
theorem W1_of (c : Dev nD) (r : Ref sig .tc) (h : r ∉ main_part0_ops0_W) :
    W1 m ρ c (Proc.devRef .tc r) = W0 m ρ c (Proc.devRef .tc r) :=
  StableHlo.after_of_writes_sub main_part0_ops0 _ main_part0_ops0_writes h

/-! ### Item 1: region 0 (custom_call 0), entered at `W1`, left at `W2`; its output window 5 writes `main_v4` -/

/-- The entry contents read at the TensorCore's references (what region 0's proof data take). -/
abbrev V1 : (c : Dev nD) → (b : Ref sig .tc) → Buf (Elt F) ((c : Thread nD τ).loc b) := fun c b => W1 m ρ c b
/-- Every window of call 0 but the output is an input, and its array is not the output's. -/
theorem in_of_ne0 : ∀ w : Fin cfg0.W, w ≠ 5 → (cfg0.win w).isOut = false ∧ Pipeline.arrRef spec0 w ≠ main_v4 := by decide
/-- At region 0's exit: its arrays at what the pipeline leaves (an input's as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The output array holds the output window's write-backs folded over its entry contents. -/
theorem W2_out (c : Dev nD) :
    W2 m ρ c (Proc.devRef .tc main_v4) = (dat0 (V1 m ρ) c).arrAt 5 cfg0.N := W2_arr m ρ c 5
/-- The region leaves every reference but its output array as it found it: an input window's array by
    `Dat.arrAt_in`, a buffer that is no window's array by `withArrays_of_ne`. -/
theorem W2_of (c : Dev nD) (r : Ref sig .tc) (h : r ≠ main_v4) :
    W2 m ρ c (Proc.devRef .tc r) = W1 m ρ c (Proc.devRef .tc r) := by
  by_cases hr : ∃ w, Pipeline.arrRef spec0 w = r
  · obtain ⟨w, rfl⟩ := hr
    have hw : w ≠ 5 := fun e => h (e ▸ rfl)
    exact (W2_arr m ρ c w).trans (((dat0 (V1 m ρ) c).arrAt_in w (in_of_ne0 w hw).1 _).trans (A_eq0 (V1 m ρ) c w))
  · exact W2_of_ne m ρ c r fun w e => hr ⟨w, e⟩
/-- The exit contents read at the TensorCore's references. -/
abbrev V2 : (c : Dev nD) → (b : Ref sig .tc) → Buf (Elt F) ((c : Thread nD τ).loc b) := fun c b => W2 m ρ c b
/-- At the exit each of the region's arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After item 2, the host piece `main_part0_ops1`. -/
abbrev W3 : Dev nD → Valuation τ sig (Elt F) := fun c => StableHlo.after main_part0_ops1 (W2 m ρ c)
/-- The piece leaves a reference it does not write as it found it. -/
theorem W3_of (c : Dev nD) (r : Ref sig .tc) (h : r ∉ main_part0_ops1_W) :
    W3 m ρ c (Proc.devRef .tc r) = W2 m ρ c (Proc.devRef .tc r) :=
  StableHlo.after_of_writes_sub main_part0_ops1 _ main_part0_ops1_writes h

/-! ### Item 3: region 1 (custom_call 1), entered at `W3`, left at `W4`; its output window 5 writes `main_v9` -/

/-- The entry contents read at the TensorCore's references (what region 1's proof data take). -/
abbrev V3 : (c : Dev nD) → (b : Ref sig .tc) → Buf (Elt F) ((c : Thread nD τ).loc b) := fun c b => W3 m ρ c b
/-- Every window of call 1 but the output is an input, and its array is not the output's. -/
theorem in_of_ne1 : ∀ w : Fin cfg1.W, w ≠ 5 → (cfg1.win w).isOut = false ∧ Pipeline.arrRef spec1 w ≠ main_v9 := by decide
/-- At region 1's exit: its arrays at what the pipeline leaves (an input's as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The output array holds the output window's write-backs folded over its entry contents. -/
theorem W4_out (c : Dev nD) :
    W4 m ρ c (Proc.devRef .tc main_v9) = (dat1 (V3 m ρ) c).arrAt 5 cfg1.N := W4_arr m ρ c 5
/-- The region leaves every reference but its output array as it found it: an input window's array by
    `Dat.arrAt_in`, a buffer that is no window's array by `withArrays_of_ne`. -/
theorem W4_of (c : Dev nD) (r : Ref sig .tc) (h : r ≠ main_v9) :
    W4 m ρ c (Proc.devRef .tc r) = W3 m ρ c (Proc.devRef .tc r) := by
  by_cases hr : ∃ w, Pipeline.arrRef spec1 w = r
  · obtain ⟨w, rfl⟩ := hr
    have hw : w ≠ 5 := fun e => h (e ▸ rfl)
    exact (W4_arr m ρ c w).trans (((dat1 (V3 m ρ) c).arrAt_in w (in_of_ne1 w hw).1 _).trans (A_eq1 (V3 m ρ) c w))
  · exact W4_of_ne m ρ c r fun w e => hr ⟨w, e⟩
/-- The exit contents read at the TensorCore's references. -/
abbrev V4 : (c : Dev nD) → (b : Ref sig .tc) → Buf (Elt F) ((c : Thread nD τ).loc b) := fun c b => W4 m ρ c b
/-- At the exit each of the region's arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After item 4, the host piece `main_part0_ops2`. -/
abbrev W5 : Dev nD → Valuation τ sig (Elt F) := fun c => StableHlo.after main_part0_ops2 (W4 m ρ c)
/-- The piece leaves a reference it does not write as it found it. -/
theorem W5_of (c : Dev nD) (r : Ref sig .tc) (h : r ∉ main_part0_ops2_W) :
    W5 m ρ c (Proc.devRef .tc r) = W4 m ρ c (Proc.devRef .tc r) :=
  StableHlo.after_of_writes_sub main_part0_ops2 _ main_part0_ops2_writes h

/-- After item 5, the host piece `main_part1_ops0`. -/
abbrev W6 : Dev nD → Valuation τ sig (Elt F) := fun c => StableHlo.after main_part1_ops0 (W5 m ρ c)
/-- The piece leaves a reference it does not write as it found it. -/
theorem W6_of (c : Dev nD) (r : Ref sig .tc) (h : r ∉ main_part1_ops0_W) :
    W6 m ρ c (Proc.devRef .tc r) = W5 m ρ c (Proc.devRef .tc r) :=
  StableHlo.after_of_writes_sub main_part1_ops0 _ main_part1_ops0_writes h

/-- After item 6, the host piece `main_part2_ops0`. -/
abbrev W7 : Dev nD → Valuation τ sig (Elt F) := fun c => StableHlo.after main_part2_ops0 (W6 m ρ c)
/-- The piece leaves a reference it does not write as it found it. -/
theorem W7_of (c : Dev nD) (r : Ref sig .tc) (h : r ∉ main_part2_ops0_W) :
    W7 m ρ c (Proc.devRef .tc r) = W6 m ρ c (Proc.devRef .tc r) :=
  StableHlo.after_of_writes_sub main_part2_ops0 _ main_part2_ops0_writes h

/-! ### Item 7: region 2 (custom_call 2), entered at `W7`, left at `W8`; its output window 9 writes `main_v136` -/

/-- The entry contents read at the TensorCore's references (what region 2's proof data take). -/
abbrev V7 : (c : Dev nD) → (b : Ref sig .tc) → Buf (Elt F) ((c : Thread nD τ).loc b) := fun c b => W7 m ρ c b
/-- Every window of call 2 but the output is an input, and its array is not the output's. -/
theorem in_of_ne2 : ∀ w : Fin cfg2.W, w ≠ 9 → (cfg2.win w).isOut = false ∧ Pipeline.arrRef spec2 w ≠ main_v136 := by decide
/-- At region 2's exit: its arrays at what the pipeline leaves (an input's as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The output array holds the output window's write-backs folded over its entry contents. -/
theorem W8_out (c : Dev nD) :
    W8 m ρ c (Proc.devRef .tc main_v136) = (dat2 (V7 m ρ) c).arrAt 9 cfg2.N := W8_arr m ρ c 9
/-- The region leaves every reference but its output array as it found it: an input window's array by
    `Dat.arrAt_in`, a buffer that is no window's array by `withArrays_of_ne`. -/
theorem W8_of (c : Dev nD) (r : Ref sig .tc) (h : r ≠ main_v136) :
    W8 m ρ c (Proc.devRef .tc r) = W7 m ρ c (Proc.devRef .tc r) := by
  by_cases hr : ∃ w, Pipeline.arrRef spec2 w = r
  · obtain ⟨w, rfl⟩ := hr
    have hw : w ≠ 9 := fun e => h (e ▸ rfl)
    exact (W8_arr m ρ c w).trans (((dat2 (V7 m ρ) c).arrAt_in w (in_of_ne2 w hw).1 _).trans (A_eq2 (V7 m ρ) c w))
  · exact W8_of_ne m ρ c r fun w e => hr ⟨w, e⟩
/-- The exit contents read at the TensorCore's references. -/
abbrev V8 : (c : Dev nD) → (b : Ref sig .tc) → Buf (Elt F) ((c : Thread nD τ).loc b) := fun c b => W8 m ρ c b
/-- At the exit each of the region's arrays holds what the pipeline leaves (`hF2`) and every other buffer what it
    held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After item 8, the host piece `main_part2_ops1`. -/
abbrev W9 : Dev nD → Valuation τ sig (Elt F) := fun c => StableHlo.after main_part2_ops1 (W8 m ρ c)
/-- The piece leaves a reference it does not write as it found it. -/
theorem W9_of (c : Dev nD) (r : Ref sig .tc) (h : r ∉ main_part2_ops1_W) :
    W9 m ρ c (Proc.devRef .tc r) = W8 m ρ c (Proc.devRef .tc r) :=
  StableHlo.after_of_writes_sub main_part2_ops1 _ main_part2_ops1_writes h

/-- After item 9, the host piece `main_part3_ops0`. -/
abbrev W10 : Dev nD → Valuation τ sig (Elt F) := fun c => StableHlo.after main_part3_ops0 (W9 m ρ c)
/-- The piece leaves a reference it does not write as it found it. -/
theorem W10_of (c : Dev nD) (r : Ref sig .tc) (h : r ∉ main_part3_ops0_W) :
    W10 m ρ c (Proc.devRef .tc r) = W9 m ρ c (Proc.devRef .tc r) :=
  StableHlo.after_of_writes_sub main_part3_ops0 _ main_part3_ops0_writes h

/-! ### Item 10: region 3 (custom_call 3), entered at `W10`, left at `W11`; its output window 9 writes `main_v159` -/

/-- The entry contents read at the TensorCore's references (what region 3's proof data take). -/
abbrev V10 : (c : Dev nD) → (b : Ref sig .tc) → Buf (Elt F) ((c : Thread nD τ).loc b) := fun c b => W10 m ρ c b
/-- Every window of call 3 but the output is an input, and its array is not the output's. -/
theorem in_of_ne3 : ∀ w : Fin cfg3.W, w ≠ 9 → (cfg3.win w).isOut = false ∧ Pipeline.arrRef spec3 w ≠ main_v159 := by decide
/-- At region 3's exit: its arrays at what the pipeline leaves (an input's as entered, the output's write-backs
    folded), every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- The output array holds the output window's write-backs folded over its entry contents. -/
theorem W11_out (c : Dev nD) :
    W11 m ρ c (Proc.devRef .tc main_v159) = (dat3 (V10 m ρ) c).arrAt 9 cfg3.N := W11_arr m ρ c 9
/-- The region leaves every reference but its output array as it found it: an input window's array by
    `Dat.arrAt_in`, a buffer that is no window's array by `withArrays_of_ne`. -/
theorem W11_of (c : Dev nD) (r : Ref sig .tc) (h : r ≠ main_v159) :
    W11 m ρ c (Proc.devRef .tc r) = W10 m ρ c (Proc.devRef .tc r) := by
  by_cases hr : ∃ w, Pipeline.arrRef spec3 w = r
  · obtain ⟨w, rfl⟩ := hr
    have hw : w ≠ 9 := fun e => h (e ▸ rfl)
    exact (W11_arr m ρ c w).trans (((dat3 (V10 m ρ) c).arrAt_in w (in_of_ne3 w hw).1 _).trans (A_eq3 (V10 m ρ) c w))
  · exact W11_of_ne m ρ c r fun w e => hr ⟨w, e⟩
/-- The exit contents read at the TensorCore's references. -/
abbrev V11 : (c : Dev nD) → (b : Ref sig .tc) → Buf (Elt F) ((c : Thread nD τ).loc b) := fun c b => W11 m ρ c b
/-- At the exit each of the region's arrays holds what the pipeline leaves (`hF3`) and every other buffer what it
    held at entry (`hrest3`). -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-- After item 11, the host piece `main_part3_ops1`. -/
abbrev W12 : Dev nD → Valuation τ sig (Elt F) := fun c => StableHlo.after main_part3_ops1 (W11 m ρ c)
/-- The piece leaves a reference it does not write as it found it. -/
theorem W12_of (c : Dev nD) (r : Ref sig .tc) (h : r ∉ main_part3_ops1_W) :
    W12 m ρ c (Proc.devRef .tc r) = W11 m ρ c (Proc.devRef .tc r) :=
  StableHlo.after_of_writes_sub main_part3_ops1 _ main_part3_ops1_writes h

/-- After item 12, the host piece `main_part4_ops0`. -/
abbrev W13 : Dev nD → Valuation τ sig (Elt F) := fun c => StableHlo.after main_part4_ops0 (W12 m ρ c)
/-- The piece leaves a reference it does not write as it found it. -/
theorem W13_of (c : Dev nD) (r : Ref sig .tc) (h : r ∉ main_part4_ops0_W) :
    W13 m ρ c (Proc.devRef .tc r) = W12 m ρ c (Proc.devRef .tc r) :=
  StableHlo.after_of_writes_sub main_part4_ops0 _ main_part4_ops0_writes h

/-! ### Item 13: region 4 (custom_call 4), entered at `W13`, left at `W14`; its output window 10 writes `main_v250` -/

/-- The entry contents read at the TensorCore's references (what region 4's proof data take). -/
abbrev V13 : (c : Dev nD) → (b : Ref sig .tc) → Buf (Elt F) ((c : Thread nD τ).loc b) := fun c b => W13 m ρ c b
/-- Every window of call 4 but the output is an input, and its array is not the output's. -/
theorem in_of_ne4 : ∀ w : Fin cfg4.W, w ≠ 10 → (cfg4.win w).isOut = false ∧ Pipeline.arrRef spec4 w ≠ main_v250 := by decide
/-- At region 4's exit: the output array at the output window's write-backs folded over its entry contents, every
    other buffer as entered (two input windows of this call are handed one array, so the exit contents are written
    as an update at the one array that changes). -/
def W14 (c : Dev nD) : Valuation τ sig (Elt F) :=
  Function.update (W13 m ρ c) (Proc.devRef .tc main_v250) ((dat4 (V13 m ρ) c).arrAt 10 cfg4.N)
/-- The output array holds the output window's write-backs folded over its entry contents. -/
theorem W14_out (c : Dev nD) :
    W14 m ρ c (Proc.devRef .tc main_v250) = (dat4 (V13 m ρ) c).arrAt 10 cfg4.N := by
  unfold W14; exact Function.update_self ..
/-- The region leaves every reference but its output array as it found it. -/
theorem W14_of (c : Dev nD) (r : Ref sig .tc) (h : r ≠ main_v250) :
    W14 m ρ c (Proc.devRef .tc r) = W13 m ρ c (Proc.devRef .tc r) := by
  unfold W14; exact Function.update_of_ne (StableHlo.devRef_ne_of_ne h) _ _
theorem W14_arr (c : Dev nD) (w : Fin cfg4.W) :
    W14 m ρ c (Proc.devRef .tc (Pipeline.arrRef spec4 w)) = (dat4 (V13 m ρ) c).arrAt w cfg4.N := by
  by_cases hw : w = 10
  · subst hw; exact W14_out m ρ c
  · exact (W14_of m ρ c _ (in_of_ne4 w hw).2).trans
      (((dat4 (V13 m ρ) c).arrAt_in w (in_of_ne4 w hw).1 _).trans (A_eq4 (V13 m ρ) c w)).symm
theorem W14_of_ne (c : Dev nD) (b : Ref sig .tc) (hb : ∀ w, Pipeline.arrRef spec4 w ≠ b) :
    W14 m ρ c (Proc.devRef .tc b) = W13 m ρ c (Proc.devRef .tc b) :=
  W14_of m ρ c b fun e => hb 10 (e ▸ rfl)
/-- The exit contents read at the TensorCore's references. -/
abbrev V14 : (c : Dev nD) → (b : Ref sig .tc) → Buf (Elt F) ((c : Thread nD τ).loc b) := fun c b => W14 m ρ c b
/-- At the exit each of the region's arrays holds what the pipeline leaves (`hF4`) and every other buffer what it
    held at entry (`hrest4`). -/
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)

/-- After item 14, the host piece `main_part4_ops1`. -/
abbrev W15 : Dev nD → Valuation τ sig (Elt F) := fun c => StableHlo.after main_part4_ops1 (W14 m ρ c)
/-- The piece leaves a reference it does not write as it found it. -/
theorem W15_of (c : Dev nD) (r : Ref sig .tc) (h : r ∉ main_part4_ops1_W) :
    W15 m ρ c (Proc.devRef .tc r) = W14 m ρ c (Proc.devRef .tc r) :=
  StableHlo.after_of_writes_sub main_part4_ops1 _ main_part4_ops1_writes h

/-- After item 15, the host piece `main_part5_ops0`. -/
abbrev W16 : Dev nD → Valuation τ sig (Elt F) := fun c => StableHlo.after main_part5_ops0 (W15 m ρ c)
/-- The piece leaves a reference it does not write as it found it. -/
theorem W16_of (c : Dev nD) (r : Ref sig .tc) (h : r ∉ main_part5_ops0_W) :
    W16 m ρ c (Proc.devRef .tc r) = W15 m ρ c (Proc.devRef .tc r) :=
  StableHlo.after_of_writes_sub main_part5_ops0 _ main_part5_ops0_writes h

/-! ### Item 16: region 5 (custom_call 5), entered at `W16`, left at `W17`; its output window 10 writes `main_v273` -/

/-- The entry contents read at the TensorCore's references (what region 5's proof data take). -/
abbrev V16 : (c : Dev nD) → (b : Ref sig .tc) → Buf (Elt F) ((c : Thread nD τ).loc b) := fun c b => W16 m ρ c b
/-- Every window of call 5 but the output is an input, and its array is not the output's. -/
theorem in_of_ne5 : ∀ w : Fin cfg5.W, w ≠ 10 → (cfg5.win w).isOut = false ∧ Pipeline.arrRef spec5 w ≠ main_v273 := by decide
/-- At region 5's exit: the output array at the output window's write-backs folded over its entry contents, every
    other buffer as entered (two input windows of this call are handed one array, so the exit contents are written
    as an update at the one array that changes). -/
def W17 (c : Dev nD) : Valuation τ sig (Elt F) :=
  Function.update (W16 m ρ c) (Proc.devRef .tc main_v273) ((dat5 (V16 m ρ) c).arrAt 10 cfg5.N)
/-- The output array holds the output window's write-backs folded over its entry contents. -/
theorem W17_out (c : Dev nD) :
    W17 m ρ c (Proc.devRef .tc main_v273) = (dat5 (V16 m ρ) c).arrAt 10 cfg5.N := by
  unfold W17; exact Function.update_self ..
/-- The region leaves every reference but its output array as it found it. -/
theorem W17_of (c : Dev nD) (r : Ref sig .tc) (h : r ≠ main_v273) :
    W17 m ρ c (Proc.devRef .tc r) = W16 m ρ c (Proc.devRef .tc r) := by
  unfold W17; exact Function.update_of_ne (StableHlo.devRef_ne_of_ne h) _ _
theorem W17_arr (c : Dev nD) (w : Fin cfg5.W) :
    W17 m ρ c (Proc.devRef .tc (Pipeline.arrRef spec5 w)) = (dat5 (V16 m ρ) c).arrAt w cfg5.N := by
  by_cases hw : w = 10
  · subst hw; exact W17_out m ρ c
  · exact (W17_of m ρ c _ (in_of_ne5 w hw).2).trans
      (((dat5 (V16 m ρ) c).arrAt_in w (in_of_ne5 w hw).1 _).trans (A_eq5 (V16 m ρ) c w)).symm
theorem W17_of_ne (c : Dev nD) (b : Ref sig .tc) (hb : ∀ w, Pipeline.arrRef spec5 w ≠ b) :
    W17 m ρ c (Proc.devRef .tc b) = W16 m ρ c (Proc.devRef .tc b) :=
  W17_of m ρ c b fun e => hb 10 (e ▸ rfl)
/-- The exit contents read at the TensorCore's references. -/
abbrev V17 : (c : Dev nD) → (b : Ref sig .tc) → Buf (Elt F) ((c : Thread nD τ).loc b) := fun c b => W17 m ρ c b
/-- At the exit each of the region's arrays holds what the pipeline leaves (`hF5`) and every other buffer what it
    held at entry (`hrest5`). -/
theorem hF5 (c : Dev nD) (w : Fin cfg5.W) : (dat5 (V16 m ρ) c).arrAt w cfg5.N = V17 m ρ c (Pipeline.arrRef spec5 w) :=
  (W17_arr m ρ c w).symm
theorem hrest5 (c : Dev nD) : ∀ b, b ∉ Finset.univ.image (Pipeline.arrRef spec5) → V17 m ρ c b = V16 m ρ c b :=
  fun b hb => W17_of_ne m ρ c b fun w e => hb (Finset.mem_image.mpr ⟨w, Finset.mem_univ _, e⟩)

/-- After item 17, the host piece `main_part5_ops1`. -/
abbrev W18 : Dev nD → Valuation τ sig (Elt F) := fun c => StableHlo.after main_part5_ops1 (W17 m ρ c)
/-- The piece leaves a reference it does not write as it found it. -/
theorem W18_of (c : Dev nD) (r : Ref sig .tc) (h : r ∉ main_part5_ops1_W) :
    W18 m ρ c (Proc.devRef .tc r) = W17 m ρ c (Proc.devRef .tc r) :=
  StableHlo.after_of_writes_sub main_part5_ops1 _ main_part5_ops1_writes h

/-- After item 18, the host piece `main_part6_ops0`. -/
abbrev W19 : Dev nD → Valuation τ sig (Elt F) := fun c => StableHlo.after main_part6_ops0 (W18 m ρ c)
/-- The piece leaves a reference it does not write as it found it. -/
theorem W19_of (c : Dev nD) (r : Ref sig .tc) (h : r ∉ main_part6_ops0_W) :
    W19 m ρ c (Proc.devRef .tc r) = W18 m ρ c (Proc.devRef .tc r) :=
  StableHlo.after_of_writes_sub main_part6_ops0 _ main_part6_ops0_writes h

/-! ### Item 19: region 6 (custom_call 6), entered at `W19`, left at `W20`; its output window 10 writes `main_v364` -/

/-- The entry contents read at the TensorCore's references (what region 6's proof data take). -/
abbrev V19 : (c : Dev nD) → (b : Ref sig .tc) → Buf (Elt F) ((c : Thread nD τ).loc b) := fun c b => W19 m ρ c b
/-- Every window of call 6 but the output is an input, and its array is not the output's. -/
theorem in_of_ne6 : ∀ w : Fin cfg6.W, w ≠ 10 → (cfg6.win w).isOut = false ∧ Pipeline.arrRef spec6 w ≠ main_v364 := by decide
/-- At region 6's exit: the output array at the output window's write-backs folded over its entry contents, every
    other buffer as entered (two input windows of this call are handed one array, so the exit contents are written
    as an update at the one array that changes). -/
def W20 (c : Dev nD) : Valuation τ sig (Elt F) :=
  Function.update (W19 m ρ c) (Proc.devRef .tc main_v364) ((dat6 (V19 m ρ) c).arrAt 10 cfg6.N)
/-- The output array holds the output window's write-backs folded over its entry contents. -/
theorem W20_out (c : Dev nD) :
    W20 m ρ c (Proc.devRef .tc main_v364) = (dat6 (V19 m ρ) c).arrAt 10 cfg6.N := by
  unfold W20; exact Function.update_self ..
/-- The region leaves every reference but its output array as it found it. -/
theorem W20_of (c : Dev nD) (r : Ref sig .tc) (h : r ≠ main_v364) :
    W20 m ρ c (Proc.devRef .tc r) = W19 m ρ c (Proc.devRef .tc r) := by
  unfold W20; exact Function.update_of_ne (StableHlo.devRef_ne_of_ne h) _ _
theorem W20_arr (c : Dev nD) (w : Fin cfg6.W) :
    W20 m ρ c (Proc.devRef .tc (Pipeline.arrRef spec6 w)) = (dat6 (V19 m ρ) c).arrAt w cfg6.N := by
  by_cases hw : w = 10
  · subst hw; exact W20_out m ρ c
  · exact (W20_of m ρ c _ (in_of_ne6 w hw).2).trans
      (((dat6 (V19 m ρ) c).arrAt_in w (in_of_ne6 w hw).1 _).trans (A_eq6 (V19 m ρ) c w)).symm
theorem W20_of_ne (c : Dev nD) (b : Ref sig .tc) (hb : ∀ w, Pipeline.arrRef spec6 w ≠ b) :
    W20 m ρ c (Proc.devRef .tc b) = W19 m ρ c (Proc.devRef .tc b) :=
  W20_of m ρ c b fun e => hb 10 (e ▸ rfl)
/-- The exit contents read at the TensorCore's references. -/
abbrev V20 : (c : Dev nD) → (b : Ref sig .tc) → Buf (Elt F) ((c : Thread nD τ).loc b) := fun c b => W20 m ρ c b
/-- At the exit each of the region's arrays holds what the pipeline leaves (`hF6`) and every other buffer what it
    held at entry (`hrest6`). -/
theorem hF6 (c : Dev nD) (w : Fin cfg6.W) : (dat6 (V19 m ρ) c).arrAt w cfg6.N = V20 m ρ c (Pipeline.arrRef spec6 w) :=
  (W20_arr m ρ c w).symm
theorem hrest6 (c : Dev nD) : ∀ b, b ∉ Finset.univ.image (Pipeline.arrRef spec6) → V20 m ρ c b = V19 m ρ c b :=
  fun b hb => W20_of_ne m ρ c b fun w e => hb (Finset.mem_image.mpr ⟨w, Finset.mem_univ _, e⟩)

/-- After item 20, the host piece `main_part6_ops1`. -/
abbrev W21 : Dev nD → Valuation τ sig (Elt F) := fun c => StableHlo.after main_part6_ops1 (W20 m ρ c)
/-- The piece leaves a reference it does not write as it found it. -/
theorem W21_of (c : Dev nD) (r : Ref sig .tc) (h : r ∉ main_part6_ops1_W) :
    W21 m ρ c (Proc.devRef .tc r) = W20 m ρ c (Proc.devRef .tc r) :=
  StableHlo.after_of_writes_sub main_part6_ops1 _ main_part6_ops1_writes h

/-- After item 21, the host piece `main_part7_ops0`. -/
abbrev W22 : Dev nD → Valuation τ sig (Elt F) := fun c => StableHlo.after main_part7_ops0 (W21 m ρ c)
/-- The piece leaves a reference it does not write as it found it. -/
theorem W22_of (c : Dev nD) (r : Ref sig .tc) (h : r ∉ main_part7_ops0_W) :
    W22 m ρ c (Proc.devRef .tc r) = W21 m ρ c (Proc.devRef .tc r) :=
  StableHlo.after_of_writes_sub main_part7_ops0 _ main_part7_ops0_writes h

/-! ### Item 22: region 7 (custom_call 7), entered at `W22`, left at `W23`; its output window 10 writes `main_v387` -/

/-- The entry contents read at the TensorCore's references (what region 7's proof data take). -/
abbrev V22 : (c : Dev nD) → (b : Ref sig .tc) → Buf (Elt F) ((c : Thread nD τ).loc b) := fun c b => W22 m ρ c b
/-- Every window of call 7 but the output is an input, and its array is not the output's. -/
theorem in_of_ne7 : ∀ w : Fin cfg7.W, w ≠ 10 → (cfg7.win w).isOut = false ∧ Pipeline.arrRef spec7 w ≠ main_v387 := by decide
/-- At region 7's exit: the output array at the output window's write-backs folded over its entry contents, every
    other buffer as entered (two input windows of this call are handed one array, so the exit contents are written
    as an update at the one array that changes). -/
def W23 (c : Dev nD) : Valuation τ sig (Elt F) :=
  Function.update (W22 m ρ c) (Proc.devRef .tc main_v387) ((dat7 (V22 m ρ) c).arrAt 10 cfg7.N)
/-- The output array holds the output window's write-backs folded over its entry contents. -/
theorem W23_out (c : Dev nD) :
    W23 m ρ c (Proc.devRef .tc main_v387) = (dat7 (V22 m ρ) c).arrAt 10 cfg7.N := by
  unfold W23; exact Function.update_self ..
/-- The region leaves every reference but its output array as it found it. -/
theorem W23_of (c : Dev nD) (r : Ref sig .tc) (h : r ≠ main_v387) :
    W23 m ρ c (Proc.devRef .tc r) = W22 m ρ c (Proc.devRef .tc r) := by
  unfold W23; exact Function.update_of_ne (StableHlo.devRef_ne_of_ne h) _ _
theorem W23_arr (c : Dev nD) (w : Fin cfg7.W) :
    W23 m ρ c (Proc.devRef .tc (Pipeline.arrRef spec7 w)) = (dat7 (V22 m ρ) c).arrAt w cfg7.N := by
  by_cases hw : w = 10
  · subst hw; exact W23_out m ρ c
  · exact (W23_of m ρ c _ (in_of_ne7 w hw).2).trans
      (((dat7 (V22 m ρ) c).arrAt_in w (in_of_ne7 w hw).1 _).trans (A_eq7 (V22 m ρ) c w)).symm
theorem W23_of_ne (c : Dev nD) (b : Ref sig .tc) (hb : ∀ w, Pipeline.arrRef spec7 w ≠ b) :
    W23 m ρ c (Proc.devRef .tc b) = W22 m ρ c (Proc.devRef .tc b) :=
  W23_of m ρ c b fun e => hb 10 (e ▸ rfl)
/-- The exit contents read at the TensorCore's references. -/
abbrev V23 : (c : Dev nD) → (b : Ref sig .tc) → Buf (Elt F) ((c : Thread nD τ).loc b) := fun c b => W23 m ρ c b
/-- At the exit each of the region's arrays holds what the pipeline leaves (`hF7`) and every other buffer what it
    held at entry (`hrest7`). -/
theorem hF7 (c : Dev nD) (w : Fin cfg7.W) : (dat7 (V22 m ρ) c).arrAt w cfg7.N = V23 m ρ c (Pipeline.arrRef spec7 w) :=
  (W23_arr m ρ c w).symm
theorem hrest7 (c : Dev nD) : ∀ b, b ∉ Finset.univ.image (Pipeline.arrRef spec7) → V23 m ρ c b = V22 m ρ c b :=
  fun b hb => W23_of_ne m ρ c b fun w e => hb (Finset.mem_image.mpr ⟨w, Finset.mem_univ _, e⟩)

/-- After item 23, the host piece `main_part7_ops1`. -/
abbrev W24 : Dev nD → Valuation τ sig (Elt F) := fun c => StableHlo.after main_part7_ops1 (W23 m ρ c)
/-- The piece leaves a reference it does not write as it found it. -/
theorem W24_of (c : Dev nD) (r : Ref sig .tc) (h : r ∉ main_part7_ops1_W) :
    W24 m ρ c (Proc.devRef .tc r) = W23 m ρ c (Proc.devRef .tc r) :=
  StableHlo.after_of_writes_sub main_part7_ops1 _ main_part7_ops1_writes h

/-- After item 24, the host piece `main_part8_ops0`. -/
abbrev W25 : Dev nD → Valuation τ sig (Elt F) := fun c => StableHlo.after main_part8_ops0 (W24 m ρ c)
/-- The piece leaves a reference it does not write as it found it. -/
theorem W25_of (c : Dev nD) (r : Ref sig .tc) (h : r ∉ main_part8_ops0_W) :
    W25 m ρ c (Proc.devRef .tc r) = W24 m ρ c (Proc.devRef .tc r) :=
  StableHlo.after_of_writes_sub main_part8_ops0 _ main_part8_ops0_writes h

/-! ### Item 25: region 8 (custom_call 8), entered at `W25`, left at `W26`; its output window 15 writes `main_v429` -/

/-- The entry contents read at the TensorCore's references (what region 8's proof data take). -/
abbrev V25 : (c : Dev nD) → (b : Ref sig .tc) → Buf (Elt F) ((c : Thread nD τ).loc b) := fun c b => W25 m ρ c b
/-- Every window of call 8 but the output is an input, and its array is not the output's. -/
theorem in_of_ne8 : ∀ w : Fin cfg8.W, w ≠ 15 → (cfg8.win w).isOut = false ∧ Pipeline.arrRef spec8 w ≠ main_v429 := by decide
/-- At region 8's exit: its arrays at what the pipeline leaves (an input's as entered, the output's write-backs
    folded), every other buffer as entered. -/
def W26 (c : Dev nD) : Valuation τ sig (Elt F) :=
  Pipeline.withArrays spec8 c (W25 m ρ c) fun w => (dat8 (V25 m ρ) c).arrAt w cfg8.N
theorem W26_arr (c : Dev nD) (w : Fin cfg8.W) :
    W26 m ρ c (Proc.devRef .tc (Pipeline.arrRef spec8 w)) = (dat8 (V25 m ρ) c).arrAt w cfg8.N := by
  unfold W26; exact Pipeline.withArrays_arr spec8 launch8.win.arr_inj c _ _ w
theorem W26_of_ne (c : Dev nD) (b : Ref sig .tc) (hb : ∀ w, Pipeline.arrRef spec8 w ≠ b) :
    W26 m ρ c (Proc.devRef .tc b) = W25 m ρ c (Proc.devRef .tc b) := by
  unfold W26; exact Pipeline.withArrays_of_ne spec8 c _ _ b hb
/-- The output array holds the output window's write-backs folded over its entry contents. -/
theorem W26_out (c : Dev nD) :
    W26 m ρ c (Proc.devRef .tc main_v429) = (dat8 (V25 m ρ) c).arrAt 15 cfg8.N := W26_arr m ρ c 15
/-- The region leaves every reference but its output array as it found it: an input window's array by
    `Dat.arrAt_in`, a buffer that is no window's array by `withArrays_of_ne`. -/
theorem W26_of (c : Dev nD) (r : Ref sig .tc) (h : r ≠ main_v429) :
    W26 m ρ c (Proc.devRef .tc r) = W25 m ρ c (Proc.devRef .tc r) := by
  by_cases hr : ∃ w, Pipeline.arrRef spec8 w = r
  · obtain ⟨w, rfl⟩ := hr
    have hw : w ≠ 15 := fun e => h (e ▸ rfl)
    exact (W26_arr m ρ c w).trans (((dat8 (V25 m ρ) c).arrAt_in w (in_of_ne8 w hw).1 _).trans (A_eq8 (V25 m ρ) c w))
  · exact W26_of_ne m ρ c r fun w e => hr ⟨w, e⟩
/-- The exit contents read at the TensorCore's references. -/
abbrev V26 : (c : Dev nD) → (b : Ref sig .tc) → Buf (Elt F) ((c : Thread nD τ).loc b) := fun c b => W26 m ρ c b
/-- At the exit each of the region's arrays holds what the pipeline leaves (`hF8`) and every other buffer what it
    held at entry (`hrest8`). -/
theorem hF8 (c : Dev nD) (w : Fin cfg8.W) : (dat8 (V25 m ρ) c).arrAt w cfg8.N = V26 m ρ c (Pipeline.arrRef spec8 w) :=
  (W26_arr m ρ c w).symm
theorem hrest8 (c : Dev nD) : ∀ b, b ∉ Finset.univ.image (Pipeline.arrRef spec8) → V26 m ρ c b = V25 m ρ c b :=
  fun b hb => W26_of_ne m ρ c b fun w e => hb (Finset.mem_image.mpr ⟨w, Finset.mem_univ _, e⟩)

/-- After item 26, the host piece `main_part8_ops1`. -/
abbrev W27 : Dev nD → Valuation τ sig (Elt F) := fun c => StableHlo.after main_part8_ops1 (W26 m ρ c)
/-- The piece leaves a reference it does not write as it found it. -/
theorem W27_of (c : Dev nD) (r : Ref sig .tc) (h : r ∉ main_part8_ops1_W) :
    W27 m ρ c (Proc.devRef .tc r) = W26 m ρ c (Proc.devRef .tc r) :=
  StableHlo.after_of_writes_sub main_part8_ops1 _ main_part8_ops1_writes h

/-! ## A reference no item writes ends as launched -/

/-- A reference that no host piece writes and that is no region's output array holds, at the end, its launch
    contents: the fold walked back item by item. -/
theorem W27_of_unwritten (c : Dev nD) (r : Ref sig .tc)
    (h0 : r ∉ main_part0_ops0_W) (h1 : r ≠ main_v4) (h2 : r ∉ main_part0_ops1_W)
    (h3 : r ≠ main_v9) (h4 : r ∉ main_part0_ops2_W) (h5 : r ∉ main_part1_ops0_W)
    (h6 : r ∉ main_part2_ops0_W) (h7 : r ≠ main_v136) (h8 : r ∉ main_part2_ops1_W)
    (h9 : r ∉ main_part3_ops0_W) (h10 : r ≠ main_v159) (h11 : r ∉ main_part3_ops1_W)
    (h12 : r ∉ main_part4_ops0_W) (h13 : r ≠ main_v250) (h14 : r ∉ main_part4_ops1_W)
    (h15 : r ∉ main_part5_ops0_W) (h16 : r ≠ main_v273) (h17 : r ∉ main_part5_ops1_W)
    (h18 : r ∉ main_part6_ops0_W) (h19 : r ≠ main_v364) (h20 : r ∉ main_part6_ops1_W)
    (h21 : r ∉ main_part7_ops0_W) (h22 : r ≠ main_v387) (h23 : r ∉ main_part7_ops1_W)
    (h24 : r ∉ main_part8_ops0_W) (h25 : r ≠ main_v429) (h26 : r ∉ main_part8_ops1_W) :
    W27 m ρ c (Proc.devRef .tc r) = m ((c : Thread nD τ).loc r) :=
  (W27_of m ρ c r h26).trans <|
  (W26_of m ρ c r h25).trans <|
  (W25_of m ρ c r h24).trans <|
  (W24_of m ρ c r h23).trans <|
  (W23_of m ρ c r h22).trans <|
  (W22_of m ρ c r h21).trans <|
  (W21_of m ρ c r h20).trans <|
  (W20_of m ρ c r h19).trans <|
  (W19_of m ρ c r h18).trans <|
  (W18_of m ρ c r h17).trans <|
  (W17_of m ρ c r h16).trans <|
  (W16_of m ρ c r h15).trans <|
  (W15_of m ρ c r h14).trans <|
  (W14_of m ρ c r h13).trans <|
  (W13_of m ρ c r h12).trans <|
  (W12_of m ρ c r h11).trans <|
  (W11_of m ρ c r h10).trans <|
  (W10_of m ρ c r h9).trans <|
  (W9_of m ρ c r h8).trans <|
  (W8_of m ρ c r h7).trans <|
  (W7_of m ρ c r h6).trans <|
  (W6_of m ρ c r h5).trans <|
  (W5_of m ρ c r h4).trans <|
  (W4_of m ρ c r h3).trans <|
  (W3_of m ρ c r h2).trans <|
  (W2_of m ρ c r h1).trans <|
  (W1_of m ρ c r h0).trans rfl

/-! ### The arguments: none is written by a host operation, none is a region's output array -/

theorem W27_main_arg0 (c : Dev nD) : W27 m ρ c (Proc.devRef .tc main_arg0) = m ((c : Thread nD τ).loc main_arg0) :=
  W27_of_unwritten m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg1 (c : Dev nD) : W27 m ρ c (Proc.devRef .tc main_arg1) = m ((c : Thread nD τ).loc main_arg1) :=
  W27_of_unwritten m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg2 (c : Dev nD) : W27 m ρ c (Proc.devRef .tc main_arg2) = m ((c : Thread nD τ).loc main_arg2) :=
  W27_of_unwritten m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg3 (c : Dev nD) : W27 m ρ c (Proc.devRef .tc main_arg3) = m ((c : Thread nD τ).loc main_arg3) :=
  W27_of_unwritten m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg4 (c : Dev nD) : W27 m ρ c (Proc.devRef .tc main_arg4) = m ((c : Thread nD τ).loc main_arg4) :=
  W27_of_unwritten m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg5 (c : Dev nD) : W27 m ρ c (Proc.devRef .tc main_arg5) = m ((c : Thread nD τ).loc main_arg5) :=
  W27_of_unwritten m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg6 (c : Dev nD) : W27 m ρ c (Proc.devRef .tc main_arg6) = m ((c : Thread nD τ).loc main_arg6) :=
  W27_of_unwritten m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg7 (c : Dev nD) : W27 m ρ c (Proc.devRef .tc main_arg7) = m ((c : Thread nD τ).loc main_arg7) :=
  W27_of_unwritten m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg8 (c : Dev nD) : W27 m ρ c (Proc.devRef .tc main_arg8) = m ((c : Thread nD τ).loc main_arg8) :=
  W27_of_unwritten m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg9 (c : Dev nD) : W27 m ρ c (Proc.devRef .tc main_arg9) = m ((c : Thread nD τ).loc main_arg9) :=
  W27_of_unwritten m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg10 (c : Dev nD) : W27 m ρ c (Proc.devRef .tc main_arg10) = m ((c : Thread nD τ).loc main_arg10) :=
  W27_of_unwritten m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg11 (c : Dev nD) : W27 m ρ c (Proc.devRef .tc main_arg11) = m ((c : Thread nD τ).loc main_arg11) :=
  W27_of_unwritten m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg12 (c : Dev nD) : W27 m ρ c (Proc.devRef .tc main_arg12) = m ((c : Thread nD τ).loc main_arg12) :=
  W27_of_unwritten m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg13 (c : Dev nD) : W27 m ρ c (Proc.devRef .tc main_arg13) = m ((c : Thread nD τ).loc main_arg13) :=
  W27_of_unwritten m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg14 (c : Dev nD) : W27 m ρ c (Proc.devRef .tc main_arg14) = m ((c : Thread nD τ).loc main_arg14) :=
  W27_of_unwritten m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg15 (c : Dev nD) : W27 m ρ c (Proc.devRef .tc main_arg15) = m ((c : Thread nD τ).loc main_arg15) :=
  W27_of_unwritten m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg16 (c : Dev nD) : W27 m ρ c (Proc.devRef .tc main_arg16) = m ((c : Thread nD τ).loc main_arg16) :=
  W27_of_unwritten m ρ c main_arg16 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg17 (c : Dev nD) : W27 m ρ c (Proc.devRef .tc main_arg17) = m ((c : Thread nD τ).loc main_arg17) :=
  W27_of_unwritten m ρ c main_arg17 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg18 (c : Dev nD) : W27 m ρ c (Proc.devRef .tc main_arg18) = m ((c : Thread nD τ).loc main_arg18) :=
  W27_of_unwritten m ρ c main_arg18 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg19 (c : Dev nD) : W27 m ρ c (Proc.devRef .tc main_arg19) = m ((c : Thread nD τ).loc main_arg19) :=
  W27_of_unwritten m ρ c main_arg19 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg20 (c : Dev nD) : W27 m ρ c (Proc.devRef .tc main_arg20) = m ((c : Thread nD τ).loc main_arg20) :=
  W27_of_unwritten m ρ c main_arg20 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg21 (c : Dev nD) : W27 m ρ c (Proc.devRef .tc main_arg21) = m ((c : Thread nD τ).loc main_arg21) :=
  W27_of_unwritten m ρ c main_arg21 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg22 (c : Dev nD) : W27 m ρ c (Proc.devRef .tc main_arg22) = m ((c : Thread nD τ).loc main_arg22) :=
  W27_of_unwritten m ρ c main_arg22 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg23 (c : Dev nD) : W27 m ρ c (Proc.devRef .tc main_arg23) = m ((c : Thread nD τ).loc main_arg23) :=
  W27_of_unwritten m ρ c main_arg23 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg24 (c : Dev nD) : W27 m ρ c (Proc.devRef .tc main_arg24) = m ((c : Thread nD τ).loc main_arg24) :=
  W27_of_unwritten m ρ c main_arg24 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg25 (c : Dev nD) : W27 m ρ c (Proc.devRef .tc main_arg25) = m ((c : Thread nD τ).loc main_arg25) :=
  W27_of_unwritten m ρ c main_arg25 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg26 (c : Dev nD) : W27 m ρ c (Proc.devRef .tc main_arg26) = m ((c : Thread nD τ).loc main_arg26) :=
  W27_of_unwritten m ρ c main_arg26 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg27 (c : Dev nD) : W27 m ρ c (Proc.devRef .tc main_arg27) = m ((c : Thread nD τ).loc main_arg27) :=
  W27_of_unwritten m ρ c main_arg27 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

/-! ## The proof data family and the thread state -/

/-- The prefetched tables' admissible contents: no pipeline has a table. -/
abbrev adm : (p : Fin 9) → (pcfgs (F := F) p).Adm := fun p => (cfgs p).toPCfg_adm
/-- Every pipeline's proof data, each at its region's entry contents — a literal `match`, so that
    `Pipeline.pin pcfgs adm p` at a numeral reduces to the printed configuration. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V10 m ρ) c
  | ⟨4, _⟩ => fun c => dat4 (V13 m ρ) c
  | ⟨5, _⟩ => fun c => dat5 (V16 m ρ) c
  | ⟨6, _⟩ => fun c => dat6 (V19 m ρ) c
  | ⟨7, _⟩ => fun c => dat7 (V22 m ρ) c
  | ⟨8, _⟩ => fun c => dat8 (V25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host piece as a segment: its operations run over the unscoped references from the contents `W`, `R` riding
    along; it ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it beside the core owing nothing): every unscoped
    buffer at the last boundary's contents `W27`, the generator register at some state. -/
abbrev Tₙ (c : Dev nD) : sProp 𝕄 := iprop(StableHlo.held (c : Thread nD τ) (Pipeline.ucRefs τ sig) (W27 m ρ c) ∗ ∃ r, prngReg c r)

end Cert.Kernel.Hand

end
-- ==== Proof.KRegs.lean ====
import proofs.«166951_j44444321579084_2_alg».proof.Proof.KFold

/-!
# The regions whose windows are handed distinct arrays, as segments of @main's run

Each of custom calls 0 to 3 is a segment from the thread state "every unscoped buffer of the core at the entry
contents, the generator register at some state, nothing owed" to the same at the exit contents. The region's arrays
leave the unscoped buffers at the entry and return to them at the exit, each at what the pipeline's write-backs leave.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 0 (custom_call 0) over the thread state: entered from every unscoped buffer at `W1`, left at `W2`. Its
    arrays are split out of the unscoped buffers at the entry and put back at the exit contents; the generator register
    goes into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 (custom_call 1) over the thread state: entered from every unscoped buffer at `W3`, left at `W4`. Its
    arrays are split out of the unscoped buffers at the entry and put back at the exit contents; the generator register
    goes into the class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 (custom_call 2) over the thread state: entered from every unscoped buffer at `W7`, left at `W8`. Its
    arrays are split out of the unscoped buffers at the entry and put back at the exit contents; the generator register
    goes into the class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun w => A_eq2 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 (custom_call 3) over the thread state: entered from every unscoped buffer at `W10`, left at `W11`. Its
    arrays are split out of the unscoped buffers at the entry and put back at the exit contents; the generator register
    goes into the class invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun w => A_eq3 (V10 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KShared.lean ====
import proofs.«166951_j44444321579084_2_alg».proof.Proof.KFrameR4
import proofs.«166951_j44444321579084_2_alg».proof.Proof.KFrameR5
import proofs.«166951_j44444321579084_2_alg».proof.Proof.KFrameR6
import proofs.«166951_j44444321579084_2_alg».proof.Proof.KFrameR7
import Idealize.ShloMosaic.Lib.Pipeline.RegionsLoop
import Idealize.ShloMosaic.Lib.Tactic

/-!
# Regions whose windows share an array: the arrays in and out of the core's unscoped buffers

A region is entered from a thread state that holds every unscoped buffer of the core whole, at the full share, and
the pipeline wants each WINDOW's array at that window's share. When the windows' arrays are pairwise distinct the
two are the same separating conjunction re-indexed. Here two INPUT windows `i ≠ j` are handed one array: the buffer
behind it, whole at the full share, is split along two shares `qa`, `qb` that compose to the full share, one part
per window, and every other window keeps its own buffer whole. At the exit the two parts — both at the same contents,
an input array being never written — are joined again.

The first half proves this for any pipeline configuration with exactly one such pair of windows; the second half
instantiates it at the four calls of @main that read the layer input both as a gathered operand and as the
residual (windows 2 and 3).
-/

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)
open PCS

section Shared

variable {nD : Nat} {τ : Topo} {sig : RefSig} {Val : EltTy → Type} {Λ₀ : Idealize.SL.Sem.Labels}
variable {Ix : Type} [DecidableEq Ix] {Name : Type} [DecidableEq Name] {U : Type} [URA U] {Lvl : Type}

local notation "𝕄" => MT nD τ sig Ix Val Name U Lvl

variable {cfg : Cfg sig Λ₀} {c : Dev nD} (dat : Dat τ Val Ix Name U Lvl cfg c)

/-- The buffers behind the windows' arrays, when exactly the windows `i ≠ j` are on one array: window `i`'s buffer
    and the buffers of the windows other than `i` and `j`, which are pairwise distinct. -/
theorem arrBufs_shared_eq {i j : Fin cfg.W} (hne : i ≠ j) (hij : Pipeline.arrRef cfg.spec i = Pipeline.arrRef cfg.spec j)
    (hinj : ∀ w w', w ≠ j → w' ≠ j → Pipeline.arrRef cfg.spec w = Pipeline.arrRef cfg.spec w' → w = w')
    (V : (b : Ref sig .tc) → Buf Val ((c.tc : Thread nD τ).loc b)) :
    (Pipeline.arrBufs cfg.spec c V : sProp 𝕄)
      = iprop((((c.tc : Thread nD τ).loc (Pipeline.arrRef cfg.spec i)) ↦{fullShare} V (Pipeline.arrRef cfg.spec i))
          ∗ bigSep ((Finset.univ.erase j).erase i) fun w => (((c.tc : Thread nD τ).loc (Pipeline.arrRef cfg.spec w)) ↦{fullShare} V (Pipeline.arrRef cfg.spec w) : sProp 𝕄)) := by
  classical
  have himg : Finset.univ.image (Pipeline.arrRef cfg.spec) = (Finset.univ.erase j).image (Pipeline.arrRef cfg.spec) := by
    ext b
    simp only [Finset.mem_image, Finset.mem_univ, true_and, Finset.mem_erase, and_true]
    constructor
    · rintro ⟨w, rfl⟩
      by_cases h : w = j
      · exact ⟨i, hne, by rw [h, hij]⟩
      · exact ⟨w, h, rfl⟩
    · rintro ⟨w, -, rfl⟩; exact ⟨w, rfl⟩
  have hinj' : Set.InjOn (Pipeline.arrRef cfg.spec) ((Finset.univ.erase j : Finset (Fin cfg.W)) : Set (Fin cfg.W)) := fun w hw w' hw' e =>
    hinj w w' (Finset.ne_of_mem_erase hw) (Finset.ne_of_mem_erase hw') e
  unfold Pipeline.arrBufs
  rw [himg, bigSep_image_of_injOn hinj', bigSep_erase (Finset.mem_erase.mpr ⟨hne, Finset.mem_univ i⟩)]
  rfl

/-- The pipeline's arrays at contents `F` read off a valuation `V` (`hF`), when the input windows `i ≠ j` are on one
    array, held at the shares `qa` and `qb`, and every other window holds its own array at the full share: the shared
    buffer's two parts and the other windows' buffers. -/
theorem arrays_shared_eq (harr : ∀ w, (cfg.spec w).arr.IsWhole) {i j : Fin cfg.W} (hne : i ≠ j)
    (hij : Pipeline.arrRef cfg.spec i = Pipeline.arrRef cfg.spec j) {qa qb : PosShare TreeShare}
    (hsi : dat.share i = qa) (hsj : dat.share j = qb) (hs : ∀ w, w ≠ i → w ≠ j → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (Pipeline.arrRef cfg.spec w)) :
    (dat.arrays F : sProp 𝕄)
      = iprop((((c.tc : Thread nD τ).loc (Pipeline.arrRef cfg.spec i)) ↦{qb} V (Pipeline.arrRef cfg.spec i))
          ∗ (((c.tc : Thread nD τ).loc (Pipeline.arrRef cfg.spec i)) ↦{qa} V (Pipeline.arrRef cfg.spec i))
          ∗ bigSep ((Finset.univ.erase j).erase i) fun w => (((c.tc : Thread nD τ).loc (Pipeline.arrRef cfg.spec w)) ↦{fullShare} V (Pipeline.arrRef cfg.spec w) : sProp 𝕄)) := by
  classical
  unfold Dat.arrays
  rw [bigSep_univ_split j, bigSep_erase (Finset.mem_erase.mpr ⟨hne, Finset.mem_univ i⟩)]
  have hj : ((cfg.win j).arr.view.loc (c.tc : Thread nD τ) ↦[(cfg.win j).arr.view.set]{dat.share j} F j : sProp 𝕄)
      = (((c.tc : Thread nD τ).loc (Pipeline.arrRef cfg.spec i)) ↦{qb} V (Pipeline.arrRef cfg.spec i)) := by
    rw [(harr j).set_eq_univ, hsj, hF j]
    exact congrArg (fun b => (((c.tc : Thread nD τ).loc b) ↦{qb} V b : sProp 𝕄)) hij.symm
  have hi : ((cfg.win i).arr.view.loc (c.tc : Thread nD τ) ↦[(cfg.win i).arr.view.set]{dat.share i} F i : sProp 𝕄)
      = (((c.tc : Thread nD τ).loc (Pipeline.arrRef cfg.spec i)) ↦{qa} V (Pipeline.arrRef cfg.spec i)) := by
    rw [(harr i).set_eq_univ, hsi, hF i]
  have hr : (bigSep ((Finset.univ.erase j).erase i) fun w : Fin cfg.W =>
        ((cfg.win w).arr.view.loc (c.tc : Thread nD τ) ↦[(cfg.win w).arr.view.set]{dat.share w} F w : sProp 𝕄))
      = bigSep ((Finset.univ.erase j).erase i) fun w => (((c.tc : Thread nD τ).loc (Pipeline.arrRef cfg.spec w)) ↦{fullShare} V (Pipeline.arrRef cfg.spec w) : sProp 𝕄) :=
    bigSep_congr fun w hw => by
      rw [(harr w).set_eq_univ, hs w (Finset.ne_of_mem_erase hw) (Finset.ne_of_mem_erase (Finset.mem_of_mem_erase hw)), hF w]
  rw [hj, hi, hr]
  rfl

/-- ENTRY, the arrays' part: the buffers behind the arrays, each whole at the full share at `V`, make the pipeline's arrays at
    contents read off `V`, the shared buffer's points-to split along `qa`, `qb`. -/
theorem arrays_of_arrBufs_shared (harr : ∀ w, (cfg.spec w).arr.IsWhole) {i j : Fin cfg.W} (hne : i ≠ j)
    (hij : Pipeline.arrRef cfg.spec i = Pipeline.arrRef cfg.spec j)
    (hinj : ∀ w w', w ≠ j → w' ≠ j → Pipeline.arrRef cfg.spec w = Pipeline.arrRef cfg.spec w' → w = w')
    {qa qb : PosShare TreeShare} (hab : fullShare ∈ qa ·? qb)
    (hsi : dat.share i = qa) (hsj : dat.share j = qb) (hs : ∀ w, w ≠ i → w ≠ j → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (Pipeline.arrRef cfg.spec w)) :
    (Pipeline.arrBufs cfg.spec c V : sProp 𝕄) ⊢ dat.arrays F := by
  rw [arrBufs_shared_eq hne hij hinj V, arrays_shared_eq dat harr hne hij hsi hsj hs V F hF]
  have hsp : ((((c.tc : Thread nD τ).loc (Pipeline.arrRef cfg.spec i)) ↦{fullShare} V (Pipeline.arrRef cfg.spec i)) : sProp 𝕄)
      ⊢ iprop((((c.tc : Thread nD τ).loc (Pipeline.arrRef cfg.spec i)) ↦{qa} V (Pipeline.arrRef cfg.spec i))
          ∗ (((c.tc : Thread nD τ).loc (Pipeline.arrRef cfg.spec i)) ↦{qb} V (Pipeline.arrRef cfg.spec i))) := (pointsTo_share hab).1
  iintro ⟨Hi, HR⟩
  ihave H := hsp $$ Hi
  icases H with ⟨Ha, Hb⟩
  isplitl [Hb]; · iexact Hb
  isplitl [Ha]; · iexact Ha
  iexact HR

/-- EXIT, the arrays' part: the converse, the two parts of the shared buffer rejoined. -/
theorem arrBufs_of_arrays_shared (harr : ∀ w, (cfg.spec w).arr.IsWhole) {i j : Fin cfg.W} (hne : i ≠ j)
    (hij : Pipeline.arrRef cfg.spec i = Pipeline.arrRef cfg.spec j)
    (hinj : ∀ w w', w ≠ j → w' ≠ j → Pipeline.arrRef cfg.spec w = Pipeline.arrRef cfg.spec w' → w = w')
    {qa qb : PosShare TreeShare} (hab : fullShare ∈ qa ·? qb)
    (hsi : dat.share i = qa) (hsj : dat.share j = qb) (hs : ∀ w, w ≠ i → w ≠ j → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (Pipeline.arrRef cfg.spec w)) :
    (dat.arrays F : sProp 𝕄) ⊢ Pipeline.arrBufs cfg.spec c V := by
  rw [arrBufs_shared_eq hne hij hinj V, arrays_shared_eq dat harr hne hij hsi hsj hs V F hF]
  have hjn : iprop((((c.tc : Thread nD τ).loc (Pipeline.arrRef cfg.spec i)) ↦{qa} V (Pipeline.arrRef cfg.spec i))
          ∗ (((c.tc : Thread nD τ).loc (Pipeline.arrRef cfg.spec i)) ↦{qb} V (Pipeline.arrRef cfg.spec i)))
      ⊢ ((((c.tc : Thread nD τ).loc (Pipeline.arrRef cfg.spec i)) ↦{fullShare} V (Pipeline.arrRef cfg.spec i)) : sProp 𝕄) := (pointsTo_share hab).2
  iintro ⟨Hb, Ha, HR⟩
  isplitl [Ha Hb]
  · iapply hjn
    isplitl [Ha]; · iexact Ha
    iexact Hb
  iexact HR

/-- ENTRY: a core's unscoped buffers at `V` are the pipeline's arrays at the proof data's entry contents, read off `V`
    (`hA`), and the unscoped rest. -/
theorem arrays_of_unscopedBufs_shared (hw : Pipeline.WinFacts₀ cfg.spec) (harr : ∀ w, (cfg.spec w).arr.IsWhole) {i j : Fin cfg.W} (hne : i ≠ j)
    (hij : Pipeline.arrRef cfg.spec i = Pipeline.arrRef cfg.spec j)
    (hinj : ∀ w w', w ≠ j → w' ≠ j → Pipeline.arrRef cfg.spec w = Pipeline.arrRef cfg.spec w' → w = w')
    {qa qb : PosShare TreeShare} (hab : fullShare ∈ qa ·? qb)
    (hsi : dat.share i = qa) (hsj : dat.share j = qb) (hs : ∀ w, w ≠ i → w ≠ j → dat.share w = fullShare)
    (V : (b : Ref sig .tc) → Buf Val ((c.tc : Thread nD τ).loc b))
    (hA : ∀ w, dat.A w = V (Pipeline.arrRef cfg.spec w)) :
    (unscopedBufs c V : sProp 𝕄) ⊢ iprop(dat.arrays (dat.arrAt · 0) ∗ Pipeline.unscopedRest cfg.spec c V) := by
  classical
  have hsub : Finset.univ.image (Pipeline.arrRef cfg.spec) ⊆ Finset.univ.filter fun b : Ref sig .tc => ¬ b.isScoped := fun b hb => by
    obtain ⟨w, -, rfl⟩ := Finset.mem_image.mp hb
    exact Finset.mem_filter.mpr ⟨Finset.mem_univ _, by simp [hw.arr_unscoped w]⟩
  have h0 : (unscopedBufs c V : sProp 𝕄) = iprop((Pipeline.arrBufs cfg.spec c V : sProp 𝕄) ∗ Pipeline.unscopedRest cfg.spec c V) := by
    unfold unscopedBufs Pipeline.unscopedRest Pipeline.arrBufs
    rw [bigSep_sdiff_split hsub]
    rfl
  rw [h0]
  exact sep_mono (arrays_of_arrBufs_shared dat harr hne hij hinj hab hsi hsj hs V _ fun w => hA w) .rfl

/-- EXIT: the pipeline's arrays at contents `F` and the unscoped rest at `V` are the core's unscoped buffers at any
    valuation `V'` that has the arrays at `F` and agrees with `V` off them. -/
theorem unscopedBufs_of_arrays_shared (hw : Pipeline.WinFacts₀ cfg.spec) (harr : ∀ w, (cfg.spec w).arr.IsWhole) {i j : Fin cfg.W} (hne : i ≠ j)
    (hij : Pipeline.arrRef cfg.spec i = Pipeline.arrRef cfg.spec j)
    (hinj : ∀ w w', w ≠ j → w' ≠ j → Pipeline.arrRef cfg.spec w = Pipeline.arrRef cfg.spec w' → w = w')
    {qa qb : PosShare TreeShare} (hab : fullShare ∈ qa ·? qb)
    (hsi : dat.share i = qa) (hsj : dat.share j = qb) (hs : ∀ w, w ≠ i → w ≠ j → dat.share w = fullShare)
    (V V' : (b : Ref sig .tc) → Buf Val ((c.tc : Thread nD τ).loc b))
    (F : (w : Fin cfg.W) → Buf Val ((cfg.win w).arr.view.loc (c.tc : Thread nD τ)))
    (hF : ∀ w, F w = V' (Pipeline.arrRef cfg.spec w))
    (hrest : ∀ b, b ∉ Finset.univ.image (Pipeline.arrRef cfg.spec) → V' b = V b) :
    iprop(dat.arrays F ∗ Pipeline.unscopedRest cfg.spec c V) ⊢ (unscopedBufs c V' : sProp 𝕄) := by
  classical
  have hsub : Finset.univ.image (Pipeline.arrRef cfg.spec) ⊆ Finset.univ.filter fun b : Ref sig .tc => ¬ b.isScoped := fun b hb => by
    obtain ⟨w, -, rfl⟩ := Finset.mem_image.mp hb
    exact Finset.mem_filter.mpr ⟨Finset.mem_univ _, by simp [hw.arr_unscoped w]⟩
  have h0 : (unscopedBufs c V' : sProp 𝕄) = iprop((Pipeline.arrBufs cfg.spec c V' : sProp 𝕄) ∗ Pipeline.unscopedRest cfg.spec c V') := by
    unfold unscopedBufs Pipeline.unscopedRest Pipeline.arrBufs
    rw [bigSep_sdiff_split hsub]
    rfl
  rw [h0]
  refine sep_mono (arrBufs_of_arrays_shared dat harr hne hij hinj hab hsi hsj hs V' F hF) (Entails.of_eq ?_)
  unfold Pipeline.unscopedRest
  exact bigSep_congr fun b hb => by rw [hrest b (Finset.mem_sdiff.mp hb).2]

end Shared

section Calls

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 4: windows 2 and 3 read one array -/

/-- Windows 2 and 3 of call 4 are handed the same array. -/
theorem shared4 : Pipeline.arrRef spec4 2 = Pipeline.arrRef spec4 3 := rfl
/-- Window 3 apart, the windows' arrays are pairwise distinct. -/
theorem inj4 : ∀ w w' : Fin 11, w ≠ 3 → w' ≠ 3 → Pipeline.arrRef spec4 w = Pipeline.arrRef spec4 w' → w = w' := by decide

/-- The shares the proof data hold the arrays at: the shared array's two halves, every other array whole. -/
theorem share4_2 (c : Dev nD) : (dat4 V c).share 2 = fullShare.left := by
  unfold Dat.share; rw [q_eq4]; rfl
theorem share4_3 (c : Dev nD) : (dat4 V c).share 3 = fullShare.right := by
  unfold Dat.share; rw [q_eq4]; rfl
theorem share4_of_ne (c : Dev nD) : ∀ w : Fin cfg4.W, w ≠ 2 → w ≠ 3 → (dat4 V c).share w = fullShare := by
  intro w h2 h3
  unfold Dat.share
  split
  · rfl
  · rw [q_eq4]
    beta_reduce
    split
    · exact absurd rfl h2
    · exact absurd rfl h3
    · rfl

/-- ENTRY of region 4: the core's unscoped buffers at `V` are the pipeline's arrays at their entry contents, the array
    windows 2 and 3 read dealt to them in halves, and the unscoped rest. -/
theorem arrays_of_held4 (c : Dev nD) :
    (unscopedBufs c (V c) : sProp 𝕄) ⊢ iprop((dat4 V c).arrays ((dat4 V c).arrAt · 0) ∗ Pipeline.unscopedRest spec4 c (V c)) :=
  arrays_of_unscopedBufs_shared (dat4 V c) winFacts₀4 arr_whole4 (i := 2) (j := 3) (by decide) shared4 inj4
    (PosShare.mem_left_op_right fullShare) (share4_2 V c) (share4_3 V c) (share4_of_ne V c) (V c) (A_eq4 V c)

/-- EXIT of region 4: the pipeline's arrays at their final contents, the two halves of the shared array rejoined
    (both windows on it end at the same contents), and the unscoped rest are the core's unscoped buffers at any `V'` that
    has the arrays at those contents and agrees with `V` off them. -/
theorem held_of_arrays4 (V' : (c : Dev nD) → (b : Ref sig .tc) → Buf (Elt F) ((c : Thread nD τ).loc b)) (c : Dev nD)
    (hF : ∀ w, (dat4 V c).arrAt w cfg4.N = V' c (Pipeline.arrRef spec4 w))
    (hrest : ∀ b, b ∉ Finset.univ.image (Pipeline.arrRef spec4) → V' c b = V c b) :
    iprop((dat4 V c).arrays ((dat4 V c).arrAt · cfg4.N) ∗ Pipeline.unscopedRest spec4 c (V c)) ⊢ (unscopedBufs c (V' c) : sProp 𝕄) :=
  unscopedBufs_of_arrays_shared (dat4 V c) winFacts₀4 arr_whole4 (i := 2) (j := 3) (by decide) shared4 inj4
    (PosShare.mem_left_op_right fullShare) (share4_2 V c) (share4_3 V c) (share4_of_ne V c) (V c) (V' c) _ hF hrest

/-! ## Call 5: windows 2 and 3 read one array -/

/-- Windows 2 and 3 of call 5 are handed the same array. -/
theorem shared5 : Pipeline.arrRef spec5 2 = Pipeline.arrRef spec5 3 := rfl
/-- Window 3 apart, the windows' arrays are pairwise distinct. -/
theorem inj5 : ∀ w w' : Fin 11, w ≠ 3 → w' ≠ 3 → Pipeline.arrRef spec5 w = Pipeline.arrRef spec5 w' → w = w' := by decide

/-- The shares the proof data hold the arrays at: the shared array's two halves, every other array whole. -/
theorem share5_2 (c : Dev nD) : (dat5 V c).share 2 = fullShare.left := by
  unfold Dat.share; rw [q_eq5]; rfl
theorem share5_3 (c : Dev nD) : (dat5 V c).share 3 = fullShare.right := by
  unfold Dat.share; rw [q_eq5]; rfl
theorem share5_of_ne (c : Dev nD) : ∀ w : Fin cfg5.W, w ≠ 2 → w ≠ 3 → (dat5 V c).share w = fullShare := by
  intro w h2 h3
  unfold Dat.share
  split
  · rfl
  · rw [q_eq5]
    beta_reduce
    split
    · exact absurd rfl h2
    · exact absurd rfl h3
    · rfl

/-- ENTRY of region 5: the core's unscoped buffers at `V` are the pipeline's arrays at their entry contents, the array
    windows 2 and 3 read dealt to them in halves, and the unscoped rest. -/
theorem arrays_of_held5 (c : Dev nD) :
    (unscopedBufs c (V c) : sProp 𝕄) ⊢ iprop((dat5 V c).arrays ((dat5 V c).arrAt · 0) ∗ Pipeline.unscopedRest spec5 c (V c)) :=
  arrays_of_unscopedBufs_shared (dat5 V c) winFacts₀5 arr_whole5 (i := 2) (j := 3) (by decide) shared5 inj5
    (PosShare.mem_left_op_right fullShare) (share5_2 V c) (share5_3 V c) (share5_of_ne V c) (V c) (A_eq5 V c)

/-- EXIT of region 5: the pipeline's arrays at their final contents, the two halves of the shared array rejoined
    (both windows on it end at the same contents), and the unscoped rest are the core's unscoped buffers at any `V'` that
    has the arrays at those contents and agrees with `V` off them. -/
theorem held_of_arrays5 (V' : (c : Dev nD) → (b : Ref sig .tc) → Buf (Elt F) ((c : Thread nD τ).loc b)) (c : Dev nD)
    (hF : ∀ w, (dat5 V c).arrAt w cfg5.N = V' c (Pipeline.arrRef spec5 w))
    (hrest : ∀ b, b ∉ Finset.univ.image (Pipeline.arrRef spec5) → V' c b = V c b) :
    iprop((dat5 V c).arrays ((dat5 V c).arrAt · cfg5.N) ∗ Pipeline.unscopedRest spec5 c (V c)) ⊢ (unscopedBufs c (V' c) : sProp 𝕄) :=
  unscopedBufs_of_arrays_shared (dat5 V c) winFacts₀5 arr_whole5 (i := 2) (j := 3) (by decide) shared5 inj5
    (PosShare.mem_left_op_right fullShare) (share5_2 V c) (share5_3 V c) (share5_of_ne V c) (V c) (V' c) _ hF hrest

/-! ## Call 6: windows 2 and 3 read one array -/

/-- Windows 2 and 3 of call 6 are handed the same array. -/
theorem shared6 : Pipeline.arrRef spec6 2 = Pipeline.arrRef spec6 3 := rfl
/-- Window 3 apart, the windows' arrays are pairwise distinct. -/
theorem inj6 : ∀ w w' : Fin 11, w ≠ 3 → w' ≠ 3 → Pipeline.arrRef spec6 w = Pipeline.arrRef spec6 w' → w = w' := by decide

/-- The shares the proof data hold the arrays at: the shared array's two halves, every other array whole. -/
theorem share6_2 (c : Dev nD) : (dat6 V c).share 2 = fullShare.left := by
  unfold Dat.share; rw [q_eq6]; rfl
theorem share6_3 (c : Dev nD) : (dat6 V c).share 3 = fullShare.right := by
  unfold Dat.share; rw [q_eq6]; rfl
theorem share6_of_ne (c : Dev nD) : ∀ w : Fin cfg6.W, w ≠ 2 → w ≠ 3 → (dat6 V c).share w = fullShare := by
  intro w h2 h3
  unfold Dat.share
  split
  · rfl
  · rw [q_eq6]
    beta_reduce
    split
    · exact absurd rfl h2
    · exact absurd rfl h3
    · rfl

/-- ENTRY of region 6: the core's unscoped buffers at `V` are the pipeline's arrays at their entry contents, the array
    windows 2 and 3 read dealt to them in halves, and the unscoped rest. -/
theorem arrays_of_held6 (c : Dev nD) :
    (unscopedBufs c (V c) : sProp 𝕄) ⊢ iprop((dat6 V c).arrays ((dat6 V c).arrAt · 0) ∗ Pipeline.unscopedRest spec6 c (V c)) :=
  arrays_of_unscopedBufs_shared (dat6 V c) winFacts₀6 arr_whole6 (i := 2) (j := 3) (by decide) shared6 inj6
    (PosShare.mem_left_op_right fullShare) (share6_2 V c) (share6_3 V c) (share6_of_ne V c) (V c) (A_eq6 V c)

/-- EXIT of region 6: the pipeline's arrays at their final contents, the two halves of the shared array rejoined
    (both windows on it end at the same contents), and the unscoped rest are the core's unscoped buffers at any `V'` that
    has the arrays at those contents and agrees with `V` off them. -/
theorem held_of_arrays6 (V' : (c : Dev nD) → (b : Ref sig .tc) → Buf (Elt F) ((c : Thread nD τ).loc b)) (c : Dev nD)
    (hF : ∀ w, (dat6 V c).arrAt w cfg6.N = V' c (Pipeline.arrRef spec6 w))
    (hrest : ∀ b, b ∉ Finset.univ.image (Pipeline.arrRef spec6) → V' c b = V c b) :
    iprop((dat6 V c).arrays ((dat6 V c).arrAt · cfg6.N) ∗ Pipeline.unscopedRest spec6 c (V c)) ⊢ (unscopedBufs c (V' c) : sProp 𝕄) :=
  unscopedBufs_of_arrays_shared (dat6 V c) winFacts₀6 arr_whole6 (i := 2) (j := 3) (by decide) shared6 inj6
    (PosShare.mem_left_op_right fullShare) (share6_2 V c) (share6_3 V c) (share6_of_ne V c) (V c) (V' c) _ hF hrest

/-! ## Call 7: windows 2 and 3 read one array -/

/-- Windows 2 and 3 of call 7 are handed the same array. -/
theorem shared7 : Pipeline.arrRef spec7 2 = Pipeline.arrRef spec7 3 := rfl
/-- Window 3 apart, the windows' arrays are pairwise distinct. -/
theorem inj7 : ∀ w w' : Fin 11, w ≠ 3 → w' ≠ 3 → Pipeline.arrRef spec7 w = Pipeline.arrRef spec7 w' → w = w' := by decide

/-- The shares the proof data hold the arrays at: the shared array's two halves, every other array whole. -/
theorem share7_2 (c : Dev nD) : (dat7 V c).share 2 = fullShare.left := by
  unfold Dat.share; rw [q_eq7]; rfl
theorem share7_3 (c : Dev nD) : (dat7 V c).share 3 = fullShare.right := by
  unfold Dat.share; rw [q_eq7]; rfl
theorem share7_of_ne (c : Dev nD) : ∀ w : Fin cfg7.W, w ≠ 2 → w ≠ 3 → (dat7 V c).share w = fullShare := by
  intro w h2 h3
  unfold Dat.share
  split
  · rfl
  · rw [q_eq7]
    beta_reduce
    split
    · exact absurd rfl h2
    · exact absurd rfl h3
    · rfl

/-- ENTRY of region 7: the core's unscoped buffers at `V` are the pipeline's arrays at their entry contents, the array
    windows 2 and 3 read dealt to them in halves, and the unscoped rest. -/
theorem arrays_of_held7 (c : Dev nD) :
    (unscopedBufs c (V c) : sProp 𝕄) ⊢ iprop((dat7 V c).arrays ((dat7 V c).arrAt · 0) ∗ Pipeline.unscopedRest spec7 c (V c)) :=
  arrays_of_unscopedBufs_shared (dat7 V c) winFacts₀7 arr_whole7 (i := 2) (j := 3) (by decide) shared7 inj7
    (PosShare.mem_left_op_right fullShare) (share7_2 V c) (share7_3 V c) (share7_of_ne V c) (V c) (A_eq7 V c)

/-- EXIT of region 7: the pipeline's arrays at their final contents, the two halves of the shared array rejoined
    (both windows on it end at the same contents), and the unscoped rest are the core's unscoped buffers at any `V'` that
    has the arrays at those contents and agrees with `V` off them. -/
theorem held_of_arrays7 (V' : (c : Dev nD) → (b : Ref sig .tc) → Buf (Elt F) ((c : Thread nD τ).loc b)) (c : Dev nD)
    (hF : ∀ w, (dat7 V c).arrAt w cfg7.N = V' c (Pipeline.arrRef spec7 w))
    (hrest : ∀ b, b ∉ Finset.univ.image (Pipeline.arrRef spec7) → V' c b = V c b) :
    iprop((dat7 V c).arrays ((dat7 V c).arrAt · cfg7.N) ∗ Pipeline.unscopedRest spec7 c (V c)) ⊢ (unscopedBufs c (V' c) : sProp 𝕄) :=
  unscopedBufs_of_arrays_shared (dat7 V c) winFacts₀7 arr_whole7 (i := 2) (j := 3) (by decide) shared7 inj7
    (PosShare.mem_left_op_right fullShare) (share7_2 V c) (share7_3 V c) (share7_of_ne V c) (V c) (V' c) _ hF hrest

end Calls

end Cert.Kernel.Hand

end
-- ==== Proof.KRegsShared.lean ====
import proofs.«166951_j44444321579084_2_alg».proof.Proof.KFold
import proofs.«166951_j44444321579084_2_alg».proof.Proof.KShared

/-!
# The regions whose windows share an array, as segments of @main's run

Each of custom calls 4 to 7 is a segment from the thread state "every unscoped buffer of the core at the entry
contents, the generator register at some state, nothing owed" to the same at the exit contents. The region's arrays
leave the unscoped buffers at the entry and return to them at the exit; the one array that two input windows read
is held by them in halves in between.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 4 (custom_call 4) over the thread state: entered from every unscoped buffer at `W13`, left at `W14`. Its
    arrays are split out of the unscoped buffers, the array windows 2 and 3 share dealt to them in halves
    (`arrays_of_held4`), and put back at the exit contents, the halves rejoined (`held_of_arrays4`); the generator
    register goes into the class invariant and comes out; nothing is owed; the kernel has no semaphore of its own. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := arrays_of_held4 (V13 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := held_of_arrays4 (V13 m ρ) (V14 m ρ) c (hF4 m ρ c) (hrest4 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 5 (custom_call 5) over the thread state: entered from every unscoped buffer at `W16`, left at `W17`. Its
    arrays are split out of the unscoped buffers, the array windows 2 and 3 share dealt to them in halves
    (`arrays_of_held5`), and put back at the exit contents, the halves rejoined (`held_of_arrays5`); the generator
    register goes into the class invariant and comes out; nothing is owed; the kernel has no semaphore of its own. -/
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (body_obligation5 (V16 m ρ) c).loose
  hwaits := Pipeline.hwaits_of_owed_zero _ _ _ _ L lv 5 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec5 c (V16 m ρ c)
  hentry c := by
    rw [Pipeline.ownSems0_none]
    have hsplit := arrays_of_held5 (V16 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := held_of_arrays5 (V16 m ρ) (V17 m ρ) c (hF5 m ρ c) (hrest5 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 6 (custom_call 6) over the thread state: entered from every unscoped buffer at `W19`, left at `W20`. Its
    arrays are split out of the unscoped buffers, the array windows 2 and 3 share dealt to them in halves
    (`arrays_of_held6`), and put back at the exit contents, the halves rejoined (`held_of_arrays6`); the generator
    register goes into the class invariant and comes out; nothing is owed; the kernel has no semaphore of its own. -/
def reg6 : Pipeline.RegionSeg (pcfgs (F := F)) adm (pdats m ρ) () defs₀ 𝒱₀ L lv 6 where
  win := winFacts₀6
  block_pos := block_pos6
  stage_whole := stage_whole6
  K := PEmpty
  osem k := k.elim
  ho := Pipeline.OwnSemFacts.none _
  hbody c := (body_obligation6 (V19 m ρ) c).loose
  hwaits := Pipeline.hwaits_of_owed_zero _ _ _ _ L lv 6 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec6 c (V19 m ρ c)
  hentry c := by
    rw [Pipeline.ownSems0_none]
    have hsplit := arrays_of_held6 (V19 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := held_of_arrays6 (V19 m ρ) (V20 m ρ) c (hF6 m ρ c) (hrest6 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 7 (custom_call 7) over the thread state: entered from every unscoped buffer at `W22`, left at `W23`. Its
    arrays are split out of the unscoped buffers, the array windows 2 and 3 share dealt to them in halves
    (`arrays_of_held7`), and put back at the exit contents, the halves rejoined (`held_of_arrays7`); the generator
    register goes into the class invariant and comes out; nothing is owed; the kernel has no semaphore of its own. -/
def reg7 : Pipeline.RegionSeg (pcfgs (F := F)) adm (pdats m ρ) () defs₀ 𝒱₀ L lv 7 where
  win := winFacts₀7
  block_pos := block_pos7
  stage_whole := stage_whole7
  K := PEmpty
  osem k := k.elim
  ho := Pipeline.OwnSemFacts.none _
  hbody c := (body_obligation7 (V22 m ρ) c).loose
  hwaits := Pipeline.hwaits_of_owed_zero _ _ _ _ L lv 7 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec7 c (V22 m ρ c)
  hentry c := by
    rw [Pipeline.ownSems0_none]
    have hsplit := arrays_of_held7 (V22 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := held_of_arrays7 (V22 m ρ) (V23 m ρ) c (hF7 m ρ c) (hrest7 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.KRel.lean ====
import proofs.«166951_j44444321579084_2_alg».proof.Proof.KFold

/-! # The relational reading of the proof data, the last kernel region and the last host piece

The last kernel call's output block is clipped at the array's edge, and what its body stores there depends on rows of
its inputs that lie outside their arrays. The frame claim reads nothing of that output, so the call's proof data are
read RELATIONALLY with the output window forgotten: of what the body leaves in that window's buffer nothing is said.
The price is paid at the region's exit. The output array then holds SOME contents, which no closed form names, and so
do the buffers the remaining host piece computes from it. From that point on the thread state is therefore
"every unscoped buffer at some contents that agree with the region's entry contents off a short list of references":
off `main_v429` when the region is left, off `main_v429` and `main_v430` at the end.

* `rdats`: every pipeline's proof data read relationally, exactly for calls 0 to 7, the output forgotten for call 8.
* `RDat.RegionSeg.retarget`: a region's record mentions the proof data of its own pipeline only, so a record stated
  over one family serves over any family with the same datum at that pipeline.
* `TE`: the thread state described above; `reg8R`: region 8 from `W25` to `TE [main_v429]`;
  `hsegLast`: the last host piece from `TE [main_v429]` to `TE [main_v429, main_v430]`.
* `W25_of_W27`: an argument of @main holds its launch contents already at `W25`. -/

set_option maxRecDepth 16384

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe PCS
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : SL.Sem.Labels} {P : Type} [Fintype P]
variable (pcs : P → PCfg sig Λ₀ Val) (a : (p : P) → (pcs p).Adm)
  {rdats rdats' : (p : P) → (c : Dev nD) → RDat τ Val Ix Name U Lvl (pin pcs a p) c} {ι : Ix}
  {defs₀ : Defs nD τ sig Val Λ₀} {𝒱₀ : Variants}
  {L : GSem nD τ sig → Finset Ix} {lv : GSem nD τ sig → Ix → Lvl} [Preorder Lvl]

/-- A region record stated over one family of relational proof data, read over another family that has the same
    datum at the region's own pipeline: no field mentions another pipeline's datum, except the wait evidence, which
    is supplied anew. -/
def RDat.RegionSeg.retarget {p : P} (R : RDat.RegionSeg pcs a rdats' ι defs₀ 𝒱₀ L lv p) (h : ∀ c, rdats p c = rdats' p c)
    (hwaits : ∀ c, (levAts L lv : sProp 𝕄) ⊢ cellsWaits (pin pcs a) rdats ι p c) :
    RDat.RegionSeg pcs a rdats ι defs₀ 𝒱₀ L lv p where
  win := R.win
  block_pos := R.block_pos
  stage_whole := R.stage_whole
  K := R.K
  fK := R.fK
  osem := R.osem
  ho := R.ho
  hbody c := by rw [h c]; exact R.hbody c
  hwaits := hwaits
  pre := R.pre
  post := R.post
  X := R.X
  Y := R.Y
  Z := R.Z
  hentry c := by rw [h c]; exact R.hentry c
  hin c := by rw [h c]; exact R.hin c
  hout c := by rw [h c]; exact R.hout c
  hexit c := by rw [h c]; exact R.hexit c

end Idealize.ShloMosaic.Pipeline

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The family -/

/-- Every pipeline's proof data read relationally, each at its region's entry contents: what the body leaves is what
    the exact data name, for calls 0 to 7; for call 8 the same of its fifteen input windows, and nothing of its
    output window. A literal `match`, so that at a numeral it reduces to the call's own datum. -/
def rdats : (p : Fin 9) → (c : Dev nD) → RDat τ (Elt F) Unit ℕ (UR sig nD τ) ℕ (Pipeline.pin (pcfgs (F := F)) adm p) c
  | ⟨0, _⟩ => fun c => (dat0 (V1 m ρ) c).toR
  | ⟨1, _⟩ => fun c => (dat1 (V3 m ρ) c).toR
  | ⟨2, _⟩ => fun c => (dat2 (V7 m ρ) c).toR
  | ⟨3, _⟩ => fun c => (dat3 (V10 m ρ) c).toR
  | ⟨4, _⟩ => fun c => (dat4 (V13 m ρ) c).toR
  | ⟨5, _⟩ => fun c => (dat5 (V16 m ρ) c).toR
  | ⟨6, _⟩ => fun c => (dat6 (V19 m ρ) c).toR
  | ⟨7, _⟩ => fun c => (dat7 (V22 m ρ) c).toR
  | ⟨8, _⟩ => fun c => (dat8 (V25 m ρ) c).toRForget fgt8

/-! ## The thread state after the last kernel region -/

/-- Every unscoped buffer of core `c` at SOME contents that agree with region 8's entry contents `W25` at every
    reference outside the list `S`. -/
def TE (S : List (Ref sig .tc)) (c : Dev nD) : sProp 𝕄 :=
  iprop(∃ Wc : Valuation τ sig (Elt F),
    ⌜∀ r : Ref sig .tc, r ∉ S → Wc (Proc.devRef .tc r) = W25 m ρ c (Proc.devRef .tc r)⌝
      ∗ StableHlo.held (c : Thread nD τ) (Pipeline.ucRefs τ sig) Wc)

/-- A reference that neither region 8 nor the last host piece writes holds at `W25` what it holds at the end of the
    named fold, `W27`: the two items leave it as they found it. -/
theorem W25_of_W27 (c : Dev nD) (r : Ref sig .tc) (h1 : r ≠ main_v429) (h2 : r ∉ main_part8_ops1_W) :
    W25 m ρ c (Proc.devRef .tc r) = W27 m ρ c (Proc.devRef .tc r) :=
  ((W27_of m ρ c r h2).trans (W26_of m ρ c r h1)).symm

/-! ## Region 8 -/

/-- The contents region 8 leaves: its arrays at `A`, every other buffer as entered. -/
abbrev W26' (c : Dev nD) (A : (w : Fin cfg8.W) → Buf (Elt F) ((cfg8.win w).arr.view.loc (c : Thread nD τ))) :
    Valuation τ sig (Elt F) :=
  Pipeline.withArrays spec8 c (W25 m ρ c) A
/-- The same read at the TensorCore's references. -/
abbrev V26' (c : Dev nD) (A : (w : Fin cfg8.W) → Buf (Elt F) ((cfg8.win w).arr.view.loc (c : Thread nD τ))) :
    (b : Ref sig .tc) → Buf (Elt F) ((c : Thread nD τ).loc b) := fun b => W26' m ρ c A b

/-- Contents the arrays of call 8 may hold after every write-back: an input window's array is as at entry; of the
    output window's array the relation says nothing. -/
theorem arrAt8_in (c : Dev nD) (w : Fin cfg8.W) (hw : w ≠ 15)
    (Fw : Buf (Elt F) ((cfg8.win w).arr.view.loc (c : Thread nD τ))) (h : (rdats m ρ 8 c).ArrAt w cfg8.N Fw) :
    Fw = V25 m ρ c (Pipeline.arrRef spec8 w) := by
  have hf : fgt8 w = false := by unfold fgt8; exact decide_eq_false hw
  have h' := ((dat8 (V25 m ρ) c).toRForget_arrAt_iff hf cfg8.N Fw).mp h
  rw [h', (dat8 (V25 m ρ) c).arrAt_in w (in_of_ne8 w hw).1, A_eq8]

/-- The arrays of call 8 after every write-back, opened: they are held at some contents `A`, an input's as entered. -/
theorem arraysAt8_open (c : Dev nD) :
    ((rdats m ρ 8 c).arraysAt cfg8.N : sProp 𝕄)
      ⊢ iprop(∃ A : (w : Fin cfg8.W) → Buf (Elt F) ((cfg8.win w).arr.view.loc (c : Thread nD τ)),
          ⌜∀ w, w ≠ 15 → A w = V25 m ρ c (Pipeline.arrRef spec8 w)⌝ ∗ (pdats m ρ 8 c).arrays A) := by
  unfold RDat.arraysAt
  iintro Ha
  ihave Ha' := (BI.bigSep_exists_pi Finset.univ (fun (w : Fin cfg8.W) (Fw : Buf (Elt F) ((cfg8.win w).arr.view.loc (c : Thread nD τ))) =>
      iprop(⌜(rdats m ρ 8 c).ArrAt w cfg8.N Fw⌝
        ∗ (cfg8.win w).arr.view.loc (c : Thread nD τ) ↦[(cfg8.win w).arr.view.set]{(rdats m ρ 8 c).share w} Fw))) $$ Ha
  icases Ha' with ⟨%A, Ha⟩
  ihave Ha2 := (BI.bigSep_pure_sep Finset.univ (fun w => (rdats m ρ 8 c).ArrAt w cfg8.N (A w))
      (fun w => (cfg8.win w).arr.view.loc (c : Thread nD τ) ↦[(cfg8.win w).arr.view.set]{(rdats m ρ 8 c).share w} A w)) $$ Ha
  icases Ha2 with ⟨%hA, Ha⟩
  iexists A
  isplitr
  · ipureintro; exact fun w hw => arrAt8_in m ρ c w hw (A w) (hA w (Finset.mem_univ w))
  · unfold Dat.arrays; iexact Ha

/-- The contents region 8 leaves agree with its entry contents off the output array `main_v429`. -/
theorem W26'_of (c : Dev nD) (A : (w : Fin cfg8.W) → Buf (Elt F) ((cfg8.win w).arr.view.loc (c : Thread nD τ)))
    (hA : ∀ w, w ≠ 15 → A w = V25 m ρ c (Pipeline.arrRef spec8 w)) (r : Ref sig .tc) (h : r ∉ [main_v429]) :
    W26' m ρ c A (Proc.devRef .tc r) = W25 m ρ c (Proc.devRef .tc r) := by
  have h' : r ≠ main_v429 := fun e => h (e ▸ List.mem_singleton_self _)
  by_cases hr : ∃ w, Pipeline.arrRef spec8 w = r
  · obtain ⟨w, rfl⟩ := hr
    have hw : w ≠ 15 := fun e => h' (e ▸ rfl)
    exact (Pipeline.withArrays_arr spec8 launch8.win.arr_inj c _ A w).trans (hA w hw)
  · exact Pipeline.withArrays_of_ne spec8 c _ A r fun w e => hr ⟨w, e⟩

-- a library lemma stated over the pinned configuration unifies with the printed one only when unification may unfold
-- plain definitions in a metavariable's type
set_option backward.isDefEq.respectTransparency.types false in
/-- REGION 8 (custom_call 8) over the thread state: entered from every unscoped buffer at `W25`, left at contents
    that agree with `W25` off the output array. Its arrays are split out of the unscoped buffers at the entry; at the
    exit they come back at some contents (`arraysAt8_open`) and are put back among the unscoped buffers at the
    valuation updated there; the generator register goes into the class invariant and comes out; nothing is owed;
    the kernel has no semaphore of its own. -/
def reg8R : Pipeline.RDat.RegionSeg (pcfgs (F := F)) adm (rdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8_fgt (V25 m ρ) c).toRForget
  hwaits := Pipeline.RDat.hwaits_of_owed_zero _ _ _ _ L lv 8 fun _ _ => rfl
  pre c := iprop(StableHlo.held (c : Thread nD τ) (Pipeline.ucRefs τ sig) (W25 m ρ c) ∗ R c)
  post c := iprop(TE m ρ [main_v429] c ∗ R c)
  X c := iprop(∃ r, prngReg c r)
  Y c := iprop(∃ r, prngReg c r)
  Z c := Pipeline.unscopedRest (Ix := Unit) (Name := ℕ) (U := UR sig nD τ) (Lvl := ℕ) spec8 c (V25 m ρ c)
  hentry c := by
    rw [Pipeline.ownSems0_none]
    have hsplit := Pipeline.RDat.arrays_of_unscopedBufs (p := 8) (pcfgs (F := F)) adm (rdats m ρ) launch8.win launch8.arr_whole c
      ((pdats m ρ 8 c).share_full fun _ => rfl) (V25 m ρ c) fun w => A_eq8 (V25 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (rdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hopen := arraysAt8_open m ρ c
    iintro ⟨Ha, HO, HY, Hrest⟩
    ihave Ha' := hopen $$ Ha
    icases Ha' with ⟨%A, %hA, Ha⟩
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V25 m ρ c) (V26' m ρ c A) A
      (fun w => (Pipeline.withArrays_arr spec8 launch8.win.arr_inj c _ A w).symm)
      (fun b hb => Pipeline.withArrays_of_ne spec8 c _ A b fun w e => hb (Finset.mem_image.mpr ⟨w, Finset.mem_univ _, e⟩))
    rw [Pipeline.unscopedBufs_held] at hjoin
    imodintro
    isplitl [Ha Hrest]
    · unfold TE
      iexists (W26' m ρ c A)
      isplitr; · ipureintro; exact fun r hr => W26'_of m ρ c A hA r hr
      iapply hjoin
      isplitl [Ha]; · iexact Ha
      iexact Hrest
    isplitl [HY]; · iexact HY
    unfold Pipeline.RDat.owesAt Pipeline.owesWithin
    icases HO with ⟨%W, -, HO⟩; iexists W; iexact HO

/-! ## The last host piece -/

-- a StableHLO rule stated for any thread unifies at the TensorCore thread only when unification may unfold plain
-- definitions in a metavariable's type
set_option backward.isDefEq.respectTransparency.types false in
/-- Item 26, the host piece `main_part8_ops1` (one operation, reading `main_v429` and writing `main_v430`), over
    the thread state: whatever the buffers hold, the piece runs and rewrites `main_v430` alone, so contents that
    agreed with `W25` off `main_v429` agree with it off `main_v429` and `main_v430` afterwards. The generator
    register and the core's `owes` ride along; the post is bracketed as the end of the chain wants it. -/
def hsegLast : Pipeline.HostSeg (Name := ℕ) (U := UR sig nD τ) (pcfgs (F := F)) defs₀ 𝒱₀ L lv where
  prog := StableHlo.seq main_part8_ops1
  pre c := iprop(TE m ρ [main_v429] c ∗ R c)
  post c := iprop((TE m ρ [main_v429, main_v430] c ∗ ∃ r, prngReg c r) ∗ ∃ W, owes (c : Thread nD τ) (0 : CellTallies nD τ sig Unit) W)
  run c {β} k K := by
    iintro ⟨Hk, Hbd, ⟨HT, HR⟩, -⟩
    unfold TE
    icases HT with ⟨%Wc, %hWc, Hh⟩
    have hseq := StableHlo.wp_seq (defs := Pipeline.defs (pcfgs (F := F)) defs₀) (Variants.lift 𝒱₀) none Set.univ c (Pipeline.ucRefs τ sig) k (K := K)
      (main_part8_ops1 (F := F))
      (fun op h => Pipeline.sub_ucRefs op ((List.forall_iff_forall_mem.mp main_part8_ops1_sub) op h))
      (fun op h => (List.forall_iff_forall_mem.mp main_part8_ops1_fresh) op h) Wc
    iapply hseq $$ [Hbd Hh]
    · isplitl [Hbd] <;> iassumption
    iintro ⟨Hbd, Hh⟩
    iapply Hk
    isplitl [Hbd]; · iexact Hbd
    icases HR with ⟨Hp, HO⟩
    isplitr [HO]
    · isplitl [Hh]
      · iexists (StableHlo.after main_part8_ops1 Wc)
        isplitr
        · ipureintro
          intro r hr
          have h1 : r ∉ main_part8_ops1_W := fun e => hr (List.mem_cons_of_mem _ e)
          have h2 : r ∉ [main_v429] := fun e => hr (List.mem_cons.mpr (Or.inl (List.mem_singleton.mp e)))
          rw [StableHlo.after_of_writes_sub main_part8_ops1 _ main_part8_ops1_writes h1]
          exact hWc r h2
        · iexact Hh
      · iexact Hp
    · iexact HO

end Cert.Kernel.Hand

end
-- ==== Proof.KRun.lean ====
import proofs.«166951_j44444321579084_2_alg».proof.Proof.KRegs
import proofs.«166951_j44444321579084_2_alg».proof.Proof.KRegsShared
import proofs.«166951_j44444321579084_2_alg».proof.Proof.KRel

/-! # The run of @main and its frame

@main's 27 items as segments over the relational family `rdats`: a host piece from its boundary's contents, a kernel
region per call. Regions 0 to 7 are the exact records read relationally; region 8 forgets its output window, and from
its exit on the thread state holds the buffers at contents known only off `main_v429` (and then `main_v430`), which
is all the frame needs: every argument of @main is off those, and holds at region 8's entry what the launch gave it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Regions 0 to 7 over the relational family -/

/-- Region 0 over the relational family: the exact record read relationally (`RegionSeg.toR`), the family's datum at
    pipeline 0 being the exact one read so. -/
def reg0R : Pipeline.RDat.RegionSeg (pcfgs (F := F)) adm (rdats m ρ) () defs₀ 𝒱₀ L lv 0 :=
  Pipeline.RDat.RegionSeg.retarget (pcfgs (F := F)) adm ((reg0 m ρ).toR (pcfgs (F := F)) adm (pdats m ρ) () defs₀ 𝒱₀ L lv)
    (fun _ => rfl) (Pipeline.RDat.hwaits_of_owed_zero _ _ _ _ L lv 0 fun _ _ => rfl)
/-- Region 1 over the relational family: the exact record read relationally (`RegionSeg.toR`), the family's datum at
    pipeline 1 being the exact one read so. -/
def reg1R : Pipeline.RDat.RegionSeg (pcfgs (F := F)) adm (rdats m ρ) () defs₀ 𝒱₀ L lv 1 :=
  Pipeline.RDat.RegionSeg.retarget (pcfgs (F := F)) adm ((reg1 m ρ).toR (pcfgs (F := F)) adm (pdats m ρ) () defs₀ 𝒱₀ L lv)
    (fun _ => rfl) (Pipeline.RDat.hwaits_of_owed_zero _ _ _ _ L lv 1 fun _ _ => rfl)
/-- Region 2 over the relational family: the exact record read relationally (`RegionSeg.toR`), the family's datum at
    pipeline 2 being the exact one read so. -/
def reg2R : Pipeline.RDat.RegionSeg (pcfgs (F := F)) adm (rdats m ρ) () defs₀ 𝒱₀ L lv 2 :=
  Pipeline.RDat.RegionSeg.retarget (pcfgs (F := F)) adm ((reg2 m ρ).toR (pcfgs (F := F)) adm (pdats m ρ) () defs₀ 𝒱₀ L lv)
    (fun _ => rfl) (Pipeline.RDat.hwaits_of_owed_zero _ _ _ _ L lv 2 fun _ _ => rfl)
/-- Region 3 over the relational family: the exact record read relationally (`RegionSeg.toR`), the family's datum at
    pipeline 3 being the exact one read so. -/
def reg3R : Pipeline.RDat.RegionSeg (pcfgs (F := F)) adm (rdats m ρ) () defs₀ 𝒱₀ L lv 3 :=
  Pipeline.RDat.RegionSeg.retarget (pcfgs (F := F)) adm ((reg3 m ρ).toR (pcfgs (F := F)) adm (pdats m ρ) () defs₀ 𝒱₀ L lv)
    (fun _ => rfl) (Pipeline.RDat.hwaits_of_owed_zero _ _ _ _ L lv 3 fun _ _ => rfl)
/-- Region 4 over the relational family: the exact record read relationally (`RegionSeg.toR`), the family's datum at
    pipeline 4 being the exact one read so. -/
def reg4R : Pipeline.RDat.RegionSeg (pcfgs (F := F)) adm (rdats m ρ) () defs₀ 𝒱₀ L lv 4 :=
  Pipeline.RDat.RegionSeg.retarget (pcfgs (F := F)) adm ((reg4 m ρ).toR (pcfgs (F := F)) adm (pdats m ρ) () defs₀ 𝒱₀ L lv)
    (fun _ => rfl) (Pipeline.RDat.hwaits_of_owed_zero _ _ _ _ L lv 4 fun _ _ => rfl)
/-- Region 5 over the relational family: the exact record read relationally (`RegionSeg.toR`), the family's datum at
    pipeline 5 being the exact one read so. -/
def reg5R : Pipeline.RDat.RegionSeg (pcfgs (F := F)) adm (rdats m ρ) () defs₀ 𝒱₀ L lv 5 :=
  Pipeline.RDat.RegionSeg.retarget (pcfgs (F := F)) adm ((reg5 m ρ).toR (pcfgs (F := F)) adm (pdats m ρ) () defs₀ 𝒱₀ L lv)
    (fun _ => rfl) (Pipeline.RDat.hwaits_of_owed_zero _ _ _ _ L lv 5 fun _ _ => rfl)
/-- Region 6 over the relational family: the exact record read relationally (`RegionSeg.toR`), the family's datum at
    pipeline 6 being the exact one read so. -/
def reg6R : Pipeline.RDat.RegionSeg (pcfgs (F := F)) adm (rdats m ρ) () defs₀ 𝒱₀ L lv 6 :=
  Pipeline.RDat.RegionSeg.retarget (pcfgs (F := F)) adm ((reg6 m ρ).toR (pcfgs (F := F)) adm (pdats m ρ) () defs₀ 𝒱₀ L lv)
    (fun _ => rfl) (Pipeline.RDat.hwaits_of_owed_zero _ _ _ _ L lv 6 fun _ _ => rfl)
/-- Region 7 over the relational family: the exact record read relationally (`RegionSeg.toR`), the family's datum at
    pipeline 7 being the exact one read so. -/
def reg7R : Pipeline.RDat.RegionSeg (pcfgs (F := F)) adm (rdats m ρ) () defs₀ 𝒱₀ L lv 7 :=
  Pipeline.RDat.RegionSeg.retarget (pcfgs (F := F)) adm ((reg7 m ρ).toR (pcfgs (F := F)) adm (pdats m ρ) () defs₀ 𝒱₀ L lv)
    (fun _ => rfl) (Pipeline.RDat.hwaits_of_owed_zero _ _ _ _ L lv 7 fun _ _ => rfl)

/-! ## @main as segments -/

/-- @main's 27 segments in order. -/
abbrev segs : List (Pipeline.RDat.Seg (pcfgs (F := F)) adm (rdats m ρ) () defs₀ 𝒱₀ L lv) :=
  [
    .host (hseg main_part0_ops0 main_part0_ops0_sub main_part0_ops0_fresh (W0 m ρ)),
    .region (reg0R m ρ),
    .host (hseg main_part0_ops1 main_part0_ops1_sub main_part0_ops1_fresh (W2 m ρ)),
    .region (reg1R m ρ),
    .host (hseg main_part0_ops2 main_part0_ops2_sub main_part0_ops2_fresh (W4 m ρ)),
    .host (hseg main_part1_ops0 main_part1_ops0_sub main_part1_ops0_fresh (W5 m ρ)),
    .host (hseg main_part2_ops0 main_part2_ops0_sub main_part2_ops0_fresh (W6 m ρ)),
    .region (reg2R m ρ),
    .host (hseg main_part2_ops1 main_part2_ops1_sub main_part2_ops1_fresh (W8 m ρ)),
    .host (hseg main_part3_ops0 main_part3_ops0_sub main_part3_ops0_fresh (W9 m ρ)),
    .region (reg3R m ρ),
    .host (hseg main_part3_ops1 main_part3_ops1_sub main_part3_ops1_fresh (W11 m ρ)),
    .host (hseg main_part4_ops0 main_part4_ops0_sub main_part4_ops0_fresh (W12 m ρ)),
    .region (reg4R m ρ),
    .host (hseg main_part4_ops1 main_part4_ops1_sub main_part4_ops1_fresh (W14 m ρ)),
    .host (hseg main_part5_ops0 main_part5_ops0_sub main_part5_ops0_fresh (W15 m ρ)),
    .region (reg5R m ρ),
    .host (hseg main_part5_ops1 main_part5_ops1_sub main_part5_ops1_fresh (W17 m ρ)),
    .host (hseg main_part6_ops0 main_part6_ops0_sub main_part6_ops0_fresh (W18 m ρ)),
    .region (reg6R m ρ),
    .host (hseg main_part6_ops1 main_part6_ops1_sub main_part6_ops1_fresh (W20 m ρ)),
    .host (hseg main_part7_ops0 main_part7_ops0_sub main_part7_ops0_fresh (W21 m ρ)),
    .region (reg7R m ρ),
    .host (hseg main_part7_ops1 main_part7_ops1_sub main_part7_ops1_fresh (W23 m ρ)),
    .host (hseg main_part8_ops0 main_part8_ops0_sub main_part8_ops0_fresh (W24 m ρ)),
    .region (reg8R m ρ),
    .host (hsegLast m ρ) ]

/-- @main is the run of the segments: its chain of items cut at the windows (`Gen.main_chain_windows`), each item the
    fragment of its segment. -/
theorem main_run (c : Dev nD) : main (F := F) c = Pipeline.RDat.Seg.run (segs m ρ) := by
  rewrite [main_chain_windows c, Pipeline.RDat.Seg.run_eq_chain,
    show (segs m ρ).map Pipeline.RDat.Seg.prog = [
          StableHlo.seq main_part0_ops0,
          Prog.lift (.customCall (Pipeline.entry 0) ()),
          StableHlo.seq main_part0_ops1,
          Prog.lift (.customCall (Pipeline.entry 1) ()),
          StableHlo.seq main_part0_ops2,
          StableHlo.seq main_part1_ops0,
          StableHlo.seq main_part2_ops0,
          Prog.lift (.customCall (Pipeline.entry 2) ()),
          StableHlo.seq main_part2_ops1,
          StableHlo.seq main_part3_ops0,
          Prog.lift (.customCall (Pipeline.entry 3) ()),
          StableHlo.seq main_part3_ops1,
          StableHlo.seq main_part4_ops0,
          Prog.lift (.customCall (Pipeline.entry 4) ()),
          StableHlo.seq main_part4_ops1,
          StableHlo.seq main_part5_ops0,
          Prog.lift (.customCall (Pipeline.entry 5) ()),
          StableHlo.seq main_part5_ops1,
          StableHlo.seq main_part6_ops0,
          Prog.lift (.customCall (Pipeline.entry 6) ()),
          StableHlo.seq main_part6_ops1,
          StableHlo.seq main_part7_ops0,
          Prog.lift (.customCall (Pipeline.entry 7) ()),
          StableHlo.seq main_part7_ops1,
          StableHlo.seq main_part8_ops0,
          Prog.lift (.customCall (Pipeline.entry 8) ()),
          StableHlo.seq main_part8_ops1 ] from rfl]
  rfl

/-- The last thread state without the `owes`: every unscoped buffer at contents that agree with `W25` off
    `main_v429` and `main_v430`, the generator register at some state. -/
abbrev TₙR (c : Dev nD) : sProp 𝕄 := iprop(TE m ρ [main_v429, main_v430] c ∗ ∃ r, prngReg c r)

-- the launch theorem's implicit arguments are found by unifying its conclusion with this one, which takes unfolding
-- plain definitions in a metavariable's type
set_option backward.isDefEq.respectTransparency.types false in
/-- THE FRAME at any `F`: at the compiled mesh, from any memory with zero counters, every weakly fair execution of
    @main on the TensorCores terminates, nothing faulting, and every final state has the 28 argument arrays as
    launched. The launch over the segments; the last thread state read against the final state; each argument is
    neither `main_v429` nor `main_v430`, so the final state holds at it what `W25` does, which is its launch
    contents (`W25_of_W27`, `W27_main_argJ`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := TₙR m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ r : Ref sig .tc, r ∉ [main_v429, main_v430] → ¬ (Proc.devRef .tc r : DevRef τ sig).isScoped →
      s.mem (((c : Thread nD τ)).1, Proc.devRef .tc r) = W25 m ρ c (Proc.devRef .tc r))
    (hfin := fun c s' => by
      iintro ⟨⟨HT, -⟩, HSI⟩
      unfold TE
      icases HT with ⟨%Wc, %hWc, Hh⟩
      unfold StableHlo.held
      ihave Hr := (pointsTo_read_all (Pipeline.ucRefs τ sig) (fun b => (((c : Thread nD τ)).1, b)) Wc s') $$ [Hh HSI]
      · isplitl [Hh] <;> iassumption
      icases Hr with ⟨%hr, HSI⟩
      imodintro
      isplitr
      · ipureintro; intro r h1 h2; rw [hr _ (mem_uc r h2)]; exact hWc r h1
      · iexact HSI)
    (hQ := fun s h c =>
      ⟨(h c main_arg0 (by decide) (by decide)).trans ((W25_of_W27 m ρ c main_arg0 (by decide) (by decide)).trans (W27_main_arg0 m ρ c)),
        (h c main_arg1 (by decide) (by decide)).trans ((W25_of_W27 m ρ c main_arg1 (by decide) (by decide)).trans (W27_main_arg1 m ρ c)),
        (h c main_arg2 (by decide) (by decide)).trans ((W25_of_W27 m ρ c main_arg2 (by decide) (by decide)).trans (W27_main_arg2 m ρ c)),
        (h c main_arg3 (by decide) (by decide)).trans ((W25_of_W27 m ρ c main_arg3 (by decide) (by decide)).trans (W27_main_arg3 m ρ c)),
        (h c main_arg4 (by decide) (by decide)).trans ((W25_of_W27 m ρ c main_arg4 (by decide) (by decide)).trans (W27_main_arg4 m ρ c)),
        (h c main_arg5 (by decide) (by decide)).trans ((W25_of_W27 m ρ c main_arg5 (by decide) (by decide)).trans (W27_main_arg5 m ρ c)),
        (h c main_arg6 (by decide) (by decide)).trans ((W25_of_W27 m ρ c main_arg6 (by decide) (by decide)).trans (W27_main_arg6 m ρ c)),
        (h c main_arg7 (by decide) (by decide)).trans ((W25_of_W27 m ρ c main_arg7 (by decide) (by decide)).trans (W27_main_arg7 m ρ c)),
        (h c main_arg8 (by decide) (by decide)).trans ((W25_of_W27 m ρ c main_arg8 (by decide) (by decide)).trans (W27_main_arg8 m ρ c)),
        (h c main_arg9 (by decide) (by decide)).trans ((W25_of_W27 m ρ c main_arg9 (by decide) (by decide)).trans (W27_main_arg9 m ρ c)),
        (h c main_arg10 (by decide) (by decide)).trans ((W25_of_W27 m ρ c main_arg10 (by decide) (by decide)).trans (W27_main_arg10 m ρ c)),
        (h c main_arg11 (by decide) (by decide)).trans ((W25_of_W27 m ρ c main_arg11 (by decide) (by decide)).trans (W27_main_arg11 m ρ c)),
        (h c main_arg12 (by decide) (by decide)).trans ((W25_of_W27 m ρ c main_arg12 (by decide) (by decide)).trans (W27_main_arg12 m ρ c)),
        (h c main_arg13 (by decide) (by decide)).trans ((W25_of_W27 m ρ c main_arg13 (by decide) (by decide)).trans (W27_main_arg13 m ρ c)),
        (h c main_arg14 (by decide) (by decide)).trans ((W25_of_W27 m ρ c main_arg14 (by decide) (by decide)).trans (W27_main_arg14 m ρ c)),
        (h c main_arg15 (by decide) (by decide)).trans ((W25_of_W27 m ρ c main_arg15 (by decide) (by decide)).trans (W27_main_arg15 m ρ c)),
        (h c main_arg16 (by decide) (by decide)).trans ((W25_of_W27 m ρ c main_arg16 (by decide) (by decide)).trans (W27_main_arg16 m ρ c)),
        (h c main_arg17 (by decide) (by decide)).trans ((W25_of_W27 m ρ c main_arg17 (by decide) (by decide)).trans (W27_main_arg17 m ρ c)),
        (h c main_arg18 (by decide) (by decide)).trans ((W25_of_W27 m ρ c main_arg18 (by decide) (by decide)).trans (W27_main_arg18 m ρ c)),
        (h c main_arg19 (by decide) (by decide)).trans ((W25_of_W27 m ρ c main_arg19 (by decide) (by decide)).trans (W27_main_arg19 m ρ c)),
        (h c main_arg20 (by decide) (by decide)).trans ((W25_of_W27 m ρ c main_arg20 (by decide) (by decide)).trans (W27_main_arg20 m ρ c)),
        (h c main_arg21 (by decide) (by decide)).trans ((W25_of_W27 m ρ c main_arg21 (by decide) (by decide)).trans (W27_main_arg21 m ρ c)),
        (h c main_arg22 (by decide) (by decide)).trans ((W25_of_W27 m ρ c main_arg22 (by decide) (by decide)).trans (W27_main_arg22 m ρ c)),
        (h c main_arg23 (by decide) (by decide)).trans ((W25_of_W27 m ρ c main_arg23 (by decide) (by decide)).trans (W27_main_arg23 m ρ c)),
        (h c main_arg24 (by decide) (by decide)).trans ((W25_of_W27 m ρ c main_arg24 (by decide) (by decide)).trans (W27_main_arg24 m ρ c)),
        (h c main_arg25 (by decide) (by decide)).trans ((W25_of_W27 m ρ c main_arg25 (by decide) (by decide)).trans (W27_main_arg25 m ρ c)),
        (h c main_arg26 (by decide) (by decide)).trans ((W25_of_W27 m ρ c main_arg26 (by decide) (by decide)).trans (W27_main_arg26 m ρ c)),
        (h c main_arg27 (by decide) (by decide)).trans ((W25_of_W27 m ρ c main_arg27 (by decide) (by decide)).trans (W27_main_arg27 m ρ c))⟩)

end Cert.Kernel.Hand

end
-- ==== Proof.KIHost.lean ====
import proofs.«166951_j44444321579084_2_alg».proof.Proof.Gen.KernelIdeal.Launch

/-! # What the host pieces of @main allocate and write

@main's host operations come in 18 pieces (a stretch between two kernel calls, cut where it is long). Each
operation writes exactly one buffer, its result, and allocates none. For every piece we record the list of the
references its operations write; a reference outside that list keeps its contents through the piece
(`StableHlo.after_of_writes_sub`), which is how an argument array is read back to the launch memory. -/

set_option maxRecDepth 8192

noncomputable section

namespace Cert.KernelIdeal.Hand

open Cert.KernelIdeal Cert.KernelIdeal.Gen
open Idealize.ShloMosaic Idealize.ShloMosaic.TcCoe

variable {F : FTy → Type} [FloatOps F]

/-- One operation's result is among the listed references: what it writes is the singleton of its result
    (`StableHlo.*_writes`), and the result is found in the list by evaluation. -/
local macro "result_listed" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))

/-- No operation of `main_part0_ops0` allocates a buffer. -/
theorem main_part0_ops0_fresh : (main_part0_ops0 : List (HloOp τ sig (Elt F))).Forall fun op => op.fresh = ∅ := by
  simp only [List.Forall]; repeat' constructor
/-- The references the 4 operations of `main_part0_ops0` write, in order. -/
abbrev main_part0_ops0_W : List (Ref sig .tc) :=
  [main_v0, main_v1, main_v2, main_v3]
/-- Each operation's result is in that list. -/
theorem main_part0_ops0_writes : (main_part0_ops0 : List (HloOp τ sig (Elt F))).Forall fun op =>
    op.writes ⊆ (main_part0_ops0_W.map (Proc.devRef (τ := τ) .tc)).toFinset := by
  simp only [List.Forall]; repeat' apply And.intro
  all_goals result_listed

/-- No operation of `main_part0_ops1` allocates a buffer. -/
theorem main_part0_ops1_fresh : (main_part0_ops1 : List (HloOp τ sig (Elt F))).Forall fun op => op.fresh = ∅ := by
  simp only [List.Forall]; repeat' constructor
/-- The references the 4 operations of `main_part0_ops1` write, in order. -/
abbrev main_part0_ops1_W : List (Ref sig .tc) :=
  [main_v5, main_v6, main_v7, main_v8]
/-- Each operation's result is in that list. -/
theorem main_part0_ops1_writes : (main_part0_ops1 : List (HloOp τ sig (Elt F))).Forall fun op =>
    op.writes ⊆ (main_part0_ops1_W.map (Proc.devRef (τ := τ) .tc)).toFinset := by
  simp only [List.Forall]; repeat' apply And.intro
  all_goals result_listed

/-- No operation of `main_part0_ops2` allocates a buffer. -/
theorem main_part0_ops2_fresh : (main_part0_ops2 : List (HloOp τ sig (Elt F))).Forall fun op => op.fresh = ∅ := by
  simp only [List.Forall]; repeat' constructor
/-- The references the 50 operations of `main_part0_ops2` write, in order. -/
abbrev main_part0_ops2_W : List (Ref sig .tc) :=
  [main_v10, main_v11, main_c, main_v12, main_c_0, main_v13, main_v14, main_v15, main_v16, main_cst,
   main_v17, main_v18, main_v19, main_v20, main_c_1, main_v21, main_c_2, main_v22, main_v23, main_v24,
   main_v25, main_cst_3, main_v26, main_v27, main_v28, main_v29, main_c_4, main_v30, main_c_5, main_v31,
   main_v32, main_v33, main_v34, main_cst_6, main_v35, main_v36, main_v37, main_v38, main_c_7, main_v39,
   main_c_8, main_v40, main_v41, main_v42, main_v43, main_cst_9, main_v44, main_v45, main_v46, main_v47]
/-- Each operation's result is in that list. -/
theorem main_part0_ops2_writes : (main_part0_ops2 : List (HloOp τ sig (Elt F))).Forall fun op =>
    op.writes ⊆ (main_part0_ops2_W.map (Proc.devRef (τ := τ) .tc)).toFinset := by
  simp only [List.Forall]; repeat' apply And.intro
  all_goals result_listed

/-- No operation of `main_part1_ops0` allocates a buffer. -/
theorem main_part1_ops0_fresh : (main_part1_ops0 : List (HloOp τ sig (Elt F))).Forall fun op => op.fresh = ∅ := by
  simp only [List.Forall]; repeat' constructor
/-- The references the 60 operations of `main_part1_ops0` write, in order. -/
abbrev main_part1_ops0_W : List (Ref sig .tc) :=
  [main_v48, main_v49, main_c_10, main_v50, main_v51, main_c_11, main_v52, main_v53, main_v54, main_v55,
   main_v56, main_cst_12, main_v57, main_v58, main_v59, main_v60, main_v61, main_v62, main_v63, main_v64,
   main_v65, main_v66, main_c_13, main_v67, main_v68, main_c_14, main_v69, main_v70, main_v71, main_v72,
   main_v73, main_cst_15, main_v74, main_v75, main_v76, main_v77, main_v78, main_v79, main_v80, main_v81,
   main_v82, main_v83, main_c_16, main_v84, main_v85, main_c_17, main_v86, main_v87, main_v88, main_v89,
   main_v90, main_cst_18, main_v91, main_v92, main_v93, main_v94, main_v95, main_v96, main_v97, main_v98]
/-- Each operation's result is in that list. -/
theorem main_part1_ops0_writes : (main_part1_ops0 : List (HloOp τ sig (Elt F))).Forall fun op =>
    op.writes ⊆ (main_part1_ops0_W.map (Proc.devRef (τ := τ) .tc)).toFinset := by
  simp only [List.Forall]; repeat' apply And.intro
  all_goals result_listed

/-- No operation of `main_part2_ops0` allocates a buffer. -/
theorem main_part2_ops0_fresh : (main_part2_ops0 : List (HloOp τ sig (Elt F))).Forall fun op => op.fresh = ∅ := by
  simp only [List.Forall]; repeat' constructor
/-- The references the 40 operations of `main_part2_ops0` write, in order. -/
abbrev main_part2_ops0_W : List (Ref sig .tc) :=
  [main_v99, main_v100, main_c_19, main_v101, main_v102, main_c_20, main_v103, main_v104, main_v105, main_v106,
   main_v107, main_cst_21, main_v108, main_v109, main_v110, main_v111, main_v112, main_v113, main_v114, main_v115,
   main_v116, main_v117, main_v118, main_v119, main_v120, main_v121, main_v122, main_v123, main_v124, main_v125,
   main_v126, main_v127, main_v128, main_v129, main_v130, main_v131, main_v132, main_v133, main_v134, main_v135]
/-- Each operation's result is in that list. -/
theorem main_part2_ops0_writes : (main_part2_ops0 : List (HloOp τ sig (Elt F))).Forall fun op =>
    op.writes ⊆ (main_part2_ops0_W.map (Proc.devRef (τ := τ) .tc)).toFinset := by
  simp only [List.Forall]; repeat' apply And.intro
  all_goals result_listed

/-- No operation of `main_part2_ops1` allocates a buffer. -/
theorem main_part2_ops1_fresh : (main_part2_ops1 : List (HloOp τ sig (Elt F))).Forall fun op => op.fresh = ∅ := by
  simp only [List.Forall]; repeat' constructor
/-- The references the 19 operations of `main_part2_ops1` write, in order. -/
abbrev main_part2_ops1_W : List (Ref sig .tc) :=
  [main_v137, main_v138, main_v139, main_v140, main_v141, main_v142, main_v143, main_v144, main_v145, main_v146,
   main_v147, main_v148, main_v149, main_v150, main_v151, main_v152, main_v153, main_v154, main_v155]
/-- Each operation's result is in that list. -/
theorem main_part2_ops1_writes : (main_part2_ops1 : List (HloOp τ sig (Elt F))).Forall fun op =>
    op.writes ⊆ (main_part2_ops1_W.map (Proc.devRef (τ := τ) .tc)).toFinset := by
  simp only [List.Forall]; repeat' apply And.intro
  all_goals result_listed

/-- No operation of `main_part3_ops0` allocates a buffer. -/
theorem main_part3_ops0_fresh : (main_part3_ops0 : List (HloOp τ sig (Elt F))).Forall fun op => op.fresh = ∅ := by
  simp only [List.Forall]; repeat' constructor
/-- The references the 3 operations of `main_part3_ops0` write, in order. -/
abbrev main_part3_ops0_W : List (Ref sig .tc) :=
  [main_v156, main_v157, main_v158]
/-- Each operation's result is in that list. -/
theorem main_part3_ops0_writes : (main_part3_ops0 : List (HloOp τ sig (Elt F))).Forall fun op =>
    op.writes ⊆ (main_part3_ops0_W.map (Proc.devRef (τ := τ) .tc)).toFinset := by
  simp only [List.Forall]; repeat' apply And.intro
  all_goals result_listed

/-- No operation of `main_part3_ops1` allocates a buffer. -/
theorem main_part3_ops1_fresh : (main_part3_ops1 : List (HloOp τ sig (Elt F))).Forall fun op => op.fresh = ∅ := by
  simp only [List.Forall]; repeat' constructor
/-- The references the 56 operations of `main_part3_ops1` write, in order. -/
abbrev main_part3_ops1_W : List (Ref sig .tc) :=
  [main_v160, main_v161, main_v162, main_v163, main_c_22, main_v164, main_v165, main_c_23, main_v166, main_v167,
   main_v168, main_v169, main_v170, main_cst_24, main_v171, main_v172, main_v173, main_v174, main_v175, main_v176,
   main_v177, main_v178, main_v179, main_v180, main_c_25, main_v181, main_v182, main_c_26, main_v183, main_v184,
   main_v185, main_v186, main_v187, main_cst_27, main_v188, main_v189, main_v190, main_v191, main_v192, main_v193,
   main_v194, main_v195, main_v196, main_v197, main_c_28, main_v198, main_v199, main_c_29, main_v200, main_v201,
   main_v202, main_v203, main_v204, main_cst_30, main_v205, main_v206]
/-- Each operation's result is in that list. -/
theorem main_part3_ops1_writes : (main_part3_ops1 : List (HloOp τ sig (Elt F))).Forall fun op =>
    op.writes ⊆ (main_part3_ops1_W.map (Proc.devRef (τ := τ) .tc)).toFinset := by
  simp only [List.Forall]; repeat' apply And.intro
  all_goals result_listed

/-- No operation of `main_part4_ops0` allocates a buffer. -/
theorem main_part4_ops0_fresh : (main_part4_ops0 : List (HloOp τ sig (Elt F))).Forall fun op => op.fresh = ∅ := by
  simp only [List.Forall]; repeat' constructor
/-- The references the 46 operations of `main_part4_ops0` write, in order. -/
abbrev main_part4_ops0_W : List (Ref sig .tc) :=
  [main_v207, main_v208, main_v209, main_v210, main_v211, main_v212, main_v213, main_v214, main_c_31, main_v215,
   main_v216, main_c_32, main_v217, main_v218, main_v219, main_v220, main_v221, main_cst_33, main_v222, main_v223,
   main_v224, main_v225, main_v226, main_v227, main_v228, main_v229, main_v230, main_v231, main_v232, main_v233,
   main_v234, main_v235, main_v236, main_v237, main_v238, main_v239, main_v240, main_v241, main_v242, main_v243,
   main_v244, main_v245, main_v246, main_v247, main_v248, main_v249]
/-- Each operation's result is in that list. -/
theorem main_part4_ops0_writes : (main_part4_ops0 : List (HloOp τ sig (Elt F))).Forall fun op =>
    op.writes ⊆ (main_part4_ops0_W.map (Proc.devRef (τ := τ) .tc)).toFinset := by
  simp only [List.Forall]; repeat' apply And.intro
  all_goals result_listed

/-- No operation of `main_part4_ops1` allocates a buffer. -/
theorem main_part4_ops1_fresh : (main_part4_ops1 : List (HloOp τ sig (Elt F))).Forall fun op => op.fresh = ∅ := by
  simp only [List.Forall]; repeat' constructor
/-- The references the 13 operations of `main_part4_ops1` write, in order. -/
abbrev main_part4_ops1_W : List (Ref sig .tc) :=
  [main_v251, main_v252, main_v253, main_v254, main_v255, main_v256, main_v257, main_v258, main_v259, main_v260,
   main_v261, main_v262, main_v263]
/-- Each operation's result is in that list. -/
theorem main_part4_ops1_writes : (main_part4_ops1 : List (HloOp τ sig (Elt F))).Forall fun op =>
    op.writes ⊆ (main_part4_ops1_W.map (Proc.devRef (τ := τ) .tc)).toFinset := by
  simp only [List.Forall]; repeat' apply And.intro
  all_goals result_listed

/-- No operation of `main_part5_ops0` allocates a buffer. -/
theorem main_part5_ops0_fresh : (main_part5_ops0 : List (HloOp τ sig (Elt F))).Forall fun op => op.fresh = ∅ := by
  simp only [List.Forall]; repeat' constructor
/-- The references the 9 operations of `main_part5_ops0` write, in order. -/
abbrev main_part5_ops0_W : List (Ref sig .tc) :=
  [main_v264, main_v265, main_v266, main_v267, main_v268, main_v269, main_v270, main_v271, main_v272]
/-- Each operation's result is in that list. -/
theorem main_part5_ops0_writes : (main_part5_ops0 : List (HloOp τ sig (Elt F))).Forall fun op =>
    op.writes ⊆ (main_part5_ops0_W.map (Proc.devRef (τ := τ) .tc)).toFinset := by
  simp only [List.Forall]; repeat' apply And.intro
  all_goals result_listed

/-- No operation of `main_part5_ops1` allocates a buffer. -/
theorem main_part5_ops1_fresh : (main_part5_ops1 : List (HloOp τ sig (Elt F))).Forall fun op => op.fresh = ∅ := by
  simp only [List.Forall]; repeat' constructor
/-- The references the 50 operations of `main_part5_ops1` write, in order. -/
abbrev main_part5_ops1_W : List (Ref sig .tc) :=
  [main_v274, main_v275, main_v276, main_v277, main_c_34, main_v278, main_v279, main_c_35, main_v280, main_v281,
   main_v282, main_v283, main_v284, main_cst_36, main_v285, main_v286, main_v287, main_v288, main_v289, main_v290,
   main_v291, main_v292, main_v293, main_v294, main_c_37, main_v295, main_v296, main_c_38, main_v297, main_v298,
   main_v299, main_v300, main_v301, main_cst_39, main_v302, main_v303, main_v304, main_v305, main_v306, main_v307,
   main_v308, main_v309, main_v310, main_v311, main_c_40, main_v312, main_v313, main_c_41, main_v314, main_v315]
/-- Each operation's result is in that list. -/
theorem main_part5_ops1_writes : (main_part5_ops1 : List (HloOp τ sig (Elt F))).Forall fun op =>
    op.writes ⊆ (main_part5_ops1_W.map (Proc.devRef (τ := τ) .tc)).toFinset := by
  simp only [List.Forall]; repeat' apply And.intro
  all_goals result_listed

/-- No operation of `main_part6_ops0` allocates a buffer. -/
theorem main_part6_ops0_fresh : (main_part6_ops0 : List (HloOp τ sig (Elt F))).Forall fun op => op.fresh = ∅ := by
  simp only [List.Forall]; repeat' constructor
/-- The references the 52 operations of `main_part6_ops0` write, in order. -/
abbrev main_part6_ops0_W : List (Ref sig .tc) :=
  [main_v316, main_v317, main_v318, main_cst_42, main_v319, main_v320, main_v321, main_v322, main_v323, main_v324,
   main_v325, main_v326, main_v327, main_v328, main_c_43, main_v329, main_v330, main_c_44, main_v331, main_v332,
   main_v333, main_v334, main_v335, main_cst_45, main_v336, main_v337, main_v338, main_v339, main_v340, main_v341,
   main_v342, main_v343, main_v344, main_v345, main_v346, main_v347, main_v348, main_v349, main_v350, main_v351,
   main_v352, main_v353, main_v354, main_v355, main_v356, main_v357, main_v358, main_v359, main_v360, main_v361,
   main_v362, main_v363]
/-- Each operation's result is in that list. -/
theorem main_part6_ops0_writes : (main_part6_ops0 : List (HloOp τ sig (Elt F))).Forall fun op =>
    op.writes ⊆ (main_part6_ops0_W.map (Proc.devRef (τ := τ) .tc)).toFinset := by
  simp only [List.Forall]; repeat' apply And.intro
  all_goals result_listed

/-- No operation of `main_part6_ops1` allocates a buffer. -/
theorem main_part6_ops1_fresh : (main_part6_ops1 : List (HloOp τ sig (Elt F))).Forall fun op => op.fresh = ∅ := by
  simp only [List.Forall]; repeat' constructor
/-- The references the 7 operations of `main_part6_ops1` write, in order. -/
abbrev main_part6_ops1_W : List (Ref sig .tc) :=
  [main_v365, main_v366, main_v367, main_v368, main_v369, main_v370, main_v371]
/-- Each operation's result is in that list. -/
theorem main_part6_ops1_writes : (main_part6_ops1 : List (HloOp τ sig (Elt F))).Forall fun op =>
    op.writes ⊆ (main_part6_ops1_W.map (Proc.devRef (τ := τ) .tc)).toFinset := by
  simp only [List.Forall]; repeat' apply And.intro
  all_goals result_listed

/-- No operation of `main_part7_ops0` allocates a buffer. -/
theorem main_part7_ops0_fresh : (main_part7_ops0 : List (HloOp τ sig (Elt F))).Forall fun op => op.fresh = ∅ := by
  simp only [List.Forall]; repeat' constructor
/-- The references the 15 operations of `main_part7_ops0` write, in order. -/
abbrev main_part7_ops0_W : List (Ref sig .tc) :=
  [main_v372, main_v373, main_v374, main_v375, main_v376, main_v377, main_v378, main_v379, main_v380, main_v381,
   main_v382, main_v383, main_v384, main_v385, main_v386]
/-- Each operation's result is in that list. -/
theorem main_part7_ops0_writes : (main_part7_ops0 : List (HloOp τ sig (Elt F))).Forall fun op =>
    op.writes ⊆ (main_part7_ops0_W.map (Proc.devRef (τ := τ) .tc)).toFinset := by
  simp only [List.Forall]; repeat' apply And.intro
  all_goals result_listed

/-- No operation of `main_part7_ops1` allocates a buffer. -/
theorem main_part7_ops1_fresh : (main_part7_ops1 : List (HloOp τ sig (Elt F))).Forall fun op => op.fresh = ∅ := by
  simp only [List.Forall]; repeat' constructor
/-- The references the 44 operations of `main_part7_ops1` write, in order. -/
abbrev main_part7_ops1_W : List (Ref sig .tc) :=
  [main_v388, main_v389, main_v390, main_v391, main_c_46, main_v392, main_v393, main_c_47, main_v394, main_v395,
   main_v396, main_v397, main_v398, main_c_48, main_v399, main_v400, main_c_49, main_v401, main_v402, main_v403,
   main_v404, main_v405, main_v406, main_v407, main_v408, main_v409, main_v410, main_v411, main_v412, main_v413,
   main_v414, main_v415, main_v416, main_v417, main_v418, main_v419, main_v420, main_v421, main_v422, main_v423,
   main_v424, main_v425, main_v426, main_v427]
/-- Each operation's result is in that list. -/
theorem main_part7_ops1_writes : (main_part7_ops1 : List (HloOp τ sig (Elt F))).Forall fun op =>
    op.writes ⊆ (main_part7_ops1_W.map (Proc.devRef (τ := τ) .tc)).toFinset := by
  simp only [List.Forall]; repeat' apply And.intro
  all_goals result_listed

/-- No operation of `main_part8_ops0` allocates a buffer. -/
theorem main_part8_ops0_fresh : (main_part8_ops0 : List (HloOp τ sig (Elt F))).Forall fun op => op.fresh = ∅ := by
  simp only [List.Forall]; repeat' constructor
/-- The references the 1 operation of `main_part8_ops0` write, in order. -/
abbrev main_part8_ops0_W : List (Ref sig .tc) :=
  [main_v428]
/-- Each operation's result is in that list. -/
theorem main_part8_ops0_writes : (main_part8_ops0 : List (HloOp τ sig (Elt F))).Forall fun op =>
    op.writes ⊆ (main_part8_ops0_W.map (Proc.devRef (τ := τ) .tc)).toFinset := by
  simp only [List.Forall]; result_listed

/-- No operation of `main_part8_ops1` allocates a buffer. -/
theorem main_part8_ops1_fresh : (main_part8_ops1 : List (HloOp τ sig (Elt F))).Forall fun op => op.fresh = ∅ := by
  simp only [List.Forall]; repeat' constructor
/-- The references the 1 operation of `main_part8_ops1` write, in order. -/
abbrev main_part8_ops1_W : List (Ref sig .tc) :=
  [main_v430]
/-- Each operation's result is in that list. -/
theorem main_part8_ops1_writes : (main_part8_ops1 : List (HloOp τ sig (Elt F))).Forall fun op =>
    op.writes ⊆ (main_part8_ops1_W.map (Proc.devRef (τ := τ) .tc)).toFinset := by
  simp only [List.Forall]; result_listed

end Cert.KernelIdeal.Hand

end
-- ==== Proof.KIFrameR0.lean ====
import proofs.«166951_j44444321579084_2_alg».proof.Proof.Gen.KernelIdeal.Launch
import proofs.«166951_j44444321579084_2_alg».proof.Proof.Gen.KernelIdeal.Skeleton
import proofs.«166951_j44444321579084_2_alg».proof.Proof.Gen.KernelIdeal.Points
import Idealize.ShloMosaic.Lib.Pipeline.FrameBody
import Idealize.ShloMosaic.Lib.Ring
import Idealize.ShloMosaic.Lib.Tactic

/-!
# The two-layer perceptron region 0: what its body leaves, at any entry contents

The region runs the body `relu (x · W₁ + b₁) · W₂ + b₂` over ten row blocks of 5000 rows. Its input windows are
the row block of `x` (moving with the grid point) and the four parameter arrays `W₁, b₁, W₂, b₂` (one block each,
the same at every point); its one output window is the row block of the result.

At a parameter `V` — the buffers' contents when the region is entered — this module states: each window's block
at a point read off its array; that every input's staging buffer holds that block when the body is called,
fetched at that point or not; the output buffer after the body as a function of the five input blocks (the one
store's payload laid over the whole buffer); the body's triple; and the pipeline's proof data with its body
obligation: the inputs are left as found, the output block is that function of the input blocks, nothing else
is touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every point, whether the pipeline fetched it
    there or not (when it did not, the block index has not moved since the point before), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: its current staging buffer holds its block at every point, whether the pipeline fetched it
    there or not (when it did not, the block index has not moved since the point before), for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: its current staging buffer holds its block at every point, whether the pipeline fetched it
    there or not (when it did not, the block index has not moved since the point before), for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3: its current staging buffer holds its block at every point, whether the pipeline fetched it
    there or not (when it did not, the block index has not moved since the point before), for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4: its current staging buffer holds its block at every point, whether the pipeline fetched it
    there or not (when it did not, the block index has not moved since the point before), for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S1x128 := Rect.unit (s := S1x128) ![0, 0] S1x128.size inb_S1x128_S1x128_0_0
abbrev r0_5 : Rect S5000x128 := Rect.unit (s := S5000x128) ![0, 0] S5000x128.size inb_S5000x128_S5000x128_0_0

/-! ## What the body leaves in the output window's buffer -/

/-- The output buffer after the body, from the five input blocks: the one store's payload
    `relu (x₀ · x₁ + x₂) · x₃ + x₄` (rows of `x₂`, `x₄` repeated down the block), laid over the whole buffer. -/
def out0_5 (x0 : Vec F S5000x64 .f32) (x1 : Vec F S64x128 .f32) (x2 : Vec F S1x128 .f32) (x3 : Vec F S128x128 .f32) (x4 : Vec F S1x128 .f32) : Vec F S5000x128 .f32 :=
  View.canon [⟨r0_5, k0_pay1 (View.ld x0 r0_0) (View.ld x1 r0_1) (View.ld x2 r0_2) (View.ld x3 r0_3) (View.ld x4 r0_4)⟩]

/-- The store's rectangle is the whole buffer, so it covers every index. -/
theorem cover0_5 (p0 : Vec F S5000x128 .f32) (y : S5000x128.Idx) :
    ∃ pc ∈ ([⟨r0_5, p0⟩] : List (View.Piece (Elt F) S5000x128 .f32)), y ∈ pc.1.set :=
  View.cover_of_tiled [⟨r0_5, p0⟩] S5000x128.size (by rfl) y

/-! ## The body's triple -/

set_option maxHeartbeats 1000000 in
/-- The body on whole staging buffers, the inputs' reading `x₀ … x₄` and the output's holding anything, runs to the
    continuation with the inputs' as they were and the output's at `out0_5` of them. The body also loads the
    output buffer before storing to it; the value loaded is used nowhere, so any prior contents do. -/
theorem sound_kernel0 (c : Dev nD) (E : Set ℕ) (i : grid0.Coords) (arg0 : Memref sig .tc .vmem S5000x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x64 .f32) (x1 : Vec F S64x128 .f32) (x2 : Vec F S1x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__mlp2_kernel i arg0 harg0 arg1 harg1 arg2 harg2 arg3 harg3 arg4 harg4 arg5 harg5) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; the invariant is the rest of
    the core's scoped memory and its generator register, untouched; nothing is owed; full shares (no two windows
    of this call share an array). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KIFrameR1.lean ====
import proofs.«166951_j44444321579084_2_alg».proof.Proof.Gen.KernelIdeal.Launch
import proofs.«166951_j44444321579084_2_alg».proof.Proof.Gen.KernelIdeal.Skeleton
import proofs.«166951_j44444321579084_2_alg».proof.Proof.Gen.KernelIdeal.Points
import Idealize.ShloMosaic.Lib.Pipeline.FrameBody
import Idealize.ShloMosaic.Lib.Ring
import Idealize.ShloMosaic.Lib.Tactic

/-!
# The two-layer perceptron region 1: what its body leaves, at any entry contents

The region runs the body `relu (x · W₁ + b₁) · W₂ + b₂` over ten row blocks of 5000 rows. Its input windows are
the row block of `x` (moving with the grid point) and the four parameter arrays `W₁, b₁, W₂, b₂` (one block each,
the same at every point); its one output window is the row block of the result.

At a parameter `V` — the buffers' contents when the region is entered — this module states: each window's block
at a point read off its array; that every input's staging buffer holds that block when the body is called,
fetched at that point or not; the output buffer after the body as a function of the five input blocks (the one
store's payload laid over the whole buffer); the body's triple; and the pipeline's proof data with its body
obligation: the inputs are left as found, the output block is that function of the input blocks, nothing else
is touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every point, whether the pipeline fetched it
    there or not (when it did not, the block index has not moved since the point before), for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: its current staging buffer holds its block at every point, whether the pipeline fetched it
    there or not (when it did not, the block index has not moved since the point before), for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: its current staging buffer holds its block at every point, whether the pipeline fetched it
    there or not (when it did not, the block index has not moved since the point before), for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: its current staging buffer holds its block at every point, whether the pipeline fetched it
    there or not (when it did not, the block index has not moved since the point before), for any proof data whose
    array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: its current staging buffer holds its block at every point, whether the pipeline fetched it
    there or not (when it did not, the block index has not moved since the point before), for any proof data whose
    array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_0 : Rect S5000x48 := Rect.unit (s := S5000x48) ![0, 0] S5000x48.size inb_S5000x48_S5000x48_0_0
abbrev r1_1 : Rect S48x128 := Rect.unit (s := S48x128) ![0, 0] S48x128.size inb_S48x128_S48x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0
abbrev r1_5 : Rect S5000x128 := Rect.unit (s := S5000x128) ![0, 0] S5000x128.size inb_S5000x128_S5000x128_0_0

/-! ## What the body leaves in the output window's buffer -/

/-- The output buffer after the body, from the five input blocks: the one store's payload
    `relu (x₀ · x₁ + x₂) · x₃ + x₄` (rows of `x₂`, `x₄` repeated down the block), laid over the whole buffer. -/
def out1_5 (x0 : Vec F S5000x48 .f32) (x1 : Vec F S48x128 .f32) (x2 : Vec F S1x128 .f32) (x3 : Vec F S128x128 .f32) (x4 : Vec F S1x128 .f32) : Vec F S5000x128 .f32 :=
  View.canon [⟨r1_5, k1_pay1 (View.ld x0 r1_0) (View.ld x1 r1_1) (View.ld x2 r1_2) (View.ld x3 r1_3) (View.ld x4 r1_4)⟩]

/-- The store's rectangle is the whole buffer, so it covers every index. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

/-! ## The body's triple -/

set_option maxHeartbeats 1000000 in
/-- The body on whole staging buffers, the inputs' reading `x₀ … x₄` and the output's holding anything, runs to the
    continuation with the inputs' as they were and the output's at `out1_5` of them. The body also loads the
    output buffer before storing to it; the value loaded is used nowhere, so any prior contents do. -/
theorem sound_kernel1 (c : Dev nD) (E : Set ℕ) (i : grid1.Coords) (arg0 : Memref sig .tc .vmem S5000x48 .f32) (harg0 : arg0.IsWhole) (arg1 : Memref sig .tc .vmem S48x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x48 .f32) (x1 : Vec F S48x128 .f32) (x2 : Vec F S1x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__mlp2_kernel i arg0 harg0 arg1 harg1 arg2 harg2 arg3 harg3 arg4 harg4 arg5 harg5) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; the invariant is the rest of
    the core's scoped memory and its generator register, untouched; nothing is owed; full shares (no two windows
    of this call share an array). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KIFrameR2.lean ====
import proofs.«166951_j44444321579084_2_alg».proof.Proof.Gen.KernelIdeal.Launch
import proofs.«166951_j44444321579084_2_alg».proof.Proof.Gen.KernelIdeal.Skeleton
import proofs.«166951_j44444321579084_2_alg».proof.Proof.Gen.KernelIdeal.Points
import Idealize.ShloMosaic.Lib.Pipeline.FrameBody
import Idealize.ShloMosaic.Lib.Ring
import Idealize.ShloMosaic.Lib.Tactic

/-!
# Region 2: the fused two-branch layer kernel, the body half of its frame

The body reads nine whole staging buffers (three row blocks of 5000 rows, four 128x128 weight matrices and two bias rows),
computes the maximum of ((x0 W3 + b4 + x2 W5) + (x1 W6 + b7 + x2 W8)) / 2 and 0, and stores it over the whole of the
tenth buffer. So what it leaves in the output buffer is one closed function of the nine input blocks, and every input
buffer is left as it was found. All of this is stated at a parameter `V`, the buffer contents when the region is
entered, and for any float instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    window's block index has not moved since the point before, and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    window's block index has not moved since the point before, and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    window's block index has not moved since the point before, and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    window's block index has not moved since the point before, and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched
    window's block index has not moved since the point before, and the body left the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an unfetched
    window's block index has not moved since the point before, and the body left the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: an unfetched
    window's block index has not moved since the point before, and the body left the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: an unfetched
    window's block index has not moved since the point before, and the body left the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not: an unfetched
    window's block index has not moved since the point before, and the body left the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S5000x128 := Rect.unit (s := S5000x128) ![0, 0] S5000x128.size inb_S5000x128_S5000x128_0_0
abbrev r2_b : Rect S128x128 := Rect.unit (s := S128x128) ![0, 0] S128x128.size inb_S128x128_S128x128_0_0
abbrev r2_c : Rect S1x128 := Rect.unit (s := S1x128) ![0, 0] S1x128.size inb_S1x128_S1x128_0_0

/-! ## What the body leaves in the output window's buffer -/

/-- Window 9's staging buffer after the body, from the input windows' blocks: its one store, over the whole buffer,
    of the maximum of the halved sum of the two branches and zero. -/
def out2_9 (x0 : Vec F S5000x128 .f32) (x1 : Vec F S5000x128 .f32) (x2 : Vec F S5000x128 .f32) (x3 : Vec F S128x128 .bf16) (x4 : Vec F S1x128 .f32) (x5 : Vec F S128x128 .bf16) (x6 : Vec F S128x128 .bf16) (x7 : Vec F S1x128 .f32) (x8 : Vec F S128x128 .bf16) : Vec F S5000x128 .f32 :=
  View.canon [⟨r2_a, k2_pay1 (k2_pay2 (View.ld x0 r2_a) (View.ld x1 r2_a) (View.ld x2 r2_a) (View.ld x3 r2_b) (View.ld x4 r2_c) (View.ld x5 r2_b) (View.ld x6 r2_b) (View.ld x7 r2_c) (View.ld x8 r2_b)) (k2_pay3 (F := F))⟩]

/-- The store covers the buffer. -/
theorem cover2_9 (p0 : Vec F S5000x128 .f32) (y : S5000x128.Idx) :
    ∃ pc ∈ ([⟨r2_a, p0⟩] : List (View.Piece (Elt F) S5000x128 .f32)), y ∈ pc.1.set :=
  View.cover_of_tiled [⟨r2_a, p0⟩] S5000x128.size (by rfl) y

/-! ## The body's triple -/

set_option maxHeartbeats 1000000 in
/-- The kernel body on whole staging memrefs, the inputs' at read contents `xW` and the output's at anything, runs to the
    continuation holding the inputs' as they were and the output's at `out2_9` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S5000x128 .f32) (harg10 : arg10.IsWhole)
    (x0 : Vec F S5000x128 .f32) (x1 : Vec F S5000x128 .f32) (x2 : Vec F S5000x128 .f32) (x3 : Vec F S128x128 .bf16) (x4 : Vec F S1x128 .f32) (x5 : Vec F S128x128 .bf16) (x6 : Vec F S128x128 .bf16) (x7 : Vec F S1x128 .f32) (x8 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__sage_fuse_kernel_noresid i arg1 harg1 arg2 harg2 arg3 harg3 arg4 harg4 arg5 harg5 arg6 harg6 arg7 harg7 arg8 harg8 arg9 harg9 arg10 harg10) K := by
  simp only [cc2__sage_fuse_kernel_noresid_eq_skeleton]; unfold cc2__sage_fuse_kernel_noresid_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-! ## The pipeline's proof data -/

/-- The proof data of this pipeline on core `c`: the arrays as the region finds them; after the body at point `t` each
    input's buffer at its block and the output's at `out2_9` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the kernel's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIFrameR3.lean ====
import proofs.«166951_j44444321579084_2_alg».proof.Proof.Gen.KernelIdeal.Launch
import proofs.«166951_j44444321579084_2_alg».proof.Proof.Gen.KernelIdeal.Skeleton
import proofs.«166951_j44444321579084_2_alg».proof.Proof.Gen.KernelIdeal.Points
import Idealize.ShloMosaic.Lib.Pipeline.FrameBody
import Idealize.ShloMosaic.Lib.Ring
import Idealize.ShloMosaic.Lib.Tactic

/-!
# Region 3: the fused two-branch layer kernel, the body half of its frame

The body reads nine whole staging buffers (three row blocks of 5000 rows, four 128x128 weight matrices and two bias rows),
computes the maximum of ((x0 W3 + b4 + x2 W5) + (x1 W6 + b7 + x2 W8)) / 2 and 0, and stores it over the whole of the
tenth buffer. So what it leaves in the output buffer is one closed function of the nine input blocks, and every input
buffer is left as it was found. All of this is stated at a parameter `V`, the buffer contents when the region is
entered, and for any float instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: an unfetched
    window's block index has not moved since the point before, and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: an unfetched
    window's block index has not moved since the point before, and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: an unfetched
    window's block index has not moved since the point before, and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: an unfetched
    window's block index has not moved since the point before, and the body left the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: an unfetched
    window's block index has not moved since the point before, and the body left the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not: an unfetched
    window's block index has not moved since the point before, and the body left the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not: an unfetched
    window's block index has not moved since the point before, and the body left the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not: an unfetched
    window's block index has not moved since the point before, and the body left the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not: an unfetched
    window's block index has not moved since the point before, and the body left the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S5000x128 := Rect.unit (s := S5000x128) ![0, 0] S5000x128.size inb_S5000x128_S5000x128_0_0
abbrev r3_b : Rect S128x128 := Rect.unit (s := S128x128) ![0, 0] S128x128.size inb_S128x128_S128x128_0_0
abbrev r3_c : Rect S1x128 := Rect.unit (s := S1x128) ![0, 0] S1x128.size inb_S1x128_S1x128_0_0

/-! ## What the body leaves in the output window's buffer -/

/-- Window 9's staging buffer after the body, from the input windows' blocks: its one store, over the whole buffer,
    of the maximum of the halved sum of the two branches and zero. -/
def out3_9 (x0 : Vec F S5000x128 .f32) (x1 : Vec F S5000x128 .f32) (x2 : Vec F S5000x128 .f32) (x3 : Vec F S128x128 .bf16) (x4 : Vec F S1x128 .f32) (x5 : Vec F S128x128 .bf16) (x6 : Vec F S128x128 .bf16) (x7 : Vec F S1x128 .f32) (x8 : Vec F S128x128 .bf16) : Vec F S5000x128 .f32 :=
  View.canon [⟨r3_a, k3_pay1 (k3_pay2 (View.ld x0 r3_a) (View.ld x1 r3_a) (View.ld x2 r3_a) (View.ld x3 r3_b) (View.ld x4 r3_c) (View.ld x5 r3_b) (View.ld x6 r3_b) (View.ld x7 r3_c) (View.ld x8 r3_b)) (k3_pay3 (F := F))⟩]

/-- The store covers the buffer. -/
theorem cover3_9 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

/-! ## The body's triple -/

set_option maxHeartbeats 1000000 in
/-- The kernel body on whole staging memrefs, the inputs' at read contents `xW` and the output's at anything, runs to the
    continuation holding the inputs' as they were and the output's at `out3_9` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S5000x128 .f32) (harg10 : arg10.IsWhole)
    (x0 : Vec F S5000x128 .f32) (x1 : Vec F S5000x128 .f32) (x2 : Vec F S5000x128 .f32) (x3 : Vec F S128x128 .bf16) (x4 : Vec F S1x128 .f32) (x5 : Vec F S128x128 .bf16) (x6 : Vec F S128x128 .bf16) (x7 : Vec F S1x128 .f32) (x8 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__sage_fuse_kernel_noresid i arg1 harg1 arg2 harg2 arg3 harg3 arg4 harg4 arg5 harg5 arg6 harg6 arg7 harg7 arg8 harg8 arg9 harg9 arg10 harg10) K := by
  simp only [cc3__sage_fuse_kernel_noresid_eq_skeleton]; unfold cc3__sage_fuse_kernel_noresid_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover3_9 _)

/-! ## The pipeline's proof data -/

/-- The proof data of this pipeline on core `c`: the arrays as the region finds them; after the body at point `t` each
    input's buffer at its block and the output's at `out3_9` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the kernel's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIFrameR4.lean ====
import proofs.«166951_j44444321579084_2_alg».proof.Proof.Gen.KernelIdeal.Launch
import proofs.«166951_j44444321579084_2_alg».proof.Proof.Gen.KernelIdeal.Skeleton
import proofs.«166951_j44444321579084_2_alg».proof.Proof.Gen.KernelIdeal.Points
import Idealize.ShloMosaic.Lib.Pipeline.FrameBody
import Idealize.ShloMosaic.Lib.Tactic

/-!
# The body half of the region of custom call 4

At an arbitrary content `V` of the TensorCore's buffers on entry to the region: every input window's staging
buffer holds the window's block of its array at every grid point, the body leaves in the output window's staging
buffer the one value it stores there (a function of the ten input blocks), and with these the body meets the
pipeline's obligation at every point. Two of the input windows read the same array; the proof data hold that
array at the two halves of the full share, and nothing in the body's triple depends on that split, since the
body only ever sees staging buffers, each whole at the full share.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, whether the block was fetched at
that point or at an earlier one (a window whose block index does not move is fetched once): for any proof data
whose array is `V`'s and whose body leaves the block in place. Every input window here is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- The output window's staging buffer after the body, from the ten input blocks: its one store, of the whole
    buffer. The stored value is the second payload (the half-sum of the two affine maps of the neighbour and self
    features) applied to the first (the residual added, then the maximum with zero). -/
def out4_10 (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) : Vec F S5000x128 .f32 :=
  View.canon [⟨r4_0, k4_pay1 (k4_pay2 (View.ld x0 r4_0) (View.ld x1 r4_0) (View.ld x2 r4_0) (View.ld x4 r4_1) (View.ld x5 r4_2) (View.ld x6 r4_1) (View.ld x7 r4_1) (View.ld x8 r4_2) (View.ld x9 r4_1)) (View.ld x3 r4_0)⟩]

/-- The one store covers the buffer. -/
theorem cover4_10 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs — the inputs' at contents `x0 … x9`, the output's at anything — runs
    to a state holding the inputs' as they were and the output's at `out4_10` of the inputs. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S5000x128 .f32) (harg11 : arg11.IsWhole)
    (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (out4_10 x0 x1 x2 x3 x4 x5 x6 x7 x8 x9)) -∗ K ⟨⟩))
      ⊢ wp frame (wpE (defs₀ (F := F)) Variants.none c none) E (cc4__sage_fuse_kernel_resid i arg1 harg1 arg2 harg2 arg3 harg3 arg4 harg4 arg5 harg5 arg6 harg6 arg7 harg7 arg8 harg8 arg9 harg9 arg10 harg10 arg11 harg11) K := by
  simp only [cc4__sage_fuse_kernel_resid_eq_skeleton]; unfold cc4__sage_fuse_kernel_resid_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover4_10 _)

/-! ## The pipeline's proof data -/

/-- The proof data of this pipeline on core `c`: the arrays as the region finds them; after the body at point `t`
    each input's buffer at its block and the output's at `out4_10` of the input blocks; the invariant is the
    untouched rest; nothing owed. Windows 2 and 3 read one array, held at the left and right halves of the full
    share; every other array is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := Pipeline.ΦA spec4 c
  q w := match w with
    | ⟨2, _⟩ => fullShare.left
    | ⟨3, _⟩ => fullShare.right
    | _ => fullShare
  owed _ := 0

theorem A_eq4 (c : Dev nD) (w : Fin cfg4.W) : (dat4 V c).A w = V c (Pipeline.arrRef spec4 w) := by
  dsimp only [dat4]

theorem q_eq4 (c : Dev nD) : (dat4 V c).q = fun w => match w with
    | ⟨2, _⟩ => fullShare.left
    | ⟨3, _⟩ => fullShare.right
    | _ => fullShare := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

/-- The body at any point: the inputs' memrefs hold their blocks, so the triple applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KIFrameR5.lean ====
import proofs.«166951_j44444321579084_2_alg».proof.Proof.Gen.KernelIdeal.Launch
import proofs.«166951_j44444321579084_2_alg».proof.Proof.Gen.KernelIdeal.Skeleton
import proofs.«166951_j44444321579084_2_alg».proof.Proof.Gen.KernelIdeal.Points
import Idealize.ShloMosaic.Lib.Pipeline.FrameBody
import Idealize.ShloMosaic.Lib.Tactic

/-!
# The body half of the region of custom call 5

At an arbitrary content `V` of the TensorCore's buffers on entry to the region: every input window's staging
buffer holds the window's block of its array at every grid point, the body leaves in the output window's staging
buffer the one value it stores there (a function of the ten input blocks), and with these the body meets the
pipeline's obligation at every point. Two of the input windows read the same array; the proof data hold that
array at the two halves of the full share, and nothing in the body's triple depends on that split, since the
body only ever sees staging buffers, each whole at the full share.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every point, whether the block was fetched at
that point or at an earlier one (a window whose block index does not move is fetched once): for any proof data
whose array is `V`'s and whose body leaves the block in place. Every input window here is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-! ## What the body leaves in the output window's buffer -/

/-- The output window's staging buffer after the body, from the ten input blocks: its one store, of the whole
    buffer. The stored value is the second payload (the half-sum of the two affine maps of the neighbour and self
    features) applied to the first (the residual added, then the maximum with zero). -/
def out5_10 (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) : Vec F S5000x128 .f32 :=
  View.canon [⟨r5_0, k5_pay1 (k5_pay2 (View.ld x0 r5_0) (View.ld x1 r5_0) (View.ld x2 r5_0) (View.ld x4 r5_1) (View.ld x5 r5_2) (View.ld x6 r5_1) (View.ld x7 r5_1) (View.ld x8 r5_2) (View.ld x9 r5_1)) (View.ld x3 r5_0)⟩]

/-- The one store covers the buffer. -/
theorem cover5_10 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs — the inputs' at contents `x0 … x9`, the output's at anything — runs
    to a state holding the inputs' as they were and the output's at `out5_10` of the inputs. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S5000x128 .f32) (harg11 : arg11.IsWhole)
    (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (out5_10 x0 x1 x2 x3 x4 x5 x6 x7 x8 x9)) -∗ K ⟨⟩))
      ⊢ wp frame (wpE (defs₀ (F := F)) Variants.none c none) E (cc5__sage_fuse_kernel_resid i arg1 harg1 arg2 harg2 arg3 harg3 arg4 harg4 arg5 harg5 arg6 harg6 arg7 harg7 arg8 harg8 arg9 harg9 arg10 harg10 arg11 harg11) K := by
  simp only [cc5__sage_fuse_kernel_resid_eq_skeleton]; unfold cc5__sage_fuse_kernel_resid_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover5_10 _)

/-! ## The pipeline's proof data -/

/-- The proof data of this pipeline on core `c`: the arrays as the region finds them; after the body at point `t`
    each input's buffer at its block and the output's at `out5_10` of the input blocks; the invariant is the
    untouched rest; nothing owed. Windows 2 and 3 read one array, held at the left and right halves of the full
    share; every other array is held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)
  Φ _ := Pipeline.ΦA spec5 c
  q w := match w with
    | ⟨2, _⟩ => fullShare.left
    | ⟨3, _⟩ => fullShare.right
    | _ => fullShare
  owed _ := 0

theorem A_eq5 (c : Dev nD) (w : Fin cfg5.W) : (dat5 V c).A w = V c (Pipeline.arrRef spec5 w) := by
  dsimp only [dat5]

theorem q_eq5 (c : Dev nD) : (dat5 V c).q = fun w => match w with
    | ⟨2, _⟩ => fullShare.left
    | ⟨3, _⟩ => fullShare.right
    | _ => fullShare := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

/-- The body at any point: the inputs' memrefs hold their blocks, so the triple applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ (grid5.coords t) _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KIFrameR6.lean ====
import proofs.«166951_j44444321579084_2_alg».proof.Proof.Gen.KernelIdeal.Launch
import proofs.«166951_j44444321579084_2_alg».proof.Proof.Gen.KernelIdeal.Skeleton
import proofs.«166951_j44444321579084_2_alg».proof.Proof.Gen.KernelIdeal.Points
import Idealize.ShloMosaic.Lib.Pipeline.FrameBody
import Idealize.ShloMosaic.Lib.Tactic

/-!
# The body half of the region of custom call 6

At an arbitrary content `V` of the TensorCore's buffers on entry to the region: every input window's staging
buffer holds the window's block of its array at every grid point, the body leaves in the output window's staging
buffer the one value it stores there (a function of the ten input blocks), and with these the body meets the
pipeline's obligation at every point. Two of the input windows read the same array; the proof data hold that
array at the two halves of the full share, and nothing in the body's triple depends on that split, since the
body only ever sees staging buffers, each whole at the full share.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, whether the block was fetched at
that point or at an earlier one (a window whose block index does not move is fetched once): for any proof data
whose array is `V`'s and whose body leaves the block in place. Every input window here is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole of its buffer -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0

/-! ## What the body leaves in the output window's buffer -/

/-- The output window's staging buffer after the body, from the ten input blocks: its one store, of the whole
    buffer. The stored value is the second payload (the half-sum of the two affine maps of the neighbour and self
    features) applied to the first (the residual added, then the maximum with zero). -/
def out6_10 (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) : Vec F S5000x128 .f32 :=
  View.canon [⟨r6_0, k6_pay1 (k6_pay2 (View.ld x0 r6_0) (View.ld x1 r6_0) (View.ld x2 r6_0) (View.ld x4 r6_1) (View.ld x5 r6_2) (View.ld x6 r6_1) (View.ld x7 r6_1) (View.ld x8 r6_2) (View.ld x9 r6_1)) (View.ld x3 r6_0)⟩]

/-- The one store covers the buffer. -/
theorem cover6_10 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging memrefs — the inputs' at contents `x0 … x9`, the output's at anything — runs
    to a state holding the inputs' as they were and the output's at `out6_10` of the inputs. -/
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S5000x128 .f32) (harg11 : arg11.IsWhole)
    (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (out6_10 x0 x1 x2 x3 x4 x5 x6 x7 x8 x9)) -∗ K ⟨⟩))
      ⊢ wp frame (wpE (defs₀ (F := F)) Variants.none c none) E (cc6__sage_fuse_kernel_resid i arg1 harg1 arg2 harg2 arg3 harg3 arg4 harg4 arg5 harg5 arg6 harg6 arg7 harg7 arg8 harg8 arg9 harg9 arg10 harg10 arg11 harg11) K := by
  simp only [cc6__sage_fuse_kernel_resid_eq_skeleton]; unfold cc6__sage_fuse_kernel_resid_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover6_10 _)

/-! ## The pipeline's proof data -/

/-- The proof data of this pipeline on core `c`: the arrays as the region finds them; after the body at point `t`
    each input's buffer at its block and the output's at `out6_10` of the input blocks; the invariant is the
    untouched rest; nothing owed. Windows 2 and 3 read one array, held at the left and right halves of the full
    share; every other array is held whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => out6_10 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)
  Φ _ := Pipeline.ΦA spec6 c
  q w := match w with
    | ⟨2, _⟩ => fullShare.left
    | ⟨3, _⟩ => fullShare.right
    | _ => fullShare
  owed _ := 0

theorem A_eq6 (c : Dev nD) (w : Fin cfg6.W) : (dat6 V c).A w = V c (Pipeline.arrRef spec6 w) := by
  dsimp only [dat6]

theorem q_eq6 (c : Dev nD) : (dat6 V c).q = fun w => match w with
    | ⟨2, _⟩ => fullShare.left
    | ⟨3, _⟩ => fullShare.right
    | _ => fullShare := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t))

/-- The body at any point: the inputs' memrefs hold their blocks, so the triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ (grid6.coords t) _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KIFrameR7.lean ====
import proofs.«166951_j44444321579084_2_alg».proof.Proof.Gen.KernelIdeal.Launch
import proofs.«166951_j44444321579084_2_alg».proof.Proof.Gen.KernelIdeal.Skeleton
import proofs.«166951_j44444321579084_2_alg».proof.Proof.Gen.KernelIdeal.Points
import Idealize.ShloMosaic.Lib.Pipeline.FrameBody
import Idealize.ShloMosaic.Lib.Tactic

/-!
# The body half of the region of custom call 7

At an arbitrary content `V` of the TensorCore's buffers on entry to the region: every input window's staging
buffer holds the window's block of its array at every grid point, the body leaves in the output window's staging
buffer the one value it stores there (a function of the ten input blocks), and with these the body meets the
pipeline's obligation at every point. Two of the input windows read the same array; the proof data hold that
array at the two halves of the full share, and nothing in the body's triple depends on that split, since the
body only ever sees staging buffers, each whole at the full share.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, whether the block was fetched at
that point or at an earlier one (a window whose block index does not move is fetched once): for any proof data
whose array is `V`'s and whose body leaves the block in place. Every input window here is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is the whole of its buffer -/

abbrev r7_0 : Rect S5000x128 := Rect.unit (s := S5000x128) ![0, 0] S5000x128.size inb_S5000x128_S5000x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0

/-! ## What the body leaves in the output window's buffer -/

/-- The output window's staging buffer after the body, from the ten input blocks: its one store, of the whole
    buffer. The stored value is the second payload (the half-sum of the two affine maps of the neighbour and self
    features) applied to the first (the residual added, then the maximum with zero). -/
def out7_10 (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) : Vec F S5000x128 .f32 :=
  View.canon [⟨r7_0, k7_pay1 (k7_pay2 (View.ld x0 r7_0) (View.ld x1 r7_0) (View.ld x2 r7_0) (View.ld x4 r7_1) (View.ld x5 r7_2) (View.ld x6 r7_1) (View.ld x7 r7_1) (View.ld x8 r7_2) (View.ld x9 r7_1)) (View.ld x3 r7_0)⟩]

/-- The one store covers the buffer. -/
theorem cover7_10 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs — the inputs' at contents `x0 … x9`, the output's at anything — runs
    to a state holding the inputs' as they were and the output's at `out7_10` of the inputs. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S5000x128 .f32) (harg11 : arg11.IsWhole)
    (x0 : Vec F S5000x128 .f32) (x1 : Vec F S5000x128 .f32) (x2 : Vec F S5000x128 .f32) (x3 : Vec F S5000x128 .f32) (x4 : Vec F S128x128 .bf16) (x5 : Vec F S1x128 .f32) (x6 : Vec F S128x128 .bf16) (x7 : Vec F S128x128 .bf16) (x8 : Vec F S1x128 .f32) (x9 : Vec F S128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (out7_10 x0 x1 x2 x3 x4 x5 x6 x7 x8 x9)) -∗ K ⟨⟩))
      ⊢ wp frame (wpE (defs₀ (F := F)) Variants.none c none) E (cc7__sage_fuse_kernel_resid i arg1 harg1 arg2 harg2 arg3 harg3 arg4 harg4 arg5 harg5 arg6 harg6 arg7 harg7 arg8 harg8 arg9 harg9 arg10 harg10 arg11 harg11) K := by
  simp only [cc7__sage_fuse_kernel_resid_eq_skeleton]; unfold cc7__sage_fuse_kernel_resid_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover7_10 _)

/-! ## The pipeline's proof data -/

/-- The proof data of this pipeline on core `c`: the arrays as the region finds them; after the body at point `t`
    each input's buffer at its block and the output's at `out7_10` of the input blocks; the invariant is the
    untouched rest; nothing owed. Windows 2 and 3 read one array, held at the left and right halves of the full
    share; every other array is held whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => out7_10 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)
  Φ _ := Pipeline.ΦA spec7 c
  q w := match w with
    | ⟨2, _⟩ => fullShare.left
    | ⟨3, _⟩ => fullShare.right
    | _ => fullShare
  owed _ := 0

theorem A_eq7 (c : Dev nD) (w : Fin cfg7.W) : (dat7 V c).A w = V c (Pipeline.arrRef spec7 w) := by
  dsimp only [dat7]

theorem q_eq7 (c : Dev nD) : (dat7 V c).q = fun w => match w with
    | ⟨2, _⟩ => fullShare.left
    | ⟨3, _⟩ => fullShare.right
    | _ => fullShare := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = out7_10 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t))

/-- The body at any point: the inputs' memrefs hold their blocks, so the triple applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel7 c Set.univ (grid7.coords t) _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KIFrameR8.lean ====
import proofs.«166951_j44444321579084_2_alg».proof.Proof.Gen.KernelIdeal.Launch
import proofs.«166951_j44444321579084_2_alg».proof.Proof.Gen.KernelIdeal.Skeleton
import proofs.«166951_j44444321579084_2_alg».proof.Proof.Gen.KernelIdeal.Points
import Idealize.ShloMosaic.Lib.Pipeline.FrameBody
import Idealize.ShloMosaic.Lib.Tactic

/-!
# The ninth kernel call of @main (the gated MLP head), as a pipeline body: what each staging buffer holds

The call walks the 500000 edges in 123 blocks of 4096 rows. Three operands are indexed by the edge (two
feature arrays of 128 lanes and one of 32), twelve are constant weights and biases fetched once, and the result is a
`2 × 500000` array written in blocks of 4096 columns. 500000 = 122 · 4096 + 288, so the last block of each
edge-indexed operand and of the result overhangs its array: a fetch there fills the first 288 rows of the staging
buffer and leaves the other 3808 at contents nothing names, and the write-back copies only the first 288 columns.

This module states, for ANY scalar model `F`: the blocks read off the arrays as the call finds them, what the
body finds in each staging buffer, the body's triple on staging buffers at ARBITRARY contents (the body is three
whole loads of the edge blocks, twelve whole loads of the constants and one whole store), the proof data, and the
body obligation in which the RESULT's staging buffer is not described: at an abstract `F` a matrix product is
a function of its whole operands, so nothing says that the first 288 columns of the last result block do not depend
on the unnamed rows of the edge blocks. An obligation that does describe it needs that row-by-row dependence and is
proved where the scalar model provides it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it: for an edge-indexed window at the
    last point, the 288 rows (the result: columns) inside the array. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Edge-indexed window 0 is fetched at every point: its staging buffer holds the block on the rows inside the
    array and, past them, whatever `d` the fetch left. -/
theorem before8_0_of {c : Dev nD} (dat : Dat τ (Elt F) Unit ℕ (UR sig nD τ) ℕ cfg8 c) (hA : dat.A 0 = V c (Pipeline.arrRef spec8 0))
    (t : Fin cfg8.N) (d) : dat.before 0 t d = (cfg8.win 0).fill (cfg8.grid.coords t) d (iblk8 V c 0 t) := by
  rw [dat.before_fetched 0 t (fetch8_0 t) d]; unfold Dat.fetched Dat.blockOf iblk8; rw [hA]

/-- Edge-indexed window 1 is fetched at every point: its staging buffer holds the block on the rows inside the
    array and, past them, whatever `d` the fetch left. -/
theorem before8_1_of {c : Dev nD} (dat : Dat τ (Elt F) Unit ℕ (UR sig nD τ) ℕ cfg8 c) (hA : dat.A 1 = V c (Pipeline.arrRef spec8 1))
    (t : Fin cfg8.N) (d) : dat.before 1 t d = (cfg8.win 1).fill (cfg8.grid.coords t) d (iblk8 V c 1 t) := by
  rw [dat.before_fetched 1 t (fetch8_1 t) d]; unfold Dat.fetched Dat.blockOf iblk8; rw [hA]

/-- Edge-indexed window 2 is fetched at every point: its staging buffer holds the block on the rows inside the
    array and, past them, whatever `d` the fetch left. -/
theorem before8_2_of {c : Dev nD} (dat : Dat τ (Elt F) Unit ℕ (UR sig nD τ) ℕ cfg8 c) (hA : dat.A 2 = V c (Pipeline.arrRef spec8 2))
    (t : Fin cfg8.N) (d) : dat.before 2 t d = (cfg8.win 2).fill (cfg8.grid.coords t) d (iblk8 V c 2 t) := by
  rw [dat.before_fetched 2 t (fetch8_2 t) d]; unfold Dat.fetched Dat.blockOf iblk8; rw [hA]

/-- Constant window 3 is fetched at the first point only and the body leaves it in place: its one staging buffer
    holds its block (the whole array) at every point. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Constant window 4 is fetched at the first point only and the body leaves it in place: its one staging buffer
    holds its block (the whole array) at every point. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Constant window 5 is fetched at the first point only and the body leaves it in place: its one staging buffer
    holds its block (the whole array) at every point. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Constant window 6 is fetched at the first point only and the body leaves it in place: its one staging buffer
    holds its block (the whole array) at every point. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Constant window 7 is fetched at the first point only and the body leaves it in place: its one staging buffer
    holds its block (the whole array) at every point. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Constant window 8 is fetched at the first point only and the body leaves it in place: its one staging buffer
    holds its block (the whole array) at every point. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- Constant window 9 is fetched at the first point only and the body leaves it in place: its one staging buffer
    holds its block (the whole array) at every point. -/
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)

/-- Constant window 10 is fetched at the first point only and the body leaves it in place: its one staging buffer
    holds its block (the whole array) at every point. -/
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-- Constant window 11 is fetched at the first point only and the body leaves it in place: its one staging buffer
    holds its block (the whole array) at every point. -/
theorem before8_11_of {c : Dev nD} (dat : Dat τ (Elt F) Unit ℕ (UR sig nD τ) ℕ cfg8 c) (hA : dat.A 11 = V c (Pipeline.arrRef spec8 11))
    (hafter : ∀ t, dat.after 11 t = iblk8 V c 11 t) (t : Fin cfg8.N) (d) : dat.before 11 t d = iblk8 V c 11 t :=
  (dat.before_in_eq_fetched 11 rfl (fun _ => rfl) (fun _ _ _ => rfl) (fun t => by rw [hafter]; unfold Dat.blockOf iblk8; rw [hA]; try rfl) t d).trans
    (by unfold Dat.fetched Dat.blockOf iblk8; rw [hA]; try rfl)

/-- Constant window 12 is fetched at the first point only and the body leaves it in place: its one staging buffer
    holds its block (the whole array) at every point. -/
theorem before8_12_of {c : Dev nD} (dat : Dat τ (Elt F) Unit ℕ (UR sig nD τ) ℕ cfg8 c) (hA : dat.A 12 = V c (Pipeline.arrRef spec8 12))
    (hafter : ∀ t, dat.after 12 t = iblk8 V c 12 t) (t : Fin cfg8.N) (d) : dat.before 12 t d = iblk8 V c 12 t :=
  (dat.before_in_eq_fetched 12 rfl (fun _ => rfl) (fun _ _ _ => rfl) (fun t => by rw [hafter]; unfold Dat.blockOf iblk8; rw [hA]; try rfl) t d).trans
    (by unfold Dat.fetched Dat.blockOf iblk8; rw [hA]; try rfl)

/-- Constant window 13 is fetched at the first point only and the body leaves it in place: its one staging buffer
    holds its block (the whole array) at every point. -/
theorem before8_13_of {c : Dev nD} (dat : Dat τ (Elt F) Unit ℕ (UR sig nD τ) ℕ cfg8 c) (hA : dat.A 13 = V c (Pipeline.arrRef spec8 13))
    (hafter : ∀ t, dat.after 13 t = iblk8 V c 13 t) (t : Fin cfg8.N) (d) : dat.before 13 t d = iblk8 V c 13 t :=
  (dat.before_in_eq_fetched 13 rfl (fun _ => rfl) (fun _ _ _ => rfl) (fun t => by rw [hafter]; unfold Dat.blockOf iblk8; rw [hA]; try rfl) t d).trans
    (by unfold Dat.fetched Dat.blockOf iblk8; rw [hA]; try rfl)

/-- Constant window 14 is fetched at the first point only and the body leaves it in place: its one staging buffer
    holds its block (the whole array) at every point. -/
theorem before8_14_of {c : Dev nD} (dat : Dat τ (Elt F) Unit ℕ (UR sig nD τ) ℕ cfg8 c) (hA : dat.A 14 = V c (Pipeline.arrRef spec8 14))
    (hafter : ∀ t, dat.after 14 t = iblk8 V c 14 t) (t : Fin cfg8.N) (d) : dat.before 14 t d = iblk8 V c 14 t :=
  (dat.before_in_eq_fetched 14 rfl (fun _ => rfl) (fun _ _ _ => rfl) (fun t => by rw [hafter]; unfold Dat.blockOf iblk8; rw [hA]; try rfl) t d).trans
    (by unfold Dat.fetched Dat.blockOf iblk8; rw [hA]; try rfl)

/-- The result's block is written back at every point, so the body always finds its staging buffer at contents
    nothing names. -/
theorem before8_15_of {c : Dev nD} (dat : Dat τ (Elt F) Unit ℕ (UR sig nD τ) ℕ cfg8 c) (t : Fin cfg8.N) (d) :
    dat.before 15 t d = d :=
  dat.before_out_reset 15 rfl t
    (by
      by_cases h : t.val = 0
      · exact .inl h
      · exact .inr ⟨h, flush8_15 _⟩) d

/-! ## The body's accesses: every load and the one store span a whole staging buffer -/

abbrev ld8_0 : Rect S4096x128 := Rect.unit (s := S4096x128) ![0, 0] S4096x128.size inb_S4096x128_S4096x128_0_0
abbrev ld8_1 : Rect S4096x128 := Rect.unit (s := S4096x128) ![0, 0] S4096x128.size inb_S4096x128_S4096x128_0_0
abbrev ld8_2 : Rect S4096x32 := Rect.unit (s := S4096x32) ![0, 0] S4096x32.size inb_S4096x32_S4096x32_0_0
abbrev ld8_3 : Rect S128x128 := Rect.unit (s := S128x128) ![0, 0] S128x128.size inb_S128x128_S128x128_0_0
abbrev ld8_4 : Rect S128x128 := Rect.unit (s := S128x128) ![0, 0] S128x128.size inb_S128x128_S128x128_0_0
abbrev ld8_5 : Rect S1x128 := Rect.unit (s := S1x128) ![0, 0] S1x128.size inb_S1x128_S1x128_0_0
abbrev ld8_6 : Rect S128x1 := Rect.unit (s := S128x1) ![0, 0] S128x1.size inb_S128x1_S128x1_0_0
abbrev ld8_7 : Rect S1x1 := Rect.unit (s := S1x1) ![0, 0] S1x1.size inb_S1x1_S1x1_0_0
abbrev ld8_8 : Rect S128x128 := Rect.unit (s := S128x128) ![0, 0] S128x128.size inb_S128x128_S128x128_0_0
abbrev ld8_9 : Rect S32x128 := Rect.unit (s := S32x128) ![0, 0] S32x128.size inb_S32x128_S32x128_0_0
abbrev ld8_10 : Rect S1x128 := Rect.unit (s := S1x128) ![0, 0] S1x128.size inb_S1x128_S1x128_0_0
abbrev ld8_11 : Rect S128x64 := Rect.unit (s := S128x64) ![0, 0] S128x64.size inb_S128x64_S128x64_0_0
abbrev ld8_12 : Rect S1x64 := Rect.unit (s := S1x64) ![0, 0] S1x64.size inb_S1x64_S1x64_0_0
abbrev ld8_13 : Rect S64x2 := Rect.unit (s := S64x2) ![0, 0] S64x2.size inb_S64x2_S64x2_0_0
abbrev ld8_14 : Rect S1x2 := Rect.unit (s := S1x2) ![0, 0] S1x2.size inb_S1x2_S1x2_0_0
abbrev st8r_15 : Rect S2x4096 := Rect.unit (s := S2x4096) ![0, 0] S2x4096.size inb_S2x4096_S2x4096_0_0

/-! ## What the body leaves in the result's staging buffer -/

/-- The result's staging buffer after the body, from the contents of the fifteen input buffers: its one store,
    of the gated, three-layer product chain of the three edge blocks with the twelve constants, transposed. -/
def out8_15 (x0 : Vec F S4096x128 .f32) (x1 : Vec F S4096x128 .f32) (x2 : Vec F S4096x32 .f32) (x3 : Vec F S128x128 .bf16) (x4 : Vec F S128x128 .bf16) (x5 : Vec F S1x128 .f32) (x6 : Vec F S128x1 .bf16) (x7 : Vec F S1x1 .f32) (x8 : Vec F S128x128 .bf16) (x9 : Vec F S32x128 .bf16) (x10 : Vec F S1x128 .f32) (x11 : Vec F S128x64 .bf16) (x12 : Vec F S1x64 .f32) (x13 : Vec F S64x2 .bf16) (x14 : Vec F S1x2 .f32) : Vec F S2x4096 .f32 :=
  View.canon [⟨st8r_15, k8_pay1 (k8_pay2 (View.ld x2 ld8_2)) (k8_pay3 (View.ld x0 ld8_0) (View.ld x1 ld8_1) (View.ld x3 ld8_3) (View.ld x4 ld8_4) (View.ld x5 ld8_5) (View.ld x6 ld8_6) (View.ld x7 ld8_7)) (View.ld x8 ld8_8) (View.ld x9 ld8_9) (View.ld x10 ld8_10) (View.ld x11 ld8_11) (View.ld x12 ld8_12) (View.ld x13 ld8_13) (View.ld x14 ld8_14)⟩]

/-- The one store spans the buffer. -/
theorem cover8_15 (p0 : Vec F S2x4096 .f32) (y : S2x4096.Idx) :
    ∃ pc ∈ ([⟨st8r_15, p0⟩] : List (View.Piece (Elt F) S2x4096 .f32)), y ∈ pc.1.set :=
  View.cover_of_tiled [⟨st8r_15, p0⟩] S2x4096.size (by rfl) y

/-! ## The body's triple -/

set_option maxHeartbeats 1000000 in
/-- The kernel body on whole staging buffers, the inputs' at ANY read contents `x0 … x14` and the result's at
    anything, runs to the continuation holding the inputs' as they were and the result's at `out8_15` of them. -/
theorem sound_kernel8 (c : Dev nD) (E : Set ℕ) (i : grid8.Coords) (arg1 : Memref sig .tc .vmem S4096x128 .f32) (harg1 : arg1.IsWhole) (arg2 : Memref sig .tc .vmem S4096x128 .f32) (harg2 : arg2.IsWhole) (arg3 : Memref sig .tc .vmem S4096x32 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x1 .bf16) (harg7 : arg7.IsWhole) (arg8 : Memref sig .tc .vmem S1x1 .f32) (harg8 : arg8.IsWhole) (arg9 : Memref sig .tc .vmem S128x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x64 .bf16) (harg12 : arg12.IsWhole) (arg13 : Memref sig .tc .vmem S1x64 .f32) (harg13 : arg13.IsWhole) (arg14 : Memref sig .tc .vmem S64x2 .bf16) (harg14 : arg14.IsWhole) (arg15 : Memref sig .tc .vmem S1x2 .f32) (harg15 : arg15.IsWhole) (arg16 : Memref sig .tc .vmem S2x4096 .f32) (harg16 : arg16.IsWhole)
    (x0 : Vec F S4096x128 .f32) (x1 : Vec F S4096x128 .f32) (x2 : Vec F S4096x32 .f32) (x3 : Vec F S128x128 .bf16) (x4 : Vec F S128x128 .bf16) (x5 : Vec F S1x128 .f32) (x6 : Vec F S128x1 .bf16) (x7 : Vec F S1x1 .f32) (x8 : Vec F S128x128 .bf16) (x9 : Vec F S32x128 .bf16) (x10 : Vec F S1x128 .f32) (x11 : Vec F S128x64 .bf16) (x12 : Vec F S1x64 .f32) (x13 : Vec F S64x2 .bf16) (x14 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out8_15 x0 x1 x2 x3 x4 x5 x6 x7 x8 x9 x10 x11 x12 x13 x14)) -∗ K ⟨⟩))
      ⊢ wp frame (wpE (defs₀ (F := F)) Variants.none c none) E (cc8__gate_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc8__gate_mlp_kernel_eq_skeleton]; unfold cc8__gate_mlp_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  try dsimp only
  exact View.read_writes_eq_canon _ _ _ (cover8_15 _)

/-! ## The proof data -/

/-- Edge-indexed window 0's block at point `t` filled out to the staging buffer's shape with the zero word past the
    array's end: a name for contents that ARE the block on the rows inside the array (all the obligation reads of it). -/
def xin8_0 (c : Dev nD) (t : Fin cfg8.N) : Vec F S4096x128 .f32 :=
  (cfg8.win 0).fill (cfg8.grid.coords t) (fun _ => Scalar.ofBits .f32 0#32) (iblk8 V c 0 t)

/-- Edge-indexed window 1's block at point `t` filled out to the staging buffer's shape with the zero word past the
    array's end: a name for contents that ARE the block on the rows inside the array (all the obligation reads of it). -/
def xin8_1 (c : Dev nD) (t : Fin cfg8.N) : Vec F S4096x128 .f32 :=
  (cfg8.win 1).fill (cfg8.grid.coords t) (fun _ => Scalar.ofBits .f32 0#32) (iblk8 V c 1 t)

/-- Edge-indexed window 2's block at point `t` filled out to the staging buffer's shape with the zero word past the
    array's end: a name for contents that ARE the block on the rows inside the array (all the obligation reads of it). -/
def xin8_2 (c : Dev nD) (t : Fin cfg8.N) : Vec F S4096x32 .f32 :=
  (cfg8.win 2).fill (cfg8.grid.coords t) (fun _ => Scalar.ofBits .f32 0#32) (iblk8 V c 2 t)

/-- The proof data of this pipeline on core `c`: the arrays as the call finds them (`V`); after the body at point
    `t` each constant's buffer at its block, each edge-indexed input's at its block (zero-filled past the array's
    end), the result's at `out8_15` of those; the invariant the scoped rest and the generator register, untouched;
    nothing owed; full shares. -/
def dat8 (c : Dev nD) : Dat τ (Elt F) Unit ℕ (UR sig nD τ) ℕ cfg8 c where
  A w := V c (Pipeline.arrRef spec8 w)
  after w t := match w with
    | ⟨0, _⟩ => xin8_0 V c t
    | ⟨1, _⟩ => xin8_1 V c t
    | ⟨2, _⟩ => xin8_2 V c t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => iblk8 V c 14 t
    | ⟨15, _⟩ => out8_15 (xin8_0 V c t) (xin8_1 V c t) (xin8_2 V c t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t)
    | ⟨_ + 16, h⟩ => absurd h (Nat.not_lt.2 (Nat.le_add_left _ _))
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = xin8_0 V c t := by dsimp only [dat8]
theorem after8_1 (c : Dev nD) (t : Fin cfg8.N) : (dat8 V c).after 1 t = xin8_1 V c t := by dsimp only [dat8]
theorem after8_2 (c : Dev nD) (t : Fin cfg8.N) : (dat8 V c).after 2 t = xin8_2 V c t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = iblk8 V c 11 t := by dsimp only [dat8]
theorem after8_12 (c : Dev nD) (t : Fin cfg8.N) : (dat8 V c).after 12 t = iblk8 V c 12 t := by dsimp only [dat8]
theorem after8_13 (c : Dev nD) (t : Fin cfg8.N) : (dat8 V c).after 13 t = iblk8 V c 13 t := by dsimp only [dat8]
theorem after8_14 (c : Dev nD) (t : Fin cfg8.N) : (dat8 V c).after 14 t = iblk8 V c 14 t := by dsimp only [dat8]
theorem after8_15 (c : Dev nD) (t : Fin cfg8.N) : (dat8 V c).after 15 t = out8_15 (xin8_0 V c t) (xin8_1 V c t) (xin8_2 V c t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) := by dsimp only [dat8]

/-- What the body finds, window by window. -/
theorem before8_0 (c : Dev nD) (t : Fin cfg8.N) (d) : (dat8 V c).before 0 t d = (cfg8.win 0).fill (cfg8.grid.coords t) d (iblk8 V c 0 t) :=
  before8_0_of V (dat8 V c) (A_eq8 V c 0) t d
theorem before8_1 (c : Dev nD) (t : Fin cfg8.N) (d) : (dat8 V c).before 1 t d = (cfg8.win 1).fill (cfg8.grid.coords t) d (iblk8 V c 1 t) :=
  before8_1_of V (dat8 V c) (A_eq8 V c 1) t d
theorem before8_2 (c : Dev nD) (t : Fin cfg8.N) (d) : (dat8 V c).before 2 t d = (cfg8.win 2).fill (cfg8.grid.coords t) d (iblk8 V c 2 t) :=
  before8_2_of V (dat8 V c) (A_eq8 V c 2) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d
theorem before8_11 (c : Dev nD) (t : Fin cfg8.N) (d) : (dat8 V c).before 11 t d = iblk8 V c 11 t :=
  before8_11_of V (dat8 V c) (A_eq8 V c 11) (after8_11 V c) t d
theorem before8_12 (c : Dev nD) (t : Fin cfg8.N) (d) : (dat8 V c).before 12 t d = iblk8 V c 12 t :=
  before8_12_of V (dat8 V c) (A_eq8 V c 12) (after8_12 V c) t d
theorem before8_13 (c : Dev nD) (t : Fin cfg8.N) (d) : (dat8 V c).before 13 t d = iblk8 V c 13 t :=
  before8_13_of V (dat8 V c) (A_eq8 V c 13) (after8_13 V c) t d
theorem before8_14 (c : Dev nD) (t : Fin cfg8.N) (d) : (dat8 V c).before 14 t d = iblk8 V c 14 t :=
  before8_14_of V (dat8 V c) (A_eq8 V c 14) (after8_14 V c) t d
theorem before8_15 (c : Dev nD) (t : Fin cfg8.N) (d) : (dat8 V c).before 15 t d = d := before8_15_of (dat8 V c) t d

/-- On the rows inside the array, what the proof data says an edge-indexed input's buffer holds after the body is the
    block: filling any contents with that part gives the block filled out with those contents. -/
theorem keep8_0 (c : Dev nD) (t : Fin cfg8.N) (d : (cfg8.win 0).block.Idx → Elt F (cfg8.win 0).elt) :
    (cfg8.win 0).fill (cfg8.grid.coords t) d ((cfg8.win 0).cut (cfg8.grid.coords t) ((dat8 V c).after 0 t))
      = (cfg8.win 0).fill (cfg8.grid.coords t) d (iblk8 V c 0 t) := by
  rw [after8_0]; unfold xin8_0; rw [Window.cut_fill]
theorem keep8_1 (c : Dev nD) (t : Fin cfg8.N) (d : (cfg8.win 1).block.Idx → Elt F (cfg8.win 1).elt) :
    (cfg8.win 1).fill (cfg8.grid.coords t) d ((cfg8.win 1).cut (cfg8.grid.coords t) ((dat8 V c).after 1 t))
      = (cfg8.win 1).fill (cfg8.grid.coords t) d (iblk8 V c 1 t) := by
  rw [after8_1]; unfold xin8_1; rw [Window.cut_fill]
theorem keep8_2 (c : Dev nD) (t : Fin cfg8.N) (d : (cfg8.win 2).block.Idx → Elt F (cfg8.win 2).elt) :
    (cfg8.win 2).fill (cfg8.grid.coords t) d ((cfg8.win 2).cut (cfg8.grid.coords t) ((dat8 V c).after 2 t))
      = (cfg8.win 2).fill (cfg8.grid.coords t) d (iblk8 V c 2 t) := by
  rw [after8_2]; unfold xin8_2; rw [Window.cut_fill]

/-! ## The body obligation that does not describe the result's buffer -/

/-- The windows whose staging buffer the obligation below hands over and takes back at unstated contents: the
    result's. -/
def fgt8 : Fin cfg8.W → Bool := fun w => decide (w = 15)

/-- What the body is called with at point `t`: the invariant, nothing owed, the fifteen input buffers at what the
    fetches left and the result's at anything, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d))
    ∗ (∃ d, owns (c : Thread nD τ) (st8_13 t) fullShare ((dat8 V c).before 13 t d))
    ∗ (∃ d, owns (c : Thread nD τ) (st8_14 t) fullShare ((dat8 V c).before 14 t d))
    ∗ (∃ X, owns (c : Thread nD τ) (st8_15 t) fullShare X))

/-- and what it returns: the edge-indexed inputs' buffers at their blocks on the rows inside the array, the constants'
    at their blocks, the result's at anything. -/
def bodyPost8 (c : Dev nD) (t : Fin cfg8.N) : sProp 𝕄 :=
  iprop((dat8 V c).Φ t.succ ∗ (dat8 V c).owesAt () t.succ
    ∗ (∃ d, owns (c : Thread nD τ) (st8_0 t) fullShare ((cfg8.win 0).fill (cfg8.grid.coords t) d ((cfg8.win 0).cut (cfg8.grid.coords t) ((dat8 V c).after 0 t))))
    ∗ (∃ d, owns (c : Thread nD τ) (st8_1 t) fullShare ((cfg8.win 1).fill (cfg8.grid.coords t) d ((cfg8.win 1).cut (cfg8.grid.coords t) ((dat8 V c).after 1 t))))
    ∗ (∃ d, owns (c : Thread nD τ) (st8_2 t) fullShare ((cfg8.win 2).fill (cfg8.grid.coords t) d ((cfg8.win 2).cut (cfg8.grid.coords t) ((dat8 V c).after 2 t))))
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t)
    ∗ owns (c : Thread nD τ) (st8_13 t) fullShare ((dat8 V c).after 13 t)
    ∗ owns (c : Thread nD τ) (st8_14 t) fullShare ((dat8 V c).after 14 t)
    ∗ (∃ X, owns (c : Thread nD τ) (st8_15 t) fullShare X))

/-- The body at any point: whatever the input buffers hold, `sound_kernel8` applies; the inputs come back as they
    were, the invariant and the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10, before8_11, before8_12, before8_13, before8_14]
  rw [show (dat8 V c).Φ t.succ = (dat8 V c).Φ t.castSucc from rfl,
    show (dat8 V c).owesAt () t.succ = (dat8 V c).owesAt () t.castSucc from rfl,
    after8_3, after8_4, after8_5, after8_6, after8_7, after8_8, after8_9, after8_10, after8_11, after8_12, after8_13, after8_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%X15, H15⟩⟩
  iapply (sound_kernel8 c Set.univ _ _ _ _ _ _ _ _ _ _ _ _ _ _ _ _ _ _ _ _ _ _ _ _ _ _ _ _ _ _ _ _ _
    ((cfg8.win 0).fill (cfg8.grid.coords t) d0 (iblk8 V c 0 t)) ((cfg8.win 1).fill (cfg8.grid.coords t) d1 (iblk8 V c 1 t)) ((cfg8.win 2).fill (cfg8.grid.coords t) d2 (iblk8 V c 2 t))
    (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexists d0; rw [keep8_0 V c t d0]; iexact H0
  isplitl [H1]; · iexists d1; rw [keep8_1 V c t d1]; iexact H1
  isplitl [H2]; · iexists d2; rw [keep8_2 V c t d2]; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

/-- The body obligation at every point, the result's buffer forgotten (`fgt8`): for any scalar model. -/
theorem body_obligation8_fgt (c : Dev nD) :
    BodyObligationLoose (dat8 (F := F) V c) (defs₀ (F := F)) Variants.none () Set.univ fgt8 := fun t => by
  rw [bigSep_W8, bigSep_W8]
  exact sound_body8 V c t

end Cert.KernelIdeal.Hand

end
-- ==== Proof.KIFold.lean ====
import proofs.«166951_j44444321579084_2_alg».proof.Proof.KIHost
import proofs.«166951_j44444321579084_2_alg».proof.Proof.KIFrameR0
import proofs.«166951_j44444321579084_2_alg».proof.Proof.KIFrameR1
import proofs.«166951_j44444321579084_2_alg».proof.Proof.KIFrameR2
import proofs.«166951_j44444321579084_2_alg».proof.Proof.KIFrameR3
import proofs.«166951_j44444321579084_2_alg».proof.Proof.KIFrameR4
import proofs.«166951_j44444321579084_2_alg».proof.Proof.KIFrameR5
import proofs.«166951_j44444321579084_2_alg».proof.Proof.KIFrameR6
import proofs.«166951_j44444321579084_2_alg».proof.Proof.KIFrameR7
import proofs.«166951_j44444321579084_2_alg».proof.Proof.KIFrameR8
import Idealize.ShloMosaic.Lib.Pipeline.RegionsLoop
import Idealize.ShloMosaic.Lib.Pipeline.FrameSuffix

/-! # @main's buffer contents, item by item

@main is 27 items in order: 18 host pieces and 9 kernel regions. `W0` is the launch memory read at a core's buffers;
item `j` takes the contents `Wj` to `W(j+1)`:

* a host piece rewrites the results of its operations, in order (`StableHlo.after`);
* a kernel region leaves every buffer as entered except its output window's array, which ends at what the
  pipeline's write-backs leave (`Dat.arrAt … N`). For the calls whose windows are handed distinct arrays the exit
  contents are written with `Pipeline.withArrays` (every window's array at its `arrAt … N`, which for an input is its
  entry contents); for the four calls that hand one array to two input windows they are the entry contents
  updated at the output array alone.

Every item therefore leaves a reference it does not write as it found it (`W(j+1)_of`), and a reference no item
writes — every argument of @main — ends holding its launch contents (`W27_of_unwritten`, `W27_main_argJ`).

The second half fixes what the run of the segments is stated over: every pipeline's proof data at its region's
entry contents (`pdats`), the thread state riding beside the buffers (`R`), a host piece as a segment (`hseg`). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After item 0, the host piece `main_part0_ops0`. -/
abbrev W1 : Dev nD → Valuation τ sig (Elt F) := fun c => StableHlo.after main_part0_ops0 (W0 m ρ c)
/-- The piece leaves a reference it does not write as it found it. -/
theorem W1_of (c : Dev nD) (r : Ref sig .tc) (h : r ∉ main_part0_ops0_W) :
    W1 m ρ c (Proc.devRef .tc r) = W0 m ρ c (Proc.devRef .tc r) :=
  StableHlo.after_of_writes_sub main_part0_ops0 _ main_part0_ops0_writes h

/-! ### Item 1: region 0 (custom_call 0), entered at `W1`, left at `W2`; its output window 5 writes `main_v4` -/

/-- The entry contents read at the TensorCore's references (what region 0's proof data take). -/
abbrev V1 : (c : Dev nD) → (b : Ref sig .tc) → Buf (Elt F) ((c : Thread nD τ).loc b) := fun c b => W1 m ρ c b
/-- Every window of call 0 but the output is an input, and its array is not the output's. -/
theorem in_of_ne0 : ∀ w : Fin cfg0.W, w ≠ 5 → (cfg0.win w).isOut = false ∧ Pipeline.arrRef spec0 w ≠ main_v4 := by decide
/-- At region 0's exit: its arrays at what the pipeline leaves (an input's as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The output array holds the output window's write-backs folded over its entry contents. -/
theorem W2_out (c : Dev nD) :
    W2 m ρ c (Proc.devRef .tc main_v4) = (dat0 (V1 m ρ) c).arrAt 5 cfg0.N := W2_arr m ρ c 5
/-- The region leaves every reference but its output array as it found it: an input window's array by
    `Dat.arrAt_in`, a buffer that is no window's array by `withArrays_of_ne`. -/
theorem W2_of (c : Dev nD) (r : Ref sig .tc) (h : r ≠ main_v4) :
    W2 m ρ c (Proc.devRef .tc r) = W1 m ρ c (Proc.devRef .tc r) := by
  by_cases hr : ∃ w, Pipeline.arrRef spec0 w = r
  · obtain ⟨w, rfl⟩ := hr
    have hw : w ≠ 5 := fun e => h (e ▸ rfl)
    exact (W2_arr m ρ c w).trans (((dat0 (V1 m ρ) c).arrAt_in w (in_of_ne0 w hw).1 _).trans (A_eq0 (V1 m ρ) c w))
  · exact W2_of_ne m ρ c r fun w e => hr ⟨w, e⟩
/-- The exit contents read at the TensorCore's references. -/
abbrev V2 : (c : Dev nD) → (b : Ref sig .tc) → Buf (Elt F) ((c : Thread nD τ).loc b) := fun c b => W2 m ρ c b
/-- At the exit each of the region's arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After item 2, the host piece `main_part0_ops1`. -/
abbrev W3 : Dev nD → Valuation τ sig (Elt F) := fun c => StableHlo.after main_part0_ops1 (W2 m ρ c)
/-- The piece leaves a reference it does not write as it found it. -/
theorem W3_of (c : Dev nD) (r : Ref sig .tc) (h : r ∉ main_part0_ops1_W) :
    W3 m ρ c (Proc.devRef .tc r) = W2 m ρ c (Proc.devRef .tc r) :=
  StableHlo.after_of_writes_sub main_part0_ops1 _ main_part0_ops1_writes h

/-! ### Item 3: region 1 (custom_call 1), entered at `W3`, left at `W4`; its output window 5 writes `main_v9` -/

/-- The entry contents read at the TensorCore's references (what region 1's proof data take). -/
abbrev V3 : (c : Dev nD) → (b : Ref sig .tc) → Buf (Elt F) ((c : Thread nD τ).loc b) := fun c b => W3 m ρ c b
/-- Every window of call 1 but the output is an input, and its array is not the output's. -/
theorem in_of_ne1 : ∀ w : Fin cfg1.W, w ≠ 5 → (cfg1.win w).isOut = false ∧ Pipeline.arrRef spec1 w ≠ main_v9 := by decide
/-- At region 1's exit: its arrays at what the pipeline leaves (an input's as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The output array holds the output window's write-backs folded over its entry contents. -/
theorem W4_out (c : Dev nD) :
    W4 m ρ c (Proc.devRef .tc main_v9) = (dat1 (V3 m ρ) c).arrAt 5 cfg1.N := W4_arr m ρ c 5
/-- The region leaves every reference but its output array as it found it: an input window's array by
    `Dat.arrAt_in`, a buffer that is no window's array by `withArrays_of_ne`. -/
theorem W4_of (c : Dev nD) (r : Ref sig .tc) (h : r ≠ main_v9) :
    W4 m ρ c (Proc.devRef .tc r) = W3 m ρ c (Proc.devRef .tc r) := by
  by_cases hr : ∃ w, Pipeline.arrRef spec1 w = r
  · obtain ⟨w, rfl⟩ := hr
    have hw : w ≠ 5 := fun e => h (e ▸ rfl)
    exact (W4_arr m ρ c w).trans (((dat1 (V3 m ρ) c).arrAt_in w (in_of_ne1 w hw).1 _).trans (A_eq1 (V3 m ρ) c w))
  · exact W4_of_ne m ρ c r fun w e => hr ⟨w, e⟩
/-- The exit contents read at the TensorCore's references. -/
abbrev V4 : (c : Dev nD) → (b : Ref sig .tc) → Buf (Elt F) ((c : Thread nD τ).loc b) := fun c b => W4 m ρ c b
/-- At the exit each of the region's arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After item 4, the host piece `main_part0_ops2`. -/
abbrev W5 : Dev nD → Valuation τ sig (Elt F) := fun c => StableHlo.after main_part0_ops2 (W4 m ρ c)
/-- The piece leaves a reference it does not write as it found it. -/
theorem W5_of (c : Dev nD) (r : Ref sig .tc) (h : r ∉ main_part0_ops2_W) :
    W5 m ρ c (Proc.devRef .tc r) = W4 m ρ c (Proc.devRef .tc r) :=
  StableHlo.after_of_writes_sub main_part0_ops2 _ main_part0_ops2_writes h

/-- After item 5, the host piece `main_part1_ops0`. -/
abbrev W6 : Dev nD → Valuation τ sig (Elt F) := fun c => StableHlo.after main_part1_ops0 (W5 m ρ c)
/-- The piece leaves a reference it does not write as it found it. -/
theorem W6_of (c : Dev nD) (r : Ref sig .tc) (h : r ∉ main_part1_ops0_W) :
    W6 m ρ c (Proc.devRef .tc r) = W5 m ρ c (Proc.devRef .tc r) :=
  StableHlo.after_of_writes_sub main_part1_ops0 _ main_part1_ops0_writes h

/-- After item 6, the host piece `main_part2_ops0`. -/
abbrev W7 : Dev nD → Valuation τ sig (Elt F) := fun c => StableHlo.after main_part2_ops0 (W6 m ρ c)
/-- The piece leaves a reference it does not write as it found it. -/
theorem W7_of (c : Dev nD) (r : Ref sig .tc) (h : r ∉ main_part2_ops0_W) :
    W7 m ρ c (Proc.devRef .tc r) = W6 m ρ c (Proc.devRef .tc r) :=
  StableHlo.after_of_writes_sub main_part2_ops0 _ main_part2_ops0_writes h

/-! ### Item 7: region 2 (custom_call 2), entered at `W7`, left at `W8`; its output window 9 writes `main_v136` -/

/-- The entry contents read at the TensorCore's references (what region 2's proof data take). -/
abbrev V7 : (c : Dev nD) → (b : Ref sig .tc) → Buf (Elt F) ((c : Thread nD τ).loc b) := fun c b => W7 m ρ c b
/-- Every window of call 2 but the output is an input, and its array is not the output's. -/
theorem in_of_ne2 : ∀ w : Fin cfg2.W, w ≠ 9 → (cfg2.win w).isOut = false ∧ Pipeline.arrRef spec2 w ≠ main_v136 := by decide
/-- At region 2's exit: its arrays at what the pipeline leaves (an input's as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The output array holds the output window's write-backs folded over its entry contents. -/
theorem W8_out (c : Dev nD) :
    W8 m ρ c (Proc.devRef .tc main_v136) = (dat2 (V7 m ρ) c).arrAt 9 cfg2.N := W8_arr m ρ c 9
/-- The region leaves every reference but its output array as it found it: an input window's array by
    `Dat.arrAt_in`, a buffer that is no window's array by `withArrays_of_ne`. -/
theorem W8_of (c : Dev nD) (r : Ref sig .tc) (h : r ≠ main_v136) :
    W8 m ρ c (Proc.devRef .tc r) = W7 m ρ c (Proc.devRef .tc r) := by
  by_cases hr : ∃ w, Pipeline.arrRef spec2 w = r
  · obtain ⟨w, rfl⟩ := hr
    have hw : w ≠ 9 := fun e => h (e ▸ rfl)
    exact (W8_arr m ρ c w).trans (((dat2 (V7 m ρ) c).arrAt_in w (in_of_ne2 w hw).1 _).trans (A_eq2 (V7 m ρ) c w))
  · exact W8_of_ne m ρ c r fun w e => hr ⟨w, e⟩
/-- The exit contents read at the TensorCore's references. -/
abbrev V8 : (c : Dev nD) → (b : Ref sig .tc) → Buf (Elt F) ((c : Thread nD τ).loc b) := fun c b => W8 m ρ c b
/-- At the exit each of the region's arrays holds what the pipeline leaves (`hF2`) and every other buffer what it
    held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After item 8, the host piece `main_part2_ops1`. -/
abbrev W9 : Dev nD → Valuation τ sig (Elt F) := fun c => StableHlo.after main_part2_ops1 (W8 m ρ c)
/-- The piece leaves a reference it does not write as it found it. -/
theorem W9_of (c : Dev nD) (r : Ref sig .tc) (h : r ∉ main_part2_ops1_W) :
    W9 m ρ c (Proc.devRef .tc r) = W8 m ρ c (Proc.devRef .tc r) :=
  StableHlo.after_of_writes_sub main_part2_ops1 _ main_part2_ops1_writes h

/-- After item 9, the host piece `main_part3_ops0`. -/
abbrev W10 : Dev nD → Valuation τ sig (Elt F) := fun c => StableHlo.after main_part3_ops0 (W9 m ρ c)
/-- The piece leaves a reference it does not write as it found it. -/
theorem W10_of (c : Dev nD) (r : Ref sig .tc) (h : r ∉ main_part3_ops0_W) :
    W10 m ρ c (Proc.devRef .tc r) = W9 m ρ c (Proc.devRef .tc r) :=
  StableHlo.after_of_writes_sub main_part3_ops0 _ main_part3_ops0_writes h

/-! ### Item 10: region 3 (custom_call 3), entered at `W10`, left at `W11`; its output window 9 writes `main_v159` -/

/-- The entry contents read at the TensorCore's references (what region 3's proof data take). -/
abbrev V10 : (c : Dev nD) → (b : Ref sig .tc) → Buf (Elt F) ((c : Thread nD τ).loc b) := fun c b => W10 m ρ c b
/-- Every window of call 3 but the output is an input, and its array is not the output's. -/
theorem in_of_ne3 : ∀ w : Fin cfg3.W, w ≠ 9 → (cfg3.win w).isOut = false ∧ Pipeline.arrRef spec3 w ≠ main_v159 := by decide
/-- At region 3's exit: its arrays at what the pipeline leaves (an input's as entered, the output's write-backs
    folded), every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- The output array holds the output window's write-backs folded over its entry contents. -/
theorem W11_out (c : Dev nD) :
    W11 m ρ c (Proc.devRef .tc main_v159) = (dat3 (V10 m ρ) c).arrAt 9 cfg3.N := W11_arr m ρ c 9
/-- The region leaves every reference but its output array as it found it: an input window's array by
    `Dat.arrAt_in`, a buffer that is no window's array by `withArrays_of_ne`. -/
theorem W11_of (c : Dev nD) (r : Ref sig .tc) (h : r ≠ main_v159) :
    W11 m ρ c (Proc.devRef .tc r) = W10 m ρ c (Proc.devRef .tc r) := by
  by_cases hr : ∃ w, Pipeline.arrRef spec3 w = r
  · obtain ⟨w, rfl⟩ := hr
    have hw : w ≠ 9 := fun e => h (e ▸ rfl)
    exact (W11_arr m ρ c w).trans (((dat3 (V10 m ρ) c).arrAt_in w (in_of_ne3 w hw).1 _).trans (A_eq3 (V10 m ρ) c w))
  · exact W11_of_ne m ρ c r fun w e => hr ⟨w, e⟩
/-- The exit contents read at the TensorCore's references. -/
abbrev V11 : (c : Dev nD) → (b : Ref sig .tc) → Buf (Elt F) ((c : Thread nD τ).loc b) := fun c b => W11 m ρ c b
/-- At the exit each of the region's arrays holds what the pipeline leaves (`hF3`) and every other buffer what it
    held at entry (`hrest3`). -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-- After item 11, the host piece `main_part3_ops1`. -/
abbrev W12 : Dev nD → Valuation τ sig (Elt F) := fun c => StableHlo.after main_part3_ops1 (W11 m ρ c)
/-- The piece leaves a reference it does not write as it found it. -/
theorem W12_of (c : Dev nD) (r : Ref sig .tc) (h : r ∉ main_part3_ops1_W) :
    W12 m ρ c (Proc.devRef .tc r) = W11 m ρ c (Proc.devRef .tc r) :=
  StableHlo.after_of_writes_sub main_part3_ops1 _ main_part3_ops1_writes h

/-- After item 12, the host piece `main_part4_ops0`. -/
abbrev W13 : Dev nD → Valuation τ sig (Elt F) := fun c => StableHlo.after main_part4_ops0 (W12 m ρ c)
/-- The piece leaves a reference it does not write as it found it. -/
theorem W13_of (c : Dev nD) (r : Ref sig .tc) (h : r ∉ main_part4_ops0_W) :
    W13 m ρ c (Proc.devRef .tc r) = W12 m ρ c (Proc.devRef .tc r) :=
  StableHlo.after_of_writes_sub main_part4_ops0 _ main_part4_ops0_writes h

/-! ### Item 13: region 4 (custom_call 4), entered at `W13`, left at `W14`; its output window 10 writes `main_v250` -/

/-- The entry contents read at the TensorCore's references (what region 4's proof data take). -/
abbrev V13 : (c : Dev nD) → (b : Ref sig .tc) → Buf (Elt F) ((c : Thread nD τ).loc b) := fun c b => W13 m ρ c b
/-- Every window of call 4 but the output is an input, and its array is not the output's. -/
theorem in_of_ne4 : ∀ w : Fin cfg4.W, w ≠ 10 → (cfg4.win w).isOut = false ∧ Pipeline.arrRef spec4 w ≠ main_v250 := by decide
/-- At region 4's exit: the output array at the output window's write-backs folded over its entry contents, every
    other buffer as entered (two input windows of this call are handed one array, so the exit contents are written
    as an update at the one array that changes). -/
def W14 (c : Dev nD) : Valuation τ sig (Elt F) :=
  Function.update (W13 m ρ c) (Proc.devRef .tc main_v250) ((dat4 (V13 m ρ) c).arrAt 10 cfg4.N)
/-- The output array holds the output window's write-backs folded over its entry contents. -/
theorem W14_out (c : Dev nD) :
    W14 m ρ c (Proc.devRef .tc main_v250) = (dat4 (V13 m ρ) c).arrAt 10 cfg4.N := by
  unfold W14; exact Function.update_self ..
/-- The region leaves every reference but its output array as it found it. -/
theorem W14_of (c : Dev nD) (r : Ref sig .tc) (h : r ≠ main_v250) :
    W14 m ρ c (Proc.devRef .tc r) = W13 m ρ c (Proc.devRef .tc r) := by
  unfold W14; exact Function.update_of_ne (StableHlo.devRef_ne_of_ne h) _ _
theorem W14_arr (c : Dev nD) (w : Fin cfg4.W) :
    W14 m ρ c (Proc.devRef .tc (Pipeline.arrRef spec4 w)) = (dat4 (V13 m ρ) c).arrAt w cfg4.N := by
  by_cases hw : w = 10
  · subst hw; exact W14_out m ρ c
  · exact (W14_of m ρ c _ (in_of_ne4 w hw).2).trans
      (((dat4 (V13 m ρ) c).arrAt_in w (in_of_ne4 w hw).1 _).trans (A_eq4 (V13 m ρ) c w)).symm
theorem W14_of_ne (c : Dev nD) (b : Ref sig .tc) (hb : ∀ w, Pipeline.arrRef spec4 w ≠ b) :
    W14 m ρ c (Proc.devRef .tc b) = W13 m ρ c (Proc.devRef .tc b) :=
  W14_of m ρ c b fun e => hb 10 (e ▸ rfl)
/-- The exit contents read at the TensorCore's references. -/
abbrev V14 : (c : Dev nD) → (b : Ref sig .tc) → Buf (Elt F) ((c : Thread nD τ).loc b) := fun c b => W14 m ρ c b
/-- At the exit each of the region's arrays holds what the pipeline leaves (`hF4`) and every other buffer what it
    held at entry (`hrest4`). -/
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)

/-- After item 14, the host piece `main_part4_ops1`. -/
abbrev W15 : Dev nD → Valuation τ sig (Elt F) := fun c => StableHlo.after main_part4_ops1 (W14 m ρ c)
/-- The piece leaves a reference it does not write as it found it. -/
theorem W15_of (c : Dev nD) (r : Ref sig .tc) (h : r ∉ main_part4_ops1_W) :
    W15 m ρ c (Proc.devRef .tc r) = W14 m ρ c (Proc.devRef .tc r) :=
  StableHlo.after_of_writes_sub main_part4_ops1 _ main_part4_ops1_writes h

/-- After item 15, the host piece `main_part5_ops0`. -/
abbrev W16 : Dev nD → Valuation τ sig (Elt F) := fun c => StableHlo.after main_part5_ops0 (W15 m ρ c)
/-- The piece leaves a reference it does not write as it found it. -/
theorem W16_of (c : Dev nD) (r : Ref sig .tc) (h : r ∉ main_part5_ops0_W) :
    W16 m ρ c (Proc.devRef .tc r) = W15 m ρ c (Proc.devRef .tc r) :=
  StableHlo.after_of_writes_sub main_part5_ops0 _ main_part5_ops0_writes h

/-! ### Item 16: region 5 (custom_call 5), entered at `W16`, left at `W17`; its output window 10 writes `main_v273` -/

/-- The entry contents read at the TensorCore's references (what region 5's proof data take). -/
abbrev V16 : (c : Dev nD) → (b : Ref sig .tc) → Buf (Elt F) ((c : Thread nD τ).loc b) := fun c b => W16 m ρ c b
/-- Every window of call 5 but the output is an input, and its array is not the output's. -/
theorem in_of_ne5 : ∀ w : Fin cfg5.W, w ≠ 10 → (cfg5.win w).isOut = false ∧ Pipeline.arrRef spec5 w ≠ main_v273 := by decide
/-- At region 5's exit: the output array at the output window's write-backs folded over its entry contents, every
    other buffer as entered (two input windows of this call are handed one array, so the exit contents are written
    as an update at the one array that changes). -/
def W17 (c : Dev nD) : Valuation τ sig (Elt F) :=
  Function.update (W16 m ρ c) (Proc.devRef .tc main_v273) ((dat5 (V16 m ρ) c).arrAt 10 cfg5.N)
/-- The output array holds the output window's write-backs folded over its entry contents. -/
theorem W17_out (c : Dev nD) :
    W17 m ρ c (Proc.devRef .tc main_v273) = (dat5 (V16 m ρ) c).arrAt 10 cfg5.N := by
  unfold W17; exact Function.update_self ..
/-- The region leaves every reference but its output array as it found it. -/
theorem W17_of (c : Dev nD) (r : Ref sig .tc) (h : r ≠ main_v273) :
    W17 m ρ c (Proc.devRef .tc r) = W16 m ρ c (Proc.devRef .tc r) := by
  unfold W17; exact Function.update_of_ne (StableHlo.devRef_ne_of_ne h) _ _
theorem W17_arr (c : Dev nD) (w : Fin cfg5.W) :
    W17 m ρ c (Proc.devRef .tc (Pipeline.arrRef spec5 w)) = (dat5 (V16 m ρ) c).arrAt w cfg5.N := by
  by_cases hw : w = 10
  · subst hw; exact W17_out m ρ c
  · exact (W17_of m ρ c _ (in_of_ne5 w hw).2).trans
      (((dat5 (V16 m ρ) c).arrAt_in w (in_of_ne5 w hw).1 _).trans (A_eq5 (V16 m ρ) c w)).symm
theorem W17_of_ne (c : Dev nD) (b : Ref sig .tc) (hb : ∀ w, Pipeline.arrRef spec5 w ≠ b) :
    W17 m ρ c (Proc.devRef .tc b) = W16 m ρ c (Proc.devRef .tc b) :=
  W17_of m ρ c b fun e => hb 10 (e ▸ rfl)
/-- The exit contents read at the TensorCore's references. -/
abbrev V17 : (c : Dev nD) → (b : Ref sig .tc) → Buf (Elt F) ((c : Thread nD τ).loc b) := fun c b => W17 m ρ c b
/-- At the exit each of the region's arrays holds what the pipeline leaves (`hF5`) and every other buffer what it
    held at entry (`hrest5`). -/
theorem hF5 (c : Dev nD) (w : Fin cfg5.W) : (dat5 (V16 m ρ) c).arrAt w cfg5.N = V17 m ρ c (Pipeline.arrRef spec5 w) :=
  (W17_arr m ρ c w).symm
theorem hrest5 (c : Dev nD) : ∀ b, b ∉ Finset.univ.image (Pipeline.arrRef spec5) → V17 m ρ c b = V16 m ρ c b :=
  fun b hb => W17_of_ne m ρ c b fun w e => hb (Finset.mem_image.mpr ⟨w, Finset.mem_univ _, e⟩)

/-- After item 17, the host piece `main_part5_ops1`. -/
abbrev W18 : Dev nD → Valuation τ sig (Elt F) := fun c => StableHlo.after main_part5_ops1 (W17 m ρ c)
/-- The piece leaves a reference it does not write as it found it. -/
theorem W18_of (c : Dev nD) (r : Ref sig .tc) (h : r ∉ main_part5_ops1_W) :
    W18 m ρ c (Proc.devRef .tc r) = W17 m ρ c (Proc.devRef .tc r) :=
  StableHlo.after_of_writes_sub main_part5_ops1 _ main_part5_ops1_writes h

/-- After item 18, the host piece `main_part6_ops0`. -/
abbrev W19 : Dev nD → Valuation τ sig (Elt F) := fun c => StableHlo.after main_part6_ops0 (W18 m ρ c)
/-- The piece leaves a reference it does not write as it found it. -/
theorem W19_of (c : Dev nD) (r : Ref sig .tc) (h : r ∉ main_part6_ops0_W) :
    W19 m ρ c (Proc.devRef .tc r) = W18 m ρ c (Proc.devRef .tc r) :=
  StableHlo.after_of_writes_sub main_part6_ops0 _ main_part6_ops0_writes h

/-! ### Item 19: region 6 (custom_call 6), entered at `W19`, left at `W20`; its output window 10 writes `main_v364` -/

/-- The entry contents read at the TensorCore's references (what region 6's proof data take). -/
abbrev V19 : (c : Dev nD) → (b : Ref sig .tc) → Buf (Elt F) ((c : Thread nD τ).loc b) := fun c b => W19 m ρ c b
/-- Every window of call 6 but the output is an input, and its array is not the output's. -/
theorem in_of_ne6 : ∀ w : Fin cfg6.W, w ≠ 10 → (cfg6.win w).isOut = false ∧ Pipeline.arrRef spec6 w ≠ main_v364 := by decide
/-- At region 6's exit: the output array at the output window's write-backs folded over its entry contents, every
    other buffer as entered (two input windows of this call are handed one array, so the exit contents are written
    as an update at the one array that changes). -/
def W20 (c : Dev nD) : Valuation τ sig (Elt F) :=
  Function.update (W19 m ρ c) (Proc.devRef .tc main_v364) ((dat6 (V19 m ρ) c).arrAt 10 cfg6.N)
/-- The output array holds the output window's write-backs folded over its entry contents. -/
theorem W20_out (c : Dev nD) :
    W20 m ρ c (Proc.devRef .tc main_v364) = (dat6 (V19 m ρ) c).arrAt 10 cfg6.N := by
  unfold W20; exact Function.update_self ..
/-- The region leaves every reference but its output array as it found it. -/
theorem W20_of (c : Dev nD) (r : Ref sig .tc) (h : r ≠ main_v364) :
    W20 m ρ c (Proc.devRef .tc r) = W19 m ρ c (Proc.devRef .tc r) := by
  unfold W20; exact Function.update_of_ne (StableHlo.devRef_ne_of_ne h) _ _
theorem W20_arr (c : Dev nD) (w : Fin cfg6.W) :
    W20 m ρ c (Proc.devRef .tc (Pipeline.arrRef spec6 w)) = (dat6 (V19 m ρ) c).arrAt w cfg6.N := by
  by_cases hw : w = 10
  · subst hw; exact W20_out m ρ c
  · exact (W20_of m ρ c _ (in_of_ne6 w hw).2).trans
      (((dat6 (V19 m ρ) c).arrAt_in w (in_of_ne6 w hw).1 _).trans (A_eq6 (V19 m ρ) c w)).symm
theorem W20_of_ne (c : Dev nD) (b : Ref sig .tc) (hb : ∀ w, Pipeline.arrRef spec6 w ≠ b) :
    W20 m ρ c (Proc.devRef .tc b) = W19 m ρ c (Proc.devRef .tc b) :=
  W20_of m ρ c b fun e => hb 10 (e ▸ rfl)
/-- The exit contents read at the TensorCore's references. -/
abbrev V20 : (c : Dev nD) → (b : Ref sig .tc) → Buf (Elt F) ((c : Thread nD τ).loc b) := fun c b => W20 m ρ c b
/-- At the exit each of the region's arrays holds what the pipeline leaves (`hF6`) and every other buffer what it
    held at entry (`hrest6`). -/
theorem hF6 (c : Dev nD) (w : Fin cfg6.W) : (dat6 (V19 m ρ) c).arrAt w cfg6.N = V20 m ρ c (Pipeline.arrRef spec6 w) :=
  (W20_arr m ρ c w).symm
theorem hrest6 (c : Dev nD) : ∀ b, b ∉ Finset.univ.image (Pipeline.arrRef spec6) → V20 m ρ c b = V19 m ρ c b :=
  fun b hb => W20_of_ne m ρ c b fun w e => hb (Finset.mem_image.mpr ⟨w, Finset.mem_univ _, e⟩)

/-- After item 20, the host piece `main_part6_ops1`. -/
abbrev W21 : Dev nD → Valuation τ sig (Elt F) := fun c => StableHlo.after main_part6_ops1 (W20 m ρ c)
/-- The piece leaves a reference it does not write as it found it. -/
theorem W21_of (c : Dev nD) (r : Ref sig .tc) (h : r ∉ main_part6_ops1_W) :
    W21 m ρ c (Proc.devRef .tc r) = W20 m ρ c (Proc.devRef .tc r) :=
  StableHlo.after_of_writes_sub main_part6_ops1 _ main_part6_ops1_writes h

/-- After item 21, the host piece `main_part7_ops0`. -/
abbrev W22 : Dev nD → Valuation τ sig (Elt F) := fun c => StableHlo.after main_part7_ops0 (W21 m ρ c)
/-- The piece leaves a reference it does not write as it found it. -/
theorem W22_of (c : Dev nD) (r : Ref sig .tc) (h : r ∉ main_part7_ops0_W) :
    W22 m ρ c (Proc.devRef .tc r) = W21 m ρ c (Proc.devRef .tc r) :=
  StableHlo.after_of_writes_sub main_part7_ops0 _ main_part7_ops0_writes h

/-! ### Item 22: region 7 (custom_call 7), entered at `W22`, left at `W23`; its output window 10 writes `main_v387` -/

/-- The entry contents read at the TensorCore's references (what region 7's proof data take). -/
abbrev V22 : (c : Dev nD) → (b : Ref sig .tc) → Buf (Elt F) ((c : Thread nD τ).loc b) := fun c b => W22 m ρ c b
/-- Every window of call 7 but the output is an input, and its array is not the output's. -/
theorem in_of_ne7 : ∀ w : Fin cfg7.W, w ≠ 10 → (cfg7.win w).isOut = false ∧ Pipeline.arrRef spec7 w ≠ main_v387 := by decide
/-- At region 7's exit: the output array at the output window's write-backs folded over its entry contents, every
    other buffer as entered (two input windows of this call are handed one array, so the exit contents are written
    as an update at the one array that changes). -/
def W23 (c : Dev nD) : Valuation τ sig (Elt F) :=
  Function.update (W22 m ρ c) (Proc.devRef .tc main_v387) ((dat7 (V22 m ρ) c).arrAt 10 cfg7.N)
/-- The output array holds the output window's write-backs folded over its entry contents. -/
theorem W23_out (c : Dev nD) :
    W23 m ρ c (Proc.devRef .tc main_v387) = (dat7 (V22 m ρ) c).arrAt 10 cfg7.N := by
  unfold W23; exact Function.update_self ..
/-- The region leaves every reference but its output array as it found it. -/
theorem W23_of (c : Dev nD) (r : Ref sig .tc) (h : r ≠ main_v387) :
    W23 m ρ c (Proc.devRef .tc r) = W22 m ρ c (Proc.devRef .tc r) := by
  unfold W23; exact Function.update_of_ne (StableHlo.devRef_ne_of_ne h) _ _
theorem W23_arr (c : Dev nD) (w : Fin cfg7.W) :
    W23 m ρ c (Proc.devRef .tc (Pipeline.arrRef spec7 w)) = (dat7 (V22 m ρ) c).arrAt w cfg7.N := by
  by_cases hw : w = 10
  · subst hw; exact W23_out m ρ c
  · exact (W23_of m ρ c _ (in_of_ne7 w hw).2).trans
      (((dat7 (V22 m ρ) c).arrAt_in w (in_of_ne7 w hw).1 _).trans (A_eq7 (V22 m ρ) c w)).symm
theorem W23_of_ne (c : Dev nD) (b : Ref sig .tc) (hb : ∀ w, Pipeline.arrRef spec7 w ≠ b) :
    W23 m ρ c (Proc.devRef .tc b) = W22 m ρ c (Proc.devRef .tc b) :=
  W23_of m ρ c b fun e => hb 10 (e ▸ rfl)
/-- The exit contents read at the TensorCore's references. -/
abbrev V23 : (c : Dev nD) → (b : Ref sig .tc) → Buf (Elt F) ((c : Thread nD τ).loc b) := fun c b => W23 m ρ c b
/-- At the exit each of the region's arrays holds what the pipeline leaves (`hF7`) and every other buffer what it
    held at entry (`hrest7`). -/
theorem hF7 (c : Dev nD) (w : Fin cfg7.W) : (dat7 (V22 m ρ) c).arrAt w cfg7.N = V23 m ρ c (Pipeline.arrRef spec7 w) :=
  (W23_arr m ρ c w).symm
theorem hrest7 (c : Dev nD) : ∀ b, b ∉ Finset.univ.image (Pipeline.arrRef spec7) → V23 m ρ c b = V22 m ρ c b :=
  fun b hb => W23_of_ne m ρ c b fun w e => hb (Finset.mem_image.mpr ⟨w, Finset.mem_univ _, e⟩)

/-- After item 23, the host piece `main_part7_ops1`. -/
abbrev W24 : Dev nD → Valuation τ sig (Elt F) := fun c => StableHlo.after main_part7_ops1 (W23 m ρ c)
/-- The piece leaves a reference it does not write as it found it. -/
theorem W24_of (c : Dev nD) (r : Ref sig .tc) (h : r ∉ main_part7_ops1_W) :
    W24 m ρ c (Proc.devRef .tc r) = W23 m ρ c (Proc.devRef .tc r) :=
  StableHlo.after_of_writes_sub main_part7_ops1 _ main_part7_ops1_writes h

/-- After item 24, the host piece `main_part8_ops0`. -/
abbrev W25 : Dev nD → Valuation τ sig (Elt F) := fun c => StableHlo.after main_part8_ops0 (W24 m ρ c)
/-- The piece leaves a reference it does not write as it found it. -/
theorem W25_of (c : Dev nD) (r : Ref sig .tc) (h : r ∉ main_part8_ops0_W) :
    W25 m ρ c (Proc.devRef .tc r) = W24 m ρ c (Proc.devRef .tc r) :=
  StableHlo.after_of_writes_sub main_part8_ops0 _ main_part8_ops0_writes h

/-! ### Item 25: region 8 (custom_call 8), entered at `W25`, left at `W26`; its output window 15 writes `main_v429` -/

/-- The entry contents read at the TensorCore's references (what region 8's proof data take). -/
abbrev V25 : (c : Dev nD) → (b : Ref sig .tc) → Buf (Elt F) ((c : Thread nD τ).loc b) := fun c b => W25 m ρ c b
/-- Every window of call 8 but the output is an input, and its array is not the output's. -/
theorem in_of_ne8 : ∀ w : Fin cfg8.W, w ≠ 15 → (cfg8.win w).isOut = false ∧ Pipeline.arrRef spec8 w ≠ main_v429 := by decide
/-- At region 8's exit: its arrays at what the pipeline leaves (an input's as entered, the output's write-backs
    folded), every other buffer as entered. -/
def W26 (c : Dev nD) : Valuation τ sig (Elt F) :=
  Pipeline.withArrays spec8 c (W25 m ρ c) fun w => (dat8 (V25 m ρ) c).arrAt w cfg8.N
theorem W26_arr (c : Dev nD) (w : Fin cfg8.W) :
    W26 m ρ c (Proc.devRef .tc (Pipeline.arrRef spec8 w)) = (dat8 (V25 m ρ) c).arrAt w cfg8.N := by
  unfold W26; exact Pipeline.withArrays_arr spec8 launch8.win.arr_inj c _ _ w
theorem W26_of_ne (c : Dev nD) (b : Ref sig .tc) (hb : ∀ w, Pipeline.arrRef spec8 w ≠ b) :
    W26 m ρ c (Proc.devRef .tc b) = W25 m ρ c (Proc.devRef .tc b) := by
  unfold W26; exact Pipeline.withArrays_of_ne spec8 c _ _ b hb
/-- The output array holds the output window's write-backs folded over its entry contents. -/
theorem W26_out (c : Dev nD) :
    W26 m ρ c (Proc.devRef .tc main_v429) = (dat8 (V25 m ρ) c).arrAt 15 cfg8.N := W26_arr m ρ c 15
/-- The region leaves every reference but its output array as it found it: an input window's array by
    `Dat.arrAt_in`, a buffer that is no window's array by `withArrays_of_ne`. -/
theorem W26_of (c : Dev nD) (r : Ref sig .tc) (h : r ≠ main_v429) :
    W26 m ρ c (Proc.devRef .tc r) = W25 m ρ c (Proc.devRef .tc r) := by
  by_cases hr : ∃ w, Pipeline.arrRef spec8 w = r
  · obtain ⟨w, rfl⟩ := hr
    have hw : w ≠ 15 := fun e => h (e ▸ rfl)
    exact (W26_arr m ρ c w).trans (((dat8 (V25 m ρ) c).arrAt_in w (in_of_ne8 w hw).1 _).trans (A_eq8 (V25 m ρ) c w))
  · exact W26_of_ne m ρ c r fun w e => hr ⟨w, e⟩
/-- The exit contents read at the TensorCore's references. -/
abbrev V26 : (c : Dev nD) → (b : Ref sig .tc) → Buf (Elt F) ((c : Thread nD τ).loc b) := fun c b => W26 m ρ c b
/-- At the exit each of the region's arrays holds what the pipeline leaves (`hF8`) and every other buffer what it
    held at entry (`hrest8`). -/
theorem hF8 (c : Dev nD) (w : Fin cfg8.W) : (dat8 (V25 m ρ) c).arrAt w cfg8.N = V26 m ρ c (Pipeline.arrRef spec8 w) :=
  (W26_arr m ρ c w).symm
theorem hrest8 (c : Dev nD) : ∀ b, b ∉ Finset.univ.image (Pipeline.arrRef spec8) → V26 m ρ c b = V25 m ρ c b :=
  fun b hb => W26_of_ne m ρ c b fun w e => hb (Finset.mem_image.mpr ⟨w, Finset.mem_univ _, e⟩)

/-- After item 26, the host piece `main_part8_ops1`. -/
abbrev W27 : Dev nD → Valuation τ sig (Elt F) := fun c => StableHlo.after main_part8_ops1 (W26 m ρ c)
/-- The piece leaves a reference it does not write as it found it. -/
theorem W27_of (c : Dev nD) (r : Ref sig .tc) (h : r ∉ main_part8_ops1_W) :
    W27 m ρ c (Proc.devRef .tc r) = W26 m ρ c (Proc.devRef .tc r) :=
  StableHlo.after_of_writes_sub main_part8_ops1 _ main_part8_ops1_writes h

/-! ## A reference no item writes ends as launched -/

/-- A reference that no host piece writes and that is no region's output array holds, at the end, its launch
    contents: the fold walked back item by item. -/
theorem W27_of_unwritten (c : Dev nD) (r : Ref sig .tc)
    (h0 : r ∉ main_part0_ops0_W) (h1 : r ≠ main_v4) (h2 : r ∉ main_part0_ops1_W)
    (h3 : r ≠ main_v9) (h4 : r ∉ main_part0_ops2_W) (h5 : r ∉ main_part1_ops0_W)
    (h6 : r ∉ main_part2_ops0_W) (h7 : r ≠ main_v136) (h8 : r ∉ main_part2_ops1_W)
    (h9 : r ∉ main_part3_ops0_W) (h10 : r ≠ main_v159) (h11 : r ∉ main_part3_ops1_W)
    (h12 : r ∉ main_part4_ops0_W) (h13 : r ≠ main_v250) (h14 : r ∉ main_part4_ops1_W)
    (h15 : r ∉ main_part5_ops0_W) (h16 : r ≠ main_v273) (h17 : r ∉ main_part5_ops1_W)
    (h18 : r ∉ main_part6_ops0_W) (h19 : r ≠ main_v364) (h20 : r ∉ main_part6_ops1_W)
    (h21 : r ∉ main_part7_ops0_W) (h22 : r ≠ main_v387) (h23 : r ∉ main_part7_ops1_W)
    (h24 : r ∉ main_part8_ops0_W) (h25 : r ≠ main_v429) (h26 : r ∉ main_part8_ops1_W) :
    W27 m ρ c (Proc.devRef .tc r) = m ((c : Thread nD τ).loc r) :=
  (W27_of m ρ c r h26).trans <|
  (W26_of m ρ c r h25).trans <|
  (W25_of m ρ c r h24).trans <|
  (W24_of m ρ c r h23).trans <|
  (W23_of m ρ c r h22).trans <|
  (W22_of m ρ c r h21).trans <|
  (W21_of m ρ c r h20).trans <|
  (W20_of m ρ c r h19).trans <|
  (W19_of m ρ c r h18).trans <|
  (W18_of m ρ c r h17).trans <|
  (W17_of m ρ c r h16).trans <|
  (W16_of m ρ c r h15).trans <|
  (W15_of m ρ c r h14).trans <|
  (W14_of m ρ c r h13).trans <|
  (W13_of m ρ c r h12).trans <|
  (W12_of m ρ c r h11).trans <|
  (W11_of m ρ c r h10).trans <|
  (W10_of m ρ c r h9).trans <|
  (W9_of m ρ c r h8).trans <|
  (W8_of m ρ c r h7).trans <|
  (W7_of m ρ c r h6).trans <|
  (W6_of m ρ c r h5).trans <|
  (W5_of m ρ c r h4).trans <|
  (W4_of m ρ c r h3).trans <|
  (W3_of m ρ c r h2).trans <|
  (W2_of m ρ c r h1).trans <|
  (W1_of m ρ c r h0).trans rfl

/-! ### The arguments: none is written by a host operation, none is a region's output array -/

theorem W27_main_arg0 (c : Dev nD) : W27 m ρ c (Proc.devRef .tc main_arg0) = m ((c : Thread nD τ).loc main_arg0) :=
  W27_of_unwritten m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg1 (c : Dev nD) : W27 m ρ c (Proc.devRef .tc main_arg1) = m ((c : Thread nD τ).loc main_arg1) :=
  W27_of_unwritten m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg2 (c : Dev nD) : W27 m ρ c (Proc.devRef .tc main_arg2) = m ((c : Thread nD τ).loc main_arg2) :=
  W27_of_unwritten m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg3 (c : Dev nD) : W27 m ρ c (Proc.devRef .tc main_arg3) = m ((c : Thread nD τ).loc main_arg3) :=
  W27_of_unwritten m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg4 (c : Dev nD) : W27 m ρ c (Proc.devRef .tc main_arg4) = m ((c : Thread nD τ).loc main_arg4) :=
  W27_of_unwritten m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg5 (c : Dev nD) : W27 m ρ c (Proc.devRef .tc main_arg5) = m ((c : Thread nD τ).loc main_arg5) :=
  W27_of_unwritten m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg6 (c : Dev nD) : W27 m ρ c (Proc.devRef .tc main_arg6) = m ((c : Thread nD τ).loc main_arg6) :=
  W27_of_unwritten m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg7 (c : Dev nD) : W27 m ρ c (Proc.devRef .tc main_arg7) = m ((c : Thread nD τ).loc main_arg7) :=
  W27_of_unwritten m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg8 (c : Dev nD) : W27 m ρ c (Proc.devRef .tc main_arg8) = m ((c : Thread nD τ).loc main_arg8) :=
  W27_of_unwritten m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg9 (c : Dev nD) : W27 m ρ c (Proc.devRef .tc main_arg9) = m ((c : Thread nD τ).loc main_arg9) :=
  W27_of_unwritten m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg10 (c : Dev nD) : W27 m ρ c (Proc.devRef .tc main_arg10) = m ((c : Thread nD τ).loc main_arg10) :=
  W27_of_unwritten m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg11 (c : Dev nD) : W27 m ρ c (Proc.devRef .tc main_arg11) = m ((c : Thread nD τ).loc main_arg11) :=
  W27_of_unwritten m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg12 (c : Dev nD) : W27 m ρ c (Proc.devRef .tc main_arg12) = m ((c : Thread nD τ).loc main_arg12) :=
  W27_of_unwritten m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg13 (c : Dev nD) : W27 m ρ c (Proc.devRef .tc main_arg13) = m ((c : Thread nD τ).loc main_arg13) :=
  W27_of_unwritten m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg14 (c : Dev nD) : W27 m ρ c (Proc.devRef .tc main_arg14) = m ((c : Thread nD τ).loc main_arg14) :=
  W27_of_unwritten m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg15 (c : Dev nD) : W27 m ρ c (Proc.devRef .tc main_arg15) = m ((c : Thread nD τ).loc main_arg15) :=
  W27_of_unwritten m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg16 (c : Dev nD) : W27 m ρ c (Proc.devRef .tc main_arg16) = m ((c : Thread nD τ).loc main_arg16) :=
  W27_of_unwritten m ρ c main_arg16 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg17 (c : Dev nD) : W27 m ρ c (Proc.devRef .tc main_arg17) = m ((c : Thread nD τ).loc main_arg17) :=
  W27_of_unwritten m ρ c main_arg17 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg18 (c : Dev nD) : W27 m ρ c (Proc.devRef .tc main_arg18) = m ((c : Thread nD τ).loc main_arg18) :=
  W27_of_unwritten m ρ c main_arg18 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg19 (c : Dev nD) : W27 m ρ c (Proc.devRef .tc main_arg19) = m ((c : Thread nD τ).loc main_arg19) :=
  W27_of_unwritten m ρ c main_arg19 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg20 (c : Dev nD) : W27 m ρ c (Proc.devRef .tc main_arg20) = m ((c : Thread nD τ).loc main_arg20) :=
  W27_of_unwritten m ρ c main_arg20 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg21 (c : Dev nD) : W27 m ρ c (Proc.devRef .tc main_arg21) = m ((c : Thread nD τ).loc main_arg21) :=
  W27_of_unwritten m ρ c main_arg21 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg22 (c : Dev nD) : W27 m ρ c (Proc.devRef .tc main_arg22) = m ((c : Thread nD τ).loc main_arg22) :=
  W27_of_unwritten m ρ c main_arg22 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg23 (c : Dev nD) : W27 m ρ c (Proc.devRef .tc main_arg23) = m ((c : Thread nD τ).loc main_arg23) :=
  W27_of_unwritten m ρ c main_arg23 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg24 (c : Dev nD) : W27 m ρ c (Proc.devRef .tc main_arg24) = m ((c : Thread nD τ).loc main_arg24) :=
  W27_of_unwritten m ρ c main_arg24 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg25 (c : Dev nD) : W27 m ρ c (Proc.devRef .tc main_arg25) = m ((c : Thread nD τ).loc main_arg25) :=
  W27_of_unwritten m ρ c main_arg25 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg26 (c : Dev nD) : W27 m ρ c (Proc.devRef .tc main_arg26) = m ((c : Thread nD τ).loc main_arg26) :=
  W27_of_unwritten m ρ c main_arg26 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg27 (c : Dev nD) : W27 m ρ c (Proc.devRef .tc main_arg27) = m ((c : Thread nD τ).loc main_arg27) :=
  W27_of_unwritten m ρ c main_arg27 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

/-! ## The proof data family and the thread state -/

/-- The prefetched tables' admissible contents: no pipeline has a table. -/
abbrev adm : (p : Fin 9) → (pcfgs (F := F) p).Adm := fun p => (cfgs p).toPCfg_adm
/-- Every pipeline's proof data, each at its region's entry contents — a literal `match`, so that
    `Pipeline.pin pcfgs adm p` at a numeral reduces to the printed configuration. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V10 m ρ) c
  | ⟨4, _⟩ => fun c => dat4 (V13 m ρ) c
  | ⟨5, _⟩ => fun c => dat5 (V16 m ρ) c
  | ⟨6, _⟩ => fun c => dat6 (V19 m ρ) c
  | ⟨7, _⟩ => fun c => dat7 (V22 m ρ) c
  | ⟨8, _⟩ => fun c => dat8 (V25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host piece as a segment: its operations run over the unscoped references from the contents `W`, `R` riding
    along; it ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it beside the core owing nothing): every unscoped
    buffer at the last boundary's contents `W27`, the generator register at some state. -/
abbrev Tₙ (c : Dev nD) : sProp 𝕄 := iprop(StableHlo.held (c : Thread nD τ) (Pipeline.ucRefs τ sig) (W27 m ρ c) ∗ ∃ r, prngReg c r)

end Cert.KernelIdeal.Hand

end
-- ==== Proof.KIRegs0.lean ====
import proofs.«166951_j44444321579084_2_alg».proof.Proof.KIFold
import Idealize.ShloMosaic.Lib.Pipeline.RegionsLoop

/-! # Region 0 (custom_call 0) as a segment of @main

Entered with every unscoped buffer at `W1`, left with them at `W2`. At the entry the call's arrays are split out
of the unscoped buffers at the proof data's entry contents (`arrays_of_unscopedBufs`); at the exit they are put back at
the exit contents (`unscopedBufs_of_arrays`, by `hF0` and `hrest0`). The generator register goes into the
region's invariant and comes back; nothing is owed; the kernel has no semaphore of its own. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may unfold
-- plain definitions in a metavariable's type
set_option backward.isDefEq.respectTransparency.types false in
/-- Region 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegs1.lean ====
import proofs.«166951_j44444321579084_2_alg».proof.Proof.KIFold
import Idealize.ShloMosaic.Lib.Pipeline.RegionsLoop

/-! # Region 1 (custom_call 1) as a segment of @main

Entered with every unscoped buffer at `W3`, left with them at `W4`. At the entry the call's arrays are split out
of the unscoped buffers at the proof data's entry contents (`arrays_of_unscopedBufs`); at the exit they are put back at
the exit contents (`unscopedBufs_of_arrays`, by `hF1` and `hrest1`). The generator register goes into the
region's invariant and comes back; nothing is owed; the kernel has no semaphore of its own. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may unfold
-- plain definitions in a metavariable's type
set_option backward.isDefEq.respectTransparency.types false in
/-- Region 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegs2.lean ====
import proofs.«166951_j44444321579084_2_alg».proof.Proof.KIFold
import Idealize.ShloMosaic.Lib.Pipeline.RegionsLoop

/-! # Region 2 (custom_call 2) as a segment of @main

Entered with every unscoped buffer at `W7`, left with them at `W8`. At the entry the call's arrays are split out
of the unscoped buffers at the proof data's entry contents (`arrays_of_unscopedBufs`); at the exit they are put back at
the exit contents (`unscopedBufs_of_arrays`, by `hF2` and `hrest2`). The generator register goes into the
region's invariant and comes back; nothing is owed; the kernel has no semaphore of its own. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may unfold
-- plain definitions in a metavariable's type
set_option backward.isDefEq.respectTransparency.types false in
/-- Region 2 over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegs3.lean ====
import proofs.«166951_j44444321579084_2_alg».proof.Proof.KIFold
import Idealize.ShloMosaic.Lib.Pipeline.RegionsLoop

/-! # Region 3 (custom_call 3) as a segment of @main

Entered with every unscoped buffer at `W10`, left with them at `W11`. At the entry the call's arrays are split out
of the unscoped buffers at the proof data's entry contents (`arrays_of_unscopedBufs`); at the exit they are put back at
the exit contents (`unscopedBufs_of_arrays`, by `hF3` and `hrest3`). The generator register goes into the
region's invariant and comes back; nothing is owed; the kernel has no semaphore of its own. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may unfold
-- plain definitions in a metavariable's type
set_option backward.isDefEq.respectTransparency.types false in
/-- Region 3 over the thread state. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIValueG8.lean ====
import proofs.«166951_j44444321579084_2_alg».proof.KernelIdeal
import Idealize.ShloMosaic.Lib.ValueIdx
import Idealize.ShloMosaic.PureOps.Ideal.Laws

/-!
# The gated edge head at the ideal values, index by index

What the last kernel call computes for edge `r`, as a function of row `r` of the two end-point feature arrays
(`src`, `tgt`, 128 features) and of the edge attributes (`ea`, 32 features) and of twelve constant operands, already in
the layout the call is handed (weights transposed, biases as one row). Over the extended reals: every matrix product
is a plain finite sum, the changes of number format are the identity.

* the gate's hidden layer: `relu (src_r · gw1a + tgt_r · gw1b + gb1)`, 128 numbers;
* the gate's logit `hidden · gw2 + gb2` and the gate `g = logistic logit`, one number;
* the mix `src_r · g + tgt_r · (1 - g)`, 128 numbers;
* three dense layers: `relu (mix · mw1a + ea_r · mw1b + mb1)` (128), `relu (· mw2 + mb2)` (64), `· mw3 + mb3` (2);
* the result is stored transposed: entry `(p, r)` of a `2 × 500000` array.
-/

noncomputable section

namespace Cert.KernelIdeal.Hand

open Cert.KernelIdeal Idealize.ShloMosaic Idealize.ShloMosaic.ValueIdx

/-- The contents of an array of shape `S` and element type `e` at the ideal values. -/
abbrev Arr8 (S : Shape) (e : EltTy) : Type := (⟨S, e⟩ : BufTy).Contents (Elt Ideal)

/-- The word `+0.0` and the word `1.0` of the f32 format, read at the ideal values. -/
abbrev zero8 : EReal := Ideal.ofBits .f32 0x00000000#32
abbrev one8 : EReal := Ideal.ofBits .f32 0x3F800000#32

section
variable (src tgt : Arr8 S500000x128 .f32) (ea : Arr8 S500000x32 .f32)
  (gw1a gw1b : Arr8 S128x128 .bf16) (gb1r : Arr8 S1x128 .f32) (gw2t : Arr8 S128x1 .bf16) (gb2r : Arr8 S1x1 .f32)
  (mw1a : Arr8 S128x128 .bf16) (mw1b : Arr8 S32x128 .bf16) (mb1r : Arr8 S1x128 .f32)
  (mw2t : Arr8 S128x64 .bf16) (mb2r : Arr8 S1x64 .f32) (mw3t : Arr8 S64x2 .bf16) (mb3r : Arr8 S1x2 .f32)

/-- The gate's hidden layer for edge `r`, feature `k`: the rectified sum of the two end points' products and the bias. -/
def gateHidden8 (r : Fin 500000) (k : Fin 128) : EReal :=
  max ((∑ m : Fin 128, src (ix2 r m) * gw1a (ix2 m k)) + (∑ m : Fin 128, tgt (ix2 r m) * gw1b (ix2 m k))
    + gb1r (ix2 (0 : Fin 1) k)) zero8

/-- The gate's logit for edge `r`. -/
def gateLogit8 (r : Fin 500000) : EReal :=
  (∑ k : Fin 128, gateHidden8 src tgt gw1a gw1b gb1r r k * gw2t (ix2 k (0 : Fin 1))) + gb2r (ix2 (0 : Fin 1) (0 : Fin 1))

/-- The gate for edge `r`: the logistic function of the logit. -/
def gate8 (r : Fin 500000) : EReal :=
  Ideal.logistic (gateLogit8 src tgt gw1a gw1b gb1r gw2t gb2r r)

/-- The gated mix of the two end points' features for edge `r`, feature `k`. -/
def mix8 (r : Fin 500000) (k : Fin 128) : EReal :=
  src (ix2 r k) * gate8 src tgt gw1a gw1b gb1r gw2t gb2r r
    + tgt (ix2 r k) * (one8 - gate8 src tgt gw1a gw1b gb1r gw2t gb2r r)

/-- The first dense layer: the mix and the edge attributes through their two weight blocks, the bias, rectified. -/
def dense1_8 (r : Fin 500000) (k : Fin 128) : EReal :=
  max ((∑ m : Fin 128, mix8 src tgt gw1a gw1b gb1r gw2t gb2r r m * mw1a (ix2 m k)) + (∑ m : Fin 32, ea (ix2 r m) * mw1b (ix2 m k))
    + mb1r (ix2 (0 : Fin 1) k)) zero8

/-- The second dense layer, 64 features, rectified. -/
def dense2_8 (r : Fin 500000) (k : Fin 64) : EReal :=
  max ((∑ m : Fin 128, dense1_8 src tgt ea gw1a gw1b gb1r gw2t gb2r mw1a mw1b mb1r r m * mw2t (ix2 m k))
    + mb2r (ix2 (0 : Fin 1) k)) zero8

/-- The third dense layer: the two output numbers of edge `r`. -/
def dense3_8 (r : Fin 500000) (p : Fin 2) : EReal :=
  (∑ m : Fin 64, dense2_8 src tgt ea gw1a gw1b gb1r gw2t gb2r mw1a mw1b mb1r mw2t mb2r r m * mw3t (ix2 m p))
    + mb3r (ix2 (0 : Fin 1) p)

/-- The call's result array: entry `(p, r)` is output `p` of edge `r`. -/
def G8 : Arr8 S2x500000 .f32 :=
  fun j => dense3_8 src tgt ea gw1a gw1b gb1r gw2t gb2r mw1a mw1b mb1r mw2t mb2r mw3t mb3r (j 1) (j 0)

end

end Cert.KernelIdeal.Hand

end
-- ==== Proof.KIValueR8.lean ====
import proofs.«166951_j44444321579084_2_alg».proof.Proof.KIFrameR8
import proofs.«166951_j44444321579084_2_alg».proof.Proof.KIValueG8
import Idealize.ShloMosaic.Lib.Pipeline.Value
import Idealize.ShloMosaic.Lib.ValueIdx
import Idealize.ShloMosaic.Lib.ValueLayout
import Idealize.ShloMosaic.PureOps.Ideal.Laws

/-!
# The gated edge head's kernel call at the ideal values: the result's buffer, row by row

Over the extended reals a matrix product is a finite sum, so entry `(p, q)` of what the body stores is a function of
ROW `q` of the three edge blocks (and of the constants): the gate, the mix and the three dense layers of that one
edge. Hence the columns of the result's buffer that are written back — those inside the array — do not read the rows
of the edge blocks past the arrays' end, whose contents nothing names; and the body obligation can describe the
result's buffer as well.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## Reading the operations at an index -/

/-- The index functions of a plain `M × K` by `K × N` product: the left factor is read at (row, inner), the right
    at (inner, column). -/
theorem plainIdx (M K N : ℕ) (j : (⟨2, ![M, N]⟩ : Shape).Idx) (q : (DotDims.plain M K N).contr.Idx) :
    ((DotDims.plain M K N).lhsIdx j q 0).val = (j 0).val ∧ ((DotDims.plain M K N).lhsIdx j q 1).val = (q ⟨0, Nat.zero_lt_one⟩).val
    ∧ ((DotDims.plain M K N).rhsIdx j q 0).val = (q ⟨0, Nat.zero_lt_one⟩).val ∧ ((DotDims.plain M K N).rhsIdx j q 1).val = (j 1).val :=
  ⟨rfl, rfl, rfl, rfl⟩

/-- A plain matrix product into the zero accumulator, read at an index: the sum over the inner axis. -/
theorem matmul_plain_apply {M K N : ℕ} {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  obtain ⟨h1, h2, h3, h4⟩ := plainIdx M K N (ix2 r c) ((contrEquiv1 (DotDims.plain M K N) K rfl rfl).symm k)
  have el : (DotDims.plain M K N).lhsIdx (ix2 r c) ((contrEquiv1 (DotDims.plain M K N) K rfl rfl).symm k) = ix2 r k :=
    funext fun a => Fin.ext (by
      match a with
      | ⟨0, _⟩ => exact h1
      | ⟨1, _⟩ => exact h2.trans hk)
  have er : (DotDims.plain M K N).rhsIdx (ix2 r c) ((contrEquiv1 (DotDims.plain M K N) K rfl rfl).symm k) = ix2 k c :=
    funext fun a => Fin.ext (by
      match a with
      | ⟨0, _⟩ => exact h3.trans hk
      | ⟨1, _⟩ => exact h4)
  rw [el, er]

/-- The five products of the body, each at an index (the printed dimension records are the plain ones). -/
theorem mm_128_128 {φ₁ φ₂ : FTy} (lhs : FVec Ideal S4096x128 φ₁) (rhs : FVec Ideal S128x128 φ₂) (r : Fin 4096) (c : Fin 128) :
    matmul dot_S4096x128_S128x128_S4096x128_1_0_0_1_n_n none lhs rhs (constant S4096x128 .f32 0x00000000#32) (ix2 r c)
      = ∑ k : Fin 128, lhs (ix2 r k) * rhs (ix2 k c) := matmul_plain_apply lhs rhs r c
theorem mm_32_128 {φ₁ φ₂ : FTy} (lhs : FVec Ideal S4096x32 φ₁) (rhs : FVec Ideal S32x128 φ₂) (r : Fin 4096) (c : Fin 128) :
    matmul dot_S4096x32_S32x128_S4096x128_1_0_0_1_n_n none lhs rhs (constant S4096x128 .f32 0x00000000#32) (ix2 r c)
      = ∑ k : Fin 32, lhs (ix2 r k) * rhs (ix2 k c) := matmul_plain_apply lhs rhs r c
theorem mm_128_1 {φ₁ φ₂ : FTy} (lhs : FVec Ideal S4096x128 φ₁) (rhs : FVec Ideal S128x1 φ₂) (r : Fin 4096) (c : Fin 1) :
    matmul dot_S4096x128_S128x1_S4096x1_1_0_0_1_n_n none lhs rhs (constant S4096x1 .f32 0x00000000#32) (ix2 r c)
      = ∑ k : Fin 128, lhs (ix2 r k) * rhs (ix2 k c) := matmul_plain_apply lhs rhs r c
theorem mm_128_64 {φ₁ φ₂ : FTy} (lhs : FVec Ideal S4096x128 φ₁) (rhs : FVec Ideal S128x64 φ₂) (r : Fin 4096) (c : Fin 64) :
    matmul dot_S4096x128_S128x64_S4096x64_1_0_0_1_n_n none lhs rhs (constant S4096x64 .f32 0x00000000#32) (ix2 r c)
      = ∑ k : Fin 128, lhs (ix2 r k) * rhs (ix2 k c) := matmul_plain_apply lhs rhs r c
theorem mm_64_2 {φ₁ φ₂ : FTy} (lhs : FVec Ideal S4096x64 φ₁) (rhs : FVec Ideal S64x2 φ₂) (r : Fin 4096) (c : Fin 2) :
    matmul dot_S4096x64_S64x2_S4096x2_1_0_0_1_n_n none lhs rhs (constant S4096x2 .f32 0x00000000#32) (ix2 r c)
      = ∑ k : Fin 64, lhs (ix2 r k) * rhs (ix2 k c) := matmul_plain_apply lhs rhs r c

/-- A column broadcast along the rows' features reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic function of a vector, lane by lane. -/
theorem logistic_apply {s : Shape} {φ : FTy} (x : FVec Ideal s φ) (i : s.Idx) : logistic x i = Ideal.logistic (x i) := rfl

/-! ## One edge at a time: the body's arithmetic as functions of a row -/

section Rows
variable (a0 a1 : Fin 128 → EReal) (u : Fin 128 → EReal) (a2 : Fin 32 → EReal)
  (c3 c4 : Vec Ideal S128x128 .bf16) (c5 : Vec Ideal S1x128 .f32) (c6 : Vec Ideal S128x1 .bf16) (c7 : Vec Ideal S1x1 .f32)
  (c8 : Vec Ideal S128x128 .bf16) (c9 : Vec Ideal S32x128 .bf16) (c10 : Vec Ideal S1x128 .f32) (c11 : Vec Ideal S128x64 .bf16) (c12 : Vec Ideal S1x64 .f32) (c13 : Vec Ideal S64x2 .bf16) (c14 : Vec Ideal S1x2 .f32)

/-- The gate's hidden layer from one row of each end point's features. -/
def rowHidden (k : Fin 128) : EReal :=
  max ((∑ m : Fin 128, a0 m * c3 (ix2 m k)) + (∑ m : Fin 128, a1 m * c4 (ix2 m k)) + c5 (ix2 (0 : Fin 1) k)) zero8
/-- The gate: the logistic function of the hidden layer's weighted sum plus the bias. -/
def rowGate : EReal :=
  Ideal.logistic ((∑ k : Fin 128, rowHidden a0 a1 c3 c4 c5 k * c6 (ix2 k (0 : Fin 1))) + c7 (ix2 (0 : Fin 1) (0 : Fin 1)))
/-- The gated mix of the two rows. -/
def rowMix (k : Fin 128) : EReal :=
  a0 k * rowGate a0 a1 c3 c4 c5 c6 c7 + a1 k * (one8 - rowGate a0 a1 c3 c4 c5 c6 c7)
/-- The three dense layers from a mixed row `u` and a row of edge attributes. -/
def rowD1 (k : Fin 128) : EReal :=
  max ((∑ m : Fin 128, u m * c8 (ix2 m k)) + (∑ m : Fin 32, a2 m * c9 (ix2 m k)) + c10 (ix2 (0 : Fin 1) k)) zero8
def rowD2 (k : Fin 64) : EReal :=
  max ((∑ m : Fin 128, rowD1 u a2 c8 c9 c10 m * c11 (ix2 m k)) + c12 (ix2 (0 : Fin 1) k)) zero8
def rowD3 (p : Fin 2) : EReal :=
  (∑ m : Fin 64, rowD2 u a2 c8 c9 c10 c11 c12 m * c13 (ix2 m p)) + c14 (ix2 (0 : Fin 1) p)
end Rows

theorem hz8_2 : (![0, 0] : Fin 2 → Nat) = fun _ => 0 := funext fun a => by fin_cases a <;> rfl

/-- The format change of the edge attributes is the identity at the ideal values. -/
theorem pay8_2_apply (x2 : Vec Ideal S4096x32 .f32) (i : S4096x32.Idx) : k8_pay2 x2 i = x2 i := rfl

/-- The first part of the body at `(r, k)`: the gated mix of rows `r` of the two feature blocks. -/
theorem pay8_3_apply (x0 x1 : Vec Ideal S4096x128 .f32) (c3 c4 : Vec Ideal S128x128 .bf16) (c5 : Vec Ideal S1x128 .f32) (c6 : Vec Ideal S128x1 .bf16) (c7 : Vec Ideal S1x1 .f32) (r : Fin 4096) (k : Fin 128) :
    k8_pay3 x0 x1 c3 c4 c5 c6 c7 (ix2 r k) = rowMix (fun m => x0 (ix2 r m)) (fun m => x1 (ix2 r m)) c3 c4 c5 c6 c7 k := by
  unfold k8_pay3
  simp only [shapeCast_self, truncf_apply, addf_apply, mulf_apply, subf_apply, maximumf_apply, broadcast_apply, logistic_apply,
    mm_128_128, mm_128_1, broadcastTo_1b_ab_apply, broadcastTo_a1_ab_apply]
  rfl

/-- The stored value at `(p, q)`: the three dense layers of row `q` of the mixed block and of the attributes' block,
    output `p` (the store is of the transpose). -/
theorem pay8_1_apply (v7 : FVec Ideal S4096x32 .bf16) (v37 : FVec Ideal S4096x128 .bf16) (c8 : Vec Ideal S128x128 .bf16) (c9 : Vec Ideal S32x128 .bf16) (c10 : Vec Ideal S1x128 .f32) (c11 : Vec Ideal S128x64 .bf16) (c12 : Vec Ideal S1x64 .f32) (c13 : Vec Ideal S64x2 .bf16) (c14 : Vec Ideal S1x2 .f32) (p : Fin 2) (q : Fin 4096) :
    k8_pay1 v7 v37 c8 c9 c10 c11 c12 c13 c14 (ix2 p q)
      = rowD3 (fun m => v37 (ix2 q m)) (fun m => v7 (ix2 q m)) c8 c9 c10 c11 c12 c13 c14 p := by
  unfold k8_pay1
  refine (transpose_ix2_apply _ _ p q).trans ?_
  simp only [shapeCast_self, truncf_apply, addf_apply, mulf_apply, subf_apply, maximumf_apply, broadcast_apply,
    mm_128_128, mm_32_128, mm_128_64, mm_64_2, broadcastTo_1b_ab_apply]
  rfl

/-- What the body leaves in the result's buffer, at `(p, q)`: a function of rows `q` of the three edge blocks. -/
theorem out8_15_apply (x0 : Vec Ideal S4096x128 .f32) (x1 : Vec Ideal S4096x128 .f32) (x2 : Vec Ideal S4096x32 .f32) (x3 : Vec Ideal S128x128 .bf16) (x4 : Vec Ideal S128x128 .bf16) (x5 : Vec Ideal S1x128 .f32) (x6 : Vec Ideal S128x1 .bf16) (x7 : Vec Ideal S1x1 .f32) (x8 : Vec Ideal S128x128 .bf16) (x9 : Vec Ideal S32x128 .bf16) (x10 : Vec Ideal S1x128 .f32) (x11 : Vec Ideal S128x64 .bf16) (x12 : Vec Ideal S1x64 .f32) (x13 : Vec Ideal S64x2 .bf16) (x14 : Vec Ideal S1x2 .f32) (p : Fin 2) (q : Fin 4096) :
    out8_15 x0 x1 x2 x3 x4 x5 x6 x7 x8 x9 x10 x11 x12 x13 x14 (ix2 p q)
      = rowD3 (rowMix (fun m => x0 (ix2 q m)) (fun m => x1 (ix2 q m)) x3 x4 x5 x6 x7) (fun m => x2 (ix2 q m)) x8 x9 x10 x11 x12 x13 x14 p := by
  unfold out8_15
  rw [View.canon_unit_zero hz8_2]
  simp only [View.ld_unit_zero (S := S4096x128) hz8_2, View.ld_unit_zero (S := S4096x32) hz8_2, View.ld_unit_zero (S := S128x128) hz8_2, View.ld_unit_zero (S := S1x128) hz8_2, View.ld_unit_zero (S := S128x1) hz8_2, View.ld_unit_zero (S := S1x1) hz8_2, View.ld_unit_zero (S := S32x128) hz8_2, View.ld_unit_zero (S := S128x64) hz8_2, View.ld_unit_zero (S := S1x64) hz8_2, View.ld_unit_zero (S := S64x2) hz8_2, View.ld_unit_zero (S := S1x2) hz8_2]
  rw [pay8_1_apply]
  simp only [pay8_2_apply, pay8_3_apply]

/-! ## Row by row: the result's columns inside the array do not read the edge blocks' rows past it -/

/-- Two settings of the three edge blocks that agree on the first `n` rows give the same result in the first `n`
    columns. -/
theorem out8_15_rows (n : ℕ) (x0 x0' x1 x1' : Vec Ideal S4096x128 .f32) (x2 x2' : Vec Ideal S4096x32 .f32) (x3 : Vec Ideal S128x128 .bf16) (x4 : Vec Ideal S128x128 .bf16) (x5 : Vec Ideal S1x128 .f32) (x6 : Vec Ideal S128x1 .bf16) (x7 : Vec Ideal S1x1 .f32) (x8 : Vec Ideal S128x128 .bf16) (x9 : Vec Ideal S32x128 .bf16) (x10 : Vec Ideal S1x128 .f32) (x11 : Vec Ideal S128x64 .bf16) (x12 : Vec Ideal S1x64 .f32) (x13 : Vec Ideal S64x2 .bf16) (x14 : Vec Ideal S1x2 .f32)
    (h0 : ∀ (r : Fin 4096) (m : Fin 128), r.val < n → x0 (ix2 r m) = x0' (ix2 r m))
    (h1 : ∀ (r : Fin 4096) (m : Fin 128), r.val < n → x1 (ix2 r m) = x1' (ix2 r m))
    (h2 : ∀ (r : Fin 4096) (m : Fin 32), r.val < n → x2 (ix2 r m) = x2' (ix2 r m))
    (p : Fin 2) (q : Fin 4096) (hq : q.val < n) :
    out8_15 x0 x1 x2 x3 x4 x5 x6 x7 x8 x9 x10 x11 x12 x13 x14 (ix2 p q) = out8_15 x0' x1' x2' x3 x4 x5 x6 x7 x8 x9 x10 x11 x12 x13 x14 (ix2 p q) := by
  rw [out8_15_apply, out8_15_apply,
    show (fun m => x0 (ix2 q m)) = fun m => x0' (ix2 q m) from funext fun m => h0 q m hq,
    show (fun m => x1 (ix2 q m)) = fun m => x1' (ix2 q m) from funext fun m => h1 q m hq,
    show (fun m => x2 (ix2 q m)) = fun m => x2' (ix2 q m) from funext fun m => h2 q m hq]

/-- At every point the three edge-indexed inputs are cut to as many rows as the result is cut to columns, and on
    their other axis not at all. -/
theorem ext8 : ∀ t : Fin cfg8.N,
    (cfg8.win 0).xsize (cfg8.grid.coords t) 0 = (cfg8.win 15).xsize (cfg8.grid.coords t) 1 ∧ (cfg8.win 0).xsize (cfg8.grid.coords t) 1 = 128
    ∧ (cfg8.win 1).xsize (cfg8.grid.coords t) 0 = (cfg8.win 15).xsize (cfg8.grid.coords t) 1 ∧ (cfg8.win 1).xsize (cfg8.grid.coords t) 1 = 128
    ∧ (cfg8.win 2).xsize (cfg8.grid.coords t) 0 = (cfg8.win 15).xsize (cfg8.grid.coords t) 1 ∧ (cfg8.win 2).xsize (cfg8.grid.coords t) 1 = 32 :=
  (by decide +kernel : ∀ t : Fin grid8.N,
    win8_0.xsize (grid8.coords t) 0 = win8_15.xsize (grid8.coords t) 1 ∧ win8_0.xsize (grid8.coords t) 1 = 128
    ∧ win8_1.xsize (grid8.coords t) 0 = win8_15.xsize (grid8.coords t) 1 ∧ win8_1.xsize (grid8.coords t) 1 = 128
    ∧ win8_2.xsize (grid8.coords t) 0 = win8_15.xsize (grid8.coords t) 1 ∧ win8_2.xsize (grid8.coords t) 1 = 32)

/-- Contents that differ only off the part a fetch moves fill alike there. -/
theorem fill_eq_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- On the rows the result keeps, edge-indexed window 0's buffer holds its block whatever filled the rest. -/
theorem fill_rows_0 (t : Fin cfg8.N) (d d' : (cfg8.win 0).block.Idx → Elt Ideal (cfg8.win 0).elt)
    (g : ((cfg8.win 0).xblock (cfg8.grid.coords t)).Idx → Elt Ideal (cfg8.win 0).elt) (r : Fin 4096) (m : Fin 128)
    (hr : r.val < (cfg8.win 15).xsize (cfg8.grid.coords t) 1) :
    (cfg8.win 0).fill (cfg8.grid.coords t) d g (ix2 r m) = (cfg8.win 0).fill (cfg8.grid.coords t) d' g (ix2 r m) := by
  have e := ext8 t
  refine fill_eq_of_moved _ _ _ _ _ _ (((cfg8.win 0).moved_iff _ _).mpr fun a => ?_)
  match a with
  | ⟨0, _⟩ => show r.val < (cfg8.win 0).xsize (cfg8.grid.coords t) 0; rw [e.1]; exact hr
  | ⟨1, _⟩ => show m.val < (cfg8.win 0).xsize (cfg8.grid.coords t) 1; rw [e.2.1]; exact m.isLt

/-- On the rows the result keeps, edge-indexed window 1's buffer holds its block whatever filled the rest. -/
theorem fill_rows_1 (t : Fin cfg8.N) (d d' : (cfg8.win 1).block.Idx → Elt Ideal (cfg8.win 1).elt)
    (g : ((cfg8.win 1).xblock (cfg8.grid.coords t)).Idx → Elt Ideal (cfg8.win 1).elt) (r : Fin 4096) (m : Fin 128)
    (hr : r.val < (cfg8.win 15).xsize (cfg8.grid.coords t) 1) :
    (cfg8.win 1).fill (cfg8.grid.coords t) d g (ix2 r m) = (cfg8.win 1).fill (cfg8.grid.coords t) d' g (ix2 r m) := by
  have e := ext8 t
  refine fill_eq_of_moved _ _ _ _ _ _ (((cfg8.win 1).moved_iff _ _).mpr fun a => ?_)
  match a with
  | ⟨0, _⟩ => show r.val < (cfg8.win 1).xsize (cfg8.grid.coords t) 0; rw [e.2.2.1]; exact hr
  | ⟨1, _⟩ => show m.val < (cfg8.win 1).xsize (cfg8.grid.coords t) 1; rw [e.2.2.2.1]; exact m.isLt

/-- On the rows the result keeps, edge-indexed window 2's buffer holds its block whatever filled the rest. -/
theorem fill_rows_2 (t : Fin cfg8.N) (d d' : (cfg8.win 2).block.Idx → Elt Ideal (cfg8.win 2).elt)
    (g : ((cfg8.win 2).xblock (cfg8.grid.coords t)).Idx → Elt Ideal (cfg8.win 2).elt) (r : Fin 4096) (m : Fin 32)
    (hr : r.val < (cfg8.win 15).xsize (cfg8.grid.coords t) 1) :
    (cfg8.win 2).fill (cfg8.grid.coords t) d g (ix2 r m) = (cfg8.win 2).fill (cfg8.grid.coords t) d' g (ix2 r m) := by
  have e := ext8 t
  refine fill_eq_of_moved _ _ _ _ _ _ (((cfg8.win 2).moved_iff _ _).mpr fun a => ?_)
  match a with
  | ⟨0, _⟩ => show r.val < (cfg8.win 2).xsize (cfg8.grid.coords t) 0; rw [e.2.2.2.2.1]; exact hr
  | ⟨1, _⟩ => show m.val < (cfg8.win 2).xsize (cfg8.grid.coords t) 1; rw [e.2.2.2.2.2]; exact m.isLt

/-- So the part of the result's buffer that is written back does not depend on what filled the edge blocks' buffers
    past the arrays' end. -/
theorem out8_15_cut (t : Fin cfg8.N)
    (g0 : ((cfg8.win 0).xblock (cfg8.grid.coords t)).Idx → Elt Ideal (cfg8.win 0).elt) (d0 d0' : (cfg8.win 0).block.Idx → Elt Ideal (cfg8.win 0).elt)
    (g1 : ((cfg8.win 1).xblock (cfg8.grid.coords t)).Idx → Elt Ideal (cfg8.win 1).elt) (d1 d1' : (cfg8.win 1).block.Idx → Elt Ideal (cfg8.win 1).elt)
    (g2 : ((cfg8.win 2).xblock (cfg8.grid.coords t)).Idx → Elt Ideal (cfg8.win 2).elt) (d2 d2' : (cfg8.win 2).block.Idx → Elt Ideal (cfg8.win 2).elt)
    (x3 : Vec Ideal S128x128 .bf16) (x4 : Vec Ideal S128x128 .bf16) (x5 : Vec Ideal S1x128 .f32) (x6 : Vec Ideal S128x1 .bf16) (x7 : Vec Ideal S1x1 .f32) (x8 : Vec Ideal S128x128 .bf16) (x9 : Vec Ideal S32x128 .bf16) (x10 : Vec Ideal S1x128 .f32) (x11 : Vec Ideal S128x64 .bf16) (x12 : Vec Ideal S1x64 .f32) (x13 : Vec Ideal S64x2 .bf16) (x14 : Vec Ideal S1x2 .f32) :
    (cfg8.win 15).cut (cfg8.grid.coords t) (out8_15 ((cfg8.win 0).fill (cfg8.grid.coords t) d0 g0) ((cfg8.win 1).fill (cfg8.grid.coords t) d1 g1) ((cfg8.win 2).fill (cfg8.grid.coords t) d2 g2) x3 x4 x5 x6 x7 x8 x9 x10 x11 x12 x13 x14)
      = (cfg8.win 15).cut (cfg8.grid.coords t) (out8_15 ((cfg8.win 0).fill (cfg8.grid.coords t) d0' g0) ((cfg8.win 1).fill (cfg8.grid.coords t) d1' g1) ((cfg8.win 2).fill (cfg8.grid.coords t) d2' g2) x3 x4 x5 x6 x7 x8 x9 x10 x11 x12 x13 x14) := by
  funext j
  have hq : (j 1).val < (cfg8.win 15).xsize (cfg8.grid.coords t) 1 := (j 1).isLt
  have hq' : (j 1).val < 4096 := lt_of_lt_of_le hq ((cfg8.win 15).xsize_le (cfg8.grid.coords t) 1)
  have hp' : (j 0).val < 2 := lt_of_lt_of_le (j 0).isLt ((cfg8.win 15).xsize_le (cfg8.grid.coords t) 0)
  have e : (cfg8.win 15).xinj (cfg8.grid.coords t) j = ix2 (⟨(j 0).val, hp'⟩ : Fin 2) (⟨(j 1).val, hq'⟩ : Fin 4096) :=
    funext fun a => by match a with | ⟨0, _⟩ => rfl | ⟨1, _⟩ => rfl
  have key := out8_15_rows ((cfg8.win 15).xsize (cfg8.grid.coords t) 1)
    ((cfg8.win 0).fill (cfg8.grid.coords t) d0 g0) ((cfg8.win 0).fill (cfg8.grid.coords t) d0' g0) ((cfg8.win 1).fill (cfg8.grid.coords t) d1 g1) ((cfg8.win 1).fill (cfg8.grid.coords t) d1' g1) ((cfg8.win 2).fill (cfg8.grid.coords t) d2 g2) ((cfg8.win 2).fill (cfg8.grid.coords t) d2' g2) x3 x4 x5 x6 x7 x8 x9 x10 x11 x12 x13 x14
    (fun r m hr => fill_rows_0 t d0 d0' g0 r m hr) (fun r m hr => fill_rows_1 t d1 d1' g1 r m hr) (fun r m hr => fill_rows_2 t d2 d2' g2 r m hr)
    ⟨(j 0).val, hp'⟩ ⟨(j 1).val, hq'⟩ hq
  rw [← e] at key
  exact key

/-! ## The body obligation that describes the result's buffer, at the ideal values -/

-- the TensorCore's buffer contents when the call is entered
variable (V : (c : Dev nD) → (b : Ref sig .tc) → Buf (Elt Ideal) ((c : Thread nD τ).loc b))

local notation "𝕄ᵢ" => MT nD τ sig Unit (Elt Ideal) ℕ (UR sig nD τ) ℕ

/-- Whatever filled the edge blocks' buffers past the arrays' end, the result's buffer after the body agrees, on the part
    written back, with what the proof data names. -/
theorem keep8_15 (c : Dev nD) (t : Fin cfg8.N) (d0 : (cfg8.win 0).block.Idx → Elt Ideal (cfg8.win 0).elt) (d1 : (cfg8.win 1).block.Idx → Elt Ideal (cfg8.win 1).elt) (d2 : (cfg8.win 2).block.Idx → Elt Ideal (cfg8.win 2).elt) :
    (cfg8.win 15).fill (cfg8.grid.coords t) (out8_15 ((cfg8.win 0).fill (cfg8.grid.coords t) d0 (iblk8 V c 0 t)) ((cfg8.win 1).fill (cfg8.grid.coords t) d1 (iblk8 V c 1 t)) ((cfg8.win 2).fill (cfg8.grid.coords t) d2 (iblk8 V c 2 t)) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t))
        ((cfg8.win 15).cut (cfg8.grid.coords t) ((dat8 (F := Ideal) V c).after 15 t))
      = out8_15 ((cfg8.win 0).fill (cfg8.grid.coords t) d0 (iblk8 V c 0 t)) ((cfg8.win 1).fill (cfg8.grid.coords t) d1 (iblk8 V c 1 t)) ((cfg8.win 2).fill (cfg8.grid.coords t) d2 (iblk8 V c 2 t)) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) := by
  rw [after8_15]; unfold xin8_0 xin8_1 xin8_2
  exact (cfg8.win 15).fill_congr_cut _ (out8_15_cut t _ _ _ _ _ _ _ _ _ _ _ _ _ _ _ _ _ _ _ _ _)

/-- What the body is called with at point `t`, -/
def bodyPre8I (c : Dev nD) (t : Fin cfg8.N) : sProp 𝕄ᵢ :=
  iprop((dat8 (F := Ideal) V c).Φ t.castSucc ∗ (dat8 (F := Ideal) V c).owesAt () t.castSucc
    ∗ (∃ d, owns (c : Thread nD τ) (st8_0 t) fullShare ((dat8 (F := Ideal) V c).before 0 t d))
    ∗ (∃ d, owns (c : Thread nD τ) (st8_1 t) fullShare ((dat8 (F := Ideal) V c).before 1 t d))
    ∗ (∃ d, owns (c : Thread nD τ) (st8_2 t) fullShare ((dat8 (F := Ideal) V c).before 2 t d))
    ∗ (∃ d, owns (c : Thread nD τ) (st8_3 t) fullShare ((dat8 (F := Ideal) V c).before 3 t d))
    ∗ (∃ d, owns (c : Thread nD τ) (st8_4 t) fullShare ((dat8 (F := Ideal) V c).before 4 t d))
    ∗ (∃ d, owns (c : Thread nD τ) (st8_5 t) fullShare ((dat8 (F := Ideal) V c).before 5 t d))
    ∗ (∃ d, owns (c : Thread nD τ) (st8_6 t) fullShare ((dat8 (F := Ideal) V c).before 6 t d))
    ∗ (∃ d, owns (c : Thread nD τ) (st8_7 t) fullShare ((dat8 (F := Ideal) V c).before 7 t d))
    ∗ (∃ d, owns (c : Thread nD τ) (st8_8 t) fullShare ((dat8 (F := Ideal) V c).before 8 t d))
    ∗ (∃ d, owns (c : Thread nD τ) (st8_9 t) fullShare ((dat8 (F := Ideal) V c).before 9 t d))
    ∗ (∃ d, owns (c : Thread nD τ) (st8_10 t) fullShare ((dat8 (F := Ideal) V c).before 10 t d))
    ∗ (∃ d, owns (c : Thread nD τ) (st8_11 t) fullShare ((dat8 (F := Ideal) V c).before 11 t d))
    ∗ (∃ d, owns (c : Thread nD τ) (st8_12 t) fullShare ((dat8 (F := Ideal) V c).before 12 t d))
    ∗ (∃ d, owns (c : Thread nD τ) (st8_13 t) fullShare ((dat8 (F := Ideal) V c).before 13 t d))
    ∗ (∃ d, owns (c : Thread nD τ) (st8_14 t) fullShare ((dat8 (F := Ideal) V c).before 14 t d))
    ∗ (∃ d, owns (c : Thread nD τ) (st8_15 t) fullShare ((dat8 (F := Ideal) V c).before 15 t d)))

/-- and what it returns: the cut windows' buffers described on the part their transfers move, the constants' wholly. -/
def bodyPost8I (c : Dev nD) (t : Fin cfg8.N) : sProp 𝕄ᵢ :=
  iprop((dat8 (F := Ideal) V c).Φ t.succ ∗ (dat8 (F := Ideal) V c).owesAt () t.succ
    ∗ (∃ d, owns (c : Thread nD τ) (st8_0 t) fullShare ((cfg8.win 0).fill (cfg8.grid.coords t) d ((cfg8.win 0).cut (cfg8.grid.coords t) ((dat8 (F := Ideal) V c).after 0 t))))
    ∗ (∃ d, owns (c : Thread nD τ) (st8_1 t) fullShare ((cfg8.win 1).fill (cfg8.grid.coords t) d ((cfg8.win 1).cut (cfg8.grid.coords t) ((dat8 (F := Ideal) V c).after 1 t))))
    ∗ (∃ d, owns (c : Thread nD τ) (st8_2 t) fullShare ((cfg8.win 2).fill (cfg8.grid.coords t) d ((cfg8.win 2).cut (cfg8.grid.coords t) ((dat8 (F := Ideal) V c).after 2 t))))
    ∗ owns (c : Thread nD τ) (st8_3 t) fullShare ((dat8 (F := Ideal) V c).after 3 t)
    ∗ owns (c : Thread nD τ) (st8_4 t) fullShare ((dat8 (F := Ideal) V c).after 4 t)
    ∗ owns (c : Thread nD τ) (st8_5 t) fullShare ((dat8 (F := Ideal) V c).after 5 t)
    ∗ owns (c : Thread nD τ) (st8_6 t) fullShare ((dat8 (F := Ideal) V c).after 6 t)
    ∗ owns (c : Thread nD τ) (st8_7 t) fullShare ((dat8 (F := Ideal) V c).after 7 t)
    ∗ owns (c : Thread nD τ) (st8_8 t) fullShare ((dat8 (F := Ideal) V c).after 8 t)
    ∗ owns (c : Thread nD τ) (st8_9 t) fullShare ((dat8 (F := Ideal) V c).after 9 t)
    ∗ owns (c : Thread nD τ) (st8_10 t) fullShare ((dat8 (F := Ideal) V c).after 10 t)
    ∗ owns (c : Thread nD τ) (st8_11 t) fullShare ((dat8 (F := Ideal) V c).after 11 t)
    ∗ owns (c : Thread nD τ) (st8_12 t) fullShare ((dat8 (F := Ideal) V c).after 12 t)
    ∗ owns (c : Thread nD τ) (st8_13 t) fullShare ((dat8 (F := Ideal) V c).after 13 t)
    ∗ owns (c : Thread nD τ) (st8_14 t) fullShare ((dat8 (F := Ideal) V c).after 14 t)
    ∗ (∃ d, owns (c : Thread nD τ) (st8_15 t) fullShare ((cfg8.win 15).fill (cfg8.grid.coords t) d ((cfg8.win 15).cut (cfg8.grid.coords t) ((dat8 (F := Ideal) V c).after 15 t)))))

/-- The body at any point, the result's buffer described. -/
theorem sound_body8I (c : Dev nD) (t : Fin cfg8.N) :
    bodyPre8I V c t ⊢ wp frame (wpE (defs₀ (F := Ideal)) Variants.none c none) Set.univ (bodyAt8 t) (fun _ => bodyPost8I V c t) := by
  unfold bodyPre8I bodyPost8I bodyAt8
  simp only [before8_0, before8_1, before8_2, before8_3, before8_4, before8_5, before8_6, before8_7, before8_8, before8_9, before8_10, before8_11, before8_12, before8_13, before8_14, before8_15]
  rw [show (dat8 (F := Ideal) V c).Φ t.succ = (dat8 (F := Ideal) V c).Φ t.castSucc from rfl,
    show (dat8 (F := Ideal) V c).owesAt () t.succ = (dat8 (F := Ideal) V c).owesAt () t.castSucc from rfl,
    after8_3, after8_4, after8_5, after8_6, after8_7, after8_8, after8_9, after8_10, after8_11, after8_12, after8_13, after8_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel8 c Set.univ _ _ _ _ _ _ _ _ _ _ _ _ _ _ _ _ _ _ _ _ _ _ _ _ _ _ _ _ _ _ _ _ _
    ((cfg8.win 0).fill (cfg8.grid.coords t) d0 (iblk8 V c 0 t)) ((cfg8.win 1).fill (cfg8.grid.coords t) d1 (iblk8 V c 1 t)) ((cfg8.win 2).fill (cfg8.grid.coords t) d2 (iblk8 V c 2 t))
    (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexists d0; rw [keep8_0 V c t d0]; iexact H0
  isplitl [H1]; · iexists d1; rw [keep8_1 V c t d1]; iexact H1
  isplitl [H2]; · iexists d2; rw [keep8_2 V c t d2]; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists (out8_15 ((cfg8.win 0).fill (cfg8.grid.coords t) d0 (iblk8 V c 0 t)) ((cfg8.win 1).fill (cfg8.grid.coords t) d1 (iblk8 V c 1 t)) ((cfg8.win 2).fill (cfg8.grid.coords t) d2 (iblk8 V c 2 t)) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t))
  rw [keep8_15 V c t d0 d1 d2]
  iexact H15

/-- The library's body obligation at every point, nothing forgotten: at the ideal values. -/
theorem body_obligation8 (c : Dev nD) :
    BodyObligationLoose (dat8 (F := Ideal) V c) (defs₀ (F := Ideal)) Variants.none () Set.univ := fun t => by
  rw [bigSep_W8, bigSep_W8]
  exact sound_body8I V c t

end Cert.KernelIdeal.Hand

end
-- ==== Proof.KIRegs8.lean ====
import proofs.«166951_j44444321579084_2_alg».proof.Proof.KIFold
import proofs.«166951_j44444321579084_2_alg».proof.Proof.KIValueR8
import Idealize.ShloMosaic.Lib.Pipeline.RegionsLoop
import Idealize.ShloMosaic.PureOps.Ideal

/-! # Region 8 (custom_call 8) as a segment of @main

Entered with every unscoped buffer at `W25`, left with them at `W26`. At the entry the call's arrays are split out
of the unscoped buffers at the proof data's entry contents (`arrays_of_unscopedBufs`); at the exit they are put back at
the exit contents (`unscopedBufs_of_arrays`, by `hF8` and `hrest8`). The generator register goes into the
region's invariant and comes back; nothing is owed; the kernel has no semaphore of its own. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- a library lemma stated over `pin pcs a p` unifies with the pinned configuration only when unification may unfold
-- plain definitions in a metavariable's type
set_option backward.isDefEq.respectTransparency.types false in
/-- Region 8 over the thread state. -/
def reg8 : Pipeline.RegionSeg (pcfgs (F := Ideal)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := body_obligation8 (V25 m ρ) c
  hwaits := Pipeline.hwaits_of_owed_zero _ _ _ _ L lv 8 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec8 c (V25 m ρ c)
  hentry c := by
    rw [Pipeline.ownSems0_none]
    have hsplit := Pipeline.arrays_of_unscopedBufs (p := 8) (pcfgs (F := Ideal)) adm (pdats m ρ) launch8.win launch8.arr_whole c
      ((pdats m ρ 8 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := Ideal)) adm (Ix := Unit) (Name := ℕ) (U := UR sig nD τ) (Lvl := ℕ)
      launch8.win launch8.arr_whole c (pdats m ρ) ((pdats m ρ 8 c).share_full fun _ => rfl)
      (V25 m ρ c) (V26 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIShared.lean ====
import proofs.«166951_j44444321579084_2_alg».proof.Proof.KIFrameR4
import proofs.«166951_j44444321579084_2_alg».proof.Proof.KIFrameR5
import proofs.«166951_j44444321579084_2_alg».proof.Proof.KIFrameR6
import proofs.«166951_j44444321579084_2_alg».proof.Proof.KIFrameR7
import Idealize.ShloMosaic.Lib.Pipeline.RegionsLoop
import Idealize.ShloMosaic.Lib.Tactic

/-!
# Regions whose windows share an array: the arrays in and out of the core's unscoped buffers

A region is entered from a thread state that holds every unscoped buffer of the core whole, at the full share, and
the pipeline wants each WINDOW's array at that window's share. When the windows' arrays are pairwise distinct the
two are the same separating conjunction re-indexed. Here two INPUT windows `i ≠ j` are handed one array: the buffer
behind it, whole at the full share, is split along two shares `qa`, `qb` that compose to the full share, one part
per window, and every other window keeps its own buffer whole. At the exit the two parts — both at the same contents,
an input array being never written — are joined again.

The first half proves this for any pipeline configuration with exactly one such pair of windows; the second half
instantiates it at the four calls of @main that read the layer input both as a gathered operand and as the
residual (windows 2 and 3).
-/

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)
open PCS

section Shared

variable {nD : Nat} {τ : Topo} {sig : RefSig} {Val : EltTy → Type} {Λ₀ : Idealize.SL.Sem.Labels}
variable {Ix : Type} [DecidableEq Ix] {Name : Type} [DecidableEq Name] {U : Type} [URA U] {Lvl : Type}

local notation "𝕄" => MT nD τ sig Ix Val Name U Lvl

variable {cfg : Cfg sig Λ₀} {c : Dev nD} (dat : Dat τ Val Ix Name U Lvl cfg c)

/-- The buffers behind the windows' arrays, when exactly the windows `i ≠ j` are on one array: window `i`'s buffer
    and the buffers of the windows other than `i` and `j`, which are pairwise distinct. -/
theorem arrBufs_shared_eq {i j : Fin cfg.W} (hne : i ≠ j) (hij : Pipeline.arrRef cfg.spec i = Pipeline.arrRef cfg.spec j)
    (hinj : ∀ w w', w ≠ j → w' ≠ j → Pipeline.arrRef cfg.spec w = Pipeline.arrRef cfg.spec w' → w = w')
    (V : (b : Ref sig .tc) → Buf Val ((c.tc : Thread nD τ).loc b)) :
    (Pipeline.arrBufs cfg.spec c V : sProp 𝕄)
      = iprop((((c.tc : Thread nD τ).loc (Pipeline.arrRef cfg.spec i)) ↦{fullShare} V (Pipeline.arrRef cfg.spec i))
          ∗ bigSep ((Finset.univ.erase j).erase i) fun w => (((c.tc : Thread nD τ).loc (Pipeline.arrRef cfg.spec w)) ↦{fullShare} V (Pipeline.arrRef cfg.spec w) : sProp 𝕄)) := by
  classical
  have himg : Finset.univ.image (Pipeline.arrRef cfg.spec) = (Finset.univ.erase j).image (Pipeline.arrRef cfg.spec) := by
    ext b
    simp only [Finset.mem_image, Finset.mem_univ, true_and, Finset.mem_erase, and_true]
    constructor
    · rintro ⟨w, rfl⟩
      by_cases h : w = j
      · exact ⟨i, hne, by rw [h, hij]⟩
      · exact ⟨w, h, rfl⟩
    · rintro ⟨w, -, rfl⟩; exact ⟨w, rfl⟩
  have hinj' : Set.InjOn (Pipeline.arrRef cfg.spec) ((Finset.univ.erase j : Finset (Fin cfg.W)) : Set (Fin cfg.W)) := fun w hw w' hw' e =>
    hinj w w' (Finset.ne_of_mem_erase hw) (Finset.ne_of_mem_erase hw') e
  unfold Pipeline.arrBufs
  rw [himg, bigSep_image_of_injOn hinj', bigSep_erase (Finset.mem_erase.mpr ⟨hne, Finset.mem_univ i⟩)]
  rfl

/-- The pipeline's arrays at contents `F` read off a valuation `V` (`hF`), when the input windows `i ≠ j` are on one
    array, held at the shares `qa` and `qb`, and every other window holds its own array at the full share: the shared
    buffer's two parts and the other windows' buffers. -/
theorem arrays_shared_eq (harr : ∀ w, (cfg.spec w).arr.IsWhole) {i j : Fin cfg.W} (hne : i ≠ j)
    (hij : Pipeline.arrRef cfg.spec i = Pipeline.arrRef cfg.spec j) {qa qb : PosShare TreeShare}
    (hsi : dat.share i = qa) (hsj : dat.share j = qb) (hs : ∀ w, w ≠ i → w ≠ j → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (Pipeline.arrRef cfg.spec w)) :
    (dat.arrays F : sProp 𝕄)
      = iprop((((c.tc : Thread nD τ).loc (Pipeline.arrRef cfg.spec i)) ↦{qb} V (Pipeline.arrRef cfg.spec i))
          ∗ (((c.tc : Thread nD τ).loc (Pipeline.arrRef cfg.spec i)) ↦{qa} V (Pipeline.arrRef cfg.spec i))
          ∗ bigSep ((Finset.univ.erase j).erase i) fun w => (((c.tc : Thread nD τ).loc (Pipeline.arrRef cfg.spec w)) ↦{fullShare} V (Pipeline.arrRef cfg.spec w) : sProp 𝕄)) := by
  classical
  unfold Dat.arrays
  rw [bigSep_univ_split j, bigSep_erase (Finset.mem_erase.mpr ⟨hne, Finset.mem_univ i⟩)]
  have hj : ((cfg.win j).arr.view.loc (c.tc : Thread nD τ) ↦[(cfg.win j).arr.view.set]{dat.share j} F j : sProp 𝕄)
      = (((c.tc : Thread nD τ).loc (Pipeline.arrRef cfg.spec i)) ↦{qb} V (Pipeline.arrRef cfg.spec i)) := by
    rw [(harr j).set_eq_univ, hsj, hF j]
    exact congrArg (fun b => (((c.tc : Thread nD τ).loc b) ↦{qb} V b : sProp 𝕄)) hij.symm
  have hi : ((cfg.win i).arr.view.loc (c.tc : Thread nD τ) ↦[(cfg.win i).arr.view.set]{dat.share i} F i : sProp 𝕄)
      = (((c.tc : Thread nD τ).loc (Pipeline.arrRef cfg.spec i)) ↦{qa} V (Pipeline.arrRef cfg.spec i)) := by
    rw [(harr i).set_eq_univ, hsi, hF i]
  have hr : (bigSep ((Finset.univ.erase j).erase i) fun w : Fin cfg.W =>
        ((cfg.win w).arr.view.loc (c.tc : Thread nD τ) ↦[(cfg.win w).arr.view.set]{dat.share w} F w : sProp 𝕄))
      = bigSep ((Finset.univ.erase j).erase i) fun w => (((c.tc : Thread nD τ).loc (Pipeline.arrRef cfg.spec w)) ↦{fullShare} V (Pipeline.arrRef cfg.spec w) : sProp 𝕄) :=
    bigSep_congr fun w hw => by
      rw [(harr w).set_eq_univ, hs w (Finset.ne_of_mem_erase hw) (Finset.ne_of_mem_erase (Finset.mem_of_mem_erase hw)), hF w]
  rw [hj, hi, hr]
  rfl

/-- ENTRY, the arrays' part: the buffers behind the arrays, each whole at the full share at `V`, make the pipeline's arrays at
    contents read off `V`, the shared buffer's points-to split along `qa`, `qb`. -/
theorem arrays_of_arrBufs_shared (harr : ∀ w, (cfg.spec w).arr.IsWhole) {i j : Fin cfg.W} (hne : i ≠ j)
    (hij : Pipeline.arrRef cfg.spec i = Pipeline.arrRef cfg.spec j)
    (hinj : ∀ w w', w ≠ j → w' ≠ j → Pipeline.arrRef cfg.spec w = Pipeline.arrRef cfg.spec w' → w = w')
    {qa qb : PosShare TreeShare} (hab : fullShare ∈ qa ·? qb)
    (hsi : dat.share i = qa) (hsj : dat.share j = qb) (hs : ∀ w, w ≠ i → w ≠ j → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (Pipeline.arrRef cfg.spec w)) :
    (Pipeline.arrBufs cfg.spec c V : sProp 𝕄) ⊢ dat.arrays F := by
  rw [arrBufs_shared_eq hne hij hinj V, arrays_shared_eq dat harr hne hij hsi hsj hs V F hF]
  have hsp : ((((c.tc : Thread nD τ).loc (Pipeline.arrRef cfg.spec i)) ↦{fullShare} V (Pipeline.arrRef cfg.spec i)) : sProp 𝕄)
      ⊢ iprop((((c.tc : Thread nD τ).loc (Pipeline.arrRef cfg.spec i)) ↦{qa} V (Pipeline.arrRef cfg.spec i))
          ∗ (((c.tc : Thread nD τ).loc (Pipeline.arrRef cfg.spec i)) ↦{qb} V (Pipeline.arrRef cfg.spec i))) := (pointsTo_share hab).1
  iintro ⟨Hi, HR⟩
  ihave H := hsp $$ Hi
  icases H with ⟨Ha, Hb⟩
  isplitl [Hb]; · iexact Hb
  isplitl [Ha]; · iexact Ha
  iexact HR

/-- EXIT, the arrays' part: the converse, the two parts of the shared buffer rejoined. -/
theorem arrBufs_of_arrays_shared (harr : ∀ w, (cfg.spec w).arr.IsWhole) {i j : Fin cfg.W} (hne : i ≠ j)
    (hij : Pipeline.arrRef cfg.spec i = Pipeline.arrRef cfg.spec j)
    (hinj : ∀ w w', w ≠ j → w' ≠ j → Pipeline.arrRef cfg.spec w = Pipeline.arrRef cfg.spec w' → w = w')
    {qa qb : PosShare TreeShare} (hab : fullShare ∈ qa ·? qb)
    (hsi : dat.share i = qa) (hsj : dat.share j = qb) (hs : ∀ w, w ≠ i → w ≠ j → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (Pipeline.arrRef cfg.spec w)) :
    (dat.arrays F : sProp 𝕄) ⊢ Pipeline.arrBufs cfg.spec c V := by
  rw [arrBufs_shared_eq hne hij hinj V, arrays_shared_eq dat harr hne hij hsi hsj hs V F hF]
  have hjn : iprop((((c.tc : Thread nD τ).loc (Pipeline.arrRef cfg.spec i)) ↦{qa} V (Pipeline.arrRef cfg.spec i))
          ∗ (((c.tc : Thread nD τ).loc (Pipeline.arrRef cfg.spec i)) ↦{qb} V (Pipeline.arrRef cfg.spec i)))
      ⊢ ((((c.tc : Thread nD τ).loc (Pipeline.arrRef cfg.spec i)) ↦{fullShare} V (Pipeline.arrRef cfg.spec i)) : sProp 𝕄) := (pointsTo_share hab).2
  iintro ⟨Hb, Ha, HR⟩
  isplitl [Ha Hb]
  · iapply hjn
    isplitl [Ha]; · iexact Ha
    iexact Hb
  iexact HR

/-- ENTRY: a core's unscoped buffers at `V` are the pipeline's arrays at the proof data's entry contents, read off `V`
    (`hA`), and the unscoped rest. -/
theorem arrays_of_unscopedBufs_shared (hw : Pipeline.WinFacts₀ cfg.spec) (harr : ∀ w, (cfg.spec w).arr.IsWhole) {i j : Fin cfg.W} (hne : i ≠ j)
    (hij : Pipeline.arrRef cfg.spec i = Pipeline.arrRef cfg.spec j)
    (hinj : ∀ w w', w ≠ j → w' ≠ j → Pipeline.arrRef cfg.spec w = Pipeline.arrRef cfg.spec w' → w = w')
    {qa qb : PosShare TreeShare} (hab : fullShare ∈ qa ·? qb)
    (hsi : dat.share i = qa) (hsj : dat.share j = qb) (hs : ∀ w, w ≠ i → w ≠ j → dat.share w = fullShare)
    (V : (b : Ref sig .tc) → Buf Val ((c.tc : Thread nD τ).loc b))
    (hA : ∀ w, dat.A w = V (Pipeline.arrRef cfg.spec w)) :
    (unscopedBufs c V : sProp 𝕄) ⊢ iprop(dat.arrays (dat.arrAt · 0) ∗ Pipeline.unscopedRest cfg.spec c V) := by
  classical
  have hsub : Finset.univ.image (Pipeline.arrRef cfg.spec) ⊆ Finset.univ.filter fun b : Ref sig .tc => ¬ b.isScoped := fun b hb => by
    obtain ⟨w, -, rfl⟩ := Finset.mem_image.mp hb
    exact Finset.mem_filter.mpr ⟨Finset.mem_univ _, by simp [hw.arr_unscoped w]⟩
  have h0 : (unscopedBufs c V : sProp 𝕄) = iprop((Pipeline.arrBufs cfg.spec c V : sProp 𝕄) ∗ Pipeline.unscopedRest cfg.spec c V) := by
    unfold unscopedBufs Pipeline.unscopedRest Pipeline.arrBufs
    rw [bigSep_sdiff_split hsub]
    rfl
  rw [h0]
  exact sep_mono (arrays_of_arrBufs_shared dat harr hne hij hinj hab hsi hsj hs V _ fun w => hA w) .rfl

/-- EXIT: the pipeline's arrays at contents `F` and the unscoped rest at `V` are the core's unscoped buffers at any
    valuation `V'` that has the arrays at `F` and agrees with `V` off them. -/
theorem unscopedBufs_of_arrays_shared (hw : Pipeline.WinFacts₀ cfg.spec) (harr : ∀ w, (cfg.spec w).arr.IsWhole) {i j : Fin cfg.W} (hne : i ≠ j)
    (hij : Pipeline.arrRef cfg.spec i = Pipeline.arrRef cfg.spec j)
    (hinj : ∀ w w', w ≠ j → w' ≠ j → Pipeline.arrRef cfg.spec w = Pipeline.arrRef cfg.spec w' → w = w')
    {qa qb : PosShare TreeShare} (hab : fullShare ∈ qa ·? qb)
    (hsi : dat.share i = qa) (hsj : dat.share j = qb) (hs : ∀ w, w ≠ i → w ≠ j → dat.share w = fullShare)
    (V V' : (b : Ref sig .tc) → Buf Val ((c.tc : Thread nD τ).loc b))
    (F : (w : Fin cfg.W) → Buf Val ((cfg.win w).arr.view.loc (c.tc : Thread nD τ)))
    (hF : ∀ w, F w = V' (Pipeline.arrRef cfg.spec w))
    (hrest : ∀ b, b ∉ Finset.univ.image (Pipeline.arrRef cfg.spec) → V' b = V b) :
    iprop(dat.arrays F ∗ Pipeline.unscopedRest cfg.spec c V) ⊢ (unscopedBufs c V' : sProp 𝕄) := by
  classical
  have hsub : Finset.univ.image (Pipeline.arrRef cfg.spec) ⊆ Finset.univ.filter fun b : Ref sig .tc => ¬ b.isScoped := fun b hb => by
    obtain ⟨w, -, rfl⟩ := Finset.mem_image.mp hb
    exact Finset.mem_filter.mpr ⟨Finset.mem_univ _, by simp [hw.arr_unscoped w]⟩
  have h0 : (unscopedBufs c V' : sProp 𝕄) = iprop((Pipeline.arrBufs cfg.spec c V' : sProp 𝕄) ∗ Pipeline.unscopedRest cfg.spec c V') := by
    unfold unscopedBufs Pipeline.unscopedRest Pipeline.arrBufs
    rw [bigSep_sdiff_split hsub]
    rfl
  rw [h0]
  refine sep_mono (arrBufs_of_arrays_shared dat harr hne hij hinj hab hsi hsj hs V' F hF) (Entails.of_eq ?_)
  unfold Pipeline.unscopedRest
  exact bigSep_congr fun b hb => by rw [hrest b (Finset.mem_sdiff.mp hb).2]

end Shared

section Calls

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 4: windows 2 and 3 read one array -/

/-- Windows 2 and 3 of call 4 are handed the same array. -/
theorem shared4 : Pipeline.arrRef spec4 2 = Pipeline.arrRef spec4 3 := rfl
/-- Window 3 apart, the windows' arrays are pairwise distinct. -/
theorem inj4 : ∀ w w' : Fin 11, w ≠ 3 → w' ≠ 3 → Pipeline.arrRef spec4 w = Pipeline.arrRef spec4 w' → w = w' := by decide

/-- The shares the proof data hold the arrays at: the shared array's two halves, every other array whole. -/
theorem share4_2 (c : Dev nD) : (dat4 V c).share 2 = fullShare.left := by
  unfold Dat.share; rw [q_eq4]; rfl
theorem share4_3 (c : Dev nD) : (dat4 V c).share 3 = fullShare.right := by
  unfold Dat.share; rw [q_eq4]; rfl
theorem share4_of_ne (c : Dev nD) : ∀ w : Fin cfg4.W, w ≠ 2 → w ≠ 3 → (dat4 V c).share w = fullShare := by
  intro w h2 h3
  unfold Dat.share
  split
  · rfl
  · rw [q_eq4]
    beta_reduce
    split
    · exact absurd rfl h2
    · exact absurd rfl h3
    · rfl

/-- ENTRY of region 4: the core's unscoped buffers at `V` are the pipeline's arrays at their entry contents, the array
    windows 2 and 3 read dealt to them in halves, and the unscoped rest. -/
theorem arrays_of_held4 (c : Dev nD) :
    (unscopedBufs c (V c) : sProp 𝕄) ⊢ iprop((dat4 V c).arrays ((dat4 V c).arrAt · 0) ∗ Pipeline.unscopedRest spec4 c (V c)) :=
  arrays_of_unscopedBufs_shared (dat4 V c) winFacts₀4 arr_whole4 (i := 2) (j := 3) (by decide) shared4 inj4
    (PosShare.mem_left_op_right fullShare) (share4_2 V c) (share4_3 V c) (share4_of_ne V c) (V c) (A_eq4 V c)

/-- EXIT of region 4: the pipeline's arrays at their final contents, the two halves of the shared array rejoined
    (both windows on it end at the same contents), and the unscoped rest are the core's unscoped buffers at any `V'` that
    has the arrays at those contents and agrees with `V` off them. -/
theorem held_of_arrays4 (V' : (c : Dev nD) → (b : Ref sig .tc) → Buf (Elt F) ((c : Thread nD τ).loc b)) (c : Dev nD)
    (hF : ∀ w, (dat4 V c).arrAt w cfg4.N = V' c (Pipeline.arrRef spec4 w))
    (hrest : ∀ b, b ∉ Finset.univ.image (Pipeline.arrRef spec4) → V' c b = V c b) :
    iprop((dat4 V c).arrays ((dat4 V c).arrAt · cfg4.N) ∗ Pipeline.unscopedRest spec4 c (V c)) ⊢ (unscopedBufs c (V' c) : sProp 𝕄) :=
  unscopedBufs_of_arrays_shared (dat4 V c) winFacts₀4 arr_whole4 (i := 2) (j := 3) (by decide) shared4 inj4
    (PosShare.mem_left_op_right fullShare) (share4_2 V c) (share4_3 V c) (share4_of_ne V c) (V c) (V' c) _ hF hrest

/-! ## Call 5: windows 2 and 3 read one array -/

/-- Windows 2 and 3 of call 5 are handed the same array. -/
theorem shared5 : Pipeline.arrRef spec5 2 = Pipeline.arrRef spec5 3 := rfl
/-- Window 3 apart, the windows' arrays are pairwise distinct. -/
theorem inj5 : ∀ w w' : Fin 11, w ≠ 3 → w' ≠ 3 → Pipeline.arrRef spec5 w = Pipeline.arrRef spec5 w' → w = w' := by decide

/-- The shares the proof data hold the arrays at: the shared array's two halves, every other array whole. -/
theorem share5_2 (c : Dev nD) : (dat5 V c).share 2 = fullShare.left := by
  unfold Dat.share; rw [q_eq5]; rfl
theorem share5_3 (c : Dev nD) : (dat5 V c).share 3 = fullShare.right := by
  unfold Dat.share; rw [q_eq5]; rfl
theorem share5_of_ne (c : Dev nD) : ∀ w : Fin cfg5.W, w ≠ 2 → w ≠ 3 → (dat5 V c).share w = fullShare := by
  intro w h2 h3
  unfold Dat.share
  split
  · rfl
  · rw [q_eq5]
    beta_reduce
    split
    · exact absurd rfl h2
    · exact absurd rfl h3
    · rfl

/-- ENTRY of region 5: the core's unscoped buffers at `V` are the pipeline's arrays at their entry contents, the array
    windows 2 and 3 read dealt to them in halves, and the unscoped rest. -/
theorem arrays_of_held5 (c : Dev nD) :
    (unscopedBufs c (V c) : sProp 𝕄) ⊢ iprop((dat5 V c).arrays ((dat5 V c).arrAt · 0) ∗ Pipeline.unscopedRest spec5 c (V c)) :=
  arrays_of_unscopedBufs_shared (dat5 V c) winFacts₀5 arr_whole5 (i := 2) (j := 3) (by decide) shared5 inj5
    (PosShare.mem_left_op_right fullShare) (share5_2 V c) (share5_3 V c) (share5_of_ne V c) (V c) (A_eq5 V c)

/-- EXIT of region 5: the pipeline's arrays at their final contents, the two halves of the shared array rejoined
    (both windows on it end at the same contents), and the unscoped rest are the core's unscoped buffers at any `V'` that
    has the arrays at those contents and agrees with `V` off them. -/
theorem held_of_arrays5 (V' : (c : Dev nD) → (b : Ref sig .tc) → Buf (Elt F) ((c : Thread nD τ).loc b)) (c : Dev nD)
    (hF : ∀ w, (dat5 V c).arrAt w cfg5.N = V' c (Pipeline.arrRef spec5 w))
    (hrest : ∀ b, b ∉ Finset.univ.image (Pipeline.arrRef spec5) → V' c b = V c b) :
    iprop((dat5 V c).arrays ((dat5 V c).arrAt · cfg5.N) ∗ Pipeline.unscopedRest spec5 c (V c)) ⊢ (unscopedBufs c (V' c) : sProp 𝕄) :=
  unscopedBufs_of_arrays_shared (dat5 V c) winFacts₀5 arr_whole5 (i := 2) (j := 3) (by decide) shared5 inj5
    (PosShare.mem_left_op_right fullShare) (share5_2 V c) (share5_3 V c) (share5_of_ne V c) (V c) (V' c) _ hF hrest

/-! ## Call 6: windows 2 and 3 read one array -/

/-- Windows 2 and 3 of call 6 are handed the same array. -/
theorem shared6 : Pipeline.arrRef spec6 2 = Pipeline.arrRef spec6 3 := rfl
/-- Window 3 apart, the windows' arrays are pairwise distinct. -/
theorem inj6 : ∀ w w' : Fin 11, w ≠ 3 → w' ≠ 3 → Pipeline.arrRef spec6 w = Pipeline.arrRef spec6 w' → w = w' := by decide

/-- The shares the proof data hold the arrays at: the shared array's two halves, every other array whole. -/
theorem share6_2 (c : Dev nD) : (dat6 V c).share 2 = fullShare.left := by
  unfold Dat.share; rw [q_eq6]; rfl
theorem share6_3 (c : Dev nD) : (dat6 V c).share 3 = fullShare.right := by
  unfold Dat.share; rw [q_eq6]; rfl
theorem share6_of_ne (c : Dev nD) : ∀ w : Fin cfg6.W, w ≠ 2 → w ≠ 3 → (dat6 V c).share w = fullShare := by
  intro w h2 h3
  unfold Dat.share
  split
  · rfl
  · rw [q_eq6]
    beta_reduce
    split
    · exact absurd rfl h2
    · exact absurd rfl h3
    · rfl

/-- ENTRY of region 6: the core's unscoped buffers at `V` are the pipeline's arrays at their entry contents, the array
    windows 2 and 3 read dealt to them in halves, and the unscoped rest. -/
theorem arrays_of_held6 (c : Dev nD) :
    (unscopedBufs c (V c) : sProp 𝕄) ⊢ iprop((dat6 V c).arrays ((dat6 V c).arrAt · 0) ∗ Pipeline.unscopedRest spec6 c (V c)) :=
  arrays_of_unscopedBufs_shared (dat6 V c) winFacts₀6 arr_whole6 (i := 2) (j := 3) (by decide) shared6 inj6
    (PosShare.mem_left_op_right fullShare) (share6_2 V c) (share6_3 V c) (share6_of_ne V c) (V c) (A_eq6 V c)

/-- EXIT of region 6: the pipeline's arrays at their final contents, the two halves of the shared array rejoined
    (both windows on it end at the same contents), and the unscoped rest are the core's unscoped buffers at any `V'` that
    has the arrays at those contents and agrees with `V` off them. -/
theorem held_of_arrays6 (V' : (c : Dev nD) → (b : Ref sig .tc) → Buf (Elt F) ((c : Thread nD τ).loc b)) (c : Dev nD)
    (hF : ∀ w, (dat6 V c).arrAt w cfg6.N = V' c (Pipeline.arrRef spec6 w))
    (hrest : ∀ b, b ∉ Finset.univ.image (Pipeline.arrRef spec6) → V' c b = V c b) :
    iprop((dat6 V c).arrays ((dat6 V c).arrAt · cfg6.N) ∗ Pipeline.unscopedRest spec6 c (V c)) ⊢ (unscopedBufs c (V' c) : sProp 𝕄) :=
  unscopedBufs_of_arrays_shared (dat6 V c) winFacts₀6 arr_whole6 (i := 2) (j := 3) (by decide) shared6 inj6
    (PosShare.mem_left_op_right fullShare) (share6_2 V c) (share6_3 V c) (share6_of_ne V c) (V c) (V' c) _ hF hrest

/-! ## Call 7: windows 2 and 3 read one array -/

/-- Windows 2 and 3 of call 7 are handed the same array. -/
theorem shared7 : Pipeline.arrRef spec7 2 = Pipeline.arrRef spec7 3 := rfl
/-- Window 3 apart, the windows' arrays are pairwise distinct. -/
theorem inj7 : ∀ w w' : Fin 11, w ≠ 3 → w' ≠ 3 → Pipeline.arrRef spec7 w = Pipeline.arrRef spec7 w' → w = w' := by decide

/-- The shares the proof data hold the arrays at: the shared array's two halves, every other array whole. -/
theorem share7_2 (c : Dev nD) : (dat7 V c).share 2 = fullShare.left := by
  unfold Dat.share; rw [q_eq7]; rfl
theorem share7_3 (c : Dev nD) : (dat7 V c).share 3 = fullShare.right := by
  unfold Dat.share; rw [q_eq7]; rfl
theorem share7_of_ne (c : Dev nD) : ∀ w : Fin cfg7.W, w ≠ 2 → w ≠ 3 → (dat7 V c).share w = fullShare := by
  intro w h2 h3
  unfold Dat.share
  split
  · rfl
  · rw [q_eq7]
    beta_reduce
    split
    · exact absurd rfl h2
    · exact absurd rfl h3
    · rfl

/-- ENTRY of region 7: the core's unscoped buffers at `V` are the pipeline's arrays at their entry contents, the array
    windows 2 and 3 read dealt to them in halves, and the unscoped rest. -/
theorem arrays_of_held7 (c : Dev nD) :
    (unscopedBufs c (V c) : sProp 𝕄) ⊢ iprop((dat7 V c).arrays ((dat7 V c).arrAt · 0) ∗ Pipeline.unscopedRest spec7 c (V c)) :=
  arrays_of_unscopedBufs_shared (dat7 V c) winFacts₀7 arr_whole7 (i := 2) (j := 3) (by decide) shared7 inj7
    (PosShare.mem_left_op_right fullShare) (share7_2 V c) (share7_3 V c) (share7_of_ne V c) (V c) (A_eq7 V c)

/-- EXIT of region 7: the pipeline's arrays at their final contents, the two halves of the shared array rejoined
    (both windows on it end at the same contents), and the unscoped rest are the core's unscoped buffers at any `V'` that
    has the arrays at those contents and agrees with `V` off them. -/
theorem held_of_arrays7 (V' : (c : Dev nD) → (b : Ref sig .tc) → Buf (Elt F) ((c : Thread nD τ).loc b)) (c : Dev nD)
    (hF : ∀ w, (dat7 V c).arrAt w cfg7.N = V' c (Pipeline.arrRef spec7 w))
    (hrest : ∀ b, b ∉ Finset.univ.image (Pipeline.arrRef spec7) → V' c b = V c b) :
    iprop((dat7 V c).arrays ((dat7 V c).arrAt · cfg7.N) ∗ Pipeline.unscopedRest spec7 c (V c)) ⊢ (unscopedBufs c (V' c) : sProp 𝕄) :=
  unscopedBufs_of_arrays_shared (dat7 V c) winFacts₀7 arr_whole7 (i := 2) (j := 3) (by decide) shared7 inj7
    (PosShare.mem_left_op_right fullShare) (share7_2 V c) (share7_3 V c) (share7_of_ne V c) (V c) (V' c) _ hF hrest

end Calls

end Cert.KernelIdeal.Hand

end
-- ==== Proof.KIRegsShared.lean ====
import proofs.«166951_j44444321579084_2_alg».proof.Proof.KIFold
import proofs.«166951_j44444321579084_2_alg».proof.Proof.KIShared

/-!
# The regions whose windows share an array, as segments of @main's run

Each of custom calls 4 to 7 is a segment from the thread state "every unscoped buffer of the core at the entry
contents, the generator register at some state, nothing owed" to the same at the exit contents. The region's arrays
leave the unscoped buffers at the entry and return to them at the exit; the one array that two input windows read
is held by them in halves in between.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 4 (custom_call 4) over the thread state: entered from every unscoped buffer at `W13`, left at `W14`. Its
    arrays are split out of the unscoped buffers, the array windows 2 and 3 share dealt to them in halves
    (`arrays_of_held4`), and put back at the exit contents, the halves rejoined (`held_of_arrays4`); the generator
    register goes into the class invariant and comes out; nothing is owed; the kernel has no semaphore of its own. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := arrays_of_held4 (V13 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := held_of_arrays4 (V13 m ρ) (V14 m ρ) c (hF4 m ρ c) (hrest4 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 5 (custom_call 5) over the thread state: entered from every unscoped buffer at `W16`, left at `W17`. Its
    arrays are split out of the unscoped buffers, the array windows 2 and 3 share dealt to them in halves
    (`arrays_of_held5`), and put back at the exit contents, the halves rejoined (`held_of_arrays5`); the generator
    register goes into the class invariant and comes out; nothing is owed; the kernel has no semaphore of its own. -/
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (body_obligation5 (V16 m ρ) c).loose
  hwaits := Pipeline.hwaits_of_owed_zero _ _ _ _ L lv 5 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec5 c (V16 m ρ c)
  hentry c := by
    rw [Pipeline.ownSems0_none]
    have hsplit := arrays_of_held5 (V16 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := held_of_arrays5 (V16 m ρ) (V17 m ρ) c (hF5 m ρ c) (hrest5 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 6 (custom_call 6) over the thread state: entered from every unscoped buffer at `W19`, left at `W20`. Its
    arrays are split out of the unscoped buffers, the array windows 2 and 3 share dealt to them in halves
    (`arrays_of_held6`), and put back at the exit contents, the halves rejoined (`held_of_arrays6`); the generator
    register goes into the class invariant and comes out; nothing is owed; the kernel has no semaphore of its own. -/
def reg6 : Pipeline.RegionSeg (pcfgs (F := F)) adm (pdats m ρ) () defs₀ 𝒱₀ L lv 6 where
  win := winFacts₀6
  block_pos := block_pos6
  stage_whole := stage_whole6
  K := PEmpty
  osem k := k.elim
  ho := Pipeline.OwnSemFacts.none _
  hbody c := (body_obligation6 (V19 m ρ) c).loose
  hwaits := Pipeline.hwaits_of_owed_zero _ _ _ _ L lv 6 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec6 c (V19 m ρ c)
  hentry c := by
    rw [Pipeline.ownSems0_none]
    have hsplit := arrays_of_held6 (V19 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := held_of_arrays6 (V19 m ρ) (V20 m ρ) c (hF6 m ρ c) (hrest6 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 7 (custom_call 7) over the thread state: entered from every unscoped buffer at `W22`, left at `W23`. Its
    arrays are split out of the unscoped buffers, the array windows 2 and 3 share dealt to them in halves
    (`arrays_of_held7`), and put back at the exit contents, the halves rejoined (`held_of_arrays7`); the generator
    register goes into the class invariant and comes out; nothing is owed; the kernel has no semaphore of its own. -/
def reg7 : Pipeline.RegionSeg (pcfgs (F := F)) adm (pdats m ρ) () defs₀ 𝒱₀ L lv 7 where
  win := winFacts₀7
  block_pos := block_pos7
  stage_whole := stage_whole7
  K := PEmpty
  osem k := k.elim
  ho := Pipeline.OwnSemFacts.none _
  hbody c := (body_obligation7 (V22 m ρ) c).loose
  hwaits := Pipeline.hwaits_of_owed_zero _ _ _ _ L lv 7 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec7 c (V22 m ρ c)
  hentry c := by
    rw [Pipeline.ownSems0_none]
    have hsplit := arrays_of_held7 (V22 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := held_of_arrays7 (V22 m ρ) (V23 m ρ) c (hF7 m ρ c) (hrest7 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KIRun.lean ====
import proofs.«166951_j44444321579084_2_alg».proof.Proof.KIFold
import proofs.«166951_j44444321579084_2_alg».proof.Proof.KIRegs0
import proofs.«166951_j44444321579084_2_alg».proof.Proof.KIRegs1
import proofs.«166951_j44444321579084_2_alg».proof.Proof.KIRegs2
import proofs.«166951_j44444321579084_2_alg».proof.Proof.KIRegs3
import proofs.«166951_j44444321579084_2_alg».proof.Proof.KIRegs8
import proofs.«166951_j44444321579084_2_alg».proof.Proof.KIRegsShared
import Idealize.ShloMosaic.Lib.Pipeline.RegionsLoop
import Idealize.ShloMosaic.PureOps.Ideal

/-! # The run of @main, read at `F := Ideal`

@main is the run of its 27 segments (`main_chain_windows`, `Seg.run_eq_chain`): 18 host pieces, each from its
boundary's contents, and 9 kernel regions. Consecutive segments agree on the thread state between them — every unscoped
buffer at `Wj`, the generator register at some state, nothing owed — so the launch theorem for a list of segments
applies once and gives: every weakly fair execution terminates, faults nowhere, and ends with every unscoped buffer
of every core at `W27` (`run_all`). The frame claim follows by reading the 28 arguments' buffers there
(`W27_main_argJ`). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- @main's 27 segments in order: a host segment per piece from its boundary's contents, a region per kernel call. -/
abbrev segs : List (Pipeline.Seg (pcfgs (F := Ideal)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .region (reg1 m ρ),
    .host (hseg main_part0_ops2 main_part0_ops2_sub main_part0_ops2_fresh (W4 m ρ)),
    .host (hseg main_part1_ops0 main_part1_ops0_sub main_part1_ops0_fresh (W5 m ρ)),
    .host (hseg main_part2_ops0 main_part2_ops0_sub main_part2_ops0_fresh (W6 m ρ)),
    .region (reg2 m ρ),
    .host (hseg main_part2_ops1 main_part2_ops1_sub main_part2_ops1_fresh (W8 m ρ)),
    .host (hseg main_part3_ops0 main_part3_ops0_sub main_part3_ops0_fresh (W9 m ρ)),
    .region (reg3 m ρ),
    .host (hseg main_part3_ops1 main_part3_ops1_sub main_part3_ops1_fresh (W11 m ρ)),
    .host (hseg main_part4_ops0 main_part4_ops0_sub main_part4_ops0_fresh (W12 m ρ)),
    .region (reg4 m ρ),
    .host (hseg main_part4_ops1 main_part4_ops1_sub main_part4_ops1_fresh (W14 m ρ)),
    .host (hseg main_part5_ops0 main_part5_ops0_sub main_part5_ops0_fresh (W15 m ρ)),
    .region (reg5 m ρ),
    .host (hseg main_part5_ops1 main_part5_ops1_sub main_part5_ops1_fresh (W17 m ρ)),
    .host (hseg main_part6_ops0 main_part6_ops0_sub main_part6_ops0_fresh (W18 m ρ)),
    .region (reg6 m ρ),
    .host (hseg main_part6_ops1 main_part6_ops1_sub main_part6_ops1_fresh (W20 m ρ)),
    .host (hseg main_part7_ops0 main_part7_ops0_sub main_part7_ops0_fresh (W21 m ρ)),
    .region (reg7 m ρ),
    .host (hseg main_part7_ops1 main_part7_ops1_sub main_part7_ops1_fresh (W23 m ρ)),
    .host (hseg main_part8_ops0 main_part8_ops0_sub main_part8_ops0_fresh (W24 m ρ)),
    .region (reg8 m ρ),
    .host (hseg main_part8_ops1 main_part8_ops1_sub main_part8_ops1_fresh (W26 m ρ)) ]

/-- The segments' fragments, in order, are @main's items. -/
theorem segs_prog : (segs m ρ).map Pipeline.Seg.prog = [
    StableHlo.seq main_part0_ops0,
    Prog.lift (.customCall (Pipeline.entry 0) ()),
    StableHlo.seq main_part0_ops1,
    Prog.lift (.customCall (Pipeline.entry 1) ()),
    StableHlo.seq main_part0_ops2,
    StableHlo.seq main_part1_ops0,
    StableHlo.seq main_part2_ops0,
    Prog.lift (.customCall (Pipeline.entry 2) ()),
    StableHlo.seq main_part2_ops1,
    StableHlo.seq main_part3_ops0,
    Prog.lift (.customCall (Pipeline.entry 3) ()),
    StableHlo.seq main_part3_ops1,
    StableHlo.seq main_part4_ops0,
    Prog.lift (.customCall (Pipeline.entry 4) ()),
    StableHlo.seq main_part4_ops1,
    StableHlo.seq main_part5_ops0,
    Prog.lift (.customCall (Pipeline.entry 5) ()),
    StableHlo.seq main_part5_ops1,
    StableHlo.seq main_part6_ops0,
    Prog.lift (.customCall (Pipeline.entry 6) ()),
    StableHlo.seq main_part6_ops1,
    StableHlo.seq main_part7_ops0,
    Prog.lift (.customCall (Pipeline.entry 7) ()),
    StableHlo.seq main_part7_ops1,
    StableHlo.seq main_part8_ops0,
    Prog.lift (.customCall (Pipeline.entry 8) ()),
    StableHlo.seq main_part8_ops1 ] := rfl

/-- No pipeline is entered twice. -/
theorem segs_nodup : (Pipeline.Seg.pipes (segs m ρ)).Nodup := by
  simp only [segs, Pipeline.Seg.pipes_host, Pipeline.Seg.pipes_region, Pipeline.Seg.pipes_nil]; decide

/-- The last segment leaves the last thread state beside the core owing nothing (the same resources, regrouped). -/
theorem last_state (c : Dev nD) :
    (iprop(StableHlo.held (c : Thread nD τ) (Pipeline.ucRefs τ sig) (W27 m ρ c)
        ∗ (∃ r, prngReg c r) ∗ ∃ W, owes (c : Thread nD τ) (0 : CellTallies nD τ sig Unit) W) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer of every core at the
    fold's last contents `W27`. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W27 m ρ c b) :=
  Pipeline.θ_run_regions_kit (pcfgs (F := Ideal)) adm (pdats m ρ) () cellOf_inj emb₁ defs₀ 𝒱₀ L lv m ρ main (segs m ρ)
    (fun c Q => by
      rewrite [main_chain_windows c, Pipeline.Seg.run_eq_chain, segs_prog m ρ]
      exact .rfl)
    (segs_nodup m ρ)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h => h)

/-- THE FRAME: every weakly fair execution of @main terminates, nothing faulting, and every final state has the 28
    argument arrays as launched: each argument's buffer is unscoped, so `run_all` reads it at `W27`, where it holds
    its launch contents (`W27_main_argJ`). -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c =>
    ⟨(h c _ (mem_uc main_arg0 (by decide))).trans (W27_main_arg0 m ρ c),
     (h c _ (mem_uc main_arg1 (by decide))).trans (W27_main_arg1 m ρ c),
     (h c _ (mem_uc main_arg2 (by decide))).trans (W27_main_arg2 m ρ c),
     (h c _ (mem_uc main_arg3 (by decide))).trans (W27_main_arg3 m ρ c),
     (h c _ (mem_uc main_arg4 (by decide))).trans (W27_main_arg4 m ρ c),
     (h c _ (mem_uc main_arg5 (by decide))).trans (W27_main_arg5 m ρ c),
     (h c _ (mem_uc main_arg6 (by decide))).trans (W27_main_arg6 m ρ c),
     (h c _ (mem_uc main_arg7 (by decide))).trans (W27_main_arg7 m ρ c),
     (h c _ (mem_uc main_arg8 (by decide))).trans (W27_main_arg8 m ρ c),
     (h c _ (mem_uc main_arg9 (by decide))).trans (W27_main_arg9 m ρ c),
     (h c _ (mem_uc main_arg10 (by decide))).trans (W27_main_arg10 m ρ c),
     (h c _ (mem_uc main_arg11 (by decide))).trans (W27_main_arg11 m ρ c),
     (h c _ (mem_uc main_arg12 (by decide))).trans (W27_main_arg12 m ρ c),
     (h c _ (mem_uc main_arg13 (by decide))).trans (W27_main_arg13 m ρ c),
     (h c _ (mem_uc main_arg14 (by decide))).trans (W27_main_arg14 m ρ c),
     (h c _ (mem_uc main_arg15 (by decide))).trans (W27_main_arg15 m ρ c),
     (h c _ (mem_uc main_arg16 (by decide))).trans (W27_main_arg16 m ρ c),
     (h c _ (mem_uc main_arg17 (by decide))).trans (W27_main_arg17 m ρ c),
     (h c _ (mem_uc main_arg18 (by decide))).trans (W27_main_arg18 m ρ c),
     (h c _ (mem_uc main_arg19 (by decide))).trans (W27_main_arg19 m ρ c),
     (h c _ (mem_uc main_arg20 (by decide))).trans (W27_main_arg20 m ρ c),
     (h c _ (mem_uc main_arg21 (by decide))).trans (W27_main_arg21 m ρ c),
     (h c _ (mem_uc main_arg22 (by decide))).trans (W27_main_arg22 m ρ c),
     (h c _ (mem_uc main_arg23 (by decide))).trans (W27_main_arg23 m ρ c),
     (h c _ (mem_uc main_arg24 (by decide))).trans (W27_main_arg24 m ρ c),
     (h c _ (mem_uc main_arg25 (by decide))).trans (W27_main_arg25 m ρ c),
     (h c _ (mem_uc main_arg26 (by decide))).trans (W27_main_arg26 m ρ c),
     (h c _ (mem_uc main_arg27 (by decide))).trans (W27_main_arg27 m ρ c)⟩)
    (run_all m ρ)

end Cert.KernelIdeal.Hand

end
-- ==== Proof.Stages.lean ====
import proofs.«166951_j44444321579084_2_alg».proof.ReferenceIdeal
import proofs.«166951_j44444321579084_2_alg».proof.Proof.Gen.ReferenceIdeal

/-!
# The network's stages as pure functions of whole arrays

A three-layer heterogeneous GraphSAGE network with an edge head, cut into the stages both programs of this
certificate go through. Every definition is the composition of host operations exactly as the reference program
applies them (the same operations, in the same order, with the same dimension records), so that the reference's
result is `head … (layers …)` by unfolding, and the kernel program's host glue — which applies the same
operations between its fused kernels — is stated over the same terms.

* `eiRow0`, `eiRow1`: the source row and the destination row of an edge list.
* `wrapCol`: an index row with negative entries shifted by the node count, as an index column.
* `aggSum h ei`: for each destination node the sum of the source rows of `h` over the edges that end there.
* `degF ei`: each destination node's in-degree, counted in floats and clamped below by one.
* `aggMean h ei cnt`: the sum aggregate divided row by row by `cnt`.
* `wAt`, `bAt`: one relation's weight matrix and bias of one layer, cut out of the stacked parameters.
* `sageOut agg h wl bl wr`: `agg · wlᵀ + bl + h · wrᵀ`.
* `relu`, `halfSum a b`: the rectifier and the mean of two relations.
* `enc x w1 b1 w2 b2`: a node encoder, `relu (x · w1ᵀ + b1) · w2ᵀ + b2`.
* `headOut src tgt ea …`: the gated edge head.
-/

noncomputable section

namespace Cert.Stages

open Idealize.ShloMosaic Cert.ReferenceIdeal Cert.ReferenceIdeal.Facts₀ Cert.ReferenceIdeal.Facts

variable {F : FTy → Type} [FloatOps F]

/-- The contents of a buffer of shape `S` and element type `e`. -/
abbrev Arr (F : FTy → Type) [FloatOps F] (S : Shape) (e : EltTy) : Type := (⟨S, e⟩ : BufTy).Contents (Elt F)

/-! ## Edge lists -/

/-- The source row of an edge list. -/
def eiRow0 (ei : Arr F S2x500000 .i32) : Arr F S500000 .i32 :=
  shapeCast _ (extractStridedSlice S1x500000 ![0, 0] ei slices_S2x500000_S1x500000_0_0) shapeCasts_S1x500000_S500000

/-- The destination row of an edge list. -/
def eiRow1 (ei : Arr F S2x500000 .i32) : Arr F S500000 .i32 :=
  shapeCast _ (extractStridedSlice S1x500000 ![1, 0] ei slices_S2x500000_S1x500000_1_0) shapeCasts_S1x500000_S500000

/-- An index row as an index column. -/
def idxCol (row : Arr F S500000 .i32) : Arr F S500000x1 .i32 :=
  broadcastInDim S500000x1 ![0] bcast_S500000_S500000x1_0 row

/-- An index row with its negative entries shifted up by the node count. -/
def wrapRow (row : Arr F S500000 .i32) : Arr F S500000 .i32 :=
  select (cmpi .slt row (broadcastInDim S500000 ![] bcast_S_S500000 (constantI S_ 32 0#32)))
    (addi row (broadcastInDim S500000 ![] bcast_S_S500000 (constantI S_ 32 50000#32))) row

/-- The rows of `h` the edges start from. -/
def srcRows (h : Arr F S50000x128 .f32) (row : Arr F S500000 .i32) : Arr F S500000x128 .f32 :=
  Host.gather gather_S50000x128_S500000x1_S500000x128_1_0_n_n_0_1_1128 h (idxCol (wrapRow row))

/-! ## Aggregation -/

/-- For each destination node, the sum of the source rows of `h` over the edges that end there. -/
def aggSum (h : Arr F S50000x128 .f32) (ei : Arr F S2x500000 .i32) : Arr F S50000x128 .f32 :=
  Host.scatterAdd scatter_S50000x128_S500000x1_S500000x128_1_0_0_1
    (broadcastInDim S50000x128 ![] bcast_S_S50000x128 (constant S_ .f32 0x00000000#32))
    (idxCol (eiRow1 ei)) (srcRows h (eiRow0 ei))

/-- Each destination node's in-degree, counted in floats, clamped below by one. -/
def degF (ei : Arr F S2x500000 .i32) : Arr F S50000 .f32 :=
  maximumf
    (Host.scatterAdd scatter_S50000_S500000x1_S500000_n_0_0_1
      (broadcastInDim S50000 ![] bcast_S_S50000 (constant S_ .f32 0x00000000#32))
      (idxCol (eiRow1 ei))
      (broadcastInDim S500000 ![] bcast_S_S500000 (constant S_ .f32 0x3F800000#32)))
    (broadcastInDim S50000 ![] bcast_S_S50000 (constant S_ .f32 0x3F800000#32))

/-- A per-node divisor spread over the feature axis. -/
def perRow (cnt : Arr F S50000 .f32) : Arr F S50000x128 .f32 :=
  broadcastInDim S50000x128 ![0, 1] bcast_S50000x1_S50000x128_0_1 (broadcastInDim S50000x1 ![0] bcast_S50000_S50000x1_0 cnt)

/-- The sum aggregate divided row by row by `cnt`. -/
def aggMean (h : Arr F S50000x128 .f32) (ei : Arr F S2x500000 .i32) (cnt : Arr F S50000 .f32) : Arr F S50000x128 .f32 :=
  Host.divf (aggSum h ei) (perRow cnt)

/-! ## One relation's parameters, cut out of the stacked ones -/

/-- Layer 0, relation 0: a weight matrix out of a stacked [3, 4, 128, 128] parameter. -/
def wAt00 (w : Arr F S3x4x128x128 .f32) : Arr F S128x128 .f32 :=
  shapeCast _ (extractStridedSlice S1x1x128x128 ![0, 0, 0, 0] w slices_S3x4x128x128_S1x1x128x128_0_0_0_0) shapeCasts_S1x1x128x128_S128x128
/-- Layer 0, relation 0: a bias out of the stacked [3, 4, 128] parameter. -/
def bAt00 (b : Arr F S3x4x128 .f32) : Arr F S128 .f32 :=
  shapeCast _ (extractStridedSlice S1x1x128 ![0, 0, 0] b slices_S3x4x128_S1x1x128_0_0_0) shapeCasts_S1x1x128_S128

/-- Layer 0, relation 1: a weight matrix out of a stacked [3, 4, 128, 128] parameter. -/
def wAt01 (w : Arr F S3x4x128x128 .f32) : Arr F S128x128 .f32 :=
  shapeCast _ (extractStridedSlice S1x1x128x128 ![0, 1, 0, 0] w slices_S3x4x128x128_S1x1x128x128_0_1_0_0) shapeCasts_S1x1x128x128_S128x128
/-- Layer 0, relation 1: a bias out of the stacked [3, 4, 128] parameter. -/
def bAt01 (b : Arr F S3x4x128 .f32) : Arr F S128 .f32 :=
  shapeCast _ (extractStridedSlice S1x1x128 ![0, 1, 0] b slices_S3x4x128_S1x1x128_0_1_0) shapeCasts_S1x1x128_S128

/-- Layer 0, relation 2: a weight matrix out of a stacked [3, 4, 128, 128] parameter. -/
def wAt02 (w : Arr F S3x4x128x128 .f32) : Arr F S128x128 .f32 :=
  shapeCast _ (extractStridedSlice S1x1x128x128 ![0, 2, 0, 0] w slices_S3x4x128x128_S1x1x128x128_0_2_0_0) shapeCasts_S1x1x128x128_S128x128
/-- Layer 0, relation 2: a bias out of the stacked [3, 4, 128] parameter. -/
def bAt02 (b : Arr F S3x4x128 .f32) : Arr F S128 .f32 :=
  shapeCast _ (extractStridedSlice S1x1x128 ![0, 2, 0] b slices_S3x4x128_S1x1x128_0_2_0) shapeCasts_S1x1x128_S128

/-- Layer 0, relation 3: a weight matrix out of a stacked [3, 4, 128, 128] parameter. -/
def wAt03 (w : Arr F S3x4x128x128 .f32) : Arr F S128x128 .f32 :=
  shapeCast _ (extractStridedSlice S1x1x128x128 ![0, 3, 0, 0] w slices_S3x4x128x128_S1x1x128x128_0_3_0_0) shapeCasts_S1x1x128x128_S128x128
/-- Layer 0, relation 3: a bias out of the stacked [3, 4, 128] parameter. -/
def bAt03 (b : Arr F S3x4x128 .f32) : Arr F S128 .f32 :=
  shapeCast _ (extractStridedSlice S1x1x128 ![0, 3, 0] b slices_S3x4x128_S1x1x128_0_3_0) shapeCasts_S1x1x128_S128

/-- Layer 1, relation 0: a weight matrix out of a stacked [3, 4, 128, 128] parameter. -/
def wAt10 (w : Arr F S3x4x128x128 .f32) : Arr F S128x128 .f32 :=
  shapeCast _ (extractStridedSlice S1x1x128x128 ![1, 0, 0, 0] w slices_S3x4x128x128_S1x1x128x128_1_0_0_0) shapeCasts_S1x1x128x128_S128x128
/-- Layer 1, relation 0: a bias out of the stacked [3, 4, 128] parameter. -/
def bAt10 (b : Arr F S3x4x128 .f32) : Arr F S128 .f32 :=
  shapeCast _ (extractStridedSlice S1x1x128 ![1, 0, 0] b slices_S3x4x128_S1x1x128_1_0_0) shapeCasts_S1x1x128_S128

/-- Layer 1, relation 1: a weight matrix out of a stacked [3, 4, 128, 128] parameter. -/
def wAt11 (w : Arr F S3x4x128x128 .f32) : Arr F S128x128 .f32 :=
  shapeCast _ (extractStridedSlice S1x1x128x128 ![1, 1, 0, 0] w slices_S3x4x128x128_S1x1x128x128_1_1_0_0) shapeCasts_S1x1x128x128_S128x128
/-- Layer 1, relation 1: a bias out of the stacked [3, 4, 128] parameter. -/
def bAt11 (b : Arr F S3x4x128 .f32) : Arr F S128 .f32 :=
  shapeCast _ (extractStridedSlice S1x1x128 ![1, 1, 0] b slices_S3x4x128_S1x1x128_1_1_0) shapeCasts_S1x1x128_S128

/-- Layer 1, relation 2: a weight matrix out of a stacked [3, 4, 128, 128] parameter. -/
def wAt12 (w : Arr F S3x4x128x128 .f32) : Arr F S128x128 .f32 :=
  shapeCast _ (extractStridedSlice S1x1x128x128 ![1, 2, 0, 0] w slices_S3x4x128x128_S1x1x128x128_1_2_0_0) shapeCasts_S1x1x128x128_S128x128
/-- Layer 1, relation 2: a bias out of the stacked [3, 4, 128] parameter. -/
def bAt12 (b : Arr F S3x4x128 .f32) : Arr F S128 .f32 :=
  shapeCast _ (extractStridedSlice S1x1x128 ![1, 2, 0] b slices_S3x4x128_S1x1x128_1_2_0) shapeCasts_S1x1x128_S128

/-- Layer 1, relation 3: a weight matrix out of a stacked [3, 4, 128, 128] parameter. -/
def wAt13 (w : Arr F S3x4x128x128 .f32) : Arr F S128x128 .f32 :=
  shapeCast _ (extractStridedSlice S1x1x128x128 ![1, 3, 0, 0] w slices_S3x4x128x128_S1x1x128x128_1_3_0_0) shapeCasts_S1x1x128x128_S128x128
/-- Layer 1, relation 3: a bias out of the stacked [3, 4, 128] parameter. -/
def bAt13 (b : Arr F S3x4x128 .f32) : Arr F S128 .f32 :=
  shapeCast _ (extractStridedSlice S1x1x128 ![1, 3, 0] b slices_S3x4x128_S1x1x128_1_3_0) shapeCasts_S1x1x128_S128

/-- Layer 2, relation 0: a weight matrix out of a stacked [3, 4, 128, 128] parameter. -/
def wAt20 (w : Arr F S3x4x128x128 .f32) : Arr F S128x128 .f32 :=
  shapeCast _ (extractStridedSlice S1x1x128x128 ![2, 0, 0, 0] w slices_S3x4x128x128_S1x1x128x128_2_0_0_0) shapeCasts_S1x1x128x128_S128x128
/-- Layer 2, relation 0: a bias out of the stacked [3, 4, 128] parameter. -/
def bAt20 (b : Arr F S3x4x128 .f32) : Arr F S128 .f32 :=
  shapeCast _ (extractStridedSlice S1x1x128 ![2, 0, 0] b slices_S3x4x128_S1x1x128_2_0_0) shapeCasts_S1x1x128_S128

/-- Layer 2, relation 1: a weight matrix out of a stacked [3, 4, 128, 128] parameter. -/
def wAt21 (w : Arr F S3x4x128x128 .f32) : Arr F S128x128 .f32 :=
  shapeCast _ (extractStridedSlice S1x1x128x128 ![2, 1, 0, 0] w slices_S3x4x128x128_S1x1x128x128_2_1_0_0) shapeCasts_S1x1x128x128_S128x128
/-- Layer 2, relation 1: a bias out of the stacked [3, 4, 128] parameter. -/
def bAt21 (b : Arr F S3x4x128 .f32) : Arr F S128 .f32 :=
  shapeCast _ (extractStridedSlice S1x1x128 ![2, 1, 0] b slices_S3x4x128_S1x1x128_2_1_0) shapeCasts_S1x1x128_S128

/-- Layer 2, relation 2: a weight matrix out of a stacked [3, 4, 128, 128] parameter. -/
def wAt22 (w : Arr F S3x4x128x128 .f32) : Arr F S128x128 .f32 :=
  shapeCast _ (extractStridedSlice S1x1x128x128 ![2, 2, 0, 0] w slices_S3x4x128x128_S1x1x128x128_2_2_0_0) shapeCasts_S1x1x128x128_S128x128
/-- Layer 2, relation 2: a bias out of the stacked [3, 4, 128] parameter. -/
def bAt22 (b : Arr F S3x4x128 .f32) : Arr F S128 .f32 :=
  shapeCast _ (extractStridedSlice S1x1x128 ![2, 2, 0] b slices_S3x4x128_S1x1x128_2_2_0) shapeCasts_S1x1x128_S128

/-- Layer 2, relation 3: a weight matrix out of a stacked [3, 4, 128, 128] parameter. -/
def wAt23 (w : Arr F S3x4x128x128 .f32) : Arr F S128x128 .f32 :=
  shapeCast _ (extractStridedSlice S1x1x128x128 ![2, 3, 0, 0] w slices_S3x4x128x128_S1x1x128x128_2_3_0_0) shapeCasts_S1x1x128x128_S128x128
/-- Layer 2, relation 3: a bias out of the stacked [3, 4, 128] parameter. -/
def bAt23 (b : Arr F S3x4x128 .f32) : Arr F S128 .f32 :=
  shapeCast _ (extractStridedSlice S1x1x128 ![2, 3, 0] b slices_S3x4x128_S1x1x128_2_3_0) shapeCasts_S1x1x128_S128

/-! ## Dense pieces -/

/-- A matrix transposed. -/
def tr128 (w : Arr F S128x128 .f32) : Arr F S128x128 .f32 := transpose S128x128 [1, 0] w transposes_S128x128_S128x128_1_0

/-- A bias spread over the 50000 rows. -/
def biasRows (b : Arr F S128 .f32) : Arr F S50000x128 .f32 :=
  broadcastInDim S50000x128 ![0, 1] bcast_S1x128_S50000x128_0_1 (broadcastInDim S1x128 ![1] bcast_S128_S1x128_1 b)

/-- `x · wᵀ` over the 50000 rows. -/
def dotT (x : Arr F S50000x128 .f32) (w : Arr F S128x128 .f32) : Arr F S50000x128 .f32 :=
  Host.dotGeneral dot_S50000x128_S128x128_S50000x128_1_0_0_1_n_n none x (tr128 w)

/-- One relation's output: `agg · wlᵀ + bl + h · wrᵀ`. -/
def sageOut (agg h : Arr F S50000x128 .f32) (wl : Arr F S128x128 .f32) (bl : Arr F S128 .f32) (wr : Arr F S128x128 .f32) :
    Arr F S50000x128 .f32 :=
  addf (addf (dotT agg wl) (biasRows bl)) (dotT h wr)

/-- The rectifier on a node-feature array. -/
def relu (x : Arr F S50000x128 .f32) : Arr F S50000x128 .f32 :=
  maximumf x (broadcastInDim S50000x128 ![] bcast_S_S50000x128 (constant S_ .f32 0x00000000#32))

/-- The mean of two relations' outputs. -/
def halfSum (a b : Arr F S50000x128 .f32) : Arr F S50000x128 .f32 :=
  mulf (addf a b) (broadcastInDim S50000x128 ![] bcast_S_S50000x128 (constant S_ .f32 0x3F000000#32))

/-- A layer's output for one node type without a residual: `relu (mean of the two relations)`. -/
def layerOut0 (aggA aggB h : Arr F S50000x128 .f32) (wlA : Arr F S128x128 .f32) (blA : Arr F S128 .f32) (wrA : Arr F S128x128 .f32)
    (wlB : Arr F S128x128 .f32) (blB : Arr F S128 .f32) (wrB : Arr F S128x128 .f32) : Arr F S50000x128 .f32 :=
  relu (halfSum (sageOut aggA h wlA blA wrA) (sageOut aggB h wlB blB wrB))

/-- A layer's output for one node type with the residual `h`: `relu (mean of the two relations + h)`. -/
def layerOutR (aggA aggB h : Arr F S50000x128 .f32) (wlA : Arr F S128x128 .f32) (blA : Arr F S128 .f32) (wrA : Arr F S128x128 .f32)
    (wlB : Arr F S128x128 .f32) (blB : Arr F S128 .f32) (wrB : Arr F S128x128 .f32) : Arr F S50000x128 .f32 :=
  relu (addf (halfSum (sageOut aggA h wlA blA wrA) (sageOut aggB h wlB blB wrB)) h)

/-! ## The encoders -/

/-- The source encoder, `relu (x · w1ᵀ + b1) · w2ᵀ + b2` on 64 input features. -/
def encS (x : Arr F S50000x64 .f32) (w1 : Arr F S128x64 .f32) (b1 : Arr F S128 .f32) (w2 : Arr F S128x128 .f32) (b2 : Arr F S128 .f32) :
    Arr F S50000x128 .f32 :=
  addf (dotT (relu (addf (Host.dotGeneral dot_S50000x64_S64x128_S50000x128_1_0_0_1_n_n none x
      (transpose S64x128 [1, 0] w1 transposes_S128x64_S64x128_1_0)) (biasRows b1))) w2) (biasRows b2)

/-- The target encoder, the same on 48 input features. -/
def encT (x : Arr F S50000x48 .f32) (w1 : Arr F S128x48 .f32) (b1 : Arr F S128 .f32) (w2 : Arr F S128x128 .f32) (b2 : Arr F S128 .f32) :
    Arr F S50000x128 .f32 :=
  addf (dotT (relu (addf (Host.dotGeneral dot_S50000x48_S48x128_S50000x128_1_0_0_1_n_n none x
      (transpose S48x128 [1, 0] w1 transposes_S128x48_S48x128_1_0)) (biasRows b1))) w2) (biasRows b2)

/-! ## The edge head -/

/-- The rectifier on an edge-feature array of 128 features. -/
def reluE128 (x : Arr F S500000x128 .f32) : Arr F S500000x128 .f32 :=
  maximumf x (broadcastInDim S500000x128 ![] bcast_S_S500000x128 (constant S_ .f32 0x00000000#32))

/-- The rectifier on an edge-feature array of 64 features. -/
def reluE64 (x : Arr F S500000x64 .f32) : Arr F S500000x64 .f32 :=
  maximumf x (broadcastInDim S500000x64 ![] bcast_S_S500000x64 (constant S_ .f32 0x00000000#32))

/-- The gate's logit: `relu ([src, tgt] · gw1ᵀ + gb1) · gw2ᵀ + gb2`, one number per edge. -/
def gateLogit (src tgt : Arr F S500000x128 .f32) (gw1 : Arr F S128x256 .f32) (gb1 : Arr F S128 .f32) (gw2 : Arr F S1x128 .f32)
    (gb2 : Arr F S1 .f32) : Arr F S500000x1 .f32 :=
  addf (Host.dotGeneral dot_S500000x128_S128x1_S500000x1_1_0_0_1_n_n none
      (reluE128 (addf (Host.dotGeneral dot_S500000x256_S256x128_S500000x128_1_0_0_1_n_n none
          (concatenate S500000x256 1 [⟨S500000x128, src⟩, ⟨S500000x128, tgt⟩] concatenates_S500000x128_S500000x128_S500000x256_d1)
          (transpose S256x128 [1, 0] gw1 transposes_S128x256_S256x128_1_0))
        (broadcastInDim S500000x128 ![0, 1] bcast_S1x128_S500000x128_0_1 (broadcastInDim S1x128 ![1] bcast_S128_S1x128_1 gb1))))
      (transpose S128x1 [1, 0] gw2 transposes_S1x128_S128x1_1_0))
    (broadcastInDim S500000x1 ![0, 1] bcast_S1x1_S500000x1_0_1 (broadcastInDim S1x1 ![1] bcast_S1_S1x1_1 gb2))

/-- The logistic function written out: `1 / (1 + exp (-z))`. -/
def sigmoidE (z : Arr F S500000x1 .f32) : Arr F S500000x1 .f32 :=
  Host.divf (broadcastInDim S500000x1 ![] bcast_S_S500000x1 (constant S_ .f32 0x3F800000#32))
    (addf (broadcastInDim S500000x1 ![] bcast_S_S500000x1 (constant S_ .f32 0x3F800000#32)) (Host.exp (Host.negf z)))

/-- The gated mix `src · g + tgt · (1 - g)`. -/
def gatedMix (src tgt : Arr F S500000x128 .f32) (g : Arr F S500000x1 .f32) : Arr F S500000x128 .f32 :=
  addf (mulf src (broadcastInDim S500000x128 ![0, 1] bcast_S500000x1_S500000x128_0_1 g))
    (mulf tgt (broadcastInDim S500000x128 ![0, 1] bcast_S500000x1_S500000x128_0_1
      (subf (broadcastInDim S500000x1 ![] bcast_S_S500000x1 (constant S_ .f32 0x3F800000#32)) g)))

/-- The three dense layers on the mix joined with the edge attributes. -/
def mlpOut (mix : Arr F S500000x128 .f32) (ea : Arr F S500000x32 .f32) (w1 : Arr F S128x160 .f32) (b1 : Arr F S128 .f32)
    (w2 : Arr F S64x128 .f32) (b2 : Arr F S64 .f32) (w3 : Arr F S2x64 .f32) (b3 : Arr F S2 .f32) : Arr F S500000x2 .f32 :=
  addf (Host.dotGeneral dot_S500000x64_S64x2_S500000x2_1_0_0_1_n_n none
      (reluE64 (addf (Host.dotGeneral dot_S500000x128_S128x64_S500000x64_1_0_0_1_n_n none
          (reluE128 (addf (Host.dotGeneral dot_S500000x160_S160x128_S500000x128_1_0_0_1_n_n none
              (concatenate S500000x160 1 [⟨S500000x128, mix⟩, ⟨S500000x32, ea⟩] concatenates_S500000x128_S500000x32_S500000x160_d1)
              (transpose S160x128 [1, 0] w1 transposes_S128x160_S160x128_1_0))
            (broadcastInDim S500000x128 ![0, 1] bcast_S1x128_S500000x128_0_1 (broadcastInDim S1x128 ![1] bcast_S128_S1x128_1 b1))))
          (transpose S128x64 [1, 0] w2 transposes_S64x128_S128x64_1_0))
        (broadcastInDim S500000x64 ![0, 1] bcast_S1x64_S500000x64_0_1 (broadcastInDim S1x64 ![1] bcast_S64_S1x64_1 b2))))
      (transpose S64x2 [1, 0] w3 transposes_S2x64_S64x2_1_0))
    (broadcastInDim S500000x2 ![0, 1] bcast_S1x2_S500000x2_0_1 (broadcastInDim S1x2 ![1] bcast_S2_S1x2_1 b3))

/-- The edge head: gate the two end points' features, join the edge attributes, three dense layers. -/
def headOut (src tgt : Arr F S500000x128 .f32) (ea : Arr F S500000x32 .f32) (gw1 : Arr F S128x256 .f32) (gb1 : Arr F S128 .f32)
    (gw2 : Arr F S1x128 .f32) (gb2 : Arr F S1 .f32) (w1 : Arr F S128x160 .f32) (b1 : Arr F S128 .f32) (w2 : Arr F S64x128 .f32)
    (b2 : Arr F S64 .f32) (w3 : Arr F S2x64 .f32) (b3 : Arr F S2 .f32) : Arr F S500000x2 .f32 :=
  mlpOut (gatedMix src tgt (sigmoidE (gateLogit src tgt gw1 gb1 gw2 gb2))) ea w1 b1 w2 b2 w3 b3

/-! ## The layers and the whole network -/

/-- One node type's features after a layer WITHOUT residual: `own` are that type's features, `other` the other
    type's; `eA` are the edges within the type (aggregated from `own`), `eB` the edges arriving from the other type. -/
def layer0 (own other : Arr F S50000x128 .f32) (eA eB : Arr F S2x500000 .i32)
    (wlA : Arr F S128x128 .f32) (blA : Arr F S128 .f32) (wrA : Arr F S128x128 .f32)
    (wlB : Arr F S128x128 .f32) (blB : Arr F S128 .f32) (wrB : Arr F S128x128 .f32) : Arr F S50000x128 .f32 :=
  layerOut0 (aggMean own eA (degF eA)) (aggMean other eB (degF eB)) own wlA blA wrA wlB blB wrB

/-- The same WITH the residual. -/
def layerR (own other : Arr F S50000x128 .f32) (eA eB : Arr F S2x500000 .i32)
    (wlA : Arr F S128x128 .f32) (blA : Arr F S128 .f32) (wrA : Arr F S128x128 .f32)
    (wlB : Arr F S128x128 .f32) (blB : Arr F S128 .f32) (wrB : Arr F S128x128 .f32) : Arr F S50000x128 .f32 :=
  layerOutR (aggMean own eA (degF eA)) (aggMean other eB (degF eB)) own wlA blA wrA wlB blB wrB

/-- Layer 1, source nodes (relations 0 = source→source and 3 = target→source). -/
def h1s (xs xt : Arr F S50000x128 .f32) (ss ts : Arr F S2x500000 .i32) (wl : Arr F S3x4x128x128 .f32) (bl : Arr F S3x4x128 .f32) (wr : Arr F S3x4x128x128 .f32) : Arr F S50000x128 .f32 :=
  layer0 xs xt ss ts (wAt00 wl) (bAt00 bl) (wAt00 wr) (wAt03 wl) (bAt03 bl) (wAt03 wr)
/-- Layer 1, target nodes (relations 1 = target→target and 2 = source→target). -/
def h1t (xs xt : Arr F S50000x128 .f32) (tt st : Arr F S2x500000 .i32) (wl : Arr F S3x4x128x128 .f32) (bl : Arr F S3x4x128 .f32) (wr : Arr F S3x4x128x128 .f32) : Arr F S50000x128 .f32 :=
  layer0 xt xs tt st (wAt01 wl) (bAt01 bl) (wAt01 wr) (wAt02 wl) (bAt02 bl) (wAt02 wr)
/-- Layer 2, source nodes. -/
def h2s (hs ht : Arr F S50000x128 .f32) (ss ts : Arr F S2x500000 .i32) (wl : Arr F S3x4x128x128 .f32) (bl : Arr F S3x4x128 .f32) (wr : Arr F S3x4x128x128 .f32) : Arr F S50000x128 .f32 :=
  layerR hs ht ss ts (wAt10 wl) (bAt10 bl) (wAt10 wr) (wAt13 wl) (bAt13 bl) (wAt13 wr)
/-- Layer 2, target nodes. -/
def h2t (hs ht : Arr F S50000x128 .f32) (tt st : Arr F S2x500000 .i32) (wl : Arr F S3x4x128x128 .f32) (bl : Arr F S3x4x128 .f32) (wr : Arr F S3x4x128x128 .f32) : Arr F S50000x128 .f32 :=
  layerR ht hs tt st (wAt11 wl) (bAt11 bl) (wAt11 wr) (wAt12 wl) (bAt12 bl) (wAt12 wr)
/-- Layer 3, source nodes. -/
def h3s (hs ht : Arr F S50000x128 .f32) (ss ts : Arr F S2x500000 .i32) (wl : Arr F S3x4x128x128 .f32) (bl : Arr F S3x4x128 .f32) (wr : Arr F S3x4x128x128 .f32) : Arr F S50000x128 .f32 :=
  layerR hs ht ss ts (wAt20 wl) (bAt20 bl) (wAt20 wr) (wAt23 wl) (bAt23 bl) (wAt23 wr)
/-- Layer 3, target nodes. -/
def h3t (hs ht : Arr F S50000x128 .f32) (tt st : Arr F S2x500000 .i32) (wl : Arr F S3x4x128x128 .f32) (bl : Arr F S3x4x128 .f32) (wr : Arr F S3x4x128x128 .f32) : Arr F S50000x128 .f32 :=
  layerR ht hs tt st (wAt21 wl) (bAt21 bl) (wAt21 wr) (wAt22 wl) (bAt22 bl) (wAt22 wr)

/-- The network's result from the two encoders' outputs `xs`, `xt`: three layers, then the edge head on the
    source→target edges (the source end's row of the source features, the target end's row of the target features). -/
def netFrom (xs xt : Arr F S50000x128 .f32) (ea : Arr F S500000x32 .f32) (wl : Arr F S3x4x128x128 .f32) (bl : Arr F S3x4x128 .f32) (wr : Arr F S3x4x128x128 .f32)
    (gw1 : Arr F S128x256 .f32) (gb1 : Arr F S128 .f32) (gw2 : Arr F S1x128 .f32) (gb2 : Arr F S1 .f32)
    (mw1 : Arr F S128x160 .f32) (mb1 : Arr F S128 .f32) (mw2 : Arr F S64x128 .f32) (mb2 : Arr F S64 .f32)
    (mw3 : Arr F S2x64 .f32) (mb3 : Arr F S2 .f32) (ss tt st ts : Arr F S2x500000 .i32) : Arr F S500000x2 .f32 :=
  headOut
    (srcRows (h3s (h2s (h1s xs xt ss ts wl bl wr) (h1t xs xt tt st wl bl wr) ss ts wl bl wr)
                  (h2t (h1s xs xt ss ts wl bl wr) (h1t xs xt tt st wl bl wr) tt st wl bl wr) ss ts wl bl wr) (eiRow0 st))
    (srcRows (h3t (h2s (h1s xs xt ss ts wl bl wr) (h1t xs xt tt st wl bl wr) ss ts wl bl wr)
                  (h2t (h1s xs xt ss ts wl bl wr) (h1t xs xt tt st wl bl wr) tt st wl bl wr) tt st wl bl wr) (eiRow1 st))
    ea gw1 gb1 gw2 gb2 mw1 mb1 mw2 mb2 mw3 mb3

/-- The network's result of the programs' 28 arguments, in their order. -/
def netOut (xS : Arr F S50000x64 .f32) (xT : Arr F S50000x48 .f32) (ea : Arr F S500000x32 .f32)
    (esW1 : Arr F S128x64 .f32) (esB1 : Arr F S128 .f32) (esW2 : Arr F S128x128 .f32) (esB2 : Arr F S128 .f32)
    (etW1 : Arr F S128x48 .f32) (etB1 : Arr F S128 .f32) (etW2 : Arr F S128x128 .f32) (etB2 : Arr F S128 .f32) (wl : Arr F S3x4x128x128 .f32) (bl : Arr F S3x4x128 .f32) (wr : Arr F S3x4x128x128 .f32)
    (gw1 : Arr F S128x256 .f32) (gb1 : Arr F S128 .f32) (gw2 : Arr F S1x128 .f32) (gb2 : Arr F S1 .f32)
    (mw1 : Arr F S128x160 .f32) (mb1 : Arr F S128 .f32) (mw2 : Arr F S64x128 .f32) (mb2 : Arr F S64 .f32)
    (mw3 : Arr F S2x64 .f32) (mb3 : Arr F S2 .f32) (ss tt st ts : Arr F S2x500000 .i32) : Arr F S500000x2 .f32 :=
  netFrom (encS xS esW1 esB1 esW2 esB2) (encT xT etW1 etB1 etW2 etB2) ea wl bl wr gw1 gb1 gw2 gb2 mw1 mb1 mw2 mb2 mw3 mb3 ss tt st ts

end Cert.Stages

end
-- ==== Proof.KPrep.lean ====
import proofs.«166951_j44444321579084_2_alg».proof.Proof.Stages
import proofs.«166951_j44444321579084_2_alg».proof.Proof.Gen.KernelIdeal

/-! # What the kernel program prepares on the host for its fused kernels

The fused kernels take every weight matrix transposed (so that a product is a plain row-by-column product) and,
from the first graph layer on, narrowed to bf16; every bias as a one-row matrix; the two first-layer matrices of
the edge head (the gate's and the classifier's) cut into the column blocks that meet the two halves of their
concatenated input; and the kernels' last result comes back transposed. The reference program does none of this
separately (it multiplies by the transposed f32 matrix and adds the broadcast bias). Each such preparation is
named here once, with the operations exactly as the kernel program applies them. The in-degree of a relation,
which the kernel program counts over the integers before converting it, is named here too. -/

noncomputable section

namespace Cert.KPrep

open Idealize.ShloMosaic Cert.KernelIdeal Cert.KernelIdeal.Gen
open Cert.Stages (Arr)

variable {F : FTy → Type} [FloatOps F]

/-! ## The encoders (kernel calls 0 and 1): f32 throughout -/

/-- The source encoder's first weight matrix, transposed. -/
def kTr64 (w : Arr F S128x64 .f32) : Arr F S64x128 .f32 :=
  transpose S64x128 [1, 0] w transposes_S128x64_S64x128_1_0

/-- The target encoder's first weight matrix, transposed. -/
def kTr48 (w : Arr F S128x48 .f32) : Arr F S48x128 .f32 :=
  transpose S48x128 [1, 0] w transposes_S128x48_S48x128_1_0

/-- A square weight matrix, transposed. -/
def kTr128 (w : Arr F S128x128 .f32) : Arr F S128x128 .f32 :=
  transpose S128x128 [1, 0] w transposes_S128x128_S128x128_1_0

/-- A bias of 128 entries as a one-row matrix. -/
def kRow128 (b : Arr F S128 .f32) : Arr F S1x128 .f32 :=
  shapeCast S1x128 b shapeCasts_S128_S1x128

/-! ## The graph layers (kernel calls 2 to 7) -/

/-- A square matrix narrowed to bf16. -/
def kBf128 (x : Arr F S128x128 .f32) : Arr F S128x128 .bf16 :=
  truncf .bf16 x bitsLt_bf16_f32

/-- A square weight matrix as a layer kernel takes it: transposed, in bf16. -/
def kT128 (w : Arr F S128x128 .f32) : Arr F S128x128 .bf16 :=
  kBf128 (kTr128 w)

/-- The in-degree of every node under the edge list `ei`, counted over the integers (a one added at each
    edge's destination), converted to a float and clamped below by one. -/
def kDeg (ei : Arr F S2x500000 .i32) : Arr F S50000 .f32 :=
  maximumf
    (sitofp .f32 (Host.scatter scatter_S50000_S500000x1_S500000_n_0_0_1 IntOp.addi
      (broadcastInDim S50000 ![] bcast_S_S50000 (constantI S_ 32 0#32))
      (Cert.Stages.idxCol (Cert.Stages.eiRow1 ei))
      (broadcastInDim S500000 ![] bcast_S_S500000 (constantI S_ 32 1#32))))
    (broadcastInDim S50000 ![] bcast_S_S50000 (constant (F := F) S_ .f32 0x3F800000#32))

/-! ## The edge head (kernel call 8) -/

/-- The gate's first matrix, columns 0 to 127 (they meet the source half of the input): transposed, in bf16. -/
def kGateW1a (gw1 : Arr F S128x256 .f32) : Arr F S128x128 .bf16 :=
  kT128 (extractStridedSlice S128x128 ![0, 0] gw1 slices_S128x256_S128x128_0_0)

/-- The gate's first matrix, columns 128 to 255 (the target half): transposed, in bf16. -/
def kGateW1b (gw1 : Arr F S128x256 .f32) : Arr F S128x128 .bf16 :=
  kT128 (extractStridedSlice S128x128 ![0, 128] gw1 slices_S128x256_S128x128_0_128)

/-- The gate's second matrix (one row): transposed to a column, in bf16. -/
def kGateW2 (gw2 : Arr F S1x128 .f32) : Arr F S128x1 .bf16 :=
  truncf .bf16 (transpose S128x1 [1, 0] gw2 transposes_S1x128_S128x1_1_0) bitsLt_bf16_f32

/-- The classifier's first matrix, columns 0 to 127 (they meet the gated mix): transposed, in bf16. -/
def kMlpW1a (w1 : Arr F S128x160 .f32) : Arr F S128x128 .bf16 :=
  kT128 (extractStridedSlice S128x128 ![0, 0] w1 slices_S128x160_S128x128_0_0)

/-- The classifier's first matrix, columns 128 to 159 (they meet the edge attributes): transposed, in bf16. -/
def kMlpW1b (w1 : Arr F S128x160 .f32) : Arr F S32x128 .bf16 :=
  truncf .bf16 (transpose S32x128 [1, 0] (extractStridedSlice S128x32 ![0, 128] w1 slices_S128x160_S128x32_0_128)
    transposes_S128x32_S32x128_1_0) bitsLt_bf16_f32

/-- The classifier's second matrix: transposed, in bf16. -/
def kMlpW2 (w2 : Arr F S64x128 .f32) : Arr F S128x64 .bf16 :=
  truncf .bf16 (transpose S128x64 [1, 0] w2 transposes_S64x128_S128x64_1_0) bitsLt_bf16_f32

/-- The classifier's third matrix: transposed, in bf16. -/
def kMlpW3 (w3 : Arr F S2x64 .f32) : Arr F S64x2 .bf16 :=
  truncf .bf16 (transpose S64x2 [1, 0] w3 transposes_S2x64_S64x2_1_0) bitsLt_bf16_f32

/-- A bias of one entry as a one-row matrix. -/
def kRow1 (b : Arr F S1 .f32) : Arr F S1x1 .f32 :=
  shapeCast S1x1 b shapeCasts_S1_S1x1

/-- A bias of 64 entries as a one-row matrix. -/
def kRow64 (b : Arr F S64 .f32) : Arr F S1x64 .f32 :=
  shapeCast S1x64 b shapeCasts_S64_S1x64

/-- A bias of two entries as a one-row matrix. -/
def kRow2 (b : Arr F S2 .f32) : Arr F S1x2 .f32 :=
  shapeCast S1x2 b shapeCasts_S2_S1x2

/-- The head kernel's result (classes by edges), transposed to edges by classes. -/
def kOutT (y : Arr F S2x500000 .f32) : Arr F S500000x2 .f32 :=
  transpose S500000x2 [1, 0] y transposes_S2x500000_S500000x2_1_0

end Cert.KPrep
-- ==== Proof.KIGlueDefs.lean ====
import proofs.«166951_j44444321579084_2_alg».proof.Proof.Stages
import proofs.«166951_j44444321579084_2_alg».proof.Proof.KPrep

/-! # The steps the program's windows cut a stage into

The kernel program is printed in windows of sixty operations, and a window's end falls wherever the count puts
it: between an index row and its wrap, between a gather and the sum that consumes it, between a weight's slice
and its reshape. To say what a window leaves behind, the steps inside a stage are named here, each as the
operation the program applies. A stage of the network (`Cert.Stages`) or a preparation of the kernels' operands
(`Cert.KPrep`) is the composition of its steps, by unfolding. -/

noncomputable section

namespace Cert.KernelIdeal.Hand

open Idealize.ShloMosaic Cert.KernelIdeal Cert.KernelIdeal.Gen
open Cert.Stages (Arr eiRow0 eiRow1 idxCol wrapRow srcRows aggSum perRow aggMean)

variable {F : FTy → Type} [FloatOps F]

/-- Entrywise `i < 0` on an index row. -/
def ltZero (row : Arr F S500000 .i32) : Arr F S500000 .i1 :=
  cmpi .slt row (broadcastInDim S500000 ![] bcast_S_S500000 (constantI S_ 32 0#32))

/-- Entrywise `i + 50000` (the node count) on an index row. -/
def plusN (row : Arr F S500000 .i32) : Arr F S500000 .i32 :=
  addi row (broadcastInDim S500000 ![] bcast_S_S500000 (constantI S_ 32 50000#32))

/-- Entrywise choice between the shifted and the given index; `wrapRow row` is `wrapSel (ltZero row) (plusN row) row`. -/
def wrapSel (c : Arr F S500000 .i1) (p row : Arr F S500000 .i32) : Arr F S500000 .i32 :=
  select c p row

/-- The rows of `h` at the node indices `idx`, one per edge; `srcRows h row` is `gatherAt h (wrapRow row)`. -/
def gatherAt (h : Arr F S50000x128 .f32) (idx : Arr F S500000 .i32) : Arr F S500000x128 .f32 :=
  Host.gather gather_S50000x128_S500000x1_S500000x128_1_0_n_n_0_1_1128 h (idxCol idx)

/-- The all-zero feature array a sum over edges starts from. -/
def zeroRows : Arr F S50000x128 .f32 :=
  broadcastInDim S50000x128 ![] bcast_S_S50000x128 (constant (F := F) S_ .f32 0x00000000#32)

/-- Per-edge rows added into the rows of `z` that the index column names;
    `aggSum h ei` is `scatterInto zeroRows (idxCol (eiRow1 ei)) (srcRows h (eiRow0 ei))`. -/
def scatterInto (z : Arr F S50000x128 .f32) (idx : Arr F S500000x1 .i32) (rows : Arr F S500000x128 .f32) :
    Arr F S50000x128 .f32 :=
  Host.scatterAdd scatter_S50000x128_S500000x1_S500000x128_1_0_0_1 z idx rows

/-- The mean over incoming edges from the two index rows taken apart: the rows of `h` at the wrapped sources
    `src`, summed at the destinations `dst`, divided by the count `d`;
    `aggMean h ei d` is `aggMeanOf h (eiRow0 ei) (eiRow1 ei) d`. -/
def aggMeanOf (h : Arr F S50000x128 .f32) (src dst : Arr F S500000 .i32) (d : Arr F S50000 .f32) : Arr F S50000x128 .f32 :=
  Host.divf (scatterInto zeroRows (idxCol dst) (gatherAt h (wrapRow src))) (perRow d)

/-- The `1 × 1 × 128 × 128` block of layer `l`, relation `r` of a stacked weight tensor. -/
def wSlice (l r : Nat) (w : Arr F S3x4x128x128 .f32)
    (h : S3x4x128x128.Slices ![l, r, 0, 0] S1x1x128x128 := by decide) : Arr F S1x1x128x128 .f32 :=
  extractStridedSlice S1x1x128x128 ![l, r, 0, 0] w h

/-- The block as a matrix; `Cert.Stages.wAt22 w` is `wMat (wSlice 2 2 w)`. -/
def wMat (x : Arr F S1x1x128x128 .f32) : Arr F S128x128 .f32 :=
  shapeCast S128x128 x shapeCasts_S1x1x128x128_S128x128

end Cert.KernelIdeal.Hand
-- ==== Proof.KIGlueA.lean ====
import proofs.«166951_j44444321579084_2_alg».proof.Proof.Gen.KernelIdeal.Launch
import proofs.«166951_j44444321579084_2_alg».proof.Proof.KIHost
import proofs.«166951_j44444321579084_2_alg».proof.Proof.KIGlueDefs

/-! # The host operations of the kernel program read back: up to the first layer's source kernel

Between two kernel calls the program runs host operations that prepare the next call's operands. For contents
`W` at the boundary before such a stretch, each lemma here says what a buffer holds after the stretch's
operations, as a stage of the network (`Cert.Stages`) or a preparation (`Cert.KPrep`) applied to `W`'s values at
the buffers the stretch reads. First window by window (a window's end may fall inside a stage, and then the
lemma is over the steps of `KIGlueDefs`), then for the whole stretch. A buffer the stretch does not write keeps
its contents. This module: the two encoders' operands (their first weight transposed, their biases as rows),
the four relations' in-degrees, the first layer's four neighbour means and the weights of its source kernel. -/

set_option maxRecDepth 8192

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

variable {F : FTy → Type} [FloatOps F]

/-! ## What `main_part0_ops0` leaves behind -/

/-- A reference outside the list of those `main_part0_ops0` writes keeps its contents. -/
theorem part0_ops0_keep (V : Valuation τ sig (Elt F)) (r : Ref sig .tc) (hr : r ∉ main_part0_ops0_W) :
    StableHlo.after (main_part0_ops0 (F := F)) V (Proc.devRef .tc r) = V (Proc.devRef .tc r) :=
  StableHlo.after_of_writes_sub _ V main_part0_ops0_writes hr

theorem part0_ops0_v0 (V : Valuation τ sig (Elt F)) :
    StableHlo.after (main_part0_ops0 (F := F)) V (Proc.devRef .tc main_v0)
      = kTr64 (V (Proc.devRef .tc main_arg3)) := by
  after_results_simp
  rfl

theorem part0_ops0_v1 (V : Valuation τ sig (Elt F)) :
    StableHlo.after (main_part0_ops0 (F := F)) V (Proc.devRef .tc main_v1)
      = kTr128 (V (Proc.devRef .tc main_arg5)) := by
  after_results_simp
  rfl

theorem part0_ops0_v2 (V : Valuation τ sig (Elt F)) :
    StableHlo.after (main_part0_ops0 (F := F)) V (Proc.devRef .tc main_v2)
      = kRow128 (V (Proc.devRef .tc main_arg4)) := by
  after_results_simp
  rfl

theorem part0_ops0_v3 (V : Valuation τ sig (Elt F)) :
    StableHlo.after (main_part0_ops0 (F := F)) V (Proc.devRef .tc main_v3)
      = kRow128 (V (Proc.devRef .tc main_arg6)) := by
  after_results_simp
  rfl

/-! ## What `main_part0_ops1` leaves behind -/

/-- A reference outside the list of those `main_part0_ops1` writes keeps its contents. -/
theorem part0_ops1_keep (V : Valuation τ sig (Elt F)) (r : Ref sig .tc) (hr : r ∉ main_part0_ops1_W) :
    StableHlo.after (main_part0_ops1 (F := F)) V (Proc.devRef .tc r) = V (Proc.devRef .tc r) :=
  StableHlo.after_of_writes_sub _ V main_part0_ops1_writes hr

theorem part0_ops1_v5 (V : Valuation τ sig (Elt F)) :
    StableHlo.after (main_part0_ops1 (F := F)) V (Proc.devRef .tc main_v5)
      = kTr48 (V (Proc.devRef .tc main_arg7)) := by
  after_results_simp
  rfl

theorem part0_ops1_v6 (V : Valuation τ sig (Elt F)) :
    StableHlo.after (main_part0_ops1 (F := F)) V (Proc.devRef .tc main_v6)
      = kTr128 (V (Proc.devRef .tc main_arg9)) := by
  after_results_simp
  rfl

theorem part0_ops1_v7 (V : Valuation τ sig (Elt F)) :
    StableHlo.after (main_part0_ops1 (F := F)) V (Proc.devRef .tc main_v7)
      = kRow128 (V (Proc.devRef .tc main_arg8)) := by
  after_results_simp
  rfl

theorem part0_ops1_v8 (V : Valuation τ sig (Elt F)) :
    StableHlo.after (main_part0_ops1 (F := F)) V (Proc.devRef .tc main_v8)
      = kRow128 (V (Proc.devRef .tc main_arg10)) := by
  after_results_simp
  rfl

/-! ## What `main_part0_ops2` leaves behind -/

/-- A reference outside the list of those `main_part0_ops2` writes keeps its contents. -/
theorem part0_ops2_keep (V : Valuation τ sig (Elt F)) (r : Ref sig .tc) (hr : r ∉ main_part0_ops2_W) :
    StableHlo.after (main_part0_ops2 (F := F)) V (Proc.devRef .tc r) = V (Proc.devRef .tc r) :=
  StableHlo.after_of_writes_sub _ V main_part0_ops2_writes hr

theorem part0_ops2_v18 (V : Valuation τ sig (Elt F)) :
    StableHlo.after (main_part0_ops2 (F := F)) V (Proc.devRef .tc main_v18)
      = kDeg (V (Proc.devRef .tc main_arg24)) := by
  after_results_simp
  rfl

theorem part0_ops2_v27 (V : Valuation τ sig (Elt F)) :
    StableHlo.after (main_part0_ops2 (F := F)) V (Proc.devRef .tc main_v27)
      = kDeg (V (Proc.devRef .tc main_arg25)) := by
  after_results_simp
  rfl

theorem part0_ops2_v36 (V : Valuation τ sig (Elt F)) :
    StableHlo.after (main_part0_ops2 (F := F)) V (Proc.devRef .tc main_v36)
      = kDeg (V (Proc.devRef .tc main_arg26)) := by
  after_results_simp
  rfl

theorem part0_ops2_v45 (V : Valuation τ sig (Elt F)) :
    StableHlo.after (main_part0_ops2 (F := F)) V (Proc.devRef .tc main_v45)
      = kDeg (V (Proc.devRef .tc main_arg27)) := by
  after_results_simp
  rfl

theorem part0_ops2_v47 (V : Valuation τ sig (Elt F)) :
    StableHlo.after (main_part0_ops2 (F := F)) V (Proc.devRef .tc main_v47)
      = eiRow0 (V (Proc.devRef .tc main_arg24)) := by
  after_results_simp
  rfl

/-! ## What `main_part1_ops0` leaves behind -/

/-- A reference outside the list of those `main_part1_ops0` writes keeps its contents. -/
theorem part1_ops0_keep (V : Valuation τ sig (Elt F)) (r : Ref sig .tc) (hr : r ∉ main_part1_ops0_W) :
    StableHlo.after (main_part1_ops0 (F := F)) V (Proc.devRef .tc r) = V (Proc.devRef .tc r) :=
  StableHlo.after_of_writes_sub _ V main_part1_ops0_writes hr

theorem part1_ops0_v62 (V : Valuation τ sig (Elt F)) :
    StableHlo.after (main_part1_ops0 (F := F)) V (Proc.devRef .tc main_v62)
      = aggMeanOf (V (Proc.devRef .tc main_v4)) (V (Proc.devRef .tc main_v47)) (eiRow1 (V (Proc.devRef .tc main_arg24))) (V (Proc.devRef .tc main_v18)) := by
  after_results_simp
  rfl

theorem part1_ops0_v79 (V : Valuation τ sig (Elt F)) :
    StableHlo.after (main_part1_ops0 (F := F)) V (Proc.devRef .tc main_v79)
      = aggMean (V (Proc.devRef .tc main_v9)) (V (Proc.devRef .tc main_arg25)) (V (Proc.devRef .tc main_v27)) := by
  after_results_simp
  rfl

theorem part1_ops0_v96 (V : Valuation τ sig (Elt F)) :
    StableHlo.after (main_part1_ops0 (F := F)) V (Proc.devRef .tc main_v96)
      = aggMean (V (Proc.devRef .tc main_v4)) (V (Proc.devRef .tc main_arg26)) (V (Proc.devRef .tc main_v36)) := by
  after_results_simp
  rfl

theorem part1_ops0_v98 (V : Valuation τ sig (Elt F)) :
    StableHlo.after (main_part1_ops0 (F := F)) V (Proc.devRef .tc main_v98)
      = eiRow0 (V (Proc.devRef .tc main_arg27)) := by
  after_results_simp
  rfl

/-! ## What `main_part2_ops0` leaves behind -/

/-- A reference outside the list of those `main_part2_ops0` writes keeps its contents. -/
theorem part2_ops0_keep (V : Valuation τ sig (Elt F)) (r : Ref sig .tc) (hr : r ∉ main_part2_ops0_W) :
    StableHlo.after (main_part2_ops0 (F := F)) V (Proc.devRef .tc r) = V (Proc.devRef .tc r) :=
  StableHlo.after_of_writes_sub _ V main_part2_ops0_writes hr

theorem part2_ops0_v113 (V : Valuation τ sig (Elt F)) :
    StableHlo.after (main_part2_ops0 (F := F)) V (Proc.devRef .tc main_v113)
      = aggMeanOf (V (Proc.devRef .tc main_v9)) (V (Proc.devRef .tc main_v98)) (eiRow1 (V (Proc.devRef .tc main_arg27))) (V (Proc.devRef .tc main_v45)) := by
  after_results_simp
  rfl

theorem part2_ops0_v127 (V : Valuation τ sig (Elt F)) :
    StableHlo.after (main_part2_ops0 (F := F)) V (Proc.devRef .tc main_v127)
      = kT128 (wAt00 (V (Proc.devRef .tc main_arg11))) := by
  after_results_simp
  rfl

theorem part2_ops0_v129 (V : Valuation τ sig (Elt F)) :
    StableHlo.after (main_part2_ops0 (F := F)) V (Proc.devRef .tc main_v129)
      = kT128 (wAt00 (V (Proc.devRef .tc main_arg13))) := by
  after_results_simp
  rfl

theorem part2_ops0_v131 (V : Valuation τ sig (Elt F)) :
    StableHlo.after (main_part2_ops0 (F := F)) V (Proc.devRef .tc main_v131)
      = kT128 (wAt03 (V (Proc.devRef .tc main_arg11))) := by
  after_results_simp
  rfl

theorem part2_ops0_v133 (V : Valuation τ sig (Elt F)) :
    StableHlo.after (main_part2_ops0 (F := F)) V (Proc.devRef .tc main_v133)
      = kT128 (wAt03 (V (Proc.devRef .tc main_arg13))) := by
  after_results_simp
  rfl

theorem part2_ops0_v134 (V : Valuation τ sig (Elt F)) :
    StableHlo.after (main_part2_ops0 (F := F)) V (Proc.devRef .tc main_v134)
      = kRow128 (bAt00 (V (Proc.devRef .tc main_arg12))) := by
  after_results_simp
  rfl

theorem part2_ops0_v135 (V : Valuation τ sig (Elt F)) :
    StableHlo.after (main_part2_ops0 (F := F)) V (Proc.devRef .tc main_v135)
      = kRow128 (bAt03 (V (Proc.devRef .tc main_arg12))) := by
  after_results_simp
  rfl

/-! ## From the previous boundary to kernel call 0: `main_part0_ops0` -/

theorem glue0_v0 (W : Valuation τ sig (Elt F)) :
    StableHlo.after (main_part0_ops0 (F := F)) W (Proc.devRef .tc main_v0)
      = kTr64 (W (Proc.devRef .tc main_arg3)) := by
  rw [part0_ops0_v0] <;> rfl

theorem glue0_v1 (W : Valuation τ sig (Elt F)) :
    StableHlo.after (main_part0_ops0 (F := F)) W (Proc.devRef .tc main_v1)
      = kTr128 (W (Proc.devRef .tc main_arg5)) := by
  rw [part0_ops0_v1] <;> rfl

theorem glue0_v2 (W : Valuation τ sig (Elt F)) :
    StableHlo.after (main_part0_ops0 (F := F)) W (Proc.devRef .tc main_v2)
      = kRow128 (W (Proc.devRef .tc main_arg4)) := by
  rw [part0_ops0_v2] <;> rfl

theorem glue0_v3 (W : Valuation τ sig (Elt F)) :
    StableHlo.after (main_part0_ops0 (F := F)) W (Proc.devRef .tc main_v3)
      = kRow128 (W (Proc.devRef .tc main_arg6)) := by
  rw [part0_ops0_v3] <;> rfl

/-- A reference none of these pieces writes comes through unchanged. -/
theorem keep0 (W : Valuation τ sig (Elt F)) (r : Ref sig .tc) (h0 : r ∉ main_part0_ops0_W) :
    StableHlo.after (main_part0_ops0 (F := F)) W (Proc.devRef .tc r) = W (Proc.devRef .tc r) := by
  rw [part0_ops0_keep _ r h0]
theorem keep0_arg0 (W : Valuation τ sig (Elt F)) :
    StableHlo.after (main_part0_ops0 (F := F)) W (Proc.devRef .tc main_arg0) = W (Proc.devRef .tc main_arg0) :=
  keep0 W main_arg0 (by decide)
theorem keep0_arg7 (W : Valuation τ sig (Elt F)) :
    StableHlo.after (main_part0_ops0 (F := F)) W (Proc.devRef .tc main_arg7) = W (Proc.devRef .tc main_arg7) :=
  keep0 W main_arg7 (by decide)
theorem keep0_arg9 (W : Valuation τ sig (Elt F)) :
    StableHlo.after (main_part0_ops0 (F := F)) W (Proc.devRef .tc main_arg9) = W (Proc.devRef .tc main_arg9) :=
  keep0 W main_arg9 (by decide)
theorem keep0_arg8 (W : Valuation τ sig (Elt F)) :
    StableHlo.after (main_part0_ops0 (F := F)) W (Proc.devRef .tc main_arg8) = W (Proc.devRef .tc main_arg8) :=
  keep0 W main_arg8 (by decide)
theorem keep0_arg10 (W : Valuation τ sig (Elt F)) :
    StableHlo.after (main_part0_ops0 (F := F)) W (Proc.devRef .tc main_arg10) = W (Proc.devRef .tc main_arg10) :=
  keep0 W main_arg10 (by decide)
theorem keep0_arg1 (W : Valuation τ sig (Elt F)) :
    StableHlo.after (main_part0_ops0 (F := F)) W (Proc.devRef .tc main_arg1) = W (Proc.devRef .tc main_arg1) :=
  keep0 W main_arg1 (by decide)
theorem keep0_arg24 (W : Valuation τ sig (Elt F)) :
    StableHlo.after (main_part0_ops0 (F := F)) W (Proc.devRef .tc main_arg24) = W (Proc.devRef .tc main_arg24) :=
  keep0 W main_arg24 (by decide)
theorem keep0_arg25 (W : Valuation τ sig (Elt F)) :
    StableHlo.after (main_part0_ops0 (F := F)) W (Proc.devRef .tc main_arg25) = W (Proc.devRef .tc main_arg25) :=
  keep0 W main_arg25 (by decide)
theorem keep0_arg26 (W : Valuation τ sig (Elt F)) :
    StableHlo.after (main_part0_ops0 (F := F)) W (Proc.devRef .tc main_arg26) = W (Proc.devRef .tc main_arg26) :=
  keep0 W main_arg26 (by decide)
theorem keep0_arg27 (W : Valuation τ sig (Elt F)) :
    StableHlo.after (main_part0_ops0 (F := F)) W (Proc.devRef .tc main_arg27) = W (Proc.devRef .tc main_arg27) :=
  keep0 W main_arg27 (by decide)
theorem keep0_arg11 (W : Valuation τ sig (Elt F)) :
    StableHlo.after (main_part0_ops0 (F := F)) W (Proc.devRef .tc main_arg11) = W (Proc.devRef .tc main_arg11) :=
  keep0 W main_arg11 (by decide)
theorem keep0_arg12 (W : Valuation τ sig (Elt F)) :
    StableHlo.after (main_part0_ops0 (F := F)) W (Proc.devRef .tc main_arg12) = W (Proc.devRef .tc main_arg12) :=
  keep0 W main_arg12 (by decide)
theorem keep0_arg13 (W : Valuation τ sig (Elt F)) :
    StableHlo.after (main_part0_ops0 (F := F)) W (Proc.devRef .tc main_arg13) = W (Proc.devRef .tc main_arg13) :=
  keep0 W main_arg13 (by decide)
theorem keep0_arg14 (W : Valuation τ sig (Elt F)) :
    StableHlo.after (main_part0_ops0 (F := F)) W (Proc.devRef .tc main_arg14) = W (Proc.devRef .tc main_arg14) :=
  keep0 W main_arg14 (by decide)
theorem keep0_arg18 (W : Valuation τ sig (Elt F)) :
    StableHlo.after (main_part0_ops0 (F := F)) W (Proc.devRef .tc main_arg18) = W (Proc.devRef .tc main_arg18) :=
  keep0 W main_arg18 (by decide)
theorem keep0_arg16 (W : Valuation τ sig (Elt F)) :
    StableHlo.after (main_part0_ops0 (F := F)) W (Proc.devRef .tc main_arg16) = W (Proc.devRef .tc main_arg16) :=
  keep0 W main_arg16 (by decide)
theorem keep0_arg20 (W : Valuation τ sig (Elt F)) :
    StableHlo.after (main_part0_ops0 (F := F)) W (Proc.devRef .tc main_arg20) = W (Proc.devRef .tc main_arg20) :=
  keep0 W main_arg20 (by decide)
theorem keep0_arg22 (W : Valuation τ sig (Elt F)) :
    StableHlo.after (main_part0_ops0 (F := F)) W (Proc.devRef .tc main_arg22) = W (Proc.devRef .tc main_arg22) :=
  keep0 W main_arg22 (by decide)
theorem keep0_arg15 (W : Valuation τ sig (Elt F)) :
    StableHlo.after (main_part0_ops0 (F := F)) W (Proc.devRef .tc main_arg15) = W (Proc.devRef .tc main_arg15) :=
  keep0 W main_arg15 (by decide)
theorem keep0_arg17 (W : Valuation τ sig (Elt F)) :
    StableHlo.after (main_part0_ops0 (F := F)) W (Proc.devRef .tc main_arg17) = W (Proc.devRef .tc main_arg17) :=
  keep0 W main_arg17 (by decide)
theorem keep0_arg19 (W : Valuation τ sig (Elt F)) :
    StableHlo.after (main_part0_ops0 (F := F)) W (Proc.devRef .tc main_arg19) = W (Proc.devRef .tc main_arg19) :=
  keep0 W main_arg19 (by decide)
theorem keep0_arg21 (W : Valuation τ sig (Elt F)) :
    StableHlo.after (main_part0_ops0 (F := F)) W (Proc.devRef .tc main_arg21) = W (Proc.devRef .tc main_arg21) :=
  keep0 W main_arg21 (by decide)
theorem keep0_arg23 (W : Valuation τ sig (Elt F)) :
    StableHlo.after (main_part0_ops0 (F := F)) W (Proc.devRef .tc main_arg23) = W (Proc.devRef .tc main_arg23) :=
  keep0 W main_arg23 (by decide)
theorem keep0_arg2 (W : Valuation τ sig (Elt F)) :
    StableHlo.after (main_part0_ops0 (F := F)) W (Proc.devRef .tc main_arg2) = W (Proc.devRef .tc main_arg2) :=
  keep0 W main_arg2 (by decide)

/-! ## From the previous boundary to kernel call 1: `main_part0_ops1` -/

theorem glue1_v5 (W : Valuation τ sig (Elt F)) :
    StableHlo.after (main_part0_ops1 (F := F)) W (Proc.devRef .tc main_v5)
      = kTr48 (W (Proc.devRef .tc main_arg7)) := by
  rw [part0_ops1_v5] <;> rfl

theorem glue1_v6 (W : Valuation τ sig (Elt F)) :
    StableHlo.after (main_part0_ops1 (F := F)) W (Proc.devRef .tc main_v6)
      = kTr128 (W (Proc.devRef .tc main_arg9)) := by
  rw [part0_ops1_v6] <;> rfl

theorem glue1_v7 (W : Valuation τ sig (Elt F)) :
    StableHlo.after (main_part0_ops1 (F := F)) W (Proc.devRef .tc main_v7)
      = kRow128 (W (Proc.devRef .tc main_arg8)) := by
  rw [part0_ops1_v7] <;> rfl

theorem glue1_v8 (W : Valuation τ sig (Elt F)) :
    StableHlo.after (main_part0_ops1 (F := F)) W (Proc.devRef .tc main_v8)
      = kRow128 (W (Proc.devRef .tc main_arg10)) := by
  rw [part0_ops1_v8] <;> rfl

/-- A reference none of these pieces writes comes through unchanged. -/
theorem keep1 (W : Valuation τ sig (Elt F)) (r : Ref sig .tc) (h0 : r ∉ main_part0_ops1_W) :
    StableHlo.after (main_part0_ops1 (F := F)) W (Proc.devRef .tc r) = W (Proc.devRef .tc r) := by
  rw [part0_ops1_keep _ r h0]
theorem keep1_arg1 (W : Valuation τ sig (Elt F)) :
    StableHlo.after (main_part0_ops1 (F := F)) W (Proc.devRef .tc main_arg1) = W (Proc.devRef .tc main_arg1) :=
  keep1 W main_arg1 (by decide)
theorem keep1_arg24 (W : Valuation τ sig (Elt F)) :
    StableHlo.after (main_part0_ops1 (F := F)) W (Proc.devRef .tc main_arg24) = W (Proc.devRef .tc main_arg24) :=
  keep1 W main_arg24 (by decide)
theorem keep1_arg25 (W : Valuation τ sig (Elt F)) :
    StableHlo.after (main_part0_ops1 (F := F)) W (Proc.devRef .tc main_arg25) = W (Proc.devRef .tc main_arg25) :=
  keep1 W main_arg25 (by decide)
theorem keep1_arg26 (W : Valuation τ sig (Elt F)) :
    StableHlo.after (main_part0_ops1 (F := F)) W (Proc.devRef .tc main_arg26) = W (Proc.devRef .tc main_arg26) :=
  keep1 W main_arg26 (by decide)
theorem keep1_arg27 (W : Valuation τ sig (Elt F)) :
    StableHlo.after (main_part0_ops1 (F := F)) W (Proc.devRef .tc main_arg27) = W (Proc.devRef .tc main_arg27) :=
  keep1 W main_arg27 (by decide)
theorem keep1_v4 (W : Valuation τ sig (Elt F)) :
    StableHlo.after (main_part0_ops1 (F := F)) W (Proc.devRef .tc main_v4) = W (Proc.devRef .tc main_v4) :=
  keep1 W main_v4 (by decide)
theorem keep1_arg11 (W : Valuation τ sig (Elt F)) :
    StableHlo.after (main_part0_ops1 (F := F)) W (Proc.devRef .tc main_arg11) = W (Proc.devRef .tc main_arg11) :=
  keep1 W main_arg11 (by decide)
theorem keep1_arg12 (W : Valuation τ sig (Elt F)) :
    StableHlo.after (main_part0_ops1 (F := F)) W (Proc.devRef .tc main_arg12) = W (Proc.devRef .tc main_arg12) :=
  keep1 W main_arg12 (by decide)
theorem keep1_arg13 (W : Valuation τ sig (Elt F)) :
    StableHlo.after (main_part0_ops1 (F := F)) W (Proc.devRef .tc main_arg13) = W (Proc.devRef .tc main_arg13) :=
  keep1 W main_arg13 (by decide)
theorem keep1_arg14 (W : Valuation τ sig (Elt F)) :
    StableHlo.after (main_part0_ops1 (F := F)) W (Proc.devRef .tc main_arg14) = W (Proc.devRef .tc main_arg14) :=
  keep1 W main_arg14 (by decide)
theorem keep1_arg18 (W : Valuation τ sig (Elt F)) :
    StableHlo.after (main_part0_ops1 (F := F)) W (Proc.devRef .tc main_arg18) = W (Proc.devRef .tc main_arg18) :=
  keep1 W main_arg18 (by decide)
theorem keep1_arg16 (W : Valuation τ sig (Elt F)) :
    StableHlo.after (main_part0_ops1 (F := F)) W (Proc.devRef .tc main_arg16) = W (Proc.devRef .tc main_arg16) :=
  keep1 W main_arg16 (by decide)
theorem keep1_arg20 (W : Valuation τ sig (Elt F)) :
    StableHlo.after (main_part0_ops1 (F := F)) W (Proc.devRef .tc main_arg20) = W (Proc.devRef .tc main_arg20) :=
  keep1 W main_arg20 (by decide)
theorem keep1_arg22 (W : Valuation τ sig (Elt F)) :
    StableHlo.after (main_part0_ops1 (F := F)) W (Proc.devRef .tc main_arg22) = W (Proc.devRef .tc main_arg22) :=
  keep1 W main_arg22 (by decide)
theorem keep1_arg15 (W : Valuation τ sig (Elt F)) :
    StableHlo.after (main_part0_ops1 (F := F)) W (Proc.devRef .tc main_arg15) = W (Proc.devRef .tc main_arg15) :=
  keep1 W main_arg15 (by decide)
theorem keep1_arg17 (W : Valuation τ sig (Elt F)) :
    StableHlo.after (main_part0_ops1 (F := F)) W (Proc.devRef .tc main_arg17) = W (Proc.devRef .tc main_arg17) :=
  keep1 W main_arg17 (by decide)
theorem keep1_arg19 (W : Valuation τ sig (Elt F)) :
    StableHlo.after (main_part0_ops1 (F := F)) W (Proc.devRef .tc main_arg19) = W (Proc.devRef .tc main_arg19) :=
  keep1 W main_arg19 (by decide)
theorem keep1_arg21 (W : Valuation τ sig (Elt F)) :
    StableHlo.after (main_part0_ops1 (F := F)) W (Proc.devRef .tc main_arg21) = W (Proc.devRef .tc main_arg21) :=
  keep1 W main_arg21 (by decide)
theorem keep1_arg23 (W : Valuation τ sig (Elt F)) :
    StableHlo.after (main_part0_ops1 (F := F)) W (Proc.devRef .tc main_arg23) = W (Proc.devRef .tc main_arg23) :=
  keep1 W main_arg23 (by decide)
theorem keep1_arg2 (W : Valuation τ sig (Elt F)) :
    StableHlo.after (main_part0_ops1 (F := F)) W (Proc.devRef .tc main_arg2) = W (Proc.devRef .tc main_arg2) :=
  keep1 W main_arg2 (by decide)

/-! ## From the previous boundary to kernel call 2: `main_part0_ops2`, `main_part1_ops0`, `main_part2_ops0` -/

theorem glue2_v18 (W : Valuation τ sig (Elt F)) :
    StableHlo.after (main_part2_ops0 (F := F)) (StableHlo.after (main_part1_ops0 (F := F)) (StableHlo.after (main_part0_ops2 (F := F)) W)) (Proc.devRef .tc main_v18)
      = kDeg (W (Proc.devRef .tc main_arg24)) := by
  rw [part2_ops0_keep _ main_v18 (by decide),
    part1_ops0_keep _ main_v18 (by decide),
    part0_ops2_v18] <;> rfl

theorem glue2_v27 (W : Valuation τ sig (Elt F)) :
    StableHlo.after (main_part2_ops0 (F := F)) (StableHlo.after (main_part1_ops0 (F := F)) (StableHlo.after (main_part0_ops2 (F := F)) W)) (Proc.devRef .tc main_v27)
      = kDeg (W (Proc.devRef .tc main_arg25)) := by
  rw [part2_ops0_keep _ main_v27 (by decide),
    part1_ops0_keep _ main_v27 (by decide),
    part0_ops2_v27] <;> rfl

theorem glue2_v36 (W : Valuation τ sig (Elt F)) :
    StableHlo.after (main_part2_ops0 (F := F)) (StableHlo.after (main_part1_ops0 (F := F)) (StableHlo.after (main_part0_ops2 (F := F)) W)) (Proc.devRef .tc main_v36)
      = kDeg (W (Proc.devRef .tc main_arg26)) := by
  rw [part2_ops0_keep _ main_v36 (by decide),
    part1_ops0_keep _ main_v36 (by decide),
    part0_ops2_v36] <;> rfl

theorem glue2_v45 (W : Valuation τ sig (Elt F)) :
    StableHlo.after (main_part2_ops0 (F := F)) (StableHlo.after (main_part1_ops0 (F := F)) (StableHlo.after (main_part0_ops2 (F := F)) W)) (Proc.devRef .tc main_v45)
      = kDeg (W (Proc.devRef .tc main_arg27)) := by
  rw [part2_ops0_keep _ main_v45 (by decide),
    part1_ops0_keep _ main_v45 (by decide),
    part0_ops2_v45] <;> rfl

theorem glue2_v62 (W : Valuation τ sig (Elt F)) :
    StableHlo.after (main_part2_ops0 (F := F)) (StableHlo.after (main_part1_ops0 (F := F)) (StableHlo.after (main_part0_ops2 (F := F)) W)) (Proc.devRef .tc main_v62)
      = aggMean (W (Proc.devRef .tc main_v4)) (W (Proc.devRef .tc main_arg24)) (kDeg (W (Proc.devRef .tc main_arg24))) := by
  rw [part2_ops0_keep _ main_v62 (by decide),
    part1_ops0_v62,
    part0_ops2_keep _ main_v4 (by decide),
    part0_ops2_v47,
    part0_ops2_keep _ main_arg24 (by decide),
    part0_ops2_v18] <;> rfl

theorem glue2_v79 (W : Valuation τ sig (Elt F)) :
    StableHlo.after (main_part2_ops0 (F := F)) (StableHlo.after (main_part1_ops0 (F := F)) (StableHlo.after (main_part0_ops2 (F := F)) W)) (Proc.devRef .tc main_v79)
      = aggMean (W (Proc.devRef .tc main_v9)) (W (Proc.devRef .tc main_arg25)) (kDeg (W (Proc.devRef .tc main_arg25))) := by
  rw [part2_ops0_keep _ main_v79 (by decide),
    part1_ops0_v79,
    part0_ops2_keep _ main_v9 (by decide),
    part0_ops2_keep _ main_arg25 (by decide),
    part0_ops2_v27] <;> rfl

theorem glue2_v96 (W : Valuation τ sig (Elt F)) :
    StableHlo.after (main_part2_ops0 (F := F)) (StableHlo.after (main_part1_ops0 (F := F)) (StableHlo.after (main_part0_ops2 (F := F)) W)) (Proc.devRef .tc main_v96)
      = aggMean (W (Proc.devRef .tc main_v4)) (W (Proc.devRef .tc main_arg26)) (kDeg (W (Proc.devRef .tc main_arg26))) := by
  rw [part2_ops0_keep _ main_v96 (by decide),
    part1_ops0_v96,
    part0_ops2_keep _ main_v4 (by decide),
    part0_ops2_keep _ main_arg26 (by decide),
    part0_ops2_v36] <;> rfl

theorem glue2_v113 (W : Valuation τ sig (Elt F)) :
    StableHlo.after (main_part2_ops0 (F := F)) (StableHlo.after (main_part1_ops0 (F := F)) (StableHlo.after (main_part0_ops2 (F := F)) W)) (Proc.devRef .tc main_v113)
      = aggMean (W (Proc.devRef .tc main_v9)) (W (Proc.devRef .tc main_arg27)) (kDeg (W (Proc.devRef .tc main_arg27))) := by
  rw [part2_ops0_v113,
    part1_ops0_keep _ main_v9 (by decide),
    part0_ops2_keep _ main_v9 (by decide),
    part1_ops0_v98,
    part0_ops2_keep _ main_arg27 (by decide),
    part1_ops0_keep _ main_arg27 (by decide),
    part1_ops0_keep _ main_v45 (by decide),
    part0_ops2_v45] <;> rfl

theorem glue2_v127 (W : Valuation τ sig (Elt F)) :
    StableHlo.after (main_part2_ops0 (F := F)) (StableHlo.after (main_part1_ops0 (F := F)) (StableHlo.after (main_part0_ops2 (F := F)) W)) (Proc.devRef .tc main_v127)
      = kT128 (wAt00 (W (Proc.devRef .tc main_arg11))) := by
  rw [part2_ops0_v127,
    part1_ops0_keep _ main_arg11 (by decide),
    part0_ops2_keep _ main_arg11 (by decide)] <;> rfl

theorem glue2_v129 (W : Valuation τ sig (Elt F)) :
    StableHlo.after (main_part2_ops0 (F := F)) (StableHlo.after (main_part1_ops0 (F := F)) (StableHlo.after (main_part0_ops2 (F := F)) W)) (Proc.devRef .tc main_v129)
      = kT128 (wAt00 (W (Proc.devRef .tc main_arg13))) := by
  rw [part2_ops0_v129,
    part1_ops0_keep _ main_arg13 (by decide),
    part0_ops2_keep _ main_arg13 (by decide)] <;> rfl

theorem glue2_v131 (W : Valuation τ sig (Elt F)) :
    StableHlo.after (main_part2_ops0 (F := F)) (StableHlo.after (main_part1_ops0 (F := F)) (StableHlo.after (main_part0_ops2 (F := F)) W)) (Proc.devRef .tc main_v131)
      = kT128 (wAt03 (W (Proc.devRef .tc main_arg11))) := by
  rw [part2_ops0_v131,
    part1_ops0_keep _ main_arg11 (by decide),
    part0_ops2_keep _ main_arg11 (by decide)] <;> rfl

theorem glue2_v133 (W : Valuation τ sig (Elt F)) :
    StableHlo.after (main_part2_ops0 (F := F)) (StableHlo.after (main_part1_ops0 (F := F)) (StableHlo.after (main_part0_ops2 (F := F)) W)) (Proc.devRef .tc main_v133)
      = kT128 (wAt03 (W (Proc.devRef .tc main_arg13))) := by
  rw [part2_ops0_v133,
    part1_ops0_keep _ main_arg13 (by decide),
    part0_ops2_keep _ main_arg13 (by decide)] <;> rfl

theorem glue2_v134 (W : Valuation τ sig (Elt F)) :
    StableHlo.after (main_part2_ops0 (F := F)) (StableHlo.after (main_part1_ops0 (F := F)) (StableHlo.after (main_part0_ops2 (F := F)) W)) (Proc.devRef .tc main_v134)
      = kRow128 (bAt00 (W (Proc.devRef .tc main_arg12))) := by
  rw [part2_ops0_v134,
    part1_ops0_keep _ main_arg12 (by decide),
    part0_ops2_keep _ main_arg12 (by decide)] <;> rfl

theorem glue2_v135 (W : Valuation τ sig (Elt F)) :
    StableHlo.after (main_part2_ops0 (F := F)) (StableHlo.after (main_part1_ops0 (F := F)) (StableHlo.after (main_part0_ops2 (F := F)) W)) (Proc.devRef .tc main_v135)
      = kRow128 (bAt03 (W (Proc.devRef .tc main_arg12))) := by
  rw [part2_ops0_v135,
    part1_ops0_keep _ main_arg12 (by decide),
    part0_ops2_keep _ main_arg12 (by decide)] <;> rfl

/-- A reference none of these pieces writes comes through unchanged. -/
theorem keep2 (W : Valuation τ sig (Elt F)) (r : Ref sig .tc) (h0 : r ∉ main_part0_ops2_W) (h1 : r ∉ main_part1_ops0_W) (h2 : r ∉ main_part2_ops0_W) :
    StableHlo.after (main_part2_ops0 (F := F)) (StableHlo.after (main_part1_ops0 (F := F)) (StableHlo.after (main_part0_ops2 (F := F)) W)) (Proc.devRef .tc r) = W (Proc.devRef .tc r) := by
  rw [part2_ops0_keep _ r h2, part1_ops0_keep _ r h1, part0_ops2_keep _ r h0]
theorem keep2_v4 (W : Valuation τ sig (Elt F)) :
    StableHlo.after (main_part2_ops0 (F := F)) (StableHlo.after (main_part1_ops0 (F := F)) (StableHlo.after (main_part0_ops2 (F := F)) W)) (Proc.devRef .tc main_v4) = W (Proc.devRef .tc main_v4) :=
  keep2 W main_v4 (by decide) (by decide) (by decide)
theorem keep2_arg11 (W : Valuation τ sig (Elt F)) :
    StableHlo.after (main_part2_ops0 (F := F)) (StableHlo.after (main_part1_ops0 (F := F)) (StableHlo.after (main_part0_ops2 (F := F)) W)) (Proc.devRef .tc main_arg11) = W (Proc.devRef .tc main_arg11) :=
  keep2 W main_arg11 (by decide) (by decide) (by decide)
theorem keep2_arg12 (W : Valuation τ sig (Elt F)) :
    StableHlo.after (main_part2_ops0 (F := F)) (StableHlo.after (main_part1_ops0 (F := F)) (StableHlo.after (main_part0_ops2 (F := F)) W)) (Proc.devRef .tc main_arg12) = W (Proc.devRef .tc main_arg12) :=
  keep2 W main_arg12 (by decide) (by decide) (by decide)
theorem keep2_arg13 (W : Valuation τ sig (Elt F)) :
    StableHlo.after (main_part2_ops0 (F := F)) (StableHlo.after (main_part1_ops0 (F := F)) (StableHlo.after (main_part0_ops2 (F := F)) W)) (Proc.devRef .tc main_arg13) = W (Proc.devRef .tc main_arg13) :=
  keep2 W main_arg13 (by decide) (by decide) (by decide)
theorem keep2_v9 (W : Valuation τ sig (Elt F)) :
    StableHlo.after (main_part2_ops0 (F := F)) (StableHlo.after (main_part1_ops0 (F := F)) (StableHlo.after (main_part0_ops2 (F := F)) W)) (Proc.devRef .tc main_v9) = W (Proc.devRef .tc main_v9) :=
  keep2 W main_v9 (by decide) (by decide) (by decide)
theorem keep2_arg24 (W : Valuation τ sig (Elt F)) :
    StableHlo.after (main_part2_ops0 (F := F)) (StableHlo.after (main_part1_ops0 (F := F)) (StableHlo.after (main_part0_ops2 (F := F)) W)) (Proc.devRef .tc main_arg24) = W (Proc.devRef .tc main_arg24) :=
  keep2 W main_arg24 (by decide) (by decide) (by decide)
theorem keep2_arg25 (W : Valuation τ sig (Elt F)) :
    StableHlo.after (main_part2_ops0 (F := F)) (StableHlo.after (main_part1_ops0 (F := F)) (StableHlo.after (main_part0_ops2 (F := F)) W)) (Proc.devRef .tc main_arg25) = W (Proc.devRef .tc main_arg25) :=
  keep2 W main_arg25 (by decide) (by decide) (by decide)
theorem keep2_arg26 (W : Valuation τ sig (Elt F)) :
    StableHlo.after (main_part2_ops0 (F := F)) (StableHlo.after (main_part1_ops0 (F := F)) (StableHlo.after (main_part0_ops2 (F := F)) W)) (Proc.devRef .tc main_arg26) = W (Proc.devRef .tc main_arg26) :=
  keep2 W main_arg26 (by decide) (by decide) (by decide)
theorem keep2_arg27 (W : Valuation τ sig (Elt F)) :
    StableHlo.after (main_part2_ops0 (F := F)) (StableHlo.after (main_part1_ops0 (F := F)) (StableHlo.after (main_part0_ops2 (F := F)) W)) (Proc.devRef .tc main_arg27) = W (Proc.devRef .tc main_arg27) :=
  keep2 W main_arg27 (by decide) (by decide) (by decide)
theorem keep2_arg14 (W : Valuation τ sig (Elt F)) :
    StableHlo.after (main_part2_ops0 (F := F)) (StableHlo.after (main_part1_ops0 (F := F)) (StableHlo.after (main_part0_ops2 (F := F)) W)) (Proc.devRef .tc main_arg14) = W (Proc.devRef .tc main_arg14) :=
  keep2 W main_arg14 (by decide) (by decide) (by decide)
theorem keep2_arg18 (W : Valuation τ sig (Elt F)) :
    StableHlo.after (main_part2_ops0 (F := F)) (StableHlo.after (main_part1_ops0 (F := F)) (StableHlo.after (main_part0_ops2 (F := F)) W)) (Proc.devRef .tc main_arg18) = W (Proc.devRef .tc main_arg18) :=
  keep2 W main_arg18 (by decide) (by decide) (by decide)
theorem keep2_arg16 (W : Valuation τ sig (Elt F)) :
    StableHlo.after (main_part2_ops0 (F := F)) (StableHlo.after (main_part1_ops0 (F := F)) (StableHlo.after (main_part0_ops2 (F := F)) W)) (Proc.devRef .tc main_arg16) = W (Proc.devRef .tc main_arg16) :=
  keep2 W main_arg16 (by decide) (by decide) (by decide)
theorem keep2_arg20 (W : Valuation τ sig (Elt F)) :
    StableHlo.after (main_part2_ops0 (F := F)) (StableHlo.after (main_part1_ops0 (F := F)) (StableHlo.after (main_part0_ops2 (F := F)) W)) (Proc.devRef .tc main_arg20) = W (Proc.devRef .tc main_arg20) :=
  keep2 W main_arg20 (by decide) (by decide) (by decide)
theorem keep2_arg22 (W : Valuation τ sig (Elt F)) :
    StableHlo.after (main_part2_ops0 (F := F)) (StableHlo.after (main_part1_ops0 (F := F)) (StableHlo.after (main_part0_ops2 (F := F)) W)) (Proc.devRef .tc main_arg22) = W (Proc.devRef .tc main_arg22) :=
  keep2 W main_arg22 (by decide) (by decide) (by decide)
theorem keep2_arg15 (W : Valuation τ sig (Elt F)) :
    StableHlo.after (main_part2_ops0 (F := F)) (StableHlo.after (main_part1_ops0 (F := F)) (StableHlo.after (main_part0_ops2 (F := F)) W)) (Proc.devRef .tc main_arg15) = W (Proc.devRef .tc main_arg15) :=
  keep2 W main_arg15 (by decide) (by decide) (by decide)
theorem keep2_arg17 (W : Valuation τ sig (Elt F)) :
    StableHlo.after (main_part2_ops0 (F := F)) (StableHlo.after (main_part1_ops0 (F := F)) (StableHlo.after (main_part0_ops2 (F := F)) W)) (Proc.devRef .tc main_arg17) = W (Proc.devRef .tc main_arg17) :=
  keep2 W main_arg17 (by decide) (by decide) (by decide)
theorem keep2_arg19 (W : Valuation τ sig (Elt F)) :
    StableHlo.after (main_part2_ops0 (F := F)) (StableHlo.after (main_part1_ops0 (F := F)) (StableHlo.after (main_part0_ops2 (F := F)) W)) (Proc.devRef .tc main_arg19) = W (Proc.devRef .tc main_arg19) :=
  keep2 W main_arg19 (by decide) (by decide) (by decide)
theorem keep2_arg21 (W : Valuation τ sig (Elt F)) :
    StableHlo.after (main_part2_ops0 (F := F)) (StableHlo.after (main_part1_ops0 (F := F)) (StableHlo.after (main_part0_ops2 (F := F)) W)) (Proc.devRef .tc main_arg21) = W (Proc.devRef .tc main_arg21) :=
  keep2 W main_arg21 (by decide) (by decide) (by decide)
theorem keep2_arg23 (W : Valuation τ sig (Elt F)) :
    StableHlo.after (main_part2_ops0 (F := F)) (StableHlo.after (main_part1_ops0 (F := F)) (StableHlo.after (main_part0_ops2 (F := F)) W)) (Proc.devRef .tc main_arg23) = W (Proc.devRef .tc main_arg23) :=
  keep2 W main_arg23 (by decide) (by decide) (by decide)
theorem keep2_arg2 (W : Valuation τ sig (Elt F)) :
    StableHlo.after (main_part2_ops0 (F := F)) (StableHlo.after (main_part1_ops0 (F := F)) (StableHlo.after (main_part0_ops2 (F := F)) W)) (Proc.devRef .tc main_arg2) = W (Proc.devRef .tc main_arg2) :=
  keep2 W main_arg2 (by decide) (by decide) (by decide)

end Cert.KernelIdeal.Hand
-- ==== Proof.KIGlueB.lean ====
import proofs.«166951_j44444321579084_2_alg».proof.Proof.Gen.KernelIdeal.Launch
import proofs.«166951_j44444321579084_2_alg».proof.Proof.KIHost
import proofs.«166951_j44444321579084_2_alg».proof.Proof.KIGlueDefs

/-! # The host operations of the kernel program read back: the first layer's target kernel and the second layer's source kernel

For contents `W` at the boundary before a stretch of host operations, each lemma says what a buffer holds after
the stretch, as a stage of the network (`Cert.Stages`) or a preparation (`Cert.KPrep`) applied to `W`'s values;
first window by window, then for the whole stretch; a buffer the stretch does not write keeps its contents.
This module: the weights of the first layer's target kernel (relations 1 and 2), then the second layer's four
neighbour means (of the first layer's outputs) and the weights of its source kernel (relations 0 and 3). -/

set_option maxRecDepth 8192

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

variable {F : FTy → Type} [FloatOps F]

/-! ## What `main_part2_ops1` leaves behind -/

/-- A reference outside the list of those `main_part2_ops1` writes keeps its contents. -/
theorem part2_ops1_keep (V : Valuation τ sig (Elt F)) (r : Ref sig .tc) (hr : r ∉ main_part2_ops1_W) :
    StableHlo.after (main_part2_ops1 (F := F)) V (Proc.devRef .tc r) = V (Proc.devRef .tc r) :=
  StableHlo.after_of_writes_sub _ V main_part2_ops1_writes hr

theorem part2_ops1_v140 (V : Valuation τ sig (Elt F)) :
    StableHlo.after (main_part2_ops1 (F := F)) V (Proc.devRef .tc main_v140)
      = bAt01 (V (Proc.devRef .tc main_arg12)) := by
  after_results_simp
  rfl

theorem part2_ops1_v146 (V : Valuation τ sig (Elt F)) :
    StableHlo.after (main_part2_ops1 (F := F)) V (Proc.devRef .tc main_v146)
      = bAt02 (V (Proc.devRef .tc main_arg12)) := by
  after_results_simp
  rfl

theorem part2_ops1_v150 (V : Valuation τ sig (Elt F)) :
    StableHlo.after (main_part2_ops1 (F := F)) V (Proc.devRef .tc main_v150)
      = kT128 (wAt01 (V (Proc.devRef .tc main_arg11))) := by
  after_results_simp
  rfl

theorem part2_ops1_v152 (V : Valuation τ sig (Elt F)) :
    StableHlo.after (main_part2_ops1 (F := F)) V (Proc.devRef .tc main_v152)
      = kT128 (wAt01 (V (Proc.devRef .tc main_arg13))) := by
  after_results_simp
  rfl

theorem part2_ops1_v154 (V : Valuation τ sig (Elt F)) :
    StableHlo.after (main_part2_ops1 (F := F)) V (Proc.devRef .tc main_v154)
      = kT128 (wAt02 (V (Proc.devRef .tc main_arg11))) := by
  after_results_simp
  rfl

theorem part2_ops1_v155 (V : Valuation τ sig (Elt F)) :
    StableHlo.after (main_part2_ops1 (F := F)) V (Proc.devRef .tc main_v155)
      = kTr128 (wAt02 (V (Proc.devRef .tc main_arg13))) := by
  after_results_simp
  rfl

/-! ## What `main_part3_ops0` leaves behind -/

/-- A reference outside the list of those `main_part3_ops0` writes keeps its contents. -/
theorem part3_ops0_keep (V : Valuation τ sig (Elt F)) (r : Ref sig .tc) (hr : r ∉ main_part3_ops0_W) :
    StableHlo.after (main_part3_ops0 (F := F)) V (Proc.devRef .tc r) = V (Proc.devRef .tc r) :=
  StableHlo.after_of_writes_sub _ V main_part3_ops0_writes hr

theorem part3_ops0_v156 (V : Valuation τ sig (Elt F)) :
    StableHlo.after (main_part3_ops0 (F := F)) V (Proc.devRef .tc main_v156)
      = kBf128 (V (Proc.devRef .tc main_v155)) := by
  after_results_simp
  rfl

theorem part3_ops0_v157 (V : Valuation τ sig (Elt F)) :
    StableHlo.after (main_part3_ops0 (F := F)) V (Proc.devRef .tc main_v157)
      = kRow128 (V (Proc.devRef .tc main_v140)) := by
  after_results_simp
  rfl

theorem part3_ops0_v158 (V : Valuation τ sig (Elt F)) :
    StableHlo.after (main_part3_ops0 (F := F)) V (Proc.devRef .tc main_v158)
      = kRow128 (V (Proc.devRef .tc main_v146)) := by
  after_results_simp
  rfl

/-! ## What `main_part3_ops1` leaves behind -/

/-- A reference outside the list of those `main_part3_ops1` writes keeps its contents. -/
theorem part3_ops1_keep (V : Valuation τ sig (Elt F)) (r : Ref sig .tc) (hr : r ∉ main_part3_ops1_W) :
    StableHlo.after (main_part3_ops1 (F := F)) V (Proc.devRef .tc r) = V (Proc.devRef .tc r) :=
  StableHlo.after_of_writes_sub _ V main_part3_ops1_writes hr

theorem part3_ops1_v176 (V : Valuation τ sig (Elt F)) :
    StableHlo.after (main_part3_ops1 (F := F)) V (Proc.devRef .tc main_v176)
      = aggMean (V (Proc.devRef .tc main_v136)) (V (Proc.devRef .tc main_arg24)) (V (Proc.devRef .tc main_v18)) := by
  after_results_simp
  rfl

theorem part3_ops1_v193 (V : Valuation τ sig (Elt F)) :
    StableHlo.after (main_part3_ops1 (F := F)) V (Proc.devRef .tc main_v193)
      = aggMean (V (Proc.devRef .tc main_v159)) (V (Proc.devRef .tc main_arg25)) (V (Proc.devRef .tc main_v27)) := by
  after_results_simp
  rfl

theorem part3_ops1_v204 (V : Valuation τ sig (Elt F)) :
    StableHlo.after (main_part3_ops1 (F := F)) V (Proc.devRef .tc main_v204)
      = srcRows (V (Proc.devRef .tc main_v136)) (eiRow0 (V (Proc.devRef .tc main_arg26))) := by
  after_results_simp
  rfl

theorem part3_ops1_v205 (V : Valuation τ sig (Elt F)) :
    StableHlo.after (main_part3_ops1 (F := F)) V (Proc.devRef .tc main_v205)
      = zeroRows := by
  after_results_simp
  rfl

theorem part3_ops1_v206 (V : Valuation τ sig (Elt F)) :
    StableHlo.after (main_part3_ops1 (F := F)) V (Proc.devRef .tc main_v206)
      = idxCol (eiRow1 (V (Proc.devRef .tc main_arg26))) := by
  after_results_simp
  rfl

/-! ## What `main_part4_ops0` leaves behind -/

/-- A reference outside the list of those `main_part4_ops0` writes keeps its contents. -/
theorem part4_ops0_keep (V : Valuation τ sig (Elt F)) (r : Ref sig .tc) (hr : r ∉ main_part4_ops0_W) :
    StableHlo.after (main_part4_ops0 (F := F)) V (Proc.devRef .tc r) = V (Proc.devRef .tc r) :=
  StableHlo.after_of_writes_sub _ V main_part4_ops0_writes hr

theorem part4_ops0_v210 (V : Valuation τ sig (Elt F)) :
    StableHlo.after (main_part4_ops0 (F := F)) V (Proc.devRef .tc main_v210)
      = Host.divf (scatterInto (V (Proc.devRef .tc main_v205)) (V (Proc.devRef .tc main_v206)) (V (Proc.devRef .tc main_v204))) (perRow (V (Proc.devRef .tc main_v36))) := by
  after_results_simp
  rfl

theorem part4_ops0_v227 (V : Valuation τ sig (Elt F)) :
    StableHlo.after (main_part4_ops0 (F := F)) V (Proc.devRef .tc main_v227)
      = aggMean (V (Proc.devRef .tc main_v159)) (V (Proc.devRef .tc main_arg27)) (V (Proc.devRef .tc main_v45)) := by
  after_results_simp
  rfl

theorem part4_ops0_v241 (V : Valuation τ sig (Elt F)) :
    StableHlo.after (main_part4_ops0 (F := F)) V (Proc.devRef .tc main_v241)
      = kT128 (wAt10 (V (Proc.devRef .tc main_arg11))) := by
  after_results_simp
  rfl

theorem part4_ops0_v243 (V : Valuation τ sig (Elt F)) :
    StableHlo.after (main_part4_ops0 (F := F)) V (Proc.devRef .tc main_v243)
      = kT128 (wAt10 (V (Proc.devRef .tc main_arg13))) := by
  after_results_simp
  rfl

theorem part4_ops0_v245 (V : Valuation τ sig (Elt F)) :
    StableHlo.after (main_part4_ops0 (F := F)) V (Proc.devRef .tc main_v245)
      = kT128 (wAt13 (V (Proc.devRef .tc main_arg11))) := by
  after_results_simp
  rfl

theorem part4_ops0_v247 (V : Valuation τ sig (Elt F)) :
    StableHlo.after (main_part4_ops0 (F := F)) V (Proc.devRef .tc main_v247)
      = kT128 (wAt13 (V (Proc.devRef .tc main_arg13))) := by
  after_results_simp
  rfl

theorem part4_ops0_v248 (V : Valuation τ sig (Elt F)) :
    StableHlo.after (main_part4_ops0 (F := F)) V (Proc.devRef .tc main_v248)
      = kRow128 (bAt10 (V (Proc.devRef .tc main_arg12))) := by
  after_results_simp
  rfl

theorem part4_ops0_v249 (V : Valuation τ sig (Elt F)) :
    StableHlo.after (main_part4_ops0 (F := F)) V (Proc.devRef .tc main_v249)
      = kRow128 (bAt13 (V (Proc.devRef .tc main_arg12))) := by
  after_results_simp
  rfl

/-! ## From the previous boundary to kernel call 3: `main_part2_ops1`, `main_part3_ops0` -/

theorem glue3_v150 (W : Valuation τ sig (Elt F)) :
    StableHlo.after (main_part3_ops0 (F := F)) (StableHlo.after (main_part2_ops1 (F := F)) W) (Proc.devRef .tc main_v150)
      = kT128 (wAt01 (W (Proc.devRef .tc main_arg11))) := by
  rw [part3_ops0_keep _ main_v150 (by decide),
    part2_ops1_v150] <;> rfl

theorem glue3_v152 (W : Valuation τ sig (Elt F)) :
    StableHlo.after (main_part3_ops0 (F := F)) (StableHlo.after (main_part2_ops1 (F := F)) W) (Proc.devRef .tc main_v152)
      = kT128 (wAt01 (W (Proc.devRef .tc main_arg13))) := by
  rw [part3_ops0_keep _ main_v152 (by decide),
    part2_ops1_v152] <;> rfl

theorem glue3_v154 (W : Valuation τ sig (Elt F)) :
    StableHlo.after (main_part3_ops0 (F := F)) (StableHlo.after (main_part2_ops1 (F := F)) W) (Proc.devRef .tc main_v154)
      = kT128 (wAt02 (W (Proc.devRef .tc main_arg11))) := by
  rw [part3_ops0_keep _ main_v154 (by decide),
    part2_ops1_v154] <;> rfl

theorem glue3_v156 (W : Valuation τ sig (Elt F)) :
    StableHlo.after (main_part3_ops0 (F := F)) (StableHlo.after (main_part2_ops1 (F := F)) W) (Proc.devRef .tc main_v156)
      = kT128 (wAt02 (W (Proc.devRef .tc main_arg13))) := by
  rw [part3_ops0_v156,
    part2_ops1_v155] <;> rfl

theorem glue3_v157 (W : Valuation τ sig (Elt F)) :
    StableHlo.after (main_part3_ops0 (F := F)) (StableHlo.after (main_part2_ops1 (F := F)) W) (Proc.devRef .tc main_v157)
      = kRow128 (bAt01 (W (Proc.devRef .tc main_arg12))) := by
  rw [part3_ops0_v157,
    part2_ops1_v140] <;> rfl

theorem glue3_v158 (W : Valuation τ sig (Elt F)) :
    StableHlo.after (main_part3_ops0 (F := F)) (StableHlo.after (main_part2_ops1 (F := F)) W) (Proc.devRef .tc main_v158)
      = kRow128 (bAt02 (W (Proc.devRef .tc main_arg12))) := by
  rw [part3_ops0_v158,
    part2_ops1_v146] <;> rfl

/-- A reference none of these pieces writes comes through unchanged. -/
theorem keep3 (W : Valuation τ sig (Elt F)) (r : Ref sig .tc) (h0 : r ∉ main_part2_ops1_W) (h1 : r ∉ main_part3_ops0_W) :
    StableHlo.after (main_part3_ops0 (F := F)) (StableHlo.after (main_part2_ops1 (F := F)) W) (Proc.devRef .tc r) = W (Proc.devRef .tc r) := by
  rw [part3_ops0_keep _ r h1, part2_ops1_keep _ r h0]
theorem keep3_v79 (W : Valuation τ sig (Elt F)) :
    StableHlo.after (main_part3_ops0 (F := F)) (StableHlo.after (main_part2_ops1 (F := F)) W) (Proc.devRef .tc main_v79) = W (Proc.devRef .tc main_v79) :=
  keep3 W main_v79 (by decide) (by decide)
theorem keep3_v96 (W : Valuation τ sig (Elt F)) :
    StableHlo.after (main_part3_ops0 (F := F)) (StableHlo.after (main_part2_ops1 (F := F)) W) (Proc.devRef .tc main_v96) = W (Proc.devRef .tc main_v96) :=
  keep3 W main_v96 (by decide) (by decide)
theorem keep3_v9 (W : Valuation τ sig (Elt F)) :
    StableHlo.after (main_part3_ops0 (F := F)) (StableHlo.after (main_part2_ops1 (F := F)) W) (Proc.devRef .tc main_v9) = W (Proc.devRef .tc main_v9) :=
  keep3 W main_v9 (by decide) (by decide)
theorem keep3_arg24 (W : Valuation τ sig (Elt F)) :
    StableHlo.after (main_part3_ops0 (F := F)) (StableHlo.after (main_part2_ops1 (F := F)) W) (Proc.devRef .tc main_arg24) = W (Proc.devRef .tc main_arg24) :=
  keep3 W main_arg24 (by decide) (by decide)
theorem keep3_v136 (W : Valuation τ sig (Elt F)) :
    StableHlo.after (main_part3_ops0 (F := F)) (StableHlo.after (main_part2_ops1 (F := F)) W) (Proc.devRef .tc main_v136) = W (Proc.devRef .tc main_v136) :=
  keep3 W main_v136 (by decide) (by decide)
theorem keep3_v18 (W : Valuation τ sig (Elt F)) :
    StableHlo.after (main_part3_ops0 (F := F)) (StableHlo.after (main_part2_ops1 (F := F)) W) (Proc.devRef .tc main_v18) = W (Proc.devRef .tc main_v18) :=
  keep3 W main_v18 (by decide) (by decide)
theorem keep3_arg25 (W : Valuation τ sig (Elt F)) :
    StableHlo.after (main_part3_ops0 (F := F)) (StableHlo.after (main_part2_ops1 (F := F)) W) (Proc.devRef .tc main_arg25) = W (Proc.devRef .tc main_arg25) :=
  keep3 W main_arg25 (by decide) (by decide)
theorem keep3_v27 (W : Valuation τ sig (Elt F)) :
    StableHlo.after (main_part3_ops0 (F := F)) (StableHlo.after (main_part2_ops1 (F := F)) W) (Proc.devRef .tc main_v27) = W (Proc.devRef .tc main_v27) :=
  keep3 W main_v27 (by decide) (by decide)
theorem keep3_arg26 (W : Valuation τ sig (Elt F)) :
    StableHlo.after (main_part3_ops0 (F := F)) (StableHlo.after (main_part2_ops1 (F := F)) W) (Proc.devRef .tc main_arg26) = W (Proc.devRef .tc main_arg26) :=
  keep3 W main_arg26 (by decide) (by decide)
theorem keep3_v36 (W : Valuation τ sig (Elt F)) :
    StableHlo.after (main_part3_ops0 (F := F)) (StableHlo.after (main_part2_ops1 (F := F)) W) (Proc.devRef .tc main_v36) = W (Proc.devRef .tc main_v36) :=
  keep3 W main_v36 (by decide) (by decide)
theorem keep3_arg27 (W : Valuation τ sig (Elt F)) :
    StableHlo.after (main_part3_ops0 (F := F)) (StableHlo.after (main_part2_ops1 (F := F)) W) (Proc.devRef .tc main_arg27) = W (Proc.devRef .tc main_arg27) :=
  keep3 W main_arg27 (by decide) (by decide)
theorem keep3_v45 (W : Valuation τ sig (Elt F)) :
    StableHlo.after (main_part3_ops0 (F := F)) (StableHlo.after (main_part2_ops1 (F := F)) W) (Proc.devRef .tc main_v45) = W (Proc.devRef .tc main_v45) :=
  keep3 W main_v45 (by decide) (by decide)
theorem keep3_arg11 (W : Valuation τ sig (Elt F)) :
    StableHlo.after (main_part3_ops0 (F := F)) (StableHlo.after (main_part2_ops1 (F := F)) W) (Proc.devRef .tc main_arg11) = W (Proc.devRef .tc main_arg11) :=
  keep3 W main_arg11 (by decide) (by decide)
theorem keep3_arg12 (W : Valuation τ sig (Elt F)) :
    StableHlo.after (main_part3_ops0 (F := F)) (StableHlo.after (main_part2_ops1 (F := F)) W) (Proc.devRef .tc main_arg12) = W (Proc.devRef .tc main_arg12) :=
  keep3 W main_arg12 (by decide) (by decide)
theorem keep3_arg13 (W : Valuation τ sig (Elt F)) :
    StableHlo.after (main_part3_ops0 (F := F)) (StableHlo.after (main_part2_ops1 (F := F)) W) (Proc.devRef .tc main_arg13) = W (Proc.devRef .tc main_arg13) :=
  keep3 W main_arg13 (by decide) (by decide)
theorem keep3_arg14 (W : Valuation τ sig (Elt F)) :
    StableHlo.after (main_part3_ops0 (F := F)) (StableHlo.after (main_part2_ops1 (F := F)) W) (Proc.devRef .tc main_arg14) = W (Proc.devRef .tc main_arg14) :=
  keep3 W main_arg14 (by decide) (by decide)
theorem keep3_arg18 (W : Valuation τ sig (Elt F)) :
    StableHlo.after (main_part3_ops0 (F := F)) (StableHlo.after (main_part2_ops1 (F := F)) W) (Proc.devRef .tc main_arg18) = W (Proc.devRef .tc main_arg18) :=
  keep3 W main_arg18 (by decide) (by decide)
theorem keep3_arg16 (W : Valuation τ sig (Elt F)) :
    StableHlo.after (main_part3_ops0 (F := F)) (StableHlo.after (main_part2_ops1 (F := F)) W) (Proc.devRef .tc main_arg16) = W (Proc.devRef .tc main_arg16) :=
  keep3 W main_arg16 (by decide) (by decide)
theorem keep3_arg20 (W : Valuation τ sig (Elt F)) :
    StableHlo.after (main_part3_ops0 (F := F)) (StableHlo.after (main_part2_ops1 (F := F)) W) (Proc.devRef .tc main_arg20) = W (Proc.devRef .tc main_arg20) :=
  keep3 W main_arg20 (by decide) (by decide)
theorem keep3_arg22 (W : Valuation τ sig (Elt F)) :
    StableHlo.after (main_part3_ops0 (F := F)) (StableHlo.after (main_part2_ops1 (F := F)) W) (Proc.devRef .tc main_arg22) = W (Proc.devRef .tc main_arg22) :=
  keep3 W main_arg22 (by decide) (by decide)
theorem keep3_arg15 (W : Valuation τ sig (Elt F)) :
    StableHlo.after (main_part3_ops0 (F := F)) (StableHlo.after (main_part2_ops1 (F := F)) W) (Proc.devRef .tc main_arg15) = W (Proc.devRef .tc main_arg15) :=
  keep3 W main_arg15 (by decide) (by decide)
theorem keep3_arg17 (W : Valuation τ sig (Elt F)) :
    StableHlo.after (main_part3_ops0 (F := F)) (StableHlo.after (main_part2_ops1 (F := F)) W) (Proc.devRef .tc main_arg17) = W (Proc.devRef .tc main_arg17) :=
  keep3 W main_arg17 (by decide) (by decide)
theorem keep3_arg19 (W : Valuation τ sig (Elt F)) :
    StableHlo.after (main_part3_ops0 (F := F)) (StableHlo.after (main_part2_ops1 (F := F)) W) (Proc.devRef .tc main_arg19) = W (Proc.devRef .tc main_arg19) :=
  keep3 W main_arg19 (by decide) (by decide)
theorem keep3_arg21 (W : Valuation τ sig (Elt F)) :
    StableHlo.after (main_part3_ops0 (F := F)) (StableHlo.after (main_part2_ops1 (F := F)) W) (Proc.devRef .tc main_arg21) = W (Proc.devRef .tc main_arg21) :=
  keep3 W main_arg21 (by decide) (by decide)
theorem keep3_arg23 (W : Valuation τ sig (Elt F)) :
    StableHlo.after (main_part3_ops0 (F := F)) (StableHlo.after (main_part2_ops1 (F := F)) W) (Proc.devRef .tc main_arg23) = W (Proc.devRef .tc main_arg23) :=
  keep3 W main_arg23 (by decide) (by decide)
theorem keep3_arg2 (W : Valuation τ sig (Elt F)) :
    StableHlo.after (main_part3_ops0 (F := F)) (StableHlo.after (main_part2_ops1 (F := F)) W) (Proc.devRef .tc main_arg2) = W (Proc.devRef .tc main_arg2) :=
  keep3 W main_arg2 (by decide) (by decide)

/-! ## From the previous boundary to kernel call 4: `main_part3_ops1`, `main_part4_ops0` -/

theorem glue4_v176 (W : Valuation τ sig (Elt F)) :
    StableHlo.after (main_part4_ops0 (F := F)) (StableHlo.after (main_part3_ops1 (F := F)) W) (Proc.devRef .tc main_v176)
      = aggMean (W (Proc.devRef .tc main_v136)) (W (Proc.devRef .tc main_arg24)) (W (Proc.devRef .tc main_v18)) := by
  rw [part4_ops0_keep _ main_v176 (by decide),
    part3_ops1_v176] <;> rfl

theorem glue4_v193 (W : Valuation τ sig (Elt F)) :
    StableHlo.after (main_part4_ops0 (F := F)) (StableHlo.after (main_part3_ops1 (F := F)) W) (Proc.devRef .tc main_v193)
      = aggMean (W (Proc.devRef .tc main_v159)) (W (Proc.devRef .tc main_arg25)) (W (Proc.devRef .tc main_v27)) := by
  rw [part4_ops0_keep _ main_v193 (by decide),
    part3_ops1_v193] <;> rfl

theorem glue4_v210 (W : Valuation τ sig (Elt F)) :
    StableHlo.after (main_part4_ops0 (F := F)) (StableHlo.after (main_part3_ops1 (F := F)) W) (Proc.devRef .tc main_v210)
      = aggMean (W (Proc.devRef .tc main_v136)) (W (Proc.devRef .tc main_arg26)) (W (Proc.devRef .tc main_v36)) := by
  rw [part4_ops0_v210,
    part3_ops1_v205,
    part3_ops1_v206,
    part3_ops1_v204,
    part3_ops1_keep _ main_v36 (by decide)] <;> rfl

theorem glue4_v227 (W : Valuation τ sig (Elt F)) :
    StableHlo.after (main_part4_ops0 (F := F)) (StableHlo.after (main_part3_ops1 (F := F)) W) (Proc.devRef .tc main_v227)
      = aggMean (W (Proc.devRef .tc main_v159)) (W (Proc.devRef .tc main_arg27)) (W (Proc.devRef .tc main_v45)) := by
  rw [part4_ops0_v227,
    part3_ops1_keep _ main_v159 (by decide),
    part3_ops1_keep _ main_arg27 (by decide),
    part3_ops1_keep _ main_v45 (by decide)] <;> rfl

theorem glue4_v241 (W : Valuation τ sig (Elt F)) :
    StableHlo.after (main_part4_ops0 (F := F)) (StableHlo.after (main_part3_ops1 (F := F)) W) (Proc.devRef .tc main_v241)
      = kT128 (wAt10 (W (Proc.devRef .tc main_arg11))) := by
  rw [part4_ops0_v241,
    part3_ops1_keep _ main_arg11 (by decide)] <;> rfl

theorem glue4_v243 (W : Valuation τ sig (Elt F)) :
    StableHlo.after (main_part4_ops0 (F := F)) (StableHlo.after (main_part3_ops1 (F := F)) W) (Proc.devRef .tc main_v243)
      = kT128 (wAt10 (W (Proc.devRef .tc main_arg13))) := by
  rw [part4_ops0_v243,
    part3_ops1_keep _ main_arg13 (by decide)] <;> rfl

theorem glue4_v245 (W : Valuation τ sig (Elt F)) :
    StableHlo.after (main_part4_ops0 (F := F)) (StableHlo.after (main_part3_ops1 (F := F)) W) (Proc.devRef .tc main_v245)
      = kT128 (wAt13 (W (Proc.devRef .tc main_arg11))) := by
  rw [part4_ops0_v245,
    part3_ops1_keep _ main_arg11 (by decide)] <;> rfl

theorem glue4_v247 (W : Valuation τ sig (Elt F)) :
    StableHlo.after (main_part4_ops0 (F := F)) (StableHlo.after (main_part3_ops1 (F := F)) W) (Proc.devRef .tc main_v247)
      = kT128 (wAt13 (W (Proc.devRef .tc main_arg13))) := by
  rw [part4_ops0_v247,
    part3_ops1_keep _ main_arg13 (by decide)] <;> rfl

theorem glue4_v248 (W : Valuation τ sig (Elt F)) :
    StableHlo.after (main_part4_ops0 (F := F)) (StableHlo.after (main_part3_ops1 (F := F)) W) (Proc.devRef .tc main_v248)
      = kRow128 (bAt10 (W (Proc.devRef .tc main_arg12))) := by
  rw [part4_ops0_v248,
    part3_ops1_keep _ main_arg12 (by decide)] <;> rfl

theorem glue4_v249 (W : Valuation τ sig (Elt F)) :
    StableHlo.after (main_part4_ops0 (F := F)) (StableHlo.after (main_part3_ops1 (F := F)) W) (Proc.devRef .tc main_v249)
      = kRow128 (bAt13 (W (Proc.devRef .tc main_arg12))) := by
  rw [part4_ops0_v249,
    part3_ops1_keep _ main_arg12 (by decide)] <;> rfl

/-- A reference none of these pieces writes comes through unchanged. -/
theorem keep4 (W : Valuation τ sig (Elt F)) (r : Ref sig .tc) (h0 : r ∉ main_part3_ops1_W) (h1 : r ∉ main_part4_ops0_W) :
    StableHlo.after (main_part4_ops0 (F := F)) (StableHlo.after (main_part3_ops1 (F := F)) W) (Proc.devRef .tc r) = W (Proc.devRef .tc r) := by
  rw [part4_ops0_keep _ r h1, part3_ops1_keep _ r h0]
theorem keep4_v136 (W : Valuation τ sig (Elt F)) :
    StableHlo.after (main_part4_ops0 (F := F)) (StableHlo.after (main_part3_ops1 (F := F)) W) (Proc.devRef .tc main_v136) = W (Proc.devRef .tc main_v136) :=
  keep4 W main_v136 (by decide) (by decide)
theorem keep4_arg11 (W : Valuation τ sig (Elt F)) :
    StableHlo.after (main_part4_ops0 (F := F)) (StableHlo.after (main_part3_ops1 (F := F)) W) (Proc.devRef .tc main_arg11) = W (Proc.devRef .tc main_arg11) :=
  keep4 W main_arg11 (by decide) (by decide)
theorem keep4_arg12 (W : Valuation τ sig (Elt F)) :
    StableHlo.after (main_part4_ops0 (F := F)) (StableHlo.after (main_part3_ops1 (F := F)) W) (Proc.devRef .tc main_arg12) = W (Proc.devRef .tc main_arg12) :=
  keep4 W main_arg12 (by decide) (by decide)
theorem keep4_arg13 (W : Valuation τ sig (Elt F)) :
    StableHlo.after (main_part4_ops0 (F := F)) (StableHlo.after (main_part3_ops1 (F := F)) W) (Proc.devRef .tc main_arg13) = W (Proc.devRef .tc main_arg13) :=
  keep4 W main_arg13 (by decide) (by decide)
theorem keep4_v159 (W : Valuation τ sig (Elt F)) :
    StableHlo.after (main_part4_ops0 (F := F)) (StableHlo.after (main_part3_ops1 (F := F)) W) (Proc.devRef .tc main_v159) = W (Proc.devRef .tc main_v159) :=
  keep4 W main_v159 (by decide) (by decide)
theorem keep4_arg24 (W : Valuation τ sig (Elt F)) :
    StableHlo.after (main_part4_ops0 (F := F)) (StableHlo.after (main_part3_ops1 (F := F)) W) (Proc.devRef .tc main_arg24) = W (Proc.devRef .tc main_arg24) :=
  keep4 W main_arg24 (by decide) (by decide)
theorem keep4_v18 (W : Valuation τ sig (Elt F)) :
    StableHlo.after (main_part4_ops0 (F := F)) (StableHlo.after (main_part3_ops1 (F := F)) W) (Proc.devRef .tc main_v18) = W (Proc.devRef .tc main_v18) :=
  keep4 W main_v18 (by decide) (by decide)
theorem keep4_arg25 (W : Valuation τ sig (Elt F)) :
    StableHlo.after (main_part4_ops0 (F := F)) (StableHlo.after (main_part3_ops1 (F := F)) W) (Proc.devRef .tc main_arg25) = W (Proc.devRef .tc main_arg25) :=
  keep4 W main_arg25 (by decide) (by decide)
theorem keep4_v27 (W : Valuation τ sig (Elt F)) :
    StableHlo.after (main_part4_ops0 (F := F)) (StableHlo.after (main_part3_ops1 (F := F)) W) (Proc.devRef .tc main_v27) = W (Proc.devRef .tc main_v27) :=
  keep4 W main_v27 (by decide) (by decide)
theorem keep4_arg26 (W : Valuation τ sig (Elt F)) :
    StableHlo.after (main_part4_ops0 (F := F)) (StableHlo.after (main_part3_ops1 (F := F)) W) (Proc.devRef .tc main_arg26) = W (Proc.devRef .tc main_arg26) :=
  keep4 W main_arg26 (by decide) (by decide)
theorem keep4_v36 (W : Valuation τ sig (Elt F)) :
    StableHlo.after (main_part4_ops0 (F := F)) (StableHlo.after (main_part3_ops1 (F := F)) W) (Proc.devRef .tc main_v36) = W (Proc.devRef .tc main_v36) :=
  keep4 W main_v36 (by decide) (by decide)
theorem keep4_arg27 (W : Valuation τ sig (Elt F)) :
    StableHlo.after (main_part4_ops0 (F := F)) (StableHlo.after (main_part3_ops1 (F := F)) W) (Proc.devRef .tc main_arg27) = W (Proc.devRef .tc main_arg27) :=
  keep4 W main_arg27 (by decide) (by decide)
theorem keep4_v45 (W : Valuation τ sig (Elt F)) :
    StableHlo.after (main_part4_ops0 (F := F)) (StableHlo.after (main_part3_ops1 (F := F)) W) (Proc.devRef .tc main_v45) = W (Proc.devRef .tc main_v45) :=
  keep4 W main_v45 (by decide) (by decide)
theorem keep4_arg14 (W : Valuation τ sig (Elt F)) :
    StableHlo.after (main_part4_ops0 (F := F)) (StableHlo.after (main_part3_ops1 (F := F)) W) (Proc.devRef .tc main_arg14) = W (Proc.devRef .tc main_arg14) :=
  keep4 W main_arg14 (by decide) (by decide)
theorem keep4_arg18 (W : Valuation τ sig (Elt F)) :
    StableHlo.after (main_part4_ops0 (F := F)) (StableHlo.after (main_part3_ops1 (F := F)) W) (Proc.devRef .tc main_arg18) = W (Proc.devRef .tc main_arg18) :=
  keep4 W main_arg18 (by decide) (by decide)
theorem keep4_arg16 (W : Valuation τ sig (Elt F)) :
    StableHlo.after (main_part4_ops0 (F := F)) (StableHlo.after (main_part3_ops1 (F := F)) W) (Proc.devRef .tc main_arg16) = W (Proc.devRef .tc main_arg16) :=
  keep4 W main_arg16 (by decide) (by decide)
theorem keep4_arg20 (W : Valuation τ sig (Elt F)) :
    StableHlo.after (main_part4_ops0 (F := F)) (StableHlo.after (main_part3_ops1 (F := F)) W) (Proc.devRef .tc main_arg20) = W (Proc.devRef .tc main_arg20) :=
  keep4 W main_arg20 (by decide) (by decide)
theorem keep4_arg22 (W : Valuation τ sig (Elt F)) :
    StableHlo.after (main_part4_ops0 (F := F)) (StableHlo.after (main_part3_ops1 (F := F)) W) (Proc.devRef .tc main_arg22) = W (Proc.devRef .tc main_arg22) :=
  keep4 W main_arg22 (by decide) (by decide)
theorem keep4_arg15 (W : Valuation τ sig (Elt F)) :
    StableHlo.after (main_part4_ops0 (F := F)) (StableHlo.after (main_part3_ops1 (F := F)) W) (Proc.devRef .tc main_arg15) = W (Proc.devRef .tc main_arg15) :=
  keep4 W main_arg15 (by decide) (by decide)
theorem keep4_arg17 (W : Valuation τ sig (Elt F)) :
    StableHlo.after (main_part4_ops0 (F := F)) (StableHlo.after (main_part3_ops1 (F := F)) W) (Proc.devRef .tc main_arg17) = W (Proc.devRef .tc main_arg17) :=
  keep4 W main_arg17 (by decide) (by decide)
theorem keep4_arg19 (W : Valuation τ sig (Elt F)) :
    StableHlo.after (main_part4_ops0 (F := F)) (StableHlo.after (main_part3_ops1 (F := F)) W) (Proc.devRef .tc main_arg19) = W (Proc.devRef .tc main_arg19) :=
  keep4 W main_arg19 (by decide) (by decide)
theorem keep4_arg21 (W : Valuation τ sig (Elt F)) :
    StableHlo.after (main_part4_ops0 (F := F)) (StableHlo.after (main_part3_ops1 (F := F)) W) (Proc.devRef .tc main_arg21) = W (Proc.devRef .tc main_arg21) :=
  keep4 W main_arg21 (by decide) (by decide)
theorem keep4_arg23 (W : Valuation τ sig (Elt F)) :
    StableHlo.after (main_part4_ops0 (F := F)) (StableHlo.after (main_part3_ops1 (F := F)) W) (Proc.devRef .tc main_arg23) = W (Proc.devRef .tc main_arg23) :=
  keep4 W main_arg23 (by decide) (by decide)
theorem keep4_arg2 (W : Valuation τ sig (Elt F)) :
    StableHlo.after (main_part4_ops0 (F := F)) (StableHlo.after (main_part3_ops1 (F := F)) W) (Proc.devRef .tc main_arg2) = W (Proc.devRef .tc main_arg2) :=
  keep4 W main_arg2 (by decide) (by decide)

end Cert.KernelIdeal.Hand
-- ==== Proof.KIGlueC.lean ====
import proofs.«166951_j44444321579084_2_alg».proof.Proof.Gen.KernelIdeal.Launch
import proofs.«166951_j44444321579084_2_alg».proof.Proof.KIHost
import proofs.«166951_j44444321579084_2_alg».proof.Proof.KIGlueDefs

/-! # The host operations of the kernel program read back: the second layer's target kernel and the third layer's source kernel

For contents `W` at the boundary before a stretch of host operations, each lemma says what a buffer holds after
the stretch, as a stage of the network (`Cert.Stages`) or a preparation (`Cert.KPrep`) applied to `W`'s values;
first window by window, then for the whole stretch; a buffer the stretch does not write keeps its contents.
This module: the weights of the second layer's target kernel (relations 1 and 2), then the third layer's four
neighbour means (of the second layer's outputs) and the weights of its source kernel (relations 0 and 3). -/

set_option maxRecDepth 8192

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

variable {F : FTy → Type} [FloatOps F]

/-! ## What `main_part4_ops1` leaves behind -/

/-- A reference outside the list of those `main_part4_ops1` writes keeps its contents. -/
theorem part4_ops1_keep (V : Valuation τ sig (Elt F)) (r : Ref sig .tc) (hr : r ∉ main_part4_ops1_W) :
    StableHlo.after (main_part4_ops1 (F := F)) V (Proc.devRef .tc r) = V (Proc.devRef .tc r) :=
  StableHlo.after_of_writes_sub _ V main_part4_ops1_writes hr

theorem part4_ops1_v254 (V : Valuation τ sig (Elt F)) :
    StableHlo.after (main_part4_ops1 (F := F)) V (Proc.devRef .tc main_v254)
      = bAt11 (V (Proc.devRef .tc main_arg12)) := by
  after_results_simp
  rfl

theorem part4_ops1_v256 (V : Valuation τ sig (Elt F)) :
    StableHlo.after (main_part4_ops1 (F := F)) V (Proc.devRef .tc main_v256)
      = wAt11 (V (Proc.devRef .tc main_arg13)) := by
  after_results_simp
  rfl

theorem part4_ops1_v258 (V : Valuation τ sig (Elt F)) :
    StableHlo.after (main_part4_ops1 (F := F)) V (Proc.devRef .tc main_v258)
      = wAt12 (V (Proc.devRef .tc main_arg11)) := by
  after_results_simp
  rfl

theorem part4_ops1_v260 (V : Valuation τ sig (Elt F)) :
    StableHlo.after (main_part4_ops1 (F := F)) V (Proc.devRef .tc main_v260)
      = bAt12 (V (Proc.devRef .tc main_arg12)) := by
  after_results_simp
  rfl

theorem part4_ops1_v262 (V : Valuation τ sig (Elt F)) :
    StableHlo.after (main_part4_ops1 (F := F)) V (Proc.devRef .tc main_v262)
      = wAt12 (V (Proc.devRef .tc main_arg13)) := by
  after_results_simp
  rfl

theorem part4_ops1_v263 (V : Valuation τ sig (Elt F)) :
    StableHlo.after (main_part4_ops1 (F := F)) V (Proc.devRef .tc main_v263)
      = kTr128 (wAt11 (V (Proc.devRef .tc main_arg11))) := by
  after_results_simp
  rfl

/-! ## What `main_part5_ops0` leaves behind -/

/-- A reference outside the list of those `main_part5_ops0` writes keeps its contents. -/
theorem part5_ops0_keep (V : Valuation τ sig (Elt F)) (r : Ref sig .tc) (hr : r ∉ main_part5_ops0_W) :
    StableHlo.after (main_part5_ops0 (F := F)) V (Proc.devRef .tc r) = V (Proc.devRef .tc r) :=
  StableHlo.after_of_writes_sub _ V main_part5_ops0_writes hr

theorem part5_ops0_v264 (V : Valuation τ sig (Elt F)) :
    StableHlo.after (main_part5_ops0 (F := F)) V (Proc.devRef .tc main_v264)
      = kBf128 (V (Proc.devRef .tc main_v263)) := by
  after_results_simp
  rfl

theorem part5_ops0_v266 (V : Valuation τ sig (Elt F)) :
    StableHlo.after (main_part5_ops0 (F := F)) V (Proc.devRef .tc main_v266)
      = kT128 (V (Proc.devRef .tc main_v256)) := by
  after_results_simp
  rfl

theorem part5_ops0_v268 (V : Valuation τ sig (Elt F)) :
    StableHlo.after (main_part5_ops0 (F := F)) V (Proc.devRef .tc main_v268)
      = kT128 (V (Proc.devRef .tc main_v258)) := by
  after_results_simp
  rfl

theorem part5_ops0_v270 (V : Valuation τ sig (Elt F)) :
    StableHlo.after (main_part5_ops0 (F := F)) V (Proc.devRef .tc main_v270)
      = kT128 (V (Proc.devRef .tc main_v262)) := by
  after_results_simp
  rfl

theorem part5_ops0_v271 (V : Valuation τ sig (Elt F)) :
    StableHlo.after (main_part5_ops0 (F := F)) V (Proc.devRef .tc main_v271)
      = kRow128 (V (Proc.devRef .tc main_v254)) := by
  after_results_simp
  rfl

theorem part5_ops0_v272 (V : Valuation τ sig (Elt F)) :
    StableHlo.after (main_part5_ops0 (F := F)) V (Proc.devRef .tc main_v272)
      = kRow128 (V (Proc.devRef .tc main_v260)) := by
  after_results_simp
  rfl

/-! ## What `main_part5_ops1` leaves behind -/

/-- A reference outside the list of those `main_part5_ops1` writes keeps its contents. -/
theorem part5_ops1_keep (V : Valuation τ sig (Elt F)) (r : Ref sig .tc) (hr : r ∉ main_part5_ops1_W) :
    StableHlo.after (main_part5_ops1 (F := F)) V (Proc.devRef .tc r) = V (Proc.devRef .tc r) :=
  StableHlo.after_of_writes_sub _ V main_part5_ops1_writes hr

theorem part5_ops1_v290 (V : Valuation τ sig (Elt F)) :
    StableHlo.after (main_part5_ops1 (F := F)) V (Proc.devRef .tc main_v290)
      = aggMean (V (Proc.devRef .tc main_v250)) (V (Proc.devRef .tc main_arg24)) (V (Proc.devRef .tc main_v18)) := by
  after_results_simp
  rfl

theorem part5_ops1_v307 (V : Valuation τ sig (Elt F)) :
    StableHlo.after (main_part5_ops1 (F := F)) V (Proc.devRef .tc main_v307)
      = aggMean (V (Proc.devRef .tc main_v273)) (V (Proc.devRef .tc main_arg25)) (V (Proc.devRef .tc main_v27)) := by
  after_results_simp
  rfl

theorem part5_ops1_v309 (V : Valuation τ sig (Elt F)) :
    StableHlo.after (main_part5_ops1 (F := F)) V (Proc.devRef .tc main_v309)
      = eiRow0 (V (Proc.devRef .tc main_arg26)) := by
  after_results_simp
  rfl

theorem part5_ops1_v311 (V : Valuation τ sig (Elt F)) :
    StableHlo.after (main_part5_ops1 (F := F)) V (Proc.devRef .tc main_v311)
      = eiRow1 (V (Proc.devRef .tc main_arg26)) := by
  after_results_simp
  rfl

theorem part5_ops1_v313 (V : Valuation τ sig (Elt F)) :
    StableHlo.after (main_part5_ops1 (F := F)) V (Proc.devRef .tc main_v313)
      = ltZero (eiRow0 (V (Proc.devRef .tc main_arg26))) := by
  after_results_simp
  rfl

theorem part5_ops1_v315 (V : Valuation τ sig (Elt F)) :
    StableHlo.after (main_part5_ops1 (F := F)) V (Proc.devRef .tc main_v315)
      = plusN (eiRow0 (V (Proc.devRef .tc main_arg26))) := by
  after_results_simp
  rfl

/-! ## What `main_part6_ops0` leaves behind -/

/-- A reference outside the list of those `main_part6_ops0` writes keeps its contents. -/
theorem part6_ops0_keep (V : Valuation τ sig (Elt F)) (r : Ref sig .tc) (hr : r ∉ main_part6_ops0_W) :
    StableHlo.after (main_part6_ops0 (F := F)) V (Proc.devRef .tc r) = V (Proc.devRef .tc r) :=
  StableHlo.after_of_writes_sub _ V main_part6_ops0_writes hr

theorem part6_ops0_v324 (V : Valuation τ sig (Elt F)) :
    StableHlo.after (main_part6_ops0 (F := F)) V (Proc.devRef .tc main_v324)
      = Host.divf (scatterInto zeroRows (idxCol (V (Proc.devRef .tc main_v311))) (gatherAt (V (Proc.devRef .tc main_v250)) (wrapSel (V (Proc.devRef .tc main_v313)) (V (Proc.devRef .tc main_v315)) (V (Proc.devRef .tc main_v309))))) (perRow (V (Proc.devRef .tc main_v36))) := by
  after_results_simp
  rfl

theorem part6_ops0_v341 (V : Valuation τ sig (Elt F)) :
    StableHlo.after (main_part6_ops0 (F := F)) V (Proc.devRef .tc main_v341)
      = aggMean (V (Proc.devRef .tc main_v273)) (V (Proc.devRef .tc main_arg27)) (V (Proc.devRef .tc main_v45)) := by
  after_results_simp
  rfl

theorem part6_ops0_v355 (V : Valuation τ sig (Elt F)) :
    StableHlo.after (main_part6_ops0 (F := F)) V (Proc.devRef .tc main_v355)
      = kT128 (wAt20 (V (Proc.devRef .tc main_arg11))) := by
  after_results_simp
  rfl

theorem part6_ops0_v357 (V : Valuation τ sig (Elt F)) :
    StableHlo.after (main_part6_ops0 (F := F)) V (Proc.devRef .tc main_v357)
      = kT128 (wAt20 (V (Proc.devRef .tc main_arg13))) := by
  after_results_simp
  rfl

theorem part6_ops0_v359 (V : Valuation τ sig (Elt F)) :
    StableHlo.after (main_part6_ops0 (F := F)) V (Proc.devRef .tc main_v359)
      = kT128 (wAt23 (V (Proc.devRef .tc main_arg11))) := by
  after_results_simp
  rfl

theorem part6_ops0_v361 (V : Valuation τ sig (Elt F)) :
    StableHlo.after (main_part6_ops0 (F := F)) V (Proc.devRef .tc main_v361)
      = kT128 (wAt23 (V (Proc.devRef .tc main_arg13))) := by
  after_results_simp
  rfl

theorem part6_ops0_v362 (V : Valuation τ sig (Elt F)) :
    StableHlo.after (main_part6_ops0 (F := F)) V (Proc.devRef .tc main_v362)
      = kRow128 (bAt20 (V (Proc.devRef .tc main_arg12))) := by
  after_results_simp
  rfl

theorem part6_ops0_v363 (V : Valuation τ sig (Elt F)) :
    StableHlo.after (main_part6_ops0 (F := F)) V (Proc.devRef .tc main_v363)
      = kRow128 (bAt23 (V (Proc.devRef .tc main_arg12))) := by
  after_results_simp
  rfl

/-! ## From the previous boundary to kernel call 5: `main_part4_ops1`, `main_part5_ops0` -/

theorem glue5_v264 (W : Valuation τ sig (Elt F)) :
    StableHlo.after (main_part5_ops0 (F := F)) (StableHlo.after (main_part4_ops1 (F := F)) W) (Proc.devRef .tc main_v264)
      = kT128 (wAt11 (W (Proc.devRef .tc main_arg11))) := by
  rw [part5_ops0_v264,
    part4_ops1_v263] <;> rfl

theorem glue5_v266 (W : Valuation τ sig (Elt F)) :
    StableHlo.after (main_part5_ops0 (F := F)) (StableHlo.after (main_part4_ops1 (F := F)) W) (Proc.devRef .tc main_v266)
      = kT128 (wAt11 (W (Proc.devRef .tc main_arg13))) := by
  rw [part5_ops0_v266,
    part4_ops1_v256] <;> rfl

theorem glue5_v268 (W : Valuation τ sig (Elt F)) :
    StableHlo.after (main_part5_ops0 (F := F)) (StableHlo.after (main_part4_ops1 (F := F)) W) (Proc.devRef .tc main_v268)
      = kT128 (wAt12 (W (Proc.devRef .tc main_arg11))) := by
  rw [part5_ops0_v268,
    part4_ops1_v258] <;> rfl

theorem glue5_v270 (W : Valuation τ sig (Elt F)) :
    StableHlo.after (main_part5_ops0 (F := F)) (StableHlo.after (main_part4_ops1 (F := F)) W) (Proc.devRef .tc main_v270)
      = kT128 (wAt12 (W (Proc.devRef .tc main_arg13))) := by
  rw [part5_ops0_v270,
    part4_ops1_v262] <;> rfl

theorem glue5_v271 (W : Valuation τ sig (Elt F)) :
    StableHlo.after (main_part5_ops0 (F := F)) (StableHlo.after (main_part4_ops1 (F := F)) W) (Proc.devRef .tc main_v271)
      = kRow128 (bAt11 (W (Proc.devRef .tc main_arg12))) := by
  rw [part5_ops0_v271,
    part4_ops1_v254] <;> rfl

theorem glue5_v272 (W : Valuation τ sig (Elt F)) :
    StableHlo.after (main_part5_ops0 (F := F)) (StableHlo.after (main_part4_ops1 (F := F)) W) (Proc.devRef .tc main_v272)
      = kRow128 (bAt12 (W (Proc.devRef .tc main_arg12))) := by
  rw [part5_ops0_v272,
    part4_ops1_v260] <;> rfl

/-- A reference none of these pieces writes comes through unchanged. -/
theorem keep5 (W : Valuation τ sig (Elt F)) (r : Ref sig .tc) (h0 : r ∉ main_part4_ops1_W) (h1 : r ∉ main_part5_ops0_W) :
    StableHlo.after (main_part5_ops0 (F := F)) (StableHlo.after (main_part4_ops1 (F := F)) W) (Proc.devRef .tc r) = W (Proc.devRef .tc r) := by
  rw [part5_ops0_keep _ r h1, part4_ops1_keep _ r h0]
theorem keep5_v193 (W : Valuation τ sig (Elt F)) :
    StableHlo.after (main_part5_ops0 (F := F)) (StableHlo.after (main_part4_ops1 (F := F)) W) (Proc.devRef .tc main_v193) = W (Proc.devRef .tc main_v193) :=
  keep5 W main_v193 (by decide) (by decide)
theorem keep5_v210 (W : Valuation τ sig (Elt F)) :
    StableHlo.after (main_part5_ops0 (F := F)) (StableHlo.after (main_part4_ops1 (F := F)) W) (Proc.devRef .tc main_v210) = W (Proc.devRef .tc main_v210) :=
  keep5 W main_v210 (by decide) (by decide)
theorem keep5_v159 (W : Valuation τ sig (Elt F)) :
    StableHlo.after (main_part5_ops0 (F := F)) (StableHlo.after (main_part4_ops1 (F := F)) W) (Proc.devRef .tc main_v159) = W (Proc.devRef .tc main_v159) :=
  keep5 W main_v159 (by decide) (by decide)
theorem keep5_arg24 (W : Valuation τ sig (Elt F)) :
    StableHlo.after (main_part5_ops0 (F := F)) (StableHlo.after (main_part4_ops1 (F := F)) W) (Proc.devRef .tc main_arg24) = W (Proc.devRef .tc main_arg24) :=
  keep5 W main_arg24 (by decide) (by decide)
theorem keep5_v250 (W : Valuation τ sig (Elt F)) :
    StableHlo.after (main_part5_ops0 (F := F)) (StableHlo.after (main_part4_ops1 (F := F)) W) (Proc.devRef .tc main_v250) = W (Proc.devRef .tc main_v250) :=
  keep5 W main_v250 (by decide) (by decide)
theorem keep5_v18 (W : Valuation τ sig (Elt F)) :
    StableHlo.after (main_part5_ops0 (F := F)) (StableHlo.after (main_part4_ops1 (F := F)) W) (Proc.devRef .tc main_v18) = W (Proc.devRef .tc main_v18) :=
  keep5 W main_v18 (by decide) (by decide)
theorem keep5_arg25 (W : Valuation τ sig (Elt F)) :
    StableHlo.after (main_part5_ops0 (F := F)) (StableHlo.after (main_part4_ops1 (F := F)) W) (Proc.devRef .tc main_arg25) = W (Proc.devRef .tc main_arg25) :=
  keep5 W main_arg25 (by decide) (by decide)
theorem keep5_v27 (W : Valuation τ sig (Elt F)) :
    StableHlo.after (main_part5_ops0 (F := F)) (StableHlo.after (main_part4_ops1 (F := F)) W) (Proc.devRef .tc main_v27) = W (Proc.devRef .tc main_v27) :=
  keep5 W main_v27 (by decide) (by decide)
theorem keep5_arg26 (W : Valuation τ sig (Elt F)) :
    StableHlo.after (main_part5_ops0 (F := F)) (StableHlo.after (main_part4_ops1 (F := F)) W) (Proc.devRef .tc main_arg26) = W (Proc.devRef .tc main_arg26) :=
  keep5 W main_arg26 (by decide) (by decide)
theorem keep5_v36 (W : Valuation τ sig (Elt F)) :
    StableHlo.after (main_part5_ops0 (F := F)) (StableHlo.after (main_part4_ops1 (F := F)) W) (Proc.devRef .tc main_v36) = W (Proc.devRef .tc main_v36) :=
  keep5 W main_v36 (by decide) (by decide)
theorem keep5_arg27 (W : Valuation τ sig (Elt F)) :
    StableHlo.after (main_part5_ops0 (F := F)) (StableHlo.after (main_part4_ops1 (F := F)) W) (Proc.devRef .tc main_arg27) = W (Proc.devRef .tc main_arg27) :=
  keep5 W main_arg27 (by decide) (by decide)
theorem keep5_v45 (W : Valuation τ sig (Elt F)) :
    StableHlo.after (main_part5_ops0 (F := F)) (StableHlo.after (main_part4_ops1 (F := F)) W) (Proc.devRef .tc main_v45) = W (Proc.devRef .tc main_v45) :=
  keep5 W main_v45 (by decide) (by decide)
theorem keep5_arg11 (W : Valuation τ sig (Elt F)) :
    StableHlo.after (main_part5_ops0 (F := F)) (StableHlo.after (main_part4_ops1 (F := F)) W) (Proc.devRef .tc main_arg11) = W (Proc.devRef .tc main_arg11) :=
  keep5 W main_arg11 (by decide) (by decide)
theorem keep5_arg12 (W : Valuation τ sig (Elt F)) :
    StableHlo.after (main_part5_ops0 (F := F)) (StableHlo.after (main_part4_ops1 (F := F)) W) (Proc.devRef .tc main_arg12) = W (Proc.devRef .tc main_arg12) :=
  keep5 W main_arg12 (by decide) (by decide)
theorem keep5_arg13 (W : Valuation τ sig (Elt F)) :
    StableHlo.after (main_part5_ops0 (F := F)) (StableHlo.after (main_part4_ops1 (F := F)) W) (Proc.devRef .tc main_arg13) = W (Proc.devRef .tc main_arg13) :=
  keep5 W main_arg13 (by decide) (by decide)
theorem keep5_arg14 (W : Valuation τ sig (Elt F)) :
    StableHlo.after (main_part5_ops0 (F := F)) (StableHlo.after (main_part4_ops1 (F := F)) W) (Proc.devRef .tc main_arg14) = W (Proc.devRef .tc main_arg14) :=
  keep5 W main_arg14 (by decide) (by decide)
theorem keep5_arg18 (W : Valuation τ sig (Elt F)) :
    StableHlo.after (main_part5_ops0 (F := F)) (StableHlo.after (main_part4_ops1 (F := F)) W) (Proc.devRef .tc main_arg18) = W (Proc.devRef .tc main_arg18) :=
  keep5 W main_arg18 (by decide) (by decide)
theorem keep5_arg16 (W : Valuation τ sig (Elt F)) :
    StableHlo.after (main_part5_ops0 (F := F)) (StableHlo.after (main_part4_ops1 (F := F)) W) (Proc.devRef .tc main_arg16) = W (Proc.devRef .tc main_arg16) :=
  keep5 W main_arg16 (by decide) (by decide)
theorem keep5_arg20 (W : Valuation τ sig (Elt F)) :
    StableHlo.after (main_part5_ops0 (F := F)) (StableHlo.after (main_part4_ops1 (F := F)) W) (Proc.devRef .tc main_arg20) = W (Proc.devRef .tc main_arg20) :=
  keep5 W main_arg20 (by decide) (by decide)
theorem keep5_arg22 (W : Valuation τ sig (Elt F)) :
    StableHlo.after (main_part5_ops0 (F := F)) (StableHlo.after (main_part4_ops1 (F := F)) W) (Proc.devRef .tc main_arg22) = W (Proc.devRef .tc main_arg22) :=
  keep5 W main_arg22 (by decide) (by decide)
theorem keep5_arg15 (W : Valuation τ sig (Elt F)) :
    StableHlo.after (main_part5_ops0 (F := F)) (StableHlo.after (main_part4_ops1 (F := F)) W) (Proc.devRef .tc main_arg15) = W (Proc.devRef .tc main_arg15) :=
  keep5 W main_arg15 (by decide) (by decide)
theorem keep5_arg17 (W : Valuation τ sig (Elt F)) :
    StableHlo.after (main_part5_ops0 (F := F)) (StableHlo.after (main_part4_ops1 (F := F)) W) (Proc.devRef .tc main_arg17) = W (Proc.devRef .tc main_arg17) :=
  keep5 W main_arg17 (by decide) (by decide)
theorem keep5_arg19 (W : Valuation τ sig (Elt F)) :
    StableHlo.after (main_part5_ops0 (F := F)) (StableHlo.after (main_part4_ops1 (F := F)) W) (Proc.devRef .tc main_arg19) = W (Proc.devRef .tc main_arg19) :=
  keep5 W main_arg19 (by decide) (by decide)
theorem keep5_arg21 (W : Valuation τ sig (Elt F)) :
    StableHlo.after (main_part5_ops0 (F := F)) (StableHlo.after (main_part4_ops1 (F := F)) W) (Proc.devRef .tc main_arg21) = W (Proc.devRef .tc main_arg21) :=
  keep5 W main_arg21 (by decide) (by decide)
theorem keep5_arg23 (W : Valuation τ sig (Elt F)) :
    StableHlo.after (main_part5_ops0 (F := F)) (StableHlo.after (main_part4_ops1 (F := F)) W) (Proc.devRef .tc main_arg23) = W (Proc.devRef .tc main_arg23) :=
  keep5 W main_arg23 (by decide) (by decide)
theorem keep5_arg2 (W : Valuation τ sig (Elt F)) :
    StableHlo.after (main_part5_ops0 (F := F)) (StableHlo.after (main_part4_ops1 (F := F)) W) (Proc.devRef .tc main_arg2) = W (Proc.devRef .tc main_arg2) :=
  keep5 W main_arg2 (by decide) (by decide)

/-! ## From the previous boundary to kernel call 6: `main_part5_ops1`, `main_part6_ops0` -/

theorem glue6_v290 (W : Valuation τ sig (Elt F)) :
    StableHlo.after (main_part6_ops0 (F := F)) (StableHlo.after (main_part5_ops1 (F := F)) W) (Proc.devRef .tc main_v290)
      = aggMean (W (Proc.devRef .tc main_v250)) (W (Proc.devRef .tc main_arg24)) (W (Proc.devRef .tc main_v18)) := by
  rw [part6_ops0_keep _ main_v290 (by decide),
    part5_ops1_v290] <;> rfl

theorem glue6_v307 (W : Valuation τ sig (Elt F)) :
    StableHlo.after (main_part6_ops0 (F := F)) (StableHlo.after (main_part5_ops1 (F := F)) W) (Proc.devRef .tc main_v307)
      = aggMean (W (Proc.devRef .tc main_v273)) (W (Proc.devRef .tc main_arg25)) (W (Proc.devRef .tc main_v27)) := by
  rw [part6_ops0_keep _ main_v307 (by decide),
    part5_ops1_v307] <;> rfl

theorem glue6_v324 (W : Valuation τ sig (Elt F)) :
    StableHlo.after (main_part6_ops0 (F := F)) (StableHlo.after (main_part5_ops1 (F := F)) W) (Proc.devRef .tc main_v324)
      = aggMean (W (Proc.devRef .tc main_v250)) (W (Proc.devRef .tc main_arg26)) (W (Proc.devRef .tc main_v36)) := by
  rw [part6_ops0_v324,
    part5_ops1_v311,
    part5_ops1_keep _ main_v250 (by decide),
    part5_ops1_v313,
    part5_ops1_v315,
    part5_ops1_v309,
    part5_ops1_keep _ main_v36 (by decide)] <;> rfl

theorem glue6_v341 (W : Valuation τ sig (Elt F)) :
    StableHlo.after (main_part6_ops0 (F := F)) (StableHlo.after (main_part5_ops1 (F := F)) W) (Proc.devRef .tc main_v341)
      = aggMean (W (Proc.devRef .tc main_v273)) (W (Proc.devRef .tc main_arg27)) (W (Proc.devRef .tc main_v45)) := by
  rw [part6_ops0_v341,
    part5_ops1_keep _ main_v273 (by decide),
    part5_ops1_keep _ main_arg27 (by decide),
    part5_ops1_keep _ main_v45 (by decide)] <;> rfl

theorem glue6_v355 (W : Valuation τ sig (Elt F)) :
    StableHlo.after (main_part6_ops0 (F := F)) (StableHlo.after (main_part5_ops1 (F := F)) W) (Proc.devRef .tc main_v355)
      = kT128 (wAt20 (W (Proc.devRef .tc main_arg11))) := by
  rw [part6_ops0_v355,
    part5_ops1_keep _ main_arg11 (by decide)] <;> rfl

theorem glue6_v357 (W : Valuation τ sig (Elt F)) :
    StableHlo.after (main_part6_ops0 (F := F)) (StableHlo.after (main_part5_ops1 (F := F)) W) (Proc.devRef .tc main_v357)
      = kT128 (wAt20 (W (Proc.devRef .tc main_arg13))) := by
  rw [part6_ops0_v357,
    part5_ops1_keep _ main_arg13 (by decide)] <;> rfl

theorem glue6_v359 (W : Valuation τ sig (Elt F)) :
    StableHlo.after (main_part6_ops0 (F := F)) (StableHlo.after (main_part5_ops1 (F := F)) W) (Proc.devRef .tc main_v359)
      = kT128 (wAt23 (W (Proc.devRef .tc main_arg11))) := by
  rw [part6_ops0_v359,
    part5_ops1_keep _ main_arg11 (by decide)] <;> rfl

theorem glue6_v361 (W : Valuation τ sig (Elt F)) :
    StableHlo.after (main_part6_ops0 (F := F)) (StableHlo.after (main_part5_ops1 (F := F)) W) (Proc.devRef .tc main_v361)
      = kT128 (wAt23 (W (Proc.devRef .tc main_arg13))) := by
  rw [part6_ops0_v361,
    part5_ops1_keep _ main_arg13 (by decide)] <;> rfl

theorem glue6_v362 (W : Valuation τ sig (Elt F)) :
    StableHlo.after (main_part6_ops0 (F := F)) (StableHlo.after (main_part5_ops1 (F := F)) W) (Proc.devRef .tc main_v362)
      = kRow128 (bAt20 (W (Proc.devRef .tc main_arg12))) := by
  rw [part6_ops0_v362,
    part5_ops1_keep _ main_arg12 (by decide)] <;> rfl

theorem glue6_v363 (W : Valuation τ sig (Elt F)) :
    StableHlo.after (main_part6_ops0 (F := F)) (StableHlo.after (main_part5_ops1 (F := F)) W) (Proc.devRef .tc main_v363)
      = kRow128 (bAt23 (W (Proc.devRef .tc main_arg12))) := by
  rw [part6_ops0_v363,
    part5_ops1_keep _ main_arg12 (by decide)] <;> rfl

/-- A reference none of these pieces writes comes through unchanged. -/
theorem keep6 (W : Valuation τ sig (Elt F)) (r : Ref sig .tc) (h0 : r ∉ main_part5_ops1_W) (h1 : r ∉ main_part6_ops0_W) :
    StableHlo.after (main_part6_ops0 (F := F)) (StableHlo.after (main_part5_ops1 (F := F)) W) (Proc.devRef .tc r) = W (Proc.devRef .tc r) := by
  rw [part6_ops0_keep _ r h1, part5_ops1_keep _ r h0]
theorem keep6_v250 (W : Valuation τ sig (Elt F)) :
    StableHlo.after (main_part6_ops0 (F := F)) (StableHlo.after (main_part5_ops1 (F := F)) W) (Proc.devRef .tc main_v250) = W (Proc.devRef .tc main_v250) :=
  keep6 W main_v250 (by decide) (by decide)
theorem keep6_arg11 (W : Valuation τ sig (Elt F)) :
    StableHlo.after (main_part6_ops0 (F := F)) (StableHlo.after (main_part5_ops1 (F := F)) W) (Proc.devRef .tc main_arg11) = W (Proc.devRef .tc main_arg11) :=
  keep6 W main_arg11 (by decide) (by decide)
theorem keep6_arg12 (W : Valuation τ sig (Elt F)) :
    StableHlo.after (main_part6_ops0 (F := F)) (StableHlo.after (main_part5_ops1 (F := F)) W) (Proc.devRef .tc main_arg12) = W (Proc.devRef .tc main_arg12) :=
  keep6 W main_arg12 (by decide) (by decide)
theorem keep6_arg13 (W : Valuation τ sig (Elt F)) :
    StableHlo.after (main_part6_ops0 (F := F)) (StableHlo.after (main_part5_ops1 (F := F)) W) (Proc.devRef .tc main_arg13) = W (Proc.devRef .tc main_arg13) :=
  keep6 W main_arg13 (by decide) (by decide)
theorem keep6_v273 (W : Valuation τ sig (Elt F)) :
    StableHlo.after (main_part6_ops0 (F := F)) (StableHlo.after (main_part5_ops1 (F := F)) W) (Proc.devRef .tc main_v273) = W (Proc.devRef .tc main_v273) :=
  keep6 W main_v273 (by decide) (by decide)
theorem keep6_arg26 (W : Valuation τ sig (Elt F)) :
    StableHlo.after (main_part6_ops0 (F := F)) (StableHlo.after (main_part5_ops1 (F := F)) W) (Proc.devRef .tc main_arg26) = W (Proc.devRef .tc main_arg26) :=
  keep6 W main_arg26 (by decide) (by decide)
theorem keep6_arg14 (W : Valuation τ sig (Elt F)) :
    StableHlo.after (main_part6_ops0 (F := F)) (StableHlo.after (main_part5_ops1 (F := F)) W) (Proc.devRef .tc main_arg14) = W (Proc.devRef .tc main_arg14) :=
  keep6 W main_arg14 (by decide) (by decide)
theorem keep6_arg18 (W : Valuation τ sig (Elt F)) :
    StableHlo.after (main_part6_ops0 (F := F)) (StableHlo.after (main_part5_ops1 (F := F)) W) (Proc.devRef .tc main_arg18) = W (Proc.devRef .tc main_arg18) :=
  keep6 W main_arg18 (by decide) (by decide)
theorem keep6_arg16 (W : Valuation τ sig (Elt F)) :
    StableHlo.after (main_part6_ops0 (F := F)) (StableHlo.after (main_part5_ops1 (F := F)) W) (Proc.devRef .tc main_arg16) = W (Proc.devRef .tc main_arg16) :=
  keep6 W main_arg16 (by decide) (by decide)
theorem keep6_arg20 (W : Valuation τ sig (Elt F)) :
    StableHlo.after (main_part6_ops0 (F := F)) (StableHlo.after (main_part5_ops1 (F := F)) W) (Proc.devRef .tc main_arg20) = W (Proc.devRef .tc main_arg20) :=
  keep6 W main_arg20 (by decide) (by decide)
theorem keep6_arg22 (W : Valuation τ sig (Elt F)) :
    StableHlo.after (main_part6_ops0 (F := F)) (StableHlo.after (main_part5_ops1 (F := F)) W) (Proc.devRef .tc main_arg22) = W (Proc.devRef .tc main_arg22) :=
  keep6 W main_arg22 (by decide) (by decide)
theorem keep6_arg15 (W : Valuation τ sig (Elt F)) :
    StableHlo.after (main_part6_ops0 (F := F)) (StableHlo.after (main_part5_ops1 (F := F)) W) (Proc.devRef .tc main_arg15) = W (Proc.devRef .tc main_arg15) :=
  keep6 W main_arg15 (by decide) (by decide)
theorem keep6_arg17 (W : Valuation τ sig (Elt F)) :
    StableHlo.after (main_part6_ops0 (F := F)) (StableHlo.after (main_part5_ops1 (F := F)) W) (Proc.devRef .tc main_arg17) = W (Proc.devRef .tc main_arg17) :=
  keep6 W main_arg17 (by decide) (by decide)
theorem keep6_arg19 (W : Valuation τ sig (Elt F)) :
    StableHlo.after (main_part6_ops0 (F := F)) (StableHlo.after (main_part5_ops1 (F := F)) W) (Proc.devRef .tc main_arg19) = W (Proc.devRef .tc main_arg19) :=
  keep6 W main_arg19 (by decide) (by decide)
theorem keep6_arg21 (W : Valuation τ sig (Elt F)) :
    StableHlo.after (main_part6_ops0 (F := F)) (StableHlo.after (main_part5_ops1 (F := F)) W) (Proc.devRef .tc main_arg21) = W (Proc.devRef .tc main_arg21) :=
  keep6 W main_arg21 (by decide) (by decide)
theorem keep6_arg23 (W : Valuation τ sig (Elt F)) :
    StableHlo.after (main_part6_ops0 (F := F)) (StableHlo.after (main_part5_ops1 (F := F)) W) (Proc.devRef .tc main_arg23) = W (Proc.devRef .tc main_arg23) :=
  keep6 W main_arg23 (by decide) (by decide)
theorem keep6_arg2 (W : Valuation τ sig (Elt F)) :
    StableHlo.after (main_part6_ops0 (F := F)) (StableHlo.after (main_part5_ops1 (F := F)) W) (Proc.devRef .tc main_arg2) = W (Proc.devRef .tc main_arg2) :=
  keep6 W main_arg2 (by decide) (by decide)

end Cert.KernelIdeal.Hand
-- ==== Proof.KIGlueD.lean ====
import proofs.«166951_j44444321579084_2_alg».proof.Proof.Gen.KernelIdeal.Launch
import proofs.«166951_j44444321579084_2_alg».proof.Proof.KIHost
import proofs.«166951_j44444321579084_2_alg».proof.Proof.KIGlueDefs

/-! # The host operations of the kernel program read back: the third layer's target kernel, the edge head, the result

For contents `W` at the boundary before a stretch of host operations, each lemma says what a buffer holds after
the stretch, as a stage of the network (`Cert.Stages`) or a preparation (`Cert.KPrep`) applied to `W`'s values;
first window by window, then for the whole stretch; a buffer the stretch does not write keeps its contents.
This module: the weights of the third layer's target kernel (relations 1 and 2); the head's operands — the rows
of the two final feature arrays at the two ends of every source→target edge, and the head's weights cut,
transposed and narrowed —; and the program's result, the head kernel's output transposed. -/

set_option maxRecDepth 8192

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

variable {F : FTy → Type} [FloatOps F]

/-! ## What `main_part6_ops1` leaves behind -/

/-- A reference outside the list of those `main_part6_ops1` writes keeps its contents. -/
theorem part6_ops1_keep (V : Valuation τ sig (Elt F)) (r : Ref sig .tc) (hr : r ∉ main_part6_ops1_W) :
    StableHlo.after (main_part6_ops1 (F := F)) V (Proc.devRef .tc r) = V (Proc.devRef .tc r) :=
  StableHlo.after_of_writes_sub _ V main_part6_ops1_writes hr

theorem part6_ops1_v366 (V : Valuation τ sig (Elt F)) :
    StableHlo.after (main_part6_ops1 (F := F)) V (Proc.devRef .tc main_v366)
      = wAt21 (V (Proc.devRef .tc main_arg11)) := by
  after_results_simp
  rfl

theorem part6_ops1_v368 (V : Valuation τ sig (Elt F)) :
    StableHlo.after (main_part6_ops1 (F := F)) V (Proc.devRef .tc main_v368)
      = bAt21 (V (Proc.devRef .tc main_arg12)) := by
  after_results_simp
  rfl

theorem part6_ops1_v370 (V : Valuation τ sig (Elt F)) :
    StableHlo.after (main_part6_ops1 (F := F)) V (Proc.devRef .tc main_v370)
      = wAt21 (V (Proc.devRef .tc main_arg13)) := by
  after_results_simp
  rfl

theorem part6_ops1_v371 (V : Valuation τ sig (Elt F)) :
    StableHlo.after (main_part6_ops1 (F := F)) V (Proc.devRef .tc main_v371)
      = wSlice 2 2 (V (Proc.devRef .tc main_arg11)) := by
  after_results_simp
  rfl

/-! ## What `main_part7_ops0` leaves behind -/

/-- A reference outside the list of those `main_part7_ops0` writes keeps its contents. -/
theorem part7_ops0_keep (V : Valuation τ sig (Elt F)) (r : Ref sig .tc) (hr : r ∉ main_part7_ops0_W) :
    StableHlo.after (main_part7_ops0 (F := F)) V (Proc.devRef .tc r) = V (Proc.devRef .tc r) :=
  StableHlo.after_of_writes_sub _ V main_part7_ops0_writes hr

theorem part7_ops0_v378 (V : Valuation τ sig (Elt F)) :
    StableHlo.after (main_part7_ops0 (F := F)) V (Proc.devRef .tc main_v378)
      = kT128 (V (Proc.devRef .tc main_v366)) := by
  after_results_simp
  rfl

theorem part7_ops0_v380 (V : Valuation τ sig (Elt F)) :
    StableHlo.after (main_part7_ops0 (F := F)) V (Proc.devRef .tc main_v380)
      = kT128 (V (Proc.devRef .tc main_v370)) := by
  after_results_simp
  rfl

theorem part7_ops0_v382 (V : Valuation τ sig (Elt F)) :
    StableHlo.after (main_part7_ops0 (F := F)) V (Proc.devRef .tc main_v382)
      = kT128 (wMat (V (Proc.devRef .tc main_v371))) := by
  after_results_simp
  rfl

theorem part7_ops0_v384 (V : Valuation τ sig (Elt F)) :
    StableHlo.after (main_part7_ops0 (F := F)) V (Proc.devRef .tc main_v384)
      = kT128 (wAt22 (V (Proc.devRef .tc main_arg13))) := by
  after_results_simp
  rfl

theorem part7_ops0_v385 (V : Valuation τ sig (Elt F)) :
    StableHlo.after (main_part7_ops0 (F := F)) V (Proc.devRef .tc main_v385)
      = kRow128 (V (Proc.devRef .tc main_v368)) := by
  after_results_simp
  rfl

theorem part7_ops0_v386 (V : Valuation τ sig (Elt F)) :
    StableHlo.after (main_part7_ops0 (F := F)) V (Proc.devRef .tc main_v386)
      = kRow128 (bAt22 (V (Proc.devRef .tc main_arg12))) := by
  after_results_simp
  rfl

/-! ## What `main_part7_ops1` leaves behind -/

/-- A reference outside the list of those `main_part7_ops1` writes keeps its contents. -/
theorem part7_ops1_keep (V : Valuation τ sig (Elt F)) (r : Ref sig .tc) (hr : r ∉ main_part7_ops1_W) :
    StableHlo.after (main_part7_ops1 (F := F)) V (Proc.devRef .tc r) = V (Proc.devRef .tc r) :=
  StableHlo.after_of_writes_sub _ V main_part7_ops1_writes hr

theorem part7_ops1_v398 (V : Valuation τ sig (Elt F)) :
    StableHlo.after (main_part7_ops1 (F := F)) V (Proc.devRef .tc main_v398)
      = srcRows (V (Proc.devRef .tc main_v364)) (eiRow0 (V (Proc.devRef .tc main_arg26))) := by
  after_results_simp
  rfl

theorem part7_ops1_v405 (V : Valuation τ sig (Elt F)) :
    StableHlo.after (main_part7_ops1 (F := F)) V (Proc.devRef .tc main_v405)
      = srcRows (V (Proc.devRef .tc main_v387)) (eiRow1 (V (Proc.devRef .tc main_arg26))) := by
  after_results_simp
  rfl

theorem part7_ops1_v411 (V : Valuation τ sig (Elt F)) :
    StableHlo.after (main_part7_ops1 (F := F)) V (Proc.devRef .tc main_v411)
      = kGateW1a (V (Proc.devRef .tc main_arg14)) := by
  after_results_simp
  rfl

theorem part7_ops1_v413 (V : Valuation τ sig (Elt F)) :
    StableHlo.after (main_part7_ops1 (F := F)) V (Proc.devRef .tc main_v413)
      = kGateW1b (V (Proc.devRef .tc main_arg14)) := by
  after_results_simp
  rfl

theorem part7_ops1_v415 (V : Valuation τ sig (Elt F)) :
    StableHlo.after (main_part7_ops1 (F := F)) V (Proc.devRef .tc main_v415)
      = kGateW2 (V (Proc.devRef .tc main_arg16)) := by
  after_results_simp
  rfl

theorem part7_ops1_v417 (V : Valuation τ sig (Elt F)) :
    StableHlo.after (main_part7_ops1 (F := F)) V (Proc.devRef .tc main_v417)
      = kMlpW1a (V (Proc.devRef .tc main_arg18)) := by
  after_results_simp
  rfl

theorem part7_ops1_v419 (V : Valuation τ sig (Elt F)) :
    StableHlo.after (main_part7_ops1 (F := F)) V (Proc.devRef .tc main_v419)
      = kMlpW1b (V (Proc.devRef .tc main_arg18)) := by
  after_results_simp
  rfl

theorem part7_ops1_v421 (V : Valuation τ sig (Elt F)) :
    StableHlo.after (main_part7_ops1 (F := F)) V (Proc.devRef .tc main_v421)
      = kMlpW2 (V (Proc.devRef .tc main_arg20)) := by
  after_results_simp
  rfl

theorem part7_ops1_v423 (V : Valuation τ sig (Elt F)) :
    StableHlo.after (main_part7_ops1 (F := F)) V (Proc.devRef .tc main_v423)
      = kMlpW3 (V (Proc.devRef .tc main_arg22)) := by
  after_results_simp
  rfl

theorem part7_ops1_v424 (V : Valuation τ sig (Elt F)) :
    StableHlo.after (main_part7_ops1 (F := F)) V (Proc.devRef .tc main_v424)
      = kRow128 (V (Proc.devRef .tc main_arg15)) := by
  after_results_simp
  rfl

theorem part7_ops1_v425 (V : Valuation τ sig (Elt F)) :
    StableHlo.after (main_part7_ops1 (F := F)) V (Proc.devRef .tc main_v425)
      = kRow1 (V (Proc.devRef .tc main_arg17)) := by
  after_results_simp
  rfl

theorem part7_ops1_v426 (V : Valuation τ sig (Elt F)) :
    StableHlo.after (main_part7_ops1 (F := F)) V (Proc.devRef .tc main_v426)
      = kRow128 (V (Proc.devRef .tc main_arg19)) := by
  after_results_simp
  rfl

theorem part7_ops1_v427 (V : Valuation τ sig (Elt F)) :
    StableHlo.after (main_part7_ops1 (F := F)) V (Proc.devRef .tc main_v427)
      = kRow64 (V (Proc.devRef .tc main_arg21)) := by
  after_results_simp
  rfl

/-! ## What `main_part8_ops0` leaves behind -/

/-- A reference outside the list of those `main_part8_ops0` writes keeps its contents. -/
theorem part8_ops0_keep (V : Valuation τ sig (Elt F)) (r : Ref sig .tc) (hr : r ∉ main_part8_ops0_W) :
    StableHlo.after (main_part8_ops0 (F := F)) V (Proc.devRef .tc r) = V (Proc.devRef .tc r) :=
  StableHlo.after_of_writes_sub _ V main_part8_ops0_writes hr

theorem part8_ops0_v428 (V : Valuation τ sig (Elt F)) :
    StableHlo.after (main_part8_ops0 (F := F)) V (Proc.devRef .tc main_v428)
      = kRow2 (V (Proc.devRef .tc main_arg23)) := by
  after_results_simp
  rfl

/-! ## What `main_part8_ops1` leaves behind -/

/-- A reference outside the list of those `main_part8_ops1` writes keeps its contents. -/
theorem part8_ops1_keep (V : Valuation τ sig (Elt F)) (r : Ref sig .tc) (hr : r ∉ main_part8_ops1_W) :
    StableHlo.after (main_part8_ops1 (F := F)) V (Proc.devRef .tc r) = V (Proc.devRef .tc r) :=
  StableHlo.after_of_writes_sub _ V main_part8_ops1_writes hr

theorem part8_ops1_v430 (V : Valuation τ sig (Elt F)) :
    StableHlo.after (main_part8_ops1 (F := F)) V (Proc.devRef .tc main_v430)
      = kOutT (V (Proc.devRef .tc main_v429)) := by
  after_results_simp
  rfl

/-! ## From the previous boundary to kernel call 7: `main_part6_ops1`, `main_part7_ops0` -/

theorem glue7_v378 (W : Valuation τ sig (Elt F)) :
    StableHlo.after (main_part7_ops0 (F := F)) (StableHlo.after (main_part6_ops1 (F := F)) W) (Proc.devRef .tc main_v378)
      = kT128 (wAt21 (W (Proc.devRef .tc main_arg11))) := by
  rw [part7_ops0_v378,
    part6_ops1_v366] <;> rfl

theorem glue7_v380 (W : Valuation τ sig (Elt F)) :
    StableHlo.after (main_part7_ops0 (F := F)) (StableHlo.after (main_part6_ops1 (F := F)) W) (Proc.devRef .tc main_v380)
      = kT128 (wAt21 (W (Proc.devRef .tc main_arg13))) := by
  rw [part7_ops0_v380,
    part6_ops1_v370] <;> rfl

theorem glue7_v382 (W : Valuation τ sig (Elt F)) :
    StableHlo.after (main_part7_ops0 (F := F)) (StableHlo.after (main_part6_ops1 (F := F)) W) (Proc.devRef .tc main_v382)
      = kT128 (wAt22 (W (Proc.devRef .tc main_arg11))) := by
  rw [part7_ops0_v382,
    part6_ops1_v371] <;> rfl

theorem glue7_v384 (W : Valuation τ sig (Elt F)) :
    StableHlo.after (main_part7_ops0 (F := F)) (StableHlo.after (main_part6_ops1 (F := F)) W) (Proc.devRef .tc main_v384)
      = kT128 (wAt22 (W (Proc.devRef .tc main_arg13))) := by
  rw [part7_ops0_v384,
    part6_ops1_keep _ main_arg13 (by decide)] <;> rfl

theorem glue7_v385 (W : Valuation τ sig (Elt F)) :
    StableHlo.after (main_part7_ops0 (F := F)) (StableHlo.after (main_part6_ops1 (F := F)) W) (Proc.devRef .tc main_v385)
      = kRow128 (bAt21 (W (Proc.devRef .tc main_arg12))) := by
  rw [part7_ops0_v385,
    part6_ops1_v368] <;> rfl

theorem glue7_v386 (W : Valuation τ sig (Elt F)) :
    StableHlo.after (main_part7_ops0 (F := F)) (StableHlo.after (main_part6_ops1 (F := F)) W) (Proc.devRef .tc main_v386)
      = kRow128 (bAt22 (W (Proc.devRef .tc main_arg12))) := by
  rw [part7_ops0_v386,
    part6_ops1_keep _ main_arg12 (by decide)] <;> rfl

/-- A reference none of these pieces writes comes through unchanged. -/
theorem keep7 (W : Valuation τ sig (Elt F)) (r : Ref sig .tc) (h0 : r ∉ main_part6_ops1_W) (h1 : r ∉ main_part7_ops0_W) :
    StableHlo.after (main_part7_ops0 (F := F)) (StableHlo.after (main_part6_ops1 (F := F)) W) (Proc.devRef .tc r) = W (Proc.devRef .tc r) := by
  rw [part7_ops0_keep _ r h1, part6_ops1_keep _ r h0]
theorem keep7_v307 (W : Valuation τ sig (Elt F)) :
    StableHlo.after (main_part7_ops0 (F := F)) (StableHlo.after (main_part6_ops1 (F := F)) W) (Proc.devRef .tc main_v307) = W (Proc.devRef .tc main_v307) :=
  keep7 W main_v307 (by decide) (by decide)
theorem keep7_v324 (W : Valuation τ sig (Elt F)) :
    StableHlo.after (main_part7_ops0 (F := F)) (StableHlo.after (main_part6_ops1 (F := F)) W) (Proc.devRef .tc main_v324) = W (Proc.devRef .tc main_v324) :=
  keep7 W main_v324 (by decide) (by decide)
theorem keep7_v273 (W : Valuation τ sig (Elt F)) :
    StableHlo.after (main_part7_ops0 (F := F)) (StableHlo.after (main_part6_ops1 (F := F)) W) (Proc.devRef .tc main_v273) = W (Proc.devRef .tc main_v273) :=
  keep7 W main_v273 (by decide) (by decide)
theorem keep7_arg26 (W : Valuation τ sig (Elt F)) :
    StableHlo.after (main_part7_ops0 (F := F)) (StableHlo.after (main_part6_ops1 (F := F)) W) (Proc.devRef .tc main_arg26) = W (Proc.devRef .tc main_arg26) :=
  keep7 W main_arg26 (by decide) (by decide)
theorem keep7_v364 (W : Valuation τ sig (Elt F)) :
    StableHlo.after (main_part7_ops0 (F := F)) (StableHlo.after (main_part6_ops1 (F := F)) W) (Proc.devRef .tc main_v364) = W (Proc.devRef .tc main_v364) :=
  keep7 W main_v364 (by decide) (by decide)
theorem keep7_arg14 (W : Valuation τ sig (Elt F)) :
    StableHlo.after (main_part7_ops0 (F := F)) (StableHlo.after (main_part6_ops1 (F := F)) W) (Proc.devRef .tc main_arg14) = W (Proc.devRef .tc main_arg14) :=
  keep7 W main_arg14 (by decide) (by decide)
theorem keep7_arg18 (W : Valuation τ sig (Elt F)) :
    StableHlo.after (main_part7_ops0 (F := F)) (StableHlo.after (main_part6_ops1 (F := F)) W) (Proc.devRef .tc main_arg18) = W (Proc.devRef .tc main_arg18) :=
  keep7 W main_arg18 (by decide) (by decide)
theorem keep7_arg16 (W : Valuation τ sig (Elt F)) :
    StableHlo.after (main_part7_ops0 (F := F)) (StableHlo.after (main_part6_ops1 (F := F)) W) (Proc.devRef .tc main_arg16) = W (Proc.devRef .tc main_arg16) :=
  keep7 W main_arg16 (by decide) (by decide)
theorem keep7_arg20 (W : Valuation τ sig (Elt F)) :
    StableHlo.after (main_part7_ops0 (F := F)) (StableHlo.after (main_part6_ops1 (F := F)) W) (Proc.devRef .tc main_arg20) = W (Proc.devRef .tc main_arg20) :=
  keep7 W main_arg20 (by decide) (by decide)
theorem keep7_arg22 (W : Valuation τ sig (Elt F)) :
    StableHlo.after (main_part7_ops0 (F := F)) (StableHlo.after (main_part6_ops1 (F := F)) W) (Proc.devRef .tc main_arg22) = W (Proc.devRef .tc main_arg22) :=
  keep7 W main_arg22 (by decide) (by decide)
theorem keep7_arg15 (W : Valuation τ sig (Elt F)) :
    StableHlo.after (main_part7_ops0 (F := F)) (StableHlo.after (main_part6_ops1 (F := F)) W) (Proc.devRef .tc main_arg15) = W (Proc.devRef .tc main_arg15) :=
  keep7 W main_arg15 (by decide) (by decide)
theorem keep7_arg17 (W : Valuation τ sig (Elt F)) :
    StableHlo.after (main_part7_ops0 (F := F)) (StableHlo.after (main_part6_ops1 (F := F)) W) (Proc.devRef .tc main_arg17) = W (Proc.devRef .tc main_arg17) :=
  keep7 W main_arg17 (by decide) (by decide)
theorem keep7_arg19 (W : Valuation τ sig (Elt F)) :
    StableHlo.after (main_part7_ops0 (F := F)) (StableHlo.after (main_part6_ops1 (F := F)) W) (Proc.devRef .tc main_arg19) = W (Proc.devRef .tc main_arg19) :=
  keep7 W main_arg19 (by decide) (by decide)
theorem keep7_arg21 (W : Valuation τ sig (Elt F)) :
    StableHlo.after (main_part7_ops0 (F := F)) (StableHlo.after (main_part6_ops1 (F := F)) W) (Proc.devRef .tc main_arg21) = W (Proc.devRef .tc main_arg21) :=
  keep7 W main_arg21 (by decide) (by decide)
theorem keep7_arg23 (W : Valuation τ sig (Elt F)) :
    StableHlo.after (main_part7_ops0 (F := F)) (StableHlo.after (main_part6_ops1 (F := F)) W) (Proc.devRef .tc main_arg23) = W (Proc.devRef .tc main_arg23) :=
  keep7 W main_arg23 (by decide) (by decide)
theorem keep7_arg2 (W : Valuation τ sig (Elt F)) :
    StableHlo.after (main_part7_ops0 (F := F)) (StableHlo.after (main_part6_ops1 (F := F)) W) (Proc.devRef .tc main_arg2) = W (Proc.devRef .tc main_arg2) :=
  keep7 W main_arg2 (by decide) (by decide)

/-! ## From the previous boundary to kernel call 8: `main_part7_ops1`, `main_part8_ops0` -/

theorem glue8_v398 (W : Valuation τ sig (Elt F)) :
    StableHlo.after (main_part8_ops0 (F := F)) (StableHlo.after (main_part7_ops1 (F := F)) W) (Proc.devRef .tc main_v398)
      = srcRows (W (Proc.devRef .tc main_v364)) (eiRow0 (W (Proc.devRef .tc main_arg26))) := by
  rw [part8_ops0_keep _ main_v398 (by decide),
    part7_ops1_v398] <;> rfl

theorem glue8_v405 (W : Valuation τ sig (Elt F)) :
    StableHlo.after (main_part8_ops0 (F := F)) (StableHlo.after (main_part7_ops1 (F := F)) W) (Proc.devRef .tc main_v405)
      = srcRows (W (Proc.devRef .tc main_v387)) (eiRow1 (W (Proc.devRef .tc main_arg26))) := by
  rw [part8_ops0_keep _ main_v405 (by decide),
    part7_ops1_v405] <;> rfl

theorem glue8_v411 (W : Valuation τ sig (Elt F)) :
    StableHlo.after (main_part8_ops0 (F := F)) (StableHlo.after (main_part7_ops1 (F := F)) W) (Proc.devRef .tc main_v411)
      = kGateW1a (W (Proc.devRef .tc main_arg14)) := by
  rw [part8_ops0_keep _ main_v411 (by decide),
    part7_ops1_v411] <;> rfl

theorem glue8_v413 (W : Valuation τ sig (Elt F)) :
    StableHlo.after (main_part8_ops0 (F := F)) (StableHlo.after (main_part7_ops1 (F := F)) W) (Proc.devRef .tc main_v413)
      = kGateW1b (W (Proc.devRef .tc main_arg14)) := by
  rw [part8_ops0_keep _ main_v413 (by decide),
    part7_ops1_v413] <;> rfl

theorem glue8_v415 (W : Valuation τ sig (Elt F)) :
    StableHlo.after (main_part8_ops0 (F := F)) (StableHlo.after (main_part7_ops1 (F := F)) W) (Proc.devRef .tc main_v415)
      = kGateW2 (W (Proc.devRef .tc main_arg16)) := by
  rw [part8_ops0_keep _ main_v415 (by decide),
    part7_ops1_v415] <;> rfl

theorem glue8_v417 (W : Valuation τ sig (Elt F)) :
    StableHlo.after (main_part8_ops0 (F := F)) (StableHlo.after (main_part7_ops1 (F := F)) W) (Proc.devRef .tc main_v417)
      = kMlpW1a (W (Proc.devRef .tc main_arg18)) := by
  rw [part8_ops0_keep _ main_v417 (by decide),
    part7_ops1_v417] <;> rfl

theorem glue8_v419 (W : Valuation τ sig (Elt F)) :
    StableHlo.after (main_part8_ops0 (F := F)) (StableHlo.after (main_part7_ops1 (F := F)) W) (Proc.devRef .tc main_v419)
      = kMlpW1b (W (Proc.devRef .tc main_arg18)) := by
  rw [part8_ops0_keep _ main_v419 (by decide),
    part7_ops1_v419] <;> rfl

theorem glue8_v421 (W : Valuation τ sig (Elt F)) :
    StableHlo.after (main_part8_ops0 (F := F)) (StableHlo.after (main_part7_ops1 (F := F)) W) (Proc.devRef .tc main_v421)
      = kMlpW2 (W (Proc.devRef .tc main_arg20)) := by
  rw [part8_ops0_keep _ main_v421 (by decide),
    part7_ops1_v421] <;> rfl

theorem glue8_v423 (W : Valuation τ sig (Elt F)) :
    StableHlo.after (main_part8_ops0 (F := F)) (StableHlo.after (main_part7_ops1 (F := F)) W) (Proc.devRef .tc main_v423)
      = kMlpW3 (W (Proc.devRef .tc main_arg22)) := by
  rw [part8_ops0_keep _ main_v423 (by decide),
    part7_ops1_v423] <;> rfl

theorem glue8_v424 (W : Valuation τ sig (Elt F)) :
    StableHlo.after (main_part8_ops0 (F := F)) (StableHlo.after (main_part7_ops1 (F := F)) W) (Proc.devRef .tc main_v424)
      = kRow128 (W (Proc.devRef .tc main_arg15)) := by
  rw [part8_ops0_keep _ main_v424 (by decide),
    part7_ops1_v424] <;> rfl

theorem glue8_v425 (W : Valuation τ sig (Elt F)) :
    StableHlo.after (main_part8_ops0 (F := F)) (StableHlo.after (main_part7_ops1 (F := F)) W) (Proc.devRef .tc main_v425)
      = kRow1 (W (Proc.devRef .tc main_arg17)) := by
  rw [part8_ops0_keep _ main_v425 (by decide),
    part7_ops1_v425] <;> rfl

theorem glue8_v426 (W : Valuation τ sig (Elt F)) :
    StableHlo.after (main_part8_ops0 (F := F)) (StableHlo.after (main_part7_ops1 (F := F)) W) (Proc.devRef .tc main_v426)
      = kRow128 (W (Proc.devRef .tc main_arg19)) := by
  rw [part8_ops0_keep _ main_v426 (by decide),
    part7_ops1_v426] <;> rfl

theorem glue8_v427 (W : Valuation τ sig (Elt F)) :
    StableHlo.after (main_part8_ops0 (F := F)) (StableHlo.after (main_part7_ops1 (F := F)) W) (Proc.devRef .tc main_v427)
      = kRow64 (W (Proc.devRef .tc main_arg21)) := by
  rw [part8_ops0_keep _ main_v427 (by decide),
    part7_ops1_v427] <;> rfl

theorem glue8_v428 (W : Valuation τ sig (Elt F)) :
    StableHlo.after (main_part8_ops0 (F := F)) (StableHlo.after (main_part7_ops1 (F := F)) W) (Proc.devRef .tc main_v428)
      = kRow2 (W (Proc.devRef .tc main_arg23)) := by
  rw [part8_ops0_v428,
    part7_ops1_keep _ main_arg23 (by decide)] <;> rfl

/-- A reference none of these pieces writes comes through unchanged. -/
theorem keep8 (W : Valuation τ sig (Elt F)) (r : Ref sig .tc) (h0 : r ∉ main_part7_ops1_W) (h1 : r ∉ main_part8_ops0_W) :
    StableHlo.after (main_part8_ops0 (F := F)) (StableHlo.after (main_part7_ops1 (F := F)) W) (Proc.devRef .tc r) = W (Proc.devRef .tc r) := by
  rw [part8_ops0_keep _ r h1, part7_ops1_keep _ r h0]
theorem keep8_arg2 (W : Valuation τ sig (Elt F)) :
    StableHlo.after (main_part8_ops0 (F := F)) (StableHlo.after (main_part7_ops1 (F := F)) W) (Proc.devRef .tc main_arg2) = W (Proc.devRef .tc main_arg2) :=
  keep8 W main_arg2 (by decide) (by decide)

/-! ## From the previous boundary to the end: `main_part8_ops1` -/

theorem glueOut_v430 (W : Valuation τ sig (Elt F)) :
    StableHlo.after (main_part8_ops1 (F := F)) W (Proc.devRef .tc main_v430)
      = kOutT (W (Proc.devRef .tc main_v429)) := by
  rw [part8_ops1_v430] <;> rfl

end Cert.KernelIdeal.Hand
-- ==== Proof.LibIntDegree.lean ====
import Idealize.ShloMosaic.PureOps.Ideal

/-! # The in-degree counted in integers equals the in-degree counted in floats

A scatter whose combining function is 32-bit integer addition, started from an array of zeros and fed
an update array of ones, leaves at each element of the operand the NUMBER of update positions whose
result index is that element (a position whose index falls outside the operand selects no element).
That number is at most the number of update positions; when this is below `2^31` the 32-bit word does
not wrap and its signed reading is the number itself, so converting it to a float gives, at the ideal
values, the real number `card {j | resultIdx? j = some r}`.

The accumulating float scatter of an update array of ones into an array of zeros is, at the ideal
values, `0 + ∑_{j selects r} 1`, the same real number. Hence the two degree arrays are equal, and so
are their maxima with any third array.

Nothing is assumed of the scatter's dimension numbers: selection is stated through
`ScatterDims.resultIdx?`, whatever window and index layout it reads.

* `scatter_addi_ones_apply` — the integer scatter read at an element is the count, as a word.
* `sitofp_scatter_addi_ones_apply`, `scatterAdd_ones_apply` — both float readings are the count.
* `sitofp_scatter_addi_eq_scatterAdd`, `sitofp_scatter_eq_scatterAdd` — the arrays are equal
  (zeros and ones as constant functions; as broadcasts of rank-0 constants).
* `degree_int_eq_float` — the clamped degrees are equal. -/

noncomputable section

namespace Idealize.ShloMosaic.IntDegree

open Idealize.ShloMosaic

variable {s si u : Shape} {w : Nat}

/-- The integer scatter's fold, started from any accumulator and run along any list of update
    positions, read at one element: the accumulator's value there plus the number of listed updates
    that land on it. -/
theorem foldl_addi_one_apply (d : ScatterDims s si u) (idx : IVec si w) (l : List (Fin u.numel))
    (x : s.Idx → BitVec 32) (r : s.Idx) :
    (l.foldl (fun acc n =>
        match d.resultIdx? (u.rowMajor.symm n) idx with
        | some i => fun i' => if i' = i then IntOp.addi (acc i) 1#32 else acc i'
        | none => acc) x) r
      = x r + BitVec.ofNat 32 ((l.filter fun n => d.resultIdx? (u.rowMajor.symm n) idx = some r).length) := by
  induction l generalizing x with
  | nil => simp
  | cons n l ih =>
    rw [List.foldl_cons, ih, List.filter_cons]
    cases h : d.resultIdx? (u.rowMajor.symm n) idx with
    | none => simp
    | some i =>
      by_cases hr : r = i
      · subst hr
        simp only [if_true, decide_true, List.length_cons, IntOp.addi]
        rw [BitVec.ofNat_add, BitVec.add_assoc, BitVec.add_comm (1#32)]
      · have hne : ¬ (some i = some r) := fun h' => hr (Option.some.inj h').symm
        simp [hr, hne]

theorem filter_finRange_length (n : Nat) (p : Fin n → Prop) [DecidablePred p] :
    ((List.finRange n).filter fun k => p k).length = (Finset.univ.filter p).card := by
  rw [Fin.univ_def]
  rfl

/-- STEP 1. The integer scatter of ones into zeros, read at an element, is the number of update
    positions whose result index is that element, as a 32-bit word. -/
theorem scatter_addi_ones_apply (d : ScatterDims s si u) (idx : IVec si w) (r : s.Idx) :
    Host.scatter d IntOp.addi (fun _ => 0#32) idx (fun _ => 1#32) r
      = BitVec.ofNat 32 (Finset.univ.filter fun j : u.Idx => d.resultIdx? j idx = some r).card := by
  unfold Host.scatter
  refine (foldl_addi_one_apply d idx (List.finRange u.numel) (fun _ => 0#32) r).trans ?_
  rw [BitVec.zero_add,
    filter_finRange_length u.numel fun n => d.resultIdx? (u.rowMajor.symm n) idx = some r]
  congr 1
  exact Finset.card_equiv u.rowMajor.symm (by simp)

/-- No element is selected by more update positions than there are. -/
theorem card_selected_le (d : ScatterDims s si u) (idx : IVec si w) (r : s.Idx) :
    (Finset.univ.filter fun j : u.Idx => d.resultIdx? j idx = some r).card ≤ u.numel := by
  calc (Finset.univ.filter fun j : u.Idx => d.resultIdx? j idx = some r).card
      ≤ (Finset.univ : Finset u.Idx).card := Finset.card_filter_le _ _
    _ = u.numel := by rw [Finset.card_univ, Shape.card_idx]

/-- A natural number below `2^31`, written as a 32-bit word and read back signed, is itself. -/
theorem toInt_ofNat_of_lt (c : Nat) (hc : c < 2 ^ 31) : (BitVec.ofNat 32 c).toInt = (c : Int) := by
  have hmod : c % 2 ^ 32 = c := Nat.mod_eq_of_lt (by omega)
  rw [BitVec.toInt_eq_toNat_of_lt (by rw [BitVec.toNat_ofNat, hmod]; omega), BitVec.toNat_ofNat, hmod]

/-- STEP 2a. The converted integer degree at an element is the real number of selected positions. -/
theorem sitofp_scatter_addi_ones_apply (d : ScatterDims s si u) (hE : u.numel < 2 ^ 31) (idx : IVec si w) (r : s.Idx) :
    (sitofp .f32 (Host.scatter d IntOp.addi (fun _ => 0#32) idx (fun _ => 1#32)) : FVec Ideal s .f32) r
      = (((Finset.univ.filter fun j : u.Idx => d.resultIdx? j idx = some r).card : ℝ) : EReal) := by
  show ((((Host.scatter d IntOp.addi (fun _ => 0#32) idx (fun _ => 1#32) r).toInt : ℤ) : ℝ) : EReal) = _
  rw [scatter_addi_ones_apply, toInt_ofNat_of_lt _ (lt_of_le_of_lt (card_selected_le d idx r) hE)]
  norm_cast

/-- STEP 2b. The float scatter-add of ones into zeros at an element is the same real number. -/
theorem scatterAdd_ones_apply (d : ScatterDims s si u) (idx : IVec si w) (r : s.Idx) :
    (Host.scatterAdd d (fun _ => (0 : EReal)) idx (fun _ => (1 : EReal)) : FVec Ideal s .f32) r
      = (((Finset.univ.filter fun j : u.Idx => d.resultIdx? j idx = some r).card : ℝ) : EReal) := by
  show (0 : EReal) + ∑ j ∈ Finset.univ.filter (fun j : u.Idx => d.resultIdx? j idx = some r), (1 : EReal) = _
  rw [zero_add, Finset.sum_const, nsmul_one, EReal.coe_natCast]

/-- The converted integer degree and the float degree are the same array (zeros and ones written
    as constant functions). -/
theorem sitofp_scatter_addi_eq_scatterAdd (d : ScatterDims s si u) (hE : u.numel < 2 ^ 31) (idx : IVec si w) :
    (sitofp .f32 (Host.scatter d IntOp.addi (fun _ => 0#32) idx (fun _ => 1#32)) : FVec Ideal s .f32)
      = Host.scatterAdd d (fun _ => (0 : EReal)) idx (fun _ => (1 : EReal)) := by
  funext r
  rw [sitofp_scatter_addi_ones_apply d hE idx r, scatterAdd_ones_apply d idx r]

/-- The patterns of the float zero and of the float one denote `0` and `1`. -/
theorem ofBits_zero : Ideal.ofBits .f32 0x00000000#32 = (0 : EReal) := by simp [Ideal.ofBits, Ideal.ieee]
theorem ofBits_one : Ideal.ofBits .f32 0x3F800000#32 = (1 : EReal) := by
  simp [Ideal.ofBits, Ideal.ieee, -EReal.coe_mul]; norm_num

/-- The same, the integer zeros and ones and the float zeros and ones each written as the broadcast
    of a rank-0 constant (the float ones by their bit patterns). -/
theorem sitofp_scatter_eq_scatterAdd (d : ScatterDims s si u) (hE : u.numel < 2 ^ 31)
    (bs : (⟨0, ![]⟩ : Shape).BroadcastsInDim s ![]) (bu : (⟨0, ![]⟩ : Shape).BroadcastsInDim u ![])
    (idx : IVec si w) :
    (sitofp .f32 (Host.scatter d IntOp.addi
        (broadcastInDim s ![] bs (constantI ⟨0, ![]⟩ 32 0#32)) idx
        (broadcastInDim u ![] bu (constantI ⟨0, ![]⟩ 32 1#32))) : FVec Ideal s .f32)
      = Host.scatterAdd d
        (broadcastInDim s ![] bs (constant ⟨0, ![]⟩ .f32 0x00000000#32)) idx
        (broadcastInDim u ![] bu (constant ⟨0, ![]⟩ .f32 0x3F800000#32)) := by
  have h0 : (broadcastInDim s ![] bs (constant ⟨0, ![]⟩ .f32 0x00000000#32) : FVec Ideal s .f32) = fun _ => (0 : EReal) := by
    funext i; exact ofBits_zero
  have h1 : (broadcastInDim u ![] bu (constant ⟨0, ![]⟩ .f32 0x3F800000#32) : FVec Ideal u .f32) = fun _ => (1 : EReal) := by
    funext i; exact ofBits_one
  rw [h0, h1]
  exact sitofp_scatter_addi_eq_scatterAdd d hE idx

/-- THE DEGREE, CLAMPED. The in-degree counted in 32-bit integers, converted to a float and clamped
    below by any array `one`, is the in-degree counted by the accumulating float scatter of ones,
    clamped the same way: both are, at each element, the number of update positions that select it. -/
theorem degree_int_eq_float (d : ScatterDims s si u) (hE : u.numel < 2 ^ 31)
    (bs : (⟨0, ![]⟩ : Shape).BroadcastsInDim s ![]) (bu : (⟨0, ![]⟩ : Shape).BroadcastsInDim u ![])
    (idx : IVec si w) (one : FVec Ideal s .f32) :
    maximumf (sitofp .f32 (Host.scatter d IntOp.addi
        (broadcastInDim s ![] bs (constantI ⟨0, ![]⟩ 32 0#32)) idx
        (broadcastInDim u ![] bu (constantI ⟨0, ![]⟩ 32 1#32)))) one
      = maximumf (Host.scatterAdd d
        (broadcastInDim s ![] bs (constant ⟨0, ![]⟩ .f32 0x00000000#32)) idx
        (broadcastInDim u ![] bu (constant ⟨0, ![]⟩ .f32 0x3F800000#32))) one := by
  rw [sitofp_scatter_eq_scatterAdd d hE bs bu idx]

end Idealize.ShloMosaic.IntDegree
-- ==== Proof.DegreeBridge.lean ====
import proofs.«166951_j44444321579084_2_alg».proof.KernelIdeal
import proofs.«166951_j44444321579084_2_alg».proof.Proof.Gen.KernelIdeal
import proofs.«166951_j44444321579084_2_alg».proof.Proof.Stages
import proofs.«166951_j44444321579084_2_alg».proof.Proof.LibIntDegree

/-! # The kernel program's in-degree is the reference's

The kernel program counts each destination node's in-degree over the 32-bit integers (a scatter of ones
into zeros with integer addition), converts the count to a float and clamps it below by one; the
reference scatter-adds float ones into float zeros and clamps the same way. The edge list has 500000
columns, fewer than 2^31, so the integer count does not wrap, and at the ideal values both are, at each
node, the number of edges that end there (an edge whose destination lies outside the node range is
counted at no node by either). Both programs read the same destination row of the edge list, unwrapped.

* kernel_degree_eq_degF — the kernel's term, every operation with the kernel program's own
  records (the slice of row 1, its reshape, its broadcast to a column, the scatter, the conversion, the
  clamp), is the reference's clamped float degree.
* kernel_degree_eq_degF' — the same with the index column written as the reference writes it. -/

noncomputable section

namespace Cert.DegreeBridge

open Idealize.ShloMosaic Cert.KernelIdeal Cert.KernelIdeal.Gen
open Cert.Stages (Arr)

/-- The edge list has fewer than 2^31 columns. -/
theorem numel_edges_lt : S500000.numel < 2 ^ 31 := by
  rw [Shape.numel_rank1]; norm_num

/-- The kernel's clamped integer degree, its index column the reference's destination column. -/
theorem kernel_degree_eq_degF' (ei : Arr Ideal S2x500000 .i32) :
    maximumf
      (sitofp .f32 (Host.scatter scatter_S50000_S500000x1_S500000_n_0_0_1 IntOp.addi
        (broadcastInDim S50000 ![] bcast_S_S50000 (constantI S_ 32 0#32))
        (Cert.Stages.idxCol (Cert.Stages.eiRow1 ei))
        (broadcastInDim S500000 ![] bcast_S_S500000 (constantI S_ 32 1#32))))
      (broadcastInDim S50000 ![] bcast_S_S50000 (constant (F := Ideal) S_ .f32 0x3F800000#32))
    = Cert.Stages.degF ei := by
  rw [Idealize.ShloMosaic.IntDegree.degree_int_eq_float _ numel_edges_lt]
  rfl

/-- The kernel's clamped integer degree, every operation written with the kernel program's own records. -/
theorem kernel_degree_eq_degF (ei : Arr Ideal S2x500000 .i32) :
    maximumf
      (sitofp .f32 (Host.scatter scatter_S50000_S500000x1_S500000_n_0_0_1 IntOp.addi
        (broadcastInDim S50000 ![] bcast_S_S50000 (constantI S_ 32 0#32))
        (broadcastInDim S500000x1 ![0] bcast_S500000_S500000x1_0
          (shapeCast S500000 (extractStridedSlice S1x500000 ![1, 0] ei slices_S2x500000_S1x500000_1_0) shapeCasts_S1x500000_S500000))
        (broadcastInDim S500000 ![] bcast_S_S500000 (constantI S_ 32 1#32))))
      (broadcastInDim S50000 ![] bcast_S_S50000 (constant (F := Ideal) S_ .f32 0x3F800000#32))
    = Cert.Stages.degF ei := by
  rw [Idealize.ShloMosaic.IntDegree.degree_int_eq_float _ numel_edges_lt]
  rfl

end Cert.DegreeBridge
-- ==== Proof.KIBridgeOps.lean ====
import proofs.«166951_j44444321579084_2_alg».proof.Proof.KIFold
import proofs.«166951_j44444321579084_2_alg».proof.Proof.KIGlueA
import proofs.«166951_j44444321579084_2_alg».proof.Proof.KIGlueB
import proofs.«166951_j44444321579084_2_alg».proof.Proof.KIGlueC
import proofs.«166951_j44444321579084_2_alg».proof.Proof.KIGlueD
import proofs.«166951_j44444321579084_2_alg».proof.Proof.DegreeBridge

/-! # What every kernel call of the program is handed, in terms of the program's arguments

The program's buffer contents are followed item by item from the launch memory `m`. Here each operand of each
kernel call is read at the call's entry: an argument of the program is still what the launch memory holds (no
item writes it); an operand a host stretch prepared is the stage of the network, or the preparation, that the
stretch computes, applied to arguments and to the outputs of earlier calls; an earlier call's output is carried
unchanged through every item between its call and its use. The outputs of the earlier calls enter as
hypotheses (`x4` for what call 0 left in its output array, and so on), so that these lemmas do not depend on what
the calls compute. The in-degrees, which the program counts over the integers, are the float counts of the
network's definition. Over the extended reals. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

/-- The in-degree counted over the integers and converted is the in-degree counted in floats. -/
theorem kDeg_eq (ei : Arr Ideal S2x500000 .i32) : kDeg (F := Ideal) ei = Cert.Stages.degF ei :=
  Cert.DegreeBridge.kernel_degree_eq_degF' ei

theorem at1_arg0 (m : (ℓ : Loc nD τ sig) → Buf (Elt Ideal) ℓ) (ρ : Dev nD → PrngReg) (c : Dev nD) :
    W1 m ρ c (Proc.devRef .tc main_arg0) = m ((c : Thread nD τ).loc main_arg0) := by
  rw [W1_of m ρ c main_arg0 (by decide)] <;> rfl

theorem at0_arg3 (m : (ℓ : Loc nD τ sig) → Buf (Elt Ideal) ℓ) (ρ : Dev nD → PrngReg) (c : Dev nD) :
    W0 m ρ c (Proc.devRef .tc main_arg3) = m ((c : Thread nD τ).loc main_arg3) := by
  rfl

theorem at1_v0 (m : (ℓ : Loc nD τ sig) → Buf (Elt Ideal) ℓ) (ρ : Dev nD → PrngReg) (c : Dev nD) :
    W1 m ρ c (Proc.devRef .tc main_v0) = kTr64 (m ((c : Thread nD τ).loc main_arg3)) := by
  rw [show W1 m ρ c (Proc.devRef .tc main_v0) = kTr64 (W0 m ρ c (Proc.devRef .tc main_arg3)) from glue0_v0 (W0 m ρ c),
    at0_arg3 m ρ c]

theorem at0_arg4 (m : (ℓ : Loc nD τ sig) → Buf (Elt Ideal) ℓ) (ρ : Dev nD → PrngReg) (c : Dev nD) :
    W0 m ρ c (Proc.devRef .tc main_arg4) = m ((c : Thread nD τ).loc main_arg4) := by
  rfl

theorem at1_v2 (m : (ℓ : Loc nD τ sig) → Buf (Elt Ideal) ℓ) (ρ : Dev nD → PrngReg) (c : Dev nD) :
    W1 m ρ c (Proc.devRef .tc main_v2) = kRow128 (m ((c : Thread nD τ).loc main_arg4)) := by
  rw [show W1 m ρ c (Proc.devRef .tc main_v2) = kRow128 (W0 m ρ c (Proc.devRef .tc main_arg4)) from glue0_v2 (W0 m ρ c),
    at0_arg4 m ρ c]

theorem at0_arg5 (m : (ℓ : Loc nD τ sig) → Buf (Elt Ideal) ℓ) (ρ : Dev nD → PrngReg) (c : Dev nD) :
    W0 m ρ c (Proc.devRef .tc main_arg5) = m ((c : Thread nD τ).loc main_arg5) := by
  rfl

theorem at1_v1 (m : (ℓ : Loc nD τ sig) → Buf (Elt Ideal) ℓ) (ρ : Dev nD → PrngReg) (c : Dev nD) :
    W1 m ρ c (Proc.devRef .tc main_v1) = kTr128 (m ((c : Thread nD τ).loc main_arg5)) := by
  rw [show W1 m ρ c (Proc.devRef .tc main_v1) = kTr128 (W0 m ρ c (Proc.devRef .tc main_arg5)) from glue0_v1 (W0 m ρ c),
    at0_arg5 m ρ c]

theorem at0_arg6 (m : (ℓ : Loc nD τ sig) → Buf (Elt Ideal) ℓ) (ρ : Dev nD → PrngReg) (c : Dev nD) :
    W0 m ρ c (Proc.devRef .tc main_arg6) = m ((c : Thread nD τ).loc main_arg6) := by
  rfl

theorem at1_v3 (m : (ℓ : Loc nD τ sig) → Buf (Elt Ideal) ℓ) (ρ : Dev nD → PrngReg) (c : Dev nD) :
    W1 m ρ c (Proc.devRef .tc main_v3) = kRow128 (m ((c : Thread nD τ).loc main_arg6)) := by
  rw [show W1 m ρ c (Proc.devRef .tc main_v3) = kRow128 (W0 m ρ c (Proc.devRef .tc main_arg6)) from glue0_v3 (W0 m ρ c),
    at0_arg6 m ρ c]

theorem at3_arg1 (m : (ℓ : Loc nD τ sig) → Buf (Elt Ideal) ℓ) (ρ : Dev nD → PrngReg) (c : Dev nD) :
    W3 m ρ c (Proc.devRef .tc main_arg1) = m ((c : Thread nD τ).loc main_arg1) := by
  rw [W3_of m ρ c main_arg1 (by decide),
    W2_of m ρ c main_arg1 (by decide),
    W1_of m ρ c main_arg1 (by decide)] <;> rfl

theorem at2_arg7 (m : (ℓ : Loc nD τ sig) → Buf (Elt Ideal) ℓ) (ρ : Dev nD → PrngReg) (c : Dev nD) :
    W2 m ρ c (Proc.devRef .tc main_arg7) = m ((c : Thread nD τ).loc main_arg7) := by
  rw [W2_of m ρ c main_arg7 (by decide),
    W1_of m ρ c main_arg7 (by decide)] <;> rfl

theorem at3_v5 (m : (ℓ : Loc nD τ sig) → Buf (Elt Ideal) ℓ) (ρ : Dev nD → PrngReg) (c : Dev nD) :
    W3 m ρ c (Proc.devRef .tc main_v5) = kTr48 (m ((c : Thread nD τ).loc main_arg7)) := by
  rw [show W3 m ρ c (Proc.devRef .tc main_v5) = kTr48 (W2 m ρ c (Proc.devRef .tc main_arg7)) from glue1_v5 (W2 m ρ c),
    at2_arg7 m ρ c]

theorem at2_arg8 (m : (ℓ : Loc nD τ sig) → Buf (Elt Ideal) ℓ) (ρ : Dev nD → PrngReg) (c : Dev nD) :
    W2 m ρ c (Proc.devRef .tc main_arg8) = m ((c : Thread nD τ).loc main_arg8) := by
  rw [W2_of m ρ c main_arg8 (by decide),
    W1_of m ρ c main_arg8 (by decide)] <;> rfl

theorem at3_v7 (m : (ℓ : Loc nD τ sig) → Buf (Elt Ideal) ℓ) (ρ : Dev nD → PrngReg) (c : Dev nD) :
    W3 m ρ c (Proc.devRef .tc main_v7) = kRow128 (m ((c : Thread nD τ).loc main_arg8)) := by
  rw [show W3 m ρ c (Proc.devRef .tc main_v7) = kRow128 (W2 m ρ c (Proc.devRef .tc main_arg8)) from glue1_v7 (W2 m ρ c),
    at2_arg8 m ρ c]

theorem at2_arg9 (m : (ℓ : Loc nD τ sig) → Buf (Elt Ideal) ℓ) (ρ : Dev nD → PrngReg) (c : Dev nD) :
    W2 m ρ c (Proc.devRef .tc main_arg9) = m ((c : Thread nD τ).loc main_arg9) := by
  rw [W2_of m ρ c main_arg9 (by decide),
    W1_of m ρ c main_arg9 (by decide)] <;> rfl

theorem at3_v6 (m : (ℓ : Loc nD τ sig) → Buf (Elt Ideal) ℓ) (ρ : Dev nD → PrngReg) (c : Dev nD) :
    W3 m ρ c (Proc.devRef .tc main_v6) = kTr128 (m ((c : Thread nD τ).loc main_arg9)) := by
  rw [show W3 m ρ c (Proc.devRef .tc main_v6) = kTr128 (W2 m ρ c (Proc.devRef .tc main_arg9)) from glue1_v6 (W2 m ρ c),
    at2_arg9 m ρ c]

theorem at2_arg10 (m : (ℓ : Loc nD τ sig) → Buf (Elt Ideal) ℓ) (ρ : Dev nD → PrngReg) (c : Dev nD) :
    W2 m ρ c (Proc.devRef .tc main_arg10) = m ((c : Thread nD τ).loc main_arg10) := by
  rw [W2_of m ρ c main_arg10 (by decide),
    W1_of m ρ c main_arg10 (by decide)] <;> rfl

theorem at3_v8 (m : (ℓ : Loc nD τ sig) → Buf (Elt Ideal) ℓ) (ρ : Dev nD → PrngReg) (c : Dev nD) :
    W3 m ρ c (Proc.devRef .tc main_v8) = kRow128 (m ((c : Thread nD τ).loc main_arg10)) := by
  rw [show W3 m ρ c (Proc.devRef .tc main_v8) = kRow128 (W2 m ρ c (Proc.devRef .tc main_arg10)) from glue1_v8 (W2 m ρ c),
    at2_arg10 m ρ c]

theorem at4_v4 (m : (ℓ : Loc nD τ sig) → Buf (Elt Ideal) ℓ) (ρ : Dev nD → PrngReg) (c : Dev nD)
    (x4 : Arr Ideal S50000x128 .f32) (h4 : W2 m ρ c (Proc.devRef .tc main_v4) = x4) :
    W4 m ρ c (Proc.devRef .tc main_v4) = x4 := by
  rw [W4_of m ρ c main_v4 (by decide),
    W3_of m ρ c main_v4 (by decide)]
  exact h4

theorem at4_arg24 (m : (ℓ : Loc nD τ sig) → Buf (Elt Ideal) ℓ) (ρ : Dev nD → PrngReg) (c : Dev nD) :
    W4 m ρ c (Proc.devRef .tc main_arg24) = m ((c : Thread nD τ).loc main_arg24) := by
  rw [W4_of m ρ c main_arg24 (by decide),
    W3_of m ρ c main_arg24 (by decide),
    W2_of m ρ c main_arg24 (by decide),
    W1_of m ρ c main_arg24 (by decide)] <;> rfl

theorem at7_v62 (m : (ℓ : Loc nD τ sig) → Buf (Elt Ideal) ℓ) (ρ : Dev nD → PrngReg) (c : Dev nD)
    (x4 : Arr Ideal S50000x128 .f32) (h4 : W2 m ρ c (Proc.devRef .tc main_v4) = x4) :
    W7 m ρ c (Proc.devRef .tc main_v62) = aggMean x4 (m ((c : Thread nD τ).loc main_arg24)) (Cert.Stages.degF (m ((c : Thread nD τ).loc main_arg24))) := by
  rw [show W7 m ρ c (Proc.devRef .tc main_v62) = aggMean (W4 m ρ c (Proc.devRef .tc main_v4)) (W4 m ρ c (Proc.devRef .tc main_arg24)) (kDeg (W4 m ρ c (Proc.devRef .tc main_arg24))) from glue2_v62 (W4 m ρ c),
    at4_v4 m ρ c x4 h4,
    at4_arg24 m ρ c,
    kDeg_eq]

theorem at4_v9 (m : (ℓ : Loc nD τ sig) → Buf (Elt Ideal) ℓ) (ρ : Dev nD → PrngReg) (c : Dev nD)
    (x9 : Arr Ideal S50000x128 .f32) (h9 : W4 m ρ c (Proc.devRef .tc main_v9) = x9) :
    W4 m ρ c (Proc.devRef .tc main_v9) = x9 := by
  exact h9

theorem at4_arg27 (m : (ℓ : Loc nD τ sig) → Buf (Elt Ideal) ℓ) (ρ : Dev nD → PrngReg) (c : Dev nD) :
    W4 m ρ c (Proc.devRef .tc main_arg27) = m ((c : Thread nD τ).loc main_arg27) := by
  rw [W4_of m ρ c main_arg27 (by decide),
    W3_of m ρ c main_arg27 (by decide),
    W2_of m ρ c main_arg27 (by decide),
    W1_of m ρ c main_arg27 (by decide)] <;> rfl

theorem at7_v113 (m : (ℓ : Loc nD τ sig) → Buf (Elt Ideal) ℓ) (ρ : Dev nD → PrngReg) (c : Dev nD)
    (x9 : Arr Ideal S50000x128 .f32) (h9 : W4 m ρ c (Proc.devRef .tc main_v9) = x9) :
    W7 m ρ c (Proc.devRef .tc main_v113) = aggMean x9 (m ((c : Thread nD τ).loc main_arg27)) (Cert.Stages.degF (m ((c : Thread nD τ).loc main_arg27))) := by
  rw [show W7 m ρ c (Proc.devRef .tc main_v113) = aggMean (W4 m ρ c (Proc.devRef .tc main_v9)) (W4 m ρ c (Proc.devRef .tc main_arg27)) (kDeg (W4 m ρ c (Proc.devRef .tc main_arg27))) from glue2_v113 (W4 m ρ c),
    at4_v9 m ρ c x9 h9,
    at4_arg27 m ρ c,
    kDeg_eq]

theorem at7_v4 (m : (ℓ : Loc nD τ sig) → Buf (Elt Ideal) ℓ) (ρ : Dev nD → PrngReg) (c : Dev nD)
    (x4 : Arr Ideal S50000x128 .f32) (h4 : W2 m ρ c (Proc.devRef .tc main_v4) = x4) :
    W7 m ρ c (Proc.devRef .tc main_v4) = x4 := by
  rw [W7_of m ρ c main_v4 (by decide),
    W6_of m ρ c main_v4 (by decide),
    W5_of m ρ c main_v4 (by decide),
    W4_of m ρ c main_v4 (by decide),
    W3_of m ρ c main_v4 (by decide)]
  exact h4

theorem at4_arg11 (m : (ℓ : Loc nD τ sig) → Buf (Elt Ideal) ℓ) (ρ : Dev nD → PrngReg) (c : Dev nD) :
    W4 m ρ c (Proc.devRef .tc main_arg11) = m ((c : Thread nD τ).loc main_arg11) := by
  rw [W4_of m ρ c main_arg11 (by decide),
    W3_of m ρ c main_arg11 (by decide),
    W2_of m ρ c main_arg11 (by decide),
    W1_of m ρ c main_arg11 (by decide)] <;> rfl

theorem at7_v127 (m : (ℓ : Loc nD τ sig) → Buf (Elt Ideal) ℓ) (ρ : Dev nD → PrngReg) (c : Dev nD) :
    W7 m ρ c (Proc.devRef .tc main_v127) = kT128 (wAt00 (m ((c : Thread nD τ).loc main_arg11))) := by
  rw [show W7 m ρ c (Proc.devRef .tc main_v127) = kT128 (wAt00 (W4 m ρ c (Proc.devRef .tc main_arg11))) from glue2_v127 (W4 m ρ c),
    at4_arg11 m ρ c]

theorem at4_arg12 (m : (ℓ : Loc nD τ sig) → Buf (Elt Ideal) ℓ) (ρ : Dev nD → PrngReg) (c : Dev nD) :
    W4 m ρ c (Proc.devRef .tc main_arg12) = m ((c : Thread nD τ).loc main_arg12) := by
  rw [W4_of m ρ c main_arg12 (by decide),
    W3_of m ρ c main_arg12 (by decide),
    W2_of m ρ c main_arg12 (by decide),
    W1_of m ρ c main_arg12 (by decide)] <;> rfl

theorem at7_v134 (m : (ℓ : Loc nD τ sig) → Buf (Elt Ideal) ℓ) (ρ : Dev nD → PrngReg) (c : Dev nD) :
    W7 m ρ c (Proc.devRef .tc main_v134) = kRow128 (bAt00 (m ((c : Thread nD τ).loc main_arg12))) := by
  rw [show W7 m ρ c (Proc.devRef .tc main_v134) = kRow128 (bAt00 (W4 m ρ c (Proc.devRef .tc main_arg12))) from glue2_v134 (W4 m ρ c),
    at4_arg12 m ρ c]

theorem at4_arg13 (m : (ℓ : Loc nD τ sig) → Buf (Elt Ideal) ℓ) (ρ : Dev nD → PrngReg) (c : Dev nD) :
    W4 m ρ c (Proc.devRef .tc main_arg13) = m ((c : Thread nD τ).loc main_arg13) := by
  rw [W4_of m ρ c main_arg13 (by decide),
    W3_of m ρ c main_arg13 (by decide),
    W2_of m ρ c main_arg13 (by decide),
    W1_of m ρ c main_arg13 (by decide)] <;> rfl

theorem at7_v129 (m : (ℓ : Loc nD τ sig) → Buf (Elt Ideal) ℓ) (ρ : Dev nD → PrngReg) (c : Dev nD) :
    W7 m ρ c (Proc.devRef .tc main_v129) = kT128 (wAt00 (m ((c : Thread nD τ).loc main_arg13))) := by
  rw [show W7 m ρ c (Proc.devRef .tc main_v129) = kT128 (wAt00 (W4 m ρ c (Proc.devRef .tc main_arg13))) from glue2_v129 (W4 m ρ c),
    at4_arg13 m ρ c]

theorem at7_v131 (m : (ℓ : Loc nD τ sig) → Buf (Elt Ideal) ℓ) (ρ : Dev nD → PrngReg) (c : Dev nD) :
    W7 m ρ c (Proc.devRef .tc main_v131) = kT128 (wAt03 (m ((c : Thread nD τ).loc main_arg11))) := by
  rw [show W7 m ρ c (Proc.devRef .tc main_v131) = kT128 (wAt03 (W4 m ρ c (Proc.devRef .tc main_arg11))) from glue2_v131 (W4 m ρ c),
    at4_arg11 m ρ c]

theorem at7_v135 (m : (ℓ : Loc nD τ sig) → Buf (Elt Ideal) ℓ) (ρ : Dev nD → PrngReg) (c : Dev nD) :
    W7 m ρ c (Proc.devRef .tc main_v135) = kRow128 (bAt03 (m ((c : Thread nD τ).loc main_arg12))) := by
  rw [show W7 m ρ c (Proc.devRef .tc main_v135) = kRow128 (bAt03 (W4 m ρ c (Proc.devRef .tc main_arg12))) from glue2_v135 (W4 m ρ c),
    at4_arg12 m ρ c]

theorem at7_v133 (m : (ℓ : Loc nD τ sig) → Buf (Elt Ideal) ℓ) (ρ : Dev nD → PrngReg) (c : Dev nD) :
    W7 m ρ c (Proc.devRef .tc main_v133) = kT128 (wAt03 (m ((c : Thread nD τ).loc main_arg13))) := by
  rw [show W7 m ρ c (Proc.devRef .tc main_v133) = kT128 (wAt03 (W4 m ρ c (Proc.devRef .tc main_arg13))) from glue2_v133 (W4 m ρ c),
    at4_arg13 m ρ c]

theorem at4_arg25 (m : (ℓ : Loc nD τ sig) → Buf (Elt Ideal) ℓ) (ρ : Dev nD → PrngReg) (c : Dev nD) :
    W4 m ρ c (Proc.devRef .tc main_arg25) = m ((c : Thread nD τ).loc main_arg25) := by
  rw [W4_of m ρ c main_arg25 (by decide),
    W3_of m ρ c main_arg25 (by decide),
    W2_of m ρ c main_arg25 (by decide),
    W1_of m ρ c main_arg25 (by decide)] <;> rfl

theorem at10_v79 (m : (ℓ : Loc nD τ sig) → Buf (Elt Ideal) ℓ) (ρ : Dev nD → PrngReg) (c : Dev nD)
    (x9 : Arr Ideal S50000x128 .f32) (h9 : W4 m ρ c (Proc.devRef .tc main_v9) = x9) :
    W10 m ρ c (Proc.devRef .tc main_v79) = aggMean x9 (m ((c : Thread nD τ).loc main_arg25)) (Cert.Stages.degF (m ((c : Thread nD τ).loc main_arg25))) := by
  rw [W10_of m ρ c main_v79 (by decide),
    W9_of m ρ c main_v79 (by decide),
    W8_of m ρ c main_v79 (by decide),
    show W7 m ρ c (Proc.devRef .tc main_v79) = aggMean (W4 m ρ c (Proc.devRef .tc main_v9)) (W4 m ρ c (Proc.devRef .tc main_arg25)) (kDeg (W4 m ρ c (Proc.devRef .tc main_arg25))) from glue2_v79 (W4 m ρ c),
    at4_v9 m ρ c x9 h9,
    at4_arg25 m ρ c,
    kDeg_eq]

theorem at4_arg26 (m : (ℓ : Loc nD τ sig) → Buf (Elt Ideal) ℓ) (ρ : Dev nD → PrngReg) (c : Dev nD) :
    W4 m ρ c (Proc.devRef .tc main_arg26) = m ((c : Thread nD τ).loc main_arg26) := by
  rw [W4_of m ρ c main_arg26 (by decide),
    W3_of m ρ c main_arg26 (by decide),
    W2_of m ρ c main_arg26 (by decide),
    W1_of m ρ c main_arg26 (by decide)] <;> rfl

theorem at10_v96 (m : (ℓ : Loc nD τ sig) → Buf (Elt Ideal) ℓ) (ρ : Dev nD → PrngReg) (c : Dev nD)
    (x4 : Arr Ideal S50000x128 .f32) (h4 : W2 m ρ c (Proc.devRef .tc main_v4) = x4) :
    W10 m ρ c (Proc.devRef .tc main_v96) = aggMean x4 (m ((c : Thread nD τ).loc main_arg26)) (Cert.Stages.degF (m ((c : Thread nD τ).loc main_arg26))) := by
  rw [W10_of m ρ c main_v96 (by decide),
    W9_of m ρ c main_v96 (by decide),
    W8_of m ρ c main_v96 (by decide),
    show W7 m ρ c (Proc.devRef .tc main_v96) = aggMean (W4 m ρ c (Proc.devRef .tc main_v4)) (W4 m ρ c (Proc.devRef .tc main_arg26)) (kDeg (W4 m ρ c (Proc.devRef .tc main_arg26))) from glue2_v96 (W4 m ρ c),
    at4_v4 m ρ c x4 h4,
    at4_arg26 m ρ c,
    kDeg_eq]

theorem at10_v9 (m : (ℓ : Loc nD τ sig) → Buf (Elt Ideal) ℓ) (ρ : Dev nD → PrngReg) (c : Dev nD)
    (x9 : Arr Ideal S50000x128 .f32) (h9 : W4 m ρ c (Proc.devRef .tc main_v9) = x9) :
    W10 m ρ c (Proc.devRef .tc main_v9) = x9 := by
  rw [W10_of m ρ c main_v9 (by decide),
    W9_of m ρ c main_v9 (by decide),
    W8_of m ρ c main_v9 (by decide),
    W7_of m ρ c main_v9 (by decide),
    W6_of m ρ c main_v9 (by decide),
    W5_of m ρ c main_v9 (by decide)]
  exact h9

theorem at8_arg11 (m : (ℓ : Loc nD τ sig) → Buf (Elt Ideal) ℓ) (ρ : Dev nD → PrngReg) (c : Dev nD) :
    W8 m ρ c (Proc.devRef .tc main_arg11) = m ((c : Thread nD τ).loc main_arg11) := by
  rw [W8_of m ρ c main_arg11 (by decide),
    W7_of m ρ c main_arg11 (by decide),
    W6_of m ρ c main_arg11 (by decide),
    W5_of m ρ c main_arg11 (by decide),
    W4_of m ρ c main_arg11 (by decide),
    W3_of m ρ c main_arg11 (by decide),
    W2_of m ρ c main_arg11 (by decide),
    W1_of m ρ c main_arg11 (by decide)] <;> rfl

theorem at10_v150 (m : (ℓ : Loc nD τ sig) → Buf (Elt Ideal) ℓ) (ρ : Dev nD → PrngReg) (c : Dev nD) :
    W10 m ρ c (Proc.devRef .tc main_v150) = kT128 (wAt01 (m ((c : Thread nD τ).loc main_arg11))) := by
  rw [show W10 m ρ c (Proc.devRef .tc main_v150) = kT128 (wAt01 (W8 m ρ c (Proc.devRef .tc main_arg11))) from glue3_v150 (W8 m ρ c),
    at8_arg11 m ρ c]

theorem at8_arg12 (m : (ℓ : Loc nD τ sig) → Buf (Elt Ideal) ℓ) (ρ : Dev nD → PrngReg) (c : Dev nD) :
    W8 m ρ c (Proc.devRef .tc main_arg12) = m ((c : Thread nD τ).loc main_arg12) := by
  rw [W8_of m ρ c main_arg12 (by decide),
    W7_of m ρ c main_arg12 (by decide),
    W6_of m ρ c main_arg12 (by decide),
    W5_of m ρ c main_arg12 (by decide),
    W4_of m ρ c main_arg12 (by decide),
    W3_of m ρ c main_arg12 (by decide),
    W2_of m ρ c main_arg12 (by decide),
    W1_of m ρ c main_arg12 (by decide)] <;> rfl

theorem at10_v157 (m : (ℓ : Loc nD τ sig) → Buf (Elt Ideal) ℓ) (ρ : Dev nD → PrngReg) (c : Dev nD) :
    W10 m ρ c (Proc.devRef .tc main_v157) = kRow128 (bAt01 (m ((c : Thread nD τ).loc main_arg12))) := by
  rw [show W10 m ρ c (Proc.devRef .tc main_v157) = kRow128 (bAt01 (W8 m ρ c (Proc.devRef .tc main_arg12))) from glue3_v157 (W8 m ρ c),
    at8_arg12 m ρ c]

theorem at8_arg13 (m : (ℓ : Loc nD τ sig) → Buf (Elt Ideal) ℓ) (ρ : Dev nD → PrngReg) (c : Dev nD) :
    W8 m ρ c (Proc.devRef .tc main_arg13) = m ((c : Thread nD τ).loc main_arg13) := by
  rw [W8_of m ρ c main_arg13 (by decide),
    W7_of m ρ c main_arg13 (by decide),
    W6_of m ρ c main_arg13 (by decide),
    W5_of m ρ c main_arg13 (by decide),
    W4_of m ρ c main_arg13 (by decide),
    W3_of m ρ c main_arg13 (by decide),
    W2_of m ρ c main_arg13 (by decide),
    W1_of m ρ c main_arg13 (by decide)] <;> rfl

theorem at10_v152 (m : (ℓ : Loc nD τ sig) → Buf (Elt Ideal) ℓ) (ρ : Dev nD → PrngReg) (c : Dev nD) :
    W10 m ρ c (Proc.devRef .tc main_v152) = kT128 (wAt01 (m ((c : Thread nD τ).loc main_arg13))) := by
  rw [show W10 m ρ c (Proc.devRef .tc main_v152) = kT128 (wAt01 (W8 m ρ c (Proc.devRef .tc main_arg13))) from glue3_v152 (W8 m ρ c),
    at8_arg13 m ρ c]

theorem at10_v154 (m : (ℓ : Loc nD τ sig) → Buf (Elt Ideal) ℓ) (ρ : Dev nD → PrngReg) (c : Dev nD) :
    W10 m ρ c (Proc.devRef .tc main_v154) = kT128 (wAt02 (m ((c : Thread nD τ).loc main_arg11))) := by
  rw [show W10 m ρ c (Proc.devRef .tc main_v154) = kT128 (wAt02 (W8 m ρ c (Proc.devRef .tc main_arg11))) from glue3_v154 (W8 m ρ c),
    at8_arg11 m ρ c]

theorem at10_v158 (m : (ℓ : Loc nD τ sig) → Buf (Elt Ideal) ℓ) (ρ : Dev nD → PrngReg) (c : Dev nD) :
    W10 m ρ c (Proc.devRef .tc main_v158) = kRow128 (bAt02 (m ((c : Thread nD τ).loc main_arg12))) := by
  rw [show W10 m ρ c (Proc.devRef .tc main_v158) = kRow128 (bAt02 (W8 m ρ c (Proc.devRef .tc main_arg12))) from glue3_v158 (W8 m ρ c),
    at8_arg12 m ρ c]

theorem at10_v156 (m : (ℓ : Loc nD τ sig) → Buf (Elt Ideal) ℓ) (ρ : Dev nD → PrngReg) (c : Dev nD) :
    W10 m ρ c (Proc.devRef .tc main_v156) = kT128 (wAt02 (m ((c : Thread nD τ).loc main_arg13))) := by
  rw [show W10 m ρ c (Proc.devRef .tc main_v156) = kT128 (wAt02 (W8 m ρ c (Proc.devRef .tc main_arg13))) from glue3_v156 (W8 m ρ c),
    at8_arg13 m ρ c]

theorem at11_v136 (m : (ℓ : Loc nD τ sig) → Buf (Elt Ideal) ℓ) (ρ : Dev nD → PrngReg) (c : Dev nD)
    (x136 : Arr Ideal S50000x128 .f32) (h136 : W8 m ρ c (Proc.devRef .tc main_v136) = x136) :
    W11 m ρ c (Proc.devRef .tc main_v136) = x136 := by
  rw [W11_of m ρ c main_v136 (by decide),
    W10_of m ρ c main_v136 (by decide),
    W9_of m ρ c main_v136 (by decide)]
  exact h136

theorem at11_arg24 (m : (ℓ : Loc nD τ sig) → Buf (Elt Ideal) ℓ) (ρ : Dev nD → PrngReg) (c : Dev nD) :
    W11 m ρ c (Proc.devRef .tc main_arg24) = m ((c : Thread nD τ).loc main_arg24) := by
  rw [W11_of m ρ c main_arg24 (by decide),
    W10_of m ρ c main_arg24 (by decide),
    W9_of m ρ c main_arg24 (by decide),
    W8_of m ρ c main_arg24 (by decide),
    W7_of m ρ c main_arg24 (by decide),
    W6_of m ρ c main_arg24 (by decide),
    W5_of m ρ c main_arg24 (by decide),
    W4_of m ρ c main_arg24 (by decide),
    W3_of m ρ c main_arg24 (by decide),
    W2_of m ρ c main_arg24 (by decide),
    W1_of m ρ c main_arg24 (by decide)] <;> rfl

theorem at11_v18 (m : (ℓ : Loc nD τ sig) → Buf (Elt Ideal) ℓ) (ρ : Dev nD → PrngReg) (c : Dev nD) :
    W11 m ρ c (Proc.devRef .tc main_v18) = Cert.Stages.degF (m ((c : Thread nD τ).loc main_arg24)) := by
  rw [W11_of m ρ c main_v18 (by decide),
    W10_of m ρ c main_v18 (by decide),
    W9_of m ρ c main_v18 (by decide),
    W8_of m ρ c main_v18 (by decide),
    show W7 m ρ c (Proc.devRef .tc main_v18) = kDeg (W4 m ρ c (Proc.devRef .tc main_arg24)) from glue2_v18 (W4 m ρ c),
    at4_arg24 m ρ c,
    kDeg_eq]

theorem at13_v176 (m : (ℓ : Loc nD τ sig) → Buf (Elt Ideal) ℓ) (ρ : Dev nD → PrngReg) (c : Dev nD)
    (x136 : Arr Ideal S50000x128 .f32) (h136 : W8 m ρ c (Proc.devRef .tc main_v136) = x136) :
    W13 m ρ c (Proc.devRef .tc main_v176) = aggMean x136 (m ((c : Thread nD τ).loc main_arg24)) (Cert.Stages.degF (m ((c : Thread nD τ).loc main_arg24))) := by
  rw [show W13 m ρ c (Proc.devRef .tc main_v176) = aggMean (W11 m ρ c (Proc.devRef .tc main_v136)) (W11 m ρ c (Proc.devRef .tc main_arg24)) (W11 m ρ c (Proc.devRef .tc main_v18)) from glue4_v176 (W11 m ρ c),
    at11_v136 m ρ c x136 h136,
    at11_arg24 m ρ c,
    at11_v18 m ρ c]

theorem at11_v159 (m : (ℓ : Loc nD τ sig) → Buf (Elt Ideal) ℓ) (ρ : Dev nD → PrngReg) (c : Dev nD)
    (x159 : Arr Ideal S50000x128 .f32) (h159 : W11 m ρ c (Proc.devRef .tc main_v159) = x159) :
    W11 m ρ c (Proc.devRef .tc main_v159) = x159 := by
  exact h159

theorem at11_arg27 (m : (ℓ : Loc nD τ sig) → Buf (Elt Ideal) ℓ) (ρ : Dev nD → PrngReg) (c : Dev nD) :
    W11 m ρ c (Proc.devRef .tc main_arg27) = m ((c : Thread nD τ).loc main_arg27) := by
  rw [W11_of m ρ c main_arg27 (by decide),
    W10_of m ρ c main_arg27 (by decide),
    W9_of m ρ c main_arg27 (by decide),
    W8_of m ρ c main_arg27 (by decide),
    W7_of m ρ c main_arg27 (by decide),
    W6_of m ρ c main_arg27 (by decide),
    W5_of m ρ c main_arg27 (by decide),
    W4_of m ρ c main_arg27 (by decide),
    W3_of m ρ c main_arg27 (by decide),
    W2_of m ρ c main_arg27 (by decide),
    W1_of m ρ c main_arg27 (by decide)] <;> rfl

theorem at11_v45 (m : (ℓ : Loc nD τ sig) → Buf (Elt Ideal) ℓ) (ρ : Dev nD → PrngReg) (c : Dev nD) :
    W11 m ρ c (Proc.devRef .tc main_v45) = Cert.Stages.degF (m ((c : Thread nD τ).loc main_arg27)) := by
  rw [W11_of m ρ c main_v45 (by decide),
    W10_of m ρ c main_v45 (by decide),
    W9_of m ρ c main_v45 (by decide),
    W8_of m ρ c main_v45 (by decide),
    show W7 m ρ c (Proc.devRef .tc main_v45) = kDeg (W4 m ρ c (Proc.devRef .tc main_arg27)) from glue2_v45 (W4 m ρ c),
    at4_arg27 m ρ c,
    kDeg_eq]

theorem at13_v227 (m : (ℓ : Loc nD τ sig) → Buf (Elt Ideal) ℓ) (ρ : Dev nD → PrngReg) (c : Dev nD)
    (x159 : Arr Ideal S50000x128 .f32) (h159 : W11 m ρ c (Proc.devRef .tc main_v159) = x159) :
    W13 m ρ c (Proc.devRef .tc main_v227) = aggMean x159 (m ((c : Thread nD τ).loc main_arg27)) (Cert.Stages.degF (m ((c : Thread nD τ).loc main_arg27))) := by
  rw [show W13 m ρ c (Proc.devRef .tc main_v227) = aggMean (W11 m ρ c (Proc.devRef .tc main_v159)) (W11 m ρ c (Proc.devRef .tc main_arg27)) (W11 m ρ c (Proc.devRef .tc main_v45)) from glue4_v227 (W11 m ρ c),
    at11_v159 m ρ c x159 h159,
    at11_arg27 m ρ c,
    at11_v45 m ρ c]

theorem at13_v136 (m : (ℓ : Loc nD τ sig) → Buf (Elt Ideal) ℓ) (ρ : Dev nD → PrngReg) (c : Dev nD)
    (x136 : Arr Ideal S50000x128 .f32) (h136 : W8 m ρ c (Proc.devRef .tc main_v136) = x136) :
    W13 m ρ c (Proc.devRef .tc main_v136) = x136 := by
  rw [W13_of m ρ c main_v136 (by decide),
    W12_of m ρ c main_v136 (by decide),
    W11_of m ρ c main_v136 (by decide),
    W10_of m ρ c main_v136 (by decide),
    W9_of m ρ c main_v136 (by decide)]
  exact h136

theorem at11_arg11 (m : (ℓ : Loc nD τ sig) → Buf (Elt Ideal) ℓ) (ρ : Dev nD → PrngReg) (c : Dev nD) :
    W11 m ρ c (Proc.devRef .tc main_arg11) = m ((c : Thread nD τ).loc main_arg11) := by
  rw [W11_of m ρ c main_arg11 (by decide),
    W10_of m ρ c main_arg11 (by decide),
    W9_of m ρ c main_arg11 (by decide),
    W8_of m ρ c main_arg11 (by decide),
    W7_of m ρ c main_arg11 (by decide),
    W6_of m ρ c main_arg11 (by decide),
    W5_of m ρ c main_arg11 (by decide),
    W4_of m ρ c main_arg11 (by decide),
    W3_of m ρ c main_arg11 (by decide),
    W2_of m ρ c main_arg11 (by decide),
    W1_of m ρ c main_arg11 (by decide)] <;> rfl

theorem at13_v241 (m : (ℓ : Loc nD τ sig) → Buf (Elt Ideal) ℓ) (ρ : Dev nD → PrngReg) (c : Dev nD) :
    W13 m ρ c (Proc.devRef .tc main_v241) = kT128 (wAt10 (m ((c : Thread nD τ).loc main_arg11))) := by
  rw [show W13 m ρ c (Proc.devRef .tc main_v241) = kT128 (wAt10 (W11 m ρ c (Proc.devRef .tc main_arg11))) from glue4_v241 (W11 m ρ c),
    at11_arg11 m ρ c]

theorem at11_arg12 (m : (ℓ : Loc nD τ sig) → Buf (Elt Ideal) ℓ) (ρ : Dev nD → PrngReg) (c : Dev nD) :
    W11 m ρ c (Proc.devRef .tc main_arg12) = m ((c : Thread nD τ).loc main_arg12) := by
  rw [W11_of m ρ c main_arg12 (by decide),
    W10_of m ρ c main_arg12 (by decide),
    W9_of m ρ c main_arg12 (by decide),
    W8_of m ρ c main_arg12 (by decide),
    W7_of m ρ c main_arg12 (by decide),
    W6_of m ρ c main_arg12 (by decide),
    W5_of m ρ c main_arg12 (by decide),
    W4_of m ρ c main_arg12 (by decide),
    W3_of m ρ c main_arg12 (by decide),
    W2_of m ρ c main_arg12 (by decide),
    W1_of m ρ c main_arg12 (by decide)] <;> rfl

theorem at13_v248 (m : (ℓ : Loc nD τ sig) → Buf (Elt Ideal) ℓ) (ρ : Dev nD → PrngReg) (c : Dev nD) :
    W13 m ρ c (Proc.devRef .tc main_v248) = kRow128 (bAt10 (m ((c : Thread nD τ).loc main_arg12))) := by
  rw [show W13 m ρ c (Proc.devRef .tc main_v248) = kRow128 (bAt10 (W11 m ρ c (Proc.devRef .tc main_arg12))) from glue4_v248 (W11 m ρ c),
    at11_arg12 m ρ c]

theorem at11_arg13 (m : (ℓ : Loc nD τ sig) → Buf (Elt Ideal) ℓ) (ρ : Dev nD → PrngReg) (c : Dev nD) :
    W11 m ρ c (Proc.devRef .tc main_arg13) = m ((c : Thread nD τ).loc main_arg13) := by
  rw [W11_of m ρ c main_arg13 (by decide),
    W10_of m ρ c main_arg13 (by decide),
    W9_of m ρ c main_arg13 (by decide),
    W8_of m ρ c main_arg13 (by decide),
    W7_of m ρ c main_arg13 (by decide),
    W6_of m ρ c main_arg13 (by decide),
    W5_of m ρ c main_arg13 (by decide),
    W4_of m ρ c main_arg13 (by decide),
    W3_of m ρ c main_arg13 (by decide),
    W2_of m ρ c main_arg13 (by decide),
    W1_of m ρ c main_arg13 (by decide)] <;> rfl

theorem at13_v243 (m : (ℓ : Loc nD τ sig) → Buf (Elt Ideal) ℓ) (ρ : Dev nD → PrngReg) (c : Dev nD) :
    W13 m ρ c (Proc.devRef .tc main_v243) = kT128 (wAt10 (m ((c : Thread nD τ).loc main_arg13))) := by
  rw [show W13 m ρ c (Proc.devRef .tc main_v243) = kT128 (wAt10 (W11 m ρ c (Proc.devRef .tc main_arg13))) from glue4_v243 (W11 m ρ c),
    at11_arg13 m ρ c]

theorem at13_v245 (m : (ℓ : Loc nD τ sig) → Buf (Elt Ideal) ℓ) (ρ : Dev nD → PrngReg) (c : Dev nD) :
    W13 m ρ c (Proc.devRef .tc main_v245) = kT128 (wAt13 (m ((c : Thread nD τ).loc main_arg11))) := by
  rw [show W13 m ρ c (Proc.devRef .tc main_v245) = kT128 (wAt13 (W11 m ρ c (Proc.devRef .tc main_arg11))) from glue4_v245 (W11 m ρ c),
    at11_arg11 m ρ c]

theorem at13_v249 (m : (ℓ : Loc nD τ sig) → Buf (Elt Ideal) ℓ) (ρ : Dev nD → PrngReg) (c : Dev nD) :
    W13 m ρ c (Proc.devRef .tc main_v249) = kRow128 (bAt13 (m ((c : Thread nD τ).loc main_arg12))) := by
  rw [show W13 m ρ c (Proc.devRef .tc main_v249) = kRow128 (bAt13 (W11 m ρ c (Proc.devRef .tc main_arg12))) from glue4_v249 (W11 m ρ c),
    at11_arg12 m ρ c]

theorem at13_v247 (m : (ℓ : Loc nD τ sig) → Buf (Elt Ideal) ℓ) (ρ : Dev nD → PrngReg) (c : Dev nD) :
    W13 m ρ c (Proc.devRef .tc main_v247) = kT128 (wAt13 (m ((c : Thread nD τ).loc main_arg13))) := by
  rw [show W13 m ρ c (Proc.devRef .tc main_v247) = kT128 (wAt13 (W11 m ρ c (Proc.devRef .tc main_arg13))) from glue4_v247 (W11 m ρ c),
    at11_arg13 m ρ c]

theorem at11_arg25 (m : (ℓ : Loc nD τ sig) → Buf (Elt Ideal) ℓ) (ρ : Dev nD → PrngReg) (c : Dev nD) :
    W11 m ρ c (Proc.devRef .tc main_arg25) = m ((c : Thread nD τ).loc main_arg25) := by
  rw [W11_of m ρ c main_arg25 (by decide),
    W10_of m ρ c main_arg25 (by decide),
    W9_of m ρ c main_arg25 (by decide),
    W8_of m ρ c main_arg25 (by decide),
    W7_of m ρ c main_arg25 (by decide),
    W6_of m ρ c main_arg25 (by decide),
    W5_of m ρ c main_arg25 (by decide),
    W4_of m ρ c main_arg25 (by decide),
    W3_of m ρ c main_arg25 (by decide),
    W2_of m ρ c main_arg25 (by decide),
    W1_of m ρ c main_arg25 (by decide)] <;> rfl

theorem at11_v27 (m : (ℓ : Loc nD τ sig) → Buf (Elt Ideal) ℓ) (ρ : Dev nD → PrngReg) (c : Dev nD) :
    W11 m ρ c (Proc.devRef .tc main_v27) = Cert.Stages.degF (m ((c : Thread nD τ).loc main_arg25)) := by
  rw [W11_of m ρ c main_v27 (by decide),
    W10_of m ρ c main_v27 (by decide),
    W9_of m ρ c main_v27 (by decide),
    W8_of m ρ c main_v27 (by decide),
    show W7 m ρ c (Proc.devRef .tc main_v27) = kDeg (W4 m ρ c (Proc.devRef .tc main_arg25)) from glue2_v27 (W4 m ρ c),
    at4_arg25 m ρ c,
    kDeg_eq]

theorem at16_v193 (m : (ℓ : Loc nD τ sig) → Buf (Elt Ideal) ℓ) (ρ : Dev nD → PrngReg) (c : Dev nD)
    (x159 : Arr Ideal S50000x128 .f32) (h159 : W11 m ρ c (Proc.devRef .tc main_v159) = x159) :
    W16 m ρ c (Proc.devRef .tc main_v193) = aggMean x159 (m ((c : Thread nD τ).loc main_arg25)) (Cert.Stages.degF (m ((c : Thread nD τ).loc main_arg25))) := by
  rw [W16_of m ρ c main_v193 (by decide),
    W15_of m ρ c main_v193 (by decide),
    W14_of m ρ c main_v193 (by decide),
    show W13 m ρ c (Proc.devRef .tc main_v193) = aggMean (W11 m ρ c (Proc.devRef .tc main_v159)) (W11 m ρ c (Proc.devRef .tc main_arg25)) (W11 m ρ c (Proc.devRef .tc main_v27)) from glue4_v193 (W11 m ρ c),
    at11_v159 m ρ c x159 h159,
    at11_arg25 m ρ c,
    at11_v27 m ρ c]

theorem at11_arg26 (m : (ℓ : Loc nD τ sig) → Buf (Elt Ideal) ℓ) (ρ : Dev nD → PrngReg) (c : Dev nD) :
    W11 m ρ c (Proc.devRef .tc main_arg26) = m ((c : Thread nD τ).loc main_arg26) := by
  rw [W11_of m ρ c main_arg26 (by decide),
    W10_of m ρ c main_arg26 (by decide),
    W9_of m ρ c main_arg26 (by decide),
    W8_of m ρ c main_arg26 (by decide),
    W7_of m ρ c main_arg26 (by decide),
    W6_of m ρ c main_arg26 (by decide),
    W5_of m ρ c main_arg26 (by decide),
    W4_of m ρ c main_arg26 (by decide),
    W3_of m ρ c main_arg26 (by decide),
    W2_of m ρ c main_arg26 (by decide),
    W1_of m ρ c main_arg26 (by decide)] <;> rfl

theorem at11_v36 (m : (ℓ : Loc nD τ sig) → Buf (Elt Ideal) ℓ) (ρ : Dev nD → PrngReg) (c : Dev nD) :
    W11 m ρ c (Proc.devRef .tc main_v36) = Cert.Stages.degF (m ((c : Thread nD τ).loc main_arg26)) := by
  rw [W11_of m ρ c main_v36 (by decide),
    W10_of m ρ c main_v36 (by decide),
    W9_of m ρ c main_v36 (by decide),
    W8_of m ρ c main_v36 (by decide),
    show W7 m ρ c (Proc.devRef .tc main_v36) = kDeg (W4 m ρ c (Proc.devRef .tc main_arg26)) from glue2_v36 (W4 m ρ c),
    at4_arg26 m ρ c,
    kDeg_eq]

theorem at16_v210 (m : (ℓ : Loc nD τ sig) → Buf (Elt Ideal) ℓ) (ρ : Dev nD → PrngReg) (c : Dev nD)
    (x136 : Arr Ideal S50000x128 .f32) (h136 : W8 m ρ c (Proc.devRef .tc main_v136) = x136) :
    W16 m ρ c (Proc.devRef .tc main_v210) = aggMean x136 (m ((c : Thread nD τ).loc main_arg26)) (Cert.Stages.degF (m ((c : Thread nD τ).loc main_arg26))) := by
  rw [W16_of m ρ c main_v210 (by decide),
    W15_of m ρ c main_v210 (by decide),
    W14_of m ρ c main_v210 (by decide),
    show W13 m ρ c (Proc.devRef .tc main_v210) = aggMean (W11 m ρ c (Proc.devRef .tc main_v136)) (W11 m ρ c (Proc.devRef .tc main_arg26)) (W11 m ρ c (Proc.devRef .tc main_v36)) from glue4_v210 (W11 m ρ c),
    at11_v136 m ρ c x136 h136,
    at11_arg26 m ρ c,
    at11_v36 m ρ c]

theorem at16_v159 (m : (ℓ : Loc nD τ sig) → Buf (Elt Ideal) ℓ) (ρ : Dev nD → PrngReg) (c : Dev nD)
    (x159 : Arr Ideal S50000x128 .f32) (h159 : W11 m ρ c (Proc.devRef .tc main_v159) = x159) :
    W16 m ρ c (Proc.devRef .tc main_v159) = x159 := by
  rw [W16_of m ρ c main_v159 (by decide),
    W15_of m ρ c main_v159 (by decide),
    W14_of m ρ c main_v159 (by decide),
    W13_of m ρ c main_v159 (by decide),
    W12_of m ρ c main_v159 (by decide)]
  exact h159

theorem at14_arg11 (m : (ℓ : Loc nD τ sig) → Buf (Elt Ideal) ℓ) (ρ : Dev nD → PrngReg) (c : Dev nD) :
    W14 m ρ c (Proc.devRef .tc main_arg11) = m ((c : Thread nD τ).loc main_arg11) := by
  rw [W14_of m ρ c main_arg11 (by decide),
    W13_of m ρ c main_arg11 (by decide),
    W12_of m ρ c main_arg11 (by decide),
    W11_of m ρ c main_arg11 (by decide),
    W10_of m ρ c main_arg11 (by decide),
    W9_of m ρ c main_arg11 (by decide),
    W8_of m ρ c main_arg11 (by decide),
    W7_of m ρ c main_arg11 (by decide),
    W6_of m ρ c main_arg11 (by decide),
    W5_of m ρ c main_arg11 (by decide),
    W4_of m ρ c main_arg11 (by decide),
    W3_of m ρ c main_arg11 (by decide),
    W2_of m ρ c main_arg11 (by decide),
    W1_of m ρ c main_arg11 (by decide)] <;> rfl

theorem at16_v264 (m : (ℓ : Loc nD τ sig) → Buf (Elt Ideal) ℓ) (ρ : Dev nD → PrngReg) (c : Dev nD) :
    W16 m ρ c (Proc.devRef .tc main_v264) = kT128 (wAt11 (m ((c : Thread nD τ).loc main_arg11))) := by
  rw [show W16 m ρ c (Proc.devRef .tc main_v264) = kT128 (wAt11 (W14 m ρ c (Proc.devRef .tc main_arg11))) from glue5_v264 (W14 m ρ c),
    at14_arg11 m ρ c]

theorem at14_arg12 (m : (ℓ : Loc nD τ sig) → Buf (Elt Ideal) ℓ) (ρ : Dev nD → PrngReg) (c : Dev nD) :
    W14 m ρ c (Proc.devRef .tc main_arg12) = m ((c : Thread nD τ).loc main_arg12) := by
  rw [W14_of m ρ c main_arg12 (by decide),
    W13_of m ρ c main_arg12 (by decide),
    W12_of m ρ c main_arg12 (by decide),
    W11_of m ρ c main_arg12 (by decide),
    W10_of m ρ c main_arg12 (by decide),
    W9_of m ρ c main_arg12 (by decide),
    W8_of m ρ c main_arg12 (by decide),
    W7_of m ρ c main_arg12 (by decide),
    W6_of m ρ c main_arg12 (by decide),
    W5_of m ρ c main_arg12 (by decide),
    W4_of m ρ c main_arg12 (by decide),
    W3_of m ρ c main_arg12 (by decide),
    W2_of m ρ c main_arg12 (by decide),
    W1_of m ρ c main_arg12 (by decide)] <;> rfl

theorem at16_v271 (m : (ℓ : Loc nD τ sig) → Buf (Elt Ideal) ℓ) (ρ : Dev nD → PrngReg) (c : Dev nD) :
    W16 m ρ c (Proc.devRef .tc main_v271) = kRow128 (bAt11 (m ((c : Thread nD τ).loc main_arg12))) := by
  rw [show W16 m ρ c (Proc.devRef .tc main_v271) = kRow128 (bAt11 (W14 m ρ c (Proc.devRef .tc main_arg12))) from glue5_v271 (W14 m ρ c),
    at14_arg12 m ρ c]

theorem at14_arg13 (m : (ℓ : Loc nD τ sig) → Buf (Elt Ideal) ℓ) (ρ : Dev nD → PrngReg) (c : Dev nD) :
    W14 m ρ c (Proc.devRef .tc main_arg13) = m ((c : Thread nD τ).loc main_arg13) := by
  rw [W14_of m ρ c main_arg13 (by decide),
    W13_of m ρ c main_arg13 (by decide),
    W12_of m ρ c main_arg13 (by decide),
    W11_of m ρ c main_arg13 (by decide),
    W10_of m ρ c main_arg13 (by decide),
    W9_of m ρ c main_arg13 (by decide),
    W8_of m ρ c main_arg13 (by decide),
    W7_of m ρ c main_arg13 (by decide),
    W6_of m ρ c main_arg13 (by decide),
    W5_of m ρ c main_arg13 (by decide),
    W4_of m ρ c main_arg13 (by decide),
    W3_of m ρ c main_arg13 (by decide),
    W2_of m ρ c main_arg13 (by decide),
    W1_of m ρ c main_arg13 (by decide)] <;> rfl

theorem at16_v266 (m : (ℓ : Loc nD τ sig) → Buf (Elt Ideal) ℓ) (ρ : Dev nD → PrngReg) (c : Dev nD) :
    W16 m ρ c (Proc.devRef .tc main_v266) = kT128 (wAt11 (m ((c : Thread nD τ).loc main_arg13))) := by
  rw [show W16 m ρ c (Proc.devRef .tc main_v266) = kT128 (wAt11 (W14 m ρ c (Proc.devRef .tc main_arg13))) from glue5_v266 (W14 m ρ c),
    at14_arg13 m ρ c]

theorem at16_v268 (m : (ℓ : Loc nD τ sig) → Buf (Elt Ideal) ℓ) (ρ : Dev nD → PrngReg) (c : Dev nD) :
    W16 m ρ c (Proc.devRef .tc main_v268) = kT128 (wAt12 (m ((c : Thread nD τ).loc main_arg11))) := by
  rw [show W16 m ρ c (Proc.devRef .tc main_v268) = kT128 (wAt12 (W14 m ρ c (Proc.devRef .tc main_arg11))) from glue5_v268 (W14 m ρ c),
    at14_arg11 m ρ c]

theorem at16_v272 (m : (ℓ : Loc nD τ sig) → Buf (Elt Ideal) ℓ) (ρ : Dev nD → PrngReg) (c : Dev nD) :
    W16 m ρ c (Proc.devRef .tc main_v272) = kRow128 (bAt12 (m ((c : Thread nD τ).loc main_arg12))) := by
  rw [show W16 m ρ c (Proc.devRef .tc main_v272) = kRow128 (bAt12 (W14 m ρ c (Proc.devRef .tc main_arg12))) from glue5_v272 (W14 m ρ c),
    at14_arg12 m ρ c]

theorem at16_v270 (m : (ℓ : Loc nD τ sig) → Buf (Elt Ideal) ℓ) (ρ : Dev nD → PrngReg) (c : Dev nD) :
    W16 m ρ c (Proc.devRef .tc main_v270) = kT128 (wAt12 (m ((c : Thread nD τ).loc main_arg13))) := by
  rw [show W16 m ρ c (Proc.devRef .tc main_v270) = kT128 (wAt12 (W14 m ρ c (Proc.devRef .tc main_arg13))) from glue5_v270 (W14 m ρ c),
    at14_arg13 m ρ c]

theorem at17_v250 (m : (ℓ : Loc nD τ sig) → Buf (Elt Ideal) ℓ) (ρ : Dev nD → PrngReg) (c : Dev nD)
    (x250 : Arr Ideal S50000x128 .f32) (h250 : W14 m ρ c (Proc.devRef .tc main_v250) = x250) :
    W17 m ρ c (Proc.devRef .tc main_v250) = x250 := by
  rw [W17_of m ρ c main_v250 (by decide),
    W16_of m ρ c main_v250 (by decide),
    W15_of m ρ c main_v250 (by decide)]
  exact h250

theorem at17_arg24 (m : (ℓ : Loc nD τ sig) → Buf (Elt Ideal) ℓ) (ρ : Dev nD → PrngReg) (c : Dev nD) :
    W17 m ρ c (Proc.devRef .tc main_arg24) = m ((c : Thread nD τ).loc main_arg24) := by
  rw [W17_of m ρ c main_arg24 (by decide),
    W16_of m ρ c main_arg24 (by decide),
    W15_of m ρ c main_arg24 (by decide),
    W14_of m ρ c main_arg24 (by decide),
    W13_of m ρ c main_arg24 (by decide),
    W12_of m ρ c main_arg24 (by decide),
    W11_of m ρ c main_arg24 (by decide),
    W10_of m ρ c main_arg24 (by decide),
    W9_of m ρ c main_arg24 (by decide),
    W8_of m ρ c main_arg24 (by decide),
    W7_of m ρ c main_arg24 (by decide),
    W6_of m ρ c main_arg24 (by decide),
    W5_of m ρ c main_arg24 (by decide),
    W4_of m ρ c main_arg24 (by decide),
    W3_of m ρ c main_arg24 (by decide),
    W2_of m ρ c main_arg24 (by decide),
    W1_of m ρ c main_arg24 (by decide)] <;> rfl

theorem at17_v18 (m : (ℓ : Loc nD τ sig) → Buf (Elt Ideal) ℓ) (ρ : Dev nD → PrngReg) (c : Dev nD) :
    W17 m ρ c (Proc.devRef .tc main_v18) = Cert.Stages.degF (m ((c : Thread nD τ).loc main_arg24)) := by
  rw [W17_of m ρ c main_v18 (by decide),
    W16_of m ρ c main_v18 (by decide),
    W15_of m ρ c main_v18 (by decide),
    W14_of m ρ c main_v18 (by decide),
    W13_of m ρ c main_v18 (by decide),
    W12_of m ρ c main_v18 (by decide),
    W11_of m ρ c main_v18 (by decide),
    W10_of m ρ c main_v18 (by decide),
    W9_of m ρ c main_v18 (by decide),
    W8_of m ρ c main_v18 (by decide),
    show W7 m ρ c (Proc.devRef .tc main_v18) = kDeg (W4 m ρ c (Proc.devRef .tc main_arg24)) from glue2_v18 (W4 m ρ c),
    at4_arg24 m ρ c,
    kDeg_eq]

theorem at19_v290 (m : (ℓ : Loc nD τ sig) → Buf (Elt Ideal) ℓ) (ρ : Dev nD → PrngReg) (c : Dev nD)
    (x250 : Arr Ideal S50000x128 .f32) (h250 : W14 m ρ c (Proc.devRef .tc main_v250) = x250) :
    W19 m ρ c (Proc.devRef .tc main_v290) = aggMean x250 (m ((c : Thread nD τ).loc main_arg24)) (Cert.Stages.degF (m ((c : Thread nD τ).loc main_arg24))) := by
  rw [show W19 m ρ c (Proc.devRef .tc main_v290) = aggMean (W17 m ρ c (Proc.devRef .tc main_v250)) (W17 m ρ c (Proc.devRef .tc main_arg24)) (W17 m ρ c (Proc.devRef .tc main_v18)) from glue6_v290 (W17 m ρ c),
    at17_v250 m ρ c x250 h250,
    at17_arg24 m ρ c,
    at17_v18 m ρ c]

theorem at17_v273 (m : (ℓ : Loc nD τ sig) → Buf (Elt Ideal) ℓ) (ρ : Dev nD → PrngReg) (c : Dev nD)
    (x273 : Arr Ideal S50000x128 .f32) (h273 : W17 m ρ c (Proc.devRef .tc main_v273) = x273) :
    W17 m ρ c (Proc.devRef .tc main_v273) = x273 := by
  exact h273

theorem at17_arg27 (m : (ℓ : Loc nD τ sig) → Buf (Elt Ideal) ℓ) (ρ : Dev nD → PrngReg) (c : Dev nD) :
    W17 m ρ c (Proc.devRef .tc main_arg27) = m ((c : Thread nD τ).loc main_arg27) := by
  rw [W17_of m ρ c main_arg27 (by decide),
    W16_of m ρ c main_arg27 (by decide),
    W15_of m ρ c main_arg27 (by decide),
    W14_of m ρ c main_arg27 (by decide),
    W13_of m ρ c main_arg27 (by decide),
    W12_of m ρ c main_arg27 (by decide),
    W11_of m ρ c main_arg27 (by decide),
    W10_of m ρ c main_arg27 (by decide),
    W9_of m ρ c main_arg27 (by decide),
    W8_of m ρ c main_arg27 (by decide),
    W7_of m ρ c main_arg27 (by decide),
    W6_of m ρ c main_arg27 (by decide),
    W5_of m ρ c main_arg27 (by decide),
    W4_of m ρ c main_arg27 (by decide),
    W3_of m ρ c main_arg27 (by decide),
    W2_of m ρ c main_arg27 (by decide),
    W1_of m ρ c main_arg27 (by decide)] <;> rfl

theorem at17_v45 (m : (ℓ : Loc nD τ sig) → Buf (Elt Ideal) ℓ) (ρ : Dev nD → PrngReg) (c : Dev nD) :
    W17 m ρ c (Proc.devRef .tc main_v45) = Cert.Stages.degF (m ((c : Thread nD τ).loc main_arg27)) := by
  rw [W17_of m ρ c main_v45 (by decide),
    W16_of m ρ c main_v45 (by decide),
    W15_of m ρ c main_v45 (by decide),
    W14_of m ρ c main_v45 (by decide),
    W13_of m ρ c main_v45 (by decide),
    W12_of m ρ c main_v45 (by decide),
    W11_of m ρ c main_v45 (by decide),
    W10_of m ρ c main_v45 (by decide),
    W9_of m ρ c main_v45 (by decide),
    W8_of m ρ c main_v45 (by decide),
    show W7 m ρ c (Proc.devRef .tc main_v45) = kDeg (W4 m ρ c (Proc.devRef .tc main_arg27)) from glue2_v45 (W4 m ρ c),
    at4_arg27 m ρ c,
    kDeg_eq]

theorem at19_v341 (m : (ℓ : Loc nD τ sig) → Buf (Elt Ideal) ℓ) (ρ : Dev nD → PrngReg) (c : Dev nD)
    (x273 : Arr Ideal S50000x128 .f32) (h273 : W17 m ρ c (Proc.devRef .tc main_v273) = x273) :
    W19 m ρ c (Proc.devRef .tc main_v341) = aggMean x273 (m ((c : Thread nD τ).loc main_arg27)) (Cert.Stages.degF (m ((c : Thread nD τ).loc main_arg27))) := by
  rw [show W19 m ρ c (Proc.devRef .tc main_v341) = aggMean (W17 m ρ c (Proc.devRef .tc main_v273)) (W17 m ρ c (Proc.devRef .tc main_arg27)) (W17 m ρ c (Proc.devRef .tc main_v45)) from glue6_v341 (W17 m ρ c),
    at17_v273 m ρ c x273 h273,
    at17_arg27 m ρ c,
    at17_v45 m ρ c]

theorem at19_v250 (m : (ℓ : Loc nD τ sig) → Buf (Elt Ideal) ℓ) (ρ : Dev nD → PrngReg) (c : Dev nD)
    (x250 : Arr Ideal S50000x128 .f32) (h250 : W14 m ρ c (Proc.devRef .tc main_v250) = x250) :
    W19 m ρ c (Proc.devRef .tc main_v250) = x250 := by
  rw [W19_of m ρ c main_v250 (by decide),
    W18_of m ρ c main_v250 (by decide),
    W17_of m ρ c main_v250 (by decide),
    W16_of m ρ c main_v250 (by decide),
    W15_of m ρ c main_v250 (by decide)]
  exact h250

theorem at17_arg11 (m : (ℓ : Loc nD τ sig) → Buf (Elt Ideal) ℓ) (ρ : Dev nD → PrngReg) (c : Dev nD) :
    W17 m ρ c (Proc.devRef .tc main_arg11) = m ((c : Thread nD τ).loc main_arg11) := by
  rw [W17_of m ρ c main_arg11 (by decide),
    W16_of m ρ c main_arg11 (by decide),
    W15_of m ρ c main_arg11 (by decide),
    W14_of m ρ c main_arg11 (by decide),
    W13_of m ρ c main_arg11 (by decide),
    W12_of m ρ c main_arg11 (by decide),
    W11_of m ρ c main_arg11 (by decide),
    W10_of m ρ c main_arg11 (by decide),
    W9_of m ρ c main_arg11 (by decide),
    W8_of m ρ c main_arg11 (by decide),
    W7_of m ρ c main_arg11 (by decide),
    W6_of m ρ c main_arg11 (by decide),
    W5_of m ρ c main_arg11 (by decide),
    W4_of m ρ c main_arg11 (by decide),
    W3_of m ρ c main_arg11 (by decide),
    W2_of m ρ c main_arg11 (by decide),
    W1_of m ρ c main_arg11 (by decide)] <;> rfl

theorem at19_v355 (m : (ℓ : Loc nD τ sig) → Buf (Elt Ideal) ℓ) (ρ : Dev nD → PrngReg) (c : Dev nD) :
    W19 m ρ c (Proc.devRef .tc main_v355) = kT128 (wAt20 (m ((c : Thread nD τ).loc main_arg11))) := by
  rw [show W19 m ρ c (Proc.devRef .tc main_v355) = kT128 (wAt20 (W17 m ρ c (Proc.devRef .tc main_arg11))) from glue6_v355 (W17 m ρ c),
    at17_arg11 m ρ c]

theorem at17_arg12 (m : (ℓ : Loc nD τ sig) → Buf (Elt Ideal) ℓ) (ρ : Dev nD → PrngReg) (c : Dev nD) :
    W17 m ρ c (Proc.devRef .tc main_arg12) = m ((c : Thread nD τ).loc main_arg12) := by
  rw [W17_of m ρ c main_arg12 (by decide),
    W16_of m ρ c main_arg12 (by decide),
    W15_of m ρ c main_arg12 (by decide),
    W14_of m ρ c main_arg12 (by decide),
    W13_of m ρ c main_arg12 (by decide),
    W12_of m ρ c main_arg12 (by decide),
    W11_of m ρ c main_arg12 (by decide),
    W10_of m ρ c main_arg12 (by decide),
    W9_of m ρ c main_arg12 (by decide),
    W8_of m ρ c main_arg12 (by decide),
    W7_of m ρ c main_arg12 (by decide),
    W6_of m ρ c main_arg12 (by decide),
    W5_of m ρ c main_arg12 (by decide),
    W4_of m ρ c main_arg12 (by decide),
    W3_of m ρ c main_arg12 (by decide),
    W2_of m ρ c main_arg12 (by decide),
    W1_of m ρ c main_arg12 (by decide)] <;> rfl

theorem at19_v362 (m : (ℓ : Loc nD τ sig) → Buf (Elt Ideal) ℓ) (ρ : Dev nD → PrngReg) (c : Dev nD) :
    W19 m ρ c (Proc.devRef .tc main_v362) = kRow128 (bAt20 (m ((c : Thread nD τ).loc main_arg12))) := by
  rw [show W19 m ρ c (Proc.devRef .tc main_v362) = kRow128 (bAt20 (W17 m ρ c (Proc.devRef .tc main_arg12))) from glue6_v362 (W17 m ρ c),
    at17_arg12 m ρ c]

theorem at17_arg13 (m : (ℓ : Loc nD τ sig) → Buf (Elt Ideal) ℓ) (ρ : Dev nD → PrngReg) (c : Dev nD) :
    W17 m ρ c (Proc.devRef .tc main_arg13) = m ((c : Thread nD τ).loc main_arg13) := by
  rw [W17_of m ρ c main_arg13 (by decide),
    W16_of m ρ c main_arg13 (by decide),
    W15_of m ρ c main_arg13 (by decide),
    W14_of m ρ c main_arg13 (by decide),
    W13_of m ρ c main_arg13 (by decide),
    W12_of m ρ c main_arg13 (by decide),
    W11_of m ρ c main_arg13 (by decide),
    W10_of m ρ c main_arg13 (by decide),
    W9_of m ρ c main_arg13 (by decide),
    W8_of m ρ c main_arg13 (by decide),
    W7_of m ρ c main_arg13 (by decide),
    W6_of m ρ c main_arg13 (by decide),
    W5_of m ρ c main_arg13 (by decide),
    W4_of m ρ c main_arg13 (by decide),
    W3_of m ρ c main_arg13 (by decide),
    W2_of m ρ c main_arg13 (by decide),
    W1_of m ρ c main_arg13 (by decide)] <;> rfl

theorem at19_v357 (m : (ℓ : Loc nD τ sig) → Buf (Elt Ideal) ℓ) (ρ : Dev nD → PrngReg) (c : Dev nD) :
    W19 m ρ c (Proc.devRef .tc main_v357) = kT128 (wAt20 (m ((c : Thread nD τ).loc main_arg13))) := by
  rw [show W19 m ρ c (Proc.devRef .tc main_v357) = kT128 (wAt20 (W17 m ρ c (Proc.devRef .tc main_arg13))) from glue6_v357 (W17 m ρ c),
    at17_arg13 m ρ c]

theorem at19_v359 (m : (ℓ : Loc nD τ sig) → Buf (Elt Ideal) ℓ) (ρ : Dev nD → PrngReg) (c : Dev nD) :
    W19 m ρ c (Proc.devRef .tc main_v359) = kT128 (wAt23 (m ((c : Thread nD τ).loc main_arg11))) := by
  rw [show W19 m ρ c (Proc.devRef .tc main_v359) = kT128 (wAt23 (W17 m ρ c (Proc.devRef .tc main_arg11))) from glue6_v359 (W17 m ρ c),
    at17_arg11 m ρ c]

theorem at19_v363 (m : (ℓ : Loc nD τ sig) → Buf (Elt Ideal) ℓ) (ρ : Dev nD → PrngReg) (c : Dev nD) :
    W19 m ρ c (Proc.devRef .tc main_v363) = kRow128 (bAt23 (m ((c : Thread nD τ).loc main_arg12))) := by
  rw [show W19 m ρ c (Proc.devRef .tc main_v363) = kRow128 (bAt23 (W17 m ρ c (Proc.devRef .tc main_arg12))) from glue6_v363 (W17 m ρ c),
    at17_arg12 m ρ c]

theorem at19_v361 (m : (ℓ : Loc nD τ sig) → Buf (Elt Ideal) ℓ) (ρ : Dev nD → PrngReg) (c : Dev nD) :
    W19 m ρ c (Proc.devRef .tc main_v361) = kT128 (wAt23 (m ((c : Thread nD τ).loc main_arg13))) := by
  rw [show W19 m ρ c (Proc.devRef .tc main_v361) = kT128 (wAt23 (W17 m ρ c (Proc.devRef .tc main_arg13))) from glue6_v361 (W17 m ρ c),
    at17_arg13 m ρ c]

theorem at17_arg25 (m : (ℓ : Loc nD τ sig) → Buf (Elt Ideal) ℓ) (ρ : Dev nD → PrngReg) (c : Dev nD) :
    W17 m ρ c (Proc.devRef .tc main_arg25) = m ((c : Thread nD τ).loc main_arg25) := by
  rw [W17_of m ρ c main_arg25 (by decide),
    W16_of m ρ c main_arg25 (by decide),
    W15_of m ρ c main_arg25 (by decide),
    W14_of m ρ c main_arg25 (by decide),
    W13_of m ρ c main_arg25 (by decide),
    W12_of m ρ c main_arg25 (by decide),
    W11_of m ρ c main_arg25 (by decide),
    W10_of m ρ c main_arg25 (by decide),
    W9_of m ρ c main_arg25 (by decide),
    W8_of m ρ c main_arg25 (by decide),
    W7_of m ρ c main_arg25 (by decide),
    W6_of m ρ c main_arg25 (by decide),
    W5_of m ρ c main_arg25 (by decide),
    W4_of m ρ c main_arg25 (by decide),
    W3_of m ρ c main_arg25 (by decide),
    W2_of m ρ c main_arg25 (by decide),
    W1_of m ρ c main_arg25 (by decide)] <;> rfl

theorem at17_v27 (m : (ℓ : Loc nD τ sig) → Buf (Elt Ideal) ℓ) (ρ : Dev nD → PrngReg) (c : Dev nD) :
    W17 m ρ c (Proc.devRef .tc main_v27) = Cert.Stages.degF (m ((c : Thread nD τ).loc main_arg25)) := by
  rw [W17_of m ρ c main_v27 (by decide),
    W16_of m ρ c main_v27 (by decide),
    W15_of m ρ c main_v27 (by decide),
    W14_of m ρ c main_v27 (by decide),
    W13_of m ρ c main_v27 (by decide),
    W12_of m ρ c main_v27 (by decide),
    W11_of m ρ c main_v27 (by decide),
    W10_of m ρ c main_v27 (by decide),
    W9_of m ρ c main_v27 (by decide),
    W8_of m ρ c main_v27 (by decide),
    show W7 m ρ c (Proc.devRef .tc main_v27) = kDeg (W4 m ρ c (Proc.devRef .tc main_arg25)) from glue2_v27 (W4 m ρ c),
    at4_arg25 m ρ c,
    kDeg_eq]

theorem at22_v307 (m : (ℓ : Loc nD τ sig) → Buf (Elt Ideal) ℓ) (ρ : Dev nD → PrngReg) (c : Dev nD)
    (x273 : Arr Ideal S50000x128 .f32) (h273 : W17 m ρ c (Proc.devRef .tc main_v273) = x273) :
    W22 m ρ c (Proc.devRef .tc main_v307) = aggMean x273 (m ((c : Thread nD τ).loc main_arg25)) (Cert.Stages.degF (m ((c : Thread nD τ).loc main_arg25))) := by
  rw [W22_of m ρ c main_v307 (by decide),
    W21_of m ρ c main_v307 (by decide),
    W20_of m ρ c main_v307 (by decide),
    show W19 m ρ c (Proc.devRef .tc main_v307) = aggMean (W17 m ρ c (Proc.devRef .tc main_v273)) (W17 m ρ c (Proc.devRef .tc main_arg25)) (W17 m ρ c (Proc.devRef .tc main_v27)) from glue6_v307 (W17 m ρ c),
    at17_v273 m ρ c x273 h273,
    at17_arg25 m ρ c,
    at17_v27 m ρ c]

theorem at17_arg26 (m : (ℓ : Loc nD τ sig) → Buf (Elt Ideal) ℓ) (ρ : Dev nD → PrngReg) (c : Dev nD) :
    W17 m ρ c (Proc.devRef .tc main_arg26) = m ((c : Thread nD τ).loc main_arg26) := by
  rw [W17_of m ρ c main_arg26 (by decide),
    W16_of m ρ c main_arg26 (by decide),
    W15_of m ρ c main_arg26 (by decide),
    W14_of m ρ c main_arg26 (by decide),
    W13_of m ρ c main_arg26 (by decide),
    W12_of m ρ c main_arg26 (by decide),
    W11_of m ρ c main_arg26 (by decide),
    W10_of m ρ c main_arg26 (by decide),
    W9_of m ρ c main_arg26 (by decide),
    W8_of m ρ c main_arg26 (by decide),
    W7_of m ρ c main_arg26 (by decide),
    W6_of m ρ c main_arg26 (by decide),
    W5_of m ρ c main_arg26 (by decide),
    W4_of m ρ c main_arg26 (by decide),
    W3_of m ρ c main_arg26 (by decide),
    W2_of m ρ c main_arg26 (by decide),
    W1_of m ρ c main_arg26 (by decide)] <;> rfl

theorem at17_v36 (m : (ℓ : Loc nD τ sig) → Buf (Elt Ideal) ℓ) (ρ : Dev nD → PrngReg) (c : Dev nD) :
    W17 m ρ c (Proc.devRef .tc main_v36) = Cert.Stages.degF (m ((c : Thread nD τ).loc main_arg26)) := by
  rw [W17_of m ρ c main_v36 (by decide),
    W16_of m ρ c main_v36 (by decide),
    W15_of m ρ c main_v36 (by decide),
    W14_of m ρ c main_v36 (by decide),
    W13_of m ρ c main_v36 (by decide),
    W12_of m ρ c main_v36 (by decide),
    W11_of m ρ c main_v36 (by decide),
    W10_of m ρ c main_v36 (by decide),
    W9_of m ρ c main_v36 (by decide),
    W8_of m ρ c main_v36 (by decide),
    show W7 m ρ c (Proc.devRef .tc main_v36) = kDeg (W4 m ρ c (Proc.devRef .tc main_arg26)) from glue2_v36 (W4 m ρ c),
    at4_arg26 m ρ c,
    kDeg_eq]

theorem at22_v324 (m : (ℓ : Loc nD τ sig) → Buf (Elt Ideal) ℓ) (ρ : Dev nD → PrngReg) (c : Dev nD)
    (x250 : Arr Ideal S50000x128 .f32) (h250 : W14 m ρ c (Proc.devRef .tc main_v250) = x250) :
    W22 m ρ c (Proc.devRef .tc main_v324) = aggMean x250 (m ((c : Thread nD τ).loc main_arg26)) (Cert.Stages.degF (m ((c : Thread nD τ).loc main_arg26))) := by
  rw [W22_of m ρ c main_v324 (by decide),
    W21_of m ρ c main_v324 (by decide),
    W20_of m ρ c main_v324 (by decide),
    show W19 m ρ c (Proc.devRef .tc main_v324) = aggMean (W17 m ρ c (Proc.devRef .tc main_v250)) (W17 m ρ c (Proc.devRef .tc main_arg26)) (W17 m ρ c (Proc.devRef .tc main_v36)) from glue6_v324 (W17 m ρ c),
    at17_v250 m ρ c x250 h250,
    at17_arg26 m ρ c,
    at17_v36 m ρ c]

theorem at22_v273 (m : (ℓ : Loc nD τ sig) → Buf (Elt Ideal) ℓ) (ρ : Dev nD → PrngReg) (c : Dev nD)
    (x273 : Arr Ideal S50000x128 .f32) (h273 : W17 m ρ c (Proc.devRef .tc main_v273) = x273) :
    W22 m ρ c (Proc.devRef .tc main_v273) = x273 := by
  rw [W22_of m ρ c main_v273 (by decide),
    W21_of m ρ c main_v273 (by decide),
    W20_of m ρ c main_v273 (by decide),
    W19_of m ρ c main_v273 (by decide),
    W18_of m ρ c main_v273 (by decide)]
  exact h273

theorem at20_arg11 (m : (ℓ : Loc nD τ sig) → Buf (Elt Ideal) ℓ) (ρ : Dev nD → PrngReg) (c : Dev nD) :
    W20 m ρ c (Proc.devRef .tc main_arg11) = m ((c : Thread nD τ).loc main_arg11) := by
  rw [W20_of m ρ c main_arg11 (by decide),
    W19_of m ρ c main_arg11 (by decide),
    W18_of m ρ c main_arg11 (by decide),
    W17_of m ρ c main_arg11 (by decide),
    W16_of m ρ c main_arg11 (by decide),
    W15_of m ρ c main_arg11 (by decide),
    W14_of m ρ c main_arg11 (by decide),
    W13_of m ρ c main_arg11 (by decide),
    W12_of m ρ c main_arg11 (by decide),
    W11_of m ρ c main_arg11 (by decide),
    W10_of m ρ c main_arg11 (by decide),
    W9_of m ρ c main_arg11 (by decide),
    W8_of m ρ c main_arg11 (by decide),
    W7_of m ρ c main_arg11 (by decide),
    W6_of m ρ c main_arg11 (by decide),
    W5_of m ρ c main_arg11 (by decide),
    W4_of m ρ c main_arg11 (by decide),
    W3_of m ρ c main_arg11 (by decide),
    W2_of m ρ c main_arg11 (by decide),
    W1_of m ρ c main_arg11 (by decide)] <;> rfl

theorem at22_v378 (m : (ℓ : Loc nD τ sig) → Buf (Elt Ideal) ℓ) (ρ : Dev nD → PrngReg) (c : Dev nD) :
    W22 m ρ c (Proc.devRef .tc main_v378) = kT128 (wAt21 (m ((c : Thread nD τ).loc main_arg11))) := by
  rw [show W22 m ρ c (Proc.devRef .tc main_v378) = kT128 (wAt21 (W20 m ρ c (Proc.devRef .tc main_arg11))) from glue7_v378 (W20 m ρ c),
    at20_arg11 m ρ c]

theorem at20_arg12 (m : (ℓ : Loc nD τ sig) → Buf (Elt Ideal) ℓ) (ρ : Dev nD → PrngReg) (c : Dev nD) :
    W20 m ρ c (Proc.devRef .tc main_arg12) = m ((c : Thread nD τ).loc main_arg12) := by
  rw [W20_of m ρ c main_arg12 (by decide),
    W19_of m ρ c main_arg12 (by decide),
    W18_of m ρ c main_arg12 (by decide),
    W17_of m ρ c main_arg12 (by decide),
    W16_of m ρ c main_arg12 (by decide),
    W15_of m ρ c main_arg12 (by decide),
    W14_of m ρ c main_arg12 (by decide),
    W13_of m ρ c main_arg12 (by decide),
    W12_of m ρ c main_arg12 (by decide),
    W11_of m ρ c main_arg12 (by decide),
    W10_of m ρ c main_arg12 (by decide),
    W9_of m ρ c main_arg12 (by decide),
    W8_of m ρ c main_arg12 (by decide),
    W7_of m ρ c main_arg12 (by decide),
    W6_of m ρ c main_arg12 (by decide),
    W5_of m ρ c main_arg12 (by decide),
    W4_of m ρ c main_arg12 (by decide),
    W3_of m ρ c main_arg12 (by decide),
    W2_of m ρ c main_arg12 (by decide),
    W1_of m ρ c main_arg12 (by decide)] <;> rfl

theorem at22_v385 (m : (ℓ : Loc nD τ sig) → Buf (Elt Ideal) ℓ) (ρ : Dev nD → PrngReg) (c : Dev nD) :
    W22 m ρ c (Proc.devRef .tc main_v385) = kRow128 (bAt21 (m ((c : Thread nD τ).loc main_arg12))) := by
  rw [show W22 m ρ c (Proc.devRef .tc main_v385) = kRow128 (bAt21 (W20 m ρ c (Proc.devRef .tc main_arg12))) from glue7_v385 (W20 m ρ c),
    at20_arg12 m ρ c]

theorem at20_arg13 (m : (ℓ : Loc nD τ sig) → Buf (Elt Ideal) ℓ) (ρ : Dev nD → PrngReg) (c : Dev nD) :
    W20 m ρ c (Proc.devRef .tc main_arg13) = m ((c : Thread nD τ).loc main_arg13) := by
  rw [W20_of m ρ c main_arg13 (by decide),
    W19_of m ρ c main_arg13 (by decide),
    W18_of m ρ c main_arg13 (by decide),
    W17_of m ρ c main_arg13 (by decide),
    W16_of m ρ c main_arg13 (by decide),
    W15_of m ρ c main_arg13 (by decide),
    W14_of m ρ c main_arg13 (by decide),
    W13_of m ρ c main_arg13 (by decide),
    W12_of m ρ c main_arg13 (by decide),
    W11_of m ρ c main_arg13 (by decide),
    W10_of m ρ c main_arg13 (by decide),
    W9_of m ρ c main_arg13 (by decide),
    W8_of m ρ c main_arg13 (by decide),
    W7_of m ρ c main_arg13 (by decide),
    W6_of m ρ c main_arg13 (by decide),
    W5_of m ρ c main_arg13 (by decide),
    W4_of m ρ c main_arg13 (by decide),
    W3_of m ρ c main_arg13 (by decide),
    W2_of m ρ c main_arg13 (by decide),
    W1_of m ρ c main_arg13 (by decide)] <;> rfl

theorem at22_v380 (m : (ℓ : Loc nD τ sig) → Buf (Elt Ideal) ℓ) (ρ : Dev nD → PrngReg) (c : Dev nD) :
    W22 m ρ c (Proc.devRef .tc main_v380) = kT128 (wAt21 (m ((c : Thread nD τ).loc main_arg13))) := by
  rw [show W22 m ρ c (Proc.devRef .tc main_v380) = kT128 (wAt21 (W20 m ρ c (Proc.devRef .tc main_arg13))) from glue7_v380 (W20 m ρ c),
    at20_arg13 m ρ c]

theorem at22_v382 (m : (ℓ : Loc nD τ sig) → Buf (Elt Ideal) ℓ) (ρ : Dev nD → PrngReg) (c : Dev nD) :
    W22 m ρ c (Proc.devRef .tc main_v382) = kT128 (wAt22 (m ((c : Thread nD τ).loc main_arg11))) := by
  rw [show W22 m ρ c (Proc.devRef .tc main_v382) = kT128 (wAt22 (W20 m ρ c (Proc.devRef .tc main_arg11))) from glue7_v382 (W20 m ρ c),
    at20_arg11 m ρ c]

theorem at22_v386 (m : (ℓ : Loc nD τ sig) → Buf (Elt Ideal) ℓ) (ρ : Dev nD → PrngReg) (c : Dev nD) :
    W22 m ρ c (Proc.devRef .tc main_v386) = kRow128 (bAt22 (m ((c : Thread nD τ).loc main_arg12))) := by
  rw [show W22 m ρ c (Proc.devRef .tc main_v386) = kRow128 (bAt22 (W20 m ρ c (Proc.devRef .tc main_arg12))) from glue7_v386 (W20 m ρ c),
    at20_arg12 m ρ c]

theorem at22_v384 (m : (ℓ : Loc nD τ sig) → Buf (Elt Ideal) ℓ) (ρ : Dev nD → PrngReg) (c : Dev nD) :
    W22 m ρ c (Proc.devRef .tc main_v384) = kT128 (wAt22 (m ((c : Thread nD τ).loc main_arg13))) := by
  rw [show W22 m ρ c (Proc.devRef .tc main_v384) = kT128 (wAt22 (W20 m ρ c (Proc.devRef .tc main_arg13))) from glue7_v384 (W20 m ρ c),
    at20_arg13 m ρ c]

theorem at23_v364 (m : (ℓ : Loc nD τ sig) → Buf (Elt Ideal) ℓ) (ρ : Dev nD → PrngReg) (c : Dev nD)
    (x364 : Arr Ideal S50000x128 .f32) (h364 : W20 m ρ c (Proc.devRef .tc main_v364) = x364) :
    W23 m ρ c (Proc.devRef .tc main_v364) = x364 := by
  rw [W23_of m ρ c main_v364 (by decide),
    W22_of m ρ c main_v364 (by decide),
    W21_of m ρ c main_v364 (by decide)]
  exact h364

theorem at23_arg26 (m : (ℓ : Loc nD τ sig) → Buf (Elt Ideal) ℓ) (ρ : Dev nD → PrngReg) (c : Dev nD) :
    W23 m ρ c (Proc.devRef .tc main_arg26) = m ((c : Thread nD τ).loc main_arg26) := by
  rw [W23_of m ρ c main_arg26 (by decide),
    W22_of m ρ c main_arg26 (by decide),
    W21_of m ρ c main_arg26 (by decide),
    W20_of m ρ c main_arg26 (by decide),
    W19_of m ρ c main_arg26 (by decide),
    W18_of m ρ c main_arg26 (by decide),
    W17_of m ρ c main_arg26 (by decide),
    W16_of m ρ c main_arg26 (by decide),
    W15_of m ρ c main_arg26 (by decide),
    W14_of m ρ c main_arg26 (by decide),
    W13_of m ρ c main_arg26 (by decide),
    W12_of m ρ c main_arg26 (by decide),
    W11_of m ρ c main_arg26 (by decide),
    W10_of m ρ c main_arg26 (by decide),
    W9_of m ρ c main_arg26 (by decide),
    W8_of m ρ c main_arg26 (by decide),
    W7_of m ρ c main_arg26 (by decide),
    W6_of m ρ c main_arg26 (by decide),
    W5_of m ρ c main_arg26 (by decide),
    W4_of m ρ c main_arg26 (by decide),
    W3_of m ρ c main_arg26 (by decide),
    W2_of m ρ c main_arg26 (by decide),
    W1_of m ρ c main_arg26 (by decide)] <;> rfl

theorem at25_v398 (m : (ℓ : Loc nD τ sig) → Buf (Elt Ideal) ℓ) (ρ : Dev nD → PrngReg) (c : Dev nD)
    (x364 : Arr Ideal S50000x128 .f32) (h364 : W20 m ρ c (Proc.devRef .tc main_v364) = x364) :
    W25 m ρ c (Proc.devRef .tc main_v398) = srcRows x364 (eiRow0 (m ((c : Thread nD τ).loc main_arg26))) := by
  rw [show W25 m ρ c (Proc.devRef .tc main_v398) = srcRows (W23 m ρ c (Proc.devRef .tc main_v364)) (eiRow0 (W23 m ρ c (Proc.devRef .tc main_arg26))) from glue8_v398 (W23 m ρ c),
    at23_v364 m ρ c x364 h364,
    at23_arg26 m ρ c]

theorem at23_v387 (m : (ℓ : Loc nD τ sig) → Buf (Elt Ideal) ℓ) (ρ : Dev nD → PrngReg) (c : Dev nD)
    (x387 : Arr Ideal S50000x128 .f32) (h387 : W23 m ρ c (Proc.devRef .tc main_v387) = x387) :
    W23 m ρ c (Proc.devRef .tc main_v387) = x387 := by
  exact h387

theorem at25_v405 (m : (ℓ : Loc nD τ sig) → Buf (Elt Ideal) ℓ) (ρ : Dev nD → PrngReg) (c : Dev nD)
    (x387 : Arr Ideal S50000x128 .f32) (h387 : W23 m ρ c (Proc.devRef .tc main_v387) = x387) :
    W25 m ρ c (Proc.devRef .tc main_v405) = srcRows x387 (eiRow1 (m ((c : Thread nD τ).loc main_arg26))) := by
  rw [show W25 m ρ c (Proc.devRef .tc main_v405) = srcRows (W23 m ρ c (Proc.devRef .tc main_v387)) (eiRow1 (W23 m ρ c (Proc.devRef .tc main_arg26))) from glue8_v405 (W23 m ρ c),
    at23_v387 m ρ c x387 h387,
    at23_arg26 m ρ c]

theorem at25_arg2 (m : (ℓ : Loc nD τ sig) → Buf (Elt Ideal) ℓ) (ρ : Dev nD → PrngReg) (c : Dev nD) :
    W25 m ρ c (Proc.devRef .tc main_arg2) = m ((c : Thread nD τ).loc main_arg2) := by
  rw [W25_of m ρ c main_arg2 (by decide),
    W24_of m ρ c main_arg2 (by decide),
    W23_of m ρ c main_arg2 (by decide),
    W22_of m ρ c main_arg2 (by decide),
    W21_of m ρ c main_arg2 (by decide),
    W20_of m ρ c main_arg2 (by decide),
    W19_of m ρ c main_arg2 (by decide),
    W18_of m ρ c main_arg2 (by decide),
    W17_of m ρ c main_arg2 (by decide),
    W16_of m ρ c main_arg2 (by decide),
    W15_of m ρ c main_arg2 (by decide),
    W14_of m ρ c main_arg2 (by decide),
    W13_of m ρ c main_arg2 (by decide),
    W12_of m ρ c main_arg2 (by decide),
    W11_of m ρ c main_arg2 (by decide),
    W10_of m ρ c main_arg2 (by decide),
    W9_of m ρ c main_arg2 (by decide),
    W8_of m ρ c main_arg2 (by decide),
    W7_of m ρ c main_arg2 (by decide),
    W6_of m ρ c main_arg2 (by decide),
    W5_of m ρ c main_arg2 (by decide),
    W4_of m ρ c main_arg2 (by decide),
    W3_of m ρ c main_arg2 (by decide),
    W2_of m ρ c main_arg2 (by decide),
    W1_of m ρ c main_arg2 (by decide)] <;> rfl

theorem at23_arg14 (m : (ℓ : Loc nD τ sig) → Buf (Elt Ideal) ℓ) (ρ : Dev nD → PrngReg) (c : Dev nD) :
    W23 m ρ c (Proc.devRef .tc main_arg14) = m ((c : Thread nD τ).loc main_arg14) := by
  rw [W23_of m ρ c main_arg14 (by decide),
    W22_of m ρ c main_arg14 (by decide),
    W21_of m ρ c main_arg14 (by decide),
    W20_of m ρ c main_arg14 (by decide),
    W19_of m ρ c main_arg14 (by decide),
    W18_of m ρ c main_arg14 (by decide),
    W17_of m ρ c main_arg14 (by decide),
    W16_of m ρ c main_arg14 (by decide),
    W15_of m ρ c main_arg14 (by decide),
    W14_of m ρ c main_arg14 (by decide),
    W13_of m ρ c main_arg14 (by decide),
    W12_of m ρ c main_arg14 (by decide),
    W11_of m ρ c main_arg14 (by decide),
    W10_of m ρ c main_arg14 (by decide),
    W9_of m ρ c main_arg14 (by decide),
    W8_of m ρ c main_arg14 (by decide),
    W7_of m ρ c main_arg14 (by decide),
    W6_of m ρ c main_arg14 (by decide),
    W5_of m ρ c main_arg14 (by decide),
    W4_of m ρ c main_arg14 (by decide),
    W3_of m ρ c main_arg14 (by decide),
    W2_of m ρ c main_arg14 (by decide),
    W1_of m ρ c main_arg14 (by decide)] <;> rfl

theorem at25_v411 (m : (ℓ : Loc nD τ sig) → Buf (Elt Ideal) ℓ) (ρ : Dev nD → PrngReg) (c : Dev nD) :
    W25 m ρ c (Proc.devRef .tc main_v411) = kGateW1a (m ((c : Thread nD τ).loc main_arg14)) := by
  rw [show W25 m ρ c (Proc.devRef .tc main_v411) = kGateW1a (W23 m ρ c (Proc.devRef .tc main_arg14)) from glue8_v411 (W23 m ρ c),
    at23_arg14 m ρ c]

theorem at25_v413 (m : (ℓ : Loc nD τ sig) → Buf (Elt Ideal) ℓ) (ρ : Dev nD → PrngReg) (c : Dev nD) :
    W25 m ρ c (Proc.devRef .tc main_v413) = kGateW1b (m ((c : Thread nD τ).loc main_arg14)) := by
  rw [show W25 m ρ c (Proc.devRef .tc main_v413) = kGateW1b (W23 m ρ c (Proc.devRef .tc main_arg14)) from glue8_v413 (W23 m ρ c),
    at23_arg14 m ρ c]

theorem at23_arg15 (m : (ℓ : Loc nD τ sig) → Buf (Elt Ideal) ℓ) (ρ : Dev nD → PrngReg) (c : Dev nD) :
    W23 m ρ c (Proc.devRef .tc main_arg15) = m ((c : Thread nD τ).loc main_arg15) := by
  rw [W23_of m ρ c main_arg15 (by decide),
    W22_of m ρ c main_arg15 (by decide),
    W21_of m ρ c main_arg15 (by decide),
    W20_of m ρ c main_arg15 (by decide),
    W19_of m ρ c main_arg15 (by decide),
    W18_of m ρ c main_arg15 (by decide),
    W17_of m ρ c main_arg15 (by decide),
    W16_of m ρ c main_arg15 (by decide),
    W15_of m ρ c main_arg15 (by decide),
    W14_of m ρ c main_arg15 (by decide),
    W13_of m ρ c main_arg15 (by decide),
    W12_of m ρ c main_arg15 (by decide),
    W11_of m ρ c main_arg15 (by decide),
    W10_of m ρ c main_arg15 (by decide),
    W9_of m ρ c main_arg15 (by decide),
    W8_of m ρ c main_arg15 (by decide),
    W7_of m ρ c main_arg15 (by decide),
    W6_of m ρ c main_arg15 (by decide),
    W5_of m ρ c main_arg15 (by decide),
    W4_of m ρ c main_arg15 (by decide),
    W3_of m ρ c main_arg15 (by decide),
    W2_of m ρ c main_arg15 (by decide),
    W1_of m ρ c main_arg15 (by decide)] <;> rfl

theorem at25_v424 (m : (ℓ : Loc nD τ sig) → Buf (Elt Ideal) ℓ) (ρ : Dev nD → PrngReg) (c : Dev nD) :
    W25 m ρ c (Proc.devRef .tc main_v424) = kRow128 (m ((c : Thread nD τ).loc main_arg15)) := by
  rw [show W25 m ρ c (Proc.devRef .tc main_v424) = kRow128 (W23 m ρ c (Proc.devRef .tc main_arg15)) from glue8_v424 (W23 m ρ c),
    at23_arg15 m ρ c]

theorem at23_arg16 (m : (ℓ : Loc nD τ sig) → Buf (Elt Ideal) ℓ) (ρ : Dev nD → PrngReg) (c : Dev nD) :
    W23 m ρ c (Proc.devRef .tc main_arg16) = m ((c : Thread nD τ).loc main_arg16) := by
  rw [W23_of m ρ c main_arg16 (by decide),
    W22_of m ρ c main_arg16 (by decide),
    W21_of m ρ c main_arg16 (by decide),
    W20_of m ρ c main_arg16 (by decide),
    W19_of m ρ c main_arg16 (by decide),
    W18_of m ρ c main_arg16 (by decide),
    W17_of m ρ c main_arg16 (by decide),
    W16_of m ρ c main_arg16 (by decide),
    W15_of m ρ c main_arg16 (by decide),
    W14_of m ρ c main_arg16 (by decide),
    W13_of m ρ c main_arg16 (by decide),
    W12_of m ρ c main_arg16 (by decide),
    W11_of m ρ c main_arg16 (by decide),
    W10_of m ρ c main_arg16 (by decide),
    W9_of m ρ c main_arg16 (by decide),
    W8_of m ρ c main_arg16 (by decide),
    W7_of m ρ c main_arg16 (by decide),
    W6_of m ρ c main_arg16 (by decide),
    W5_of m ρ c main_arg16 (by decide),
    W4_of m ρ c main_arg16 (by decide),
    W3_of m ρ c main_arg16 (by decide),
    W2_of m ρ c main_arg16 (by decide),
    W1_of m ρ c main_arg16 (by decide)] <;> rfl

theorem at25_v415 (m : (ℓ : Loc nD τ sig) → Buf (Elt Ideal) ℓ) (ρ : Dev nD → PrngReg) (c : Dev nD) :
    W25 m ρ c (Proc.devRef .tc main_v415) = kGateW2 (m ((c : Thread nD τ).loc main_arg16)) := by
  rw [show W25 m ρ c (Proc.devRef .tc main_v415) = kGateW2 (W23 m ρ c (Proc.devRef .tc main_arg16)) from glue8_v415 (W23 m ρ c),
    at23_arg16 m ρ c]

theorem at23_arg17 (m : (ℓ : Loc nD τ sig) → Buf (Elt Ideal) ℓ) (ρ : Dev nD → PrngReg) (c : Dev nD) :
    W23 m ρ c (Proc.devRef .tc main_arg17) = m ((c : Thread nD τ).loc main_arg17) := by
  rw [W23_of m ρ c main_arg17 (by decide),
    W22_of m ρ c main_arg17 (by decide),
    W21_of m ρ c main_arg17 (by decide),
    W20_of m ρ c main_arg17 (by decide),
    W19_of m ρ c main_arg17 (by decide),
    W18_of m ρ c main_arg17 (by decide),
    W17_of m ρ c main_arg17 (by decide),
    W16_of m ρ c main_arg17 (by decide),
    W15_of m ρ c main_arg17 (by decide),
    W14_of m ρ c main_arg17 (by decide),
    W13_of m ρ c main_arg17 (by decide),
    W12_of m ρ c main_arg17 (by decide),
    W11_of m ρ c main_arg17 (by decide),
    W10_of m ρ c main_arg17 (by decide),
    W9_of m ρ c main_arg17 (by decide),
    W8_of m ρ c main_arg17 (by decide),
    W7_of m ρ c main_arg17 (by decide),
    W6_of m ρ c main_arg17 (by decide),
    W5_of m ρ c main_arg17 (by decide),
    W4_of m ρ c main_arg17 (by decide),
    W3_of m ρ c main_arg17 (by decide),
    W2_of m ρ c main_arg17 (by decide),
    W1_of m ρ c main_arg17 (by decide)] <;> rfl

theorem at25_v425 (m : (ℓ : Loc nD τ sig) → Buf (Elt Ideal) ℓ) (ρ : Dev nD → PrngReg) (c : Dev nD) :
    W25 m ρ c (Proc.devRef .tc main_v425) = kRow1 (m ((c : Thread nD τ).loc main_arg17)) := by
  rw [show W25 m ρ c (Proc.devRef .tc main_v425) = kRow1 (W23 m ρ c (Proc.devRef .tc main_arg17)) from glue8_v425 (W23 m ρ c),
    at23_arg17 m ρ c]

theorem at23_arg18 (m : (ℓ : Loc nD τ sig) → Buf (Elt Ideal) ℓ) (ρ : Dev nD → PrngReg) (c : Dev nD) :
    W23 m ρ c (Proc.devRef .tc main_arg18) = m ((c : Thread nD τ).loc main_arg18) := by
  rw [W23_of m ρ c main_arg18 (by decide),
    W22_of m ρ c main_arg18 (by decide),
    W21_of m ρ c main_arg18 (by decide),
    W20_of m ρ c main_arg18 (by decide),
    W19_of m ρ c main_arg18 (by decide),
    W18_of m ρ c main_arg18 (by decide),
    W17_of m ρ c main_arg18 (by decide),
    W16_of m ρ c main_arg18 (by decide),
    W15_of m ρ c main_arg18 (by decide),
    W14_of m ρ c main_arg18 (by decide),
    W13_of m ρ c main_arg18 (by decide),
    W12_of m ρ c main_arg18 (by decide),
    W11_of m ρ c main_arg18 (by decide),
    W10_of m ρ c main_arg18 (by decide),
    W9_of m ρ c main_arg18 (by decide),
    W8_of m ρ c main_arg18 (by decide),
    W7_of m ρ c main_arg18 (by decide),
    W6_of m ρ c main_arg18 (by decide),
    W5_of m ρ c main_arg18 (by decide),
    W4_of m ρ c main_arg18 (by decide),
    W3_of m ρ c main_arg18 (by decide),
    W2_of m ρ c main_arg18 (by decide),
    W1_of m ρ c main_arg18 (by decide)] <;> rfl

theorem at25_v417 (m : (ℓ : Loc nD τ sig) → Buf (Elt Ideal) ℓ) (ρ : Dev nD → PrngReg) (c : Dev nD) :
    W25 m ρ c (Proc.devRef .tc main_v417) = kMlpW1a (m ((c : Thread nD τ).loc main_arg18)) := by
  rw [show W25 m ρ c (Proc.devRef .tc main_v417) = kMlpW1a (W23 m ρ c (Proc.devRef .tc main_arg18)) from glue8_v417 (W23 m ρ c),
    at23_arg18 m ρ c]

theorem at25_v419 (m : (ℓ : Loc nD τ sig) → Buf (Elt Ideal) ℓ) (ρ : Dev nD → PrngReg) (c : Dev nD) :
    W25 m ρ c (Proc.devRef .tc main_v419) = kMlpW1b (m ((c : Thread nD τ).loc main_arg18)) := by
  rw [show W25 m ρ c (Proc.devRef .tc main_v419) = kMlpW1b (W23 m ρ c (Proc.devRef .tc main_arg18)) from glue8_v419 (W23 m ρ c),
    at23_arg18 m ρ c]

theorem at23_arg19 (m : (ℓ : Loc nD τ sig) → Buf (Elt Ideal) ℓ) (ρ : Dev nD → PrngReg) (c : Dev nD) :
    W23 m ρ c (Proc.devRef .tc main_arg19) = m ((c : Thread nD τ).loc main_arg19) := by
  rw [W23_of m ρ c main_arg19 (by decide),
    W22_of m ρ c main_arg19 (by decide),
    W21_of m ρ c main_arg19 (by decide),
    W20_of m ρ c main_arg19 (by decide),
    W19_of m ρ c main_arg19 (by decide),
    W18_of m ρ c main_arg19 (by decide),
    W17_of m ρ c main_arg19 (by decide),
    W16_of m ρ c main_arg19 (by decide),
    W15_of m ρ c main_arg19 (by decide),
    W14_of m ρ c main_arg19 (by decide),
    W13_of m ρ c main_arg19 (by decide),
    W12_of m ρ c main_arg19 (by decide),
    W11_of m ρ c main_arg19 (by decide),
    W10_of m ρ c main_arg19 (by decide),
    W9_of m ρ c main_arg19 (by decide),
    W8_of m ρ c main_arg19 (by decide),
    W7_of m ρ c main_arg19 (by decide),
    W6_of m ρ c main_arg19 (by decide),
    W5_of m ρ c main_arg19 (by decide),
    W4_of m ρ c main_arg19 (by decide),
    W3_of m ρ c main_arg19 (by decide),
    W2_of m ρ c main_arg19 (by decide),
    W1_of m ρ c main_arg19 (by decide)] <;> rfl

theorem at25_v426 (m : (ℓ : Loc nD τ sig) → Buf (Elt Ideal) ℓ) (ρ : Dev nD → PrngReg) (c : Dev nD) :
    W25 m ρ c (Proc.devRef .tc main_v426) = kRow128 (m ((c : Thread nD τ).loc main_arg19)) := by
  rw [show W25 m ρ c (Proc.devRef .tc main_v426) = kRow128 (W23 m ρ c (Proc.devRef .tc main_arg19)) from glue8_v426 (W23 m ρ c),
    at23_arg19 m ρ c]

theorem at23_arg20 (m : (ℓ : Loc nD τ sig) → Buf (Elt Ideal) ℓ) (ρ : Dev nD → PrngReg) (c : Dev nD) :
    W23 m ρ c (Proc.devRef .tc main_arg20) = m ((c : Thread nD τ).loc main_arg20) := by
  rw [W23_of m ρ c main_arg20 (by decide),
    W22_of m ρ c main_arg20 (by decide),
    W21_of m ρ c main_arg20 (by decide),
    W20_of m ρ c main_arg20 (by decide),
    W19_of m ρ c main_arg20 (by decide),
    W18_of m ρ c main_arg20 (by decide),
    W17_of m ρ c main_arg20 (by decide),
    W16_of m ρ c main_arg20 (by decide),
    W15_of m ρ c main_arg20 (by decide),
    W14_of m ρ c main_arg20 (by decide),
    W13_of m ρ c main_arg20 (by decide),
    W12_of m ρ c main_arg20 (by decide),
    W11_of m ρ c main_arg20 (by decide),
    W10_of m ρ c main_arg20 (by decide),
    W9_of m ρ c main_arg20 (by decide),
    W8_of m ρ c main_arg20 (by decide),
    W7_of m ρ c main_arg20 (by decide),
    W6_of m ρ c main_arg20 (by decide),
    W5_of m ρ c main_arg20 (by decide),
    W4_of m ρ c main_arg20 (by decide),
    W3_of m ρ c main_arg20 (by decide),
    W2_of m ρ c main_arg20 (by decide),
    W1_of m ρ c main_arg20 (by decide)] <;> rfl

theorem at25_v421 (m : (ℓ : Loc nD τ sig) → Buf (Elt Ideal) ℓ) (ρ : Dev nD → PrngReg) (c : Dev nD) :
    W25 m ρ c (Proc.devRef .tc main_v421) = kMlpW2 (m ((c : Thread nD τ).loc main_arg20)) := by
  rw [show W25 m ρ c (Proc.devRef .tc main_v421) = kMlpW2 (W23 m ρ c (Proc.devRef .tc main_arg20)) from glue8_v421 (W23 m ρ c),
    at23_arg20 m ρ c]

theorem at23_arg21 (m : (ℓ : Loc nD τ sig) → Buf (Elt Ideal) ℓ) (ρ : Dev nD → PrngReg) (c : Dev nD) :
    W23 m ρ c (Proc.devRef .tc main_arg21) = m ((c : Thread nD τ).loc main_arg21) := by
  rw [W23_of m ρ c main_arg21 (by decide),
    W22_of m ρ c main_arg21 (by decide),
    W21_of m ρ c main_arg21 (by decide),
    W20_of m ρ c main_arg21 (by decide),
    W19_of m ρ c main_arg21 (by decide),
    W18_of m ρ c main_arg21 (by decide),
    W17_of m ρ c main_arg21 (by decide),
    W16_of m ρ c main_arg21 (by decide),
    W15_of m ρ c main_arg21 (by decide),
    W14_of m ρ c main_arg21 (by decide),
    W13_of m ρ c main_arg21 (by decide),
    W12_of m ρ c main_arg21 (by decide),
    W11_of m ρ c main_arg21 (by decide),
    W10_of m ρ c main_arg21 (by decide),
    W9_of m ρ c main_arg21 (by decide),
    W8_of m ρ c main_arg21 (by decide),
    W7_of m ρ c main_arg21 (by decide),
    W6_of m ρ c main_arg21 (by decide),
    W5_of m ρ c main_arg21 (by decide),
    W4_of m ρ c main_arg21 (by decide),
    W3_of m ρ c main_arg21 (by decide),
    W2_of m ρ c main_arg21 (by decide),
    W1_of m ρ c main_arg21 (by decide)] <;> rfl

theorem at25_v427 (m : (ℓ : Loc nD τ sig) → Buf (Elt Ideal) ℓ) (ρ : Dev nD → PrngReg) (c : Dev nD) :
    W25 m ρ c (Proc.devRef .tc main_v427) = kRow64 (m ((c : Thread nD τ).loc main_arg21)) := by
  rw [show W25 m ρ c (Proc.devRef .tc main_v427) = kRow64 (W23 m ρ c (Proc.devRef .tc main_arg21)) from glue8_v427 (W23 m ρ c),
    at23_arg21 m ρ c]

theorem at23_arg22 (m : (ℓ : Loc nD τ sig) → Buf (Elt Ideal) ℓ) (ρ : Dev nD → PrngReg) (c : Dev nD) :
    W23 m ρ c (Proc.devRef .tc main_arg22) = m ((c : Thread nD τ).loc main_arg22) := by
  rw [W23_of m ρ c main_arg22 (by decide),
    W22_of m ρ c main_arg22 (by decide),
    W21_of m ρ c main_arg22 (by decide),
    W20_of m ρ c main_arg22 (by decide),
    W19_of m ρ c main_arg22 (by decide),
    W18_of m ρ c main_arg22 (by decide),
    W17_of m ρ c main_arg22 (by decide),
    W16_of m ρ c main_arg22 (by decide),
    W15_of m ρ c main_arg22 (by decide),
    W14_of m ρ c main_arg22 (by decide),
    W13_of m ρ c main_arg22 (by decide),
    W12_of m ρ c main_arg22 (by decide),
    W11_of m ρ c main_arg22 (by decide),
    W10_of m ρ c main_arg22 (by decide),
    W9_of m ρ c main_arg22 (by decide),
    W8_of m ρ c main_arg22 (by decide),
    W7_of m ρ c main_arg22 (by decide),
    W6_of m ρ c main_arg22 (by decide),
    W5_of m ρ c main_arg22 (by decide),
    W4_of m ρ c main_arg22 (by decide),
    W3_of m ρ c main_arg22 (by decide),
    W2_of m ρ c main_arg22 (by decide),
    W1_of m ρ c main_arg22 (by decide)] <;> rfl

theorem at25_v423 (m : (ℓ : Loc nD τ sig) → Buf (Elt Ideal) ℓ) (ρ : Dev nD → PrngReg) (c : Dev nD) :
    W25 m ρ c (Proc.devRef .tc main_v423) = kMlpW3 (m ((c : Thread nD τ).loc main_arg22)) := by
  rw [show W25 m ρ c (Proc.devRef .tc main_v423) = kMlpW3 (W23 m ρ c (Proc.devRef .tc main_arg22)) from glue8_v423 (W23 m ρ c),
    at23_arg22 m ρ c]

theorem at23_arg23 (m : (ℓ : Loc nD τ sig) → Buf (Elt Ideal) ℓ) (ρ : Dev nD → PrngReg) (c : Dev nD) :
    W23 m ρ c (Proc.devRef .tc main_arg23) = m ((c : Thread nD τ).loc main_arg23) := by
  rw [W23_of m ρ c main_arg23 (by decide),
    W22_of m ρ c main_arg23 (by decide),
    W21_of m ρ c main_arg23 (by decide),
    W20_of m ρ c main_arg23 (by decide),
    W19_of m ρ c main_arg23 (by decide),
    W18_of m ρ c main_arg23 (by decide),
    W17_of m ρ c main_arg23 (by decide),
    W16_of m ρ c main_arg23 (by decide),
    W15_of m ρ c main_arg23 (by decide),
    W14_of m ρ c main_arg23 (by decide),
    W13_of m ρ c main_arg23 (by decide),
    W12_of m ρ c main_arg23 (by decide),
    W11_of m ρ c main_arg23 (by decide),
    W10_of m ρ c main_arg23 (by decide),
    W9_of m ρ c main_arg23 (by decide),
    W8_of m ρ c main_arg23 (by decide),
    W7_of m ρ c main_arg23 (by decide),
    W6_of m ρ c main_arg23 (by decide),
    W5_of m ρ c main_arg23 (by decide),
    W4_of m ρ c main_arg23 (by decide),
    W3_of m ρ c main_arg23 (by decide),
    W2_of m ρ c main_arg23 (by decide),
    W1_of m ρ c main_arg23 (by decide)] <;> rfl

theorem at25_v428 (m : (ℓ : Loc nD τ sig) → Buf (Elt Ideal) ℓ) (ρ : Dev nD → PrngReg) (c : Dev nD) :
    W25 m ρ c (Proc.devRef .tc main_v428) = kRow2 (m ((c : Thread nD τ).loc main_arg23)) := by
  rw [show W25 m ρ c (Proc.devRef .tc main_v428) = kRow2 (W23 m ρ c (Proc.devRef .tc main_arg23)) from glue8_v428 (W23 m ρ c),
    at23_arg23 m ρ c]

theorem at26_v429 (m : (ℓ : Loc nD τ sig) → Buf (Elt Ideal) ℓ) (ρ : Dev nD → PrngReg) (c : Dev nD)
    (x429 : Arr Ideal S2x500000 .f32) (h429 : W26 m ρ c (Proc.devRef .tc main_v429) = x429) :
    W26 m ρ c (Proc.devRef .tc main_v429) = x429 := by
  exact h429

theorem at27_v430 (m : (ℓ : Loc nD τ sig) → Buf (Elt Ideal) ℓ) (ρ : Dev nD → PrngReg) (c : Dev nD)
    (x429 : Arr Ideal S2x500000 .f32) (h429 : W26 m ρ c (Proc.devRef .tc main_v429) = x429) :
    W27 m ρ c (Proc.devRef .tc main_v430) = kOutT x429 := by
  rw [show W27 m ρ c (Proc.devRef .tc main_v430) = kOutT (W26 m ρ c (Proc.devRef .tc main_v429)) from glueOut_v430 (W26 m ρ c),
    at26_v429 m ρ c x429 h429]

end Cert.KernelIdeal.Hand
-- ==== Proof.KIValueR0.lean ====
import proofs.«166951_j44444321579084_2_alg».proof.Proof.KIFrameR0
import proofs.«166951_j44444321579084_2_alg».proof.Proof.Stages
import proofs.«166951_j44444321579084_2_alg».proof.Proof.KPrep
import Idealize.ShloMosaic.Lib.Pipeline.Value
import Idealize.ShloMosaic.Lib.ValueIdx
import Idealize.ShloMosaic.Lib.ValueLayout
import Idealize.ShloMosaic.PureOps.Ideal.Laws

/-!
# The two-layer perceptron region 0 at the ideal values: its result array

At the extended reals the body's payload at row `p`, column `q` of a block is
`∑ₖ max (∑ⱼ x p j · W₁ j k + b₁ k) 0 · W₂ k q + b₂ q` — each matrix product the plain sum of products over its
contracted axis, the biases' one row repeated down the block, the rectifier `max · 0`. The ten row blocks tile the
output array and each block of `x` is the matching rows of its array, so after the region the output array is
one function `G0` of the five input arrays, row by row. On the parameters as the host prepares them (matrices
transposed, biases as one-row matrices) `G0` is the reference's encoder stage, index by index.
-/

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- The first product's dimension numbers: rows of the block times columns of `W₁`, over the 64 features. -/
abbrev dA0 : DotDims S5000x64 S64x128 S5000x128 := dot_S5000x64_S64x128_S5000x128_1_0_0_1_n_n
/-- The second product's: rows of the hidden layer times columns of `W₂`, over the 128 hidden units. -/
abbrev dB0 : DotDims S5000x128 S128x128 S5000x128 := dot_S5000x128_S128x128_S5000x128_1_0_0_1_n_n

theorem dA0_lhs0 (i : S5000x128.Idx) (q : (dA0).contr.Idx) : ((dA0).lhsIdx i q 0).val = (i 0).val := by
  unfold DotDims.lhsIdx
  rw [dif_neg (show ¬(0 : Fin S5000x64.rank) ∈ (dA0).lhsBatch by decide), dif_pos (show (0 : Fin S5000x64.rank) ∈ (dA0).lhsNonContracting by decide)]
  rfl
theorem dA0_lhs1 (i : S5000x128.Idx) (q : (dA0).contr.Idx) : ((dA0).lhsIdx i q 1).val = (q ⟨0, by decide⟩).val :=
  (dA0).lhsIdx_val_of_single rfl i q
theorem dA0_rhs0 (i : S5000x128.Idx) (q : (dA0).contr.Idx) : ((dA0).rhsIdx i q 0).val = (q ⟨0, by decide⟩).val :=
  (dA0).rhsIdx_val_of_single rfl i q
theorem dA0_rhs1 (i : S5000x128.Idx) (q : (dA0).contr.Idx) : ((dA0).rhsIdx i q 1).val = (i 1).val := by
  unfold DotDims.rhsIdx
  rw [dif_neg (show ¬(1 : Fin S64x128.rank) ∈ (dA0).rhsBatch by decide), dif_pos (show (1 : Fin S64x128.rank) ∈ (dA0).rhsNonContracting by decide)]
  rfl

theorem dB0_lhs0 (i : S5000x128.Idx) (q : (dB0).contr.Idx) : ((dB0).lhsIdx i q 0).val = (i 0).val := by
  unfold DotDims.lhsIdx
  rw [dif_neg (show ¬(0 : Fin S5000x128.rank) ∈ (dB0).lhsBatch by decide), dif_pos (show (0 : Fin S5000x128.rank) ∈ (dB0).lhsNonContracting by decide)]
  rfl
theorem dB0_lhs1 (i : S5000x128.Idx) (q : (dB0).contr.Idx) : ((dB0).lhsIdx i q 1).val = (q ⟨0, by decide⟩).val :=
  (dB0).lhsIdx_val_of_single rfl i q
theorem dB0_rhs0 (i : S5000x128.Idx) (q : (dB0).contr.Idx) : ((dB0).rhsIdx i q 0).val = (q ⟨0, by decide⟩).val :=
  (dB0).rhsIdx_val_of_single rfl i q
theorem dB0_rhs1 (i : S5000x128.Idx) (q : (dB0).contr.Idx) : ((dB0).rhsIdx i q 1).val = (i 1).val := by
  unfold DotDims.rhsIdx
  rw [dif_neg (show ¬(1 : Fin S128x128.rank) ∈ (dB0).rhsBatch by decide), dif_pos (show (1 : Fin S128x128.rank) ∈ (dB0).rhsNonContracting by decide)]
  rfl

/-- The first product into the zero accumulator, at row `p` and column `k`: the sum over the features. -/
theorem mmA0_apply (x : FVec Ideal S5000x64 .f32) (w : FVec Ideal S64x128 .f32) (p : Fin 5000) (k : Fin 128) :
    FloatOps.matmul (dA0) none x w (constant (F := Ideal) S5000x128 .f32 0x00000000#32) (ix2 p k)
      = ∑ j : Fin 64, x (ix2 p j) * w (ix2 j k) := by
  rw [Ideal.matmul_constant_zero_apply, ← Equiv.sum_comp (contrEquiv1 (dA0) 64 rfl rfl).symm]
  refine Finset.sum_congr rfl fun j _ => ?_
  have hj := contrEquiv1_symm_val (dA0) 64 rfl rfl j
  have el : (dA0).lhsIdx (ix2 p k) ((contrEquiv1 (dA0) 64 rfl rfl).symm j) = ix2 p j := funext fun a => Fin.ext (by
    match a with
    | ⟨0, _⟩ => exact dA0_lhs0 _ _
    | ⟨1, _⟩ => exact (dA0_lhs1 _ _).trans hj)
  have er : (dA0).rhsIdx (ix2 p k) ((contrEquiv1 (dA0) 64 rfl rfl).symm j) = ix2 j k := funext fun a => Fin.ext (by
    match a with
    | ⟨0, _⟩ => exact (dA0_rhs0 _ _).trans hj
    | ⟨1, _⟩ => exact dA0_rhs1 _ _)
  rw [el, er]

/-- The second product into the zero accumulator, at row `p` and column `q`: the sum over the hidden units. -/
theorem mmB0_apply (x : FVec Ideal S5000x128 .f32) (w : FVec Ideal S128x128 .f32) (p : Fin 5000) (q : Fin 128) :
    FloatOps.matmul (dB0) none x w (constant (F := Ideal) S5000x128 .f32 0x00000000#32) (ix2 p q)
      = ∑ k : Fin 128, x (ix2 p k) * w (ix2 k q) := by
  rw [Ideal.matmul_constant_zero_apply, ← Equiv.sum_comp (contrEquiv1 (dB0) 128 rfl rfl).symm]
  refine Finset.sum_congr rfl fun k _ => ?_
  have hk := contrEquiv1_symm_val (dB0) 128 rfl rfl k
  have el : (dB0).lhsIdx (ix2 p q) ((contrEquiv1 (dB0) 128 rfl rfl).symm k) = ix2 p k := funext fun a => Fin.ext (by
    match a with
    | ⟨0, _⟩ => exact dB0_lhs0 _ _
    | ⟨1, _⟩ => exact (dB0_lhs1 _ _).trans hk)
  have er : (dB0).rhsIdx (ix2 p q) ((contrEquiv1 (dB0) 128 rfl rfl).symm k) = ix2 k q := funext fun a => Fin.ext (by
    match a with
    | ⟨0, _⟩ => exact (dB0_rhs0 _ _).trans hk
    | ⟨1, _⟩ => exact dB0_rhs1 _ _)
  rw [el, er]

/-- The hidden layer at row `p`, unit `k`: `max (∑ⱼ x p j · W₁ j k + b₁ k) 0`. -/
def hid0 (x0 : Vec Ideal S5000x64 .f32) (x1 : Vec Ideal S64x128 .f32) (x2 : Vec Ideal S1x128 .f32) (p : Fin 5000) (k : Fin 128) : EReal :=
  max ((∑ j : Fin 64, x0 (ix2 p j) * x1 (ix2 j k)) + x2 (ix2 (0 : Fin 1) k)) 0

/-- The body's payload at row `p`, column `q` of the block: `∑ₖ hidden p k · W₂ k q + b₂ q`. -/
theorem pay0_apply (x0 : Vec Ideal S5000x64 .f32) (x1 : Vec Ideal S64x128 .f32) (x2 : Vec Ideal S1x128 .f32)
    (x3 : Vec Ideal S128x128 .f32) (x4 : Vec Ideal S1x128 .f32) (p : Fin 5000) (q : Fin 128) :
    k0_pay1 x0 x1 x2 x3 x4 (ix2 p q)
      = (∑ k : Fin 128, hid0 x0 x1 x2 p k * x3 (ix2 k q)) + x4 (ix2 (0 : Fin 1) q) := by
  unfold k0_pay1
  simp only [shapeCast_self]
  rw [addf_apply, broadcastTo_1b_ab_apply]
  simp only [matmul]
  rw [mmB0_apply]
  refine congrArg (· + x4 (ix2 (0 : Fin 1) q)) (Finset.sum_congr rfl fun k _ => ?_)
  rw [maximumf_apply, addf_apply, broadcastTo_1b_ab_apply, broadcast_apply, mmA0_apply]
  show max _ (Ideal.ofBits .f32 0x00000000#32) * _ = _
  rw [Ideal.ofBits_zero_f32]
  rfl

/-! ## The region's result as one function of its input arrays -/

/-- Row `r`, column `q` of the result: `∑ₖ max (∑ⱼ x r j · W₁ j k + b₁ k) 0 · W₂ k q + b₂ q`, the parameter arrays as
    the region is handed them (the matrices already transposed, the biases as one-row matrices). -/
def g0 (a0 : S50000x64.Idx → EReal) (a1 : S64x128.Idx → EReal) (a2 : S1x128.Idx → EReal)
    (a3 : S128x128.Idx → EReal) (a4 : S1x128.Idx → EReal) (r : Fin 50000) (q : Fin 128) : EReal :=
  (∑ k : Fin 128, max ((∑ j : Fin 64, a0 (ix2 r j) * a1 (ix2 j k)) + a2 (ix2 (0 : Fin 1) k)) 0 * a3 (ix2 k q)) + a4 (ix2 (0 : Fin 1) q)

/-- The result array. -/
def G0 (a0 : S50000x64.Idx → Elt Ideal .f32) (a1 : S64x128.Idx → Elt Ideal .f32) (a2 : S1x128.Idx → Elt Ideal .f32)
    (a3 : S128x128.Idx → Elt Ideal .f32) (a4 : S1x128.Idx → Elt Ideal .f32) : S50000x128.Idx → Elt Ideal .f32 :=
  fun i => g0 a0 a1 a2 a3 a4 ⟨(i 0).val, idx2_lt0 i⟩ ⟨(i 1).val, idx2_lt1 i⟩

/-- One element of one block: when the row block of `x` is rows `5000 b …` of the array and the parameter blocks
    are the parameter arrays, the payload at row `p` of the block is the result at row `5000 b + p`. -/
theorem block0_eq (a0 : S50000x64.Idx → EReal) (a1 : S64x128.Idx → EReal) (a2 : S1x128.Idx → EReal)
    (a3 : S128x128.Idx → EReal) (a4 : S1x128.Idx → EReal)
    (x0 : Vec Ideal S5000x64 .f32) (x1 : Vec Ideal S64x128 .f32) (x2 : Vec Ideal S1x128 .f32)
    (x3 : Vec Ideal S128x128 .f32) (x4 : Vec Ideal S1x128 .f32) (r : Fin 50000) (p : Fin 5000) (q : Fin 128)
    (h0 : ∀ j : Fin 64, x0 (ix2 p j) = a0 (ix2 r j)) (h1 : ∀ (j : Fin 64) (k : Fin 128), x1 (ix2 j k) = a1 (ix2 j k))
    (h2 : ∀ k : Fin 128, x2 (ix2 (0 : Fin 1) k) = a2 (ix2 (0 : Fin 1) k)) (h3 : ∀ k q : Fin 128, x3 (ix2 k q) = a3 (ix2 k q))
    (h4 : ∀ q : Fin 128, x4 (ix2 (0 : Fin 1) q) = a4 (ix2 (0 : Fin 1) q)) :
    (∑ k : Fin 128, hid0 x0 x1 x2 p k * x3 (ix2 k q)) + x4 (ix2 (0 : Fin 1) q) = g0 a0 a1 a2 a3 a4 r q := by
  unfold hid0 g0
  simp only [h0, h1, h2, h3, h4]

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the ten grid points: the row block of `x` moves with the output's, every
    parameter window stays at block 0, and nothing moves along the columns. -/
theorem idx_facts0 : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row blocks is some point's. -/
theorem idx_onto0 : ∀ q0 : Fin 10, ∃ t : Fin cfg0.N, win0_5.index t = ![q0.val, 0] :=
  (by decide +kernel : ∀ q0 : Fin 10, ∃ t : Fin grid0.N, win0_5.index t = ![q0.val, 0])

/-- The output window's block at point `t`, read off any array, at an element of the block: the array at the element's
    place in it. -/
theorem read_emb0 (t : Fin cfg0.N) (G : S50000x128.Idx → Elt Ideal .f32) (y : S5000x128.Idx) :
    ((cfg0.win 5).blk t).view.read (Elt Ideal) G y = G (((cfg0.win 5).blk t).view.emb y) := rfl

set_option maxHeartbeats 1600000 in
/-- What point `t` writes back is block `t` of `G0` of the input arrays as the region finds them. -/
theorem flushed0_eq (c : Dev nD) (t : Fin cfg0.N) :
    (dat0 (F := Ideal) V c).flushed 5 t = ((cfg0.win 5).blk t).view.read (Elt Ideal)
      (G0 (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 (F := Ideal) V c).after 5 t) = _
  rw [after0_5]
  unfold out0_5
  rw [View.canon_unit_zero hz0]
  simp only [View.ld_unit_zero (S := S5000x64) hz0, View.ld_unit_zero (S := S64x128) hz0, View.ld_unit_zero (S := S1x128) hz0,
    View.ld_unit_zero (S := S128x128) hz0]
  obtain ⟨e0, e1, e2, e3, e4, e5, e6, e7, e8, e9, e10, e11⟩ := idx_facts0 t
  funext y
  obtain ⟨p, q, rfl⟩ : ∃ (p : Fin 5000) (q : Fin 128), y = ix2 p q := ⟨y 0, y 1, eq_ix2 y⟩
  refine (pay0_apply (iblk0 V c 0 t) (iblk0 V c 1 t) (iblk0 V c 2 t) (iblk0 V c 3 t) (iblk0 V c 4 t) p q).trans ?_
  have hr : win0_5.index t (0 : Fin 2) * 5000 + p.val < 50000 := by have := p.isLt; omega
  refine (block0_eq (V c (Pipeline.arrRef spec0 0)) (V c (Pipeline.arrRef spec0 1)) (V c (Pipeline.arrRef spec0 2)) (V c (Pipeline.arrRef spec0 3)) (V c (Pipeline.arrRef spec0 4)) _ _ _ _ _ ⟨win0_5.index t (0 : Fin 2) * 5000 + p.val, hr⟩ p q ?_ ?_ ?_ ?_ ?_).trans ?_
  · intro j
    show (V c (Pipeline.arrRef spec0 0)) (((cfg0.win 0).blk t).view.emb (ix2 p j)) = _
    refine congrArg _ (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 64 + 1 * j.val = j.val; omega
  · intro j k
    show (V c (Pipeline.arrRef spec0 1)) (((cfg0.win 1).blk t).view.emb (ix2 j k)) = _
    refine congrArg _ (funext fun a => Fin.ext ?_)
    match a with
    | ⟨0, _⟩ => show win0_1.index t (0 : Fin 2) * 64 + 1 * j.val = j.val; omega
    | ⟨1, _⟩ => show win0_1.index t (1 : Fin 2) * 128 + 1 * k.val = k.val; omega
  · intro k
    show (V c (Pipeline.arrRef spec0 2)) (((cfg0.win 2).blk t).view.emb (ix2 (0 : Fin 1) k)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  · intro k q'
    show (V c (Pipeline.arrRef spec0 3)) (((cfg0.win 3).blk t).view.emb (ix2 k q')) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q'.val = q'.val; omega
  · intro q'
    show (V c (Pipeline.arrRef spec0 4)) (((cfg0.win 4).blk t).view.emb (ix2 (0 : Fin 1) q')) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q'.val = q'.val; omega
  · refine Eq.trans ?_ (read_emb0 t _ (ix2 p q)).symm
    unfold G0
    exact congrArg₂ (g0 (V c (Pipeline.arrRef spec0 0)) (V c (Pipeline.arrRef spec0 1)) (V c (Pipeline.arrRef spec0 2)) (V c (Pipeline.arrRef spec0 3)) (V c (Pipeline.arrRef spec0 4)))
      (Fin.ext (by
        show win0_5.index t (0 : Fin 2) * 5000 + p.val = win0_5.index t (0 : Fin 2) * 5000 + 1 * p.val
        omega))
      (Fin.ext (by
        show q.val = win0_5.index t (1 : Fin 2) * 128 + 1 * q.val
        omega))

/-- An index of the array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- The ten row blocks cover the array: row `r` is in block `r / 5000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: `G0` of the five input arrays as the region finds them. -/
theorem final0 (c : Dev nD) : (dat0 (F := Ideal) V c).arrAt 5 cfg0.N
    = G0 (V c (Pipeline.arrRef spec0 0)) (V c (Pipeline.arrRef spec0 1)) (V c (Pipeline.arrRef spec0 2)) (V c (Pipeline.arrRef spec0 3)) (V c (Pipeline.arrRef spec0 4)) :=
  (dat0 (F := Ideal) V c).arrAt_eq_of_cover 5 _ (fun t _ => flushed0_eq V c t) cover0

/-! ## The result is the reference's encoder stage

The region is handed the two weight matrices transposed and the two biases as one-row matrices; with those,
`G0` is, index by index, the reference's `relu (x · w₁ᵀ + b₁) · w₂ᵀ + b₂`: the same sums of the same products. -/

section Stage
open Cert.Stages Cert.KPrep

/-- The reference's first product's dimension numbers. -/
abbrev rA0 : DotDims S50000x64 S64x128 S50000x128 := Cert.ReferenceIdeal.dot_S50000x64_S64x128_S50000x128_1_0_0_1_n_n
/-- The reference's second product's. -/
abbrev rB0 : DotDims S50000x128 S128x128 S50000x128 := Cert.ReferenceIdeal.dot_S50000x128_S128x128_S50000x128_1_0_0_1_n_n

theorem rA0_lhs0 (i : S50000x128.Idx) (q : (rA0).contr.Idx) : ((rA0).lhsIdx i q 0).val = (i 0).val := by
  unfold DotDims.lhsIdx
  rw [dif_neg (show ¬(0 : Fin S50000x64.rank) ∈ (rA0).lhsBatch by decide), dif_pos (show (0 : Fin S50000x64.rank) ∈ (rA0).lhsNonContracting by decide)]
  rfl
theorem rA0_lhs1 (i : S50000x128.Idx) (q : (rA0).contr.Idx) : ((rA0).lhsIdx i q 1).val = (q ⟨0, by decide⟩).val :=
  (rA0).lhsIdx_val_of_single rfl i q
theorem rA0_rhs0 (i : S50000x128.Idx) (q : (rA0).contr.Idx) : ((rA0).rhsIdx i q 0).val = (q ⟨0, by decide⟩).val :=
  (rA0).rhsIdx_val_of_single rfl i q
theorem rA0_rhs1 (i : S50000x128.Idx) (q : (rA0).contr.Idx) : ((rA0).rhsIdx i q 1).val = (i 1).val := by
  unfold DotDims.rhsIdx
  rw [dif_neg (show ¬(1 : Fin S64x128.rank) ∈ (rA0).rhsBatch by decide), dif_pos (show (1 : Fin S64x128.rank) ∈ (rA0).rhsNonContracting by decide)]
  rfl

theorem rB0_lhs0 (i : S50000x128.Idx) (q : (rB0).contr.Idx) : ((rB0).lhsIdx i q 0).val = (i 0).val := by
  unfold DotDims.lhsIdx
  rw [dif_neg (show ¬(0 : Fin S50000x128.rank) ∈ (rB0).lhsBatch by decide), dif_pos (show (0 : Fin S50000x128.rank) ∈ (rB0).lhsNonContracting by decide)]
  rfl
theorem rB0_lhs1 (i : S50000x128.Idx) (q : (rB0).contr.Idx) : ((rB0).lhsIdx i q 1).val = (q ⟨0, by decide⟩).val :=
  (rB0).lhsIdx_val_of_single rfl i q
theorem rB0_rhs0 (i : S50000x128.Idx) (q : (rB0).contr.Idx) : ((rB0).rhsIdx i q 0).val = (q ⟨0, by decide⟩).val :=
  (rB0).rhsIdx_val_of_single rfl i q
theorem rB0_rhs1 (i : S50000x128.Idx) (q : (rB0).contr.Idx) : ((rB0).rhsIdx i q 1).val = (i 1).val := by
  unfold DotDims.rhsIdx
  rw [dif_neg (show ¬(1 : Fin S128x128.rank) ∈ (rB0).rhsBatch by decide), dif_pos (show (1 : Fin S128x128.rank) ∈ (rB0).rhsNonContracting by decide)]
  rfl

/-- The reference's first product at row `r`, column `q`: the sum over the features. -/
theorem refA0_apply (x : FVec Ideal S50000x64 .f32) (w : FVec Ideal S64x128 .f32) (r : Fin 50000) (q : Fin 128) :
    Host.dotGeneral (rA0) none x w (ix2 r q) = ∑ k : Fin 64, x (ix2 r k) * w (ix2 k q) := by
  simp only [Host.dotGeneral]
  rw [Ideal.dotGeneral_apply, ← Equiv.sum_comp (contrEquiv1 (rA0) 64 rfl rfl).symm]
  refine Finset.sum_congr rfl fun k _ => ?_
  have hk := contrEquiv1_symm_val (rA0) 64 rfl rfl k
  have el : (rA0).lhsIdx (ix2 r q) ((contrEquiv1 (rA0) 64 rfl rfl).symm k) = ix2 r k := funext fun a => Fin.ext (by
    match a with
    | ⟨0, _⟩ => exact rA0_lhs0 _ _
    | ⟨1, _⟩ => exact (rA0_lhs1 _ _).trans hk)
  have er : (rA0).rhsIdx (ix2 r q) ((contrEquiv1 (rA0) 64 rfl rfl).symm k) = ix2 k q := funext fun a => Fin.ext (by
    match a with
    | ⟨0, _⟩ => exact (rA0_rhs0 _ _).trans hk
    | ⟨1, _⟩ => exact rA0_rhs1 _ _)
  rw [el, er]

/-- The reference's second product at row `r`, column `q`: the sum over the hidden units. -/
theorem refB0_apply (x : FVec Ideal S50000x128 .f32) (w : FVec Ideal S128x128 .f32) (r : Fin 50000) (q : Fin 128) :
    Host.dotGeneral (rB0) none x w (ix2 r q) = ∑ k : Fin 128, x (ix2 r k) * w (ix2 k q) := by
  simp only [Host.dotGeneral]
  rw [Ideal.dotGeneral_apply, ← Equiv.sum_comp (contrEquiv1 (rB0) 128 rfl rfl).symm]
  refine Finset.sum_congr rfl fun k _ => ?_
  have hk := contrEquiv1_symm_val (rB0) 128 rfl rfl k
  have el : (rB0).lhsIdx (ix2 r q) ((contrEquiv1 (rB0) 128 rfl rfl).symm k) = ix2 r k := funext fun a => Fin.ext (by
    match a with
    | ⟨0, _⟩ => exact rB0_lhs0 _ _
    | ⟨1, _⟩ => exact (rB0_lhs1 _ _).trans hk)
  have er : (rB0).rhsIdx (ix2 r q) ((contrEquiv1 (rB0) 128 rfl rfl).symm k) = ix2 k q := funext fun a => Fin.ext (by
    match a with
    | ⟨0, _⟩ => exact (rB0_rhs0 _ _).trans hk
    | ⟨1, _⟩ => exact rB0_rhs1 _ _)
  rw [el, er]

/-- A bias spread over the rows reads, at any row, its entry at the column. -/
theorem biasRows0_apply (b : Arr Ideal S128 .f32) (r : Fin 50000) (q : Fin 128) : biasRows b (ix2 r q) = b (ix1 q) := by
  unfold biasRows
  rw [broadcastInDim_apply _ _ _ (ix2 r q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- A bias as a one-row matrix reads, at its one row, its entry at the column. -/
theorem kRow128_0_apply (b : Arr Ideal S128 .f32) (q : Fin 128) : kRow128 b (ix2 (0 : Fin 1) q) = b (ix1 q) := by
  unfold kRow128
  exact shapeCast_a_1a_apply b _ 0 q

/-- THE STAGE EQUATION: the region's result on the prepared parameters is the reference's encoder. -/
theorem G0_eq_encS (x : Arr Ideal S50000x64 .f32) (w1 : Arr Ideal S128x64 .f32) (b1 : Arr Ideal S128 .f32)
    (w2 : Arr Ideal S128x128 .f32) (b2 : Arr Ideal S128 .f32) :
    G0 x (kTr64 w1) (kRow128 b1) (kTr128 w2) (kRow128 b2) = encS x w1 b1 w2 b2 := by
  funext i
  obtain ⟨r, q, rfl⟩ : ∃ (r : Fin 50000) (q : Fin 128), i = ix2 r q := ⟨i 0, i 1, eq_ix2 i⟩
  show g0 x (kTr64 w1) (kRow128 b1) (kTr128 w2) (kRow128 b2) r q = _
  unfold g0 encS dotT relu tr128 kTr64 kTr128
  rw [addf_apply, refB0_apply, biasRows0_apply, kRow128_0_apply]
  refine congrArg (· + b2 (ix1 q)) (Finset.sum_congr rfl fun k _ => ?_)
  rw [maximumf_apply, addf_apply, refA0_apply, biasRows0_apply, kRow128_0_apply,
    broadcastInDim_apply _ _ _ (ix2 r k) ix0 (fun a => a.elim0), constant_apply, Ideal.ofBits_zero_f32]

end Stage

end Cert.KernelIdeal.Hand
-- ==== Proof.KIBridgeR0.lean ====
import proofs.«166951_j44444321579084_2_alg».proof.Proof.KIBridgeOps
import proofs.«166951_j44444321579084_2_alg».proof.Proof.KIValueR0

/-! # Kernel call 0 leaves the source encoder's output

The call's output array ends at the call's value function of its operands as it finds them; each operand is
read at the call's entry (`KIBridgeOps`); and the value function on the prepared weights and biases is the
network's stage on the plain ones. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

set_option maxHeartbeats 8000000 in  -- the call's operand references are found by evaluating the call's window table, once per operand
/-- What kernel call 0 leaves in its output array. -/
theorem k_v4 (m : (ℓ : Loc nD τ sig) → Buf (Elt Ideal) ℓ) (ρ : Dev nD → PrngReg) (c : Dev nD) :
    W2 m ρ c (Proc.devRef .tc main_v4) = Cert.Stages.encS (m ((c : Thread nD τ).loc main_arg0)) (m ((c : Thread nD τ).loc main_arg3)) (m ((c : Thread nD τ).loc main_arg4)) (m ((c : Thread nD τ).loc main_arg5)) (m ((c : Thread nD τ).loc main_arg6)) := by
  rw [W2_out, final0 (V1 m ρ) c]
  show G0
      (W1 m ρ c (Proc.devRef .tc main_arg0))
      (W1 m ρ c (Proc.devRef .tc main_v0))
      (W1 m ρ c (Proc.devRef .tc main_v2))
      (W1 m ρ c (Proc.devRef .tc main_v1))
      (W1 m ρ c (Proc.devRef .tc main_v3)) = _
  rw [at1_arg0 m ρ c,
    at1_v0 m ρ c,
    at1_v2 m ρ c,
    at1_v1 m ρ c,
    at1_v3 m ρ c]
  exact G0_eq_encS _ _ _ _ _

end Cert.KernelIdeal.Hand
-- ==== Proof.KIValueR1.lean ====
import proofs.«166951_j44444321579084_2_alg».proof.Proof.KIFrameR1
import proofs.«166951_j44444321579084_2_alg».proof.Proof.Stages
import proofs.«166951_j44444321579084_2_alg».proof.Proof.KPrep
import Idealize.ShloMosaic.Lib.Pipeline.Value
import Idealize.ShloMosaic.Lib.ValueIdx
import Idealize.ShloMosaic.Lib.ValueLayout
import Idealize.ShloMosaic.PureOps.Ideal.Laws

/-!
# The two-layer perceptron region 1 at the ideal values: its result array

At the extended reals the body's payload at row `p`, column `q` of a block is
`∑ₖ max (∑ⱼ x p j · W₁ j k + b₁ k) 0 · W₂ k q + b₂ q` — each matrix product the plain sum of products over its
contracted axis, the biases' one row repeated down the block, the rectifier `max · 0`. The ten row blocks tile the
output array and each block of `x` is the matching rows of its array, so after the region the output array is
one function `G1` of the five input arrays, row by row. On the parameters as the host prepares them (matrices
transposed, biases as one-row matrices) `G1` is the reference's encoder stage, index by index.
-/

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- The first product's dimension numbers: rows of the block times columns of `W₁`, over the 48 features. -/
abbrev dA1 : DotDims S5000x48 S48x128 S5000x128 := dot_S5000x48_S48x128_S5000x128_1_0_0_1_n_n
/-- The second product's: rows of the hidden layer times columns of `W₂`, over the 128 hidden units. -/
abbrev dB1 : DotDims S5000x128 S128x128 S5000x128 := dot_S5000x128_S128x128_S5000x128_1_0_0_1_n_n

theorem dA1_lhs0 (i : S5000x128.Idx) (q : (dA1).contr.Idx) : ((dA1).lhsIdx i q 0).val = (i 0).val := by
  unfold DotDims.lhsIdx
  rw [dif_neg (show ¬(0 : Fin S5000x48.rank) ∈ (dA1).lhsBatch by decide), dif_pos (show (0 : Fin S5000x48.rank) ∈ (dA1).lhsNonContracting by decide)]
  rfl
theorem dA1_lhs1 (i : S5000x128.Idx) (q : (dA1).contr.Idx) : ((dA1).lhsIdx i q 1).val = (q ⟨0, by decide⟩).val :=
  (dA1).lhsIdx_val_of_single rfl i q
theorem dA1_rhs0 (i : S5000x128.Idx) (q : (dA1).contr.Idx) : ((dA1).rhsIdx i q 0).val = (q ⟨0, by decide⟩).val :=
  (dA1).rhsIdx_val_of_single rfl i q
theorem dA1_rhs1 (i : S5000x128.Idx) (q : (dA1).contr.Idx) : ((dA1).rhsIdx i q 1).val = (i 1).val := by
  unfold DotDims.rhsIdx
  rw [dif_neg (show ¬(1 : Fin S48x128.rank) ∈ (dA1).rhsBatch by decide), dif_pos (show (1 : Fin S48x128.rank) ∈ (dA1).rhsNonContracting by decide)]
  rfl

theorem dB1_lhs0 (i : S5000x128.Idx) (q : (dB1).contr.Idx) : ((dB1).lhsIdx i q 0).val = (i 0).val := by
  unfold DotDims.lhsIdx
  rw [dif_neg (show ¬(0 : Fin S5000x128.rank) ∈ (dB1).lhsBatch by decide), dif_pos (show (0 : Fin S5000x128.rank) ∈ (dB1).lhsNonContracting by decide)]
  rfl
theorem dB1_lhs1 (i : S5000x128.Idx) (q : (dB1).contr.Idx) : ((dB1).lhsIdx i q 1).val = (q ⟨0, by decide⟩).val :=
  (dB1).lhsIdx_val_of_single rfl i q
theorem dB1_rhs0 (i : S5000x128.Idx) (q : (dB1).contr.Idx) : ((dB1).rhsIdx i q 0).val = (q ⟨0, by decide⟩).val :=
  (dB1).rhsIdx_val_of_single rfl i q
theorem dB1_rhs1 (i : S5000x128.Idx) (q : (dB1).contr.Idx) : ((dB1).rhsIdx i q 1).val = (i 1).val := by
  unfold DotDims.rhsIdx
  rw [dif_neg (show ¬(1 : Fin S128x128.rank) ∈ (dB1).rhsBatch by decide), dif_pos (show (1 : Fin S128x128.rank) ∈ (dB1).rhsNonContracting by decide)]
  rfl

/-- The first product into the zero accumulator, at row `p` and column `k`: the sum over the features. -/
theorem mmA1_apply (x : FVec Ideal S5000x48 .f32) (w : FVec Ideal S48x128 .f32) (p : Fin 5000) (k : Fin 128) :
    FloatOps.matmul (dA1) none x w (constant (F := Ideal) S5000x128 .f32 0x00000000#32) (ix2 p k)
      = ∑ j : Fin 48, x (ix2 p j) * w (ix2 j k) := by
  rw [Ideal.matmul_constant_zero_apply, ← Equiv.sum_comp (contrEquiv1 (dA1) 48 rfl rfl).symm]
  refine Finset.sum_congr rfl fun j _ => ?_
  have hj := contrEquiv1_symm_val (dA1) 48 rfl rfl j
  have el : (dA1).lhsIdx (ix2 p k) ((contrEquiv1 (dA1) 48 rfl rfl).symm j) = ix2 p j := funext fun a => Fin.ext (by
    match a with
    | ⟨0, _⟩ => exact dA1_lhs0 _ _
    | ⟨1, _⟩ => exact (dA1_lhs1 _ _).trans hj)
  have er : (dA1).rhsIdx (ix2 p k) ((contrEquiv1 (dA1) 48 rfl rfl).symm j) = ix2 j k := funext fun a => Fin.ext (by
    match a with
    | ⟨0, _⟩ => exact (dA1_rhs0 _ _).trans hj
    | ⟨1, _⟩ => exact dA1_rhs1 _ _)
  rw [el, er]

/-- The second product into the zero accumulator, at row `p` and column `q`: the sum over the hidden units. -/
theorem mmB1_apply (x : FVec Ideal S5000x128 .f32) (w : FVec Ideal S128x128 .f32) (p : Fin 5000) (q : Fin 128) :
    FloatOps.matmul (dB1) none x w (constant (F := Ideal) S5000x128 .f32 0x00000000#32) (ix2 p q)
      = ∑ k : Fin 128, x (ix2 p k) * w (ix2 k q) := by
  rw [Ideal.matmul_constant_zero_apply, ← Equiv.sum_comp (contrEquiv1 (dB1) 128 rfl rfl).symm]
  refine Finset.sum_congr rfl fun k _ => ?_
  have hk := contrEquiv1_symm_val (dB1) 128 rfl rfl k
  have el : (dB1).lhsIdx (ix2 p q) ((contrEquiv1 (dB1) 128 rfl rfl).symm k) = ix2 p k := funext fun a => Fin.ext (by
    match a with
    | ⟨0, _⟩ => exact dB1_lhs0 _ _
    | ⟨1, _⟩ => exact (dB1_lhs1 _ _).trans hk)
  have er : (dB1).rhsIdx (ix2 p q) ((contrEquiv1 (dB1) 128 rfl rfl).symm k) = ix2 k q := funext fun a => Fin.ext (by
    match a with
    | ⟨0, _⟩ => exact (dB1_rhs0 _ _).trans hk
    | ⟨1, _⟩ => exact dB1_rhs1 _ _)
  rw [el, er]

/-- The hidden layer at row `p`, unit `k`: `max (∑ⱼ x p j · W₁ j k + b₁ k) 0`. -/
def hid1 (x0 : Vec Ideal S5000x48 .f32) (x1 : Vec Ideal S48x128 .f32) (x2 : Vec Ideal S1x128 .f32) (p : Fin 5000) (k : Fin 128) : EReal :=
  max ((∑ j : Fin 48, x0 (ix2 p j) * x1 (ix2 j k)) + x2 (ix2 (0 : Fin 1) k)) 0

/-- The body's payload at row `p`, column `q` of the block: `∑ₖ hidden p k · W₂ k q + b₂ q`. -/
theorem pay1_apply (x0 : Vec Ideal S5000x48 .f32) (x1 : Vec Ideal S48x128 .f32) (x2 : Vec Ideal S1x128 .f32)
    (x3 : Vec Ideal S128x128 .f32) (x4 : Vec Ideal S1x128 .f32) (p : Fin 5000) (q : Fin 128) :
    k1_pay1 x0 x1 x2 x3 x4 (ix2 p q)
      = (∑ k : Fin 128, hid1 x0 x1 x2 p k * x3 (ix2 k q)) + x4 (ix2 (0 : Fin 1) q) := by
  unfold k1_pay1
  simp only [shapeCast_self]
  rw [addf_apply, broadcastTo_1b_ab_apply]
  simp only [matmul]
  rw [mmB1_apply]
  refine congrArg (· + x4 (ix2 (0 : Fin 1) q)) (Finset.sum_congr rfl fun k _ => ?_)
  rw [maximumf_apply, addf_apply, broadcastTo_1b_ab_apply, broadcast_apply, mmA1_apply]
  show max _ (Ideal.ofBits .f32 0x00000000#32) * _ = _
  rw [Ideal.ofBits_zero_f32]
  rfl

/-! ## The region's result as one function of its input arrays -/

/-- Row `r`, column `q` of the result: `∑ₖ max (∑ⱼ x r j · W₁ j k + b₁ k) 0 · W₂ k q + b₂ q`, the parameter arrays as
    the region is handed them (the matrices already transposed, the biases as one-row matrices). -/
def g1 (a0 : S50000x48.Idx → EReal) (a1 : S48x128.Idx → EReal) (a2 : S1x128.Idx → EReal)
    (a3 : S128x128.Idx → EReal) (a4 : S1x128.Idx → EReal) (r : Fin 50000) (q : Fin 128) : EReal :=
  (∑ k : Fin 128, max ((∑ j : Fin 48, a0 (ix2 r j) * a1 (ix2 j k)) + a2 (ix2 (0 : Fin 1) k)) 0 * a3 (ix2 k q)) + a4 (ix2 (0 : Fin 1) q)

/-- The result array. -/
def G1 (a0 : S50000x48.Idx → Elt Ideal .f32) (a1 : S48x128.Idx → Elt Ideal .f32) (a2 : S1x128.Idx → Elt Ideal .f32)
    (a3 : S128x128.Idx → Elt Ideal .f32) (a4 : S1x128.Idx → Elt Ideal .f32) : S50000x128.Idx → Elt Ideal .f32 :=
  fun i => g1 a0 a1 a2 a3 a4 ⟨(i 0).val, idx2_lt0 i⟩ ⟨(i 1).val, idx2_lt1 i⟩

/-- One element of one block: when the row block of `x` is rows `5000 b …` of the array and the parameter blocks
    are the parameter arrays, the payload at row `p` of the block is the result at row `5000 b + p`. -/
theorem block1_eq (a0 : S50000x48.Idx → EReal) (a1 : S48x128.Idx → EReal) (a2 : S1x128.Idx → EReal)
    (a3 : S128x128.Idx → EReal) (a4 : S1x128.Idx → EReal)
    (x0 : Vec Ideal S5000x48 .f32) (x1 : Vec Ideal S48x128 .f32) (x2 : Vec Ideal S1x128 .f32)
    (x3 : Vec Ideal S128x128 .f32) (x4 : Vec Ideal S1x128 .f32) (r : Fin 50000) (p : Fin 5000) (q : Fin 128)
    (h0 : ∀ j : Fin 48, x0 (ix2 p j) = a0 (ix2 r j)) (h1 : ∀ (j : Fin 48) (k : Fin 128), x1 (ix2 j k) = a1 (ix2 j k))
    (h2 : ∀ k : Fin 128, x2 (ix2 (0 : Fin 1) k) = a2 (ix2 (0 : Fin 1) k)) (h3 : ∀ k q : Fin 128, x3 (ix2 k q) = a3 (ix2 k q))
    (h4 : ∀ q : Fin 128, x4 (ix2 (0 : Fin 1) q) = a4 (ix2 (0 : Fin 1) q)) :
    (∑ k : Fin 128, hid1 x0 x1 x2 p k * x3 (ix2 k q)) + x4 (ix2 (0 : Fin 1) q) = g1 a0 a1 a2 a3 a4 r q := by
  unfold hid1 g1
  simp only [h0, h1, h2, h3, h4]

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the ten grid points: the row block of `x` moves with the output's, every
    parameter window stays at block 0, and nothing moves along the columns. -/
theorem idx_facts1 : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the ten row blocks is some point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- The output window's block at point `t`, read off any array, at an element of the block: the array at the element's
    place in it. -/
theorem read_emb1 (t : Fin cfg1.N) (G : S50000x128.Idx → Elt Ideal .f32) (y : S5000x128.Idx) :
    ((cfg1.win 5).blk t).view.read (Elt Ideal) G y = G (((cfg1.win 5).blk t).view.emb y) := rfl

set_option maxHeartbeats 1600000 in
/-- What point `t` writes back is block `t` of `G1` of the input arrays as the region finds them. -/
theorem flushed1_eq (c : Dev nD) (t : Fin cfg1.N) :
    (dat1 (F := Ideal) V c).flushed 5 t = ((cfg1.win 5).blk t).view.read (Elt Ideal)
      (G1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero hz1]
  simp only [View.ld_unit_zero (S := S5000x48) hz1, View.ld_unit_zero (S := S48x128) hz1, View.ld_unit_zero (S := S1x128) hz1,
    View.ld_unit_zero (S := S128x128) hz1]
  obtain ⟨e0, e1, e2, e3, e4, e5, e6, e7, e8, e9, e10, e11⟩ := idx_facts1 t
  funext y
  obtain ⟨p, q, rfl⟩ : ∃ (p : Fin 5000) (q : Fin 128), y = ix2 p q := ⟨y 0, y 1, eq_ix2 y⟩
  refine (pay1_apply (iblk1 V c 0 t) (iblk1 V c 1 t) (iblk1 V c 2 t) (iblk1 V c 3 t) (iblk1 V c 4 t) p q).trans ?_
  have hr : win1_5.index t (0 : Fin 2) * 5000 + p.val < 50000 := by have := p.isLt; omega
  refine (block1_eq (V c (Pipeline.arrRef spec1 0)) (V c (Pipeline.arrRef spec1 1)) (V c (Pipeline.arrRef spec1 2)) (V c (Pipeline.arrRef spec1 3)) (V c (Pipeline.arrRef spec1 4)) _ _ _ _ _ ⟨win1_5.index t (0 : Fin 2) * 5000 + p.val, hr⟩ p q ?_ ?_ ?_ ?_ ?_).trans ?_
  · intro j
    show (V c (Pipeline.arrRef spec1 0)) (((cfg1.win 0).blk t).view.emb (ix2 p j)) = _
    refine congrArg _ (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 48 + 1 * j.val = j.val; omega
  · intro j k
    show (V c (Pipeline.arrRef spec1 1)) (((cfg1.win 1).blk t).view.emb (ix2 j k)) = _
    refine congrArg _ (funext fun a => Fin.ext ?_)
    match a with
    | ⟨0, _⟩ => show win1_1.index t (0 : Fin 2) * 48 + 1 * j.val = j.val; omega
    | ⟨1, _⟩ => show win1_1.index t (1 : Fin 2) * 128 + 1 * k.val = k.val; omega
  · intro k
    show (V c (Pipeline.arrRef spec1 2)) (((cfg1.win 2).blk t).view.emb (ix2 (0 : Fin 1) k)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · intro k q'
    show (V c (Pipeline.arrRef spec1 3)) (((cfg1.win 3).blk t).view.emb (ix2 k q')) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q'.val = q'.val; omega
  · intro q'
    show (V c (Pipeline.arrRef spec1 4)) (((cfg1.win 4).blk t).view.emb (ix2 (0 : Fin 1) q')) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q'.val = q'.val; omega
  · refine Eq.trans ?_ (read_emb1 t _ (ix2 p q)).symm
    unfold G1
    exact congrArg₂ (g1 (V c (Pipeline.arrRef spec1 0)) (V c (Pipeline.arrRef spec1 1)) (V c (Pipeline.arrRef spec1 2)) (V c (Pipeline.arrRef spec1 3)) (V c (Pipeline.arrRef spec1 4)))
      (Fin.ext (by
        show win1_5.index t (0 : Fin 2) * 5000 + p.val = win1_5.index t (0 : Fin 2) * 5000 + 1 * p.val
        omega))
      (Fin.ext (by
        show q.val = win1_5.index t (1 : Fin 2) * 128 + 1 * q.val
        omega))

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- The ten row blocks cover the array: row `r` is in block `r / 5000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: `G1` of the five input arrays as the region finds them. -/
theorem final1 (c : Dev nD) : (dat1 (F := Ideal) V c).arrAt 5 cfg1.N
    = G1 (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1_eq V c t) cover1

/-! ## The result is the reference's encoder stage

The region is handed the two weight matrices transposed and the two biases as one-row matrices; with those,
`G1` is, index by index, the reference's `relu (x · w₁ᵀ + b₁) · w₂ᵀ + b₂`: the same sums of the same products. -/

section Stage
open Cert.Stages Cert.KPrep

/-- The reference's first product's dimension numbers. -/
abbrev rA1 : DotDims S50000x48 S48x128 S50000x128 := Cert.ReferenceIdeal.dot_S50000x48_S48x128_S50000x128_1_0_0_1_n_n
/-- The reference's second product's. -/
abbrev rB1 : DotDims S50000x128 S128x128 S50000x128 := Cert.ReferenceIdeal.dot_S50000x128_S128x128_S50000x128_1_0_0_1_n_n

theorem rA1_lhs0 (i : S50000x128.Idx) (q : (rA1).contr.Idx) : ((rA1).lhsIdx i q 0).val = (i 0).val := by
  unfold DotDims.lhsIdx
  rw [dif_neg (show ¬(0 : Fin S50000x48.rank) ∈ (rA1).lhsBatch by decide), dif_pos (show (0 : Fin S50000x48.rank) ∈ (rA1).lhsNonContracting by decide)]
  rfl
theorem rA1_lhs1 (i : S50000x128.Idx) (q : (rA1).contr.Idx) : ((rA1).lhsIdx i q 1).val = (q ⟨0, by decide⟩).val :=
  (rA1).lhsIdx_val_of_single rfl i q
theorem rA1_rhs0 (i : S50000x128.Idx) (q : (rA1).contr.Idx) : ((rA1).rhsIdx i q 0).val = (q ⟨0, by decide⟩).val :=
  (rA1).rhsIdx_val_of_single rfl i q
theorem rA1_rhs1 (i : S50000x128.Idx) (q : (rA1).contr.Idx) : ((rA1).rhsIdx i q 1).val = (i 1).val := by
  unfold DotDims.rhsIdx
  rw [dif_neg (show ¬(1 : Fin S48x128.rank) ∈ (rA1).rhsBatch by decide), dif_pos (show (1 : Fin S48x128.rank) ∈ (rA1).rhsNonContracting by decide)]
  rfl

theorem rB1_lhs0 (i : S50000x128.Idx) (q : (rB1).contr.Idx) : ((rB1).lhsIdx i q 0).val = (i 0).val := by
  unfold DotDims.lhsIdx
  rw [dif_neg (show ¬(0 : Fin S50000x128.rank) ∈ (rB1).lhsBatch by decide), dif_pos (show (0 : Fin S50000x128.rank) ∈ (rB1).lhsNonContracting by decide)]
  rfl
theorem rB1_lhs1 (i : S50000x128.Idx) (q : (rB1).contr.Idx) : ((rB1).lhsIdx i q 1).val = (q ⟨0, by decide⟩).val :=
  (rB1).lhsIdx_val_of_single rfl i q
theorem rB1_rhs0 (i : S50000x128.Idx) (q : (rB1).contr.Idx) : ((rB1).rhsIdx i q 0).val = (q ⟨0, by decide⟩).val :=
  (rB1).rhsIdx_val_of_single rfl i q
theorem rB1_rhs1 (i : S50000x128.Idx) (q : (rB1).contr.Idx) : ((rB1).rhsIdx i q 1).val = (i 1).val := by
  unfold DotDims.rhsIdx
  rw [dif_neg (show ¬(1 : Fin S128x128.rank) ∈ (rB1).rhsBatch by decide), dif_pos (show (1 : Fin S128x128.rank) ∈ (rB1).rhsNonContracting by decide)]
  rfl

/-- The reference's first product at row `r`, column `q`: the sum over the features. -/
theorem refA1_apply (x : FVec Ideal S50000x48 .f32) (w : FVec Ideal S48x128 .f32) (r : Fin 50000) (q : Fin 128) :
    Host.dotGeneral (rA1) none x w (ix2 r q) = ∑ k : Fin 48, x (ix2 r k) * w (ix2 k q) := by
  simp only [Host.dotGeneral]
  rw [Ideal.dotGeneral_apply, ← Equiv.sum_comp (contrEquiv1 (rA1) 48 rfl rfl).symm]
  refine Finset.sum_congr rfl fun k _ => ?_
  have hk := contrEquiv1_symm_val (rA1) 48 rfl rfl k
  have el : (rA1).lhsIdx (ix2 r q) ((contrEquiv1 (rA1) 48 rfl rfl).symm k) = ix2 r k := funext fun a => Fin.ext (by
    match a with
    | ⟨0, _⟩ => exact rA1_lhs0 _ _
    | ⟨1, _⟩ => exact (rA1_lhs1 _ _).trans hk)
  have er : (rA1).rhsIdx (ix2 r q) ((contrEquiv1 (rA1) 48 rfl rfl).symm k) = ix2 k q := funext fun a => Fin.ext (by
    match a with
    | ⟨0, _⟩ => exact (rA1_rhs0 _ _).trans hk
    | ⟨1, _⟩ => exact rA1_rhs1 _ _)
  rw [el, er]

/-- The reference's second product at row `r`, column `q`: the sum over the hidden units. -/
theorem refB1_apply (x : FVec Ideal S50000x128 .f32) (w : FVec Ideal S128x128 .f32) (r : Fin 50000) (q : Fin 128) :
    Host.dotGeneral (rB1) none x w (ix2 r q) = ∑ k : Fin 128, x (ix2 r k) * w (ix2 k q) := by
  simp only [Host.dotGeneral]
  rw [Ideal.dotGeneral_apply, ← Equiv.sum_comp (contrEquiv1 (rB1) 128 rfl rfl).symm]
  refine Finset.sum_congr rfl fun k _ => ?_
  have hk := contrEquiv1_symm_val (rB1) 128 rfl rfl k
  have el : (rB1).lhsIdx (ix2 r q) ((contrEquiv1 (rB1) 128 rfl rfl).symm k) = ix2 r k := funext fun a => Fin.ext (by
    match a with
    | ⟨0, _⟩ => exact rB1_lhs0 _ _
    | ⟨1, _⟩ => exact (rB1_lhs1 _ _).trans hk)
  have er : (rB1).rhsIdx (ix2 r q) ((contrEquiv1 (rB1) 128 rfl rfl).symm k) = ix2 k q := funext fun a => Fin.ext (by
    match a with
    | ⟨0, _⟩ => exact (rB1_rhs0 _ _).trans hk
    | ⟨1, _⟩ => exact rB1_rhs1 _ _)
  rw [el, er]

/-- A bias spread over the rows reads, at any row, its entry at the column. -/
theorem biasRows1_apply (b : Arr Ideal S128 .f32) (r : Fin 50000) (q : Fin 128) : biasRows b (ix2 r q) = b (ix1 q) := by
  unfold biasRows
  rw [broadcastInDim_apply _ _ _ (ix2 r q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- A bias as a one-row matrix reads, at its one row, its entry at the column. -/
theorem kRow128_1_apply (b : Arr Ideal S128 .f32) (q : Fin 128) : kRow128 b (ix2 (0 : Fin 1) q) = b (ix1 q) := by
  unfold kRow128
  exact shapeCast_a_1a_apply b _ 0 q

/-- THE STAGE EQUATION: the region's result on the prepared parameters is the reference's encoder. -/
theorem G1_eq_encT (x : Arr Ideal S50000x48 .f32) (w1 : Arr Ideal S128x48 .f32) (b1 : Arr Ideal S128 .f32)
    (w2 : Arr Ideal S128x128 .f32) (b2 : Arr Ideal S128 .f32) :
    G1 x (kTr48 w1) (kRow128 b1) (kTr128 w2) (kRow128 b2) = encT x w1 b1 w2 b2 := by
  funext i
  obtain ⟨r, q, rfl⟩ : ∃ (r : Fin 50000) (q : Fin 128), i = ix2 r q := ⟨i 0, i 1, eq_ix2 i⟩
  show g1 x (kTr48 w1) (kRow128 b1) (kTr128 w2) (kRow128 b2) r q = _
  unfold g1 encT dotT relu tr128 kTr48 kTr128
  rw [addf_apply, refB1_apply, biasRows1_apply, kRow128_1_apply]
  refine congrArg (· + b2 (ix1 q)) (Finset.sum_congr rfl fun k _ => ?_)
  rw [maximumf_apply, addf_apply, refA1_apply, biasRows1_apply, kRow128_1_apply,
    broadcastInDim_apply _ _ _ (ix2 r k) ix0 (fun a => a.elim0), constant_apply, Ideal.ofBits_zero_f32]

end Stage

end Cert.KernelIdeal.Hand
-- ==== Proof.KIBridgeR1.lean ====
import proofs.«166951_j44444321579084_2_alg».proof.Proof.KIBridgeOps
import proofs.«166951_j44444321579084_2_alg».proof.Proof.KIValueR1

/-! # Kernel call 1 leaves the target encoder's output

The call's output array ends at the call's value function of its operands as it finds them; each operand is
read at the call's entry (`KIBridgeOps`); and the value function on the prepared weights and biases is the
network's stage on the plain ones. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

set_option maxHeartbeats 8000000 in  -- the call's operand references are found by evaluating the call's window table, once per operand
/-- What kernel call 1 leaves in its output array. -/
theorem k_v9 (m : (ℓ : Loc nD τ sig) → Buf (Elt Ideal) ℓ) (ρ : Dev nD → PrngReg) (c : Dev nD) :
    W4 m ρ c (Proc.devRef .tc main_v9) = Cert.Stages.encT (m ((c : Thread nD τ).loc main_arg1)) (m ((c : Thread nD τ).loc main_arg7)) (m ((c : Thread nD τ).loc main_arg8)) (m ((c : Thread nD τ).loc main_arg9)) (m ((c : Thread nD τ).loc main_arg10)) := by
  rw [W4_out, final1 (V3 m ρ) c]
  show G1
      (W3 m ρ c (Proc.devRef .tc main_arg1))
      (W3 m ρ c (Proc.devRef .tc main_v5))
      (W3 m ρ c (Proc.devRef .tc main_v7))
      (W3 m ρ c (Proc.devRef .tc main_v6))
      (W3 m ρ c (Proc.devRef .tc main_v8)) = _
  rw [at3_arg1 m ρ c,
    at3_v5 m ρ c,
    at3_v7 m ρ c,
    at3_v6 m ρ c,
    at3_v8 m ρ c]
  exact G1_eq_encT _ _ _ _ _

end Cert.KernelIdeal.Hand
-- ==== Proof.KIValueR2.lean ====
import proofs.«166951_j44444321579084_2_alg».proof.Proof.KIFrameR2
import proofs.«166951_j44444321579084_2_alg».proof.Proof.KPrep
import Idealize.ShloMosaic.Lib.Pipeline.Value
import Idealize.ShloMosaic.Lib.ValueIdx
import Idealize.ShloMosaic.Lib.ValueLayout
import Idealize.ShloMosaic.PureOps.Ideal.Laws

/-!
# Region 2 at the ideal values: the output array as one function of the nine operand arrays

Row `r` of the output depends on row `r` of the three row operands only: entry `(r, j)` is the maximum of zero and half of
`(x0 W3 + b4 + x2 W5) (r, j) + (x1 W6 + b7 + x2 W8) (r, j)`, every product a plain sum over the 128 contracted positions (at
the ideal values a change of float format is the identity and a matrix product has no chunk order). Point `t` of the grid
writes rows `5000 t … 5000 t + 4999`, so the ten points' blocks tile the array and the array ends holding that function
(`final2`). With the weights transposed and the biases laid as rows, as the kernel program prepares them, that function
is the reference's layer stage (`G2_eq_layerOut0`): the same sums and the same additions in the same order.
-/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## A product of a row block with a weight matrix, at an entry -/

theorem lhs2_0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs2_1 (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
theorem rhs2_0 (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
theorem rhs2_1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A row block times a weight matrix, accumulated into zero, at entry `(p, q)`: the sum over the 128 contracted
    positions of row `p` of the block times column `q` of the matrix. -/
theorem matmul2_at (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ## One entry of the layer -/

/-- One entry of the layer from the three operand rows `r0 r1 r2`, the four weight columns `c3 c5 c6 c8` and the two
    bias entries `b4 b7`: the two branches, each two products and a bias, added, halved, and cut below at zero. -/
def cell2 (r0 r1 r2 c3 : Fin 128 → EReal) (b4 : EReal) (c5 c6 : Fin 128 → EReal) (b7 : EReal) (c8 : Fin 128 → EReal) : EReal :=
  max ((((∑ k : Fin 128, r0 k * c3 k) + b4 + ∑ k : Fin 128, r2 k * c5 k)
      + ((∑ k : Fin 128, r1 k * c6 k) + b7 + ∑ k : Fin 128, r2 k * c8 k)) * Ideal.ofBits .f32 0x3F000000#32)
    (Ideal.ofBits .f32 0x00000000#32)

theorem cell2_congr {r0 r1 r2 c3 c5 c6 c8 r0' r1' r2' c3' c5' c6' c8' : Fin 128 → EReal} {b4 b7 b4' b7' : EReal}
    (h0 : r0 = r0') (h1 : r1 = r1') (h2 : r2 = r2') (h3 : c3 = c3') (h4 : b4 = b4') (h5 : c5 = c5') (h6 : c6 = c6')
    (h7 : b7 = b7') (h8 : c8 = c8') : cell2 r0 r1 r2 c3 b4 c5 c6 b7 c8 = cell2 r0' r1' r2' c3' b4' c5' c6' b7' c8' := by
  subst h0 h1 h2 h3 h4 h5 h6 h7 h8; rfl

/-- The body's stored value at entry `(p, q)` of the block is that entry of the layer, of row `p` of the three row blocks. -/
theorem pay2_apply (x0 x1 x2 : FVec Ideal S5000x128 .f32) (w3 : FVec Ideal S128x128 .bf16) (b4 : FVec Ideal S1x128 .f32)
    (w5 w6 : FVec Ideal S128x128 .bf16) (b7 : FVec Ideal S1x128 .f32) (w8 : FVec Ideal S128x128 .bf16) (p : Fin 5000) (q : Fin 128) :
    k2_pay1 (k2_pay2 x0 x1 x2 w3 b4 w5 w6 b7 w8) (k2_pay3 (F := Ideal)) (ix2 p q)
      = cell2 (fun k => x0 (ix2 p k)) (fun k => x1 (ix2 p k)) (fun k => x2 (ix2 p k)) (fun k => w3 (ix2 k q)) (b4 (ix2 0 q))
          (fun k => w5 (ix2 k q)) (fun k => w6 (ix2 k q)) (b7 (ix2 0 q)) (fun k => w8 (ix2 k q)) := by
  unfold k2_pay1 k2_pay2 k2_pay3 cell2
  dsimp only
  simp only [maximumf_apply, mulf_apply, addf_apply, broadcast_apply, matmul2_at, truncf_apply, shapeCast_self, broadcastTo_1b_ab_apply]
  rfl

/-! ## The output array as one function of the operand arrays -/

/-- The layer over whole arrays: entry `(r, j)` from row `r` of the three row operands. -/
def G2 (a0 a1 a2 : S50000x128.Idx → Elt Ideal .f32) (a3 : S128x128.Idx → Elt Ideal .bf16) (a4 : S1x128.Idx → Elt Ideal .f32)
    (a5 a6 : S128x128.Idx → Elt Ideal .bf16) (a7 : S1x128.Idx → Elt Ideal .f32) (a8 : S128x128.Idx → Elt Ideal .bf16) :
    S50000x128.Idx → Elt Ideal .f32 := fun i =>
  cell2 (fun k => a0 (ix2 (i 0 : Fin 50000) k)) (fun k => a1 (ix2 (i 0 : Fin 50000) k)) (fun k => a2 (ix2 (i 0 : Fin 50000) k))
    (fun k => a3 (ix2 k (i 1 : Fin 128))) (a4 (ix2 0 (i 1 : Fin 128))) (fun k => a5 (ix2 k (i 1 : Fin 128))) (fun k => a6 (ix2 k (i 1 : Fin 128)))
    (a7 (ix2 0 (i 1 : Fin 128))) (fun k => a8 (ix2 k (i 1 : Fin 128)))

theorem G2_at (a0 a1 a2 : S50000x128.Idx → Elt Ideal .f32) (a3 : S128x128.Idx → Elt Ideal .bf16) (a4 : S1x128.Idx → Elt Ideal .f32)
    (a5 a6 : S128x128.Idx → Elt Ideal .bf16) (a7 : S1x128.Idx → Elt Ideal .f32) (a8 : S128x128.Idx → Elt Ideal .bf16) (r : Fin 50000) (q : Fin 128) :
    G2 a0 a1 a2 a3 a4 a5 a6 a7 a8 (ix2 r q)
      = cell2 (fun k => a0 (ix2 r k)) (fun k => a1 (ix2 r k)) (fun k => a2 (ix2 r k)) (fun k => a3 (ix2 k q)) (a4 (ix2 0 q))
          (fun k => a5 (ix2 k q)) (fun k => a6 (ix2 k q)) (a7 (ix2 0 q)) (fun k => a8 (ix2 k q)) := rfl

section Region
variable (V : (c : Dev nD) → (b : Ref sig .tc) → Buf (Elt Ideal) ((c : Thread nD τ).loc b))

theorem hz2 : (![0, 0] : Fin 2 → Nat) = fun _ => 0 := funext fun a => by fin_cases a <;> rfl

/-! The nine operand arrays as the region finds them, each at its literal shape. -/
abbrev arr2_0 (c : Dev nD) : Vec Ideal S50000x128 .f32 := V c (Pipeline.arrRef spec2 0)
abbrev arr2_1 (c : Dev nD) : Vec Ideal S50000x128 .f32 := V c (Pipeline.arrRef spec2 1)
abbrev arr2_2 (c : Dev nD) : Vec Ideal S50000x128 .f32 := V c (Pipeline.arrRef spec2 2)
abbrev arr2_3 (c : Dev nD) : Vec Ideal S128x128 .bf16 := V c (Pipeline.arrRef spec2 3)
abbrev arr2_4 (c : Dev nD) : Vec Ideal S1x128 .f32 := V c (Pipeline.arrRef spec2 4)
abbrev arr2_5 (c : Dev nD) : Vec Ideal S128x128 .bf16 := V c (Pipeline.arrRef spec2 5)
abbrev arr2_6 (c : Dev nD) : Vec Ideal S128x128 .bf16 := V c (Pipeline.arrRef spec2 6)
abbrev arr2_7 (c : Dev nD) : Vec Ideal S1x128 .f32 := V c (Pipeline.arrRef spec2 7)
abbrev arr2_8 (c : Dev nD) : Vec Ideal S128x128 .bf16 := V c (Pipeline.arrRef spec2 8)

/-- The printed index maps over the grid: the three row operands and the output are at row block `t` at point `t`, the
    weights and biases at their one block. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

/-! ## Each window's block as entries of its array -/

/-- Row `p` of window 0's block at point `t` is row `5000 t + p` of its array. -/
theorem iblk2_0_apply (c : Dev nD) (t : Fin cfg2.N) (p : Fin 5000) (k : Fin 128) (r : Fin 50000) (hr : r.val = t.val * 5000 + p.val) :
    (iblk2 V c 0 t : Vec Ideal S5000x128 .f32) (ix2 p k) = ((arr2_0 V c) : S50000x128.Idx → EReal) (ix2 r k) := by
  obtain ⟨e00, e01, e10, e11, e20, e21, e30, e31, e40, e41, e50, e51, e60, e61, e70, e71, e80, e81, e90, e91⟩ := idx_facts2 t
  show ((arr2_0 V c) : S50000x128.Idx → EReal) (((cfg2.win 0).blk t).view.emb (ix2 p k)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row `p` of window 1's block at point `t` is row `5000 t + p` of its array. -/
theorem iblk2_1_apply (c : Dev nD) (t : Fin cfg2.N) (p : Fin 5000) (k : Fin 128) (r : Fin 50000) (hr : r.val = t.val * 5000 + p.val) :
    (iblk2 V c 1 t : Vec Ideal S5000x128 .f32) (ix2 p k) = ((arr2_1 V c) : S50000x128.Idx → EReal) (ix2 r k) := by
  obtain ⟨e00, e01, e10, e11, e20, e21, e30, e31, e40, e41, e50, e51, e60, e61, e70, e71, e80, e81, e90, e91⟩ := idx_facts2 t
  show ((arr2_1 V c) : S50000x128.Idx → EReal) (((cfg2.win 1).blk t).view.emb (ix2 p k)) = _
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- Row `p` of window 2's block at point `t` is row `5000 t + p` of its array. -/
theorem iblk2_2_apply (c : Dev nD) (t : Fin cfg2.N) (p : Fin 5000) (k : Fin 128) (r : Fin 50000) (hr : r.val = t.val * 5000 + p.val) :
    (iblk2 V c 2 t : Vec Ideal S5000x128 .f32) (ix2 p k) = ((arr2_2 V c) : S50000x128.Idx → EReal) (ix2 r k) := by
  obtain ⟨e00, e01, e10, e11, e20, e21, e30, e31, e40, e41, e50, e51, e60, e61, e70, e71, e80, e81, e90, e91⟩ := idx_facts2 t
  show ((arr2_2 V c) : S50000x128.Idx → EReal) (((cfg2.win 2).blk t).view.emb (ix2 p k)) = _
  refine congrArg _ (funext fun a => Fin.ext ?_)
  match a with
  | ⟨0, _⟩ => show win2_2.index t (0 : Fin 2) * 5000 + 1 * p.val = r.val; omega
  | ⟨1, _⟩ => show win2_2.index t (1 : Fin 2) * 128 + 1 * k.val = k.val; omega

/-- Window 3's block at every point is its whole array. -/
theorem iblk2_3_apply (c : Dev nD) (t : Fin cfg2.N) (k : Fin 128) (q : Fin 128) :
    (iblk2 V c 3 t : Vec Ideal S128x128 .bf16) (ix2 k q) = ((arr2_3 V c) : S128x128.Idx → EReal) (ix2 k q) := by
  obtain ⟨e00, e01, e10, e11, e20, e21, e30, e31, e40, e41, e50, e51, e60, e61, e70, e71, e80, e81, e90, e91⟩ := idx_facts2 t
  show ((arr2_3 V c) : S128x128.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- Window 5's block at every point is its whole array. -/
theorem iblk2_5_apply (c : Dev nD) (t : Fin cfg2.N) (k : Fin 128) (q : Fin 128) :
    (iblk2 V c 5 t : Vec Ideal S128x128 .bf16) (ix2 k q) = ((arr2_5 V c) : S128x128.Idx → EReal) (ix2 k q) := by
  obtain ⟨e00, e01, e10, e11, e20, e21, e30, e31, e40, e41, e50, e51, e60, e61, e70, e71, e80, e81, e90, e91⟩ := idx_facts2 t
  show ((arr2_5 V c) : S128x128.Idx → EReal) (((cfg2.win 5).blk t).view.emb (ix2 k q)) = _
  refine congrArg _ (funext fun a => Fin.ext ?_)
  match a with
  | ⟨0, _⟩ => show win2_5.index t (0 : Fin 2) * 128 + 1 * k.val = k.val; omega
  | ⟨1, _⟩ => show win2_5.index t (1 : Fin 2) * 128 + 1 * q.val = q.val; omega

/-- Window 6's block at every point is its whole array. -/
theorem iblk2_6_apply (c : Dev nD) (t : Fin cfg2.N) (k : Fin 128) (q : Fin 128) :
    (iblk2 V c 6 t : Vec Ideal S128x128 .bf16) (ix2 k q) = ((arr2_6 V c) : S128x128.Idx → EReal) (ix2 k q) := by
  obtain ⟨e00, e01, e10, e11, e20, e21, e30, e31, e40, e41, e50, e51, e60, e61, e70, e71, e80, e81, e90, e91⟩ := idx_facts2 t
  show ((arr2_6 V c) : S128x128.Idx → EReal) (((cfg2.win 6).blk t).view.emb (ix2 k q)) = _
  refine congrArg _ (funext fun a => Fin.ext ?_)
  match a with
  | ⟨0, _⟩ => show win2_6.index t (0 : Fin 2) * 128 + 1 * k.val = k.val; omega
  | ⟨1, _⟩ => show win2_6.index t (1 : Fin 2) * 128 + 1 * q.val = q.val; omega

/-- Window 8's block at every point is its whole array. -/
theorem iblk2_8_apply (c : Dev nD) (t : Fin cfg2.N) (k : Fin 128) (q : Fin 128) :
    (iblk2 V c 8 t : Vec Ideal S128x128 .bf16) (ix2 k q) = ((arr2_8 V c) : S128x128.Idx → EReal) (ix2 k q) := by
  obtain ⟨e00, e01, e10, e11, e20, e21, e30, e31, e40, e41, e50, e51, e60, e61, e70, e71, e80, e81, e90, e91⟩ := idx_facts2 t
  show ((arr2_8 V c) : S128x128.Idx → EReal) (((cfg2.win 8).blk t).view.emb (ix2 k q)) = _
  refine congrArg _ (funext fun a => Fin.ext ?_)
  match a with
  | ⟨0, _⟩ => show win2_8.index t (0 : Fin 2) * 128 + 1 * k.val = k.val; omega
  | ⟨1, _⟩ => show win2_8.index t (1 : Fin 2) * 128 + 1 * q.val = q.val; omega

/-- Window 4's block at every point is its whole array, one row. -/
theorem iblk2_4_apply (c : Dev nD) (t : Fin cfg2.N) (q : Fin 128) :
    (iblk2 V c 4 t : Vec Ideal S1x128 .f32) (ix2 0 q) = ((arr2_4 V c) : S1x128.Idx → EReal) (ix2 0 q) := by
  obtain ⟨e00, e01, e10, e11, e20, e21, e30, e31, e40, e41, e50, e51, e60, e61, e70, e71, e80, e81, e90, e91⟩ := idx_facts2 t
  show ((arr2_4 V c) : S1x128.Idx → EReal) (((cfg2.win 4).blk t).view.emb (ix2 0 q)) = _
  refine congrArg _ (funext fun a => Fin.ext ?_)
  match a with
  | ⟨0, _⟩ => show win2_4.index t (0 : Fin 2) * 1 + 1 * (0 : Fin 1).val = (0 : Fin 1).val; omega
  | ⟨1, _⟩ => show win2_4.index t (1 : Fin 2) * 128 + 1 * q.val = q.val; omega

/-- Window 7's block at every point is its whole array, one row. -/
theorem iblk2_7_apply (c : Dev nD) (t : Fin cfg2.N) (q : Fin 128) :
    (iblk2 V c 7 t : Vec Ideal S1x128 .f32) (ix2 0 q) = ((arr2_7 V c) : S1x128.Idx → EReal) (ix2 0 q) := by
  obtain ⟨e00, e01, e10, e11, e20, e21, e30, e31, e40, e41, e50, e51, e60, e61, e70, e71, e80, e81, e90, e91⟩ := idx_facts2 t
  show ((arr2_7 V c) : S1x128.Idx → EReal) (((cfg2.win 7).blk t).view.emb (ix2 0 q)) = _
  refine congrArg _ (funext fun a => Fin.ext ?_)
  match a with
  | ⟨0, _⟩ => show win2_7.index t (0 : Fin 2) * 1 + 1 * (0 : Fin 1).val = (0 : Fin 1).val; omega
  | ⟨1, _⟩ => show win2_7.index t (1 : Fin 2) * 128 + 1 * q.val = q.val; omega

/-! ## What a point writes back, the cover, the array after the region -/

/-- Entry `(p, q)` of the output's block at point `t` sits at row `5000 t + p` of the array. -/
theorem emb2_9 (t : Fin cfg2.N) (p : Fin 5000) (q : Fin 128) (r : Fin 50000) (hr : r.val = t.val * 5000 + p.val) :
    (((cfg2.win 9).blk t).view.emb (ix2 p q) : S50000x128.Idx) = ix2 r q := by
  obtain ⟨e00, e01, e10, e11, e20, e21, e30, e31, e40, e41, e50, e51, e60, e61, e70, e71, e80, e81, e90, e91⟩ := idx_facts2 t
  refine funext fun a => Fin.ext ?_
  match a with
  | ⟨0, _⟩ => show win2_9.index t (0 : Fin 2) * 5000 + 1 * p.val = r.val; omega
  | ⟨1, _⟩ => show win2_9.index t (1 : Fin 2) * 128 + 1 * q.val = q.val; omega

set_option maxHeartbeats 2000000 in
/-- What point `t` writes back is block `t` of the layer of the operand arrays as the region finds them. -/
theorem flushed2_eq (c : Dev nD) (t : Fin cfg2.N) :
    (dat2 V c).flushed 9 t = ((cfg2.win 9).blk t).view.read (Elt Ideal) (G2 (arr2_0 V c) (arr2_1 V c) (arr2_2 V c) (arr2_3 V c) (arr2_4 V c) (arr2_5 V c) (arr2_6 V c) (arr2_7 V c) (arr2_8 V c)) := by
  show (cfg2.win 9).cut (grid2.coords t) ((dat2 V c).after 9 t) = _
  rw [after2_9]
  unfold out2_9
  rw [View.canon_unit_zero hz2]
  simp only [View.ld_unit_zero (S := S5000x128) hz2, View.ld_unit_zero (S := S128x128) hz2, View.ld_unit_zero (S := S1x128) hz2]
  refine funext fun (j : S5000x128.Idx) => ?_
  obtain ⟨p, q, rfl⟩ : ∃ (p : Fin 5000) (q : Fin 128), j = ix2 p q := ⟨j 0, j 1, eq_ix2 j⟩
  have ht : t.val < 10 := lt_of_lt_of_eq t.isLt N_2
  obtain ⟨e00, e01, e10, e11, e20, e21, e30, e31, e40, e41, e50, e51, e60, e61, e70, e71, e80, e81, e90, e91⟩ := idx_facts2 t
  have hemb := emb2_9 t p q ⟨t.val * 5000 + p.val, by omega⟩ rfl
  show k2_pay1 (k2_pay2 (iblk2 V c 0 t) (iblk2 V c 1 t) (iblk2 V c 2 t) (iblk2 V c 3 t) (iblk2 V c 4 t) (iblk2 V c 5 t) (iblk2 V c 6 t) (iblk2 V c 7 t) (iblk2 V c 8 t)) (k2_pay3 (F := Ideal)) (ix2 p q)
    = G2 (arr2_0 V c) (arr2_1 V c) (arr2_2 V c) (arr2_3 V c) (arr2_4 V c) (arr2_5 V c) (arr2_6 V c) (arr2_7 V c) (arr2_8 V c) (((cfg2.win 9).blk t).view.emb (ix2 p q))
  refine (pay2_apply (iblk2 V c 0 t) (iblk2 V c 1 t) (iblk2 V c 2 t) (iblk2 V c 3 t) (iblk2 V c 4 t) (iblk2 V c 5 t) (iblk2 V c 6 t) (iblk2 V c 7 t) (iblk2 V c 8 t) p q).trans ?_
  refine Eq.trans ?_ (congrArg (G2 (arr2_0 V c) (arr2_1 V c) (arr2_2 V c) (arr2_3 V c) (arr2_4 V c) (arr2_5 V c) (arr2_6 V c) (arr2_7 V c) (arr2_8 V c)) hemb.symm)
  refine Eq.trans ?_ (G2_at (arr2_0 V c) (arr2_1 V c) (arr2_2 V c) (arr2_3 V c) (arr2_4 V c) (arr2_5 V c) (arr2_6 V c) (arr2_7 V c) (arr2_8 V c) _ q).symm
  exact cell2_congr
    (funext fun k => iblk2_0_apply V c t p k _ rfl) (funext fun k => iblk2_1_apply V c t p k _ rfl) (funext fun k => iblk2_2_apply V c t p k _ rfl)
    (funext fun k => iblk2_3_apply V c t k q) (iblk2_4_apply V c t q) (funext fun k => iblk2_5_apply V c t k q)
    (funext fun k => iblk2_6_apply V c t k q) (iblk2_7_apply V c t q) (funext fun k => iblk2_8_apply V c t k q)

/-- An index of the array is in point `t`'s block iff each coordinate is in the block's range on its axis. -/
theorem mem_blk2 (t : Fin cfg2.N) (i : S50000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v136).slice (win2_9.rect t)).set ↔ _
  rw [View.set_slice_whole, Rect.mem_set_unit]
  exact Iff.rfl

/-- Every row is in the block of the point its number divided by 5000 names. -/
theorem cover2 (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e00, e01, e10, e11, e20, e21, e30, e31, e40, e41, e50, e51, e60, e61, e70, e71, e80, e81, e90, e91⟩ := idx_facts2 t
  refine ⟨t, flush2_9 t, ?_⟩
  rw [mem_blk2]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

/-- The output array after the region is the layer of the operand arrays as the region finds them. -/
theorem final2_arr (c : Dev nD) : (dat2 (F := Ideal) V c).arrAt 9 cfg2.N = G2 (arr2_0 V c) (arr2_1 V c) (arr2_2 V c) (arr2_3 V c) (arr2_4 V c) (arr2_5 V c) (arr2_6 V c) (arr2_7 V c) (arr2_8 V c) :=
  (dat2 V c).arrAt_eq_of_cover 9 _ (fun t _ => flushed2_eq V c t) (cover2)

set_option maxHeartbeats 4000000 in
/-- The same, with the nine operand arrays written out as the region-entry contents of the windows' arrays. -/
theorem final2 (c : Dev nD) : (dat2 (F := Ideal) V c).arrAt 9 cfg2.N
    = G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) :=
  final2_arr V c

end Region

/-! ## The layer as the reference's stages compose it -/

theorem rlhs_0 (i : S50000x128.Idx) (k : Cert.ReferenceIdeal.dot_S50000x128_S128x128_S50000x128_1_0_0_1_n_n.contr.Idx) : (Cert.ReferenceIdeal.dot_S50000x128_S128x128_S50000x128_1_0_0_1_n_n.lhsIdx i k 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem rlhs_1 (i : S50000x128.Idx) (k : Cert.ReferenceIdeal.dot_S50000x128_S128x128_S50000x128_1_0_0_1_n_n.contr.Idx) : (Cert.ReferenceIdeal.dot_S50000x128_S128x128_S50000x128_1_0_0_1_n_n.lhsIdx i k 1).val = (k ⟨0, by decide⟩).val :=
  Cert.ReferenceIdeal.dot_S50000x128_S128x128_S50000x128_1_0_0_1_n_n.lhsIdx_val_of_single rfl i k
theorem rrhs_0 (i : S50000x128.Idx) (k : Cert.ReferenceIdeal.dot_S50000x128_S128x128_S50000x128_1_0_0_1_n_n.contr.Idx) : (Cert.ReferenceIdeal.dot_S50000x128_S128x128_S50000x128_1_0_0_1_n_n.rhsIdx i k 0).val = (k ⟨0, by decide⟩).val :=
  Cert.ReferenceIdeal.dot_S50000x128_S128x128_S50000x128_1_0_0_1_n_n.rhsIdx_val_of_single rfl i k
theorem rrhs_1 (i : S50000x128.Idx) (k : Cert.ReferenceIdeal.dot_S50000x128_S128x128_S50000x128_1_0_0_1_n_n.contr.Idx) : (Cert.ReferenceIdeal.dot_S50000x128_S128x128_S50000x128_1_0_0_1_n_n.rhsIdx i k 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The reference's product with a transposed weight matrix, at entry `(r, j)`: row `r` of the operand against ROW `j` of
    the matrix as given. -/
theorem dotT_at (x : Cert.Stages.Arr Ideal S50000x128 .f32) (w : Cert.Stages.Arr Ideal S128x128 .f32) (r : Fin 50000) (j : Fin 128) :
    Cert.Stages.dotT (F := Ideal) x w (ix2 r j) = ∑ k : Fin 128, x (ix2 r k) * w (ix2 j k) := by
  unfold Cert.Stages.dotT Cert.Stages.tr128
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r j) ((contrEquiv1 Cert.ReferenceIdeal.dot_S50000x128_S128x128_S50000x128_1_0_0_1_n_n 128 rfl rfl).symm k) = ix2 r k := funext fun a => Fin.ext (by
    match a with
    | ⟨0, _⟩ => exact rlhs_0 _ _
    | ⟨1, _⟩ => exact (rlhs_1 _ _).trans hk)
  have er : Cert.ReferenceIdeal.dot_S50000x128_S128x128_S50000x128_1_0_0_1_n_n.rhsIdx (ix2 r j) ((contrEquiv1 Cert.ReferenceIdeal.dot_S50000x128_S128x128_S50000x128_1_0_0_1_n_n 128 rfl rfl).symm k) = ix2 k j := funext fun a => Fin.ext (by
    match a with
    | ⟨0, _⟩ => exact (rrhs_0 _ _).trans hk
    | ⟨1, _⟩ => exact rrhs_1 _ _)
  rw [el, er]
  exact congrArg (x (ix2 r k) * ·) (transpose_ix2_apply w _ k j)

/-- The reference's bias spread over the rows, at entry `(r, j)`: entry `j` of the bias. -/
theorem biasRows_at (b : Cert.Stages.Arr Ideal S128 .f32) (r : Fin 50000) (j : Fin 128) :
    Cert.Stages.biasRows (F := Ideal) b (ix2 r j) = b (ix1 j) := by
  unfold Cert.Stages.biasRows
  refine (broadcastInDim_apply _ _ _ (ix2 r j) (ix2 (0 : Fin 1) j) fun a => ?_).trans
    (broadcastInDim_apply _ _ b (ix2 (0 : Fin 1) j) (ix1 j) fun a => ?_)
  · match a with
    | ⟨0, _⟩ => rfl
    | ⟨1, _⟩ => rfl
  · match a with
    | ⟨0, _⟩ => rfl

/-- A weight matrix as the kernel takes it (transposed, narrowed), at entry `(k, j)`: the matrix as given at `(j, k)`. -/
theorem kT128_at (w : Cert.Stages.Arr Ideal S128x128 .f32) (k j : Fin 128) : Cert.KPrep.kT128 (F := Ideal) w (ix2 k j) = w (ix2 j k) := by
  unfold Cert.KPrep.kT128 Cert.KPrep.kBf128 Cert.KPrep.kTr128
  exact transpose_ix2_apply w _ k j

/-- A bias as the kernel takes it (one row), at entry `(0, j)`: entry `j` of the bias. -/
theorem kRow128_at (b : Cert.Stages.Arr Ideal S128 .f32) (j : Fin 128) : Cert.KPrep.kRow128 (F := Ideal) b (ix2 0 j) = b (ix1 j) := by
  unfold Cert.KPrep.kRow128
  exact shapeCast_a_1a_apply b _ 0 j

/-- The fused layer kernel's function of its operands, at the weights and biases as the kernel program prepares them, is
    the reference's layer stage: entry by entry the same sums, the same additions in the same order, the same halving
    and cut at zero. -/
theorem G2_eq_layerOut0 (aggA aggB h : Cert.Stages.Arr Ideal S50000x128 .f32) (wlA : Cert.Stages.Arr Ideal S128x128 .f32) (blA : Cert.Stages.Arr Ideal S128 .f32)
    (wrA wlB : Cert.Stages.Arr Ideal S128x128 .f32) (blB : Cert.Stages.Arr Ideal S128 .f32) (wrB : Cert.Stages.Arr Ideal S128x128 .f32) :
    G2 aggA aggB h (Cert.KPrep.kT128 wlA) (Cert.KPrep.kRow128 blA) (Cert.KPrep.kT128 wrA) (Cert.KPrep.kT128 wlB) (Cert.KPrep.kRow128 blB) (Cert.KPrep.kT128 wrB)
      = Cert.Stages.layerOut0 aggA aggB h wlA blA wrA wlB blB wrB := by
  funext i
  obtain ⟨r, j, rfl⟩ : ∃ (r : Fin 50000) (j : Fin 128), i = ix2 r j := ⟨i 0, i 1, eq_ix2 i⟩
  rw [G2_at]
  unfold cell2 Cert.Stages.layerOut0 Cert.Stages.relu Cert.Stages.halfSum Cert.Stages.sageOut
  simp only [maximumf_apply, mulf_apply, addf_apply, dotT_at, biasRows_at, kT128_at, kRow128_at]
  rfl

end Cert.KernelIdeal.Hand

end
-- ==== Proof.KIBridgeR2.lean ====
import proofs.«166951_j44444321579084_2_alg».proof.Proof.KIBridgeOps
import proofs.«166951_j44444321579084_2_alg».proof.Proof.KIValueR2

/-! # Kernel call 2 leaves the first layer on the source nodes's output

The call's output array ends at the call's value function of its operands as it finds them; each operand is
read at the call's entry (`KIBridgeOps`); and the value function on the prepared weights and biases is the
network's stage on the plain ones. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

set_option maxHeartbeats 8000000 in  -- the call's operand references are found by evaluating the call's window table, once per operand
/-- What kernel call 2 leaves in its output array. -/
theorem k_v136 (m : (ℓ : Loc nD τ sig) → Buf (Elt Ideal) ℓ) (ρ : Dev nD → PrngReg) (c : Dev nD)
    (x4 : Arr Ideal S50000x128 .f32) (h4 : W2 m ρ c (Proc.devRef .tc main_v4) = x4)
    (x9 : Arr Ideal S50000x128 .f32) (h9 : W4 m ρ c (Proc.devRef .tc main_v9) = x9) :
    W8 m ρ c (Proc.devRef .tc main_v136) = Cert.Stages.h1s x4 x9 (m ((c : Thread nD τ).loc main_arg24)) (m ((c : Thread nD τ).loc main_arg27)) (m ((c : Thread nD τ).loc main_arg11)) (m ((c : Thread nD τ).loc main_arg12)) (m ((c : Thread nD τ).loc main_arg13)) := by
  rw [W8_out, final2 (V7 m ρ) c]
  show G2
      (W7 m ρ c (Proc.devRef .tc main_v62))
      (W7 m ρ c (Proc.devRef .tc main_v113))
      (W7 m ρ c (Proc.devRef .tc main_v4))
      (W7 m ρ c (Proc.devRef .tc main_v127))
      (W7 m ρ c (Proc.devRef .tc main_v134))
      (W7 m ρ c (Proc.devRef .tc main_v129))
      (W7 m ρ c (Proc.devRef .tc main_v131))
      (W7 m ρ c (Proc.devRef .tc main_v135))
      (W7 m ρ c (Proc.devRef .tc main_v133)) = _
  rw [at7_v62 m ρ c x4 h4,
    at7_v113 m ρ c x9 h9,
    at7_v4 m ρ c x4 h4,
    at7_v127 m ρ c,
    at7_v134 m ρ c,
    at7_v129 m ρ c,
    at7_v131 m ρ c,
    at7_v135 m ρ c,
    at7_v133 m ρ c]
  exact G2_eq_layerOut0 _ _ _ _ _ _ _ _ _

end Cert.KernelIdeal.Hand
-- ==== Proof.KIValueR3.lean ====
import proofs.«166951_j44444321579084_2_alg».proof.Proof.KIFrameR3
import proofs.«166951_j44444321579084_2_alg».proof.Proof.KIValueR2

/-!
# Region 3 at the ideal values: the output array as one function of the nine operand arrays

The same kernel function as region 2 on other operands: the output array ends holding the same function `G2` of this
region's nine operand arrays (`final3`).
-/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The body's stored value at entry `(p, q)` of the block is that entry of the layer, of row `p` of the three row blocks. -/
theorem pay3_apply (x0 x1 x2 : FVec Ideal S5000x128 .f32) (w3 : FVec Ideal S128x128 .bf16) (b4 : FVec Ideal S1x128 .f32)
    (w5 w6 : FVec Ideal S128x128 .bf16) (b7 : FVec Ideal S1x128 .f32) (w8 : FVec Ideal S128x128 .bf16) (p : Fin 5000) (q : Fin 128) :
    k3_pay1 (k3_pay2 x0 x1 x2 w3 b4 w5 w6 b7 w8) (k3_pay3 (F := Ideal)) (ix2 p q)
      = cell2 (fun k => x0 (ix2 p k)) (fun k => x1 (ix2 p k)) (fun k => x2 (ix2 p k)) (fun k => w3 (ix2 k q)) (b4 (ix2 0 q))
          (fun k => w5 (ix2 k q)) (fun k => w6 (ix2 k q)) (b7 (ix2 0 q)) (fun k => w8 (ix2 k q)) := by
  unfold k3_pay1 k3_pay2 k3_pay3 cell2
  dsimp only
  simp only [maximumf_apply, mulf_apply, addf_apply, broadcast_apply, matmul2_at, truncf_apply, shapeCast_self, broadcastTo_1b_ab_apply]
  rfl

/-- Region 3 runs the same kernel function as region 2: the same function of its nine operand arrays. -/
abbrev G3 (a0 a1 a2 : S50000x128.Idx → Elt Ideal .f32) (a3 : S128x128.Idx → Elt Ideal .bf16) (a4 : S1x128.Idx → Elt Ideal .f32)
    (a5 a6 : S128x128.Idx → Elt Ideal .bf16) (a7 : S1x128.Idx → Elt Ideal .f32) (a8 : S128x128.Idx → Elt Ideal .bf16) :
    S50000x128.Idx → Elt Ideal .f32 := G2 a0 a1 a2 a3 a4 a5 a6 a7 a8

/-- So, at the weights and biases as the kernel program prepares them, it is the reference's layer stage too. -/
theorem G3_eq_layerOut0 (aggA aggB h : Cert.Stages.Arr Ideal S50000x128 .f32) (wlA : Cert.Stages.Arr Ideal S128x128 .f32) (blA : Cert.Stages.Arr Ideal S128 .f32)
    (wrA wlB : Cert.Stages.Arr Ideal S128x128 .f32) (blB : Cert.Stages.Arr Ideal S128 .f32) (wrB : Cert.Stages.Arr Ideal S128x128 .f32) :
    G3 aggA aggB h (Cert.KPrep.kT128 wlA) (Cert.KPrep.kRow128 blA) (Cert.KPrep.kT128 wrA) (Cert.KPrep.kT128 wlB) (Cert.KPrep.kRow128 blB) (Cert.KPrep.kT128 wrB)
      = Cert.Stages.layerOut0 aggA aggB h wlA blA wrA wlB blB wrB :=
  G2_eq_layerOut0 aggA aggB h wlA blA wrA wlB blB wrB

section Region
variable (V : (c : Dev nD) → (b : Ref sig .tc) → Buf (Elt Ideal) ((c : Thread nD τ).loc b))

theorem hz3 : (![0, 0] : Fin 2 → Nat) = fun _ => 0 := funext fun a => by fin_cases a <;> rfl

/-! The nine operand arrays as the region finds them, each at its literal shape. -/
abbrev arr3_0 (c : Dev nD) : Vec Ideal S50000x128 .f32 := V c (Pipeline.arrRef spec3 0)
abbrev arr3_1 (c : Dev nD) : Vec Ideal S50000x128 .f32 := V c (Pipeline.arrRef spec3 1)
abbrev arr3_2 (c : Dev nD) : Vec Ideal S50000x128 .f32 := V c (Pipeline.arrRef spec3 2)
abbrev arr3_3 (c : Dev nD) : Vec Ideal S128x128 .bf16 := V c (Pipeline.arrRef spec3 3)
abbrev arr3_4 (c : Dev nD) : Vec Ideal S1x128 .f32 := V c (Pipeline.arrRef spec3 4)
abbrev arr3_5 (c : Dev nD) : Vec Ideal S128x128 .bf16 := V c (Pipeline.arrRef spec3 5)
abbrev arr3_6 (c : Dev nD) : Vec Ideal S128x128 .bf16 := V c (Pipeline.arrRef spec3 6)
abbrev arr3_7 (c : Dev nD) : Vec Ideal S1x128 .f32 := V c (Pipeline.arrRef spec3 7)
abbrev arr3_8 (c : Dev nD) : Vec Ideal S128x128 .bf16 := V c (Pipeline.arrRef spec3 8)

/-- The printed index maps over the grid: the three row operands and the output are at row block `t` at point `t`, the
    weights and biases at their one block. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = t.val
    ∧ win3_9.index t (1 : Fin 2) = 0 :=
  (by decide +kernel : ∀ t : Fin grid3.N, _)

/-! ## Each window's block as entries of its array -/

/-- Row `p` of window 0's block at point `t` is row `5000 t + p` of its array. -/
theorem iblk3_0_apply (c : Dev nD) (t : Fin cfg3.N) (p : Fin 5000) (k : Fin 128) (r : Fin 50000) (hr : r.val = t.val * 5000 + p.val) :
    (iblk3 V c 0 t : Vec Ideal S5000x128 .f32) (ix2 p k) = ((arr3_0 V c) : S50000x128.Idx → EReal) (ix2 r k) := by
  obtain ⟨e00, e01, e10, e11, e20, e21, e30, e31, e40, e41, e50, e51, e60, e61, e70, e71, e80, e81, e90, e91⟩ := idx_facts3 t
  show ((arr3_0 V c) : S50000x128.Idx → EReal) (((cfg3.win 0).blk t).view.emb (ix2 p k)) = _
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- Row `p` of window 1's block at point `t` is row `5000 t + p` of its array. -/
theorem iblk3_1_apply (c : Dev nD) (t : Fin cfg3.N) (p : Fin 5000) (k : Fin 128) (r : Fin 50000) (hr : r.val = t.val * 5000 + p.val) :
    (iblk3 V c 1 t : Vec Ideal S5000x128 .f32) (ix2 p k) = ((arr3_1 V c) : S50000x128.Idx → EReal) (ix2 r k) := by
  obtain ⟨e00, e01, e10, e11, e20, e21, e30, e31, e40, e41, e50, e51, e60, e61, e70, e71, e80, e81, e90, e91⟩ := idx_facts3 t
  show ((arr3_1 V c) : S50000x128.Idx → EReal) (((cfg3.win 1).blk t).view.emb (ix2 p k)) = _
  refine congrArg _ (funext fun a => Fin.ext ?_)
  match a with
  | ⟨0, _⟩ => show win3_1.index t (0 : Fin 2) * 5000 + 1 * p.val = r.val; omega
  | ⟨1, _⟩ => show win3_1.index t (1 : Fin 2) * 128 + 1 * k.val = k.val; omega

/-- Row `p` of window 2's block at point `t` is row `5000 t + p` of its array. -/
theorem iblk3_2_apply (c : Dev nD) (t : Fin cfg3.N) (p : Fin 5000) (k : Fin 128) (r : Fin 50000) (hr : r.val = t.val * 5000 + p.val) :
    (iblk3 V c 2 t : Vec Ideal S5000x128 .f32) (ix2 p k) = ((arr3_2 V c) : S50000x128.Idx → EReal) (ix2 r k) := by
  obtain ⟨e00, e01, e10, e11, e20, e21, e30, e31, e40, e41, e50, e51, e60, e61, e70, e71, e80, e81, e90, e91⟩ := idx_facts3 t
  show ((arr3_2 V c) : S50000x128.Idx → EReal) (((cfg3.win 2).blk t).view.emb (ix2 p k)) = _
  refine congrArg _ (funext fun a => Fin.ext ?_)
  match a with
  | ⟨0, _⟩ => show win3_2.index t (0 : Fin 2) * 5000 + 1 * p.val = r.val; omega
  | ⟨1, _⟩ => show win3_2.index t (1 : Fin 2) * 128 + 1 * k.val = k.val; omega

/-- Window 3's block at every point is its whole array. -/
theorem iblk3_3_apply (c : Dev nD) (t : Fin cfg3.N) (k : Fin 128) (q : Fin 128) :
    (iblk3 V c 3 t : Vec Ideal S128x128 .bf16) (ix2 k q) = ((arr3_3 V c) : S128x128.Idx → EReal) (ix2 k q) := by
  obtain ⟨e00, e01, e10, e11, e20, e21, e30, e31, e40, e41, e50, e51, e60, e61, e70, e71, e80, e81, e90, e91⟩ := idx_facts3 t
  show ((arr3_3 V c) : S128x128.Idx → EReal) (((cfg3.win 3).blk t).view.emb (ix2 k q)) = _
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- Window 5's block at every point is its whole array. -/
theorem iblk3_5_apply (c : Dev nD) (t : Fin cfg3.N) (k : Fin 128) (q : Fin 128) :
    (iblk3 V c 5 t : Vec Ideal S128x128 .bf16) (ix2 k q) = ((arr3_5 V c) : S128x128.Idx → EReal) (ix2 k q) := by
  obtain ⟨e00, e01, e10, e11, e20, e21, e30, e31, e40, e41, e50, e51, e60, e61, e70, e71, e80, e81, e90, e91⟩ := idx_facts3 t
  show ((arr3_5 V c) : S128x128.Idx → EReal) (((cfg3.win 5).blk t).view.emb (ix2 k q)) = _
  refine congrArg _ (funext fun a => Fin.ext ?_)
  match a with
  | ⟨0, _⟩ => show win3_5.index t (0 : Fin 2) * 128 + 1 * k.val = k.val; omega
  | ⟨1, _⟩ => show win3_5.index t (1 : Fin 2) * 128 + 1 * q.val = q.val; omega

/-- Window 6's block at every point is its whole array. -/
theorem iblk3_6_apply (c : Dev nD) (t : Fin cfg3.N) (k : Fin 128) (q : Fin 128) :
    (iblk3 V c 6 t : Vec Ideal S128x128 .bf16) (ix2 k q) = ((arr3_6 V c) : S128x128.Idx → EReal) (ix2 k q) := by
  obtain ⟨e00, e01, e10, e11, e20, e21, e30, e31, e40, e41, e50, e51, e60, e61, e70, e71, e80, e81, e90, e91⟩ := idx_facts3 t
  show ((arr3_6 V c) : S128x128.Idx → EReal) (((cfg3.win 6).blk t).view.emb (ix2 k q)) = _
  refine congrArg _ (funext fun a => Fin.ext ?_)
  match a with
  | ⟨0, _⟩ => show win3_6.index t (0 : Fin 2) * 128 + 1 * k.val = k.val; omega
  | ⟨1, _⟩ => show win3_6.index t (1 : Fin 2) * 128 + 1 * q.val = q.val; omega

/-- Window 8's block at every point is its whole array. -/
theorem iblk3_8_apply (c : Dev nD) (t : Fin cfg3.N) (k : Fin 128) (q : Fin 128) :
    (iblk3 V c 8 t : Vec Ideal S128x128 .bf16) (ix2 k q) = ((arr3_8 V c) : S128x128.Idx → EReal) (ix2 k q) := by
  obtain ⟨e00, e01, e10, e11, e20, e21, e30, e31, e40, e41, e50, e51, e60, e61, e70, e71, e80, e81, e90, e91⟩ := idx_facts3 t
  show ((arr3_8 V c) : S128x128.Idx → EReal) (((cfg3.win 8).blk t).view.emb (ix2 k q)) = _
  refine congrArg _ (funext fun a => Fin.ext ?_)
  match a with
  | ⟨0, _⟩ => show win3_8.index t (0 : Fin 2) * 128 + 1 * k.val = k.val; omega
  | ⟨1, _⟩ => show win3_8.index t (1 : Fin 2) * 128 + 1 * q.val = q.val; omega

/-- Window 4's block at every point is its whole array, one row. -/
theorem iblk3_4_apply (c : Dev nD) (t : Fin cfg3.N) (q : Fin 128) :
    (iblk3 V c 4 t : Vec Ideal S1x128 .f32) (ix2 0 q) = ((arr3_4 V c) : S1x128.Idx → EReal) (ix2 0 q) := by
  obtain ⟨e00, e01, e10, e11, e20, e21, e30, e31, e40, e41, e50, e51, e60, e61, e70, e71, e80, e81, e90, e91⟩ := idx_facts3 t
  show ((arr3_4 V c) : S1x128.Idx → EReal) (((cfg3.win 4).blk t).view.emb (ix2 0 q)) = _
  refine congrArg _ (funext fun a => Fin.ext ?_)
  match a with
  | ⟨0, _⟩ => show win3_4.index t (0 : Fin 2) * 1 + 1 * (0 : Fin 1).val = (0 : Fin 1).val; omega
  | ⟨1, _⟩ => show win3_4.index t (1 : Fin 2) * 128 + 1 * q.val = q.val; omega

/-- Window 7's block at every point is its whole array, one row. -/
theorem iblk3_7_apply (c : Dev nD) (t : Fin cfg3.N) (q : Fin 128) :
    (iblk3 V c 7 t : Vec Ideal S1x128 .f32) (ix2 0 q) = ((arr3_7 V c) : S1x128.Idx → EReal) (ix2 0 q) := by
  obtain ⟨e00, e01, e10, e11, e20, e21, e30, e31, e40, e41, e50, e51, e60, e61, e70, e71, e80, e81, e90, e91⟩ := idx_facts3 t
  show ((arr3_7 V c) : S1x128.Idx → EReal) (((cfg3.win 7).blk t).view.emb (ix2 0 q)) = _
  refine congrArg _ (funext fun a => Fin.ext ?_)
  match a with
  | ⟨0, _⟩ => show win3_7.index t (0 : Fin 2) * 1 + 1 * (0 : Fin 1).val = (0 : Fin 1).val; omega
  | ⟨1, _⟩ => show win3_7.index t (1 : Fin 2) * 128 + 1 * q.val = q.val; omega

/-! ## What a point writes back, the cover, the array after the region -/

/-- Entry `(p, q)` of the output's block at point `t` sits at row `5000 t + p` of the array. -/
theorem emb3_9 (t : Fin cfg3.N) (p : Fin 5000) (q : Fin 128) (r : Fin 50000) (hr : r.val = t.val * 5000 + p.val) :
    (((cfg3.win 9).blk t).view.emb (ix2 p q) : S50000x128.Idx) = ix2 r q := by
  obtain ⟨e00, e01, e10, e11, e20, e21, e30, e31, e40, e41, e50, e51, e60, e61, e70, e71, e80, e81, e90, e91⟩ := idx_facts3 t
  refine funext fun a => Fin.ext ?_
  match a with
  | ⟨0, _⟩ => show win3_9.index t (0 : Fin 2) * 5000 + 1 * p.val = r.val; omega
  | ⟨1, _⟩ => show win3_9.index t (1 : Fin 2) * 128 + 1 * q.val = q.val; omega

set_option maxHeartbeats 2000000 in
/-- What point `t` writes back is block `t` of the layer of the operand arrays as the region finds them. -/
theorem flushed3_eq (c : Dev nD) (t : Fin cfg3.N) :
    (dat3 V c).flushed 9 t = ((cfg3.win 9).blk t).view.read (Elt Ideal) (G3 (arr3_0 V c) (arr3_1 V c) (arr3_2 V c) (arr3_3 V c) (arr3_4 V c) (arr3_5 V c) (arr3_6 V c) (arr3_7 V c) (arr3_8 V c)) := by
  show (cfg3.win 9).cut (grid3.coords t) ((dat3 V c).after 9 t) = _
  rw [after3_9]
  unfold out3_9
  rw [View.canon_unit_zero hz3]
  simp only [View.ld_unit_zero (S := S5000x128) hz3, View.ld_unit_zero (S := S128x128) hz3, View.ld_unit_zero (S := S1x128) hz3]
  refine funext fun (j : S5000x128.Idx) => ?_
  obtain ⟨p, q, rfl⟩ : ∃ (p : Fin 5000) (q : Fin 128), j = ix2 p q := ⟨j 0, j 1, eq_ix2 j⟩
  have ht : t.val < 10 := lt_of_lt_of_eq t.isLt N_3
  obtain ⟨e00, e01, e10, e11, e20, e21, e30, e31, e40, e41, e50, e51, e60, e61, e70, e71, e80, e81, e90, e91⟩ := idx_facts3 t
  have hemb := emb3_9 t p q ⟨t.val * 5000 + p.val, by omega⟩ rfl
  show k3_pay1 (k3_pay2 (iblk3 V c 0 t) (iblk3 V c 1 t) (iblk3 V c 2 t) (iblk3 V c 3 t) (iblk3 V c 4 t) (iblk3 V c 5 t) (iblk3 V c 6 t) (iblk3 V c 7 t) (iblk3 V c 8 t)) (k3_pay3 (F := Ideal)) (ix2 p q)
    = G3 (arr3_0 V c) (arr3_1 V c) (arr3_2 V c) (arr3_3 V c) (arr3_4 V c) (arr3_5 V c) (arr3_6 V c) (arr3_7 V c) (arr3_8 V c) (((cfg3.win 9).blk t).view.emb (ix2 p q))
  refine (pay3_apply (iblk3 V c 0 t) (iblk3 V c 1 t) (iblk3 V c 2 t) (iblk3 V c 3 t) (iblk3 V c 4 t) (iblk3 V c 5 t) (iblk3 V c 6 t) (iblk3 V c 7 t) (iblk3 V c 8 t) p q).trans ?_
  refine Eq.trans ?_ (congrArg (G3 (arr3_0 V c) (arr3_1 V c) (arr3_2 V c) (arr3_3 V c) (arr3_4 V c) (arr3_5 V c) (arr3_6 V c) (arr3_7 V c) (arr3_8 V c)) hemb.symm)
  refine Eq.trans ?_ (G2_at (arr3_0 V c) (arr3_1 V c) (arr3_2 V c) (arr3_3 V c) (arr3_4 V c) (arr3_5 V c) (arr3_6 V c) (arr3_7 V c) (arr3_8 V c) _ q).symm
  exact cell2_congr
    (funext fun k => iblk3_0_apply V c t p k _ rfl) (funext fun k => iblk3_1_apply V c t p k _ rfl) (funext fun k => iblk3_2_apply V c t p k _ rfl)
    (funext fun k => iblk3_3_apply V c t k q) (iblk3_4_apply V c t q) (funext fun k => iblk3_5_apply V c t k q)
    (funext fun k => iblk3_6_apply V c t k q) (iblk3_7_apply V c t q) (funext fun k => iblk3_8_apply V c t k q)

/-- An index of the array is in point `t`'s block iff each coordinate is in the block's range on its axis. -/
theorem mem_blk3 (t : Fin cfg3.N) (i : S50000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v159).slice (win3_9.rect t)).set ↔ _
  rw [View.set_slice_whole, Rect.mem_set_unit]
  exact Iff.rfl

/-- Every row is in the block of the point its number divided by 5000 names. -/
theorem cover3 (i : S50000x128.Idx) : ∃ t : Fin cfg3.N, (cfg3.win 9).flush t = true ∧ i ∈ ((cfg3.win 9).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41, e50, e51, e60, e61, e70, e71, e80, e81, e90, e91⟩ := idx_facts3 t
  refine ⟨t, flush3_9 t, ?_⟩
  rw [mem_blk3]
  intro a
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 128 ≤ (i 1).val ∧ (i 1).val < win3_9.index t (1 : Fin 2) * 128 + 128; omega

/-- The output array after the region is the layer of the operand arrays as the region finds them. -/
theorem final3_arr (c : Dev nD) : (dat3 (F := Ideal) V c).arrAt 9 cfg3.N = G3 (arr3_0 V c) (arr3_1 V c) (arr3_2 V c) (arr3_3 V c) (arr3_4 V c) (arr3_5 V c) (arr3_6 V c) (arr3_7 V c) (arr3_8 V c) :=
  (dat3 V c).arrAt_eq_of_cover 9 _ (fun t _ => flushed3_eq V c t) (cover3)

set_option maxHeartbeats 4000000 in
/-- The same, with the nine operand arrays written out as the region-entry contents of the windows' arrays. -/
theorem final3 (c : Dev nD) : (dat3 (F := Ideal) V c).arrAt 9 cfg3.N
    = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  final3_arr V c

end Region

end Cert.KernelIdeal.Hand

end
-- ==== Proof.KIBridgeR3.lean ====
import proofs.«166951_j44444321579084_2_alg».proof.Proof.KIBridgeOps
import proofs.«166951_j44444321579084_2_alg».proof.Proof.KIValueR3

/-! # Kernel call 3 leaves the first layer on the target nodes's output

The call's output array ends at the call's value function of its operands as it finds them; each operand is
read at the call's entry (`KIBridgeOps`); and the value function on the prepared weights and biases is the
network's stage on the plain ones. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

set_option maxHeartbeats 8000000 in  -- the call's operand references are found by evaluating the call's window table, once per operand
/-- What kernel call 3 leaves in its output array. -/
theorem k_v159 (m : (ℓ : Loc nD τ sig) → Buf (Elt Ideal) ℓ) (ρ : Dev nD → PrngReg) (c : Dev nD)
    (x4 : Arr Ideal S50000x128 .f32) (h4 : W2 m ρ c (Proc.devRef .tc main_v4) = x4)
    (x9 : Arr Ideal S50000x128 .f32) (h9 : W4 m ρ c (Proc.devRef .tc main_v9) = x9) :
    W11 m ρ c (Proc.devRef .tc main_v159) = Cert.Stages.h1t x4 x9 (m ((c : Thread nD τ).loc main_arg25)) (m ((c : Thread nD τ).loc main_arg26)) (m ((c : Thread nD τ).loc main_arg11)) (m ((c : Thread nD τ).loc main_arg12)) (m ((c : Thread nD τ).loc main_arg13)) := by
  rw [W11_out, final3 (V10 m ρ) c]
  show G3
      (W10 m ρ c (Proc.devRef .tc main_v79))
      (W10 m ρ c (Proc.devRef .tc main_v96))
      (W10 m ρ c (Proc.devRef .tc main_v9))
      (W10 m ρ c (Proc.devRef .tc main_v150))
      (W10 m ρ c (Proc.devRef .tc main_v157))
      (W10 m ρ c (Proc.devRef .tc main_v152))
      (W10 m ρ c (Proc.devRef .tc main_v154))
      (W10 m ρ c (Proc.devRef .tc main_v158))
      (W10 m ρ c (Proc.devRef .tc main_v156)) = _
  rw [at10_v79 m ρ c x9 h9,
    at10_v96 m ρ c x4 h4,
    at10_v9 m ρ c x9 h9,
    at10_v150 m ρ c,
    at10_v157 m ρ c,
    at10_v152 m ρ c,
    at10_v154 m ρ c,
    at10_v158 m ρ c,
    at10_v156 m ρ c]
  exact G3_eq_layerOut0 _ _ _ _ _ _ _ _ _

end Cert.KernelIdeal.Hand
-- ==== Proof.KIValueG.lean ====
import proofs.«166951_j44444321579084_2_alg».proof.Proof.Gen.KernelIdeal
import Idealize.ShloMosaic.Lib.ValueIdx
import Idealize.ShloMosaic.PureOps.Ideal.Laws

/-!
# A residual graph layer's fused kernel, index by index, over the extended reals

The four residual layer kernels compute the same function of their ten operands. Over the extended reals a change
of float format is the identity and a matrix product into a zero accumulator is the plain sum of products, so entry
`(r, q)` of the result is

  max ((((Σₖ a₀[r,k]·a₄[k,q] + a₅[0,q]) + Σₖ a₂[r,k]·a₆[k,q]) + ((Σₖ a₁[r,k]·a₇[k,q] + a₈[0,q]) + Σₖ a₂[r,k]·a₉[k,q])) · ½ + a₃[r,q]) 0:

it depends on row `r` of the four node-feature operands and on the whole of the six parameter operands.
-/

noncomputable section

namespace Cert.KernelIdeal.Hand

open Cert.KernelIdeal
open Idealize.ShloMosaic Idealize.ShloMosaic.ValueIdx

/-- Entry `(r, q)` of a residual layer's output from the fused kernel's ten operands: the two relations' affine maps
    of the aggregated and the self features, averaged, the residual added, rectified. -/
def GRrow (a0 a1 a2 a3 : Vec Ideal S50000x128 .f32) (a4 : Vec Ideal S128x128 .bf16) (a5 : Vec Ideal S1x128 .f32)
    (a6 a7 : Vec Ideal S128x128 .bf16) (a8 : Vec Ideal S1x128 .f32) (a9 : Vec Ideal S128x128 .bf16) (r : Fin 50000) (q : Fin 128) : EReal :=
  max ((((((∑ k : Fin 128, a0 (ix2 r k) * a4 (ix2 k q)) + a5 (ix2 (0 : Fin 1) q)) + ∑ k : Fin 128, a2 (ix2 r k) * a6 (ix2 k q))
        + (((∑ k : Fin 128, a1 (ix2 r k) * a7 (ix2 k q)) + a8 (ix2 (0 : Fin 1) q)) + ∑ k : Fin 128, a2 (ix2 r k) * a9 (ix2 k q)))
      * Ideal.ofBits .f32 0x3F000000#32) + a3 (ix2 r q)) (Ideal.ofBits .f32 0x00000000#32)

/-- The layer's output array, index by index. -/
def GR (a0 a1 a2 a3 : Vec Ideal S50000x128 .f32) (a4 : Vec Ideal S128x128 .bf16) (a5 : Vec Ideal S1x128 .f32)
    (a6 a7 : Vec Ideal S128x128 .bf16) (a8 : Vec Ideal S1x128 .f32) (a9 : Vec Ideal S128x128 .bf16) : Vec Ideal S50000x128 .f32 :=
  fun i => GRrow a0 a1 a2 a3 a4 a5 a6 a7 a8 a9 (i 0) (i 1)

/-- A matrix product of a 5000-row block into a zero accumulator, read at row `p` and column `q`: the sum over
    the contracted coordinate of the products of the entries. -/
theorem matmulR_row {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p q) ((contrEquiv1 _ 128 rfl rfl).symm c) = ix2 p c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q) ((contrEquiv1 _ 128 rfl rfl).symm c) = ix2 c q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

end Cert.KernelIdeal.Hand
-- ==== Proof.KIValueR4.lean ====
import proofs.«166951_j44444321579084_2_alg».proof.Proof.KIFrameR4
import proofs.«166951_j44444321579084_2_alg».proof.Proof.KIValueG
import Idealize.ShloMosaic.Lib.Pipeline.Value
import Idealize.ShloMosaic.Lib.ValueIdx
import Idealize.ShloMosaic.Lib.ValueLayout
import Idealize.ShloMosaic.PureOps.Ideal.Laws

/-!
# The value of the region of custom call 4, over the extended reals

The region's grid cuts the 50000 rows into ten blocks of 5000. At each point the body stores, for every row of the
block and every column, the entry `GRrow` computes from that row of the four node-feature operands and from the whole
of the six parameter operands. The ten blocks tile the output array, so after the region it holds `GR` of the ten
operand arrays at every index.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's stored value at an index -/

/-- The stored value at row `p`, column `q` of the block, from the ten loaded blocks. -/
theorem pay4_apply (x0 x1 x2 x3 : Vec Ideal S5000x128 .f32) (x4 : Vec Ideal S128x128 .bf16) (x5 : Vec Ideal S1x128 .f32)
    (x6 x7 : Vec Ideal S128x128 .bf16) (x8 : Vec Ideal S1x128 .f32) (x9 : Vec Ideal S128x128 .bf16) (p : Fin 5000) (q : Fin 128) :
    k4_pay1 (k4_pay2 x0 x1 x2 x4 x5 x6 x7 x8 x9) x3 (ix2 p q)
      = max ((((((∑ k : Fin 128, x0 (ix2 p k) * x4 (ix2 k q)) + x5 (ix2 (0 : Fin 1) q)) + ∑ k : Fin 128, x2 (ix2 p k) * x6 (ix2 k q))
            + (((∑ k : Fin 128, x1 (ix2 p k) * x7 (ix2 k q)) + x8 (ix2 (0 : Fin 1) q)) + ∑ k : Fin 128, x2 (ix2 p k) * x9 (ix2 k q)))
          * Ideal.ofBits .f32 0x3F000000#32) + x3 (ix2 p q)) (Ideal.ofBits .f32 0x00000000#32) := by
  unfold k4_pay1 k4_pay2
  simp only [shapeCast_self]
  show max ((((matmul dot_S5000x128_S128x128_S5000x128_1_0_0_1_n_n none (truncf .bf16 x0 bitsLt_bf16_f32) x4 (constant (F := Ideal) S5000x128 .f32 0x00000000#32) (ix2 p q)
              + broadcastTo S5000x128 x5 broadcasts_S1x128_S5000x128 (ix2 p q))
            + matmul dot_S5000x128_S128x128_S5000x128_1_0_0_1_n_n none (truncf .bf16 x2 bitsLt_bf16_f32) x6 (constant (F := Ideal) S5000x128 .f32 0x00000000#32) (ix2 p q))
          + ((matmul dot_S5000x128_S128x128_S5000x128_1_0_0_1_n_n none (truncf .bf16 x1 bitsLt_bf16_f32) x7 (constant (F := Ideal) S5000x128 .f32 0x00000000#32) (ix2 p q)
              + broadcastTo S5000x128 x8 broadcasts_S1x128_S5000x128 (ix2 p q))
            + matmul dot_S5000x128_S128x128_S5000x128_1_0_0_1_n_n none (truncf .bf16 x2 bitsLt_bf16_f32) x9 (constant (F := Ideal) S5000x128 .f32 0x00000000#32) (ix2 p q)))
        * Ideal.ofBits .f32 0x3F000000#32 + x3 (ix2 p q)) (Ideal.ofBits .f32 0x00000000#32) = _
  rw [matmulR_row, matmulR_row, matmulR_row, matmulR_row, broadcastTo_1b_ab_apply, broadcastTo_1b_ab_apply]
  rfl

/-- The stored value at an index of the block is the result's entry at the matching index of the arrays: row
    `b + p` of an array is row `p` of its block (`h0 … h3`), and the six small operands are read whole. -/
theorem pay4_eq_G (x0 x1 x2 x3 : Vec Ideal S5000x128 .f32) (a0 a1 a2 a3 : Vec Ideal S50000x128 .f32)
    (x4 a4 : Vec Ideal S128x128 .bf16) (x5 a5 : Vec Ideal S1x128 .f32) (x6 a6 x7 a7 : Vec Ideal S128x128 .bf16) (x8 a8 : Vec Ideal S1x128 .f32)
    (x9 a9 : Vec Ideal S128x128 .bf16) (b : Nat) (j : S5000x128.Idx) (i : S50000x128.Idx)
    (h4 : x4 = a4) (h5 : x5 = a5) (h6 : x6 = a6) (h7 : x7 = a7) (h8 : x8 = a8) (h9 : x9 = a9)
    (hi0 : (i 0).val = b + (j 0).val) (hi1 : (i 1).val = (j 1).val)
    (h0 : ∀ (y : S5000x128.Idx) (z : S50000x128.Idx), (z 0).val = b + (y 0).val → (z 1).val = (y 1).val → x0 y = a0 z)
    (h1 : ∀ (y : S5000x128.Idx) (z : S50000x128.Idx), (z 0).val = b + (y 0).val → (z 1).val = (y 1).val → x1 y = a1 z)
    (h2 : ∀ (y : S5000x128.Idx) (z : S50000x128.Idx), (z 0).val = b + (y 0).val → (z 1).val = (y 1).val → x2 y = a2 z)
    (h3 : ∀ (y : S5000x128.Idx) (z : S50000x128.Idx), (z 0).val = b + (y 0).val → (z 1).val = (y 1).val → x3 y = a3 z) :
    k4_pay1 (k4_pay2 x0 x1 x2 x4 x5 x6 x7 x8 x9) x3 j = GR a0 a1 a2 a3 a4 a5 a6 a7 a8 a9 i := by
  subst h4 h5 h6 h7 h8 h9
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = b + p.val := hi0
  obtain rfl : s = q := Fin.ext hi1
  have e0 : ∀ k : Fin 128, x0 (ix2 p k) = a0 (ix2 r k) := fun k => h0 _ _ hr rfl
  have e1 : ∀ k : Fin 128, x1 (ix2 p k) = a1 (ix2 r k) := fun k => h1 _ _ hr rfl
  have e2 : ∀ k : Fin 128, x2 (ix2 p k) = a2 (ix2 r k) := fun k => h2 _ _ hr rfl
  have e3 : x3 (ix2 p s) = a3 (ix2 r s) := h3 _ _ hr rfl
  rw [pay4_apply]
  show _ = GRrow a0 a1 a2 a3 x4 x5 x6 x7 x8 x9 r s
  unfold GRrow
  simp only [e0, e1, e2, e3]

/-! ## From blocks to the array -/

variable (V : (c : Dev nD) → (b : Ref sig .tc) → Buf (Elt Ideal) ((c : Thread nD τ).loc b))

/-! The call's ten operand arrays as the region finds them, each at its literal shape. -/
abbrev arr4_0 (c : Dev nD) : Vec Ideal S50000x128 .f32 := V c (Pipeline.arrRef spec4 0)
abbrev arr4_1 (c : Dev nD) : Vec Ideal S50000x128 .f32 := V c (Pipeline.arrRef spec4 1)
abbrev arr4_2 (c : Dev nD) : Vec Ideal S50000x128 .f32 := V c (Pipeline.arrRef spec4 2)
abbrev arr4_3 (c : Dev nD) : Vec Ideal S50000x128 .f32 := V c (Pipeline.arrRef spec4 3)
abbrev arr4_4 (c : Dev nD) : Vec Ideal S128x128 .bf16 := V c (Pipeline.arrRef spec4 4)
abbrev arr4_5 (c : Dev nD) : Vec Ideal S1x128 .f32 := V c (Pipeline.arrRef spec4 5)
abbrev arr4_6 (c : Dev nD) : Vec Ideal S128x128 .bf16 := V c (Pipeline.arrRef spec4 6)
abbrev arr4_7 (c : Dev nD) : Vec Ideal S128x128 .bf16 := V c (Pipeline.arrRef spec4 7)
abbrev arr4_8 (c : Dev nD) : Vec Ideal S1x128 .f32 := V c (Pipeline.arrRef spec4 8)
abbrev arr4_9 (c : Dev nD) : Vec Ideal S128x128 .bf16 := V c (Pipeline.arrRef spec4 9)

theorem hz4 : (![0, 0] : Fin 2 → Nat) = fun _ => 0 := funext fun a => by fin_cases a <;> rfl

/-- The windows' block indices, decided over the grid: the four row-blocked inputs and the output are at block
    `(t, 0)` at point `t`, the six small inputs at block `(0, 0)`. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = t.val
    ∧ win4_3.index t (1 : Fin 2) = 0
    ∧ win4_10.index t (0 : Fin 2) = t.val
    ∧ win4_10.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = 0
    ∧ win4_9.index t (1 : Fin 2) = 0 :=
  (by decide +kernel : ∀ t : Fin grid4.N, _)

/-- Input window 0's block at point `t` is rows `5000 t … 5000 t + 4999` of its array. -/
theorem iblk4_0_apply (c : Dev nD) (t : Fin cfg4.N) (y : S5000x128.Idx) (i : S50000x128.Idx)
    (h0 : (i 0).val = t.val * 5000 + (y 0).val) (h1 : (i 1).val = (y 1).val) :
    (iblk4 V c 0 t : Vec Ideal S5000x128 .f32) y = arr4_0 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  unfold iblk4
  rw [View.read_apply]
  show arr4_0 V c (((cfg4.win 0).blk t).view.emb y) = _
  refine congrArg _ (funext fun a => Fin.ext ?_)
  match a with
  | ⟨0, _⟩ => show win4_0.index t (0 : Fin 2) * 5000 + 1 * (y 0).val = (i 0).val; rw [e0_0, h0]; omega
  | ⟨1, _⟩ => show win4_0.index t (1 : Fin 2) * 128 + 1 * (y 1).val = (i 1).val; rw [e0_1, h1]; omega

/-- Input window 1's block at point `t` is rows `5000 t … 5000 t + 4999` of its array. -/
theorem iblk4_1_apply (c : Dev nD) (t : Fin cfg4.N) (y : S5000x128.Idx) (i : S50000x128.Idx)
    (h0 : (i 0).val = t.val * 5000 + (y 0).val) (h1 : (i 1).val = (y 1).val) :
    (iblk4 V c 1 t : Vec Ideal S5000x128 .f32) y = arr4_1 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  unfold iblk4
  rw [View.read_apply]
  show arr4_1 V c (((cfg4.win 1).blk t).view.emb y) = _
  refine congrArg _ (funext fun a => Fin.ext ?_)
  match a with
  | ⟨0, _⟩ => show win4_1.index t (0 : Fin 2) * 5000 + 1 * (y 0).val = (i 0).val; rw [e1_0, h0]; omega
  | ⟨1, _⟩ => show win4_1.index t (1 : Fin 2) * 128 + 1 * (y 1).val = (i 1).val; rw [e1_1, h1]; omega

/-- Input window 2's block at point `t` is rows `5000 t … 5000 t + 4999` of its array. -/
theorem iblk4_2_apply (c : Dev nD) (t : Fin cfg4.N) (y : S5000x128.Idx) (i : S50000x128.Idx)
    (h0 : (i 0).val = t.val * 5000 + (y 0).val) (h1 : (i 1).val = (y 1).val) :
    (iblk4 V c 2 t : Vec Ideal S5000x128 .f32) y = arr4_2 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  unfold iblk4
  rw [View.read_apply]
  show arr4_2 V c (((cfg4.win 2).blk t).view.emb y) = _
  refine congrArg _ (funext fun a => Fin.ext ?_)
  match a with
  | ⟨0, _⟩ => show win4_2.index t (0 : Fin 2) * 5000 + 1 * (y 0).val = (i 0).val; rw [e2_0, h0]; omega
  | ⟨1, _⟩ => show win4_2.index t (1 : Fin 2) * 128 + 1 * (y 1).val = (i 1).val; rw [e2_1, h1]; omega

/-- Input window 3's block at point `t` is rows `5000 t … 5000 t + 4999` of its array. -/
theorem iblk4_3_apply (c : Dev nD) (t : Fin cfg4.N) (y : S5000x128.Idx) (i : S50000x128.Idx)
    (h0 : (i 0).val = t.val * 5000 + (y 0).val) (h1 : (i 1).val = (y 1).val) :
    (iblk4 V c 3 t : Vec Ideal S5000x128 .f32) y = arr4_3 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  unfold iblk4
  rw [View.read_apply]
  show arr4_3 V c (((cfg4.win 3).blk t).view.emb y) = _
  refine congrArg _ (funext fun a => Fin.ext ?_)
  match a with
  | ⟨0, _⟩ => show win4_3.index t (0 : Fin 2) * 5000 + 1 * (y 0).val = (i 0).val; rw [e3_0, h0]; omega
  | ⟨1, _⟩ => show win4_3.index t (1 : Fin 2) * 128 + 1 * (y 1).val = (i 1).val; rw [e3_1, h1]; omega

/-- Input window 4's block at every point is the whole of its array. -/
theorem iblk4_4_eq (c : Dev nD) (t : Fin cfg4.N) :
    (iblk4 V c 4 t : Vec Ideal S128x128 .bf16) = arr4_4 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  funext y
  unfold iblk4
  rw [View.read_apply]
  show arr4_4 V c (((cfg4.win 4).blk t).view.emb y) = _
  refine congrArg _ (funext fun a => Fin.ext ?_)
  match a with
  | ⟨0, _⟩ => show win4_4.index t (0 : Fin 2) * 128 + 1 * (y 0).val = (y 0).val; rw [e4_0]; omega
  | ⟨1, _⟩ => show win4_4.index t (1 : Fin 2) * 128 + 1 * (y 1).val = (y 1).val; rw [e4_1]; omega

/-- Input window 5's block at every point is the whole of its array. -/
theorem iblk4_5_eq (c : Dev nD) (t : Fin cfg4.N) :
    (iblk4 V c 5 t : Vec Ideal S1x128 .f32) = arr4_5 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  funext y
  unfold iblk4
  rw [View.read_apply]
  show arr4_5 V c (((cfg4.win 5).blk t).view.emb y) = _
  refine congrArg _ (funext fun a => Fin.ext ?_)
  match a with
  | ⟨0, _⟩ => show win4_5.index t (0 : Fin 2) * 1 + 1 * (y 0).val = (y 0).val; rw [e5_0]; omega
  | ⟨1, _⟩ => show win4_5.index t (1 : Fin 2) * 128 + 1 * (y 1).val = (y 1).val; rw [e5_1]; omega

/-- Input window 6's block at every point is the whole of its array. -/
theorem iblk4_6_eq (c : Dev nD) (t : Fin cfg4.N) :
    (iblk4 V c 6 t : Vec Ideal S128x128 .bf16) = arr4_6 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  funext y
  unfold iblk4
  rw [View.read_apply]
  show arr4_6 V c (((cfg4.win 6).blk t).view.emb y) = _
  refine congrArg _ (funext fun a => Fin.ext ?_)
  match a with
  | ⟨0, _⟩ => show win4_6.index t (0 : Fin 2) * 128 + 1 * (y 0).val = (y 0).val; rw [e6_0]; omega
  | ⟨1, _⟩ => show win4_6.index t (1 : Fin 2) * 128 + 1 * (y 1).val = (y 1).val; rw [e6_1]; omega

/-- Input window 7's block at every point is the whole of its array. -/
theorem iblk4_7_eq (c : Dev nD) (t : Fin cfg4.N) :
    (iblk4 V c 7 t : Vec Ideal S128x128 .bf16) = arr4_7 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  funext y
  unfold iblk4
  rw [View.read_apply]
  show arr4_7 V c (((cfg4.win 7).blk t).view.emb y) = _
  refine congrArg _ (funext fun a => Fin.ext ?_)
  match a with
  | ⟨0, _⟩ => show win4_7.index t (0 : Fin 2) * 128 + 1 * (y 0).val = (y 0).val; rw [e7_0]; omega
  | ⟨1, _⟩ => show win4_7.index t (1 : Fin 2) * 128 + 1 * (y 1).val = (y 1).val; rw [e7_1]; omega

/-- Input window 8's block at every point is the whole of its array. -/
theorem iblk4_8_eq (c : Dev nD) (t : Fin cfg4.N) :
    (iblk4 V c 8 t : Vec Ideal S1x128 .f32) = arr4_8 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  funext y
  unfold iblk4
  rw [View.read_apply]
  show arr4_8 V c (((cfg4.win 8).blk t).view.emb y) = _
  refine congrArg _ (funext fun a => Fin.ext ?_)
  match a with
  | ⟨0, _⟩ => show win4_8.index t (0 : Fin 2) * 1 + 1 * (y 0).val = (y 0).val; rw [e8_0]; omega
  | ⟨1, _⟩ => show win4_8.index t (1 : Fin 2) * 128 + 1 * (y 1).val = (y 1).val; rw [e8_1]; omega

/-- Input window 9's block at every point is the whole of its array. -/
theorem iblk4_9_eq (c : Dev nD) (t : Fin cfg4.N) :
    (iblk4 V c 9 t : Vec Ideal S128x128 .bf16) = arr4_9 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  funext y
  unfold iblk4
  rw [View.read_apply]
  show arr4_9 V c (((cfg4.win 9).blk t).view.emb y) = _
  refine congrArg _ (funext fun a => Fin.ext ?_)
  match a with
  | ⟨0, _⟩ => show win4_9.index t (0 : Fin 2) * 128 + 1 * (y 0).val = (y 0).val; rw [e9_0]; omega
  | ⟨1, _⟩ => show win4_9.index t (1 : Fin 2) * 128 + 1 * (y 1).val = (y 1).val; rw [e9_1]; omega

/-- What point `t` writes back is block `t` of `GR` of the arrays as the region finds them. -/
theorem flushed4_eq (c : Dev nD) (t : Fin cfg4.N) :
    (dat4 (F := Ideal) V c).flushed 10 t = ((cfg4.win 10).blk t).view.read (Elt Ideal) (GR (arr4_0 V c) (arr4_1 V c) (arr4_2 V c) (arr4_3 V c) (arr4_4 V c) (arr4_5 V c) (arr4_6 V c) (arr4_7 V c) (arr4_8 V c) (arr4_9 V c)) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
  show (cfg4.win 10).cut (grid4.coords t) ((dat4 V c).after 10 t) = _
  rw [after4_10]
  unfold out4_10
  rw [View.canon_unit_zero hz4]
  simp only [View.ld_unit_zero (S := S5000x128) hz4, View.ld_unit_zero (S := S128x128) hz4, View.ld_unit_zero (S := S1x128) hz4]
  funext j
  rw [View.read_apply]
  refine pay4_eq_G (iblk4 V c 0 t) (iblk4 V c 1 t) (iblk4 V c 2 t) (iblk4 V c 3 t)
    (arr4_0 V c) (arr4_1 V c) (arr4_2 V c) (arr4_3 V c)
    (iblk4 V c 4 t) (arr4_4 V c) (iblk4 V c 5 t) (arr4_5 V c)
    (iblk4 V c 6 t) (arr4_6 V c) (iblk4 V c 7 t) (arr4_7 V c)
    (iblk4 V c 8 t) (arr4_8 V c) (iblk4 V c 9 t) (arr4_9 V c)
    (t.val * 5000) j (((cfg4.win 10).blk t).view.emb j)
    (iblk4_4_eq V c t) (iblk4_5_eq V c t) (iblk4_6_eq V c t) (iblk4_7_eq V c t) (iblk4_8_eq V c t) (iblk4_9_eq V c t) ?_ ?_
    (fun y z hz0 hz1 => iblk4_0_apply V c t y z hz0 hz1) (fun y z hz0 hz1 => iblk4_1_apply V c t y z hz0 hz1)
    (fun y z hz0 hz1 => iblk4_2_apply V c t y z hz0 hz1) (fun y z hz0 hz1 => iblk4_3_apply V c t y z hz0 hz1)
  · show win4_10.index t (0 : Fin 2) * 5000 + 1 * (j 0).val = t.val * 5000 + (j 0).val
    rw [e10_0]; omega
  · show win4_10.index t (1 : Fin 2) * 128 + 1 * (j 1).val = (j 1).val
    rw [e10_1]; omega

/-- An index of the output array is in point `t`'s block iff each coordinate is in the block's range on its axis. -/
theorem mem_blk4 (t : Fin cfg4.N) (i : S50000x128.Idx) :
    i ∈ ((cfg4.win 10).blk t).view.set ↔ ∀ a : Fin 2, win4_10.index t a * S5000x128.size a ≤ (i a).val ∧ (i a).val < win4_10.index t a * S5000x128.size a + S5000x128.size a := by
  show i ∈ ((View.whole main_v250).slice (win4_10.rect t)).set ↔ _
  rw [View.set_slice_whole, Rect.mem_set_unit]
  exact Iff.rfl

/-- The output array after the region: `GR` of the ten operand arrays as the region finds them. Row `r` is
    written back at point `r / 5000`. -/
theorem final4_arr (c : Dev nD) : (dat4 (F := Ideal) V c).arrAt 10 cfg4.N = GR (arr4_0 V c) (arr4_1 V c) (arr4_2 V c) (arr4_3 V c) (arr4_4 V c) (arr4_5 V c) (arr4_6 V c) (arr4_7 V c) (arr4_8 V c) (arr4_9 V c) :=
  (dat4 (F := Ideal) V c).arrAt_eq_of_cover 10 (GR (arr4_0 V c) (arr4_1 V c) (arr4_2 V c) (arr4_3 V c) (arr4_4 V c) (arr4_5 V c) (arr4_6 V c) (arr4_7 V c) (arr4_8 V c) (arr4_9 V c)) (fun t _ => flushed4_eq V c t) fun i => by
    have hN : cfg4.N = 10 := N_4
    have hi0 : (i 0).val < 50000 := (i 0).isLt
    have hi1 : (i 1).val < 128 := (i 1).isLt
    obtain ⟨t, ht⟩ : ∃ t : Fin cfg4.N, t.val = (i 0).val / 5000 := ⟨⟨(i 0).val / 5000, by rw [hN]; omega⟩, rfl⟩
    obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts4 t
    refine ⟨t, flush4_10 t, ?_⟩
    rw [mem_blk4]
    intro a
    match a with
    | ⟨0, _⟩ => show win4_10.index t (0 : Fin 2) * 5000 ≤ (i 0).val ∧ (i 0).val < win4_10.index t (0 : Fin 2) * 5000 + 5000
                rw [e10_0, ht]; omega
    | ⟨1, _⟩ => show win4_10.index t (1 : Fin 2) * 128 ≤ (i 1).val ∧ (i 1).val < win4_10.index t (1 : Fin 2) * 128 + 128
                rw [e10_1]; omega

set_option maxHeartbeats 4000000 in
/-- The same, with the ten operand arrays written out as the region-entry contents of the windows' arrays. -/
theorem final4 (c : Dev nD) : (dat4 (F := Ideal) V c).arrAt 10 cfg4.N
    = GR (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) :=
  final4_arr V c

end Cert.KernelIdeal.Hand
-- ==== Proof.KIValueStage.lean ====
import proofs.«166951_j44444321579084_2_alg».proof.Proof.KIValueG
import proofs.«166951_j44444321579084_2_alg».proof.Proof.Stages
import proofs.«166951_j44444321579084_2_alg».proof.Proof.KPrep
import Idealize.ShloMosaic.Lib.Pipeline.Value
import Idealize.ShloMosaic.Lib.ValueIdx
import Idealize.ShloMosaic.Lib.ValueLayout
import Idealize.ShloMosaic.PureOps.Ideal.Laws

/-!
# A residual layer's fused kernel computes the reference's layer

Over the extended reals. The reference computes a residual layer as
`relu (((aggA·wlAᵀ + blA + h·wrAᵀ) + (aggB·wlBᵀ + blB + h·wrBᵀ)) · ½ + h)` with whole-array host operations; the kernel
program hands its fused kernel the same arrays with every weight matrix already transposed (and narrowed, which
changes nothing here) and every bias as a one-row matrix. Read at an index `(r, q)`, both are the same expression
in the entries of the arrays: a product `x·wᵀ` is `Σₖ x[r,k]·w[q,k]` on either side.
-/

noncomputable section

namespace Cert.KernelIdeal.Hand

open Cert.KernelIdeal
open Idealize.ShloMosaic Idealize.ShloMosaic.ValueIdx
open Cert.Stages (Arr)

namespace StageR

/-! ## The reference's stages read at an index -/

/-- `x · wᵀ` at row `r`, column `q`: the sum over `k` of `x[r,k] · w[q,k]`. -/
theorem dotT_apply (x : Arr Ideal S50000x128 .f32) (w : Arr Ideal S128x128 .f32) (r : Fin 50000) (q : Fin 128) :
    Cert.Stages.dotT x w (ix2 r q) = ∑ k : Fin 128, x (ix2 r k) * w (ix2 q k) := by
  unfold Cert.Stages.dotT
  show FloatOps.dotGeneral _ none _ x (Cert.Stages.tr128 w) (ix2 r q) = _
  rw [Ideal.dotGeneral_apply, ← Equiv.sum_comp (contrEquiv1 Cert.ReferenceIdeal.dot_S50000x128_S128x128_S50000x128_1_0_0_1_n_n 128 rfl rfl).symm]
  refine Finset.sum_congr rfl fun c _ => ?_
  have c2 := contrEquiv1_symm_val Cert.ReferenceIdeal.dot_S50000x128_S128x128_S50000x128_1_0_0_1_n_n 128 rfl rfl c
  have l2 : Cert.ReferenceIdeal.dot_S50000x128_S128x128_S50000x128_1_0_0_1_n_n.lhsIdx (ix2 r q) ((contrEquiv1 _ 128 rfl rfl).symm c) = ix2 r c := by
    funext ax; apply Fin.ext
    match ax with
    | ⟨0, _⟩ => simp [DotDims.lhsIdx, Cert.ReferenceIdeal.dot_S50000x128_S128x128_S50000x128_1_0_0_1_n_n]; rfl
    | ⟨1, _⟩ => simp [DotDims.lhsIdx, Cert.ReferenceIdeal.dot_S50000x128_S128x128_S50000x128_1_0_0_1_n_n]; exact c2
  have r2 : Cert.ReferenceIdeal.dot_S50000x128_S128x128_S50000x128_1_0_0_1_n_n.rhsIdx (ix2 r q) ((contrEquiv1 _ 128 rfl rfl).symm c) = ix2 c q := by
    funext ax; apply Fin.ext
    match ax with
    | ⟨0, _⟩ => simp [DotDims.rhsIdx, Cert.ReferenceIdeal.dot_S50000x128_S128x128_S50000x128_1_0_0_1_n_n]; exact c2
    | ⟨1, _⟩ => simp [DotDims.rhsIdx, Cert.ReferenceIdeal.dot_S50000x128_S128x128_S50000x128_1_0_0_1_n_n]; rfl
  rw [l2, r2]
  unfold Cert.Stages.tr128
  rw [transpose_ix2_apply]

/-- A bias spread over the rows reads, at `(r, q)`, its entry `q`. -/
theorem biasRows_apply (b : Arr Ideal S128 .f32) (r : Fin 50000) (q : Fin 128) :
    Cert.Stages.biasRows b (ix2 r q) = b (ix1 q) := by
  unfold Cert.Stages.biasRows
  refine (broadcastInDim_apply _ _ _ (ix2 r q) (ix2 (0 : Fin 1) q) (fun a => ?_)).trans
    (broadcastInDim_apply _ _ b (ix2 (0 : Fin 1) q) (ix1 q) (fun a => ?_))
  · match a with
    | ⟨0, _⟩ => rfl
    | ⟨1, _⟩ => rfl
  · match a with
    | ⟨0, _⟩ => rfl

/-- One relation's output at an index. -/
theorem sageOut_apply (agg h : Arr Ideal S50000x128 .f32) (wl : Arr Ideal S128x128 .f32) (bl : Arr Ideal S128 .f32)
    (wr : Arr Ideal S128x128 .f32) (r : Fin 50000) (q : Fin 128) :
    Cert.Stages.sageOut agg h wl bl wr (ix2 r q)
      = ((∑ k : Fin 128, agg (ix2 r k) * wl (ix2 q k)) + bl (ix1 q)) + ∑ k : Fin 128, h (ix2 r k) * wr (ix2 q k) := by
  unfold Cert.Stages.sageOut
  rw [addf_apply, addf_apply, dotT_apply, dotT_apply, biasRows_apply]

/-- A residual layer's output at an index. -/
theorem layerOutR_apply (aggA aggB h : Arr Ideal S50000x128 .f32) (wlA : Arr Ideal S128x128 .f32) (blA : Arr Ideal S128 .f32)
    (wrA wlB : Arr Ideal S128x128 .f32) (blB : Arr Ideal S128 .f32) (wrB : Arr Ideal S128x128 .f32) (r : Fin 50000) (q : Fin 128) :
    Cert.Stages.layerOutR aggA aggB h wlA blA wrA wlB blB wrB (ix2 r q)
      = max ((((((∑ k : Fin 128, aggA (ix2 r k) * wlA (ix2 q k)) + blA (ix1 q)) + ∑ k : Fin 128, h (ix2 r k) * wrA (ix2 q k))
          + (((∑ k : Fin 128, aggB (ix2 r k) * wlB (ix2 q k)) + blB (ix1 q)) + ∑ k : Fin 128, h (ix2 r k) * wrB (ix2 q k)))
        * Ideal.ofBits .f32 0x3F000000#32) + h (ix2 r q)) (Ideal.ofBits .f32 0x00000000#32) := by
  unfold Cert.Stages.layerOutR Cert.Stages.relu Cert.Stages.halfSum
  rw [maximumf_apply, addf_apply, mulf_apply, addf_apply, sageOut_apply, sageOut_apply]
  have hs : ∀ w : BitVec 32, broadcastInDim (α := EReal) Cert.ReferenceIdeal.S50000x128 ![] Cert.ReferenceIdeal.Facts₀.bcast_S_S50000x128
      (constant (F := Ideal) Cert.ReferenceIdeal.S_ .f32 w) (ix2 r q) = Ideal.ofBits .f32 w := fun w =>
    broadcastInDim_apply _ _ _ (ix2 r q) (fun a => a.elim0) (fun a => a.elim0)
  rw [hs, hs]

/-! ## The kernel program's prepared operands read at an index -/

/-- A weight matrix transposed and narrowed reads, at `(k, q)`, the matrix at `(q, k)`. -/
theorem kT128_apply (w : Arr Ideal S128x128 .f32) (k q : Fin 128) : Cert.KPrep.kT128 w (ix2 k q) = w (ix2 q k) := by
  unfold Cert.KPrep.kT128 Cert.KPrep.kBf128 Cert.KPrep.kTr128
  rw [truncf_apply, transpose_ix2_apply]

/-- A bias as a one-row matrix reads, at `(0, q)`, its entry `q`. -/
theorem kRow128_apply (b : Arr Ideal S128 .f32) (q : Fin 128) : Cert.KPrep.kRow128 b (ix2 (0 : Fin 1) q) = b (ix1 q) := by
  unfold Cert.KPrep.kRow128
  exact shapeCast_a_1a_apply _ _ _ _

end StageR

open StageR

/-! ## The fused kernel's result is the reference's layer -/

/-- On the operands the kernel program hands the call — the two aggregates, the layer's input twice (as the
    self features and as the residual), each weight matrix transposed and narrowed, each bias as a row — the
    index-by-index result is the reference's residual layer: entry by entry the two are the same expression. -/
theorem GR_eq_layerOutR (aggA aggB h : Arr Ideal S50000x128 .f32) (wlA : Arr Ideal S128x128 .f32) (blA : Arr Ideal S128 .f32)
    (wrA wlB : Arr Ideal S128x128 .f32) (blB : Arr Ideal S128 .f32) (wrB : Arr Ideal S128x128 .f32) :
    GR aggA aggB h h (Cert.KPrep.kT128 wlA) (Cert.KPrep.kRow128 blA) (Cert.KPrep.kT128 wrA) (Cert.KPrep.kT128 wlB)
        (Cert.KPrep.kRow128 blB) (Cert.KPrep.kT128 wrB)
      = Cert.Stages.layerOutR aggA aggB h wlA blA wrA wlB blB wrB := by
  funext i
  obtain ⟨r, q, rfl⟩ : ∃ (r : Fin 50000) (q : Fin 128), i = ix2 r q := ⟨i 0, i 1, eq_ix2 i⟩
  rw [layerOutR_apply]
  show GRrow _ _ _ _ _ _ _ _ _ _ r q = _
  unfold GRrow
  simp only [kT128_apply, kRow128_apply]

end Cert.KernelIdeal.Hand
-- ==== Proof.KIBridgeR4.lean ====
import proofs.«166951_j44444321579084_2_alg».proof.Proof.KIBridgeOps
import proofs.«166951_j44444321579084_2_alg».proof.Proof.KIValueR4
import proofs.«166951_j44444321579084_2_alg».proof.Proof.KIValueStage

/-! # Kernel call 4 leaves the second layer on the source nodes's output

The call's output array ends at the call's value function of its operands as it finds them; each operand is
read at the call's entry (`KIBridgeOps`); and the value function on the prepared weights and biases is the
network's stage on the plain ones. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

set_option maxHeartbeats 8000000 in  -- the call's operand references are found by evaluating the call's window table, once per operand
/-- What kernel call 4 leaves in its output array. -/
theorem k_v250 (m : (ℓ : Loc nD τ sig) → Buf (Elt Ideal) ℓ) (ρ : Dev nD → PrngReg) (c : Dev nD)
    (x136 : Arr Ideal S50000x128 .f32) (h136 : W8 m ρ c (Proc.devRef .tc main_v136) = x136)
    (x159 : Arr Ideal S50000x128 .f32) (h159 : W11 m ρ c (Proc.devRef .tc main_v159) = x159) :
    W14 m ρ c (Proc.devRef .tc main_v250) = Cert.Stages.h2s x136 x159 (m ((c : Thread nD τ).loc main_arg24)) (m ((c : Thread nD τ).loc main_arg27)) (m ((c : Thread nD τ).loc main_arg11)) (m ((c : Thread nD τ).loc main_arg12)) (m ((c : Thread nD τ).loc main_arg13)) := by
  rw [W14_out, final4 (V13 m ρ) c]
  show GR
      (W13 m ρ c (Proc.devRef .tc main_v176))
      (W13 m ρ c (Proc.devRef .tc main_v227))
      (W13 m ρ c (Proc.devRef .tc main_v136))
      (W13 m ρ c (Proc.devRef .tc main_v136))
      (W13 m ρ c (Proc.devRef .tc main_v241))
      (W13 m ρ c (Proc.devRef .tc main_v248))
      (W13 m ρ c (Proc.devRef .tc main_v243))
      (W13 m ρ c (Proc.devRef .tc main_v245))
      (W13 m ρ c (Proc.devRef .tc main_v249))
      (W13 m ρ c (Proc.devRef .tc main_v247)) = _
  rw [at13_v176 m ρ c x136 h136,
    at13_v227 m ρ c x159 h159,
    at13_v136 m ρ c x136 h136,
    at13_v241 m ρ c,
    at13_v248 m ρ c,
    at13_v243 m ρ c,
    at13_v245 m ρ c,
    at13_v249 m ρ c,
    at13_v247 m ρ c]
  exact GR_eq_layerOutR _ _ _ _ _ _ _ _ _

end Cert.KernelIdeal.Hand
-- ==== Proof.KIValueR5.lean ====
import proofs.«166951_j44444321579084_2_alg».proof.Proof.KIFrameR5
import proofs.«166951_j44444321579084_2_alg».proof.Proof.KIValueG
import Idealize.ShloMosaic.Lib.Pipeline.Value
import Idealize.ShloMosaic.Lib.ValueIdx
import Idealize.ShloMosaic.Lib.ValueLayout
import Idealize.ShloMosaic.PureOps.Ideal.Laws

/-!
# The value of the region of custom call 5, over the extended reals

The region's grid cuts the 50000 rows into ten blocks of 5000. At each point the body stores, for every row of the
block and every column, the entry `GRrow` computes from that row of the four node-feature operands and from the whole
of the six parameter operands. The ten blocks tile the output array, so after the region it holds `GR` of the ten
operand arrays at every index.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's stored value at an index -/

/-- The stored value at row `p`, column `q` of the block, from the ten loaded blocks. -/
theorem pay5_apply (x0 x1 x2 x3 : Vec Ideal S5000x128 .f32) (x4 : Vec Ideal S128x128 .bf16) (x5 : Vec Ideal S1x128 .f32)
    (x6 x7 : Vec Ideal S128x128 .bf16) (x8 : Vec Ideal S1x128 .f32) (x9 : Vec Ideal S128x128 .bf16) (p : Fin 5000) (q : Fin 128) :
    k5_pay1 (k5_pay2 x0 x1 x2 x4 x5 x6 x7 x8 x9) x3 (ix2 p q)
      = max ((((((∑ k : Fin 128, x0 (ix2 p k) * x4 (ix2 k q)) + x5 (ix2 (0 : Fin 1) q)) + ∑ k : Fin 128, x2 (ix2 p k) * x6 (ix2 k q))
            + (((∑ k : Fin 128, x1 (ix2 p k) * x7 (ix2 k q)) + x8 (ix2 (0 : Fin 1) q)) + ∑ k : Fin 128, x2 (ix2 p k) * x9 (ix2 k q)))
          * Ideal.ofBits .f32 0x3F000000#32) + x3 (ix2 p q)) (Ideal.ofBits .f32 0x00000000#32) := by
  unfold k5_pay1 k5_pay2
  simp only [shapeCast_self]
  show max ((((matmul dot_S5000x128_S128x128_S5000x128_1_0_0_1_n_n none (truncf .bf16 x0 bitsLt_bf16_f32) x4 (constant (F := Ideal) S5000x128 .f32 0x00000000#32) (ix2 p q)
              + broadcastTo S5000x128 x5 broadcasts_S1x128_S5000x128 (ix2 p q))
            + matmul dot_S5000x128_S128x128_S5000x128_1_0_0_1_n_n none (truncf .bf16 x2 bitsLt_bf16_f32) x6 (constant (F := Ideal) S5000x128 .f32 0x00000000#32) (ix2 p q))
          + ((matmul dot_S5000x128_S128x128_S5000x128_1_0_0_1_n_n none (truncf .bf16 x1 bitsLt_bf16_f32) x7 (constant (F := Ideal) S5000x128 .f32 0x00000000#32) (ix2 p q)
              + broadcastTo S5000x128 x8 broadcasts_S1x128_S5000x128 (ix2 p q))
            + matmul dot_S5000x128_S128x128_S5000x128_1_0_0_1_n_n none (truncf .bf16 x2 bitsLt_bf16_f32) x9 (constant (F := Ideal) S5000x128 .f32 0x00000000#32) (ix2 p q)))
        * Ideal.ofBits .f32 0x3F000000#32 + x3 (ix2 p q)) (Ideal.ofBits .f32 0x00000000#32) = _
  rw [matmulR_row, matmulR_row, matmulR_row, matmulR_row, broadcastTo_1b_ab_apply, broadcastTo_1b_ab_apply]
  rfl

/-- The stored value at an index of the block is the result's entry at the matching index of the arrays: row
    `b + p` of an array is row `p` of its block (`h0 … h3`), and the six small operands are read whole. -/
theorem pay5_eq_G (x0 x1 x2 x3 : Vec Ideal S5000x128 .f32) (a0 a1 a2 a3 : Vec Ideal S50000x128 .f32)
    (x4 a4 : Vec Ideal S128x128 .bf16) (x5 a5 : Vec Ideal S1x128 .f32) (x6 a6 x7 a7 : Vec Ideal S128x128 .bf16) (x8 a8 : Vec Ideal S1x128 .f32)
    (x9 a9 : Vec Ideal S128x128 .bf16) (b : Nat) (j : S5000x128.Idx) (i : S50000x128.Idx)
    (h4 : x4 = a4) (h5 : x5 = a5) (h6 : x6 = a6) (h7 : x7 = a7) (h8 : x8 = a8) (h9 : x9 = a9)
    (hi0 : (i 0).val = b + (j 0).val) (hi1 : (i 1).val = (j 1).val)
    (h0 : ∀ (y : S5000x128.Idx) (z : S50000x128.Idx), (z 0).val = b + (y 0).val → (z 1).val = (y 1).val → x0 y = a0 z)
    (h1 : ∀ (y : S5000x128.Idx) (z : S50000x128.Idx), (z 0).val = b + (y 0).val → (z 1).val = (y 1).val → x1 y = a1 z)
    (h2 : ∀ (y : S5000x128.Idx) (z : S50000x128.Idx), (z 0).val = b + (y 0).val → (z 1).val = (y 1).val → x2 y = a2 z)
    (h3 : ∀ (y : S5000x128.Idx) (z : S50000x128.Idx), (z 0).val = b + (y 0).val → (z 1).val = (y 1).val → x3 y = a3 z) :
    k5_pay1 (k5_pay2 x0 x1 x2 x4 x5 x6 x7 x8 x9) x3 j = GR a0 a1 a2 a3 a4 a5 a6 a7 a8 a9 i := by
  subst h4 h5 h6 h7 h8 h9
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = b + p.val := hi0
  obtain rfl : s = q := Fin.ext hi1
  have e0 : ∀ k : Fin 128, x0 (ix2 p k) = a0 (ix2 r k) := fun k => h0 _ _ hr rfl
  have e1 : ∀ k : Fin 128, x1 (ix2 p k) = a1 (ix2 r k) := fun k => h1 _ _ hr rfl
  have e2 : ∀ k : Fin 128, x2 (ix2 p k) = a2 (ix2 r k) := fun k => h2 _ _ hr rfl
  have e3 : x3 (ix2 p s) = a3 (ix2 r s) := h3 _ _ hr rfl
  rw [pay5_apply]
  show _ = GRrow a0 a1 a2 a3 x4 x5 x6 x7 x8 x9 r s
  unfold GRrow
  simp only [e0, e1, e2, e3]

/-! ## From blocks to the array -/

variable (V : (c : Dev nD) → (b : Ref sig .tc) → Buf (Elt Ideal) ((c : Thread nD τ).loc b))

/-! The call's ten operand arrays as the region finds them, each at its literal shape. -/
abbrev arr5_0 (c : Dev nD) : Vec Ideal S50000x128 .f32 := V c (Pipeline.arrRef spec5 0)
abbrev arr5_1 (c : Dev nD) : Vec Ideal S50000x128 .f32 := V c (Pipeline.arrRef spec5 1)
abbrev arr5_2 (c : Dev nD) : Vec Ideal S50000x128 .f32 := V c (Pipeline.arrRef spec5 2)
abbrev arr5_3 (c : Dev nD) : Vec Ideal S50000x128 .f32 := V c (Pipeline.arrRef spec5 3)
abbrev arr5_4 (c : Dev nD) : Vec Ideal S128x128 .bf16 := V c (Pipeline.arrRef spec5 4)
abbrev arr5_5 (c : Dev nD) : Vec Ideal S1x128 .f32 := V c (Pipeline.arrRef spec5 5)
abbrev arr5_6 (c : Dev nD) : Vec Ideal S128x128 .bf16 := V c (Pipeline.arrRef spec5 6)
abbrev arr5_7 (c : Dev nD) : Vec Ideal S128x128 .bf16 := V c (Pipeline.arrRef spec5 7)
abbrev arr5_8 (c : Dev nD) : Vec Ideal S1x128 .f32 := V c (Pipeline.arrRef spec5 8)
abbrev arr5_9 (c : Dev nD) : Vec Ideal S128x128 .bf16 := V c (Pipeline.arrRef spec5 9)

theorem hz5 : (![0, 0] : Fin 2 → Nat) = fun _ => 0 := funext fun a => by fin_cases a <;> rfl

/-- The windows' block indices, decided over the grid: the four row-blocked inputs and the output are at block
    `(t, 0)` at point `t`, the six small inputs at block `(0, 0)`. -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = t.val
    ∧ win5_3.index t (1 : Fin 2) = 0
    ∧ win5_10.index t (0 : Fin 2) = t.val
    ∧ win5_10.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0
    ∧ win5_9.index t (0 : Fin 2) = 0
    ∧ win5_9.index t (1 : Fin 2) = 0 :=
  (by decide +kernel : ∀ t : Fin grid5.N, _)

/-- Input window 0's block at point `t` is rows `5000 t … 5000 t + 4999` of its array. -/
theorem iblk5_0_apply (c : Dev nD) (t : Fin cfg5.N) (y : S5000x128.Idx) (i : S50000x128.Idx)
    (h0 : (i 0).val = t.val * 5000 + (y 0).val) (h1 : (i 1).val = (y 1).val) :
    (iblk5 V c 0 t : Vec Ideal S5000x128 .f32) y = arr5_0 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  unfold iblk5
  rw [View.read_apply]
  show arr5_0 V c (((cfg5.win 0).blk t).view.emb y) = _
  refine congrArg _ (funext fun a => Fin.ext ?_)
  match a with
  | ⟨0, _⟩ => show win5_0.index t (0 : Fin 2) * 5000 + 1 * (y 0).val = (i 0).val; rw [e0_0, h0]; omega
  | ⟨1, _⟩ => show win5_0.index t (1 : Fin 2) * 128 + 1 * (y 1).val = (i 1).val; rw [e0_1, h1]; omega

/-- Input window 1's block at point `t` is rows `5000 t … 5000 t + 4999` of its array. -/
theorem iblk5_1_apply (c : Dev nD) (t : Fin cfg5.N) (y : S5000x128.Idx) (i : S50000x128.Idx)
    (h0 : (i 0).val = t.val * 5000 + (y 0).val) (h1 : (i 1).val = (y 1).val) :
    (iblk5 V c 1 t : Vec Ideal S5000x128 .f32) y = arr5_1 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  unfold iblk5
  rw [View.read_apply]
  show arr5_1 V c (((cfg5.win 1).blk t).view.emb y) = _
  refine congrArg _ (funext fun a => Fin.ext ?_)
  match a with
  | ⟨0, _⟩ => show win5_1.index t (0 : Fin 2) * 5000 + 1 * (y 0).val = (i 0).val; rw [e1_0, h0]; omega
  | ⟨1, _⟩ => show win5_1.index t (1 : Fin 2) * 128 + 1 * (y 1).val = (i 1).val; rw [e1_1, h1]; omega

/-- Input window 2's block at point `t` is rows `5000 t … 5000 t + 4999` of its array. -/
theorem iblk5_2_apply (c : Dev nD) (t : Fin cfg5.N) (y : S5000x128.Idx) (i : S50000x128.Idx)
    (h0 : (i 0).val = t.val * 5000 + (y 0).val) (h1 : (i 1).val = (y 1).val) :
    (iblk5 V c 2 t : Vec Ideal S5000x128 .f32) y = arr5_2 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  unfold iblk5
  rw [View.read_apply]
  show arr5_2 V c (((cfg5.win 2).blk t).view.emb y) = _
  refine congrArg _ (funext fun a => Fin.ext ?_)
  match a with
  | ⟨0, _⟩ => show win5_2.index t (0 : Fin 2) * 5000 + 1 * (y 0).val = (i 0).val; rw [e2_0, h0]; omega
  | ⟨1, _⟩ => show win5_2.index t (1 : Fin 2) * 128 + 1 * (y 1).val = (i 1).val; rw [e2_1, h1]; omega

/-- Input window 3's block at point `t` is rows `5000 t … 5000 t + 4999` of its array. -/
theorem iblk5_3_apply (c : Dev nD) (t : Fin cfg5.N) (y : S5000x128.Idx) (i : S50000x128.Idx)
    (h0 : (i 0).val = t.val * 5000 + (y 0).val) (h1 : (i 1).val = (y 1).val) :
    (iblk5 V c 3 t : Vec Ideal S5000x128 .f32) y = arr5_3 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  unfold iblk5
  rw [View.read_apply]
  show arr5_3 V c (((cfg5.win 3).blk t).view.emb y) = _
  refine congrArg _ (funext fun a => Fin.ext ?_)
  match a with
  | ⟨0, _⟩ => show win5_3.index t (0 : Fin 2) * 5000 + 1 * (y 0).val = (i 0).val; rw [e3_0, h0]; omega
  | ⟨1, _⟩ => show win5_3.index t (1 : Fin 2) * 128 + 1 * (y 1).val = (i 1).val; rw [e3_1, h1]; omega

/-- Input window 4's block at every point is the whole of its array. -/
theorem iblk5_4_eq (c : Dev nD) (t : Fin cfg5.N) :
    (iblk5 V c 4 t : Vec Ideal S128x128 .bf16) = arr5_4 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  funext y
  unfold iblk5
  rw [View.read_apply]
  show arr5_4 V c (((cfg5.win 4).blk t).view.emb y) = _
  refine congrArg _ (funext fun a => Fin.ext ?_)
  match a with
  | ⟨0, _⟩ => show win5_4.index t (0 : Fin 2) * 128 + 1 * (y 0).val = (y 0).val; rw [e4_0]; omega
  | ⟨1, _⟩ => show win5_4.index t (1 : Fin 2) * 128 + 1 * (y 1).val = (y 1).val; rw [e4_1]; omega

/-- Input window 5's block at every point is the whole of its array. -/
theorem iblk5_5_eq (c : Dev nD) (t : Fin cfg5.N) :
    (iblk5 V c 5 t : Vec Ideal S1x128 .f32) = arr5_5 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  funext y
  unfold iblk5
  rw [View.read_apply]
  show arr5_5 V c (((cfg5.win 5).blk t).view.emb y) = _
  refine congrArg _ (funext fun a => Fin.ext ?_)
  match a with
  | ⟨0, _⟩ => show win5_5.index t (0 : Fin 2) * 1 + 1 * (y 0).val = (y 0).val; rw [e5_0]; omega
  | ⟨1, _⟩ => show win5_5.index t (1 : Fin 2) * 128 + 1 * (y 1).val = (y 1).val; rw [e5_1]; omega

/-- Input window 6's block at every point is the whole of its array. -/
theorem iblk5_6_eq (c : Dev nD) (t : Fin cfg5.N) :
    (iblk5 V c 6 t : Vec Ideal S128x128 .bf16) = arr5_6 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  funext y
  unfold iblk5
  rw [View.read_apply]
  show arr5_6 V c (((cfg5.win 6).blk t).view.emb y) = _
  refine congrArg _ (funext fun a => Fin.ext ?_)
  match a with
  | ⟨0, _⟩ => show win5_6.index t (0 : Fin 2) * 128 + 1 * (y 0).val = (y 0).val; rw [e6_0]; omega
  | ⟨1, _⟩ => show win5_6.index t (1 : Fin 2) * 128 + 1 * (y 1).val = (y 1).val; rw [e6_1]; omega

/-- Input window 7's block at every point is the whole of its array. -/
theorem iblk5_7_eq (c : Dev nD) (t : Fin cfg5.N) :
    (iblk5 V c 7 t : Vec Ideal S128x128 .bf16) = arr5_7 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  funext y
  unfold iblk5
  rw [View.read_apply]
  show arr5_7 V c (((cfg5.win 7).blk t).view.emb y) = _
  refine congrArg _ (funext fun a => Fin.ext ?_)
  match a with
  | ⟨0, _⟩ => show win5_7.index t (0 : Fin 2) * 128 + 1 * (y 0).val = (y 0).val; rw [e7_0]; omega
  | ⟨1, _⟩ => show win5_7.index t (1 : Fin 2) * 128 + 1 * (y 1).val = (y 1).val; rw [e7_1]; omega

/-- Input window 8's block at every point is the whole of its array. -/
theorem iblk5_8_eq (c : Dev nD) (t : Fin cfg5.N) :
    (iblk5 V c 8 t : Vec Ideal S1x128 .f32) = arr5_8 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  funext y
  unfold iblk5
  rw [View.read_apply]
  show arr5_8 V c (((cfg5.win 8).blk t).view.emb y) = _
  refine congrArg _ (funext fun a => Fin.ext ?_)
  match a with
  | ⟨0, _⟩ => show win5_8.index t (0 : Fin 2) * 1 + 1 * (y 0).val = (y 0).val; rw [e8_0]; omega
  | ⟨1, _⟩ => show win5_8.index t (1 : Fin 2) * 128 + 1 * (y 1).val = (y 1).val; rw [e8_1]; omega

/-- Input window 9's block at every point is the whole of its array. -/
theorem iblk5_9_eq (c : Dev nD) (t : Fin cfg5.N) :
    (iblk5 V c 9 t : Vec Ideal S128x128 .bf16) = arr5_9 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  funext y
  unfold iblk5
  rw [View.read_apply]
  show arr5_9 V c (((cfg5.win 9).blk t).view.emb y) = _
  refine congrArg _ (funext fun a => Fin.ext ?_)
  match a with
  | ⟨0, _⟩ => show win5_9.index t (0 : Fin 2) * 128 + 1 * (y 0).val = (y 0).val; rw [e9_0]; omega
  | ⟨1, _⟩ => show win5_9.index t (1 : Fin 2) * 128 + 1 * (y 1).val = (y 1).val; rw [e9_1]; omega

/-- What point `t` writes back is block `t` of `GR` of the arrays as the region finds them. -/
theorem flushed5_eq (c : Dev nD) (t : Fin cfg5.N) :
    (dat5 (F := Ideal) V c).flushed 10 t = ((cfg5.win 10).blk t).view.read (Elt Ideal) (GR (arr5_0 V c) (arr5_1 V c) (arr5_2 V c) (arr5_3 V c) (arr5_4 V c) (arr5_5 V c) (arr5_6 V c) (arr5_7 V c) (arr5_8 V c) (arr5_9 V c)) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
  show (cfg5.win 10).cut (grid5.coords t) ((dat5 V c).after 10 t) = _
  rw [after5_10]
  unfold out5_10
  rw [View.canon_unit_zero hz5]
  simp only [View.ld_unit_zero (S := S5000x128) hz5, View.ld_unit_zero (S := S128x128) hz5, View.ld_unit_zero (S := S1x128) hz5]
  funext j
  rw [View.read_apply]
  refine pay5_eq_G (iblk5 V c 0 t) (iblk5 V c 1 t) (iblk5 V c 2 t) (iblk5 V c 3 t)
    (arr5_0 V c) (arr5_1 V c) (arr5_2 V c) (arr5_3 V c)
    (iblk5 V c 4 t) (arr5_4 V c) (iblk5 V c 5 t) (arr5_5 V c)
    (iblk5 V c 6 t) (arr5_6 V c) (iblk5 V c 7 t) (arr5_7 V c)
    (iblk5 V c 8 t) (arr5_8 V c) (iblk5 V c 9 t) (arr5_9 V c)
    (t.val * 5000) j (((cfg5.win 10).blk t).view.emb j)
    (iblk5_4_eq V c t) (iblk5_5_eq V c t) (iblk5_6_eq V c t) (iblk5_7_eq V c t) (iblk5_8_eq V c t) (iblk5_9_eq V c t) ?_ ?_
    (fun y z hz0 hz1 => iblk5_0_apply V c t y z hz0 hz1) (fun y z hz0 hz1 => iblk5_1_apply V c t y z hz0 hz1)
    (fun y z hz0 hz1 => iblk5_2_apply V c t y z hz0 hz1) (fun y z hz0 hz1 => iblk5_3_apply V c t y z hz0 hz1)
  · show win5_10.index t (0 : Fin 2) * 5000 + 1 * (j 0).val = t.val * 5000 + (j 0).val
    rw [e10_0]; omega
  · show win5_10.index t (1 : Fin 2) * 128 + 1 * (j 1).val = (j 1).val
    rw [e10_1]; omega

/-- An index of the output array is in point `t`'s block iff each coordinate is in the block's range on its axis. -/
theorem mem_blk5 (t : Fin cfg5.N) (i : S50000x128.Idx) :
    i ∈ ((cfg5.win 10).blk t).view.set ↔ ∀ a : Fin 2, win5_10.index t a * S5000x128.size a ≤ (i a).val ∧ (i a).val < win5_10.index t a * S5000x128.size a + S5000x128.size a := by
  show i ∈ ((View.whole main_v273).slice (win5_10.rect t)).set ↔ _
  rw [View.set_slice_whole, Rect.mem_set_unit]
  exact Iff.rfl

/-- The output array after the region: `GR` of the ten operand arrays as the region finds them. Row `r` is
    written back at point `r / 5000`. -/
theorem final5_arr (c : Dev nD) : (dat5 (F := Ideal) V c).arrAt 10 cfg5.N = GR (arr5_0 V c) (arr5_1 V c) (arr5_2 V c) (arr5_3 V c) (arr5_4 V c) (arr5_5 V c) (arr5_6 V c) (arr5_7 V c) (arr5_8 V c) (arr5_9 V c) :=
  (dat5 (F := Ideal) V c).arrAt_eq_of_cover 10 (GR (arr5_0 V c) (arr5_1 V c) (arr5_2 V c) (arr5_3 V c) (arr5_4 V c) (arr5_5 V c) (arr5_6 V c) (arr5_7 V c) (arr5_8 V c) (arr5_9 V c)) (fun t _ => flushed5_eq V c t) fun i => by
    have hN : cfg5.N = 10 := N_5
    have hi0 : (i 0).val < 50000 := (i 0).isLt
    have hi1 : (i 1).val < 128 := (i 1).isLt
    obtain ⟨t, ht⟩ : ∃ t : Fin cfg5.N, t.val = (i 0).val / 5000 := ⟨⟨(i 0).val / 5000, by rw [hN]; omega⟩, rfl⟩
    obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts5 t
    refine ⟨t, flush5_10 t, ?_⟩
    rw [mem_blk5]
    intro a
    match a with
    | ⟨0, _⟩ => show win5_10.index t (0 : Fin 2) * 5000 ≤ (i 0).val ∧ (i 0).val < win5_10.index t (0 : Fin 2) * 5000 + 5000
                rw [e10_0, ht]; omega
    | ⟨1, _⟩ => show win5_10.index t (1 : Fin 2) * 128 ≤ (i 1).val ∧ (i 1).val < win5_10.index t (1 : Fin 2) * 128 + 128
                rw [e10_1]; omega

set_option maxHeartbeats 4000000 in
/-- The same, with the ten operand arrays written out as the region-entry contents of the windows' arrays. -/
theorem final5 (c : Dev nD) : (dat5 (F := Ideal) V c).arrAt 10 cfg5.N
    = GR (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) :=
  final5_arr V c

end Cert.KernelIdeal.Hand
-- ==== Proof.KIBridgeR5.lean ====
import proofs.«166951_j44444321579084_2_alg».proof.Proof.KIBridgeOps
import proofs.«166951_j44444321579084_2_alg».proof.Proof.KIValueR5
import proofs.«166951_j44444321579084_2_alg».proof.Proof.KIValueStage

/-! # Kernel call 5 leaves the second layer on the target nodes's output

The call's output array ends at the call's value function of its operands as it finds them; each operand is
read at the call's entry (`KIBridgeOps`); and the value function on the prepared weights and biases is the
network's stage on the plain ones. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

set_option maxHeartbeats 8000000 in  -- the call's operand references are found by evaluating the call's window table, once per operand
/-- What kernel call 5 leaves in its output array. -/
theorem k_v273 (m : (ℓ : Loc nD τ sig) → Buf (Elt Ideal) ℓ) (ρ : Dev nD → PrngReg) (c : Dev nD)
    (x136 : Arr Ideal S50000x128 .f32) (h136 : W8 m ρ c (Proc.devRef .tc main_v136) = x136)
    (x159 : Arr Ideal S50000x128 .f32) (h159 : W11 m ρ c (Proc.devRef .tc main_v159) = x159) :
    W17 m ρ c (Proc.devRef .tc main_v273) = Cert.Stages.h2t x136 x159 (m ((c : Thread nD τ).loc main_arg25)) (m ((c : Thread nD τ).loc main_arg26)) (m ((c : Thread nD τ).loc main_arg11)) (m ((c : Thread nD τ).loc main_arg12)) (m ((c : Thread nD τ).loc main_arg13)) := by
  rw [W17_out, final5 (V16 m ρ) c]
  show GR
      (W16 m ρ c (Proc.devRef .tc main_v193))
      (W16 m ρ c (Proc.devRef .tc main_v210))
      (W16 m ρ c (Proc.devRef .tc main_v159))
      (W16 m ρ c (Proc.devRef .tc main_v159))
      (W16 m ρ c (Proc.devRef .tc main_v264))
      (W16 m ρ c (Proc.devRef .tc main_v271))
      (W16 m ρ c (Proc.devRef .tc main_v266))
      (W16 m ρ c (Proc.devRef .tc main_v268))
      (W16 m ρ c (Proc.devRef .tc main_v272))
      (W16 m ρ c (Proc.devRef .tc main_v270)) = _
  rw [at16_v193 m ρ c x159 h159,
    at16_v210 m ρ c x136 h136,
    at16_v159 m ρ c x159 h159,
    at16_v264 m ρ c,
    at16_v271 m ρ c,
    at16_v266 m ρ c,
    at16_v268 m ρ c,
    at16_v272 m ρ c,
    at16_v270 m ρ c]
  exact GR_eq_layerOutR _ _ _ _ _ _ _ _ _

end Cert.KernelIdeal.Hand
-- ==== Proof.KIValueR6.lean ====
import proofs.«166951_j44444321579084_2_alg».proof.Proof.KIFrameR6
import proofs.«166951_j44444321579084_2_alg».proof.Proof.KIValueG
import Idealize.ShloMosaic.Lib.Pipeline.Value
import Idealize.ShloMosaic.Lib.ValueIdx
import Idealize.ShloMosaic.Lib.ValueLayout
import Idealize.ShloMosaic.PureOps.Ideal.Laws

/-!
# The value of the region of custom call 6, over the extended reals

The region's grid cuts the 50000 rows into ten blocks of 5000. At each point the body stores, for every row of the
block and every column, the entry `GRrow` computes from that row of the four node-feature operands and from the whole
of the six parameter operands. The ten blocks tile the output array, so after the region it holds `GR` of the ten
operand arrays at every index.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's stored value at an index -/

/-- The stored value at row `p`, column `q` of the block, from the ten loaded blocks. -/
theorem pay6_apply (x0 x1 x2 x3 : Vec Ideal S5000x128 .f32) (x4 : Vec Ideal S128x128 .bf16) (x5 : Vec Ideal S1x128 .f32)
    (x6 x7 : Vec Ideal S128x128 .bf16) (x8 : Vec Ideal S1x128 .f32) (x9 : Vec Ideal S128x128 .bf16) (p : Fin 5000) (q : Fin 128) :
    k6_pay1 (k6_pay2 x0 x1 x2 x4 x5 x6 x7 x8 x9) x3 (ix2 p q)
      = max ((((((∑ k : Fin 128, x0 (ix2 p k) * x4 (ix2 k q)) + x5 (ix2 (0 : Fin 1) q)) + ∑ k : Fin 128, x2 (ix2 p k) * x6 (ix2 k q))
            + (((∑ k : Fin 128, x1 (ix2 p k) * x7 (ix2 k q)) + x8 (ix2 (0 : Fin 1) q)) + ∑ k : Fin 128, x2 (ix2 p k) * x9 (ix2 k q)))
          * Ideal.ofBits .f32 0x3F000000#32) + x3 (ix2 p q)) (Ideal.ofBits .f32 0x00000000#32) := by
  unfold k6_pay1 k6_pay2
  simp only [shapeCast_self]
  show max ((((matmul dot_S5000x128_S128x128_S5000x128_1_0_0_1_n_n none (truncf .bf16 x0 bitsLt_bf16_f32) x4 (constant (F := Ideal) S5000x128 .f32 0x00000000#32) (ix2 p q)
              + broadcastTo S5000x128 x5 broadcasts_S1x128_S5000x128 (ix2 p q))
            + matmul dot_S5000x128_S128x128_S5000x128_1_0_0_1_n_n none (truncf .bf16 x2 bitsLt_bf16_f32) x6 (constant (F := Ideal) S5000x128 .f32 0x00000000#32) (ix2 p q))
          + ((matmul dot_S5000x128_S128x128_S5000x128_1_0_0_1_n_n none (truncf .bf16 x1 bitsLt_bf16_f32) x7 (constant (F := Ideal) S5000x128 .f32 0x00000000#32) (ix2 p q)
              + broadcastTo S5000x128 x8 broadcasts_S1x128_S5000x128 (ix2 p q))
            + matmul dot_S5000x128_S128x128_S5000x128_1_0_0_1_n_n none (truncf .bf16 x2 bitsLt_bf16_f32) x9 (constant (F := Ideal) S5000x128 .f32 0x00000000#32) (ix2 p q)))
        * Ideal.ofBits .f32 0x3F000000#32 + x3 (ix2 p q)) (Ideal.ofBits .f32 0x00000000#32) = _
  rw [matmulR_row, matmulR_row, matmulR_row, matmulR_row, broadcastTo_1b_ab_apply, broadcastTo_1b_ab_apply]
  rfl

/-- The stored value at an index of the block is the result's entry at the matching index of the arrays: row
    `b + p` of an array is row `p` of its block (`h0 … h3`), and the six small operands are read whole. -/
theorem pay6_eq_G (x0 x1 x2 x3 : Vec Ideal S5000x128 .f32) (a0 a1 a2 a3 : Vec Ideal S50000x128 .f32)
    (x4 a4 : Vec Ideal S128x128 .bf16) (x5 a5 : Vec Ideal S1x128 .f32) (x6 a6 x7 a7 : Vec Ideal S128x128 .bf16) (x8 a8 : Vec Ideal S1x128 .f32)
    (x9 a9 : Vec Ideal S128x128 .bf16) (b : Nat) (j : S5000x128.Idx) (i : S50000x128.Idx)
    (h4 : x4 = a4) (h5 : x5 = a5) (h6 : x6 = a6) (h7 : x7 = a7) (h8 : x8 = a8) (h9 : x9 = a9)
    (hi0 : (i 0).val = b + (j 0).val) (hi1 : (i 1).val = (j 1).val)
    (h0 : ∀ (y : S5000x128.Idx) (z : S50000x128.Idx), (z 0).val = b + (y 0).val → (z 1).val = (y 1).val → x0 y = a0 z)
    (h1 : ∀ (y : S5000x128.Idx) (z : S50000x128.Idx), (z 0).val = b + (y 0).val → (z 1).val = (y 1).val → x1 y = a1 z)
    (h2 : ∀ (y : S5000x128.Idx) (z : S50000x128.Idx), (z 0).val = b + (y 0).val → (z 1).val = (y 1).val → x2 y = a2 z)
    (h3 : ∀ (y : S5000x128.Idx) (z : S50000x128.Idx), (z 0).val = b + (y 0).val → (z 1).val = (y 1).val → x3 y = a3 z) :
    k6_pay1 (k6_pay2 x0 x1 x2 x4 x5 x6 x7 x8 x9) x3 j = GR a0 a1 a2 a3 a4 a5 a6 a7 a8 a9 i := by
  subst h4 h5 h6 h7 h8 h9
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = b + p.val := hi0
  obtain rfl : s = q := Fin.ext hi1
  have e0 : ∀ k : Fin 128, x0 (ix2 p k) = a0 (ix2 r k) := fun k => h0 _ _ hr rfl
  have e1 : ∀ k : Fin 128, x1 (ix2 p k) = a1 (ix2 r k) := fun k => h1 _ _ hr rfl
  have e2 : ∀ k : Fin 128, x2 (ix2 p k) = a2 (ix2 r k) := fun k => h2 _ _ hr rfl
  have e3 : x3 (ix2 p s) = a3 (ix2 r s) := h3 _ _ hr rfl
  rw [pay6_apply]
  show _ = GRrow a0 a1 a2 a3 x4 x5 x6 x7 x8 x9 r s
  unfold GRrow
  simp only [e0, e1, e2, e3]

/-! ## From blocks to the array -/

variable (V : (c : Dev nD) → (b : Ref sig .tc) → Buf (Elt Ideal) ((c : Thread nD τ).loc b))

/-! The call's ten operand arrays as the region finds them, each at its literal shape. -/
abbrev arr6_0 (c : Dev nD) : Vec Ideal S50000x128 .f32 := V c (Pipeline.arrRef spec6 0)
abbrev arr6_1 (c : Dev nD) : Vec Ideal S50000x128 .f32 := V c (Pipeline.arrRef spec6 1)
abbrev arr6_2 (c : Dev nD) : Vec Ideal S50000x128 .f32 := V c (Pipeline.arrRef spec6 2)
abbrev arr6_3 (c : Dev nD) : Vec Ideal S50000x128 .f32 := V c (Pipeline.arrRef spec6 3)
abbrev arr6_4 (c : Dev nD) : Vec Ideal S128x128 .bf16 := V c (Pipeline.arrRef spec6 4)
abbrev arr6_5 (c : Dev nD) : Vec Ideal S1x128 .f32 := V c (Pipeline.arrRef spec6 5)
abbrev arr6_6 (c : Dev nD) : Vec Ideal S128x128 .bf16 := V c (Pipeline.arrRef spec6 6)
abbrev arr6_7 (c : Dev nD) : Vec Ideal S128x128 .bf16 := V c (Pipeline.arrRef spec6 7)
abbrev arr6_8 (c : Dev nD) : Vec Ideal S1x128 .f32 := V c (Pipeline.arrRef spec6 8)
abbrev arr6_9 (c : Dev nD) : Vec Ideal S128x128 .bf16 := V c (Pipeline.arrRef spec6 9)

theorem hz6 : (![0, 0] : Fin 2 → Nat) = fun _ => 0 := funext fun a => by fin_cases a <;> rfl

/-- The windows' block indices, decided over the grid: the four row-blocked inputs and the output are at block
    `(t, 0)` at point `t`, the six small inputs at block `(0, 0)`. -/
theorem idx_facts6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = t.val
    ∧ win6_3.index t (1 : Fin 2) = 0
    ∧ win6_10.index t (0 : Fin 2) = t.val
    ∧ win6_10.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0
    ∧ win6_9.index t (0 : Fin 2) = 0
    ∧ win6_9.index t (1 : Fin 2) = 0 :=
  (by decide +kernel : ∀ t : Fin grid6.N, _)

/-- Input window 0's block at point `t` is rows `5000 t … 5000 t + 4999` of its array. -/
theorem iblk6_0_apply (c : Dev nD) (t : Fin cfg6.N) (y : S5000x128.Idx) (i : S50000x128.Idx)
    (h0 : (i 0).val = t.val * 5000 + (y 0).val) (h1 : (i 1).val = (y 1).val) :
    (iblk6 V c 0 t : Vec Ideal S5000x128 .f32) y = arr6_0 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  unfold iblk6
  rw [View.read_apply]
  show arr6_0 V c (((cfg6.win 0).blk t).view.emb y) = _
  refine congrArg _ (funext fun a => Fin.ext ?_)
  match a with
  | ⟨0, _⟩ => show win6_0.index t (0 : Fin 2) * 5000 + 1 * (y 0).val = (i 0).val; rw [e0_0, h0]; omega
  | ⟨1, _⟩ => show win6_0.index t (1 : Fin 2) * 128 + 1 * (y 1).val = (i 1).val; rw [e0_1, h1]; omega

/-- Input window 1's block at point `t` is rows `5000 t … 5000 t + 4999` of its array. -/
theorem iblk6_1_apply (c : Dev nD) (t : Fin cfg6.N) (y : S5000x128.Idx) (i : S50000x128.Idx)
    (h0 : (i 0).val = t.val * 5000 + (y 0).val) (h1 : (i 1).val = (y 1).val) :
    (iblk6 V c 1 t : Vec Ideal S5000x128 .f32) y = arr6_1 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  unfold iblk6
  rw [View.read_apply]
  show arr6_1 V c (((cfg6.win 1).blk t).view.emb y) = _
  refine congrArg _ (funext fun a => Fin.ext ?_)
  match a with
  | ⟨0, _⟩ => show win6_1.index t (0 : Fin 2) * 5000 + 1 * (y 0).val = (i 0).val; rw [e1_0, h0]; omega
  | ⟨1, _⟩ => show win6_1.index t (1 : Fin 2) * 128 + 1 * (y 1).val = (i 1).val; rw [e1_1, h1]; omega

/-- Input window 2's block at point `t` is rows `5000 t … 5000 t + 4999` of its array. -/
theorem iblk6_2_apply (c : Dev nD) (t : Fin cfg6.N) (y : S5000x128.Idx) (i : S50000x128.Idx)
    (h0 : (i 0).val = t.val * 5000 + (y 0).val) (h1 : (i 1).val = (y 1).val) :
    (iblk6 V c 2 t : Vec Ideal S5000x128 .f32) y = arr6_2 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  unfold iblk6
  rw [View.read_apply]
  show arr6_2 V c (((cfg6.win 2).blk t).view.emb y) = _
  refine congrArg _ (funext fun a => Fin.ext ?_)
  match a with
  | ⟨0, _⟩ => show win6_2.index t (0 : Fin 2) * 5000 + 1 * (y 0).val = (i 0).val; rw [e2_0, h0]; omega
  | ⟨1, _⟩ => show win6_2.index t (1 : Fin 2) * 128 + 1 * (y 1).val = (i 1).val; rw [e2_1, h1]; omega

/-- Input window 3's block at point `t` is rows `5000 t … 5000 t + 4999` of its array. -/
theorem iblk6_3_apply (c : Dev nD) (t : Fin cfg6.N) (y : S5000x128.Idx) (i : S50000x128.Idx)
    (h0 : (i 0).val = t.val * 5000 + (y 0).val) (h1 : (i 1).val = (y 1).val) :
    (iblk6 V c 3 t : Vec Ideal S5000x128 .f32) y = arr6_3 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  unfold iblk6
  rw [View.read_apply]
  show arr6_3 V c (((cfg6.win 3).blk t).view.emb y) = _
  refine congrArg _ (funext fun a => Fin.ext ?_)
  match a with
  | ⟨0, _⟩ => show win6_3.index t (0 : Fin 2) * 5000 + 1 * (y 0).val = (i 0).val; rw [e3_0, h0]; omega
  | ⟨1, _⟩ => show win6_3.index t (1 : Fin 2) * 128 + 1 * (y 1).val = (i 1).val; rw [e3_1, h1]; omega

/-- Input window 4's block at every point is the whole of its array. -/
theorem iblk6_4_eq (c : Dev nD) (t : Fin cfg6.N) :
    (iblk6 V c 4 t : Vec Ideal S128x128 .bf16) = arr6_4 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  funext y
  unfold iblk6
  rw [View.read_apply]
  show arr6_4 V c (((cfg6.win 4).blk t).view.emb y) = _
  refine congrArg _ (funext fun a => Fin.ext ?_)
  match a with
  | ⟨0, _⟩ => show win6_4.index t (0 : Fin 2) * 128 + 1 * (y 0).val = (y 0).val; rw [e4_0]; omega
  | ⟨1, _⟩ => show win6_4.index t (1 : Fin 2) * 128 + 1 * (y 1).val = (y 1).val; rw [e4_1]; omega

/-- Input window 5's block at every point is the whole of its array. -/
theorem iblk6_5_eq (c : Dev nD) (t : Fin cfg6.N) :
    (iblk6 V c 5 t : Vec Ideal S1x128 .f32) = arr6_5 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  funext y
  unfold iblk6
  rw [View.read_apply]
  show arr6_5 V c (((cfg6.win 5).blk t).view.emb y) = _
  refine congrArg _ (funext fun a => Fin.ext ?_)
  match a with
  | ⟨0, _⟩ => show win6_5.index t (0 : Fin 2) * 1 + 1 * (y 0).val = (y 0).val; rw [e5_0]; omega
  | ⟨1, _⟩ => show win6_5.index t (1 : Fin 2) * 128 + 1 * (y 1).val = (y 1).val; rw [e5_1]; omega

/-- Input window 6's block at every point is the whole of its array. -/
theorem iblk6_6_eq (c : Dev nD) (t : Fin cfg6.N) :
    (iblk6 V c 6 t : Vec Ideal S128x128 .bf16) = arr6_6 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  funext y
  unfold iblk6
  rw [View.read_apply]
  show arr6_6 V c (((cfg6.win 6).blk t).view.emb y) = _
  refine congrArg _ (funext fun a => Fin.ext ?_)
  match a with
  | ⟨0, _⟩ => show win6_6.index t (0 : Fin 2) * 128 + 1 * (y 0).val = (y 0).val; rw [e6_0]; omega
  | ⟨1, _⟩ => show win6_6.index t (1 : Fin 2) * 128 + 1 * (y 1).val = (y 1).val; rw [e6_1]; omega

/-- Input window 7's block at every point is the whole of its array. -/
theorem iblk6_7_eq (c : Dev nD) (t : Fin cfg6.N) :
    (iblk6 V c 7 t : Vec Ideal S128x128 .bf16) = arr6_7 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  funext y
  unfold iblk6
  rw [View.read_apply]
  show arr6_7 V c (((cfg6.win 7).blk t).view.emb y) = _
  refine congrArg _ (funext fun a => Fin.ext ?_)
  match a with
  | ⟨0, _⟩ => show win6_7.index t (0 : Fin 2) * 128 + 1 * (y 0).val = (y 0).val; rw [e7_0]; omega
  | ⟨1, _⟩ => show win6_7.index t (1 : Fin 2) * 128 + 1 * (y 1).val = (y 1).val; rw [e7_1]; omega

/-- Input window 8's block at every point is the whole of its array. -/
theorem iblk6_8_eq (c : Dev nD) (t : Fin cfg6.N) :
    (iblk6 V c 8 t : Vec Ideal S1x128 .f32) = arr6_8 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  funext y
  unfold iblk6
  rw [View.read_apply]
  show arr6_8 V c (((cfg6.win 8).blk t).view.emb y) = _
  refine congrArg _ (funext fun a => Fin.ext ?_)
  match a with
  | ⟨0, _⟩ => show win6_8.index t (0 : Fin 2) * 1 + 1 * (y 0).val = (y 0).val; rw [e8_0]; omega
  | ⟨1, _⟩ => show win6_8.index t (1 : Fin 2) * 128 + 1 * (y 1).val = (y 1).val; rw [e8_1]; omega

/-- Input window 9's block at every point is the whole of its array. -/
theorem iblk6_9_eq (c : Dev nD) (t : Fin cfg6.N) :
    (iblk6 V c 9 t : Vec Ideal S128x128 .bf16) = arr6_9 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  funext y
  unfold iblk6
  rw [View.read_apply]
  show arr6_9 V c (((cfg6.win 9).blk t).view.emb y) = _
  refine congrArg _ (funext fun a => Fin.ext ?_)
  match a with
  | ⟨0, _⟩ => show win6_9.index t (0 : Fin 2) * 128 + 1 * (y 0).val = (y 0).val; rw [e9_0]; omega
  | ⟨1, _⟩ => show win6_9.index t (1 : Fin 2) * 128 + 1 * (y 1).val = (y 1).val; rw [e9_1]; omega

/-- What point `t` writes back is block `t` of `GR` of the arrays as the region finds them. -/
theorem flushed6_eq (c : Dev nD) (t : Fin cfg6.N) :
    (dat6 (F := Ideal) V c).flushed 10 t = ((cfg6.win 10).blk t).view.read (Elt Ideal) (GR (arr6_0 V c) (arr6_1 V c) (arr6_2 V c) (arr6_3 V c) (arr6_4 V c) (arr6_5 V c) (arr6_6 V c) (arr6_7 V c) (arr6_8 V c) (arr6_9 V c)) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
  show (cfg6.win 10).cut (grid6.coords t) ((dat6 V c).after 10 t) = _
  rw [after6_10]
  unfold out6_10
  rw [View.canon_unit_zero hz6]
  simp only [View.ld_unit_zero (S := S5000x128) hz6, View.ld_unit_zero (S := S128x128) hz6, View.ld_unit_zero (S := S1x128) hz6]
  funext j
  rw [View.read_apply]
  refine pay6_eq_G (iblk6 V c 0 t) (iblk6 V c 1 t) (iblk6 V c 2 t) (iblk6 V c 3 t)
    (arr6_0 V c) (arr6_1 V c) (arr6_2 V c) (arr6_3 V c)
    (iblk6 V c 4 t) (arr6_4 V c) (iblk6 V c 5 t) (arr6_5 V c)
    (iblk6 V c 6 t) (arr6_6 V c) (iblk6 V c 7 t) (arr6_7 V c)
    (iblk6 V c 8 t) (arr6_8 V c) (iblk6 V c 9 t) (arr6_9 V c)
    (t.val * 5000) j (((cfg6.win 10).blk t).view.emb j)
    (iblk6_4_eq V c t) (iblk6_5_eq V c t) (iblk6_6_eq V c t) (iblk6_7_eq V c t) (iblk6_8_eq V c t) (iblk6_9_eq V c t) ?_ ?_
    (fun y z hz0 hz1 => iblk6_0_apply V c t y z hz0 hz1) (fun y z hz0 hz1 => iblk6_1_apply V c t y z hz0 hz1)
    (fun y z hz0 hz1 => iblk6_2_apply V c t y z hz0 hz1) (fun y z hz0 hz1 => iblk6_3_apply V c t y z hz0 hz1)
  · show win6_10.index t (0 : Fin 2) * 5000 + 1 * (j 0).val = t.val * 5000 + (j 0).val
    rw [e10_0]; omega
  · show win6_10.index t (1 : Fin 2) * 128 + 1 * (j 1).val = (j 1).val
    rw [e10_1]; omega

/-- An index of the output array is in point `t`'s block iff each coordinate is in the block's range on its axis. -/
theorem mem_blk6 (t : Fin cfg6.N) (i : S50000x128.Idx) :
    i ∈ ((cfg6.win 10).blk t).view.set ↔ ∀ a : Fin 2, win6_10.index t a * S5000x128.size a ≤ (i a).val ∧ (i a).val < win6_10.index t a * S5000x128.size a + S5000x128.size a := by
  show i ∈ ((View.whole main_v364).slice (win6_10.rect t)).set ↔ _
  rw [View.set_slice_whole, Rect.mem_set_unit]
  exact Iff.rfl

/-- The output array after the region: `GR` of the ten operand arrays as the region finds them. Row `r` is
    written back at point `r / 5000`. -/
theorem final6_arr (c : Dev nD) : (dat6 (F := Ideal) V c).arrAt 10 cfg6.N = GR (arr6_0 V c) (arr6_1 V c) (arr6_2 V c) (arr6_3 V c) (arr6_4 V c) (arr6_5 V c) (arr6_6 V c) (arr6_7 V c) (arr6_8 V c) (arr6_9 V c) :=
  (dat6 (F := Ideal) V c).arrAt_eq_of_cover 10 (GR (arr6_0 V c) (arr6_1 V c) (arr6_2 V c) (arr6_3 V c) (arr6_4 V c) (arr6_5 V c) (arr6_6 V c) (arr6_7 V c) (arr6_8 V c) (arr6_9 V c)) (fun t _ => flushed6_eq V c t) fun i => by
    have hN : cfg6.N = 10 := N_6
    have hi0 : (i 0).val < 50000 := (i 0).isLt
    have hi1 : (i 1).val < 128 := (i 1).isLt
    obtain ⟨t, ht⟩ : ∃ t : Fin cfg6.N, t.val = (i 0).val / 5000 := ⟨⟨(i 0).val / 5000, by rw [hN]; omega⟩, rfl⟩
    obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts6 t
    refine ⟨t, flush6_10 t, ?_⟩
    rw [mem_blk6]
    intro a
    match a with
    | ⟨0, _⟩ => show win6_10.index t (0 : Fin 2) * 5000 ≤ (i 0).val ∧ (i 0).val < win6_10.index t (0 : Fin 2) * 5000 + 5000
                rw [e10_0, ht]; omega
    | ⟨1, _⟩ => show win6_10.index t (1 : Fin 2) * 128 ≤ (i 1).val ∧ (i 1).val < win6_10.index t (1 : Fin 2) * 128 + 128
                rw [e10_1]; omega

set_option maxHeartbeats 4000000 in
/-- The same, with the ten operand arrays written out as the region-entry contents of the windows' arrays. -/
theorem final6 (c : Dev nD) : (dat6 (F := Ideal) V c).arrAt 10 cfg6.N
    = GR (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) :=
  final6_arr V c

end Cert.KernelIdeal.Hand
-- ==== Proof.KIBridgeR6.lean ====
import proofs.«166951_j44444321579084_2_alg».proof.Proof.KIBridgeOps
import proofs.«166951_j44444321579084_2_alg».proof.Proof.KIValueR6
import proofs.«166951_j44444321579084_2_alg».proof.Proof.KIValueStage

/-! # Kernel call 6 leaves the third layer on the source nodes's output

The call's output array ends at the call's value function of its operands as it finds them; each operand is
read at the call's entry (`KIBridgeOps`); and the value function on the prepared weights and biases is the
network's stage on the plain ones. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

set_option maxHeartbeats 8000000 in  -- the call's operand references are found by evaluating the call's window table, once per operand
/-- What kernel call 6 leaves in its output array. -/
theorem k_v364 (m : (ℓ : Loc nD τ sig) → Buf (Elt Ideal) ℓ) (ρ : Dev nD → PrngReg) (c : Dev nD)
    (x250 : Arr Ideal S50000x128 .f32) (h250 : W14 m ρ c (Proc.devRef .tc main_v250) = x250)
    (x273 : Arr Ideal S50000x128 .f32) (h273 : W17 m ρ c (Proc.devRef .tc main_v273) = x273) :
    W20 m ρ c (Proc.devRef .tc main_v364) = Cert.Stages.h3s x250 x273 (m ((c : Thread nD τ).loc main_arg24)) (m ((c : Thread nD τ).loc main_arg27)) (m ((c : Thread nD τ).loc main_arg11)) (m ((c : Thread nD τ).loc main_arg12)) (m ((c : Thread nD τ).loc main_arg13)) := by
  rw [W20_out, final6 (V19 m ρ) c]
  show GR
      (W19 m ρ c (Proc.devRef .tc main_v290))
      (W19 m ρ c (Proc.devRef .tc main_v341))
      (W19 m ρ c (Proc.devRef .tc main_v250))
      (W19 m ρ c (Proc.devRef .tc main_v250))
      (W19 m ρ c (Proc.devRef .tc main_v355))
      (W19 m ρ c (Proc.devRef .tc main_v362))
      (W19 m ρ c (Proc.devRef .tc main_v357))
      (W19 m ρ c (Proc.devRef .tc main_v359))
      (W19 m ρ c (Proc.devRef .tc main_v363))
      (W19 m ρ c (Proc.devRef .tc main_v361)) = _
  rw [at19_v290 m ρ c x250 h250,
    at19_v341 m ρ c x273 h273,
    at19_v250 m ρ c x250 h250,
    at19_v355 m ρ c,
    at19_v362 m ρ c,
    at19_v357 m ρ c,
    at19_v359 m ρ c,
    at19_v363 m ρ c,
    at19_v361 m ρ c]
  exact GR_eq_layerOutR _ _ _ _ _ _ _ _ _

end Cert.KernelIdeal.Hand
-- ==== Proof.KIValueR7.lean ====
import proofs.«166951_j44444321579084_2_alg».proof.Proof.KIFrameR7
import proofs.«166951_j44444321579084_2_alg».proof.Proof.KIValueG
import Idealize.ShloMosaic.Lib.Pipeline.Value
import Idealize.ShloMosaic.Lib.ValueIdx
import Idealize.ShloMosaic.Lib.ValueLayout
import Idealize.ShloMosaic.PureOps.Ideal.Laws

/-!
# The value of the region of custom call 7, over the extended reals

The region's grid cuts the 50000 rows into ten blocks of 5000. At each point the body stores, for every row of the
block and every column, the entry `GRrow` computes from that row of the four node-feature operands and from the whole
of the six parameter operands. The ten blocks tile the output array, so after the region it holds `GR` of the ten
operand arrays at every index.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's stored value at an index -/

/-- The stored value at row `p`, column `q` of the block, from the ten loaded blocks. -/
theorem pay7_apply (x0 x1 x2 x3 : Vec Ideal S5000x128 .f32) (x4 : Vec Ideal S128x128 .bf16) (x5 : Vec Ideal S1x128 .f32)
    (x6 x7 : Vec Ideal S128x128 .bf16) (x8 : Vec Ideal S1x128 .f32) (x9 : Vec Ideal S128x128 .bf16) (p : Fin 5000) (q : Fin 128) :
    k7_pay1 (k7_pay2 x0 x1 x2 x4 x5 x6 x7 x8 x9) x3 (ix2 p q)
      = max ((((((∑ k : Fin 128, x0 (ix2 p k) * x4 (ix2 k q)) + x5 (ix2 (0 : Fin 1) q)) + ∑ k : Fin 128, x2 (ix2 p k) * x6 (ix2 k q))
            + (((∑ k : Fin 128, x1 (ix2 p k) * x7 (ix2 k q)) + x8 (ix2 (0 : Fin 1) q)) + ∑ k : Fin 128, x2 (ix2 p k) * x9 (ix2 k q)))
          * Ideal.ofBits .f32 0x3F000000#32) + x3 (ix2 p q)) (Ideal.ofBits .f32 0x00000000#32) := by
  unfold k7_pay1 k7_pay2
  simp only [shapeCast_self]
  show max ((((matmul dot_S5000x128_S128x128_S5000x128_1_0_0_1_n_n none (truncf .bf16 x0 bitsLt_bf16_f32) x4 (constant (F := Ideal) S5000x128 .f32 0x00000000#32) (ix2 p q)
              + broadcastTo S5000x128 x5 broadcasts_S1x128_S5000x128 (ix2 p q))
            + matmul dot_S5000x128_S128x128_S5000x128_1_0_0_1_n_n none (truncf .bf16 x2 bitsLt_bf16_f32) x6 (constant (F := Ideal) S5000x128 .f32 0x00000000#32) (ix2 p q))
          + ((matmul dot_S5000x128_S128x128_S5000x128_1_0_0_1_n_n none (truncf .bf16 x1 bitsLt_bf16_f32) x7 (constant (F := Ideal) S5000x128 .f32 0x00000000#32) (ix2 p q)
              + broadcastTo S5000x128 x8 broadcasts_S1x128_S5000x128 (ix2 p q))
            + matmul dot_S5000x128_S128x128_S5000x128_1_0_0_1_n_n none (truncf .bf16 x2 bitsLt_bf16_f32) x9 (constant (F := Ideal) S5000x128 .f32 0x00000000#32) (ix2 p q)))
        * Ideal.ofBits .f32 0x3F000000#32 + x3 (ix2 p q)) (Ideal.ofBits .f32 0x00000000#32) = _
  rw [matmulR_row, matmulR_row, matmulR_row, matmulR_row, broadcastTo_1b_ab_apply, broadcastTo_1b_ab_apply]
  rfl

/-- The stored value at an index of the block is the result's entry at the matching index of the arrays: row
    `b + p` of an array is row `p` of its block (`h0 … h3`), and the six small operands are read whole. -/
theorem pay7_eq_G (x0 x1 x2 x3 : Vec Ideal S5000x128 .f32) (a0 a1 a2 a3 : Vec Ideal S50000x128 .f32)
    (x4 a4 : Vec Ideal S128x128 .bf16) (x5 a5 : Vec Ideal S1x128 .f32) (x6 a6 x7 a7 : Vec Ideal S128x128 .bf16) (x8 a8 : Vec Ideal S1x128 .f32)
    (x9 a9 : Vec Ideal S128x128 .bf16) (b : Nat) (j : S5000x128.Idx) (i : S50000x128.Idx)
    (h4 : x4 = a4) (h5 : x5 = a5) (h6 : x6 = a6) (h7 : x7 = a7) (h8 : x8 = a8) (h9 : x9 = a9)
    (hi0 : (i 0).val = b + (j 0).val) (hi1 : (i 1).val = (j 1).val)
    (h0 : ∀ (y : S5000x128.Idx) (z : S50000x128.Idx), (z 0).val = b + (y 0).val → (z 1).val = (y 1).val → x0 y = a0 z)
    (h1 : ∀ (y : S5000x128.Idx) (z : S50000x128.Idx), (z 0).val = b + (y 0).val → (z 1).val = (y 1).val → x1 y = a1 z)
    (h2 : ∀ (y : S5000x128.Idx) (z : S50000x128.Idx), (z 0).val = b + (y 0).val → (z 1).val = (y 1).val → x2 y = a2 z)
    (h3 : ∀ (y : S5000x128.Idx) (z : S50000x128.Idx), (z 0).val = b + (y 0).val → (z 1).val = (y 1).val → x3 y = a3 z) :
    k7_pay1 (k7_pay2 x0 x1 x2 x4 x5 x6 x7 x8 x9) x3 j = GR a0 a1 a2 a3 a4 a5 a6 a7 a8 a9 i := by
  subst h4 h5 h6 h7 h8 h9
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = b + p.val := hi0
  obtain rfl : s = q := Fin.ext hi1
  have e0 : ∀ k : Fin 128, x0 (ix2 p k) = a0 (ix2 r k) := fun k => h0 _ _ hr rfl
  have e1 : ∀ k : Fin 128, x1 (ix2 p k) = a1 (ix2 r k) := fun k => h1 _ _ hr rfl
  have e2 : ∀ k : Fin 128, x2 (ix2 p k) = a2 (ix2 r k) := fun k => h2 _ _ hr rfl
  have e3 : x3 (ix2 p s) = a3 (ix2 r s) := h3 _ _ hr rfl
  rw [pay7_apply]
  show _ = GRrow a0 a1 a2 a3 x4 x5 x6 x7 x8 x9 r s
  unfold GRrow
  simp only [e0, e1, e2, e3]

/-! ## From blocks to the array -/

variable (V : (c : Dev nD) → (b : Ref sig .tc) → Buf (Elt Ideal) ((c : Thread nD τ).loc b))

/-! The call's ten operand arrays as the region finds them, each at its literal shape. -/
abbrev arr7_0 (c : Dev nD) : Vec Ideal S50000x128 .f32 := V c (Pipeline.arrRef spec7 0)
abbrev arr7_1 (c : Dev nD) : Vec Ideal S50000x128 .f32 := V c (Pipeline.arrRef spec7 1)
abbrev arr7_2 (c : Dev nD) : Vec Ideal S50000x128 .f32 := V c (Pipeline.arrRef spec7 2)
abbrev arr7_3 (c : Dev nD) : Vec Ideal S50000x128 .f32 := V c (Pipeline.arrRef spec7 3)
abbrev arr7_4 (c : Dev nD) : Vec Ideal S128x128 .bf16 := V c (Pipeline.arrRef spec7 4)
abbrev arr7_5 (c : Dev nD) : Vec Ideal S1x128 .f32 := V c (Pipeline.arrRef spec7 5)
abbrev arr7_6 (c : Dev nD) : Vec Ideal S128x128 .bf16 := V c (Pipeline.arrRef spec7 6)
abbrev arr7_7 (c : Dev nD) : Vec Ideal S128x128 .bf16 := V c (Pipeline.arrRef spec7 7)
abbrev arr7_8 (c : Dev nD) : Vec Ideal S1x128 .f32 := V c (Pipeline.arrRef spec7 8)
abbrev arr7_9 (c : Dev nD) : Vec Ideal S128x128 .bf16 := V c (Pipeline.arrRef spec7 9)

theorem hz7 : (![0, 0] : Fin 2 → Nat) = fun _ => 0 := funext fun a => by fin_cases a <;> rfl

/-- The windows' block indices, decided over the grid: the four row-blocked inputs and the output are at block
    `(t, 0)` at point `t`, the six small inputs at block `(0, 0)`. -/
theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0
    ∧ win7_3.index t (0 : Fin 2) = t.val
    ∧ win7_3.index t (1 : Fin 2) = 0
    ∧ win7_10.index t (0 : Fin 2) = t.val
    ∧ win7_10.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = 0
    ∧ win7_7.index t (1 : Fin 2) = 0
    ∧ win7_8.index t (0 : Fin 2) = 0
    ∧ win7_8.index t (1 : Fin 2) = 0
    ∧ win7_9.index t (0 : Fin 2) = 0
    ∧ win7_9.index t (1 : Fin 2) = 0 :=
  (by decide +kernel : ∀ t : Fin grid7.N, _)

/-- Input window 0's block at point `t` is rows `5000 t … 5000 t + 4999` of its array. -/
theorem iblk7_0_apply (c : Dev nD) (t : Fin cfg7.N) (y : S5000x128.Idx) (i : S50000x128.Idx)
    (h0 : (i 0).val = t.val * 5000 + (y 0).val) (h1 : (i 1).val = (y 1).val) :
    (iblk7 V c 0 t : Vec Ideal S5000x128 .f32) y = arr7_0 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  unfold iblk7
  rw [View.read_apply]
  show arr7_0 V c (((cfg7.win 0).blk t).view.emb y) = _
  refine congrArg _ (funext fun a => Fin.ext ?_)
  match a with
  | ⟨0, _⟩ => show win7_0.index t (0 : Fin 2) * 5000 + 1 * (y 0).val = (i 0).val; rw [e0_0, h0]; omega
  | ⟨1, _⟩ => show win7_0.index t (1 : Fin 2) * 128 + 1 * (y 1).val = (i 1).val; rw [e0_1, h1]; omega

/-- Input window 1's block at point `t` is rows `5000 t … 5000 t + 4999` of its array. -/
theorem iblk7_1_apply (c : Dev nD) (t : Fin cfg7.N) (y : S5000x128.Idx) (i : S50000x128.Idx)
    (h0 : (i 0).val = t.val * 5000 + (y 0).val) (h1 : (i 1).val = (y 1).val) :
    (iblk7 V c 1 t : Vec Ideal S5000x128 .f32) y = arr7_1 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  unfold iblk7
  rw [View.read_apply]
  show arr7_1 V c (((cfg7.win 1).blk t).view.emb y) = _
  refine congrArg _ (funext fun a => Fin.ext ?_)
  match a with
  | ⟨0, _⟩ => show win7_1.index t (0 : Fin 2) * 5000 + 1 * (y 0).val = (i 0).val; rw [e1_0, h0]; omega
  | ⟨1, _⟩ => show win7_1.index t (1 : Fin 2) * 128 + 1 * (y 1).val = (i 1).val; rw [e1_1, h1]; omega

/-- Input window 2's block at point `t` is rows `5000 t … 5000 t + 4999` of its array. -/
theorem iblk7_2_apply (c : Dev nD) (t : Fin cfg7.N) (y : S5000x128.Idx) (i : S50000x128.Idx)
    (h0 : (i 0).val = t.val * 5000 + (y 0).val) (h1 : (i 1).val = (y 1).val) :
    (iblk7 V c 2 t : Vec Ideal S5000x128 .f32) y = arr7_2 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  unfold iblk7
  rw [View.read_apply]
  show arr7_2 V c (((cfg7.win 2).blk t).view.emb y) = _
  refine congrArg _ (funext fun a => Fin.ext ?_)
  match a with
  | ⟨0, _⟩ => show win7_2.index t (0 : Fin 2) * 5000 + 1 * (y 0).val = (i 0).val; rw [e2_0, h0]; omega
  | ⟨1, _⟩ => show win7_2.index t (1 : Fin 2) * 128 + 1 * (y 1).val = (i 1).val; rw [e2_1, h1]; omega

/-- Input window 3's block at point `t` is rows `5000 t … 5000 t + 4999` of its array. -/
theorem iblk7_3_apply (c : Dev nD) (t : Fin cfg7.N) (y : S5000x128.Idx) (i : S50000x128.Idx)
    (h0 : (i 0).val = t.val * 5000 + (y 0).val) (h1 : (i 1).val = (y 1).val) :
    (iblk7 V c 3 t : Vec Ideal S5000x128 .f32) y = arr7_3 V c i := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  unfold iblk7
  rw [View.read_apply]
  show arr7_3 V c (((cfg7.win 3).blk t).view.emb y) = _
  refine congrArg _ (funext fun a => Fin.ext ?_)
  match a with
  | ⟨0, _⟩ => show win7_3.index t (0 : Fin 2) * 5000 + 1 * (y 0).val = (i 0).val; rw [e3_0, h0]; omega
  | ⟨1, _⟩ => show win7_3.index t (1 : Fin 2) * 128 + 1 * (y 1).val = (i 1).val; rw [e3_1, h1]; omega

/-- Input window 4's block at every point is the whole of its array. -/
theorem iblk7_4_eq (c : Dev nD) (t : Fin cfg7.N) :
    (iblk7 V c 4 t : Vec Ideal S128x128 .bf16) = arr7_4 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  funext y
  unfold iblk7
  rw [View.read_apply]
  show arr7_4 V c (((cfg7.win 4).blk t).view.emb y) = _
  refine congrArg _ (funext fun a => Fin.ext ?_)
  match a with
  | ⟨0, _⟩ => show win7_4.index t (0 : Fin 2) * 128 + 1 * (y 0).val = (y 0).val; rw [e4_0]; omega
  | ⟨1, _⟩ => show win7_4.index t (1 : Fin 2) * 128 + 1 * (y 1).val = (y 1).val; rw [e4_1]; omega

/-- Input window 5's block at every point is the whole of its array. -/
theorem iblk7_5_eq (c : Dev nD) (t : Fin cfg7.N) :
    (iblk7 V c 5 t : Vec Ideal S1x128 .f32) = arr7_5 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  funext y
  unfold iblk7
  rw [View.read_apply]
  show arr7_5 V c (((cfg7.win 5).blk t).view.emb y) = _
  refine congrArg _ (funext fun a => Fin.ext ?_)
  match a with
  | ⟨0, _⟩ => show win7_5.index t (0 : Fin 2) * 1 + 1 * (y 0).val = (y 0).val; rw [e5_0]; omega
  | ⟨1, _⟩ => show win7_5.index t (1 : Fin 2) * 128 + 1 * (y 1).val = (y 1).val; rw [e5_1]; omega

/-- Input window 6's block at every point is the whole of its array. -/
theorem iblk7_6_eq (c : Dev nD) (t : Fin cfg7.N) :
    (iblk7 V c 6 t : Vec Ideal S128x128 .bf16) = arr7_6 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  funext y
  unfold iblk7
  rw [View.read_apply]
  show arr7_6 V c (((cfg7.win 6).blk t).view.emb y) = _
  refine congrArg _ (funext fun a => Fin.ext ?_)
  match a with
  | ⟨0, _⟩ => show win7_6.index t (0 : Fin 2) * 128 + 1 * (y 0).val = (y 0).val; rw [e6_0]; omega
  | ⟨1, _⟩ => show win7_6.index t (1 : Fin 2) * 128 + 1 * (y 1).val = (y 1).val; rw [e6_1]; omega

/-- Input window 7's block at every point is the whole of its array. -/
theorem iblk7_7_eq (c : Dev nD) (t : Fin cfg7.N) :
    (iblk7 V c 7 t : Vec Ideal S128x128 .bf16) = arr7_7 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  funext y
  unfold iblk7
  rw [View.read_apply]
  show arr7_7 V c (((cfg7.win 7).blk t).view.emb y) = _
  refine congrArg _ (funext fun a => Fin.ext ?_)
  match a with
  | ⟨0, _⟩ => show win7_7.index t (0 : Fin 2) * 128 + 1 * (y 0).val = (y 0).val; rw [e7_0]; omega
  | ⟨1, _⟩ => show win7_7.index t (1 : Fin 2) * 128 + 1 * (y 1).val = (y 1).val; rw [e7_1]; omega

/-- Input window 8's block at every point is the whole of its array. -/
theorem iblk7_8_eq (c : Dev nD) (t : Fin cfg7.N) :
    (iblk7 V c 8 t : Vec Ideal S1x128 .f32) = arr7_8 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  funext y
  unfold iblk7
  rw [View.read_apply]
  show arr7_8 V c (((cfg7.win 8).blk t).view.emb y) = _
  refine congrArg _ (funext fun a => Fin.ext ?_)
  match a with
  | ⟨0, _⟩ => show win7_8.index t (0 : Fin 2) * 1 + 1 * (y 0).val = (y 0).val; rw [e8_0]; omega
  | ⟨1, _⟩ => show win7_8.index t (1 : Fin 2) * 128 + 1 * (y 1).val = (y 1).val; rw [e8_1]; omega

/-- Input window 9's block at every point is the whole of its array. -/
theorem iblk7_9_eq (c : Dev nD) (t : Fin cfg7.N) :
    (iblk7 V c 9 t : Vec Ideal S128x128 .bf16) = arr7_9 V c := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  funext y
  unfold iblk7
  rw [View.read_apply]
  show arr7_9 V c (((cfg7.win 9).blk t).view.emb y) = _
  refine congrArg _ (funext fun a => Fin.ext ?_)
  match a with
  | ⟨0, _⟩ => show win7_9.index t (0 : Fin 2) * 128 + 1 * (y 0).val = (y 0).val; rw [e9_0]; omega
  | ⟨1, _⟩ => show win7_9.index t (1 : Fin 2) * 128 + 1 * (y 1).val = (y 1).val; rw [e9_1]; omega

/-- What point `t` writes back is block `t` of `GR` of the arrays as the region finds them. -/
theorem flushed7_eq (c : Dev nD) (t : Fin cfg7.N) :
    (dat7 (F := Ideal) V c).flushed 10 t = ((cfg7.win 10).blk t).view.read (Elt Ideal) (GR (arr7_0 V c) (arr7_1 V c) (arr7_2 V c) (arr7_3 V c) (arr7_4 V c) (arr7_5 V c) (arr7_6 V c) (arr7_7 V c) (arr7_8 V c) (arr7_9 V c)) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
  show (cfg7.win 10).cut (grid7.coords t) ((dat7 V c).after 10 t) = _
  rw [after7_10]
  unfold out7_10
  rw [View.canon_unit_zero hz7]
  simp only [View.ld_unit_zero (S := S5000x128) hz7, View.ld_unit_zero (S := S128x128) hz7, View.ld_unit_zero (S := S1x128) hz7]
  funext j
  rw [View.read_apply]
  refine pay7_eq_G (iblk7 V c 0 t) (iblk7 V c 1 t) (iblk7 V c 2 t) (iblk7 V c 3 t)
    (arr7_0 V c) (arr7_1 V c) (arr7_2 V c) (arr7_3 V c)
    (iblk7 V c 4 t) (arr7_4 V c) (iblk7 V c 5 t) (arr7_5 V c)
    (iblk7 V c 6 t) (arr7_6 V c) (iblk7 V c 7 t) (arr7_7 V c)
    (iblk7 V c 8 t) (arr7_8 V c) (iblk7 V c 9 t) (arr7_9 V c)
    (t.val * 5000) j (((cfg7.win 10).blk t).view.emb j)
    (iblk7_4_eq V c t) (iblk7_5_eq V c t) (iblk7_6_eq V c t) (iblk7_7_eq V c t) (iblk7_8_eq V c t) (iblk7_9_eq V c t) ?_ ?_
    (fun y z hz0 hz1 => iblk7_0_apply V c t y z hz0 hz1) (fun y z hz0 hz1 => iblk7_1_apply V c t y z hz0 hz1)
    (fun y z hz0 hz1 => iblk7_2_apply V c t y z hz0 hz1) (fun y z hz0 hz1 => iblk7_3_apply V c t y z hz0 hz1)
  · show win7_10.index t (0 : Fin 2) * 5000 + 1 * (j 0).val = t.val * 5000 + (j 0).val
    rw [e10_0]; omega
  · show win7_10.index t (1 : Fin 2) * 128 + 1 * (j 1).val = (j 1).val
    rw [e10_1]; omega

/-- An index of the output array is in point `t`'s block iff each coordinate is in the block's range on its axis. -/
theorem mem_blk7 (t : Fin cfg7.N) (i : S50000x128.Idx) :
    i ∈ ((cfg7.win 10).blk t).view.set ↔ ∀ a : Fin 2, win7_10.index t a * S5000x128.size a ≤ (i a).val ∧ (i a).val < win7_10.index t a * S5000x128.size a + S5000x128.size a := by
  show i ∈ ((View.whole main_v387).slice (win7_10.rect t)).set ↔ _
  rw [View.set_slice_whole, Rect.mem_set_unit]
  exact Iff.rfl

/-- The output array after the region: `GR` of the ten operand arrays as the region finds them. Row `r` is
    written back at point `r / 5000`. -/
theorem final7_arr (c : Dev nD) : (dat7 (F := Ideal) V c).arrAt 10 cfg7.N = GR (arr7_0 V c) (arr7_1 V c) (arr7_2 V c) (arr7_3 V c) (arr7_4 V c) (arr7_5 V c) (arr7_6 V c) (arr7_7 V c) (arr7_8 V c) (arr7_9 V c) :=
  (dat7 (F := Ideal) V c).arrAt_eq_of_cover 10 (GR (arr7_0 V c) (arr7_1 V c) (arr7_2 V c) (arr7_3 V c) (arr7_4 V c) (arr7_5 V c) (arr7_6 V c) (arr7_7 V c) (arr7_8 V c) (arr7_9 V c)) (fun t _ => flushed7_eq V c t) fun i => by
    have hN : cfg7.N = 10 := N_7
    have hi0 : (i 0).val < 50000 := (i 0).isLt
    have hi1 : (i 1).val < 128 := (i 1).isLt
    obtain ⟨t, ht⟩ : ∃ t : Fin cfg7.N, t.val = (i 0).val / 5000 := ⟨⟨(i 0).val / 5000, by rw [hN]; omega⟩, rfl⟩
    obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts7 t
    refine ⟨t, flush7_10 t, ?_⟩
    rw [mem_blk7]
    intro a
    match a with
    | ⟨0, _⟩ => show win7_10.index t (0 : Fin 2) * 5000 ≤ (i 0).val ∧ (i 0).val < win7_10.index t (0 : Fin 2) * 5000 + 5000
                rw [e10_0, ht]; omega
    | ⟨1, _⟩ => show win7_10.index t (1 : Fin 2) * 128 ≤ (i 1).val ∧ (i 1).val < win7_10.index t (1 : Fin 2) * 128 + 128
                rw [e10_1]; omega

set_option maxHeartbeats 4000000 in
/-- The same, with the ten operand arrays written out as the region-entry contents of the windows' arrays. -/
theorem final7 (c : Dev nD) : (dat7 (F := Ideal) V c).arrAt 10 cfg7.N
    = GR (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (V c (Pipeline.arrRef spec7 9)) :=
  final7_arr V c

end Cert.KernelIdeal.Hand
-- ==== Proof.KIBridgeR7.lean ====
import proofs.«166951_j44444321579084_2_alg».proof.Proof.KIBridgeOps
import proofs.«166951_j44444321579084_2_alg».proof.Proof.KIValueR7
import proofs.«166951_j44444321579084_2_alg».proof.Proof.KIValueStage

/-! # Kernel call 7 leaves the third layer on the target nodes's output

The call's output array ends at the call's value function of its operands as it finds them; each operand is
read at the call's entry (`KIBridgeOps`); and the value function on the prepared weights and biases is the
network's stage on the plain ones. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

set_option maxHeartbeats 8000000 in  -- the call's operand references are found by evaluating the call's window table, once per operand
/-- What kernel call 7 leaves in its output array. -/
theorem k_v387 (m : (ℓ : Loc nD τ sig) → Buf (Elt Ideal) ℓ) (ρ : Dev nD → PrngReg) (c : Dev nD)
    (x250 : Arr Ideal S50000x128 .f32) (h250 : W14 m ρ c (Proc.devRef .tc main_v250) = x250)
    (x273 : Arr Ideal S50000x128 .f32) (h273 : W17 m ρ c (Proc.devRef .tc main_v273) = x273) :
    W23 m ρ c (Proc.devRef .tc main_v387) = Cert.Stages.h3t x250 x273 (m ((c : Thread nD τ).loc main_arg25)) (m ((c : Thread nD τ).loc main_arg26)) (m ((c : Thread nD τ).loc main_arg11)) (m ((c : Thread nD τ).loc main_arg12)) (m ((c : Thread nD τ).loc main_arg13)) := by
  rw [W23_out, final7 (V22 m ρ) c]
  show GR
      (W22 m ρ c (Proc.devRef .tc main_v307))
      (W22 m ρ c (Proc.devRef .tc main_v324))
      (W22 m ρ c (Proc.devRef .tc main_v273))
      (W22 m ρ c (Proc.devRef .tc main_v273))
      (W22 m ρ c (Proc.devRef .tc main_v378))
      (W22 m ρ c (Proc.devRef .tc main_v385))
      (W22 m ρ c (Proc.devRef .tc main_v380))
      (W22 m ρ c (Proc.devRef .tc main_v382))
      (W22 m ρ c (Proc.devRef .tc main_v386))
      (W22 m ρ c (Proc.devRef .tc main_v384)) = _
  rw [at22_v307 m ρ c x273 h273,
    at22_v324 m ρ c x250 h250,
    at22_v273 m ρ c x273 h273,
    at22_v378 m ρ c,
    at22_v385 m ρ c,
    at22_v380 m ρ c,
    at22_v382 m ρ c,
    at22_v386 m ρ c,
    at22_v384 m ρ c]
  exact GR_eq_layerOutR _ _ _ _ _ _ _ _ _

end Cert.KernelIdeal.Hand
-- ==== Proof.KIValueF8.lean ====
import proofs.«166951_j44444321579084_2_alg».proof.Proof.KIValueR8
import Idealize.ShloMosaic.Lib.Pipeline.Value
import Idealize.ShloMosaic.Lib.ValueIdx
import Idealize.ShloMosaic.Lib.ValueLayout
import Idealize.ShloMosaic.PureOps.Ideal.Laws

/-!
# The gated edge head's kernel call at the ideal values: the result array

Point `t` of the call writes back columns `4096 t … 4096 t + 4095` of the `2 × 500000` result (the last point: 288
columns). Column `4096 t + q` of what it writes is the head's two outputs for edge `4096 t + q`, computed from row `q`
of the three edge blocks at that point — rows `4096 t + q` of the three edge arrays — and the twelve constants, whose
blocks are their whole arrays. The 123 blocks cover the result, so after the call it holds the head's outputs of every
edge: `G8` of the fifteen input arrays as the call found them.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

-- the TensorCore's buffer contents when the call is entered
variable (V : (c : Dev nD) → (b : Ref sig .tc) → Buf (Elt Ideal) ((c : Thread nD τ).loc b))

/-! ## The index maps over the grid -/

/-- The result's block column and the edge-indexed windows' block row are the point; their other block index is zero;
    the result keeps both rows, and 4096 columns but at the last point, 288. -/
theorem idx8 : ∀ t : Fin cfg8.N,
    win8_15.index t (0 : Fin 2) = 0 ∧ win8_15.index t (1 : Fin 2) = t.val
    ∧ win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_15.xsize (grid8.coords t) (0 : Fin 2) = 2
    ∧ win8_15.xsize (grid8.coords t) (1 : Fin 2) = (if t.val = 122 then 288 else 4096) :=
  (by decide +kernel : ∀ t : Fin grid8.N, _)

/-- Every constant's block is at index zero on both axes. -/
theorem idx8c : ∀ t : Fin cfg8.N,
    (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_7.index t (0 : Fin 2) = 0 ∧ win8_7.index t (1 : Fin 2) = 0)
    ∧ (win8_8.index t (0 : Fin 2) = 0 ∧ win8_8.index t (1 : Fin 2) = 0)
    ∧ (win8_9.index t (0 : Fin 2) = 0 ∧ win8_9.index t (1 : Fin 2) = 0)
    ∧ (win8_10.index t (0 : Fin 2) = 0 ∧ win8_10.index t (1 : Fin 2) = 0)
    ∧ (win8_11.index t (0 : Fin 2) = 0 ∧ win8_11.index t (1 : Fin 2) = 0)
    ∧ (win8_12.index t (0 : Fin 2) = 0 ∧ win8_12.index t (1 : Fin 2) = 0)
    ∧ (win8_13.index t (0 : Fin 2) = 0 ∧ win8_13.index t (1 : Fin 2) = 0)
    ∧ (win8_14.index t (0 : Fin 2) = 0 ∧ win8_14.index t (1 : Fin 2) = 0) :=
  (by decide +kernel : ∀ t : Fin grid8.N, _)

/-! ## The blocks, read off the arrays -/

/-- Constant window 3's block is its array. -/
theorem iblk8_3 (c : Dev nD) (t : Fin cfg8.N) : iblk8 V c 3 t = V c (Pipeline.arrRef spec8 3) := by
  funext y
  have e := (idx8c t).1
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 128 + 1 * (y 0).val = (y 0).val; rw [e.1]; omega
  | ⟨1, _⟩ => show win8_3.index t (1 : Fin 2) * 128 + 1 * (y 1).val = (y 1).val; rw [e.2]; omega

/-- Constant window 4's block is its array. -/
theorem iblk8_4 (c : Dev nD) (t : Fin cfg8.N) : iblk8 V c 4 t = V c (Pipeline.arrRef spec8 4) := by
  funext y
  have e := (idx8c t).2.1
  show V c (Pipeline.arrRef spec8 4) (((cfg8.win 4).blk t).view.emb y) = V c (Pipeline.arrRef spec8 4) y
  refine congrArg _ (funext fun a => Fin.ext ?_)
  match a with
  | ⟨0, _⟩ => show win8_4.index t (0 : Fin 2) * 128 + 1 * (y 0).val = (y 0).val; rw [e.1]; omega
  | ⟨1, _⟩ => show win8_4.index t (1 : Fin 2) * 128 + 1 * (y 1).val = (y 1).val; rw [e.2]; omega

/-- Constant window 5's block is its array. -/
theorem iblk8_5 (c : Dev nD) (t : Fin cfg8.N) : iblk8 V c 5 t = V c (Pipeline.arrRef spec8 5) := by
  funext y
  have e := (idx8c t).2.2.1
  show V c (Pipeline.arrRef spec8 5) (((cfg8.win 5).blk t).view.emb y) = V c (Pipeline.arrRef spec8 5) y
  refine congrArg _ (funext fun a => Fin.ext ?_)
  match a with
  | ⟨0, _⟩ => show win8_5.index t (0 : Fin 2) * 1 + 1 * (y 0).val = (y 0).val; rw [e.1]; omega
  | ⟨1, _⟩ => show win8_5.index t (1 : Fin 2) * 128 + 1 * (y 1).val = (y 1).val; rw [e.2]; omega

/-- Constant window 6's block is its array. -/
theorem iblk8_6 (c : Dev nD) (t : Fin cfg8.N) : iblk8 V c 6 t = V c (Pipeline.arrRef spec8 6) := by
  funext y
  have e := (idx8c t).2.2.2.1
  show V c (Pipeline.arrRef spec8 6) (((cfg8.win 6).blk t).view.emb y) = V c (Pipeline.arrRef spec8 6) y
  refine congrArg _ (funext fun a => Fin.ext ?_)
  match a with
  | ⟨0, _⟩ => show win8_6.index t (0 : Fin 2) * 128 + 1 * (y 0).val = (y 0).val; rw [e.1]; omega
  | ⟨1, _⟩ => show win8_6.index t (1 : Fin 2) * 1 + 1 * (y 1).val = (y 1).val; rw [e.2]; omega

/-- Constant window 7's block is its array. -/
theorem iblk8_7 (c : Dev nD) (t : Fin cfg8.N) : iblk8 V c 7 t = V c (Pipeline.arrRef spec8 7) := by
  funext y
  have e := (idx8c t).2.2.2.2.1
  show V c (Pipeline.arrRef spec8 7) (((cfg8.win 7).blk t).view.emb y) = V c (Pipeline.arrRef spec8 7) y
  refine congrArg _ (funext fun a => Fin.ext ?_)
  match a with
  | ⟨0, _⟩ => show win8_7.index t (0 : Fin 2) * 1 + 1 * (y 0).val = (y 0).val; rw [e.1]; omega
  | ⟨1, _⟩ => show win8_7.index t (1 : Fin 2) * 1 + 1 * (y 1).val = (y 1).val; rw [e.2]; omega

/-- Constant window 8's block is its array. -/
theorem iblk8_8 (c : Dev nD) (t : Fin cfg8.N) : iblk8 V c 8 t = V c (Pipeline.arrRef spec8 8) := by
  funext y
  have e := (idx8c t).2.2.2.2.2.1
  show V c (Pipeline.arrRef spec8 8) (((cfg8.win 8).blk t).view.emb y) = V c (Pipeline.arrRef spec8 8) y
  refine congrArg _ (funext fun a => Fin.ext ?_)
  match a with
  | ⟨0, _⟩ => show win8_8.index t (0 : Fin 2) * 128 + 1 * (y 0).val = (y 0).val; rw [e.1]; omega
  | ⟨1, _⟩ => show win8_8.index t (1 : Fin 2) * 128 + 1 * (y 1).val = (y 1).val; rw [e.2]; omega

/-- Constant window 9's block is its array. -/
theorem iblk8_9 (c : Dev nD) (t : Fin cfg8.N) : iblk8 V c 9 t = V c (Pipeline.arrRef spec8 9) := by
  funext y
  have e := (idx8c t).2.2.2.2.2.2.1
  show V c (Pipeline.arrRef spec8 9) (((cfg8.win 9).blk t).view.emb y) = V c (Pipeline.arrRef spec8 9) y
  refine congrArg _ (funext fun a => Fin.ext ?_)
  match a with
  | ⟨0, _⟩ => show win8_9.index t (0 : Fin 2) * 32 + 1 * (y 0).val = (y 0).val; rw [e.1]; omega
  | ⟨1, _⟩ => show win8_9.index t (1 : Fin 2) * 128 + 1 * (y 1).val = (y 1).val; rw [e.2]; omega

/-- Constant window 10's block is its array. -/
theorem iblk8_10 (c : Dev nD) (t : Fin cfg8.N) : iblk8 V c 10 t = V c (Pipeline.arrRef spec8 10) := by
  funext y
  have e := (idx8c t).2.2.2.2.2.2.2.1
  show V c (Pipeline.arrRef spec8 10) (((cfg8.win 10).blk t).view.emb y) = V c (Pipeline.arrRef spec8 10) y
  refine congrArg _ (funext fun a => Fin.ext ?_)
  match a with
  | ⟨0, _⟩ => show win8_10.index t (0 : Fin 2) * 1 + 1 * (y 0).val = (y 0).val; rw [e.1]; omega
  | ⟨1, _⟩ => show win8_10.index t (1 : Fin 2) * 128 + 1 * (y 1).val = (y 1).val; rw [e.2]; omega

/-- Constant window 11's block is its array. -/
theorem iblk8_11 (c : Dev nD) (t : Fin cfg8.N) : iblk8 V c 11 t = V c (Pipeline.arrRef spec8 11) := by
  funext y
  have e := (idx8c t).2.2.2.2.2.2.2.2.1
  show V c (Pipeline.arrRef spec8 11) (((cfg8.win 11).blk t).view.emb y) = V c (Pipeline.arrRef spec8 11) y
  refine congrArg _ (funext fun a => Fin.ext ?_)
  match a with
  | ⟨0, _⟩ => show win8_11.index t (0 : Fin 2) * 128 + 1 * (y 0).val = (y 0).val; rw [e.1]; omega
  | ⟨1, _⟩ => show win8_11.index t (1 : Fin 2) * 64 + 1 * (y 1).val = (y 1).val; rw [e.2]; omega

/-- Constant window 12's block is its array. -/
theorem iblk8_12 (c : Dev nD) (t : Fin cfg8.N) : iblk8 V c 12 t = V c (Pipeline.arrRef spec8 12) := by
  funext y
  have e := (idx8c t).2.2.2.2.2.2.2.2.2.1
  show V c (Pipeline.arrRef spec8 12) (((cfg8.win 12).blk t).view.emb y) = V c (Pipeline.arrRef spec8 12) y
  refine congrArg _ (funext fun a => Fin.ext ?_)
  match a with
  | ⟨0, _⟩ => show win8_12.index t (0 : Fin 2) * 1 + 1 * (y 0).val = (y 0).val; rw [e.1]; omega
  | ⟨1, _⟩ => show win8_12.index t (1 : Fin 2) * 64 + 1 * (y 1).val = (y 1).val; rw [e.2]; omega

/-- Constant window 13's block is its array. -/
theorem iblk8_13 (c : Dev nD) (t : Fin cfg8.N) : iblk8 V c 13 t = V c (Pipeline.arrRef spec8 13) := by
  funext y
  have e := (idx8c t).2.2.2.2.2.2.2.2.2.2.1
  show V c (Pipeline.arrRef spec8 13) (((cfg8.win 13).blk t).view.emb y) = V c (Pipeline.arrRef spec8 13) y
  refine congrArg _ (funext fun a => Fin.ext ?_)
  match a with
  | ⟨0, _⟩ => show win8_13.index t (0 : Fin 2) * 64 + 1 * (y 0).val = (y 0).val; rw [e.1]; omega
  | ⟨1, _⟩ => show win8_13.index t (1 : Fin 2) * 2 + 1 * (y 1).val = (y 1).val; rw [e.2]; omega

/-- Constant window 14's block is its array. -/
theorem iblk8_14 (c : Dev nD) (t : Fin cfg8.N) : iblk8 V c 14 t = V c (Pipeline.arrRef spec8 14) := by
  funext y
  have e := (idx8c t).2.2.2.2.2.2.2.2.2.2.2
  show V c (Pipeline.arrRef spec8 14) (((cfg8.win 14).blk t).view.emb y) = V c (Pipeline.arrRef spec8 14) y
  refine congrArg _ (funext fun a => Fin.ext ?_)
  match a with
  | ⟨0, _⟩ => show win8_14.index t (0 : Fin 2) * 1 + 1 * (y 0).val = (y 0).val; rw [e.1]; omega
  | ⟨1, _⟩ => show win8_14.index t (1 : Fin 2) * 2 + 1 * (y 1).val = (y 1).val; rw [e.2]; omega

/-- Inside the array an index of edge-indexed window 0's buffer is one the fetch moves. -/
theorem moved8_0 (t : Fin cfg8.N) (r : Fin 4096) (m : Fin 128) (hr : r.val < (cfg8.win 15).xsize (cfg8.grid.coords t) 1) :
    (cfg8.win 0).moved (cfg8.grid.coords t) (ix2 r m) = true := by
  have e := ext8 t
  refine ((cfg8.win 0).moved_iff _ _).mpr fun a => ?_
  match a with
  | ⟨0, _⟩ => show r.val < (cfg8.win 0).xsize (cfg8.grid.coords t) 0; rw [e.1]; exact hr
  | ⟨1, _⟩ => show m.val < (cfg8.win 0).xsize (cfg8.grid.coords t) 1; rw [e.2.1]; exact m.isLt

/-- Row `q` of edge-indexed window 0's block at point `t`, inside the array, is row `4096 t + q` of the array. -/
theorem xin8_0_row (c : Dev nD) (t : Fin cfg8.N) (q : Fin 4096) (hq : q.val < (cfg8.win 15).xsize (cfg8.grid.coords t) 1)
    (R : Fin 500000) (hR : R.val = t.val * 4096 + q.val) :
    (fun m : Fin 128 => xin8_0 V c t (ix2 q m)) = fun m => V c (Pipeline.arrRef spec8 0) (ix2 R m) := by
  funext m
  have hm := moved8_0 t q m hq
  obtain ⟨-, -, i0, i1, -⟩ := idx8 t
  unfold xin8_0 Pipeline.Window.fill
  rw [dif_pos hm]
  show V c (Pipeline.arrRef spec8 0) (((cfg8.win 0).blk t).view.emb _) = V c (Pipeline.arrRef spec8 0) (ix2 R m)
  refine congrArg _ (funext fun a => Fin.ext ?_)
  match a with
  | ⟨0, _⟩ => show win8_0.index t (0 : Fin 2) * 4096 + 1 * q.val = R.val; rw [i0]; omega
  | ⟨1, _⟩ => show win8_0.index t (1 : Fin 2) * 128 + 1 * m.val = m.val; rw [i1]; omega

/-- Inside the array an index of edge-indexed window 1's buffer is one the fetch moves. -/
theorem moved8_1 (t : Fin cfg8.N) (r : Fin 4096) (m : Fin 128) (hr : r.val < (cfg8.win 15).xsize (cfg8.grid.coords t) 1) :
    (cfg8.win 1).moved (cfg8.grid.coords t) (ix2 r m) = true := by
  have e := ext8 t
  refine ((cfg8.win 1).moved_iff _ _).mpr fun a => ?_
  match a with
  | ⟨0, _⟩ => show r.val < (cfg8.win 1).xsize (cfg8.grid.coords t) 0; rw [e.2.2.1]; exact hr
  | ⟨1, _⟩ => show m.val < (cfg8.win 1).xsize (cfg8.grid.coords t) 1; rw [e.2.2.2.1]; exact m.isLt

/-- Row `q` of edge-indexed window 1's block at point `t`, inside the array, is row `4096 t + q` of the array. -/
theorem xin8_1_row (c : Dev nD) (t : Fin cfg8.N) (q : Fin 4096) (hq : q.val < (cfg8.win 15).xsize (cfg8.grid.coords t) 1)
    (R : Fin 500000) (hR : R.val = t.val * 4096 + q.val) :
    (fun m : Fin 128 => xin8_1 V c t (ix2 q m)) = fun m => V c (Pipeline.arrRef spec8 1) (ix2 R m) := by
  funext m
  have hm := moved8_1 t q m hq
  obtain ⟨-, -, -, -, i0, i1, -⟩ := idx8 t
  unfold xin8_1 Pipeline.Window.fill
  rw [dif_pos hm]
  show V c (Pipeline.arrRef spec8 1) (((cfg8.win 1).blk t).view.emb _) = V c (Pipeline.arrRef spec8 1) (ix2 R m)
  refine congrArg _ (funext fun a => Fin.ext ?_)
  match a with
  | ⟨0, _⟩ => show win8_1.index t (0 : Fin 2) * 4096 + 1 * q.val = R.val; rw [i0]; omega
  | ⟨1, _⟩ => show win8_1.index t (1 : Fin 2) * 128 + 1 * m.val = m.val; rw [i1]; omega

/-- Inside the array an index of edge-indexed window 2's buffer is one the fetch moves. -/
theorem moved8_2 (t : Fin cfg8.N) (r : Fin 4096) (m : Fin 32) (hr : r.val < (cfg8.win 15).xsize (cfg8.grid.coords t) 1) :
    (cfg8.win 2).moved (cfg8.grid.coords t) (ix2 r m) = true := by
  have e := ext8 t
  refine ((cfg8.win 2).moved_iff _ _).mpr fun a => ?_
  match a with
  | ⟨0, _⟩ => show r.val < (cfg8.win 2).xsize (cfg8.grid.coords t) 0; rw [e.2.2.2.2.1]; exact hr
  | ⟨1, _⟩ => show m.val < (cfg8.win 2).xsize (cfg8.grid.coords t) 1; rw [e.2.2.2.2.2]; exact m.isLt

/-- Row `q` of edge-indexed window 2's block at point `t`, inside the array, is row `4096 t + q` of the array. -/
theorem xin8_2_row (c : Dev nD) (t : Fin cfg8.N) (q : Fin 4096) (hq : q.val < (cfg8.win 15).xsize (cfg8.grid.coords t) 1)
    (R : Fin 500000) (hR : R.val = t.val * 4096 + q.val) :
    (fun m : Fin 32 => xin8_2 V c t (ix2 q m)) = fun m => V c (Pipeline.arrRef spec8 2) (ix2 R m) := by
  funext m
  have hm := moved8_2 t q m hq
  obtain ⟨-, -, -, -, -, -, i0, i1, -⟩ := idx8 t
  unfold xin8_2 Pipeline.Window.fill
  rw [dif_pos hm]
  show V c (Pipeline.arrRef spec8 2) (((cfg8.win 2).blk t).view.emb _) = V c (Pipeline.arrRef spec8 2) (ix2 R m)
  refine congrArg _ (funext fun a => Fin.ext ?_)
  match a with
  | ⟨0, _⟩ => show win8_2.index t (0 : Fin 2) * 4096 + 1 * q.val = R.val; rw [i0]; omega
  | ⟨1, _⟩ => show win8_2.index t (1 : Fin 2) * 32 + 1 * m.val = m.val; rw [i1]; omega

/-! ## What a point writes back -/

/-- The head's result at an index, by rows. -/
theorem G8_apply (src tgt : Arr8 S500000x128 .f32) (ea : Arr8 S500000x32 .f32)
    (gw1a gw1b : Arr8 S128x128 .bf16) (gb1r : Arr8 S1x128 .f32) (gw2t : Arr8 S128x1 .bf16) (gb2r : Arr8 S1x1 .f32)
    (mw1a : Arr8 S128x128 .bf16) (mw1b : Arr8 S32x128 .bf16) (mb1r : Arr8 S1x128 .f32)
    (mw2t : Arr8 S128x64 .bf16) (mb2r : Arr8 S1x64 .f32) (mw3t : Arr8 S64x2 .bf16) (mb3r : Arr8 S1x2 .f32) (R : Fin 500000) (p : Fin 2) :
    G8 src tgt ea gw1a gw1b gb1r gw2t gb2r mw1a mw1b mb1r mw2t mb2r mw3t mb3r (ix2 p R)
      = rowD3 (rowMix (fun m => src (ix2 R m)) (fun m => tgt (ix2 R m)) gw1a gw1b gb1r gw2t gb2r)
          (fun m => ea (ix2 R m)) mw1a mw1b mb1r mw2t mb2r mw3t mb3r p := rfl

/-- The head's outputs of one edge depend on the three rows and the twelve constants only. -/
theorem rowOut_congr {a0 a0' a1 a1' : Fin 128 → EReal} {a2 a2' : Fin 32 → EReal}
    {c3 c3' : Vec Ideal S128x128 .bf16} {c4 c4' : Vec Ideal S128x128 .bf16} {c5 c5' : Vec Ideal S1x128 .f32} {c6 c6' : Vec Ideal S128x1 .bf16} {c7 c7' : Vec Ideal S1x1 .f32} {c8 c8' : Vec Ideal S128x128 .bf16} {c9 c9' : Vec Ideal S32x128 .bf16} {c10 c10' : Vec Ideal S1x128 .f32} {c11 c11' : Vec Ideal S128x64 .bf16} {c12 c12' : Vec Ideal S1x64 .f32} {c13 c13' : Vec Ideal S64x2 .bf16} {c14 c14' : Vec Ideal S1x2 .f32}
    (h0 : a0 = a0') (h1 : a1 = a1') (h2 : a2 = a2') (h3 : c3 = c3') (h4 : c4 = c4') (h5 : c5 = c5') (h6 : c6 = c6') (h7 : c7 = c7') (h8 : c8 = c8') (h9 : c9 = c9') (h10 : c10 = c10') (h11 : c11 = c11') (h12 : c12 = c12') (h13 : c13 = c13') (h14 : c14 = c14') (p : Fin 2) :
    rowD3 (rowMix a0 a1 c3 c4 c5 c6 c7) a2 c8 c9 c10 c11 c12 c13 c14 p
      = rowD3 (rowMix a0' a1' c3' c4' c5' c6' c7') a2' c8' c9' c10' c11' c12' c13' c14' p := by
  subst h0 h1 h2 h3 h4 h5 h6 h7 h8 h9 h10 h11 h12 h13 h14; rfl

set_option maxHeartbeats 1000000 in
/-- Entry `(p, q)` of what the body leaves at point `t`, for a column `q` inside the array, is the head's result at
    `(p, 4096 t + q)`. -/
theorem after8_15_apply (c : Dev nD) (t : Fin cfg8.N) (p : Fin 2) (q : Fin 4096) (hq : q.val < (cfg8.win 15).xsize (cfg8.grid.coords t) 1)
    (R : Fin 500000) (hR : R.val = t.val * 4096 + q.val) :
    out8_15 (xin8_0 V c t) (xin8_1 V c t) (xin8_2 V c t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (ix2 p q)
      = G8 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13)) (V c (Pipeline.arrRef spec8 14)) (ix2 p R) := by
  exact (out8_15_apply _ _ _ _ _ _ _ _ _ _ _ _ _ _ _ p q).trans
    ((rowOut_congr (xin8_0_row V c t q hq R hR) (xin8_1_row V c t q hq R hR) (xin8_2_row V c t q hq R hR)
        (iblk8_3 V c t) (iblk8_4 V c t) (iblk8_5 V c t) (iblk8_6 V c t) (iblk8_7 V c t) (iblk8_8 V c t) (iblk8_9 V c t) (iblk8_10 V c t) (iblk8_11 V c t) (iblk8_12 V c t) (iblk8_13 V c t) (iblk8_14 V c t) p).trans
      (G8_apply _ _ _ _ _ _ _ _ _ _ _ _ _ _ _ R p).symm)

set_option maxHeartbeats 1000000 in
/-- WHAT POINT `t` WRITES BACK is block `t` of the head's result of the arrays as the call finds them. -/
theorem flushed8_eq (c : Dev nD) (t : Fin cfg8.N) :
    (dat8 (F := Ideal) V c).flushed 15 t = ((cfg8.win 15).blk t).view.read (Elt Ideal) (G8 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13)) (V c (Pipeline.arrRef spec8 14))) := by
  unfold Pipeline.Dat.flushed
  rw [after8_15]
  funext j
  obtain ⟨i0, i1, -, -, -, -, -, -, -, x1⟩ := idx8 t
  have hq : (j 1).val < (cfg8.win 15).xsize (cfg8.grid.coords t) 1 := (j 1).isLt
  have hq' : (j 1).val < 4096 := lt_of_lt_of_le hq ((cfg8.win 15).xsize_le (cfg8.grid.coords t) 1)
  have hp' : (j 0).val < 2 := lt_of_lt_of_le (j 0).isLt ((cfg8.win 15).xsize_le (cfg8.grid.coords t) 0)
  have ht : t.val < 123 := lt_of_lt_of_le t.isLt (le_of_eq N_8)
  have hR : t.val * 4096 + (j 1).val < 500000 := by
    have hx : (j 1).val < (if t.val = 122 then 288 else 4096) := by rw [← x1]; exact hq
    split at hx <;> omega
  have e : (cfg8.win 15).xinj (cfg8.grid.coords t) j = ix2 (⟨(j 0).val, hp'⟩ : Fin 2) (⟨(j 1).val, hq'⟩ : Fin 4096) :=
    funext fun a => by match a with | ⟨0, _⟩ => rfl | ⟨1, _⟩ => rfl
  have ej : ((cfg8.win 15).blk t).view.emb j = ix2 (⟨(j 0).val, hp'⟩ : Fin 2) (⟨t.val * 4096 + (j 1).val, hR⟩ : Fin 500000) :=
    funext fun a => Fin.ext (by
      match a with
      | ⟨0, _⟩ => show win8_15.index t (0 : Fin 2) * 2 + 1 * (j 0).val = (j 0).val; rw [i0]; omega
      | ⟨1, _⟩ => show win8_15.index t (1 : Fin 2) * 4096 + 1 * (j 1).val = t.val * 4096 + (j 1).val; rw [i1]; omega)
  have key := after8_15_apply V c t ⟨(j 0).val, hp'⟩ ⟨(j 1).val, hq'⟩ hq ⟨t.val * 4096 + (j 1).val, hR⟩ rfl
  rw [← e, ← ej] at key
  exact key

/-! ## The blocks cover the result -/

/-- An index of the result is in point `t`'s block iff each coordinate is in the block's range, cut at the array's end. -/
theorem mem_blk8 (t : Fin cfg8.N) (i : S2x500000.Idx) :
    i ∈ ((cfg8.win 15).blk t).view.set ↔ ∀ a : Fin 2, win8_15.index t a * S2x4096.size a ≤ (i a).val
      ∧ (i a).val < win8_15.index t a * S2x4096.size a + win8_15.xsize (grid8.coords t) a := by
  show i ∈ ((View.whole main_v429).slice (win8_15.rect t)).set ↔ _
  rw [View.set_slice_whole, Rect.mem_set_unit]
  exact Iff.rfl

/-- Column `r` is in the block of point `r / 4096`. -/
theorem cover8 (i : S2x500000.Idx) : ∃ t : Fin cfg8.N, (cfg8.win 15).flush t = true ∧ i ∈ ((cfg8.win 15).blk t).view.set := by
  have h1 : (i 1).val < 500000 := (i 1).isLt
  have h0 : (i 0).val < 2 := (i 0).isLt
  have ht : (i 1).val / 4096 < cfg8.N := by rw [show cfg8.N = 123 from N_8]; omega
  refine ⟨⟨(i 1).val / 4096, ht⟩, flush8_15 _, ?_⟩
  rw [mem_blk8]
  obtain ⟨i0, i1, -, -, -, -, -, -, x0, x1⟩ := idx8 ⟨(i 1).val / 4096, ht⟩
  intro a
  match a with
  | ⟨0, _⟩ =>
    show win8_15.index ⟨(i 1).val / 4096, ht⟩ (0 : Fin 2) * 2 ≤ (i 0).val
      ∧ (i 0).val < win8_15.index ⟨(i 1).val / 4096, ht⟩ (0 : Fin 2) * 2 + win8_15.xsize (grid8.coords ⟨(i 1).val / 4096, ht⟩) (0 : Fin 2)
    rw [i0, x0]; omega
  | ⟨1, _⟩ =>
    show win8_15.index ⟨(i 1).val / 4096, ht⟩ (1 : Fin 2) * 4096 ≤ (i 1).val
      ∧ (i 1).val < win8_15.index ⟨(i 1).val / 4096, ht⟩ (1 : Fin 2) * 4096 + win8_15.xsize (grid8.coords ⟨(i 1).val / 4096, ht⟩) (1 : Fin 2)
    rw [i1, x1]
    show (i 1).val / 4096 * 4096 ≤ (i 1).val ∧ (i 1).val < (i 1).val / 4096 * 4096 + (if (i 1).val / 4096 = 122 then 288 else 4096)
    split <;> omega

/-! ## The result array after the call -/

/-- After the call the result array holds the head's outputs of every edge, computed from the fifteen input arrays as the
    call found them. -/
theorem final8 (c : Dev nD) : (dat8 (F := Ideal) V c).arrAt 15 cfg8.N = G8 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13)) (V c (Pipeline.arrRef spec8 14)) :=
  (dat8 (F := Ideal) V c).arrAt_eq_of_cover 15 _ (fun t _ => flushed8_eq V c t) cover8

end Cert.KernelIdeal.Hand

end
-- ==== Proof.KIBridgeR8.lean ====
import proofs.«166951_j44444321579084_2_alg».proof.Proof.KIBridgeOps
import proofs.«166951_j44444321579084_2_alg».proof.Proof.KIValueF8

/-! # Kernel call 8, the edge head, on its operands

The call's output array ends at the head's value function of its fifteen operands as it finds them: the rows of
the two final feature arrays at the two ends of every source→target edge, the edge attributes, and the head's
weights and biases as the host prepared them. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

set_option maxHeartbeats 8000000 in  -- the call's operand references are found by evaluating the call's window table, once per operand
/-- What the head kernel (call 8) leaves in its output array: its value function on its fifteen operands. -/
theorem k_v429 (m : (ℓ : Loc nD τ sig) → Buf (Elt Ideal) ℓ) (ρ : Dev nD → PrngReg) (c : Dev nD)
    (x364 : Arr Ideal S50000x128 .f32) (h364 : W20 m ρ c (Proc.devRef .tc main_v364) = x364)
    (x387 : Arr Ideal S50000x128 .f32) (h387 : W23 m ρ c (Proc.devRef .tc main_v387) = x387) :
    W26 m ρ c (Proc.devRef .tc main_v429)
      = G8 (srcRows x364 (eiRow0 (m ((c : Thread nD τ).loc main_arg26))))
      (srcRows x387 (eiRow1 (m ((c : Thread nD τ).loc main_arg26))))
      (m ((c : Thread nD τ).loc main_arg2))
      (kGateW1a (m ((c : Thread nD τ).loc main_arg14)))
      (kGateW1b (m ((c : Thread nD τ).loc main_arg14)))
      (kRow128 (m ((c : Thread nD τ).loc main_arg15)))
      (kGateW2 (m ((c : Thread nD τ).loc main_arg16)))
      (kRow1 (m ((c : Thread nD τ).loc main_arg17)))
      (kMlpW1a (m ((c : Thread nD τ).loc main_arg18)))
      (kMlpW1b (m ((c : Thread nD τ).loc main_arg18)))
      (kRow128 (m ((c : Thread nD τ).loc main_arg19)))
      (kMlpW2 (m ((c : Thread nD τ).loc main_arg20)))
      (kRow64 (m ((c : Thread nD τ).loc main_arg21)))
      (kMlpW3 (m ((c : Thread nD τ).loc main_arg22)))
      (kRow2 (m ((c : Thread nD τ).loc main_arg23))) := by
  rw [W26_out, final8 (V25 m ρ) c]
  show G8
      (W25 m ρ c (Proc.devRef .tc main_v398))
      (W25 m ρ c (Proc.devRef .tc main_v405))
      (W25 m ρ c (Proc.devRef .tc main_arg2))
      (W25 m ρ c (Proc.devRef .tc main_v411))
      (W25 m ρ c (Proc.devRef .tc main_v413))
      (W25 m ρ c (Proc.devRef .tc main_v424))
      (W25 m ρ c (Proc.devRef .tc main_v415))
      (W25 m ρ c (Proc.devRef .tc main_v425))
      (W25 m ρ c (Proc.devRef .tc main_v417))
      (W25 m ρ c (Proc.devRef .tc main_v419))
      (W25 m ρ c (Proc.devRef .tc main_v426))
      (W25 m ρ c (Proc.devRef .tc main_v421))
      (W25 m ρ c (Proc.devRef .tc main_v427))
      (W25 m ρ c (Proc.devRef .tc main_v423))
      (W25 m ρ c (Proc.devRef .tc main_v428)) = _
  rw [at25_v398 m ρ c x364 h364,
    at25_v405 m ρ c x387 h387,
    at25_arg2 m ρ c,
    at25_v411 m ρ c,
    at25_v413 m ρ c,
    at25_v424 m ρ c,
    at25_v415 m ρ c,
    at25_v425 m ρ c,
    at25_v417 m ρ c,
    at25_v419 m ρ c,
    at25_v426 m ρ c,
    at25_v421 m ρ c,
    at25_v427 m ρ c,
    at25_v423 m ρ c,
    at25_v428 m ρ c]

end Cert.KernelIdeal.Hand
-- ==== Proof.HeadBridgeA.lean ====
import proofs.«166951_j44444321579084_2_alg».proof.Proof.Stages
import Idealize.ShloMosaic.Lib.StackMember

/-! # The edge head's operations read at an index

Each array operation of the edge head, applied to arbitrary arrays and read at one index, at the ideal values:

* a product with a transposed weight matrix is the sum over the contracted coordinate of the products
  of the entries, the weight matrix read with its two coordinates exchanged;
* a bias spread over the rows reads the bias at the column;
* a join of two arrays along the columns reads the first array on its own columns and the second one past them;
* a sum over the joined columns splits into the sum over the first block and the sum over the second. -/

noncomputable section

namespace Cert.HeadBridge

open Idealize.ShloMosaic Idealize.ShloMosaic.ValueIdx Idealize.ShloMosaic.StackMember
open Cert.ReferenceIdeal Cert.ReferenceIdeal.Facts₀ Cert.ReferenceIdeal.Facts
open Cert.Stages (Arr)

/-! ## Products with a transposed matrix -/

/-- A row-by-row product with the transpose of an N×K matrix, at entry (r, c): the sum over the K columns. -/
theorem plain_transpose_apply {M K N : Nat} (x : FVec Ideal ⟨2, ![M, K]⟩ .f32) (w : FVec Ideal ⟨2, ![N, K]⟩ .f32)
    (ht : (⟨2, ![N, K]⟩ : Shape).Transposes [1, 0] ⟨2, ![K, N]⟩) (r : Fin M) (c : Fin N) :
    Host.dotGeneral (DotDims.plain M K N) none x (transpose ⟨2, ![K, N]⟩ [1, 0] w ht) (ix2 r c)
      = ∑ m : Fin K, x (ix2 r m) * w (ix2 c m) := by
  rw [dotGeneral_plain_apply]
  refine Finset.sum_congr rfl fun m _ => ?_
  rw [transpose_apply [1, 0] w ht (ix2 m c) (ix2 c m) (fun b => match b with | ⟨0, _⟩ => rfl | ⟨1, _⟩ => rfl)]

theorem dotT_256_128 (x : FVec Ideal S500000x256 .f32) (w : FVec Ideal S128x256 .f32) (r : Fin 500000) (c : Fin 128) :
    Host.dotGeneral (F := Ideal) dot_S500000x256_S256x128_S500000x128_1_0_0_1_n_n none x
        (transpose S256x128 [1, 0] w transposes_S128x256_S256x128_1_0) (ix2 r c)
      = ∑ m : Fin 256, x (ix2 r m) * w (ix2 c m) :=
  plain_transpose_apply (M := 500000) (K := 256) (N := 128) x w transposes_S128x256_S256x128_1_0 r c

theorem dotT_128_1 (x : FVec Ideal S500000x128 .f32) (w : FVec Ideal S1x128 .f32) (r : Fin 500000) (c : Fin 1) :
    Host.dotGeneral (F := Ideal) dot_S500000x128_S128x1_S500000x1_1_0_0_1_n_n none x
        (transpose S128x1 [1, 0] w transposes_S1x128_S128x1_1_0) (ix2 r c)
      = ∑ m : Fin 128, x (ix2 r m) * w (ix2 c m) :=
  plain_transpose_apply (M := 500000) (K := 128) (N := 1) x w transposes_S1x128_S128x1_1_0 r c

theorem dotT_160_128 (x : FVec Ideal S500000x160 .f32) (w : FVec Ideal S128x160 .f32) (r : Fin 500000) (c : Fin 128) :
    Host.dotGeneral (F := Ideal) dot_S500000x160_S160x128_S500000x128_1_0_0_1_n_n none x
        (transpose S160x128 [1, 0] w transposes_S128x160_S160x128_1_0) (ix2 r c)
      = ∑ m : Fin 160, x (ix2 r m) * w (ix2 c m) :=
  plain_transpose_apply (M := 500000) (K := 160) (N := 128) x w transposes_S128x160_S160x128_1_0 r c

theorem dotT_128_64 (x : FVec Ideal S500000x128 .f32) (w : FVec Ideal S64x128 .f32) (r : Fin 500000) (c : Fin 64) :
    Host.dotGeneral (F := Ideal) dot_S500000x128_S128x64_S500000x64_1_0_0_1_n_n none x
        (transpose S128x64 [1, 0] w transposes_S64x128_S128x64_1_0) (ix2 r c)
      = ∑ m : Fin 128, x (ix2 r m) * w (ix2 c m) :=
  plain_transpose_apply (M := 500000) (K := 128) (N := 64) x w transposes_S64x128_S128x64_1_0 r c

theorem dotT_64_2 (x : FVec Ideal S500000x64 .f32) (w : FVec Ideal S2x64 .f32) (r : Fin 500000) (c : Fin 2) :
    Host.dotGeneral (F := Ideal) dot_S500000x64_S64x2_S500000x2_1_0_0_1_n_n none x
        (transpose S64x2 [1, 0] w transposes_S2x64_S64x2_1_0) (ix2 r c)
      = ∑ m : Fin 64, x (ix2 r m) * w (ix2 c m) :=
  plain_transpose_apply (M := 500000) (K := 64) (N := 2) x w transposes_S2x64_S64x2_1_0 r c

/-! ## A bias spread over the rows -/

/-- A bias of N entries made a one-row matrix and spread over M rows, at entry (r, k): entry k of the bias. -/
theorem bias_rows_apply {M N : Nat} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) := by
  rw [broadcastInDim_apply ![0, 1] h2 _ (ix2 r k) (ix2 (0 : Fin 1) k) (fun a => match a with
      | ⟨0, _⟩ => by show (0 : Nat) = if (1 : Nat) = 1 then 0 else r.val; rw [if_pos rfl]
      | ⟨1, _⟩ => by
        show k.val = if N = 1 then 0 else k.val
        split_ifs with h
        · have := k.isLt; omega
        · rfl),
    broadcastInDim_apply ![1] h1 b (ix2 (0 : Fin 1) k) (ix1 k) (fun a => match a with
      | ⟨0, _⟩ => by
        show k.val = if N = 1 then 0 else k.val
        split_ifs with h
        · have := k.isLt; omega
        · rfl)]

theorem bias128_apply (b : FVec Ideal S128 .f32) (r : Fin 500000) (k : Fin 128) :
    broadcastInDim S500000x128 ![0, 1] bcast_S1x128_S500000x128_0_1 (broadcastInDim S1x128 ![1] bcast_S128_S1x128_1 b) (ix2 r k)
      = b (ix1 k) :=
  bias_rows_apply (M := 500000) (N := 128) b bcast_S128_S1x128_1 bcast_S1x128_S500000x128_0_1 r k

theorem bias64_apply (b : FVec Ideal S64 .f32) (r : Fin 500000) (k : Fin 64) :
    broadcastInDim S500000x64 ![0, 1] bcast_S1x64_S500000x64_0_1 (broadcastInDim S1x64 ![1] bcast_S64_S1x64_1 b) (ix2 r k)
      = b (ix1 k) :=
  bias_rows_apply (M := 500000) (N := 64) b bcast_S64_S1x64_1 bcast_S1x64_S500000x64_0_1 r k

theorem bias2_apply (b : FVec Ideal S2 .f32) (r : Fin 500000) (k : Fin 2) :
    broadcastInDim S500000x2 ![0, 1] bcast_S1x2_S500000x2_0_1 (broadcastInDim S1x2 ![1] bcast_S2_S1x2_1 b) (ix2 r k)
      = b (ix1 k) :=
  bias_rows_apply (M := 500000) (N := 2) b bcast_S2_S1x2_1 bcast_S1x2_S500000x2_0_1 r k

theorem bias1_apply (b : FVec Ideal S1 .f32) (r : Fin 500000) (k : Fin 1) :
    broadcastInDim S500000x1 ![0, 1] bcast_S1x1_S500000x1_0_1 (broadcastInDim S1x1 ![1] bcast_S1_S1x1_1 b) (ix2 r k)
      = b (ix1 k) :=
  bias_rows_apply (M := 500000) (N := 1) b bcast_S1_S1x1_1 bcast_S1x1_S500000x1_0_1 r k

/-- A constant spread over an array reads the constant everywhere. -/
theorem bcast_const_apply {t : Shape} (h : (⟨0, ![]⟩ : Shape).BroadcastsInDim t ![]) (w : BitVec 32) (i : t.Idx) :
    broadcastInDim t ![] h (constant (F := Ideal) ⟨0, ![]⟩ .f32 w) i = Ideal.ofBits .f32 w := rfl

/-- A per-row number spread over the 128 columns reads the row's number. -/
theorem perRow128_apply (g : FVec Ideal S500000x1 .f32) (r : Fin 500000) (k : Fin 128) :
    broadcastInDim S500000x128 ![0, 1] bcast_S500000x1_S500000x128_0_1 g (ix2 r k) = g (ix2 r (0 : Fin 1)) :=
  broadcastInDim_apply ![0, 1] bcast_S500000x1_S500000x128_0_1 g (ix2 r k) (ix2 r (0 : Fin 1)) (fun a => match a with
    | ⟨0, _⟩ => by show r.val = if (500000 : Nat) = 1 then 0 else r.val; rw [if_neg (by decide)]
    | ⟨1, _⟩ => by show (0 : Nat) = if (1 : Nat) = 1 then 0 else k.val; rw [if_pos rfl])

/-! ## Two arrays joined along the columns -/

theorem concat256_left (x y : FVec Ideal S500000x128 .f32) (r : Fin 500000) (m : Fin 128) :
    concatenate S500000x256 1 [⟨S500000x128, x⟩, ⟨S500000x128, y⟩] concatenates_S500000x128_S500000x128_S500000x256_d1
      (ix2 r (Fin.castAdd 128 m)) = x (ix2 r m) :=
  concatenate_pair_apply_left 1 x y concatenates_S500000x128_S500000x128_S500000x256_d1 _ rfl (ix2 r m)
    (fun b => match b with | ⟨0, _⟩ => rfl | ⟨1, _⟩ => rfl)

theorem concat256_right (x y : FVec Ideal S500000x128 .f32) (r : Fin 500000) (m : Fin 128) :
    concatenate S500000x256 1 [⟨S500000x128, x⟩, ⟨S500000x128, y⟩] concatenates_S500000x128_S500000x128_S500000x256_d1
      (ix2 r (Fin.natAdd 128 m)) = y (ix2 r m) :=
  concatenate_pair_apply_right 1 x y concatenates_S500000x128_S500000x128_S500000x256_d1 _ rfl rfl (ix2 r m)
    (fun b => match b with | ⟨0, _⟩ => fun _ => rfl | ⟨1, _⟩ => fun h => absurd rfl h)
    (Nat.add_comm m.val 128)

theorem concat160_left (x : FVec Ideal S500000x128 .f32) (y : FVec Ideal S500000x32 .f32) (r : Fin 500000) (m : Fin 128) :
    concatenate S500000x160 1 [⟨S500000x128, x⟩, ⟨S500000x32, y⟩] concatenates_S500000x128_S500000x32_S500000x160_d1
      (ix2 r (Fin.castAdd 32 m)) = x (ix2 r m) :=
  concatenate_pair_apply_left 1 x y concatenates_S500000x128_S500000x32_S500000x160_d1 _ rfl (ix2 r m)
    (fun b => match b with | ⟨0, _⟩ => rfl | ⟨1, _⟩ => rfl)

theorem concat160_right (x : FVec Ideal S500000x128 .f32) (y : FVec Ideal S500000x32 .f32) (r : Fin 500000) (m : Fin 32) :
    concatenate S500000x160 1 [⟨S500000x128, x⟩, ⟨S500000x32, y⟩] concatenates_S500000x128_S500000x32_S500000x160_d1
      (ix2 r (Fin.natAdd 128 m)) = y (ix2 r m) :=
  concatenate_pair_apply_right 1 x y concatenates_S500000x128_S500000x32_S500000x160_d1 _ rfl rfl (ix2 r m)
    (fun b => match b with | ⟨0, _⟩ => fun _ => rfl | ⟨1, _⟩ => fun h => absurd rfl h)
    (Nat.add_comm m.val 128)

/-! ## A sum over joined columns -/

theorem sum_256_split (f : Fin 256 → EReal) :
    ∑ k : Fin 256, f k = (∑ m : Fin 128, f (Fin.castAdd 128 m)) + ∑ m : Fin 128, f (Fin.natAdd 128 m) :=
  Fin.sum_univ_add (a := 128) (b := 128) f

theorem sum_160_split (f : Fin 160 → EReal) :
    ∑ k : Fin 160, f k = (∑ m : Fin 128, f (Fin.castAdd 32 m)) + ∑ m : Fin 32, f (Fin.natAdd 128 m) :=
  Fin.sum_univ_add (a := 128) (b := 32) f

end Cert.HeadBridge
-- ==== Proof.HeadBridgeR.lean ====
import proofs.«166951_j44444321579084_2_alg».proof.Proof.HeadBridgeA

/-! # The reference's edge head, index by index

The edge head as a function of one edge r, written with finite sums over the feature coordinates and the
parameters exactly as the reference takes them (weight matrices with one row per output feature):

* the gate's hidden layer  hid r k = max (∑_m src(r,m) · gw1(k,m) + ∑_m tgt(r,m) · gw1(k,128+m) + gb1(k)) 0;
* the gate  g r = logistic (∑_k hid r k · gw2(0,k) + gb2(0));
* the mix  mix r k = src(r,k) · g r + tgt(r,k) · (1 − g r);
* three dense layers on the mix joined with the edge attributes:
  d1 r k = max (∑_m mix r m · w1(k,m) + ∑_m ea(r,m) · w1(k,128+m) + b1(k)) 0,
  d2 r k = max (∑_m d1 r m · w2(k,m) + b2(k)) 0,  d3 r p = ∑_m d2 r m · w3(p,m) + b3(p).

The sum over the 256 (resp. 160) joined columns splits into the two blocks' sums; nothing else of the arithmetic
of the extended reals is used. The float constants stay the words the programs write, except that the word of 1.0
is the number 1 where the logistic function is recognised. -/

noncomputable section

namespace Cert.HeadBridge

open Idealize.ShloMosaic Idealize.ShloMosaic.ValueIdx
open Cert.ReferenceIdeal Cert.ReferenceIdeal.Facts₀ Cert.ReferenceIdeal.Facts
open Cert.Stages

/-- The words of +0.0 and of 1.0 at the ideal values. -/
abbrev zeroW : EReal := Ideal.ofBits .f32 0x00000000#32
abbrev oneW : EReal := Ideal.ofBits .f32 0x3F800000#32

theorem oneW_eq : oneW = 1 := by
  simp [oneW, Ideal.ofBits, Ideal.ieee, -EReal.coe_mul]; norm_num

section
variable (src tgt : FVec Ideal S500000x128 .f32) (ea : FVec Ideal S500000x32 .f32)
  (gw1 : FVec Ideal S128x256 .f32) (gb1 : FVec Ideal S128 .f32) (gw2 : FVec Ideal S1x128 .f32) (gb2 : FVec Ideal S1 .f32)
  (w1 : FVec Ideal S128x160 .f32) (b1 : FVec Ideal S128 .f32) (w2 : FVec Ideal S64x128 .f32) (b2 : FVec Ideal S64 .f32)
  (w3 : FVec Ideal S2x64 .f32) (b3 : FVec Ideal S2 .f32)

/-! ## The head as sums -/

def hidR (r : Fin 500000) (k : Fin 128) : EReal :=
  max ((∑ m : Fin 128, src (ix2 r m) * gw1 (ix2 k (Fin.castAdd 128 m)))
    + (∑ m : Fin 128, tgt (ix2 r m) * gw1 (ix2 k (Fin.natAdd 128 m))) + gb1 (ix1 k)) zeroW

def logitR (r : Fin 500000) : EReal :=
  (∑ k : Fin 128, hidR src tgt gw1 gb1 r k * gw2 (ix2 (0 : Fin 1) k)) + gb2 (ix1 (0 : Fin 1))

def gateR (r : Fin 500000) : EReal := Ideal.logistic (logitR src tgt gw1 gb1 gw2 gb2 r)

def mixR (r : Fin 500000) (k : Fin 128) : EReal :=
  src (ix2 r k) * gateR src tgt gw1 gb1 gw2 gb2 r + tgt (ix2 r k) * (oneW - gateR src tgt gw1 gb1 gw2 gb2 r)

def d1R (r : Fin 500000) (k : Fin 128) : EReal :=
  max ((∑ m : Fin 128, mixR src tgt gw1 gb1 gw2 gb2 r m * w1 (ix2 k (Fin.castAdd 32 m)))
    + (∑ m : Fin 32, ea (ix2 r m) * w1 (ix2 k (Fin.natAdd 128 m))) + b1 (ix1 k)) zeroW

def d2R (r : Fin 500000) (k : Fin 64) : EReal :=
  max ((∑ m : Fin 128, d1R src tgt ea gw1 gb1 gw2 gb2 w1 b1 r m * w2 (ix2 k m)) + b2 (ix1 k)) zeroW

def d3R (r : Fin 500000) (p : Fin 2) : EReal :=
  (∑ m : Fin 64, d2R src tgt ea gw1 gb1 gw2 gb2 w1 b1 w2 b2 r m * w3 (ix2 p m)) + b3 (ix1 p)

/-! ## Each layer of the reference read at an index, over an arbitrary input array -/

theorem hid_apply (r : Fin 500000) (k : Fin 128) :
    reluE128 (F := Ideal) (addf (Host.dotGeneral (F := Ideal) dot_S500000x256_S256x128_S500000x128_1_0_0_1_n_n none
          (concatenate S500000x256 1 [⟨S500000x128, src⟩, ⟨S500000x128, tgt⟩] concatenates_S500000x128_S500000x128_S500000x256_d1)
          (transpose S256x128 [1, 0] gw1 transposes_S128x256_S256x128_1_0))
        (broadcastInDim S500000x128 ![0, 1] bcast_S1x128_S500000x128_0_1 (broadcastInDim S1x128 ![1] bcast_S128_S1x128_1 gb1)))
      (ix2 r k) = hidR src tgt gw1 gb1 r k := by
  unfold reluE128 hidR
  rw [maximumf_apply, addf_apply, dotT_256_128, bias128_apply, sum_256_split, bcast_const_apply]
  simp only [concat256_left, concat256_right]

theorem gateLogit_apply (r : Fin 500000) :
    gateLogit (F := Ideal) src tgt gw1 gb1 gw2 gb2 (ix2 r (0 : Fin 1)) = logitR src tgt gw1 gb1 gw2 gb2 r := by
  unfold gateLogit logitR
  rw [addf_apply, dotT_128_1, bias1_apply]
  refine congrArg (· + gb2 (ix1 (0 : Fin 1))) (Finset.sum_congr rfl fun k _ => ?_)
  exact congrArg (· * gw2 (ix2 (0 : Fin 1) k)) (hid_apply src tgt gw1 gb1 r k)

theorem sigmoid_apply (z : FVec Ideal S500000x1 .f32) (i : S500000x1.Idx) :
    sigmoidE (F := Ideal) z i = Ideal.logistic (z i) := by
  show FloatOps.hostDivf (F := Ideal) (φ := .f32) oneW
      (FloatOps.addf (F := Ideal) (φ := .f32) oneW (FloatOps.hostUnary .exp (FloatOps.hostNegf (z i)))) = _
  rw [oneW_eq]
  rfl

theorem gatedMix_apply (g : FVec Ideal S500000x1 .f32) (r : Fin 500000) (k : Fin 128) :
    gatedMix (F := Ideal) src tgt g (ix2 r k)
      = src (ix2 r k) * g (ix2 r (0 : Fin 1)) + tgt (ix2 r k) * (oneW - g (ix2 r (0 : Fin 1))) := by
  unfold gatedMix
  rw [addf_apply, mulf_apply, mulf_apply, perRow128_apply, perRow128_apply, subf_apply, bcast_const_apply]

theorem d1_apply (mix : FVec Ideal S500000x128 .f32) (r : Fin 500000) (k : Fin 128) :
    reluE128 (F := Ideal) (addf (Host.dotGeneral (F := Ideal) dot_S500000x160_S160x128_S500000x128_1_0_0_1_n_n none
          (concatenate S500000x160 1 [⟨S500000x128, mix⟩, ⟨S500000x32, ea⟩] concatenates_S500000x128_S500000x32_S500000x160_d1)
          (transpose S160x128 [1, 0] w1 transposes_S128x160_S160x128_1_0))
        (broadcastInDim S500000x128 ![0, 1] bcast_S1x128_S500000x128_0_1 (broadcastInDim S1x128 ![1] bcast_S128_S1x128_1 b1)))
      (ix2 r k)
      = max ((∑ m : Fin 128, mix (ix2 r m) * w1 (ix2 k (Fin.castAdd 32 m)))
          + (∑ m : Fin 32, ea (ix2 r m) * w1 (ix2 k (Fin.natAdd 128 m))) + b1 (ix1 k)) zeroW := by
  unfold reluE128
  rw [maximumf_apply, addf_apply, dotT_160_128, bias128_apply, sum_160_split, bcast_const_apply]
  simp only [concat160_left, concat160_right]

theorem d2_apply (x : FVec Ideal S500000x128 .f32) (r : Fin 500000) (k : Fin 64) :
    reluE64 (F := Ideal) (addf (Host.dotGeneral (F := Ideal) dot_S500000x128_S128x64_S500000x64_1_0_0_1_n_n none x
          (transpose S128x64 [1, 0] w2 transposes_S64x128_S128x64_1_0))
        (broadcastInDim S500000x64 ![0, 1] bcast_S1x64_S500000x64_0_1 (broadcastInDim S1x64 ![1] bcast_S64_S1x64_1 b2)))
      (ix2 r k)
      = max ((∑ m : Fin 128, x (ix2 r m) * w2 (ix2 k m)) + b2 (ix1 k)) zeroW := by
  unfold reluE64
  rw [maximumf_apply, addf_apply, dotT_128_64, bias64_apply, bcast_const_apply]

theorem d3_apply (x : FVec Ideal S500000x64 .f32) (r : Fin 500000) (p : Fin 2) :
    addf (Host.dotGeneral (F := Ideal) dot_S500000x64_S64x2_S500000x2_1_0_0_1_n_n none x
          (transpose S64x2 [1, 0] w3 transposes_S2x64_S64x2_1_0))
        (broadcastInDim S500000x2 ![0, 1] bcast_S1x2_S500000x2_0_1 (broadcastInDim S1x2 ![1] bcast_S2_S1x2_1 b3))
      (ix2 r p)
      = (∑ m : Fin 64, x (ix2 r m) * w3 (ix2 p m)) + b3 (ix1 p) := by
  rw [addf_apply, dotT_64_2, bias2_apply]

/-! ## The reference's head is the sums -/

theorem headOut_apply (r : Fin 500000) (p : Fin 2) :
    headOut (F := Ideal) src tgt ea gw1 gb1 gw2 gb2 w1 b1 w2 b2 w3 b3 (ix2 r p)
      = d3R src tgt ea gw1 gb1 gw2 gb2 w1 b1 w2 b2 w3 b3 r p := by
  unfold headOut mlpOut
  rw [d3_apply]
  unfold d3R
  refine congrArg (· + b3 (ix1 p)) (Finset.sum_congr rfl fun m _ => ?_)
  refine congrArg (· * w3 (ix2 p m)) ?_
  rw [d2_apply]
  unfold d2R
  refine congrArg (fun t => max (t + b2 (ix1 m)) zeroW) (Finset.sum_congr rfl fun m1 _ => ?_)
  refine congrArg (· * w2 (ix2 m m1)) ?_
  rw [d1_apply]
  unfold d1R
  refine congrArg (fun t => max (t + (∑ m2 : Fin 32, ea (ix2 r m2) * w1 (ix2 m1 (Fin.natAdd 128 m2))) + b1 (ix1 m1)) zeroW)
    (Finset.sum_congr rfl fun m2 _ => ?_)
  refine congrArg (· * w1 (ix2 m1 (Fin.castAdd 32 m2))) ?_
  rw [gatedMix_apply, sigmoid_apply, gateLogit_apply]
  rfl

end

end Cert.HeadBridge
-- ==== Proof.HeadBridgeB.lean ====
import proofs.«166951_j44444321579084_2_alg».proof.Proof.KPrep
import Idealize.ShloMosaic.Lib.ValueIdx
import Idealize.ShloMosaic.Lib.Pipeline.Value

/-! # The edge head's prepared operands read at an index

The kernel program hands the fused edge-head kernel each weight matrix transposed (and narrowed to bf16, which at the
ideal values changes nothing), the two first-layer matrices cut into their two column blocks, and each bias as a
one-row matrix. Read at an index, each prepared operand is an entry of the original parameter:

* a transposed matrix at (m, k) is the matrix at (k, m);
* the transposed first column block at (m, k) is the matrix at (k, m), the second at (k, 128 + m);
* a bias as a row at (0, k) is the bias at k;
* the kernel's result transposed back at (r, p) is the result at (p, r). -/

noncomputable section

namespace Cert.HeadBridge

open Idealize.ShloMosaic Idealize.ShloMosaic.ValueIdx Cert.KernelIdeal Cert.KernelIdeal.Gen
open Cert.Stages (Arr)
open Cert.KPrep

/-! ## The gate's matrices -/

theorem kGateW1a_apply (gw1 : FVec Ideal S128x256 .f32) (m k : Fin 128) :
    kGateW1a (F := Ideal) gw1 (ix2 m k) = gw1 (ix2 k (Fin.castAdd 128 m)) := by
  show transpose S128x128 [1, 0] (extractStridedSlice S128x128 ![0, 0] gw1 slices_S128x256_S128x128_0_0)
    transposes_S128x128_S128x128_1_0 (ix2 m k) = _
  rw [transpose_apply [1, 0] _ transposes_S128x128_S128x128_1_0 (ix2 m k) (ix2 k m)
      (fun b => match b with | ⟨0, _⟩ => rfl | ⟨1, _⟩ => rfl),
    extractStridedSlice_apply ![0, 0] gw1 slices_S128x256_S128x128_0_0 (ix2 k m) (ix2 k (Fin.castAdd 128 m))
      (fun a => match a with | ⟨0, _⟩ => (Nat.zero_add _).symm | ⟨1, _⟩ => (Nat.zero_add _).symm)]

theorem kGateW1b_apply (gw1 : FVec Ideal S128x256 .f32) (m k : Fin 128) :
    kGateW1b (F := Ideal) gw1 (ix2 m k) = gw1 (ix2 k (Fin.natAdd 128 m)) := by
  show transpose S128x128 [1, 0] (extractStridedSlice S128x128 ![0, 128] gw1 slices_S128x256_S128x128_0_128)
    transposes_S128x128_S128x128_1_0 (ix2 m k) = _
  rw [transpose_apply [1, 0] _ transposes_S128x128_S128x128_1_0 (ix2 m k) (ix2 k m)
      (fun b => match b with | ⟨0, _⟩ => rfl | ⟨1, _⟩ => rfl),
    extractStridedSlice_apply ![0, 128] gw1 slices_S128x256_S128x128_0_128 (ix2 k m) (ix2 k (Fin.natAdd 128 m))
      (fun a => match a with | ⟨0, _⟩ => (Nat.zero_add _).symm | ⟨1, _⟩ => rfl)]

theorem kGateW2_apply (gw2 : FVec Ideal S1x128 .f32) (k : Fin 128) (c : Fin 1) :
    kGateW2 (F := Ideal) gw2 (ix2 k c) = gw2 (ix2 c k) := by
  show transpose S128x1 [1, 0] gw2 transposes_S1x128_S128x1_1_0 (ix2 k c) = _
  rw [transpose_apply [1, 0] gw2 transposes_S1x128_S128x1_1_0 (ix2 k c) (ix2 c k)
      (fun b => match b with | ⟨0, _⟩ => rfl | ⟨1, _⟩ => rfl)]

/-! ## The classifier's matrices -/

theorem kMlpW1a_apply (w1 : FVec Ideal S128x160 .f32) (m k : Fin 128) :
    kMlpW1a (F := Ideal) w1 (ix2 m k) = w1 (ix2 k (Fin.castAdd 32 m)) := by
  show transpose S128x128 [1, 0] (extractStridedSlice S128x128 ![0, 0] w1 slices_S128x160_S128x128_0_0)
    transposes_S128x128_S128x128_1_0 (ix2 m k) = _
  rw [transpose_apply [1, 0] _ transposes_S128x128_S128x128_1_0 (ix2 m k) (ix2 k m)
      (fun b => match b with | ⟨0, _⟩ => rfl | ⟨1, _⟩ => rfl),
    extractStridedSlice_apply ![0, 0] w1 slices_S128x160_S128x128_0_0 (ix2 k m) (ix2 k (Fin.castAdd 32 m))
      (fun a => match a with | ⟨0, _⟩ => (Nat.zero_add _).symm | ⟨1, _⟩ => (Nat.zero_add _).symm)]

theorem kMlpW1b_apply (w1 : FVec Ideal S128x160 .f32) (m : Fin 32) (k : Fin 128) :
    kMlpW1b (F := Ideal) w1 (ix2 m k) = w1 (ix2 k (Fin.natAdd 128 m)) := by
  show transpose S32x128 [1, 0] (extractStridedSlice S128x32 ![0, 128] w1 slices_S128x160_S128x32_0_128)
    transposes_S128x32_S32x128_1_0 (ix2 m k) = _
  rw [transpose_apply [1, 0] _ transposes_S128x32_S32x128_1_0 (ix2 m k) (ix2 k m)
      (fun b => match b with | ⟨0, _⟩ => rfl | ⟨1, _⟩ => rfl),
    extractStridedSlice_apply ![0, 128] w1 slices_S128x160_S128x32_0_128 (ix2 k m) (ix2 k (Fin.natAdd 128 m))
      (fun a => match a with | ⟨0, _⟩ => (Nat.zero_add _).symm | ⟨1, _⟩ => rfl)]

theorem kMlpW2_apply (w2 : FVec Ideal S64x128 .f32) (m : Fin 128) (k : Fin 64) :
    kMlpW2 (F := Ideal) w2 (ix2 m k) = w2 (ix2 k m) := by
  show transpose S128x64 [1, 0] w2 transposes_S64x128_S128x64_1_0 (ix2 m k) = _
  rw [transpose_apply [1, 0] w2 transposes_S64x128_S128x64_1_0 (ix2 m k) (ix2 k m)
      (fun b => match b with | ⟨0, _⟩ => rfl | ⟨1, _⟩ => rfl)]

theorem kMlpW3_apply (w3 : FVec Ideal S2x64 .f32) (m : Fin 64) (p : Fin 2) :
    kMlpW3 (F := Ideal) w3 (ix2 m p) = w3 (ix2 p m) := by
  show transpose S64x2 [1, 0] w3 transposes_S2x64_S64x2_1_0 (ix2 m p) = _
  rw [transpose_apply [1, 0] w3 transposes_S2x64_S64x2_1_0 (ix2 m p) (ix2 p m)
      (fun b => match b with | ⟨0, _⟩ => rfl | ⟨1, _⟩ => rfl)]

/-! ## The biases as rows, and the result transposed back -/

/-- A vector of N entries as a one-row matrix, at (0, k): entry k. -/
theorem row_apply {N : Nat} (b : FVec Ideal ⟨1, ![N]⟩ .f32) (h : (⟨1, ![N]⟩ : Shape).ShapeCasts ⟨2, ![1, N]⟩) (k : Fin N) :
    shapeCast ⟨2, ![1, N]⟩ b h (ix2 (0 : Fin 1) k) = b (ix1 k) := by
  refine shapeCast_apply b h (ix2 (0 : Fin 1) k) (ix1 k) ?_
  rw [Shape.rowMajor_val_one, Shape.rowMajor_val_two]
  show k.val = (0 : Nat) * N + k.val
  omega

theorem kRow128_apply (b : FVec Ideal S128 .f32) (k : Fin 128) : kRow128 (F := Ideal) b (ix2 (0 : Fin 1) k) = b (ix1 k) :=
  row_apply (N := 128) b shapeCasts_S128_S1x128 k
theorem kRow64_apply (b : FVec Ideal S64 .f32) (k : Fin 64) : kRow64 (F := Ideal) b (ix2 (0 : Fin 1) k) = b (ix1 k) :=
  row_apply (N := 64) b shapeCasts_S64_S1x64 k
theorem kRow2_apply (b : FVec Ideal S2 .f32) (k : Fin 2) : kRow2 (F := Ideal) b (ix2 (0 : Fin 1) k) = b (ix1 k) :=
  row_apply (N := 2) b shapeCasts_S2_S1x2 k
theorem kRow1_apply (b : FVec Ideal S1 .f32) (k : Fin 1) : kRow1 (F := Ideal) b (ix2 (0 : Fin 1) k) = b (ix1 k) :=
  row_apply (N := 1) b shapeCasts_S1_S1x1 k

theorem kOutT_apply (y : FVec Ideal S2x500000 .f32) (r : Fin 500000) (p : Fin 2) :
    kOutT (F := Ideal) y (ix2 r p) = y (ix2 p r) := by
  show transpose S500000x2 [1, 0] y transposes_S2x500000_S500000x2_1_0 (ix2 r p) = _
  rw [transpose_apply [1, 0] y transposes_S2x500000_S500000x2_1_0 (ix2 r p) (ix2 p r)
      (fun b => match b with | ⟨0, _⟩ => rfl | ⟨1, _⟩ => rfl)]

end Cert.HeadBridge
-- ==== Proof.HeadBridge.lean ====
import proofs.«166951_j44444321579084_2_alg».proof.Proof.HeadBridgeR
import proofs.«166951_j44444321579084_2_alg».proof.Proof.HeadBridgeB
import proofs.«166951_j44444321579084_2_alg».proof.Proof.KIValueG8

/-! # The edge head: the fused kernel on the prepared operands is the reference's head

The fused gate-and-classifier kernel computes, for edge r and class p, a nest of finite sums over the feature
coordinates in which every weight matrix is read transposed and the two first-layer matrices are read block by block.
Read through what the preparation does (a transposed matrix at (m, k) is the matrix at (k, m); the second block
starts at column 128; a bias as a row at (0, k) is the bias at k; the change of number format is the identity at
the ideal values), it is the same nest of sums as the reference's head read at (r, p): the sum over the joined
columns split into its two blocks. The kernel's result holds class p of edge r at (p, r); transposed back it is the
reference's array. -/

noncomputable section

namespace Cert.HeadBridge

open Idealize.ShloMosaic Idealize.ShloMosaic.ValueIdx
open Cert.ReferenceIdeal
open Cert.Stages (Arr)
open Cert.KPrep Cert.KernelIdeal.Hand

section
variable (src tgt : FVec Ideal S500000x128 .f32) (ea : FVec Ideal S500000x32 .f32)
  (gw1 : FVec Ideal S128x256 .f32) (gb1 : FVec Ideal S128 .f32) (gw2 : FVec Ideal S1x128 .f32) (gb2 : FVec Ideal S1 .f32)
  (w1 : FVec Ideal S128x160 .f32) (b1 : FVec Ideal S128 .f32) (w2 : FVec Ideal S64x128 .f32) (b2 : FVec Ideal S64 .f32)
  (w3 : FVec Ideal S2x64 .f32) (b3 : FVec Ideal S2 .f32)

/-- The fused kernel's value on the prepared operands, at class p of edge r: the reference's nest of sums. -/
theorem G8_apply (r : Fin 500000) (p : Fin 2) :
    G8 src tgt ea (kGateW1a (F := Ideal) gw1) (kGateW1b (F := Ideal) gw1) (kRow128 (F := Ideal) gb1)
        (kGateW2 (F := Ideal) gw2) (kRow1 (F := Ideal) gb2) (kMlpW1a (F := Ideal) w1) (kMlpW1b (F := Ideal) w1)
        (kRow128 (F := Ideal) b1) (kMlpW2 (F := Ideal) w2) (kRow64 (F := Ideal) b2) (kMlpW3 (F := Ideal) w3)
        (kRow2 (F := Ideal) b3) (ix2 p r)
      = d3R src tgt ea gw1 gb1 gw2 gb2 w1 b1 w2 b2 w3 b3 r p := by
  show dense3_8 _ _ _ _ _ _ _ _ _ _ _ _ _ _ _ r p = _
  unfold dense3_8 dense2_8 dense1_8 mix8 gate8 gateLogit8 gateHidden8 d3R d2R d1R mixR gateR logitR hidR
  simp only [kGateW1a_apply, kGateW1b_apply, kGateW2_apply, kMlpW1a_apply, kMlpW1b_apply, kMlpW2_apply, kMlpW3_apply,
    kRow128_apply, kRow64_apply, kRow2_apply, kRow1_apply]

end

/-- THE EDGE HEAD. The fused kernel's result on the prepared operands, transposed back to edges by classes, is the
    reference's head of the same end-point features, edge attributes and parameters. -/
theorem head_eq (src tgt : Arr Ideal S500000x128 .f32) (ea : Arr Ideal S500000x32 .f32) (gw1 : Arr Ideal S128x256 .f32)
    (gb1 : Arr Ideal S128 .f32) (gw2 : Arr Ideal S1x128 .f32) (gb2 : Arr Ideal S1 .f32) (w1 : Arr Ideal S128x160 .f32)
    (b1 : Arr Ideal S128 .f32) (w2 : Arr Ideal S64x128 .f32) (b2 : Arr Ideal S64 .f32) (w3 : Arr Ideal S2x64 .f32)
    (b3 : Arr Ideal S2 .f32) :
    Cert.KPrep.kOutT (F := Ideal) (Cert.KernelIdeal.Hand.G8 src tgt ea (Cert.KPrep.kGateW1a (F := Ideal) gw1)
        (Cert.KPrep.kGateW1b (F := Ideal) gw1) (Cert.KPrep.kRow128 (F := Ideal) gb1) (Cert.KPrep.kGateW2 (F := Ideal) gw2)
        (Cert.KPrep.kRow1 (F := Ideal) gb2) (Cert.KPrep.kMlpW1a (F := Ideal) w1) (Cert.KPrep.kMlpW1b (F := Ideal) w1)
        (Cert.KPrep.kRow128 (F := Ideal) b1) (Cert.KPrep.kMlpW2 (F := Ideal) w2) (Cert.KPrep.kRow64 (F := Ideal) b2)
        (Cert.KPrep.kMlpW3 (F := Ideal) w3) (Cert.KPrep.kRow2 (F := Ideal) b3))
      = Cert.Stages.headOut (F := Ideal) src tgt ea gw1 gb1 gw2 gb2 w1 b1 w2 b2 w3 b3 := by
  funext i
  obtain ⟨r, p, rfl⟩ : ∃ (r : Fin 500000) (p : Fin 2), i = ix2 r p := ⟨i 0, i 1, eq_ix2 i⟩
  rw [kOutT_apply, G8_apply, headOut_apply]

end Cert.HeadBridge
-- ==== Proof.KIBridge.lean ====
import proofs.«166951_j44444321579084_2_alg».proof.Proof.KIBridgeOps
import proofs.«166951_j44444321579084_2_alg».proof.Proof.KIBridgeR0
import proofs.«166951_j44444321579084_2_alg».proof.Proof.KIBridgeR1
import proofs.«166951_j44444321579084_2_alg».proof.Proof.KIBridgeR2
import proofs.«166951_j44444321579084_2_alg».proof.Proof.KIBridgeR3
import proofs.«166951_j44444321579084_2_alg».proof.Proof.KIBridgeR4
import proofs.«166951_j44444321579084_2_alg».proof.Proof.KIBridgeR5
import proofs.«166951_j44444321579084_2_alg».proof.Proof.KIBridgeR6
import proofs.«166951_j44444321579084_2_alg».proof.Proof.KIBridgeR7
import proofs.«166951_j44444321579084_2_alg».proof.Proof.KIBridgeR8
import proofs.«166951_j44444321579084_2_alg».proof.Proof.HeadBridge

/-! # The kernel program's result is the network's output

The program's buffer contents are followed item by item from the launch memory. Call 0 and call 1 leave the two
encoders' outputs, calls 2 to 7 the three layers' outputs for the two node types, each from the outputs before
it; call 8 leaves the head's output transposed, and the last host operation transposes it back. Put together,
the result array holds the network's output of the 28 arguments as the launch memory holds them. -/

set_option maxRecDepth 16384

noncomputable section

namespace Cert.KernelIdeal.Hand

open Idealize.ShloMosaic Idealize.ShloMosaic.TcCoe Cert.KernelIdeal Cert.KernelIdeal.Gen
open Cert.Stages (Arr eiRow0 eiRow1 idxCol wrapRow srcRows aggSum perRow aggMean
  wAt00 wAt01 wAt02 wAt03 wAt10 wAt11 wAt12 wAt13 wAt20 wAt21 wAt22 wAt23
  bAt00 bAt01 bAt02 bAt03 bAt10 bAt11 bAt12 bAt13 bAt20 bAt21 bAt22 bAt23)
open Cert.KPrep

/-- THE KERNEL PROGRAM'S RESULT. -/
theorem kernel_result (m : (ℓ : Loc nD τ sig) → Buf (Elt Ideal) ℓ) (ρ : Dev nD → PrngReg) (c : Dev nD) :
    W27 (F := Ideal) m ρ c (Proc.devRef .tc main_v430)
      = Cert.Stages.netOut (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17))
          (m ((c : Thread nD τ).loc main_arg18))
          (m ((c : Thread nD τ).loc main_arg19))
          (m ((c : Thread nD τ).loc main_arg20))
          (m ((c : Thread nD τ).loc main_arg21))
          (m ((c : Thread nD τ).loc main_arg22))
          (m ((c : Thread nD τ).loc main_arg23))
          (m ((c : Thread nD τ).loc main_arg24))
          (m ((c : Thread nD τ).loc main_arg25))
          (m ((c : Thread nD τ).loc main_arg26))
          (m ((c : Thread nD τ).loc main_arg27)) := by
  have h4 := k_v4 m ρ c
  have h9 := k_v9 m ρ c
  have h136 := k_v136 m ρ c _ h4 _ h9
  have h159 := k_v159 m ρ c _ h4 _ h9
  have h250 := k_v250 m ρ c _ h136 _ h159
  have h273 := k_v273 m ρ c _ h136 _ h159
  have h364 := k_v364 m ρ c _ h250 _ h273
  have h387 := k_v387 m ρ c _ h250 _ h273
  have h429 := k_v429 m ρ c _ h364 _ h387
  rw [at27_v430 m ρ c _ h429]
  exact Cert.HeadBridge.head_eq _ _ _ _ _ _ _ _ _ _ _ _ _

end Cert.KernelIdeal.Hand
-- ==== Proof.RefAux.lean ====
import proofs.«166951_j44444321579084_2_alg».proof.ReferenceIdeal
import Idealize.ShloMosaic.Lib.StableHlo.Run

/-!
# Running a line of host operations piece by piece

A long straight line of host operations is read back in pieces: the contents after a concatenation are the
contents after the second piece from the contents after the first, and the three side conditions a run asks of
every operation of the line (its buffers are TensorCore references; it allocates nothing; what it writes lies in
a given list of references) hold of a concatenation when they hold of both pieces.
-/

noncomputable section

namespace Cert.ReferenceIdeal.RefValue

open Idealize.ShloMosaic Idealize.ShloMosaic.StableHlo

variable {τ : Topo} {sig : RefSig} {Val : EltTy → Type}

/-- The contents after two lines run one after the other. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A property of every operation of two lines holds of every operation of their concatenation. -/
theorem forall_app {P : HloOp τ sig Val → Prop} {l₁ l₂ : List (HloOp τ sig Val)}
    (h₁ : l₁.Forall P) (h₂ : l₂.Forall P) : (l₁ ++ l₂).Forall P :=
  List.forall_iff_forall_mem.2 fun op h =>
    (List.mem_append.1 h).elim (List.forall_iff_forall_mem.1 h₁ op) (List.forall_iff_forall_mem.1 h₂ op)

/-- No operation of a concatenation allocates when none of either piece does. -/
theorem fresh_app {l₁ l₂ : List (HloOp τ sig Val)}
    (h₁ : ∀ op ∈ l₁, op.fresh = ∅) (h₂ : ∀ op ∈ l₂, op.fresh = ∅) : ∀ op ∈ l₁ ++ l₂, op.fresh = ∅ :=
  fun op h => (List.mem_append.1 h).elim (h₁ op) (h₂ op)

/-- The program's 28 argument buffers: no operation of the program writes any of them. -/
abbrev argRefs : List (Ref Cert.ReferenceIdeal.sig .tc) :=
  [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13, Cert.ReferenceIdeal.main_arg14, Cert.ReferenceIdeal.main_arg15, Cert.ReferenceIdeal.main_arg16, Cert.ReferenceIdeal.main_arg17, Cert.ReferenceIdeal.main_arg18, Cert.ReferenceIdeal.main_arg19, Cert.ReferenceIdeal.main_arg20, Cert.ReferenceIdeal.main_arg21, Cert.ReferenceIdeal.main_arg22, Cert.ReferenceIdeal.main_arg23, Cert.ReferenceIdeal.main_arg24, Cert.ReferenceIdeal.main_arg25, Cert.ReferenceIdeal.main_arg26, Cert.ReferenceIdeal.main_arg27]

end Cert.ReferenceIdeal.RefValue

end
-- ==== Proof.RefEnc.lean ====
import proofs.«166951_j44444321579084_2_alg».proof.Proof.Stages
import Idealize.ShloMosaic.Lib.StableHlo.Run

/-!
# The reference's encoders read back

Each stretch of the reference program's host operations is read back from ANY contents `W` of the device's
buffers: the stretch's result buffer ends at the stage's function (`Cert.Stages`) of what `W` holds at the
buffers the stretch reads, and every buffer the stretch does not write keeps what `W` holds there.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The two node encoders (operations 1 … 26 of the program). -/

/-- The two node encoders (operations 1 … 26 of the program). -/
def ops_enc : List (HloOp τ sig (Elt F)) :=
  [ unary main_arg3 main_v0 ((transpose S64x128 [1, 0] · transposes_S128x64_S64x128_1_0) : (⟨S128x64, .f32⟩ : BufTy).Contents (Elt F) → (⟨S64x128, .f32⟩ : BufTy).Contents (Elt F)),
    binary main_arg0 main_v0 main_v1 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg4 main_v2 (broadcastInDim S1x128 ![1] bcast_S128_S1x128_1 : (⟨S128, .f32⟩ : BufTy).Contents (Elt F) → (⟨S1x128, .f32⟩ : BufTy).Contents (Elt F)),
    unary main_v2 main_v3 (broadcastInDim S50000x128 ![0, 1] bcast_S1x128_S50000x128_0_1 : (⟨S1x128, .f32⟩ : BufTy).Contents (Elt F) → (⟨S50000x128, .f32⟩ : BufTy).Contents (Elt F)),
    binary main_v1 main_v3 main_v4 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v4) (TRef.of (T := ⟨S50000x128, .f32⟩) main_call0_v0) (TRef.of (T := ⟨S50000x128, .f32⟩) main_v5) maximumf,
    unary main_arg5 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v8 (broadcastInDim S1x128 ![1] bcast_S128_S1x128_1 : (⟨S128, .f32⟩ : BufTy).Contents (Elt F) → (⟨S1x128, .f32⟩ : BufTy).Contents (Elt F)),
    unary main_v8 main_v9 (broadcastInDim S50000x128 ![0, 1] bcast_S1x128_S50000x128_0_1 : (⟨S1x128, .f32⟩ : BufTy).Contents (Elt F) → (⟨S50000x128, .f32⟩ : BufTy).Contents (Elt F)),
    binary main_v7 main_v9 main_v10 (addf : (⟨S50000x128, .f32⟩ : BufTy).Contents (Elt F) → (⟨S50000x128, .f32⟩ : BufTy).Contents (Elt F) → (⟨S50000x128, .f32⟩ : BufTy).Contents (Elt F)),
    unary main_arg7 main_v11 ((transpose S48x128 [1, 0] · transposes_S128x48_S48x128_1_0) : (⟨S128x48, .f32⟩ : BufTy).Contents (Elt F) → (⟨S48x128, .f32⟩ : BufTy).Contents (Elt F)),
    binary main_arg1 main_v11 main_v12 ((fun l r => Host.dotGeneral dot_S50000x48_S48x128_S50000x128_1_0_0_1_n_n none l r) : (⟨S50000x48, .f32⟩ : BufTy).Contents (Elt F) → (⟨S48x128, .f32⟩ : BufTy).Contents (Elt F) → (⟨S50000x128, .f32⟩ : BufTy).Contents (Elt F)),
    unary main_arg8 main_v13 (broadcastInDim S1x128 ![1] bcast_S128_S1x128_1 : (⟨S128, .f32⟩ : BufTy).Contents (Elt F) → (⟨S1x128, .f32⟩ : BufTy).Contents (Elt F)),
    unary main_v13 main_v14 (broadcastInDim S50000x128 ![0, 1] bcast_S1x128_S50000x128_0_1 : (⟨S1x128, .f32⟩ : BufTy).Contents (Elt F) → (⟨S50000x128, .f32⟩ : BufTy).Contents (Elt F)),
    binary main_v12 main_v14 main_v15 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v15) (TRef.of (T := ⟨S50000x128, .f32⟩) main_call1_v0) (TRef.of (T := ⟨S50000x128, .f32⟩) main_v16) maximumf,
    unary main_arg9 main_v17 ((transpose S128x128 [1, 0] · transposes_S128x128_S128x128_1_0) : (⟨S128x128, .f32⟩ : BufTy).Contents (Elt F) → (⟨S128x128, .f32⟩ : BufTy).Contents (Elt F)),
    binary main_v16 main_v17 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v19 (broadcastInDim S1x128 ![1] bcast_S128_S1x128_1 : (⟨S128, .f32⟩ : BufTy).Contents (Elt F) → (⟨S1x128, .f32⟩ : BufTy).Contents (Elt F)),
    unary main_v19 main_v20 (broadcastInDim S50000x128 ![0, 1] bcast_S1x128_S50000x128_0_1 : (⟨S1x128, .f32⟩ : BufTy).Contents (Elt F) → (⟨S50000x128, .f32⟩ : BufTy).Contents (Elt F)),
    binary main_v18 main_v20 main_v21 (addf : (⟨S50000x128, .f32⟩ : BufTy).Contents (Elt F) → (⟨S50000x128, .f32⟩ : BufTy).Contents (Elt F) → (⟨S50000x128, .f32⟩ : BufTy).Contents (Elt F)) ]

theorem ops_enc_sub : (ops_enc : List (HloOp τ sig (Elt F))).Forall fun op => op.bufs ⊆ tcRefs τ sig := by
  unfold ops_enc
  exact ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem ops_enc_fresh : ∀ op ∈ (ops_enc : List (HloOp τ sig (Elt F))), op.fresh = ∅ := by
  unfold ops_enc
  intro _ h
  repeat (cases h with | head => rfl | tail _ h => ?_)
  exact nomatch h

/-- The buffers these operations write. -/
abbrev wr_enc : List (Ref sig .tc) := [main_v0, main_v1, main_v2, main_v3, main_v4, main_call0_cst, main_call0_v0, main_v5, main_v6, main_v7, main_v8, main_v9, main_v10, main_v11, main_v12, main_v13, main_v14, main_v15, main_call1_cst, main_call1_v0, main_v16, main_v17, main_v18, main_v19, main_v20, main_v21]

set_option maxRecDepth 8192 in
theorem ops_enc_writes : (ops_enc : List (HloOp τ sig (Elt F))).Forall fun op =>
    op.writes ⊆ (wr_enc.map (Proc.devRef (τ := τ) .tc)).toFinset := by
  unfold ops_enc
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_enc (W : Valuation τ sig (Elt F)) (r : Ref sig .tc) (h : r ∉ wr_enc) :
    after ops_enc W (Proc.devRef .tc r) = W (Proc.devRef .tc r) :=
  after_of_writes_sub ops_enc _ ops_enc_writes h

set_option maxRecDepth 8192 in
set_option maxHeartbeats 2600000 in
/-- The source encoder's output `relu (x · w1ᵀ + b1) · w2ᵀ + b2`. -/
theorem out_enc_v10 (W : Valuation τ sig (Elt F)) :
    after ops_enc W (Proc.devRef .tc main_v10) =
      Cert.Stages.encS (W (Proc.devRef .tc main_arg0)) (W (Proc.devRef .tc main_arg3)) (W (Proc.devRef .tc main_arg4)) (W (Proc.devRef .tc main_arg5)) (W (Proc.devRef .tc main_arg6)) := by
  unfold ops_enc
  after_results_simp <;> rfl

set_option maxRecDepth 8192 in
set_option maxHeartbeats 2600000 in
/-- The target encoder's output, the same on 48 input features. -/
theorem out_enc_v21 (W : Valuation τ sig (Elt F)) :
    after ops_enc W (Proc.devRef .tc main_v21) =
      Cert.Stages.encT (W (Proc.devRef .tc main_arg1)) (W (Proc.devRef .tc main_arg7)) (W (Proc.devRef .tc main_arg8)) (W (Proc.devRef .tc main_arg9)) (W (Proc.devRef .tc main_arg10)) := by
  unfold ops_enc
  after_results_simp <;> rfl

end Cert.ReferenceIdeal.RefValue

end
-- ==== Proof.RefL1a.lean ====
import proofs.«166951_j44444321579084_2_alg».proof.Proof.Stages
import Idealize.ShloMosaic.Lib.StableHlo.Run

/-!
# The reference's first layer read back: the relations within a node type

Each stretch of the reference program's host operations is read back from ANY contents `W` of the device's
buffers: the stretch's result buffer ends at the stage's function (`Cert.Stages`) of what `W` holds at the
buffers the stretch reads, and every buffer the stretch does not write keeps what `W` holds there.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## Layer 1, relation source→source: the mean aggregate over the relation's edges, then `agg · wlᵀ + bl + h · wrᵀ` (operations 27 … 69 of the program). -/

/-- Layer 1, relation source→source: the mean aggregate over the relation's edges, then `agg · wlᵀ + bl + h · wrᵀ` (operations 27 … 69 of the program). -/
def ops_c1ss : List (HloOp τ sig (Elt F)) :=
  [ unary main_arg11 main_v22 ((extractStridedSlice S1x1x128x128 ![0, 0, 0, 0] · slices_S3x4x128x128_S1x1x128x128_0_0_0_0) : (⟨S3x4x128x128, .f32⟩ : BufTy).Contents (Elt F) → (⟨S1x1x128x128, .f32⟩ : BufTy).Contents (Elt F)),
    reshape main_v22 main_v23 rfl shapeCasts_S1x1x128x128_S128x128,
    unary main_arg12 main_v24 ((extractStridedSlice S1x1x128 ![0, 0, 0] · slices_S3x4x128_S1x1x128_0_0_0) : (⟨S3x4x128, .f32⟩ : BufTy).Contents (Elt F) → (⟨S1x1x128, .f32⟩ : BufTy).Contents (Elt F)),
    reshape main_v24 main_v25 rfl shapeCasts_S1x1x128_S128,
    unary main_arg13 main_v26 ((extractStridedSlice S1x1x128x128 ![0, 0, 0, 0] · slices_S3x4x128x128_S1x1x128x128_0_0_0_0) : (⟨S3x4x128x128, .f32⟩ : BufTy).Contents (Elt F) → (⟨S1x1x128x128, .f32⟩ : BufTy).Contents (Elt F)),
    reshape main_v26 main_v27 rfl shapeCasts_S1x1x128x128_S128x128,
    unary main_arg24 main_v28 ((extractStridedSlice S1x500000 ![0, 0] · slices_S2x500000_S1x500000_0_0) : (⟨S2x500000, .i32⟩ : BufTy).Contents (Elt F) → (⟨S1x500000, .i32⟩ : BufTy).Contents (Elt F)),
    reshape main_v28 main_v29 rfl shapeCasts_S1x500000_S500000,
    unary main_arg24 main_v30 ((extractStridedSlice S1x500000 ![1, 0] · slices_S2x500000_S1x500000_1_0) : (⟨S2x500000, .i32⟩ : BufTy).Contents (Elt F) → (⟨S1x500000, .i32⟩ : BufTy).Contents (Elt F)),
    reshape main_v30 main_v31 rfl shapeCasts_S1x500000_S500000,
    nullary main_c (constantI S_ 32 0#32),
    unary main_c main_v32 (broadcastInDim S500000 ![] bcast_S_S500000 : (⟨S_, .i32⟩ : BufTy).Contents (Elt F) → (⟨S500000, .i32⟩ : BufTy).Contents (Elt F)),
    binary main_v29 main_v32 main_v33 (cmpi .slt : (⟨S500000, .i32⟩ : BufTy).Contents (Elt F) → (⟨S500000, .i32⟩ : BufTy).Contents (Elt F) → (⟨S500000, .i1⟩ : BufTy).Contents (Elt F)),
    nullary main_c_0 (constantI S_ 32 50000#32),
    unary main_c_0 main_v34 (broadcastInDim S500000 ![] bcast_S_S500000 : (⟨S_, .i32⟩ : BufTy).Contents (Elt F) → (⟨S500000, .i32⟩ : BufTy).Contents (Elt F)),
    binary main_v29 main_v34 main_v35 (addi : (⟨S500000, .i32⟩ : BufTy).Contents (Elt F) → (⟨S500000, .i32⟩ : BufTy).Contents (Elt F) → (⟨S500000, .i32⟩ : BufTy).Contents (Elt F)),
    ternary main_v33 main_v35 main_v29 main_v36 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v36 main_v37 (broadcastInDim S500000x1 ![0] bcast_S500000_S500000x1_0 : (⟨S500000, .i32⟩ : BufTy).Contents (Elt F) → (⟨S500000x1, .i32⟩ : BufTy).Contents (Elt F)),
    binary main_v10 main_v37 main_v38 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst (constant S_ .f32 0x00000000#32),
    unary main_cst main_v39 (broadcastInDim S50000x128 ![] bcast_S_S50000x128 : (⟨S_, .f32⟩ : BufTy).Contents (Elt F) → (⟨S50000x128, .f32⟩ : BufTy).Contents (Elt F)),
    unary main_v31 main_v40 (broadcastInDim S500000x1 ![0] bcast_S500000_S500000x1_0 : (⟨S500000, .i32⟩ : BufTy).Contents (Elt F) → (⟨S500000x1, .i32⟩ : BufTy).Contents (Elt F)),
    ternary main_v39 main_v40 main_v38 main_v41 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_1 (constant S_ .f32 0x3F800000#32),
    unary main_cst_1 main_v42 (broadcastInDim S500000 ![] bcast_S_S500000 : (⟨S_, .f32⟩ : BufTy).Contents (Elt F) → (⟨S500000, .f32⟩ : BufTy).Contents (Elt F)),
    nullary main_cst_2 (constant S_ .f32 0x00000000#32),
    unary main_cst_2 main_v43 (broadcastInDim S50000 ![] bcast_S_S50000 : (⟨S_, .f32⟩ : BufTy).Contents (Elt F) → (⟨S50000, .f32⟩ : BufTy).Contents (Elt F)),
    unary main_v31 main_v44 (broadcastInDim S500000x1 ![0] bcast_S500000_S500000x1_0 : (⟨S500000, .i32⟩ : BufTy).Contents (Elt F) → (⟨S500000x1, .i32⟩ : BufTy).Contents (Elt F)),
    ternary main_v43 main_v44 main_v42 main_v45 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_3 (constant S_ .f32 0x3F800000#32),
    unary main_cst_3 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x128 ![0, 1] bcast_S50000x1_S50000x128_0_1 : (⟨S50000x1, .f32⟩ : BufTy).Contents (Elt F) → (⟨S50000x128, .f32⟩ : BufTy).Contents (Elt F)),
    binary main_v41 main_v49 main_v50 (Host.divf : (⟨S50000x128, .f32⟩ : BufTy).Contents (Elt F) → (⟨S50000x128, .f32⟩ : BufTy).Contents (Elt F) → (⟨S50000x128, .f32⟩ : BufTy).Contents (Elt F)),
    unary main_v23 main_v51 ((transpose S128x128 [1, 0] · transposes_S128x128_S128x128_1_0) : (⟨S128x128, .f32⟩ : BufTy).Contents (Elt F) → (⟨S128x128, .f32⟩ : BufTy).Contents (Elt F)),
    binary main_v50 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v25 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v52 main_v54 main_v55 (addf : (⟨S50000x128, .f32⟩ : BufTy).Contents (Elt F) → (⟨S50000x128, .f32⟩ : BufTy).Contents (Elt F) → (⟨S50000x128, .f32⟩ : BufTy).Contents (Elt F)),
    unary main_v27 main_v56 ((transpose S128x128 [1, 0] · transposes_S128x128_S128x128_1_0) : (⟨S128x128, .f32⟩ : BufTy).Contents (Elt F) → (⟨S128x128, .f32⟩ : BufTy).Contents (Elt F)),
    binary main_v10 main_v56 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)) ]

theorem ops_c1ss_sub : (ops_c1ss : List (HloOp τ sig (Elt F))).Forall fun op => op.bufs ⊆ tcRefs τ sig := by
  unfold ops_c1ss
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c1ss_fresh : ∀ op ∈ (ops_c1ss : List (HloOp τ sig (Elt F))), op.fresh = ∅ := by
  unfold ops_c1ss
  intro _ h
  repeat (cases h with | head => rfl | tail _ h => ?_)
  exact nomatch h

/-- The buffers these operations write. -/
abbrev wr_c1ss : List (Ref sig .tc) := [main_v22, main_v23, main_v24, main_v25, main_v26, main_v27, main_v28, main_v29, main_v30, main_v31, main_c, main_v32, main_v33, main_c_0, main_v34, main_v35, main_v36, main_v37, main_v38, main_cst, main_v39, main_v40, main_v41, main_cst_1, main_v42, main_cst_2, main_v43, main_v44, main_v45, main_cst_3, main_v46, main_v47, main_v48, main_v49, main_v50, main_v51, main_v52, main_v53, main_v54, main_v55, main_v56, main_v57, main_v58]

set_option maxRecDepth 8192 in
theorem ops_c1ss_writes : (ops_c1ss : List (HloOp τ sig (Elt F))).Forall fun op =>
    op.writes ⊆ (wr_c1ss.map (Proc.devRef (τ := τ) .tc)).toFinset := by
  unfold ops_c1ss
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c1ss (W : Valuation τ sig (Elt F)) (r : Ref sig .tc) (h : r ∉ wr_c1ss) :
    after ops_c1ss W (Proc.devRef .tc r) = W (Proc.devRef .tc r) :=
  after_of_writes_sub ops_c1ss _ ops_c1ss_writes h

set_option maxRecDepth 8192 in
set_option maxHeartbeats 4300000 in
/-- The relation's output: the mean aggregate of the source features over the edges into each destination node, through the relation's two weight matrices and bias. -/
theorem out_c1ss_v58 (W : Valuation τ sig (Elt F)) :
    after ops_c1ss W (Proc.devRef .tc main_v58) =
      Cert.Stages.sageOut (Cert.Stages.aggMean (W (Proc.devRef .tc main_v10)) (W (Proc.devRef .tc main_arg24)) (Cert.Stages.degF (W (Proc.devRef .tc main_arg24)))) (W (Proc.devRef .tc main_v10)) (Cert.Stages.wAt00 (W (Proc.devRef .tc main_arg11))) (Cert.Stages.bAt00 (W (Proc.devRef .tc main_arg12))) (Cert.Stages.wAt00 (W (Proc.devRef .tc main_arg13))) := by
  unfold ops_c1ss
  after_results_simp <;> rfl

/-! ## Layer 1, relation target→target: the mean aggregate over the relation's edges, then `agg · wlᵀ + bl + h · wrᵀ` (operations 70 … 112 of the program). -/

/-- Layer 1, relation target→target: the mean aggregate over the relation's edges, then `agg · wlᵀ + bl + h · wrᵀ` (operations 70 … 112 of the program). -/
def ops_c1tt : List (HloOp τ sig (Elt F)) :=
  [ unary main_arg11 main_v59 ((extractStridedSlice S1x1x128x128 ![0, 1, 0, 0] · slices_S3x4x128x128_S1x1x128x128_0_1_0_0) : (⟨S3x4x128x128, .f32⟩ : BufTy).Contents (Elt F) → (⟨S1x1x128x128, .f32⟩ : BufTy).Contents (Elt F)),
    reshape main_v59 main_v60 rfl shapeCasts_S1x1x128x128_S128x128,
    unary main_arg12 main_v61 ((extractStridedSlice S1x1x128 ![0, 1, 0] · slices_S3x4x128_S1x1x128_0_1_0) : (⟨S3x4x128, .f32⟩ : BufTy).Contents (Elt F) → (⟨S1x1x128, .f32⟩ : BufTy).Contents (Elt F)),
    reshape main_v61 main_v62 rfl shapeCasts_S1x1x128_S128,
    unary main_arg13 main_v63 ((extractStridedSlice S1x1x128x128 ![0, 1, 0, 0] · slices_S3x4x128x128_S1x1x128x128_0_1_0_0) : (⟨S3x4x128x128, .f32⟩ : BufTy).Contents (Elt F) → (⟨S1x1x128x128, .f32⟩ : BufTy).Contents (Elt F)),
    reshape main_v63 main_v64 rfl shapeCasts_S1x1x128x128_S128x128,
    unary main_arg25 main_v65 ((extractStridedSlice S1x500000 ![0, 0] · slices_S2x500000_S1x500000_0_0) : (⟨S2x500000, .i32⟩ : BufTy).Contents (Elt F) → (⟨S1x500000, .i32⟩ : BufTy).Contents (Elt F)),
    reshape main_v65 main_v66 rfl shapeCasts_S1x500000_S500000,
    unary main_arg25 main_v67 ((extractStridedSlice S1x500000 ![1, 0] · slices_S2x500000_S1x500000_1_0) : (⟨S2x500000, .i32⟩ : BufTy).Contents (Elt F) → (⟨S1x500000, .i32⟩ : BufTy).Contents (Elt F)),
    reshape main_v67 main_v68 rfl shapeCasts_S1x500000_S500000,
    nullary main_c_4 (constantI S_ 32 0#32),
    unary main_c_4 main_v69 (broadcastInDim S500000 ![] bcast_S_S500000 : (⟨S_, .i32⟩ : BufTy).Contents (Elt F) → (⟨S500000, .i32⟩ : BufTy).Contents (Elt F)),
    binary main_v66 main_v69 main_v70 (cmpi .slt : (⟨S500000, .i32⟩ : BufTy).Contents (Elt F) → (⟨S500000, .i32⟩ : BufTy).Contents (Elt F) → (⟨S500000, .i1⟩ : BufTy).Contents (Elt F)),
    nullary main_c_5 (constantI S_ 32 50000#32),
    unary main_c_5 main_v71 (broadcastInDim S500000 ![] bcast_S_S500000 : (⟨S_, .i32⟩ : BufTy).Contents (Elt F) → (⟨S500000, .i32⟩ : BufTy).Contents (Elt F)),
    binary main_v66 main_v71 main_v72 (addi : (⟨S500000, .i32⟩ : BufTy).Contents (Elt F) → (⟨S500000, .i32⟩ : BufTy).Contents (Elt F) → (⟨S500000, .i32⟩ : BufTy).Contents (Elt F)),
    ternary main_v70 main_v72 main_v66 main_v73 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v73 main_v74 (broadcastInDim S500000x1 ![0] bcast_S500000_S500000x1_0 : (⟨S500000, .i32⟩ : BufTy).Contents (Elt F) → (⟨S500000x1, .i32⟩ : BufTy).Contents (Elt F)),
    binary main_v21 main_v74 main_v75 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_6 (constant S_ .f32 0x00000000#32),
    unary main_cst_6 main_v76 (broadcastInDim S50000x128 ![] bcast_S_S50000x128 : (⟨S_, .f32⟩ : BufTy).Contents (Elt F) → (⟨S50000x128, .f32⟩ : BufTy).Contents (Elt F)),
    unary main_v68 main_v77 (broadcastInDim S500000x1 ![0] bcast_S500000_S500000x1_0 : (⟨S500000, .i32⟩ : BufTy).Contents (Elt F) → (⟨S500000x1, .i32⟩ : BufTy).Contents (Elt F)),
    ternary main_v76 main_v77 main_v75 main_v78 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_7 (constant S_ .f32 0x3F800000#32),
    unary main_cst_7 main_v79 (broadcastInDim S500000 ![] bcast_S_S500000 : (⟨S_, .f32⟩ : BufTy).Contents (Elt F) → (⟨S500000, .f32⟩ : BufTy).Contents (Elt F)),
    nullary main_cst_8 (constant S_ .f32 0x00000000#32),
    unary main_cst_8 main_v80 (broadcastInDim S50000 ![] bcast_S_S50000 : (⟨S_, .f32⟩ : BufTy).Contents (Elt F) → (⟨S50000, .f32⟩ : BufTy).Contents (Elt F)),
    unary main_v68 main_v81 (broadcastInDim S500000x1 ![0] bcast_S500000_S500000x1_0 : (⟨S500000, .i32⟩ : BufTy).Contents (Elt F) → (⟨S500000x1, .i32⟩ : BufTy).Contents (Elt F)),
    ternary main_v80 main_v81 main_v79 main_v82 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_9 (constant S_ .f32 0x3F800000#32),
    unary main_cst_9 main_v83 (broadcastInDim S50000 ![] bcast_S_S50000 : (⟨S_, .f32⟩ : BufTy).Contents (Elt F) → (⟨S50000, .f32⟩ : BufTy).Contents (Elt F)),
    binary main_v82 main_v83 main_v84 (maximumf : (⟨S50000, .f32⟩ : BufTy).Contents (Elt F) → (⟨S50000, .f32⟩ : BufTy).Contents (Elt F) → (⟨S50000, .f32⟩ : BufTy).Contents (Elt F)),
    unary main_v84 main_v85 (broadcastInDim S50000x1 ![0] bcast_S50000_S50000x1_0 : (⟨S50000, .f32⟩ : BufTy).Contents (Elt F) → (⟨S50000x1, .f32⟩ : BufTy).Contents (Elt F)),
    unary main_v85 main_v86 (broadcastInDim S50000x128 ![0, 1] bcast_S50000x1_S50000x128_0_1 : (⟨S50000x1, .f32⟩ : BufTy).Contents (Elt F) → (⟨S50000x128, .f32⟩ : BufTy).Contents (Elt F)),
    binary main_v78 main_v86 main_v87 (Host.divf : (⟨S50000x128, .f32⟩ : BufTy).Contents (Elt F) → (⟨S50000x128, .f32⟩ : BufTy).Contents (Elt F) → (⟨S50000x128, .f32⟩ : BufTy).Contents (Elt F)),
    unary main_v60 main_v88 ((transpose S128x128 [1, 0] · transposes_S128x128_S128x128_1_0) : (⟨S128x128, .f32⟩ : BufTy).Contents (Elt F) → (⟨S128x128, .f32⟩ : BufTy).Contents (Elt F)),
    binary main_v87 main_v88 main_v89 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v62 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    unary main_v64 main_v93 ((transpose S128x128 [1, 0] · transposes_S128x128_S128x128_1_0) : (⟨S128x128, .f32⟩ : BufTy).Contents (Elt F) → (⟨S128x128, .f32⟩ : BufTy).Contents (Elt F)),
    binary main_v21 main_v93 main_v94 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v92 main_v94 main_v95 (addf : (⟨S50000x128, .f32⟩ : BufTy).Contents (Elt F) → (⟨S50000x128, .f32⟩ : BufTy).Contents (Elt F) → (⟨S50000x128, .f32⟩ : BufTy).Contents (Elt F)) ]

theorem ops_c1tt_sub : (ops_c1tt : List (HloOp τ sig (Elt F))).Forall fun op => op.bufs ⊆ tcRefs τ sig := by
  unfold ops_c1tt
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c1tt_fresh : ∀ op ∈ (ops_c1tt : List (HloOp τ sig (Elt F))), op.fresh = ∅ := by
  unfold ops_c1tt
  intro _ h
  repeat (cases h with | head => rfl | tail _ h => ?_)
  exact nomatch h

/-- The buffers these operations write. -/
abbrev wr_c1tt : List (Ref sig .tc) := [main_v59, main_v60, main_v61, main_v62, main_v63, main_v64, main_v65, main_v66, main_v67, main_v68, main_c_4, main_v69, main_v70, main_c_5, main_v71, main_v72, main_v73, main_v74, main_v75, main_cst_6, main_v76, main_v77, main_v78, main_cst_7, main_v79, main_cst_8, main_v80, main_v81, main_v82, main_cst_9, main_v83, main_v84, main_v85, main_v86, main_v87, main_v88, main_v89, main_v90, main_v91, main_v92, main_v93, main_v94, main_v95]

set_option maxRecDepth 8192 in
theorem ops_c1tt_writes : (ops_c1tt : List (HloOp τ sig (Elt F))).Forall fun op =>
    op.writes ⊆ (wr_c1tt.map (Proc.devRef (τ := τ) .tc)).toFinset := by
  unfold ops_c1tt
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c1tt (W : Valuation τ sig (Elt F)) (r : Ref sig .tc) (h : r ∉ wr_c1tt) :
    after ops_c1tt W (Proc.devRef .tc r) = W (Proc.devRef .tc r) :=
  after_of_writes_sub ops_c1tt _ ops_c1tt_writes h

set_option maxRecDepth 8192 in
set_option maxHeartbeats 4300000 in
/-- The relation's output: the mean aggregate of the source features over the edges into each destination node, through the relation's two weight matrices and bias. -/
theorem out_c1tt_v95 (W : Valuation τ sig (Elt F)) :
    after ops_c1tt W (Proc.devRef .tc main_v95) =
      Cert.Stages.sageOut (Cert.Stages.aggMean (W (Proc.devRef .tc main_v21)) (W (Proc.devRef .tc main_arg25)) (Cert.Stages.degF (W (Proc.devRef .tc main_arg25)))) (W (Proc.devRef .tc main_v21)) (Cert.Stages.wAt01 (W (Proc.devRef .tc main_arg11))) (Cert.Stages.bAt01 (W (Proc.devRef .tc main_arg12))) (Cert.Stages.wAt01 (W (Proc.devRef .tc main_arg13))) := by
  unfold ops_c1tt
  after_results_simp <;> rfl

end Cert.ReferenceIdeal.RefValue

end
-- ==== Proof.RefL1b.lean ====
import proofs.«166951_j44444321579084_2_alg».proof.Proof.Stages
import Idealize.ShloMosaic.Lib.StableHlo.Run

/-!
# The reference's first layer read back: the relations across node types, and the combination

Each stretch of the reference program's host operations is read back from ANY contents `W` of the device's
buffers: the stretch's result buffer ends at the stage's function (`Cert.Stages`) of what `W` holds at the
buffers the stretch reads, and every buffer the stretch does not write keeps what `W` holds there.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## Layer 1, relation source→target: the mean aggregate over the relation's edges, then `agg · wlᵀ + bl + h · wrᵀ` (operations 113 … 155 of the program). -/

/-- Layer 1, relation source→target: the mean aggregate over the relation's edges, then `agg · wlᵀ + bl + h · wrᵀ` (operations 113 … 155 of the program). -/
def ops_c1st : List (HloOp τ sig (Elt F)) :=
  [ unary main_arg11 main_v96 ((extractStridedSlice S1x1x128x128 ![0, 2, 0, 0] · slices_S3x4x128x128_S1x1x128x128_0_2_0_0) : (⟨S3x4x128x128, .f32⟩ : BufTy).Contents (Elt F) → (⟨S1x1x128x128, .f32⟩ : BufTy).Contents (Elt F)),
    reshape main_v96 main_v97 rfl shapeCasts_S1x1x128x128_S128x128,
    unary main_arg12 main_v98 ((extractStridedSlice S1x1x128 ![0, 2, 0] · slices_S3x4x128_S1x1x128_0_2_0) : (⟨S3x4x128, .f32⟩ : BufTy).Contents (Elt F) → (⟨S1x1x128, .f32⟩ : BufTy).Contents (Elt F)),
    reshape main_v98 main_v99 rfl shapeCasts_S1x1x128_S128,
    unary main_arg13 main_v100 ((extractStridedSlice S1x1x128x128 ![0, 2, 0, 0] · slices_S3x4x128x128_S1x1x128x128_0_2_0_0) : (⟨S3x4x128x128, .f32⟩ : BufTy).Contents (Elt F) → (⟨S1x1x128x128, .f32⟩ : BufTy).Contents (Elt F)),
    reshape main_v100 main_v101 rfl shapeCasts_S1x1x128x128_S128x128,
    unary main_arg26 main_v102 ((extractStridedSlice S1x500000 ![0, 0] · slices_S2x500000_S1x500000_0_0) : (⟨S2x500000, .i32⟩ : BufTy).Contents (Elt F) → (⟨S1x500000, .i32⟩ : BufTy).Contents (Elt F)),
    reshape main_v102 main_v103 rfl shapeCasts_S1x500000_S500000,
    unary main_arg26 main_v104 ((extractStridedSlice S1x500000 ![1, 0] · slices_S2x500000_S1x500000_1_0) : (⟨S2x500000, .i32⟩ : BufTy).Contents (Elt F) → (⟨S1x500000, .i32⟩ : BufTy).Contents (Elt F)),
    reshape main_v104 main_v105 rfl shapeCasts_S1x500000_S500000,
    nullary main_c_10 (constantI S_ 32 0#32),
    unary main_c_10 main_v106 (broadcastInDim S500000 ![] bcast_S_S500000 : (⟨S_, .i32⟩ : BufTy).Contents (Elt F) → (⟨S500000, .i32⟩ : BufTy).Contents (Elt F)),
    binary main_v103 main_v106 main_v107 (cmpi .slt : (⟨S500000, .i32⟩ : BufTy).Contents (Elt F) → (⟨S500000, .i32⟩ : BufTy).Contents (Elt F) → (⟨S500000, .i1⟩ : BufTy).Contents (Elt F)),
    nullary main_c_11 (constantI S_ 32 50000#32),
    unary main_c_11 main_v108 (broadcastInDim S500000 ![] bcast_S_S500000 : (⟨S_, .i32⟩ : BufTy).Contents (Elt F) → (⟨S500000, .i32⟩ : BufTy).Contents (Elt F)),
    binary main_v103 main_v108 main_v109 (addi : (⟨S500000, .i32⟩ : BufTy).Contents (Elt F) → (⟨S500000, .i32⟩ : BufTy).Contents (Elt F) → (⟨S500000, .i32⟩ : BufTy).Contents (Elt F)),
    ternary main_v107 main_v109 main_v103 main_v110 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v110 main_v111 (broadcastInDim S500000x1 ![0] bcast_S500000_S500000x1_0 : (⟨S500000, .i32⟩ : BufTy).Contents (Elt F) → (⟨S500000x1, .i32⟩ : BufTy).Contents (Elt F)),
    binary main_v10 main_v111 main_v112 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_12 (constant S_ .f32 0x00000000#32),
    unary main_cst_12 main_v113 (broadcastInDim S50000x128 ![] bcast_S_S50000x128 : (⟨S_, .f32⟩ : BufTy).Contents (Elt F) → (⟨S50000x128, .f32⟩ : BufTy).Contents (Elt F)),
    unary main_v105 main_v114 (broadcastInDim S500000x1 ![0] bcast_S500000_S500000x1_0 : (⟨S500000, .i32⟩ : BufTy).Contents (Elt F) → (⟨S500000x1, .i32⟩ : BufTy).Contents (Elt F)),
    ternary main_v113 main_v114 main_v112 main_v115 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_13 (constant S_ .f32 0x3F800000#32),
    unary main_cst_13 main_v116 (broadcastInDim S500000 ![] bcast_S_S500000 : (⟨S_, .f32⟩ : BufTy).Contents (Elt F) → (⟨S500000, .f32⟩ : BufTy).Contents (Elt F)),
    nullary main_cst_14 (constant S_ .f32 0x00000000#32),
    unary main_cst_14 main_v117 (broadcastInDim S50000 ![] bcast_S_S50000 : (⟨S_, .f32⟩ : BufTy).Contents (Elt F) → (⟨S50000, .f32⟩ : BufTy).Contents (Elt F)),
    unary main_v105 main_v118 (broadcastInDim S500000x1 ![0] bcast_S500000_S500000x1_0 : (⟨S500000, .i32⟩ : BufTy).Contents (Elt F) → (⟨S500000x1, .i32⟩ : BufTy).Contents (Elt F)),
    ternary main_v117 main_v118 main_v116 main_v119 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_15 (constant S_ .f32 0x3F800000#32),
    unary main_cst_15 main_v120 (broadcastInDim S50000 ![] bcast_S_S50000 : (⟨S_, .f32⟩ : BufTy).Contents (Elt F) → (⟨S50000, .f32⟩ : BufTy).Contents (Elt F)),
    binary main_v119 main_v120 main_v121 (maximumf : (⟨S50000, .f32⟩ : BufTy).Contents (Elt F) → (⟨S50000, .f32⟩ : BufTy).Contents (Elt F) → (⟨S50000, .f32⟩ : BufTy).Contents (Elt F)),
    unary main_v121 main_v122 (broadcastInDim S50000x1 ![0] bcast_S50000_S50000x1_0 : (⟨S50000, .f32⟩ : BufTy).Contents (Elt F) → (⟨S50000x1, .f32⟩ : BufTy).Contents (Elt F)),
    unary main_v122 main_v123 (broadcastInDim S50000x128 ![0, 1] bcast_S50000x1_S50000x128_0_1 : (⟨S50000x1, .f32⟩ : BufTy).Contents (Elt F) → (⟨S50000x128, .f32⟩ : BufTy).Contents (Elt F)),
    binary main_v115 main_v123 main_v124 (Host.divf : (⟨S50000x128, .f32⟩ : BufTy).Contents (Elt F) → (⟨S50000x128, .f32⟩ : BufTy).Contents (Elt F) → (⟨S50000x128, .f32⟩ : BufTy).Contents (Elt F)),
    unary main_v97 main_v125 ((transpose S128x128 [1, 0] · transposes_S128x128_S128x128_1_0) : (⟨S128x128, .f32⟩ : BufTy).Contents (Elt F) → (⟨S128x128, .f32⟩ : BufTy).Contents (Elt F)),
    binary main_v124 main_v125 main_v126 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v99 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v126 main_v128 main_v129 (addf : (⟨S50000x128, .f32⟩ : BufTy).Contents (Elt F) → (⟨S50000x128, .f32⟩ : BufTy).Contents (Elt F) → (⟨S50000x128, .f32⟩ : BufTy).Contents (Elt F)),
    unary main_v101 main_v130 ((transpose S128x128 [1, 0] · transposes_S128x128_S128x128_1_0) : (⟨S128x128, .f32⟩ : BufTy).Contents (Elt F) → (⟨S128x128, .f32⟩ : BufTy).Contents (Elt F)),
    binary main_v21 main_v130 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v129 main_v131 main_v132 (addf : (⟨S50000x128, .f32⟩ : BufTy).Contents (Elt F) → (⟨S50000x128, .f32⟩ : BufTy).Contents (Elt F) → (⟨S50000x128, .f32⟩ : BufTy).Contents (Elt F)) ]

theorem ops_c1st_sub : (ops_c1st : List (HloOp τ sig (Elt F))).Forall fun op => op.bufs ⊆ tcRefs τ sig := by
  unfold ops_c1st
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c1st_fresh : ∀ op ∈ (ops_c1st : List (HloOp τ sig (Elt F))), op.fresh = ∅ := by
  unfold ops_c1st
  intro _ h
  repeat (cases h with | head => rfl | tail _ h => ?_)
  exact nomatch h

/-- The buffers these operations write. -/
abbrev wr_c1st : List (Ref sig .tc) := [main_v96, main_v97, main_v98, main_v99, main_v100, main_v101, main_v102, main_v103, main_v104, main_v105, main_c_10, main_v106, main_v107, main_c_11, main_v108, main_v109, main_v110, main_v111, main_v112, main_cst_12, main_v113, main_v114, main_v115, main_cst_13, main_v116, main_cst_14, main_v117, main_v118, main_v119, main_cst_15, main_v120, main_v121, main_v122, main_v123, main_v124, main_v125, main_v126, main_v127, main_v128, main_v129, main_v130, main_v131, main_v132]

set_option maxRecDepth 8192 in
theorem ops_c1st_writes : (ops_c1st : List (HloOp τ sig (Elt F))).Forall fun op =>
    op.writes ⊆ (wr_c1st.map (Proc.devRef (τ := τ) .tc)).toFinset := by
  unfold ops_c1st
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c1st (W : Valuation τ sig (Elt F)) (r : Ref sig .tc) (h : r ∉ wr_c1st) :
    after ops_c1st W (Proc.devRef .tc r) = W (Proc.devRef .tc r) :=
  after_of_writes_sub ops_c1st _ ops_c1st_writes h

set_option maxRecDepth 8192 in
set_option maxHeartbeats 4300000 in
/-- The relation's output: the mean aggregate of the source features over the edges into each destination node, through the relation's two weight matrices and bias. -/
theorem out_c1st_v132 (W : Valuation τ sig (Elt F)) :
    after ops_c1st W (Proc.devRef .tc main_v132) =
      Cert.Stages.sageOut (Cert.Stages.aggMean (W (Proc.devRef .tc main_v10)) (W (Proc.devRef .tc main_arg26)) (Cert.Stages.degF (W (Proc.devRef .tc main_arg26)))) (W (Proc.devRef .tc main_v21)) (Cert.Stages.wAt02 (W (Proc.devRef .tc main_arg11))) (Cert.Stages.bAt02 (W (Proc.devRef .tc main_arg12))) (Cert.Stages.wAt02 (W (Proc.devRef .tc main_arg13))) := by
  unfold ops_c1st
  after_results_simp <;> rfl

/-! ## Layer 1, relation target→source: the mean aggregate over the relation's edges, then `agg · wlᵀ + bl + h · wrᵀ` (operations 156 … 198 of the program). -/

/-- Layer 1, relation target→source: the mean aggregate over the relation's edges, then `agg · wlᵀ + bl + h · wrᵀ` (operations 156 … 198 of the program). -/
def ops_c1ts : List (HloOp τ sig (Elt F)) :=
  [ unary main_arg11 main_v133 ((extractStridedSlice S1x1x128x128 ![0, 3, 0, 0] · slices_S3x4x128x128_S1x1x128x128_0_3_0_0) : (⟨S3x4x128x128, .f32⟩ : BufTy).Contents (Elt F) → (⟨S1x1x128x128, .f32⟩ : BufTy).Contents (Elt F)),
    reshape main_v133 main_v134 rfl shapeCasts_S1x1x128x128_S128x128,
    unary main_arg12 main_v135 ((extractStridedSlice S1x1x128 ![0, 3, 0] · slices_S3x4x128_S1x1x128_0_3_0) : (⟨S3x4x128, .f32⟩ : BufTy).Contents (Elt F) → (⟨S1x1x128, .f32⟩ : BufTy).Contents (Elt F)),
    reshape main_v135 main_v136 rfl shapeCasts_S1x1x128_S128,
    unary main_arg13 main_v137 ((extractStridedSlice S1x1x128x128 ![0, 3, 0, 0] · slices_S3x4x128x128_S1x1x128x128_0_3_0_0) : (⟨S3x4x128x128, .f32⟩ : BufTy).Contents (Elt F) → (⟨S1x1x128x128, .f32⟩ : BufTy).Contents (Elt F)),
    reshape main_v137 main_v138 rfl shapeCasts_S1x1x128x128_S128x128,
    unary main_arg27 main_v139 ((extractStridedSlice S1x500000 ![0, 0] · slices_S2x500000_S1x500000_0_0) : (⟨S2x500000, .i32⟩ : BufTy).Contents (Elt F) → (⟨S1x500000, .i32⟩ : BufTy).Contents (Elt F)),
    reshape main_v139 main_v140 rfl shapeCasts_S1x500000_S500000,
    unary main_arg27 main_v141 ((extractStridedSlice S1x500000 ![1, 0] · slices_S2x500000_S1x500000_1_0) : (⟨S2x500000, .i32⟩ : BufTy).Contents (Elt F) → (⟨S1x500000, .i32⟩ : BufTy).Contents (Elt F)),
    reshape main_v141 main_v142 rfl shapeCasts_S1x500000_S500000,
    nullary main_c_16 (constantI S_ 32 0#32),
    unary main_c_16 main_v143 (broadcastInDim S500000 ![] bcast_S_S500000 : (⟨S_, .i32⟩ : BufTy).Contents (Elt F) → (⟨S500000, .i32⟩ : BufTy).Contents (Elt F)),
    binary main_v140 main_v143 main_v144 (cmpi .slt : (⟨S500000, .i32⟩ : BufTy).Contents (Elt F) → (⟨S500000, .i32⟩ : BufTy).Contents (Elt F) → (⟨S500000, .i1⟩ : BufTy).Contents (Elt F)),
    nullary main_c_17 (constantI S_ 32 50000#32),
    unary main_c_17 main_v145 (broadcastInDim S500000 ![] bcast_S_S500000 : (⟨S_, .i32⟩ : BufTy).Contents (Elt F) → (⟨S500000, .i32⟩ : BufTy).Contents (Elt F)),
    binary main_v140 main_v145 main_v146 (addi : (⟨S500000, .i32⟩ : BufTy).Contents (Elt F) → (⟨S500000, .i32⟩ : BufTy).Contents (Elt F) → (⟨S500000, .i32⟩ : BufTy).Contents (Elt F)),
    ternary main_v144 main_v146 main_v140 main_v147 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v147 main_v148 (broadcastInDim S500000x1 ![0] bcast_S500000_S500000x1_0 : (⟨S500000, .i32⟩ : BufTy).Contents (Elt F) → (⟨S500000x1, .i32⟩ : BufTy).Contents (Elt F)),
    binary main_v21 main_v148 main_v149 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_18 (constant S_ .f32 0x00000000#32),
    unary main_cst_18 main_v150 (broadcastInDim S50000x128 ![] bcast_S_S50000x128 : (⟨S_, .f32⟩ : BufTy).Contents (Elt F) → (⟨S50000x128, .f32⟩ : BufTy).Contents (Elt F)),
    unary main_v142 main_v151 (broadcastInDim S500000x1 ![0] bcast_S500000_S500000x1_0 : (⟨S500000, .i32⟩ : BufTy).Contents (Elt F) → (⟨S500000x1, .i32⟩ : BufTy).Contents (Elt F)),
    ternary main_v150 main_v151 main_v149 main_v152 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_19 (constant S_ .f32 0x3F800000#32),
    unary main_cst_19 main_v153 (broadcastInDim S500000 ![] bcast_S_S500000 : (⟨S_, .f32⟩ : BufTy).Contents (Elt F) → (⟨S500000, .f32⟩ : BufTy).Contents (Elt F)),
    nullary main_cst_20 (constant S_ .f32 0x00000000#32),
    unary main_cst_20 main_v154 (broadcastInDim S50000 ![] bcast_S_S50000 : (⟨S_, .f32⟩ : BufTy).Contents (Elt F) → (⟨S50000, .f32⟩ : BufTy).Contents (Elt F)),
    unary main_v142 main_v155 (broadcastInDim S500000x1 ![0] bcast_S500000_S500000x1_0 : (⟨S500000, .i32⟩ : BufTy).Contents (Elt F) → (⟨S500000x1, .i32⟩ : BufTy).Contents (Elt F)),
    ternary main_v154 main_v155 main_v153 main_v156 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_21 (constant S_ .f32 0x3F800000#32),
    unary main_cst_21 main_v157 (broadcastInDim S50000 ![] bcast_S_S50000 : (⟨S_, .f32⟩ : BufTy).Contents (Elt F) → (⟨S50000, .f32⟩ : BufTy).Contents (Elt F)),
    binary main_v156 main_v157 main_v158 (maximumf : (⟨S50000, .f32⟩ : BufTy).Contents (Elt F) → (⟨S50000, .f32⟩ : BufTy).Contents (Elt F) → (⟨S50000, .f32⟩ : BufTy).Contents (Elt F)),
    unary main_v158 main_v159 (broadcastInDim S50000x1 ![0] bcast_S50000_S50000x1_0 : (⟨S50000, .f32⟩ : BufTy).Contents (Elt F) → (⟨S50000x1, .f32⟩ : BufTy).Contents (Elt F)),
    unary main_v159 main_v160 (broadcastInDim S50000x128 ![0, 1] bcast_S50000x1_S50000x128_0_1 : (⟨S50000x1, .f32⟩ : BufTy).Contents (Elt F) → (⟨S50000x128, .f32⟩ : BufTy).Contents (Elt F)),
    binary main_v152 main_v160 main_v161 (Host.divf : (⟨S50000x128, .f32⟩ : BufTy).Contents (Elt F) → (⟨S50000x128, .f32⟩ : BufTy).Contents (Elt F) → (⟨S50000x128, .f32⟩ : BufTy).Contents (Elt F)),
    unary main_v134 main_v162 ((transpose S128x128 [1, 0] · transposes_S128x128_S128x128_1_0) : (⟨S128x128, .f32⟩ : BufTy).Contents (Elt F) → (⟨S128x128, .f32⟩ : BufTy).Contents (Elt F)),
    binary main_v161 main_v162 main_v163 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v136 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v163 main_v165 main_v166 (addf : (⟨S50000x128, .f32⟩ : BufTy).Contents (Elt F) → (⟨S50000x128, .f32⟩ : BufTy).Contents (Elt F) → (⟨S50000x128, .f32⟩ : BufTy).Contents (Elt F)),
    unary main_v138 main_v167 ((transpose S128x128 [1, 0] · transposes_S128x128_S128x128_1_0) : (⟨S128x128, .f32⟩ : BufTy).Contents (Elt F) → (⟨S128x128, .f32⟩ : BufTy).Contents (Elt F)),
    binary main_v10 main_v167 main_v168 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v166 main_v168 main_v169 (addf : (⟨S50000x128, .f32⟩ : BufTy).Contents (Elt F) → (⟨S50000x128, .f32⟩ : BufTy).Contents (Elt F) → (⟨S50000x128, .f32⟩ : BufTy).Contents (Elt F)) ]

theorem ops_c1ts_sub : (ops_c1ts : List (HloOp τ sig (Elt F))).Forall fun op => op.bufs ⊆ tcRefs τ sig := by
  unfold ops_c1ts
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c1ts_fresh : ∀ op ∈ (ops_c1ts : List (HloOp τ sig (Elt F))), op.fresh = ∅ := by
  unfold ops_c1ts
  intro _ h
  repeat (cases h with | head => rfl | tail _ h => ?_)
  exact nomatch h

/-- The buffers these operations write. -/
abbrev wr_c1ts : List (Ref sig .tc) := [main_v133, main_v134, main_v135, main_v136, main_v137, main_v138, main_v139, main_v140, main_v141, main_v142, main_c_16, main_v143, main_v144, main_c_17, main_v145, main_v146, main_v147, main_v148, main_v149, main_cst_18, main_v150, main_v151, main_v152, main_cst_19, main_v153, main_cst_20, main_v154, main_v155, main_v156, main_cst_21, main_v157, main_v158, main_v159, main_v160, main_v161, main_v162, main_v163, main_v164, main_v165, main_v166, main_v167, main_v168, main_v169]

set_option maxRecDepth 8192 in
theorem ops_c1ts_writes : (ops_c1ts : List (HloOp τ sig (Elt F))).Forall fun op =>
    op.writes ⊆ (wr_c1ts.map (Proc.devRef (τ := τ) .tc)).toFinset := by
  unfold ops_c1ts
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c1ts (W : Valuation τ sig (Elt F)) (r : Ref sig .tc) (h : r ∉ wr_c1ts) :
    after ops_c1ts W (Proc.devRef .tc r) = W (Proc.devRef .tc r) :=
  after_of_writes_sub ops_c1ts _ ops_c1ts_writes h

set_option maxRecDepth 8192 in
set_option maxHeartbeats 4300000 in
/-- The relation's output: the mean aggregate of the source features over the edges into each destination node, through the relation's two weight matrices and bias. -/
theorem out_c1ts_v169 (W : Valuation τ sig (Elt F)) :
    after ops_c1ts W (Proc.devRef .tc main_v169) =
      Cert.Stages.sageOut (Cert.Stages.aggMean (W (Proc.devRef .tc main_v21)) (W (Proc.devRef .tc main_arg27)) (Cert.Stages.degF (W (Proc.devRef .tc main_arg27)))) (W (Proc.devRef .tc main_v10)) (Cert.Stages.wAt03 (W (Proc.devRef .tc main_arg11))) (Cert.Stages.bAt03 (W (Proc.devRef .tc main_arg12))) (Cert.Stages.wAt03 (W (Proc.devRef .tc main_arg13))) := by
  unfold ops_c1ts
  after_results_simp <;> rfl

/-! ## Layer 1: each node type's two relations averaged and rectified (operations 199 … 212 of the program). -/

/-- Layer 1: each node type's two relations averaged and rectified (operations 199 … 212 of the program). -/
def ops_cmb1 : List (HloOp τ sig (Elt F)) :=
  [ binary main_v58 main_v169 main_v170 (addf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x3F000000#32),
    unary main_cst_22 main_v171 (broadcastInDim S50000x128 ![] bcast_S_S50000x128 : (⟨S_, .f32⟩ : BufTy).Contents (Elt F) → (⟨S50000x128, .f32⟩ : BufTy).Contents (Elt F)),
    binary main_v170 main_v171 main_v172 (mulf : (⟨S50000x128, .f32⟩ : BufTy).Contents (Elt F) → (⟨S50000x128, .f32⟩ : BufTy).Contents (Elt F) → (⟨S50000x128, .f32⟩ : BufTy).Contents (Elt F)),
    binary main_v95 main_v132 main_v173 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3F000000#32),
    unary main_cst_23 main_v174 (broadcastInDim S50000x128 ![] bcast_S_S50000x128 : (⟨S_, .f32⟩ : BufTy).Contents (Elt F) → (⟨S50000x128, .f32⟩ : BufTy).Contents (Elt F)),
    binary main_v173 main_v174 main_v175 (mulf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v172) (TRef.of (T := ⟨S50000x128, .f32⟩) main_call2_v0) (TRef.of (T := ⟨S50000x128, .f32⟩) main_v176) maximumf,
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v175) (TRef.of (T := ⟨S50000x128, .f32⟩) main_call3_v0) (TRef.of (T := ⟨S50000x128, .f32⟩) main_v177) maximumf ]

theorem ops_cmb1_sub : (ops_cmb1 : List (HloOp τ sig (Elt F))).Forall fun op => op.bufs ⊆ tcRefs τ sig := by
  unfold ops_cmb1
  exact ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

theorem ops_cmb1_fresh : ∀ op ∈ (ops_cmb1 : List (HloOp τ sig (Elt F))), op.fresh = ∅ := by
  unfold ops_cmb1
  intro _ h
  repeat (cases h with | head => rfl | tail _ h => ?_)
  exact nomatch h

/-- The buffers these operations write. -/
abbrev wr_cmb1 : List (Ref sig .tc) := [main_v170, main_cst_22, main_v171, main_v172, main_v173, main_cst_23, main_v174, main_v175, main_call2_cst, main_call2_v0, main_v176, main_call3_cst, main_call3_v0, main_v177]

set_option maxRecDepth 8192 in
theorem ops_cmb1_writes : (ops_cmb1 : List (HloOp τ sig (Elt F))).Forall fun op =>
    op.writes ⊆ (wr_cmb1.map (Proc.devRef (τ := τ) .tc)).toFinset := by
  unfold ops_cmb1
  simp only [List.Forall]
  refine ⟨?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_cmb1 (W : Valuation τ sig (Elt F)) (r : Ref sig .tc) (h : r ∉ wr_cmb1) :
    after ops_cmb1 W (Proc.devRef .tc r) = W (Proc.devRef .tc r) :=
  after_of_writes_sub ops_cmb1 _ ops_cmb1_writes h

set_option maxRecDepth 8192 in
set_option maxHeartbeats 1400000 in
/-- The layer's source-node features. -/
theorem out_cmb1_v176 (W : Valuation τ sig (Elt F)) :
    after ops_cmb1 W (Proc.devRef .tc main_v176) =
      Cert.Stages.relu (Cert.Stages.halfSum (W (Proc.devRef .tc main_v58)) (W (Proc.devRef .tc main_v169))) := by
  unfold ops_cmb1
  after_results_simp <;> rfl

set_option maxRecDepth 8192 in
set_option maxHeartbeats 1400000 in
/-- The layer's target-node features. -/
theorem out_cmb1_v177 (W : Valuation τ sig (Elt F)) :
    after ops_cmb1 W (Proc.devRef .tc main_v177) =
      Cert.Stages.relu (Cert.Stages.halfSum (W (Proc.devRef .tc main_v95)) (W (Proc.devRef .tc main_v132))) := by
  unfold ops_cmb1
  after_results_simp <;> rfl

end Cert.ReferenceIdeal.RefValue

end
-- ==== Proof.RefL2a.lean ====
import proofs.«166951_j44444321579084_2_alg».proof.Proof.Stages
import Idealize.ShloMosaic.Lib.StableHlo.Run

/-!
# The reference's second layer read back: the relations within a node type

Each stretch of the reference program's host operations is read back from ANY contents `W` of the device's
buffers: the stretch's result buffer ends at the stage's function (`Cert.Stages`) of what `W` holds at the
buffers the stretch reads, and every buffer the stretch does not write keeps what `W` holds there.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## Layer 2, relation source→source: the mean aggregate over the relation's edges, then `agg · wlᵀ + bl + h · wrᵀ` (operations 213 … 255 of the program). -/

/-- Layer 2, relation source→source: the mean aggregate over the relation's edges, then `agg · wlᵀ + bl + h · wrᵀ` (operations 213 … 255 of the program). -/
def ops_c2ss : List (HloOp τ sig (Elt F)) :=
  [ unary main_arg11 main_v178 ((extractStridedSlice S1x1x128x128 ![1, 0, 0, 0] · slices_S3x4x128x128_S1x1x128x128_1_0_0_0) : (⟨S3x4x128x128, .f32⟩ : BufTy).Contents (Elt F) → (⟨S1x1x128x128, .f32⟩ : BufTy).Contents (Elt F)),
    reshape main_v178 main_v179 rfl shapeCasts_S1x1x128x128_S128x128,
    unary main_arg12 main_v180 ((extractStridedSlice S1x1x128 ![1, 0, 0] · slices_S3x4x128_S1x1x128_1_0_0) : (⟨S3x4x128, .f32⟩ : BufTy).Contents (Elt F) → (⟨S1x1x128, .f32⟩ : BufTy).Contents (Elt F)),
    reshape main_v180 main_v181 rfl shapeCasts_S1x1x128_S128,
    unary main_arg13 main_v182 ((extractStridedSlice S1x1x128x128 ![1, 0, 0, 0] · slices_S3x4x128x128_S1x1x128x128_1_0_0_0) : (⟨S3x4x128x128, .f32⟩ : BufTy).Contents (Elt F) → (⟨S1x1x128x128, .f32⟩ : BufTy).Contents (Elt F)),
    reshape main_v182 main_v183 rfl shapeCasts_S1x1x128x128_S128x128,
    unary main_arg24 main_v184 ((extractStridedSlice S1x500000 ![0, 0] · slices_S2x500000_S1x500000_0_0) : (⟨S2x500000, .i32⟩ : BufTy).Contents (Elt F) → (⟨S1x500000, .i32⟩ : BufTy).Contents (Elt F)),
    reshape main_v184 main_v185 rfl shapeCasts_S1x500000_S500000,
    unary main_arg24 main_v186 ((extractStridedSlice S1x500000 ![1, 0] · slices_S2x500000_S1x500000_1_0) : (⟨S2x500000, .i32⟩ : BufTy).Contents (Elt F) → (⟨S1x500000, .i32⟩ : BufTy).Contents (Elt F)),
    reshape main_v186 main_v187 rfl shapeCasts_S1x500000_S500000,
    nullary main_c_24 (constantI S_ 32 0#32),
    unary main_c_24 main_v188 (broadcastInDim S500000 ![] bcast_S_S500000 : (⟨S_, .i32⟩ : BufTy).Contents (Elt F) → (⟨S500000, .i32⟩ : BufTy).Contents (Elt F)),
    binary main_v185 main_v188 main_v189 (cmpi .slt : (⟨S500000, .i32⟩ : BufTy).Contents (Elt F) → (⟨S500000, .i32⟩ : BufTy).Contents (Elt F) → (⟨S500000, .i1⟩ : BufTy).Contents (Elt F)),
    nullary main_c_25 (constantI S_ 32 50000#32),
    unary main_c_25 main_v190 (broadcastInDim S500000 ![] bcast_S_S500000 : (⟨S_, .i32⟩ : BufTy).Contents (Elt F) → (⟨S500000, .i32⟩ : BufTy).Contents (Elt F)),
    binary main_v185 main_v190 main_v191 (addi : (⟨S500000, .i32⟩ : BufTy).Contents (Elt F) → (⟨S500000, .i32⟩ : BufTy).Contents (Elt F) → (⟨S500000, .i32⟩ : BufTy).Contents (Elt F)),
    ternary main_v189 main_v191 main_v185 main_v192 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v192 main_v193 (broadcastInDim S500000x1 ![0] bcast_S500000_S500000x1_0 : (⟨S500000, .i32⟩ : BufTy).Contents (Elt F) → (⟨S500000x1, .i32⟩ : BufTy).Contents (Elt F)),
    binary main_v176 main_v193 main_v194 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_26 (constant S_ .f32 0x00000000#32),
    unary main_cst_26 main_v195 (broadcastInDim S50000x128 ![] bcast_S_S50000x128 : (⟨S_, .f32⟩ : BufTy).Contents (Elt F) → (⟨S50000x128, .f32⟩ : BufTy).Contents (Elt F)),
    unary main_v187 main_v196 (broadcastInDim S500000x1 ![0] bcast_S500000_S500000x1_0 : (⟨S500000, .i32⟩ : BufTy).Contents (Elt F) → (⟨S500000x1, .i32⟩ : BufTy).Contents (Elt F)),
    ternary main_v195 main_v196 main_v194 main_v197 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_27 (constant S_ .f32 0x3F800000#32),
    unary main_cst_27 main_v198 (broadcastInDim S500000 ![] bcast_S_S500000 : (⟨S_, .f32⟩ : BufTy).Contents (Elt F) → (⟨S500000, .f32⟩ : BufTy).Contents (Elt F)),
    nullary main_cst_28 (constant S_ .f32 0x00000000#32),
    unary main_cst_28 main_v199 (broadcastInDim S50000 ![] bcast_S_S50000 : (⟨S_, .f32⟩ : BufTy).Contents (Elt F) → (⟨S50000, .f32⟩ : BufTy).Contents (Elt F)),
    unary main_v187 main_v200 (broadcastInDim S500000x1 ![0] bcast_S500000_S500000x1_0 : (⟨S500000, .i32⟩ : BufTy).Contents (Elt F) → (⟨S500000x1, .i32⟩ : BufTy).Contents (Elt F)),
    ternary main_v199 main_v200 main_v198 main_v201 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_29 (constant S_ .f32 0x3F800000#32),
    unary main_cst_29 main_v202 (broadcastInDim S50000 ![] bcast_S_S50000 : (⟨S_, .f32⟩ : BufTy).Contents (Elt F) → (⟨S50000, .f32⟩ : BufTy).Contents (Elt F)),
    binary main_v201 main_v202 main_v203 (maximumf : (⟨S50000, .f32⟩ : BufTy).Contents (Elt F) → (⟨S50000, .f32⟩ : BufTy).Contents (Elt F) → (⟨S50000, .f32⟩ : BufTy).Contents (Elt F)),
    unary main_v203 main_v204 (broadcastInDim S50000x1 ![0] bcast_S50000_S50000x1_0 : (⟨S50000, .f32⟩ : BufTy).Contents (Elt F) → (⟨S50000x1, .f32⟩ : BufTy).Contents (Elt F)),
    unary main_v204 main_v205 (broadcastInDim S50000x128 ![0, 1] bcast_S50000x1_S50000x128_0_1 : (⟨S50000x1, .f32⟩ : BufTy).Contents (Elt F) → (⟨S50000x128, .f32⟩ : BufTy).Contents (Elt F)),
    binary main_v197 main_v205 main_v206 (Host.divf : (⟨S50000x128, .f32⟩ : BufTy).Contents (Elt F) → (⟨S50000x128, .f32⟩ : BufTy).Contents (Elt F) → (⟨S50000x128, .f32⟩ : BufTy).Contents (Elt F)),
    unary main_v179 main_v207 ((transpose S128x128 [1, 0] · transposes_S128x128_S128x128_1_0) : (⟨S128x128, .f32⟩ : BufTy).Contents (Elt F) → (⟨S128x128, .f32⟩ : BufTy).Contents (Elt F)),
    binary main_v206 main_v207 main_v208 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v181 main_v209 (broadcastInDim S1x128 ![1] bcast_S128_S1x128_1 : (⟨S128, .f32⟩ : BufTy).Contents (Elt F) → (⟨S1x128, .f32⟩ : BufTy).Contents (Elt F)),
    unary main_v209 main_v210 (broadcastInDim S50000x128 ![0, 1] bcast_S1x128_S50000x128_0_1 : (⟨S1x128, .f32⟩ : BufTy).Contents (Elt F) → (⟨S50000x128, .f32⟩ : BufTy).Contents (Elt F)),
    binary main_v208 main_v210 main_v211 (addf : (⟨S50000x128, .f32⟩ : BufTy).Contents (Elt F) → (⟨S50000x128, .f32⟩ : BufTy).Contents (Elt F) → (⟨S50000x128, .f32⟩ : BufTy).Contents (Elt F)),
    unary main_v183 main_v212 ((transpose S128x128 [1, 0] · transposes_S128x128_S128x128_1_0) : (⟨S128x128, .f32⟩ : BufTy).Contents (Elt F) → (⟨S128x128, .f32⟩ : BufTy).Contents (Elt F)),
    binary main_v176 main_v212 main_v213 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v211 main_v213 main_v214 (addf : (⟨S50000x128, .f32⟩ : BufTy).Contents (Elt F) → (⟨S50000x128, .f32⟩ : BufTy).Contents (Elt F) → (⟨S50000x128, .f32⟩ : BufTy).Contents (Elt F)) ]

theorem ops_c2ss_sub : (ops_c2ss : List (HloOp τ sig (Elt F))).Forall fun op => op.bufs ⊆ tcRefs τ sig := by
  unfold ops_c2ss
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c2ss_fresh : ∀ op ∈ (ops_c2ss : List (HloOp τ sig (Elt F))), op.fresh = ∅ := by
  unfold ops_c2ss
  intro _ h
  repeat (cases h with | head => rfl | tail _ h => ?_)
  exact nomatch h

/-- The buffers these operations write. -/
abbrev wr_c2ss : List (Ref sig .tc) := [main_v178, main_v179, main_v180, main_v181, main_v182, main_v183, main_v184, main_v185, main_v186, main_v187, main_c_24, main_v188, main_v189, main_c_25, main_v190, main_v191, main_v192, main_v193, main_v194, main_cst_26, main_v195, main_v196, main_v197, main_cst_27, main_v198, main_cst_28, main_v199, main_v200, main_v201, main_cst_29, main_v202, main_v203, main_v204, main_v205, main_v206, main_v207, main_v208, main_v209, main_v210, main_v211, main_v212, main_v213, main_v214]

set_option maxRecDepth 8192 in
theorem ops_c2ss_writes : (ops_c2ss : List (HloOp τ sig (Elt F))).Forall fun op =>
    op.writes ⊆ (wr_c2ss.map (Proc.devRef (τ := τ) .tc)).toFinset := by
  unfold ops_c2ss
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c2ss (W : Valuation τ sig (Elt F)) (r : Ref sig .tc) (h : r ∉ wr_c2ss) :
    after ops_c2ss W (Proc.devRef .tc r) = W (Proc.devRef .tc r) :=
  after_of_writes_sub ops_c2ss _ ops_c2ss_writes h

set_option maxRecDepth 8192 in
set_option maxHeartbeats 4300000 in
/-- The relation's output: the mean aggregate of the source features over the edges into each destination node, through the relation's two weight matrices and bias. -/
theorem out_c2ss_v214 (W : Valuation τ sig (Elt F)) :
    after ops_c2ss W (Proc.devRef .tc main_v214) =
      Cert.Stages.sageOut (Cert.Stages.aggMean (W (Proc.devRef .tc main_v176)) (W (Proc.devRef .tc main_arg24)) (Cert.Stages.degF (W (Proc.devRef .tc main_arg24)))) (W (Proc.devRef .tc main_v176)) (Cert.Stages.wAt10 (W (Proc.devRef .tc main_arg11))) (Cert.Stages.bAt10 (W (Proc.devRef .tc main_arg12))) (Cert.Stages.wAt10 (W (Proc.devRef .tc main_arg13))) := by
  unfold ops_c2ss
  after_results_simp <;> rfl

/-! ## Layer 2, relation target→target: the mean aggregate over the relation's edges, then `agg · wlᵀ + bl + h · wrᵀ` (operations 256 … 298 of the program). -/

/-- Layer 2, relation target→target: the mean aggregate over the relation's edges, then `agg · wlᵀ + bl + h · wrᵀ` (operations 256 … 298 of the program). -/
def ops_c2tt : List (HloOp τ sig (Elt F)) :=
  [ unary main_arg11 main_v215 ((extractStridedSlice S1x1x128x128 ![1, 1, 0, 0] · slices_S3x4x128x128_S1x1x128x128_1_1_0_0) : (⟨S3x4x128x128, .f32⟩ : BufTy).Contents (Elt F) → (⟨S1x1x128x128, .f32⟩ : BufTy).Contents (Elt F)),
    reshape main_v215 main_v216 rfl shapeCasts_S1x1x128x128_S128x128,
    unary main_arg12 main_v217 ((extractStridedSlice S1x1x128 ![1, 1, 0] · slices_S3x4x128_S1x1x128_1_1_0) : (⟨S3x4x128, .f32⟩ : BufTy).Contents (Elt F) → (⟨S1x1x128, .f32⟩ : BufTy).Contents (Elt F)),
    reshape main_v217 main_v218 rfl shapeCasts_S1x1x128_S128,
    unary main_arg13 main_v219 ((extractStridedSlice S1x1x128x128 ![1, 1, 0, 0] · slices_S3x4x128x128_S1x1x128x128_1_1_0_0) : (⟨S3x4x128x128, .f32⟩ : BufTy).Contents (Elt F) → (⟨S1x1x128x128, .f32⟩ : BufTy).Contents (Elt F)),
    reshape main_v219 main_v220 rfl shapeCasts_S1x1x128x128_S128x128,
    unary main_arg25 main_v221 ((extractStridedSlice S1x500000 ![0, 0] · slices_S2x500000_S1x500000_0_0) : (⟨S2x500000, .i32⟩ : BufTy).Contents (Elt F) → (⟨S1x500000, .i32⟩ : BufTy).Contents (Elt F)),
    reshape main_v221 main_v222 rfl shapeCasts_S1x500000_S500000,
    unary main_arg25 main_v223 ((extractStridedSlice S1x500000 ![1, 0] · slices_S2x500000_S1x500000_1_0) : (⟨S2x500000, .i32⟩ : BufTy).Contents (Elt F) → (⟨S1x500000, .i32⟩ : BufTy).Contents (Elt F)),
    reshape main_v223 main_v224 rfl shapeCasts_S1x500000_S500000,
    nullary main_c_30 (constantI S_ 32 0#32),
    unary main_c_30 main_v225 (broadcastInDim S500000 ![] bcast_S_S500000 : (⟨S_, .i32⟩ : BufTy).Contents (Elt F) → (⟨S500000, .i32⟩ : BufTy).Contents (Elt F)),
    binary main_v222 main_v225 main_v226 (cmpi .slt : (⟨S500000, .i32⟩ : BufTy).Contents (Elt F) → (⟨S500000, .i32⟩ : BufTy).Contents (Elt F) → (⟨S500000, .i1⟩ : BufTy).Contents (Elt F)),
    nullary main_c_31 (constantI S_ 32 50000#32),
    unary main_c_31 main_v227 (broadcastInDim S500000 ![] bcast_S_S500000 : (⟨S_, .i32⟩ : BufTy).Contents (Elt F) → (⟨S500000, .i32⟩ : BufTy).Contents (Elt F)),
    binary main_v222 main_v227 main_v228 (addi : (⟨S500000, .i32⟩ : BufTy).Contents (Elt F) → (⟨S500000, .i32⟩ : BufTy).Contents (Elt F) → (⟨S500000, .i32⟩ : BufTy).Contents (Elt F)),
    ternary main_v226 main_v228 main_v222 main_v229 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v229 main_v230 (broadcastInDim S500000x1 ![0] bcast_S500000_S500000x1_0 : (⟨S500000, .i32⟩ : BufTy).Contents (Elt F) → (⟨S500000x1, .i32⟩ : BufTy).Contents (Elt F)),
    binary main_v177 main_v230 main_v231 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_32 (constant S_ .f32 0x00000000#32),
    unary main_cst_32 main_v232 (broadcastInDim S50000x128 ![] bcast_S_S50000x128 : (⟨S_, .f32⟩ : BufTy).Contents (Elt F) → (⟨S50000x128, .f32⟩ : BufTy).Contents (Elt F)),
    unary main_v224 main_v233 (broadcastInDim S500000x1 ![0] bcast_S500000_S500000x1_0 : (⟨S500000, .i32⟩ : BufTy).Contents (Elt F) → (⟨S500000x1, .i32⟩ : BufTy).Contents (Elt F)),
    ternary main_v232 main_v233 main_v231 main_v234 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_33 (constant S_ .f32 0x3F800000#32),
    unary main_cst_33 main_v235 (broadcastInDim S500000 ![] bcast_S_S500000 : (⟨S_, .f32⟩ : BufTy).Contents (Elt F) → (⟨S500000, .f32⟩ : BufTy).Contents (Elt F)),
    nullary main_cst_34 (constant S_ .f32 0x00000000#32),
    unary main_cst_34 main_v236 (broadcastInDim S50000 ![] bcast_S_S50000 : (⟨S_, .f32⟩ : BufTy).Contents (Elt F) → (⟨S50000, .f32⟩ : BufTy).Contents (Elt F)),
    unary main_v224 main_v237 (broadcastInDim S500000x1 ![0] bcast_S500000_S500000x1_0 : (⟨S500000, .i32⟩ : BufTy).Contents (Elt F) → (⟨S500000x1, .i32⟩ : BufTy).Contents (Elt F)),
    ternary main_v236 main_v237 main_v235 main_v238 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_35 (constant S_ .f32 0x3F800000#32),
    unary main_cst_35 main_v239 (broadcastInDim S50000 ![] bcast_S_S50000 : (⟨S_, .f32⟩ : BufTy).Contents (Elt F) → (⟨S50000, .f32⟩ : BufTy).Contents (Elt F)),
    binary main_v238 main_v239 main_v240 (maximumf : (⟨S50000, .f32⟩ : BufTy).Contents (Elt F) → (⟨S50000, .f32⟩ : BufTy).Contents (Elt F) → (⟨S50000, .f32⟩ : BufTy).Contents (Elt F)),
    unary main_v240 main_v241 (broadcastInDim S50000x1 ![0] bcast_S50000_S50000x1_0 : (⟨S50000, .f32⟩ : BufTy).Contents (Elt F) → (⟨S50000x1, .f32⟩ : BufTy).Contents (Elt F)),
    unary main_v241 main_v242 (broadcastInDim S50000x128 ![0, 1] bcast_S50000x1_S50000x128_0_1 : (⟨S50000x1, .f32⟩ : BufTy).Contents (Elt F) → (⟨S50000x128, .f32⟩ : BufTy).Contents (Elt F)),
    binary main_v234 main_v242 main_v243 (Host.divf : (⟨S50000x128, .f32⟩ : BufTy).Contents (Elt F) → (⟨S50000x128, .f32⟩ : BufTy).Contents (Elt F) → (⟨S50000x128, .f32⟩ : BufTy).Contents (Elt F)),
    unary main_v216 main_v244 ((transpose S128x128 [1, 0] · transposes_S128x128_S128x128_1_0) : (⟨S128x128, .f32⟩ : BufTy).Contents (Elt F) → (⟨S128x128, .f32⟩ : BufTy).Contents (Elt F)),
    binary main_v243 main_v244 main_v245 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v218 main_v246 (broadcastInDim S1x128 ![1] bcast_S128_S1x128_1 : (⟨S128, .f32⟩ : BufTy).Contents (Elt F) → (⟨S1x128, .f32⟩ : BufTy).Contents (Elt F)),
    unary main_v246 main_v247 (broadcastInDim S50000x128 ![0, 1] bcast_S1x128_S50000x128_0_1 : (⟨S1x128, .f32⟩ : BufTy).Contents (Elt F) → (⟨S50000x128, .f32⟩ : BufTy).Contents (Elt F)),
    binary main_v245 main_v247 main_v248 (addf : (⟨S50000x128, .f32⟩ : BufTy).Contents (Elt F) → (⟨S50000x128, .f32⟩ : BufTy).Contents (Elt F) → (⟨S50000x128, .f32⟩ : BufTy).Contents (Elt F)),
    unary main_v220 main_v249 ((transpose S128x128 [1, 0] · transposes_S128x128_S128x128_1_0) : (⟨S128x128, .f32⟩ : BufTy).Contents (Elt F) → (⟨S128x128, .f32⟩ : BufTy).Contents (Elt F)),
    binary main_v177 main_v249 main_v250 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v248 main_v250 main_v251 (addf : (⟨S50000x128, .f32⟩ : BufTy).Contents (Elt F) → (⟨S50000x128, .f32⟩ : BufTy).Contents (Elt F) → (⟨S50000x128, .f32⟩ : BufTy).Contents (Elt F)) ]

theorem ops_c2tt_sub : (ops_c2tt : List (HloOp τ sig (Elt F))).Forall fun op => op.bufs ⊆ tcRefs τ sig := by
  unfold ops_c2tt
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c2tt_fresh : ∀ op ∈ (ops_c2tt : List (HloOp τ sig (Elt F))), op.fresh = ∅ := by
  unfold ops_c2tt
  intro _ h
  repeat (cases h with | head => rfl | tail _ h => ?_)
  exact nomatch h

/-- The buffers these operations write. -/
abbrev wr_c2tt : List (Ref sig .tc) := [main_v215, main_v216, main_v217, main_v218, main_v219, main_v220, main_v221, main_v222, main_v223, main_v224, main_c_30, main_v225, main_v226, main_c_31, main_v227, main_v228, main_v229, main_v230, main_v231, main_cst_32, main_v232, main_v233, main_v234, main_cst_33, main_v235, main_cst_34, main_v236, main_v237, main_v238, main_cst_35, main_v239, main_v240, main_v241, main_v242, main_v243, main_v244, main_v245, main_v246, main_v247, main_v248, main_v249, main_v250, main_v251]

set_option maxRecDepth 8192 in
theorem ops_c2tt_writes : (ops_c2tt : List (HloOp τ sig (Elt F))).Forall fun op =>
    op.writes ⊆ (wr_c2tt.map (Proc.devRef (τ := τ) .tc)).toFinset := by
  unfold ops_c2tt
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c2tt (W : Valuation τ sig (Elt F)) (r : Ref sig .tc) (h : r ∉ wr_c2tt) :
    after ops_c2tt W (Proc.devRef .tc r) = W (Proc.devRef .tc r) :=
  after_of_writes_sub ops_c2tt _ ops_c2tt_writes h

set_option maxRecDepth 8192 in
set_option maxHeartbeats 4300000 in
/-- The relation's output: the mean aggregate of the source features over the edges into each destination node, through the relation's two weight matrices and bias. -/
theorem out_c2tt_v251 (W : Valuation τ sig (Elt F)) :
    after ops_c2tt W (Proc.devRef .tc main_v251) =
      Cert.Stages.sageOut (Cert.Stages.aggMean (W (Proc.devRef .tc main_v177)) (W (Proc.devRef .tc main_arg25)) (Cert.Stages.degF (W (Proc.devRef .tc main_arg25)))) (W (Proc.devRef .tc main_v177)) (Cert.Stages.wAt11 (W (Proc.devRef .tc main_arg11))) (Cert.Stages.bAt11 (W (Proc.devRef .tc main_arg12))) (Cert.Stages.wAt11 (W (Proc.devRef .tc main_arg13))) := by
  unfold ops_c2tt
  after_results_simp <;> rfl

end Cert.ReferenceIdeal.RefValue

end
-- ==== Proof.RefL2b.lean ====
import proofs.«166951_j44444321579084_2_alg».proof.Proof.Stages
import Idealize.ShloMosaic.Lib.StableHlo.Run

/-!
# The reference's second layer read back: the relations across node types, and the combination

Each stretch of the reference program's host operations is read back from ANY contents `W` of the device's
buffers: the stretch's result buffer ends at the stage's function (`Cert.Stages`) of what `W` holds at the
buffers the stretch reads, and every buffer the stretch does not write keeps what `W` holds there.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## Layer 2, relation source→target: the mean aggregate over the relation's edges, then `agg · wlᵀ + bl + h · wrᵀ` (operations 299 … 341 of the program). -/

/-- Layer 2, relation source→target: the mean aggregate over the relation's edges, then `agg · wlᵀ + bl + h · wrᵀ` (operations 299 … 341 of the program). -/
def ops_c2st : List (HloOp τ sig (Elt F)) :=
  [ unary main_arg11 main_v252 ((extractStridedSlice S1x1x128x128 ![1, 2, 0, 0] · slices_S3x4x128x128_S1x1x128x128_1_2_0_0) : (⟨S3x4x128x128, .f32⟩ : BufTy).Contents (Elt F) → (⟨S1x1x128x128, .f32⟩ : BufTy).Contents (Elt F)),
    reshape main_v252 main_v253 rfl shapeCasts_S1x1x128x128_S128x128,
    unary main_arg12 main_v254 ((extractStridedSlice S1x1x128 ![1, 2, 0] · slices_S3x4x128_S1x1x128_1_2_0) : (⟨S3x4x128, .f32⟩ : BufTy).Contents (Elt F) → (⟨S1x1x128, .f32⟩ : BufTy).Contents (Elt F)),
    reshape main_v254 main_v255 rfl shapeCasts_S1x1x128_S128,
    unary main_arg13 main_v256 ((extractStridedSlice S1x1x128x128 ![1, 2, 0, 0] · slices_S3x4x128x128_S1x1x128x128_1_2_0_0) : (⟨S3x4x128x128, .f32⟩ : BufTy).Contents (Elt F) → (⟨S1x1x128x128, .f32⟩ : BufTy).Contents (Elt F)),
    reshape main_v256 main_v257 rfl shapeCasts_S1x1x128x128_S128x128,
    unary main_arg26 main_v258 ((extractStridedSlice S1x500000 ![0, 0] · slices_S2x500000_S1x500000_0_0) : (⟨S2x500000, .i32⟩ : BufTy).Contents (Elt F) → (⟨S1x500000, .i32⟩ : BufTy).Contents (Elt F)),
    reshape main_v258 main_v259 rfl shapeCasts_S1x500000_S500000,
    unary main_arg26 main_v260 ((extractStridedSlice S1x500000 ![1, 0] · slices_S2x500000_S1x500000_1_0) : (⟨S2x500000, .i32⟩ : BufTy).Contents (Elt F) → (⟨S1x500000, .i32⟩ : BufTy).Contents (Elt F)),
    reshape main_v260 main_v261 rfl shapeCasts_S1x500000_S500000,
    nullary main_c_36 (constantI S_ 32 0#32),
    unary main_c_36 main_v262 (broadcastInDim S500000 ![] bcast_S_S500000 : (⟨S_, .i32⟩ : BufTy).Contents (Elt F) → (⟨S500000, .i32⟩ : BufTy).Contents (Elt F)),
    binary main_v259 main_v262 main_v263 (cmpi .slt : (⟨S500000, .i32⟩ : BufTy).Contents (Elt F) → (⟨S500000, .i32⟩ : BufTy).Contents (Elt F) → (⟨S500000, .i1⟩ : BufTy).Contents (Elt F)),
    nullary main_c_37 (constantI S_ 32 50000#32),
    unary main_c_37 main_v264 (broadcastInDim S500000 ![] bcast_S_S500000 : (⟨S_, .i32⟩ : BufTy).Contents (Elt F) → (⟨S500000, .i32⟩ : BufTy).Contents (Elt F)),
    binary main_v259 main_v264 main_v265 (addi : (⟨S500000, .i32⟩ : BufTy).Contents (Elt F) → (⟨S500000, .i32⟩ : BufTy).Contents (Elt F) → (⟨S500000, .i32⟩ : BufTy).Contents (Elt F)),
    ternary main_v263 main_v265 main_v259 main_v266 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v266 main_v267 (broadcastInDim S500000x1 ![0] bcast_S500000_S500000x1_0 : (⟨S500000, .i32⟩ : BufTy).Contents (Elt F) → (⟨S500000x1, .i32⟩ : BufTy).Contents (Elt F)),
    binary main_v176 main_v267 main_v268 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_38 (constant S_ .f32 0x00000000#32),
    unary main_cst_38 main_v269 (broadcastInDim S50000x128 ![] bcast_S_S50000x128 : (⟨S_, .f32⟩ : BufTy).Contents (Elt F) → (⟨S50000x128, .f32⟩ : BufTy).Contents (Elt F)),
    unary main_v261 main_v270 (broadcastInDim S500000x1 ![0] bcast_S500000_S500000x1_0 : (⟨S500000, .i32⟩ : BufTy).Contents (Elt F) → (⟨S500000x1, .i32⟩ : BufTy).Contents (Elt F)),
    ternary main_v269 main_v270 main_v268 main_v271 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_39 (constant S_ .f32 0x3F800000#32),
    unary main_cst_39 main_v272 (broadcastInDim S500000 ![] bcast_S_S500000 : (⟨S_, .f32⟩ : BufTy).Contents (Elt F) → (⟨S500000, .f32⟩ : BufTy).Contents (Elt F)),
    nullary main_cst_40 (constant S_ .f32 0x00000000#32),
    unary main_cst_40 main_v273 (broadcastInDim S50000 ![] bcast_S_S50000 : (⟨S_, .f32⟩ : BufTy).Contents (Elt F) → (⟨S50000, .f32⟩ : BufTy).Contents (Elt F)),
    unary main_v261 main_v274 (broadcastInDim S500000x1 ![0] bcast_S500000_S500000x1_0 : (⟨S500000, .i32⟩ : BufTy).Contents (Elt F) → (⟨S500000x1, .i32⟩ : BufTy).Contents (Elt F)),
    ternary main_v273 main_v274 main_v272 main_v275 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_41 (constant S_ .f32 0x3F800000#32),
    unary main_cst_41 main_v276 (broadcastInDim S50000 ![] bcast_S_S50000 : (⟨S_, .f32⟩ : BufTy).Contents (Elt F) → (⟨S50000, .f32⟩ : BufTy).Contents (Elt F)),
    binary main_v275 main_v276 main_v277 (maximumf : (⟨S50000, .f32⟩ : BufTy).Contents (Elt F) → (⟨S50000, .f32⟩ : BufTy).Contents (Elt F) → (⟨S50000, .f32⟩ : BufTy).Contents (Elt F)),
    unary main_v277 main_v278 (broadcastInDim S50000x1 ![0] bcast_S50000_S50000x1_0 : (⟨S50000, .f32⟩ : BufTy).Contents (Elt F) → (⟨S50000x1, .f32⟩ : BufTy).Contents (Elt F)),
    unary main_v278 main_v279 (broadcastInDim S50000x128 ![0, 1] bcast_S50000x1_S50000x128_0_1 : (⟨S50000x1, .f32⟩ : BufTy).Contents (Elt F) → (⟨S50000x128, .f32⟩ : BufTy).Contents (Elt F)),
    binary main_v271 main_v279 main_v280 (Host.divf : (⟨S50000x128, .f32⟩ : BufTy).Contents (Elt F) → (⟨S50000x128, .f32⟩ : BufTy).Contents (Elt F) → (⟨S50000x128, .f32⟩ : BufTy).Contents (Elt F)),
    unary main_v253 main_v281 ((transpose S128x128 [1, 0] · transposes_S128x128_S128x128_1_0) : (⟨S128x128, .f32⟩ : BufTy).Contents (Elt F) → (⟨S128x128, .f32⟩ : BufTy).Contents (Elt F)),
    binary main_v280 main_v281 main_v282 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v255 main_v283 (broadcastInDim S1x128 ![1] bcast_S128_S1x128_1 : (⟨S128, .f32⟩ : BufTy).Contents (Elt F) → (⟨S1x128, .f32⟩ : BufTy).Contents (Elt F)),
    unary main_v283 main_v284 (broadcastInDim S50000x128 ![0, 1] bcast_S1x128_S50000x128_0_1 : (⟨S1x128, .f32⟩ : BufTy).Contents (Elt F) → (⟨S50000x128, .f32⟩ : BufTy).Contents (Elt F)),
    binary main_v282 main_v284 main_v285 (addf : (⟨S50000x128, .f32⟩ : BufTy).Contents (Elt F) → (⟨S50000x128, .f32⟩ : BufTy).Contents (Elt F) → (⟨S50000x128, .f32⟩ : BufTy).Contents (Elt F)),
    unary main_v257 main_v286 ((transpose S128x128 [1, 0] · transposes_S128x128_S128x128_1_0) : (⟨S128x128, .f32⟩ : BufTy).Contents (Elt F) → (⟨S128x128, .f32⟩ : BufTy).Contents (Elt F)),
    binary main_v177 main_v286 main_v287 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v285 main_v287 main_v288 (addf : (⟨S50000x128, .f32⟩ : BufTy).Contents (Elt F) → (⟨S50000x128, .f32⟩ : BufTy).Contents (Elt F) → (⟨S50000x128, .f32⟩ : BufTy).Contents (Elt F)) ]

theorem ops_c2st_sub : (ops_c2st : List (HloOp τ sig (Elt F))).Forall fun op => op.bufs ⊆ tcRefs τ sig := by
  unfold ops_c2st
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c2st_fresh : ∀ op ∈ (ops_c2st : List (HloOp τ sig (Elt F))), op.fresh = ∅ := by
  unfold ops_c2st
  intro _ h
  repeat (cases h with | head => rfl | tail _ h => ?_)
  exact nomatch h

/-- The buffers these operations write. -/
abbrev wr_c2st : List (Ref sig .tc) := [main_v252, main_v253, main_v254, main_v255, main_v256, main_v257, main_v258, main_v259, main_v260, main_v261, main_c_36, main_v262, main_v263, main_c_37, main_v264, main_v265, main_v266, main_v267, main_v268, main_cst_38, main_v269, main_v270, main_v271, main_cst_39, main_v272, main_cst_40, main_v273, main_v274, main_v275, main_cst_41, main_v276, main_v277, main_v278, main_v279, main_v280, main_v281, main_v282, main_v283, main_v284, main_v285, main_v286, main_v287, main_v288]

set_option maxRecDepth 8192 in
theorem ops_c2st_writes : (ops_c2st : List (HloOp τ sig (Elt F))).Forall fun op =>
    op.writes ⊆ (wr_c2st.map (Proc.devRef (τ := τ) .tc)).toFinset := by
  unfold ops_c2st
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c2st (W : Valuation τ sig (Elt F)) (r : Ref sig .tc) (h : r ∉ wr_c2st) :
    after ops_c2st W (Proc.devRef .tc r) = W (Proc.devRef .tc r) :=
  after_of_writes_sub ops_c2st _ ops_c2st_writes h

set_option maxRecDepth 8192 in
set_option maxHeartbeats 4300000 in
/-- The relation's output: the mean aggregate of the source features over the edges into each destination node, through the relation's two weight matrices and bias. -/
theorem out_c2st_v288 (W : Valuation τ sig (Elt F)) :
    after ops_c2st W (Proc.devRef .tc main_v288) =
      Cert.Stages.sageOut (Cert.Stages.aggMean (W (Proc.devRef .tc main_v176)) (W (Proc.devRef .tc main_arg26)) (Cert.Stages.degF (W (Proc.devRef .tc main_arg26)))) (W (Proc.devRef .tc main_v177)) (Cert.Stages.wAt12 (W (Proc.devRef .tc main_arg11))) (Cert.Stages.bAt12 (W (Proc.devRef .tc main_arg12))) (Cert.Stages.wAt12 (W (Proc.devRef .tc main_arg13))) := by
  unfold ops_c2st
  after_results_simp <;> rfl

/-! ## Layer 2, relation target→source: the mean aggregate over the relation's edges, then `agg · wlᵀ + bl + h · wrᵀ` (operations 342 … 384 of the program). -/

/-- Layer 2, relation target→source: the mean aggregate over the relation's edges, then `agg · wlᵀ + bl + h · wrᵀ` (operations 342 … 384 of the program). -/
def ops_c2ts : List (HloOp τ sig (Elt F)) :=
  [ unary main_arg11 main_v289 ((extractStridedSlice S1x1x128x128 ![1, 3, 0, 0] · slices_S3x4x128x128_S1x1x128x128_1_3_0_0) : (⟨S3x4x128x128, .f32⟩ : BufTy).Contents (Elt F) → (⟨S1x1x128x128, .f32⟩ : BufTy).Contents (Elt F)),
    reshape main_v289 main_v290 rfl shapeCasts_S1x1x128x128_S128x128,
    unary main_arg12 main_v291 ((extractStridedSlice S1x1x128 ![1, 3, 0] · slices_S3x4x128_S1x1x128_1_3_0) : (⟨S3x4x128, .f32⟩ : BufTy).Contents (Elt F) → (⟨S1x1x128, .f32⟩ : BufTy).Contents (Elt F)),
    reshape main_v291 main_v292 rfl shapeCasts_S1x1x128_S128,
    unary main_arg13 main_v293 ((extractStridedSlice S1x1x128x128 ![1, 3, 0, 0] · slices_S3x4x128x128_S1x1x128x128_1_3_0_0) : (⟨S3x4x128x128, .f32⟩ : BufTy).Contents (Elt F) → (⟨S1x1x128x128, .f32⟩ : BufTy).Contents (Elt F)),
    reshape main_v293 main_v294 rfl shapeCasts_S1x1x128x128_S128x128,
    unary main_arg27 main_v295 ((extractStridedSlice S1x500000 ![0, 0] · slices_S2x500000_S1x500000_0_0) : (⟨S2x500000, .i32⟩ : BufTy).Contents (Elt F) → (⟨S1x500000, .i32⟩ : BufTy).Contents (Elt F)),
    reshape main_v295 main_v296 rfl shapeCasts_S1x500000_S500000,
    unary main_arg27 main_v297 ((extractStridedSlice S1x500000 ![1, 0] · slices_S2x500000_S1x500000_1_0) : (⟨S2x500000, .i32⟩ : BufTy).Contents (Elt F) → (⟨S1x500000, .i32⟩ : BufTy).Contents (Elt F)),
    reshape main_v297 main_v298 rfl shapeCasts_S1x500000_S500000,
    nullary main_c_42 (constantI S_ 32 0#32),
    unary main_c_42 main_v299 (broadcastInDim S500000 ![] bcast_S_S500000 : (⟨S_, .i32⟩ : BufTy).Contents (Elt F) → (⟨S500000, .i32⟩ : BufTy).Contents (Elt F)),
    binary main_v296 main_v299 main_v300 (cmpi .slt : (⟨S500000, .i32⟩ : BufTy).Contents (Elt F) → (⟨S500000, .i32⟩ : BufTy).Contents (Elt F) → (⟨S500000, .i1⟩ : BufTy).Contents (Elt F)),
    nullary main_c_43 (constantI S_ 32 50000#32),
    unary main_c_43 main_v301 (broadcastInDim S500000 ![] bcast_S_S500000 : (⟨S_, .i32⟩ : BufTy).Contents (Elt F) → (⟨S500000, .i32⟩ : BufTy).Contents (Elt F)),
    binary main_v296 main_v301 main_v302 (addi : (⟨S500000, .i32⟩ : BufTy).Contents (Elt F) → (⟨S500000, .i32⟩ : BufTy).Contents (Elt F) → (⟨S500000, .i32⟩ : BufTy).Contents (Elt F)),
    ternary main_v300 main_v302 main_v296 main_v303 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v303 main_v304 (broadcastInDim S500000x1 ![0] bcast_S500000_S500000x1_0 : (⟨S500000, .i32⟩ : BufTy).Contents (Elt F) → (⟨S500000x1, .i32⟩ : BufTy).Contents (Elt F)),
    binary main_v177 main_v304 main_v305 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_44 (constant S_ .f32 0x00000000#32),
    unary main_cst_44 main_v306 (broadcastInDim S50000x128 ![] bcast_S_S50000x128 : (⟨S_, .f32⟩ : BufTy).Contents (Elt F) → (⟨S50000x128, .f32⟩ : BufTy).Contents (Elt F)),
    unary main_v298 main_v307 (broadcastInDim S500000x1 ![0] bcast_S500000_S500000x1_0 : (⟨S500000, .i32⟩ : BufTy).Contents (Elt F) → (⟨S500000x1, .i32⟩ : BufTy).Contents (Elt F)),
    ternary main_v306 main_v307 main_v305 main_v308 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_45 (constant S_ .f32 0x3F800000#32),
    unary main_cst_45 main_v309 (broadcastInDim S500000 ![] bcast_S_S500000 : (⟨S_, .f32⟩ : BufTy).Contents (Elt F) → (⟨S500000, .f32⟩ : BufTy).Contents (Elt F)),
    nullary main_cst_46 (constant S_ .f32 0x00000000#32),
    unary main_cst_46 main_v310 (broadcastInDim S50000 ![] bcast_S_S50000 : (⟨S_, .f32⟩ : BufTy).Contents (Elt F) → (⟨S50000, .f32⟩ : BufTy).Contents (Elt F)),
    unary main_v298 main_v311 (broadcastInDim S500000x1 ![0] bcast_S500000_S500000x1_0 : (⟨S500000, .i32⟩ : BufTy).Contents (Elt F) → (⟨S500000x1, .i32⟩ : BufTy).Contents (Elt F)),
    ternary main_v310 main_v311 main_v309 main_v312 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_47 (constant S_ .f32 0x3F800000#32),
    unary main_cst_47 main_v313 (broadcastInDim S50000 ![] bcast_S_S50000 : (⟨S_, .f32⟩ : BufTy).Contents (Elt F) → (⟨S50000, .f32⟩ : BufTy).Contents (Elt F)),
    binary main_v312 main_v313 main_v314 (maximumf : (⟨S50000, .f32⟩ : BufTy).Contents (Elt F) → (⟨S50000, .f32⟩ : BufTy).Contents (Elt F) → (⟨S50000, .f32⟩ : BufTy).Contents (Elt F)),
    unary main_v314 main_v315 (broadcastInDim S50000x1 ![0] bcast_S50000_S50000x1_0 : (⟨S50000, .f32⟩ : BufTy).Contents (Elt F) → (⟨S50000x1, .f32⟩ : BufTy).Contents (Elt F)),
    unary main_v315 main_v316 (broadcastInDim S50000x128 ![0, 1] bcast_S50000x1_S50000x128_0_1 : (⟨S50000x1, .f32⟩ : BufTy).Contents (Elt F) → (⟨S50000x128, .f32⟩ : BufTy).Contents (Elt F)),
    binary main_v308 main_v316 main_v317 (Host.divf : (⟨S50000x128, .f32⟩ : BufTy).Contents (Elt F) → (⟨S50000x128, .f32⟩ : BufTy).Contents (Elt F) → (⟨S50000x128, .f32⟩ : BufTy).Contents (Elt F)),
    unary main_v290 main_v318 ((transpose S128x128 [1, 0] · transposes_S128x128_S128x128_1_0) : (⟨S128x128, .f32⟩ : BufTy).Contents (Elt F) → (⟨S128x128, .f32⟩ : BufTy).Contents (Elt F)),
    binary main_v317 main_v318 main_v319 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v292 main_v320 (broadcastInDim S1x128 ![1] bcast_S128_S1x128_1 : (⟨S128, .f32⟩ : BufTy).Contents (Elt F) → (⟨S1x128, .f32⟩ : BufTy).Contents (Elt F)),
    unary main_v320 main_v321 (broadcastInDim S50000x128 ![0, 1] bcast_S1x128_S50000x128_0_1 : (⟨S1x128, .f32⟩ : BufTy).Contents (Elt F) → (⟨S50000x128, .f32⟩ : BufTy).Contents (Elt F)),
    binary main_v319 main_v321 main_v322 (addf : (⟨S50000x128, .f32⟩ : BufTy).Contents (Elt F) → (⟨S50000x128, .f32⟩ : BufTy).Contents (Elt F) → (⟨S50000x128, .f32⟩ : BufTy).Contents (Elt F)),
    unary main_v294 main_v323 ((transpose S128x128 [1, 0] · transposes_S128x128_S128x128_1_0) : (⟨S128x128, .f32⟩ : BufTy).Contents (Elt F) → (⟨S128x128, .f32⟩ : BufTy).Contents (Elt F)),
    binary main_v176 main_v323 main_v324 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v322 main_v324 main_v325 (addf : (⟨S50000x128, .f32⟩ : BufTy).Contents (Elt F) → (⟨S50000x128, .f32⟩ : BufTy).Contents (Elt F) → (⟨S50000x128, .f32⟩ : BufTy).Contents (Elt F)) ]

theorem ops_c2ts_sub : (ops_c2ts : List (HloOp τ sig (Elt F))).Forall fun op => op.bufs ⊆ tcRefs τ sig := by
  unfold ops_c2ts
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c2ts_fresh : ∀ op ∈ (ops_c2ts : List (HloOp τ sig (Elt F))), op.fresh = ∅ := by
  unfold ops_c2ts
  intro _ h
  repeat (cases h with | head => rfl | tail _ h => ?_)
  exact nomatch h

/-- The buffers these operations write. -/
abbrev wr_c2ts : List (Ref sig .tc) := [main_v289, main_v290, main_v291, main_v292, main_v293, main_v294, main_v295, main_v296, main_v297, main_v298, main_c_42, main_v299, main_v300, main_c_43, main_v301, main_v302, main_v303, main_v304, main_v305, main_cst_44, main_v306, main_v307, main_v308, main_cst_45, main_v309, main_cst_46, main_v310, main_v311, main_v312, main_cst_47, main_v313, main_v314, main_v315, main_v316, main_v317, main_v318, main_v319, main_v320, main_v321, main_v322, main_v323, main_v324, main_v325]

set_option maxRecDepth 8192 in
theorem ops_c2ts_writes : (ops_c2ts : List (HloOp τ sig (Elt F))).Forall fun op =>
    op.writes ⊆ (wr_c2ts.map (Proc.devRef (τ := τ) .tc)).toFinset := by
  unfold ops_c2ts
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c2ts (W : Valuation τ sig (Elt F)) (r : Ref sig .tc) (h : r ∉ wr_c2ts) :
    after ops_c2ts W (Proc.devRef .tc r) = W (Proc.devRef .tc r) :=
  after_of_writes_sub ops_c2ts _ ops_c2ts_writes h

set_option maxRecDepth 8192 in
set_option maxHeartbeats 4300000 in
/-- The relation's output: the mean aggregate of the source features over the edges into each destination node, through the relation's two weight matrices and bias. -/
theorem out_c2ts_v325 (W : Valuation τ sig (Elt F)) :
    after ops_c2ts W (Proc.devRef .tc main_v325) =
      Cert.Stages.sageOut (Cert.Stages.aggMean (W (Proc.devRef .tc main_v177)) (W (Proc.devRef .tc main_arg27)) (Cert.Stages.degF (W (Proc.devRef .tc main_arg27)))) (W (Proc.devRef .tc main_v176)) (Cert.Stages.wAt13 (W (Proc.devRef .tc main_arg11))) (Cert.Stages.bAt13 (W (Proc.devRef .tc main_arg12))) (Cert.Stages.wAt13 (W (Proc.devRef .tc main_arg13))) := by
  unfold ops_c2ts
  after_results_simp <;> rfl

/-! ## Layer 2: each node type's two relations averaged, the previous layer added, and rectified (operations 385 … 400 of the program). -/

/-- Layer 2: each node type's two relations averaged, the previous layer added, and rectified (operations 385 … 400 of the program). -/
def ops_cmb2 : List (HloOp τ sig (Elt F)) :=
  [ binary main_v214 main_v325 main_v326 (addf : (⟨S50000x128, .f32⟩ : BufTy).Contents (Elt F) → (⟨S50000x128, .f32⟩ : BufTy).Contents (Elt F) → (⟨S50000x128, .f32⟩ : BufTy).Contents (Elt F)),
    nullary main_cst_48 (constant S_ .f32 0x3F000000#32),
    unary main_cst_48 main_v327 (broadcastInDim S50000x128 ![] bcast_S_S50000x128 : (⟨S_, .f32⟩ : BufTy).Contents (Elt F) → (⟨S50000x128, .f32⟩ : BufTy).Contents (Elt F)),
    binary main_v326 main_v327 main_v328 (mulf : (⟨S50000x128, .f32⟩ : BufTy).Contents (Elt F) → (⟨S50000x128, .f32⟩ : BufTy).Contents (Elt F) → (⟨S50000x128, .f32⟩ : BufTy).Contents (Elt F)),
    binary main_v251 main_v288 main_v329 (addf : (⟨S50000x128, .f32⟩ : BufTy).Contents (Elt F) → (⟨S50000x128, .f32⟩ : BufTy).Contents (Elt F) → (⟨S50000x128, .f32⟩ : BufTy).Contents (Elt F)),
    nullary main_cst_49 (constant S_ .f32 0x3F000000#32),
    unary main_cst_49 main_v330 (broadcastInDim S50000x128 ![] bcast_S_S50000x128 : (⟨S_, .f32⟩ : BufTy).Contents (Elt F) → (⟨S50000x128, .f32⟩ : BufTy).Contents (Elt F)),
    binary main_v329 main_v330 main_v331 (mulf : (⟨S50000x128, .f32⟩ : BufTy).Contents (Elt F) → (⟨S50000x128, .f32⟩ : BufTy).Contents (Elt F) → (⟨S50000x128, .f32⟩ : BufTy).Contents (Elt F)),
    binary main_v328 main_v176 main_v332 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v332) (TRef.of (T := ⟨S50000x128, .f32⟩) main_call4_v0) (TRef.of (T := ⟨S50000x128, .f32⟩) main_v333) maximumf,
    binary main_v331 main_v177 main_v334 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v334) (TRef.of (T := ⟨S50000x128, .f32⟩) main_call5_v0) (TRef.of (T := ⟨S50000x128, .f32⟩) main_v335) maximumf ]

theorem ops_cmb2_sub : (ops_cmb2 : List (HloOp τ sig (Elt F))).Forall fun op => op.bufs ⊆ tcRefs τ sig := by
  unfold ops_cmb2
  exact ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem ops_cmb2_fresh : ∀ op ∈ (ops_cmb2 : List (HloOp τ sig (Elt F))), op.fresh = ∅ := by
  unfold ops_cmb2
  intro _ h
  repeat (cases h with | head => rfl | tail _ h => ?_)
  exact nomatch h

/-- The buffers these operations write. -/
abbrev wr_cmb2 : List (Ref sig .tc) := [main_v326, main_cst_48, main_v327, main_v328, main_v329, main_cst_49, main_v330, main_v331, main_v332, main_call4_cst, main_call4_v0, main_v333, main_v334, main_call5_cst, main_call5_v0, main_v335]

set_option maxRecDepth 8192 in
theorem ops_cmb2_writes : (ops_cmb2 : List (HloOp τ sig (Elt F))).Forall fun op =>
    op.writes ⊆ (wr_cmb2.map (Proc.devRef (τ := τ) .tc)).toFinset := by
  unfold ops_cmb2
  simp only [List.Forall]
  refine ⟨?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_cmb2 (W : Valuation τ sig (Elt F)) (r : Ref sig .tc) (h : r ∉ wr_cmb2) :
    after ops_cmb2 W (Proc.devRef .tc r) = W (Proc.devRef .tc r) :=
  after_of_writes_sub ops_cmb2 _ ops_cmb2_writes h

set_option maxRecDepth 8192 in
set_option maxHeartbeats 1600000 in
/-- The layer's source-node features. -/
theorem out_cmb2_v333 (W : Valuation τ sig (Elt F)) :
    after ops_cmb2 W (Proc.devRef .tc main_v333) =
      Cert.Stages.relu (addf (Cert.Stages.halfSum (W (Proc.devRef .tc main_v214)) (W (Proc.devRef .tc main_v325))) (W (Proc.devRef .tc main_v176))) := by
  unfold ops_cmb2
  after_results_simp <;> rfl

set_option maxRecDepth 8192 in
set_option maxHeartbeats 1600000 in
/-- The layer's target-node features. -/
theorem out_cmb2_v335 (W : Valuation τ sig (Elt F)) :
    after ops_cmb2 W (Proc.devRef .tc main_v335) =
      Cert.Stages.relu (addf (Cert.Stages.halfSum (W (Proc.devRef .tc main_v251)) (W (Proc.devRef .tc main_v288))) (W (Proc.devRef .tc main_v177))) := by
  unfold ops_cmb2
  after_results_simp <;> rfl

end Cert.ReferenceIdeal.RefValue

end
-- ==== Proof.RefL3a.lean ====
import proofs.«166951_j44444321579084_2_alg».proof.Proof.Stages
import Idealize.ShloMosaic.Lib.StableHlo.Run

/-!
# The reference's third layer read back: the relations within a node type

Each stretch of the reference program's host operations is read back from ANY contents `W` of the device's
buffers: the stretch's result buffer ends at the stage's function (`Cert.Stages`) of what `W` holds at the
buffers the stretch reads, and every buffer the stretch does not write keeps what `W` holds there.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## Layer 3, relation source→source: the mean aggregate over the relation's edges, then `agg · wlᵀ + bl + h · wrᵀ` (operations 401 … 443 of the program). -/

/-- Layer 3, relation source→source: the mean aggregate over the relation's edges, then `agg · wlᵀ + bl + h · wrᵀ` (operations 401 … 443 of the program). -/
def ops_c3ss : List (HloOp τ sig (Elt F)) :=
  [ unary main_arg11 main_v336 ((extractStridedSlice S1x1x128x128 ![2, 0, 0, 0] · slices_S3x4x128x128_S1x1x128x128_2_0_0_0) : (⟨S3x4x128x128, .f32⟩ : BufTy).Contents (Elt F) → (⟨S1x1x128x128, .f32⟩ : BufTy).Contents (Elt F)),
    reshape main_v336 main_v337 rfl shapeCasts_S1x1x128x128_S128x128,
    unary main_arg12 main_v338 ((extractStridedSlice S1x1x128 ![2, 0, 0] · slices_S3x4x128_S1x1x128_2_0_0) : (⟨S3x4x128, .f32⟩ : BufTy).Contents (Elt F) → (⟨S1x1x128, .f32⟩ : BufTy).Contents (Elt F)),
    reshape main_v338 main_v339 rfl shapeCasts_S1x1x128_S128,
    unary main_arg13 main_v340 ((extractStridedSlice S1x1x128x128 ![2, 0, 0, 0] · slices_S3x4x128x128_S1x1x128x128_2_0_0_0) : (⟨S3x4x128x128, .f32⟩ : BufTy).Contents (Elt F) → (⟨S1x1x128x128, .f32⟩ : BufTy).Contents (Elt F)),
    reshape main_v340 main_v341 rfl shapeCasts_S1x1x128x128_S128x128,
    unary main_arg24 main_v342 ((extractStridedSlice S1x500000 ![0, 0] · slices_S2x500000_S1x500000_0_0) : (⟨S2x500000, .i32⟩ : BufTy).Contents (Elt F) → (⟨S1x500000, .i32⟩ : BufTy).Contents (Elt F)),
    reshape main_v342 main_v343 rfl shapeCasts_S1x500000_S500000,
    unary main_arg24 main_v344 ((extractStridedSlice S1x500000 ![1, 0] · slices_S2x500000_S1x500000_1_0) : (⟨S2x500000, .i32⟩ : BufTy).Contents (Elt F) → (⟨S1x500000, .i32⟩ : BufTy).Contents (Elt F)),
    reshape main_v344 main_v345 rfl shapeCasts_S1x500000_S500000,
    nullary main_c_50 (constantI S_ 32 0#32),
    unary main_c_50 main_v346 (broadcastInDim S500000 ![] bcast_S_S500000 : (⟨S_, .i32⟩ : BufTy).Contents (Elt F) → (⟨S500000, .i32⟩ : BufTy).Contents (Elt F)),
    binary main_v343 main_v346 main_v347 (cmpi .slt : (⟨S500000, .i32⟩ : BufTy).Contents (Elt F) → (⟨S500000, .i32⟩ : BufTy).Contents (Elt F) → (⟨S500000, .i1⟩ : BufTy).Contents (Elt F)),
    nullary main_c_51 (constantI S_ 32 50000#32),
    unary main_c_51 main_v348 (broadcastInDim S500000 ![] bcast_S_S500000 : (⟨S_, .i32⟩ : BufTy).Contents (Elt F) → (⟨S500000, .i32⟩ : BufTy).Contents (Elt F)),
    binary main_v343 main_v348 main_v349 (addi : (⟨S500000, .i32⟩ : BufTy).Contents (Elt F) → (⟨S500000, .i32⟩ : BufTy).Contents (Elt F) → (⟨S500000, .i32⟩ : BufTy).Contents (Elt F)),
    ternary main_v347 main_v349 main_v343 main_v350 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v350 main_v351 (broadcastInDim S500000x1 ![0] bcast_S500000_S500000x1_0 : (⟨S500000, .i32⟩ : BufTy).Contents (Elt F) → (⟨S500000x1, .i32⟩ : BufTy).Contents (Elt F)),
    binary main_v333 main_v351 main_v352 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_52 (constant S_ .f32 0x00000000#32),
    unary main_cst_52 main_v353 (broadcastInDim S50000x128 ![] bcast_S_S50000x128 : (⟨S_, .f32⟩ : BufTy).Contents (Elt F) → (⟨S50000x128, .f32⟩ : BufTy).Contents (Elt F)),
    unary main_v345 main_v354 (broadcastInDim S500000x1 ![0] bcast_S500000_S500000x1_0 : (⟨S500000, .i32⟩ : BufTy).Contents (Elt F) → (⟨S500000x1, .i32⟩ : BufTy).Contents (Elt F)),
    ternary main_v353 main_v354 main_v352 main_v355 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_53 (constant S_ .f32 0x3F800000#32),
    unary main_cst_53 main_v356 (broadcastInDim S500000 ![] bcast_S_S500000 : (⟨S_, .f32⟩ : BufTy).Contents (Elt F) → (⟨S500000, .f32⟩ : BufTy).Contents (Elt F)),
    nullary main_cst_54 (constant S_ .f32 0x00000000#32),
    unary main_cst_54 main_v357 (broadcastInDim S50000 ![] bcast_S_S50000 : (⟨S_, .f32⟩ : BufTy).Contents (Elt F) → (⟨S50000, .f32⟩ : BufTy).Contents (Elt F)),
    unary main_v345 main_v358 (broadcastInDim S500000x1 ![0] bcast_S500000_S500000x1_0 : (⟨S500000, .i32⟩ : BufTy).Contents (Elt F) → (⟨S500000x1, .i32⟩ : BufTy).Contents (Elt F)),
    ternary main_v357 main_v358 main_v356 main_v359 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_55 (constant S_ .f32 0x3F800000#32),
    unary main_cst_55 main_v360 (broadcastInDim S50000 ![] bcast_S_S50000 : (⟨S_, .f32⟩ : BufTy).Contents (Elt F) → (⟨S50000, .f32⟩ : BufTy).Contents (Elt F)),
    binary main_v359 main_v360 main_v361 (maximumf : (⟨S50000, .f32⟩ : BufTy).Contents (Elt F) → (⟨S50000, .f32⟩ : BufTy).Contents (Elt F) → (⟨S50000, .f32⟩ : BufTy).Contents (Elt F)),
    unary main_v361 main_v362 (broadcastInDim S50000x1 ![0] bcast_S50000_S50000x1_0 : (⟨S50000, .f32⟩ : BufTy).Contents (Elt F) → (⟨S50000x1, .f32⟩ : BufTy).Contents (Elt F)),
    unary main_v362 main_v363 (broadcastInDim S50000x128 ![0, 1] bcast_S50000x1_S50000x128_0_1 : (⟨S50000x1, .f32⟩ : BufTy).Contents (Elt F) → (⟨S50000x128, .f32⟩ : BufTy).Contents (Elt F)),
    binary main_v355 main_v363 main_v364 (Host.divf : (⟨S50000x128, .f32⟩ : BufTy).Contents (Elt F) → (⟨S50000x128, .f32⟩ : BufTy).Contents (Elt F) → (⟨S50000x128, .f32⟩ : BufTy).Contents (Elt F)),
    unary main_v337 main_v365 ((transpose S128x128 [1, 0] · transposes_S128x128_S128x128_1_0) : (⟨S128x128, .f32⟩ : BufTy).Contents (Elt F) → (⟨S128x128, .f32⟩ : BufTy).Contents (Elt F)),
    binary main_v364 main_v365 main_v366 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v339 main_v367 (broadcastInDim S1x128 ![1] bcast_S128_S1x128_1 : (⟨S128, .f32⟩ : BufTy).Contents (Elt F) → (⟨S1x128, .f32⟩ : BufTy).Contents (Elt F)),
    unary main_v367 main_v368 (broadcastInDim S50000x128 ![0, 1] bcast_S1x128_S50000x128_0_1 : (⟨S1x128, .f32⟩ : BufTy).Contents (Elt F) → (⟨S50000x128, .f32⟩ : BufTy).Contents (Elt F)),
    binary main_v366 main_v368 main_v369 (addf : (⟨S50000x128, .f32⟩ : BufTy).Contents (Elt F) → (⟨S50000x128, .f32⟩ : BufTy).Contents (Elt F) → (⟨S50000x128, .f32⟩ : BufTy).Contents (Elt F)),
    unary main_v341 main_v370 ((transpose S128x128 [1, 0] · transposes_S128x128_S128x128_1_0) : (⟨S128x128, .f32⟩ : BufTy).Contents (Elt F) → (⟨S128x128, .f32⟩ : BufTy).Contents (Elt F)),
    binary main_v333 main_v370 main_v371 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v369 main_v371 main_v372 (addf : (⟨S50000x128, .f32⟩ : BufTy).Contents (Elt F) → (⟨S50000x128, .f32⟩ : BufTy).Contents (Elt F) → (⟨S50000x128, .f32⟩ : BufTy).Contents (Elt F)) ]

theorem ops_c3ss_sub : (ops_c3ss : List (HloOp τ sig (Elt F))).Forall fun op => op.bufs ⊆ tcRefs τ sig := by
  unfold ops_c3ss
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c3ss_fresh : ∀ op ∈ (ops_c3ss : List (HloOp τ sig (Elt F))), op.fresh = ∅ := by
  unfold ops_c3ss
  intro _ h
  repeat (cases h with | head => rfl | tail _ h => ?_)
  exact nomatch h

/-- The buffers these operations write. -/
abbrev wr_c3ss : List (Ref sig .tc) := [main_v336, main_v337, main_v338, main_v339, main_v340, main_v341, main_v342, main_v343, main_v344, main_v345, main_c_50, main_v346, main_v347, main_c_51, main_v348, main_v349, main_v350, main_v351, main_v352, main_cst_52, main_v353, main_v354, main_v355, main_cst_53, main_v356, main_cst_54, main_v357, main_v358, main_v359, main_cst_55, main_v360, main_v361, main_v362, main_v363, main_v364, main_v365, main_v366, main_v367, main_v368, main_v369, main_v370, main_v371, main_v372]

set_option maxRecDepth 8192 in
theorem ops_c3ss_writes : (ops_c3ss : List (HloOp τ sig (Elt F))).Forall fun op =>
    op.writes ⊆ (wr_c3ss.map (Proc.devRef (τ := τ) .tc)).toFinset := by
  unfold ops_c3ss
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c3ss (W : Valuation τ sig (Elt F)) (r : Ref sig .tc) (h : r ∉ wr_c3ss) :
    after ops_c3ss W (Proc.devRef .tc r) = W (Proc.devRef .tc r) :=
  after_of_writes_sub ops_c3ss _ ops_c3ss_writes h

set_option maxRecDepth 8192 in
set_option maxHeartbeats 4300000 in
/-- The relation's output: the mean aggregate of the source features over the edges into each destination node, through the relation's two weight matrices and bias. -/
theorem out_c3ss_v372 (W : Valuation τ sig (Elt F)) :
    after ops_c3ss W (Proc.devRef .tc main_v372) =
      Cert.Stages.sageOut (Cert.Stages.aggMean (W (Proc.devRef .tc main_v333)) (W (Proc.devRef .tc main_arg24)) (Cert.Stages.degF (W (Proc.devRef .tc main_arg24)))) (W (Proc.devRef .tc main_v333)) (Cert.Stages.wAt20 (W (Proc.devRef .tc main_arg11))) (Cert.Stages.bAt20 (W (Proc.devRef .tc main_arg12))) (Cert.Stages.wAt20 (W (Proc.devRef .tc main_arg13))) := by
  unfold ops_c3ss
  after_results_simp <;> rfl

/-! ## Layer 3, relation target→target: the mean aggregate over the relation's edges, then `agg · wlᵀ + bl + h · wrᵀ` (operations 444 … 486 of the program). -/

/-- Layer 3, relation target→target: the mean aggregate over the relation's edges, then `agg · wlᵀ + bl + h · wrᵀ` (operations 444 … 486 of the program). -/
def ops_c3tt : List (HloOp τ sig (Elt F)) :=
  [ unary main_arg11 main_v373 ((extractStridedSlice S1x1x128x128 ![2, 1, 0, 0] · slices_S3x4x128x128_S1x1x128x128_2_1_0_0) : (⟨S3x4x128x128, .f32⟩ : BufTy).Contents (Elt F) → (⟨S1x1x128x128, .f32⟩ : BufTy).Contents (Elt F)),
    reshape main_v373 main_v374 rfl shapeCasts_S1x1x128x128_S128x128,
    unary main_arg12 main_v375 ((extractStridedSlice S1x1x128 ![2, 1, 0] · slices_S3x4x128_S1x1x128_2_1_0) : (⟨S3x4x128, .f32⟩ : BufTy).Contents (Elt F) → (⟨S1x1x128, .f32⟩ : BufTy).Contents (Elt F)),
    reshape main_v375 main_v376 rfl shapeCasts_S1x1x128_S128,
    unary main_arg13 main_v377 ((extractStridedSlice S1x1x128x128 ![2, 1, 0, 0] · slices_S3x4x128x128_S1x1x128x128_2_1_0_0) : (⟨S3x4x128x128, .f32⟩ : BufTy).Contents (Elt F) → (⟨S1x1x128x128, .f32⟩ : BufTy).Contents (Elt F)),
    reshape main_v377 main_v378 rfl shapeCasts_S1x1x128x128_S128x128,
    unary main_arg25 main_v379 ((extractStridedSlice S1x500000 ![0, 0] · slices_S2x500000_S1x500000_0_0) : (⟨S2x500000, .i32⟩ : BufTy).Contents (Elt F) → (⟨S1x500000, .i32⟩ : BufTy).Contents (Elt F)),
    reshape main_v379 main_v380 rfl shapeCasts_S1x500000_S500000,
    unary main_arg25 main_v381 ((extractStridedSlice S1x500000 ![1, 0] · slices_S2x500000_S1x500000_1_0) : (⟨S2x500000, .i32⟩ : BufTy).Contents (Elt F) → (⟨S1x500000, .i32⟩ : BufTy).Contents (Elt F)),
    reshape main_v381 main_v382 rfl shapeCasts_S1x500000_S500000,
    nullary main_c_56 (constantI S_ 32 0#32),
    unary main_c_56 main_v383 (broadcastInDim S500000 ![] bcast_S_S500000 : (⟨S_, .i32⟩ : BufTy).Contents (Elt F) → (⟨S500000, .i32⟩ : BufTy).Contents (Elt F)),
    binary main_v380 main_v383 main_v384 (cmpi .slt : (⟨S500000, .i32⟩ : BufTy).Contents (Elt F) → (⟨S500000, .i32⟩ : BufTy).Contents (Elt F) → (⟨S500000, .i1⟩ : BufTy).Contents (Elt F)),
    nullary main_c_57 (constantI S_ 32 50000#32),
    unary main_c_57 main_v385 (broadcastInDim S500000 ![] bcast_S_S500000 : (⟨S_, .i32⟩ : BufTy).Contents (Elt F) → (⟨S500000, .i32⟩ : BufTy).Contents (Elt F)),
    binary main_v380 main_v385 main_v386 (addi : (⟨S500000, .i32⟩ : BufTy).Contents (Elt F) → (⟨S500000, .i32⟩ : BufTy).Contents (Elt F) → (⟨S500000, .i32⟩ : BufTy).Contents (Elt F)),
    ternary main_v384 main_v386 main_v380 main_v387 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v387 main_v388 (broadcastInDim S500000x1 ![0] bcast_S500000_S500000x1_0 : (⟨S500000, .i32⟩ : BufTy).Contents (Elt F) → (⟨S500000x1, .i32⟩ : BufTy).Contents (Elt F)),
    binary main_v335 main_v388 main_v389 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_58 (constant S_ .f32 0x00000000#32),
    unary main_cst_58 main_v390 (broadcastInDim S50000x128 ![] bcast_S_S50000x128 : (⟨S_, .f32⟩ : BufTy).Contents (Elt F) → (⟨S50000x128, .f32⟩ : BufTy).Contents (Elt F)),
    unary main_v382 main_v391 (broadcastInDim S500000x1 ![0] bcast_S500000_S500000x1_0 : (⟨S500000, .i32⟩ : BufTy).Contents (Elt F) → (⟨S500000x1, .i32⟩ : BufTy).Contents (Elt F)),
    ternary main_v390 main_v391 main_v389 main_v392 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_59 (constant S_ .f32 0x3F800000#32),
    unary main_cst_59 main_v393 (broadcastInDim S500000 ![] bcast_S_S500000 : (⟨S_, .f32⟩ : BufTy).Contents (Elt F) → (⟨S500000, .f32⟩ : BufTy).Contents (Elt F)),
    nullary main_cst_60 (constant S_ .f32 0x00000000#32),
    unary main_cst_60 main_v394 (broadcastInDim S50000 ![] bcast_S_S50000 : (⟨S_, .f32⟩ : BufTy).Contents (Elt F) → (⟨S50000, .f32⟩ : BufTy).Contents (Elt F)),
    unary main_v382 main_v395 (broadcastInDim S500000x1 ![0] bcast_S500000_S500000x1_0 : (⟨S500000, .i32⟩ : BufTy).Contents (Elt F) → (⟨S500000x1, .i32⟩ : BufTy).Contents (Elt F)),
    ternary main_v394 main_v395 main_v393 main_v396 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_61 (constant S_ .f32 0x3F800000#32),
    unary main_cst_61 main_v397 (broadcastInDim S50000 ![] bcast_S_S50000 : (⟨S_, .f32⟩ : BufTy).Contents (Elt F) → (⟨S50000, .f32⟩ : BufTy).Contents (Elt F)),
    binary main_v396 main_v397 main_v398 (maximumf : (⟨S50000, .f32⟩ : BufTy).Contents (Elt F) → (⟨S50000, .f32⟩ : BufTy).Contents (Elt F) → (⟨S50000, .f32⟩ : BufTy).Contents (Elt F)),
    unary main_v398 main_v399 (broadcastInDim S50000x1 ![0] bcast_S50000_S50000x1_0 : (⟨S50000, .f32⟩ : BufTy).Contents (Elt F) → (⟨S50000x1, .f32⟩ : BufTy).Contents (Elt F)),
    unary main_v399 main_v400 (broadcastInDim S50000x128 ![0, 1] bcast_S50000x1_S50000x128_0_1 : (⟨S50000x1, .f32⟩ : BufTy).Contents (Elt F) → (⟨S50000x128, .f32⟩ : BufTy).Contents (Elt F)),
    binary main_v392 main_v400 main_v401 (Host.divf : (⟨S50000x128, .f32⟩ : BufTy).Contents (Elt F) → (⟨S50000x128, .f32⟩ : BufTy).Contents (Elt F) → (⟨S50000x128, .f32⟩ : BufTy).Contents (Elt F)),
    unary main_v374 main_v402 ((transpose S128x128 [1, 0] · transposes_S128x128_S128x128_1_0) : (⟨S128x128, .f32⟩ : BufTy).Contents (Elt F) → (⟨S128x128, .f32⟩ : BufTy).Contents (Elt F)),
    binary main_v401 main_v402 main_v403 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v376 main_v404 (broadcastInDim S1x128 ![1] bcast_S128_S1x128_1 : (⟨S128, .f32⟩ : BufTy).Contents (Elt F) → (⟨S1x128, .f32⟩ : BufTy).Contents (Elt F)),
    unary main_v404 main_v405 (broadcastInDim S50000x128 ![0, 1] bcast_S1x128_S50000x128_0_1 : (⟨S1x128, .f32⟩ : BufTy).Contents (Elt F) → (⟨S50000x128, .f32⟩ : BufTy).Contents (Elt F)),
    binary main_v403 main_v405 main_v406 (addf : (⟨S50000x128, .f32⟩ : BufTy).Contents (Elt F) → (⟨S50000x128, .f32⟩ : BufTy).Contents (Elt F) → (⟨S50000x128, .f32⟩ : BufTy).Contents (Elt F)),
    unary main_v378 main_v407 ((transpose S128x128 [1, 0] · transposes_S128x128_S128x128_1_0) : (⟨S128x128, .f32⟩ : BufTy).Contents (Elt F) → (⟨S128x128, .f32⟩ : BufTy).Contents (Elt F)),
    binary main_v335 main_v407 main_v408 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v406 main_v408 main_v409 (addf : (⟨S50000x128, .f32⟩ : BufTy).Contents (Elt F) → (⟨S50000x128, .f32⟩ : BufTy).Contents (Elt F) → (⟨S50000x128, .f32⟩ : BufTy).Contents (Elt F)) ]

theorem ops_c3tt_sub : (ops_c3tt : List (HloOp τ sig (Elt F))).Forall fun op => op.bufs ⊆ tcRefs τ sig := by
  unfold ops_c3tt
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c3tt_fresh : ∀ op ∈ (ops_c3tt : List (HloOp τ sig (Elt F))), op.fresh = ∅ := by
  unfold ops_c3tt
  intro _ h
  repeat (cases h with | head => rfl | tail _ h => ?_)
  exact nomatch h

/-- The buffers these operations write. -/
abbrev wr_c3tt : List (Ref sig .tc) := [main_v373, main_v374, main_v375, main_v376, main_v377, main_v378, main_v379, main_v380, main_v381, main_v382, main_c_56, main_v383, main_v384, main_c_57, main_v385, main_v386, main_v387, main_v388, main_v389, main_cst_58, main_v390, main_v391, main_v392, main_cst_59, main_v393, main_cst_60, main_v394, main_v395, main_v396, main_cst_61, main_v397, main_v398, main_v399, main_v400, main_v401, main_v402, main_v403, main_v404, main_v405, main_v406, main_v407, main_v408, main_v409]

set_option maxRecDepth 8192 in
theorem ops_c3tt_writes : (ops_c3tt : List (HloOp τ sig (Elt F))).Forall fun op =>
    op.writes ⊆ (wr_c3tt.map (Proc.devRef (τ := τ) .tc)).toFinset := by
  unfold ops_c3tt
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c3tt (W : Valuation τ sig (Elt F)) (r : Ref sig .tc) (h : r ∉ wr_c3tt) :
    after ops_c3tt W (Proc.devRef .tc r) = W (Proc.devRef .tc r) :=
  after_of_writes_sub ops_c3tt _ ops_c3tt_writes h

set_option maxRecDepth 8192 in
set_option maxHeartbeats 4300000 in
/-- The relation's output: the mean aggregate of the source features over the edges into each destination node, through the relation's two weight matrices and bias. -/
theorem out_c3tt_v409 (W : Valuation τ sig (Elt F)) :
    after ops_c3tt W (Proc.devRef .tc main_v409) =
      Cert.Stages.sageOut (Cert.Stages.aggMean (W (Proc.devRef .tc main_v335)) (W (Proc.devRef .tc main_arg25)) (Cert.Stages.degF (W (Proc.devRef .tc main_arg25)))) (W (Proc.devRef .tc main_v335)) (Cert.Stages.wAt21 (W (Proc.devRef .tc main_arg11))) (Cert.Stages.bAt21 (W (Proc.devRef .tc main_arg12))) (Cert.Stages.wAt21 (W (Proc.devRef .tc main_arg13))) := by
  unfold ops_c3tt
  after_results_simp <;> rfl

end Cert.ReferenceIdeal.RefValue

end
-- ==== Proof.RefL3b.lean ====
import proofs.«166951_j44444321579084_2_alg».proof.Proof.Stages
import Idealize.ShloMosaic.Lib.StableHlo.Run

/-!
# The reference's third layer read back: the relations across node types, and the combination

Each stretch of the reference program's host operations is read back from ANY contents `W` of the device's
buffers: the stretch's result buffer ends at the stage's function (`Cert.Stages`) of what `W` holds at the
buffers the stretch reads, and every buffer the stretch does not write keeps what `W` holds there.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## Layer 3, relation source→target: the mean aggregate over the relation's edges, then `agg · wlᵀ + bl + h · wrᵀ` (operations 487 … 529 of the program). -/

/-- Layer 3, relation source→target: the mean aggregate over the relation's edges, then `agg · wlᵀ + bl + h · wrᵀ` (operations 487 … 529 of the program). -/
def ops_c3st : List (HloOp τ sig (Elt F)) :=
  [ unary main_arg11 main_v410 ((extractStridedSlice S1x1x128x128 ![2, 2, 0, 0] · slices_S3x4x128x128_S1x1x128x128_2_2_0_0) : (⟨S3x4x128x128, .f32⟩ : BufTy).Contents (Elt F) → (⟨S1x1x128x128, .f32⟩ : BufTy).Contents (Elt F)),
    reshape main_v410 main_v411 rfl shapeCasts_S1x1x128x128_S128x128,
    unary main_arg12 main_v412 ((extractStridedSlice S1x1x128 ![2, 2, 0] · slices_S3x4x128_S1x1x128_2_2_0) : (⟨S3x4x128, .f32⟩ : BufTy).Contents (Elt F) → (⟨S1x1x128, .f32⟩ : BufTy).Contents (Elt F)),
    reshape main_v412 main_v413 rfl shapeCasts_S1x1x128_S128,
    unary main_arg13 main_v414 ((extractStridedSlice S1x1x128x128 ![2, 2, 0, 0] · slices_S3x4x128x128_S1x1x128x128_2_2_0_0) : (⟨S3x4x128x128, .f32⟩ : BufTy).Contents (Elt F) → (⟨S1x1x128x128, .f32⟩ : BufTy).Contents (Elt F)),
    reshape main_v414 main_v415 rfl shapeCasts_S1x1x128x128_S128x128,
    unary main_arg26 main_v416 ((extractStridedSlice S1x500000 ![0, 0] · slices_S2x500000_S1x500000_0_0) : (⟨S2x500000, .i32⟩ : BufTy).Contents (Elt F) → (⟨S1x500000, .i32⟩ : BufTy).Contents (Elt F)),
    reshape main_v416 main_v417 rfl shapeCasts_S1x500000_S500000,
    unary main_arg26 main_v418 ((extractStridedSlice S1x500000 ![1, 0] · slices_S2x500000_S1x500000_1_0) : (⟨S2x500000, .i32⟩ : BufTy).Contents (Elt F) → (⟨S1x500000, .i32⟩ : BufTy).Contents (Elt F)),
    reshape main_v418 main_v419 rfl shapeCasts_S1x500000_S500000,
    nullary main_c_62 (constantI S_ 32 0#32),
    unary main_c_62 main_v420 (broadcastInDim S500000 ![] bcast_S_S500000 : (⟨S_, .i32⟩ : BufTy).Contents (Elt F) → (⟨S500000, .i32⟩ : BufTy).Contents (Elt F)),
    binary main_v417 main_v420 main_v421 (cmpi .slt : (⟨S500000, .i32⟩ : BufTy).Contents (Elt F) → (⟨S500000, .i32⟩ : BufTy).Contents (Elt F) → (⟨S500000, .i1⟩ : BufTy).Contents (Elt F)),
    nullary main_c_63 (constantI S_ 32 50000#32),
    unary main_c_63 main_v422 (broadcastInDim S500000 ![] bcast_S_S500000 : (⟨S_, .i32⟩ : BufTy).Contents (Elt F) → (⟨S500000, .i32⟩ : BufTy).Contents (Elt F)),
    binary main_v417 main_v422 main_v423 (addi : (⟨S500000, .i32⟩ : BufTy).Contents (Elt F) → (⟨S500000, .i32⟩ : BufTy).Contents (Elt F) → (⟨S500000, .i32⟩ : BufTy).Contents (Elt F)),
    ternary main_v421 main_v423 main_v417 main_v424 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v424 main_v425 (broadcastInDim S500000x1 ![0] bcast_S500000_S500000x1_0 : (⟨S500000, .i32⟩ : BufTy).Contents (Elt F) → (⟨S500000x1, .i32⟩ : BufTy).Contents (Elt F)),
    binary main_v333 main_v425 main_v426 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_64 (constant S_ .f32 0x00000000#32),
    unary main_cst_64 main_v427 (broadcastInDim S50000x128 ![] bcast_S_S50000x128 : (⟨S_, .f32⟩ : BufTy).Contents (Elt F) → (⟨S50000x128, .f32⟩ : BufTy).Contents (Elt F)),
    unary main_v419 main_v428 (broadcastInDim S500000x1 ![0] bcast_S500000_S500000x1_0 : (⟨S500000, .i32⟩ : BufTy).Contents (Elt F) → (⟨S500000x1, .i32⟩ : BufTy).Contents (Elt F)),
    ternary main_v427 main_v428 main_v426 main_v429 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_65 (constant S_ .f32 0x3F800000#32),
    unary main_cst_65 main_v430 (broadcastInDim S500000 ![] bcast_S_S500000 : (⟨S_, .f32⟩ : BufTy).Contents (Elt F) → (⟨S500000, .f32⟩ : BufTy).Contents (Elt F)),
    nullary main_cst_66 (constant S_ .f32 0x00000000#32),
    unary main_cst_66 main_v431 (broadcastInDim S50000 ![] bcast_S_S50000 : (⟨S_, .f32⟩ : BufTy).Contents (Elt F) → (⟨S50000, .f32⟩ : BufTy).Contents (Elt F)),
    unary main_v419 main_v432 (broadcastInDim S500000x1 ![0] bcast_S500000_S500000x1_0 : (⟨S500000, .i32⟩ : BufTy).Contents (Elt F) → (⟨S500000x1, .i32⟩ : BufTy).Contents (Elt F)),
    ternary main_v431 main_v432 main_v430 main_v433 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_67 (constant S_ .f32 0x3F800000#32),
    unary main_cst_67 main_v434 (broadcastInDim S50000 ![] bcast_S_S50000 : (⟨S_, .f32⟩ : BufTy).Contents (Elt F) → (⟨S50000, .f32⟩ : BufTy).Contents (Elt F)),
    binary main_v433 main_v434 main_v435 (maximumf : (⟨S50000, .f32⟩ : BufTy).Contents (Elt F) → (⟨S50000, .f32⟩ : BufTy).Contents (Elt F) → (⟨S50000, .f32⟩ : BufTy).Contents (Elt F)),
    unary main_v435 main_v436 (broadcastInDim S50000x1 ![0] bcast_S50000_S50000x1_0 : (⟨S50000, .f32⟩ : BufTy).Contents (Elt F) → (⟨S50000x1, .f32⟩ : BufTy).Contents (Elt F)),
    unary main_v436 main_v437 (broadcastInDim S50000x128 ![0, 1] bcast_S50000x1_S50000x128_0_1 : (⟨S50000x1, .f32⟩ : BufTy).Contents (Elt F) → (⟨S50000x128, .f32⟩ : BufTy).Contents (Elt F)),
    binary main_v429 main_v437 main_v438 (Host.divf : (⟨S50000x128, .f32⟩ : BufTy).Contents (Elt F) → (⟨S50000x128, .f32⟩ : BufTy).Contents (Elt F) → (⟨S50000x128, .f32⟩ : BufTy).Contents (Elt F)),
    unary main_v411 main_v439 ((transpose S128x128 [1, 0] · transposes_S128x128_S128x128_1_0) : (⟨S128x128, .f32⟩ : BufTy).Contents (Elt F) → (⟨S128x128, .f32⟩ : BufTy).Contents (Elt F)),
    binary main_v438 main_v439 main_v440 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v413 main_v441 (broadcastInDim S1x128 ![1] bcast_S128_S1x128_1 : (⟨S128, .f32⟩ : BufTy).Contents (Elt F) → (⟨S1x128, .f32⟩ : BufTy).Contents (Elt F)),
    unary main_v441 main_v442 (broadcastInDim S50000x128 ![0, 1] bcast_S1x128_S50000x128_0_1 : (⟨S1x128, .f32⟩ : BufTy).Contents (Elt F) → (⟨S50000x128, .f32⟩ : BufTy).Contents (Elt F)),
    binary main_v440 main_v442 main_v443 (addf : (⟨S50000x128, .f32⟩ : BufTy).Contents (Elt F) → (⟨S50000x128, .f32⟩ : BufTy).Contents (Elt F) → (⟨S50000x128, .f32⟩ : BufTy).Contents (Elt F)),
    unary main_v415 main_v444 ((transpose S128x128 [1, 0] · transposes_S128x128_S128x128_1_0) : (⟨S128x128, .f32⟩ : BufTy).Contents (Elt F) → (⟨S128x128, .f32⟩ : BufTy).Contents (Elt F)),
    binary main_v335 main_v444 main_v445 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v443 main_v445 main_v446 (addf : (⟨S50000x128, .f32⟩ : BufTy).Contents (Elt F) → (⟨S50000x128, .f32⟩ : BufTy).Contents (Elt F) → (⟨S50000x128, .f32⟩ : BufTy).Contents (Elt F)) ]

theorem ops_c3st_sub : (ops_c3st : List (HloOp τ sig (Elt F))).Forall fun op => op.bufs ⊆ tcRefs τ sig := by
  unfold ops_c3st
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c3st_fresh : ∀ op ∈ (ops_c3st : List (HloOp τ sig (Elt F))), op.fresh = ∅ := by
  unfold ops_c3st
  intro _ h
  repeat (cases h with | head => rfl | tail _ h => ?_)
  exact nomatch h

/-- The buffers these operations write. -/
abbrev wr_c3st : List (Ref sig .tc) := [main_v410, main_v411, main_v412, main_v413, main_v414, main_v415, main_v416, main_v417, main_v418, main_v419, main_c_62, main_v420, main_v421, main_c_63, main_v422, main_v423, main_v424, main_v425, main_v426, main_cst_64, main_v427, main_v428, main_v429, main_cst_65, main_v430, main_cst_66, main_v431, main_v432, main_v433, main_cst_67, main_v434, main_v435, main_v436, main_v437, main_v438, main_v439, main_v440, main_v441, main_v442, main_v443, main_v444, main_v445, main_v446]

set_option maxRecDepth 8192 in
theorem ops_c3st_writes : (ops_c3st : List (HloOp τ sig (Elt F))).Forall fun op =>
    op.writes ⊆ (wr_c3st.map (Proc.devRef (τ := τ) .tc)).toFinset := by
  unfold ops_c3st
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c3st (W : Valuation τ sig (Elt F)) (r : Ref sig .tc) (h : r ∉ wr_c3st) :
    after ops_c3st W (Proc.devRef .tc r) = W (Proc.devRef .tc r) :=
  after_of_writes_sub ops_c3st _ ops_c3st_writes h

set_option maxRecDepth 8192 in
set_option maxHeartbeats 4300000 in
/-- The relation's output: the mean aggregate of the source features over the edges into each destination node, through the relation's two weight matrices and bias. -/
theorem out_c3st_v446 (W : Valuation τ sig (Elt F)) :
    after ops_c3st W (Proc.devRef .tc main_v446) =
      Cert.Stages.sageOut (Cert.Stages.aggMean (W (Proc.devRef .tc main_v333)) (W (Proc.devRef .tc main_arg26)) (Cert.Stages.degF (W (Proc.devRef .tc main_arg26)))) (W (Proc.devRef .tc main_v335)) (Cert.Stages.wAt22 (W (Proc.devRef .tc main_arg11))) (Cert.Stages.bAt22 (W (Proc.devRef .tc main_arg12))) (Cert.Stages.wAt22 (W (Proc.devRef .tc main_arg13))) := by
  unfold ops_c3st
  after_results_simp <;> rfl

/-! ## Layer 3, relation target→source: the mean aggregate over the relation's edges, then `agg · wlᵀ + bl + h · wrᵀ` (operations 530 … 572 of the program). -/

/-- Layer 3, relation target→source: the mean aggregate over the relation's edges, then `agg · wlᵀ + bl + h · wrᵀ` (operations 530 … 572 of the program). -/
def ops_c3ts : List (HloOp τ sig (Elt F)) :=
  [ unary main_arg11 main_v447 ((extractStridedSlice S1x1x128x128 ![2, 3, 0, 0] · slices_S3x4x128x128_S1x1x128x128_2_3_0_0) : (⟨S3x4x128x128, .f32⟩ : BufTy).Contents (Elt F) → (⟨S1x1x128x128, .f32⟩ : BufTy).Contents (Elt F)),
    reshape main_v447 main_v448 rfl shapeCasts_S1x1x128x128_S128x128,
    unary main_arg12 main_v449 ((extractStridedSlice S1x1x128 ![2, 3, 0] · slices_S3x4x128_S1x1x128_2_3_0) : (⟨S3x4x128, .f32⟩ : BufTy).Contents (Elt F) → (⟨S1x1x128, .f32⟩ : BufTy).Contents (Elt F)),
    reshape main_v449 main_v450 rfl shapeCasts_S1x1x128_S128,
    unary main_arg13 main_v451 ((extractStridedSlice S1x1x128x128 ![2, 3, 0, 0] · slices_S3x4x128x128_S1x1x128x128_2_3_0_0) : (⟨S3x4x128x128, .f32⟩ : BufTy).Contents (Elt F) → (⟨S1x1x128x128, .f32⟩ : BufTy).Contents (Elt F)),
    reshape main_v451 main_v452 rfl shapeCasts_S1x1x128x128_S128x128,
    unary main_arg27 main_v453 ((extractStridedSlice S1x500000 ![0, 0] · slices_S2x500000_S1x500000_0_0) : (⟨S2x500000, .i32⟩ : BufTy).Contents (Elt F) → (⟨S1x500000, .i32⟩ : BufTy).Contents (Elt F)),
    reshape main_v453 main_v454 rfl shapeCasts_S1x500000_S500000,
    unary main_arg27 main_v455 ((extractStridedSlice S1x500000 ![1, 0] · slices_S2x500000_S1x500000_1_0) : (⟨S2x500000, .i32⟩ : BufTy).Contents (Elt F) → (⟨S1x500000, .i32⟩ : BufTy).Contents (Elt F)),
    reshape main_v455 main_v456 rfl shapeCasts_S1x500000_S500000,
    nullary main_c_68 (constantI S_ 32 0#32),
    unary main_c_68 main_v457 (broadcastInDim S500000 ![] bcast_S_S500000 : (⟨S_, .i32⟩ : BufTy).Contents (Elt F) → (⟨S500000, .i32⟩ : BufTy).Contents (Elt F)),
    binary main_v454 main_v457 main_v458 (cmpi .slt : (⟨S500000, .i32⟩ : BufTy).Contents (Elt F) → (⟨S500000, .i32⟩ : BufTy).Contents (Elt F) → (⟨S500000, .i1⟩ : BufTy).Contents (Elt F)),
    nullary main_c_69 (constantI S_ 32 50000#32),
    unary main_c_69 main_v459 (broadcastInDim S500000 ![] bcast_S_S500000 : (⟨S_, .i32⟩ : BufTy).Contents (Elt F) → (⟨S500000, .i32⟩ : BufTy).Contents (Elt F)),
    binary main_v454 main_v459 main_v460 (addi : (⟨S500000, .i32⟩ : BufTy).Contents (Elt F) → (⟨S500000, .i32⟩ : BufTy).Contents (Elt F) → (⟨S500000, .i32⟩ : BufTy).Contents (Elt F)),
    ternary main_v458 main_v460 main_v454 main_v461 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v461 main_v462 (broadcastInDim S500000x1 ![0] bcast_S500000_S500000x1_0 : (⟨S500000, .i32⟩ : BufTy).Contents (Elt F) → (⟨S500000x1, .i32⟩ : BufTy).Contents (Elt F)),
    binary main_v335 main_v462 main_v463 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_70 (constant S_ .f32 0x00000000#32),
    unary main_cst_70 main_v464 (broadcastInDim S50000x128 ![] bcast_S_S50000x128 : (⟨S_, .f32⟩ : BufTy).Contents (Elt F) → (⟨S50000x128, .f32⟩ : BufTy).Contents (Elt F)),
    unary main_v456 main_v465 (broadcastInDim S500000x1 ![0] bcast_S500000_S500000x1_0 : (⟨S500000, .i32⟩ : BufTy).Contents (Elt F) → (⟨S500000x1, .i32⟩ : BufTy).Contents (Elt F)),
    ternary main_v464 main_v465 main_v463 main_v466 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_71 (constant S_ .f32 0x3F800000#32),
    unary main_cst_71 main_v467 (broadcastInDim S500000 ![] bcast_S_S500000 : (⟨S_, .f32⟩ : BufTy).Contents (Elt F) → (⟨S500000, .f32⟩ : BufTy).Contents (Elt F)),
    nullary main_cst_72 (constant S_ .f32 0x00000000#32),
    unary main_cst_72 main_v468 (broadcastInDim S50000 ![] bcast_S_S50000 : (⟨S_, .f32⟩ : BufTy).Contents (Elt F) → (⟨S50000, .f32⟩ : BufTy).Contents (Elt F)),
    unary main_v456 main_v469 (broadcastInDim S500000x1 ![0] bcast_S500000_S500000x1_0 : (⟨S500000, .i32⟩ : BufTy).Contents (Elt F) → (⟨S500000x1, .i32⟩ : BufTy).Contents (Elt F)),
    ternary main_v468 main_v469 main_v467 main_v470 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_73 (constant S_ .f32 0x3F800000#32),
    unary main_cst_73 main_v471 (broadcastInDim S50000 ![] bcast_S_S50000 : (⟨S_, .f32⟩ : BufTy).Contents (Elt F) → (⟨S50000, .f32⟩ : BufTy).Contents (Elt F)),
    binary main_v470 main_v471 main_v472 (maximumf : (⟨S50000, .f32⟩ : BufTy).Contents (Elt F) → (⟨S50000, .f32⟩ : BufTy).Contents (Elt F) → (⟨S50000, .f32⟩ : BufTy).Contents (Elt F)),
    unary main_v472 main_v473 (broadcastInDim S50000x1 ![0] bcast_S50000_S50000x1_0 : (⟨S50000, .f32⟩ : BufTy).Contents (Elt F) → (⟨S50000x1, .f32⟩ : BufTy).Contents (Elt F)),
    unary main_v473 main_v474 (broadcastInDim S50000x128 ![0, 1] bcast_S50000x1_S50000x128_0_1 : (⟨S50000x1, .f32⟩ : BufTy).Contents (Elt F) → (⟨S50000x128, .f32⟩ : BufTy).Contents (Elt F)),
    binary main_v466 main_v474 main_v475 (Host.divf : (⟨S50000x128, .f32⟩ : BufTy).Contents (Elt F) → (⟨S50000x128, .f32⟩ : BufTy).Contents (Elt F) → (⟨S50000x128, .f32⟩ : BufTy).Contents (Elt F)),
    unary main_v448 main_v476 ((transpose S128x128 [1, 0] · transposes_S128x128_S128x128_1_0) : (⟨S128x128, .f32⟩ : BufTy).Contents (Elt F) → (⟨S128x128, .f32⟩ : BufTy).Contents (Elt F)),
    binary main_v475 main_v476 main_v477 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v450 main_v478 (broadcastInDim S1x128 ![1] bcast_S128_S1x128_1 : (⟨S128, .f32⟩ : BufTy).Contents (Elt F) → (⟨S1x128, .f32⟩ : BufTy).Contents (Elt F)),
    unary main_v478 main_v479 (broadcastInDim S50000x128 ![0, 1] bcast_S1x128_S50000x128_0_1 : (⟨S1x128, .f32⟩ : BufTy).Contents (Elt F) → (⟨S50000x128, .f32⟩ : BufTy).Contents (Elt F)),
    binary main_v477 main_v479 main_v480 (addf : (⟨S50000x128, .f32⟩ : BufTy).Contents (Elt F) → (⟨S50000x128, .f32⟩ : BufTy).Contents (Elt F) → (⟨S50000x128, .f32⟩ : BufTy).Contents (Elt F)),
    unary main_v452 main_v481 ((transpose S128x128 [1, 0] · transposes_S128x128_S128x128_1_0) : (⟨S128x128, .f32⟩ : BufTy).Contents (Elt F) → (⟨S128x128, .f32⟩ : BufTy).Contents (Elt F)),
    binary main_v333 main_v481 main_v482 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v480 main_v482 main_v483 (addf : (⟨S50000x128, .f32⟩ : BufTy).Contents (Elt F) → (⟨S50000x128, .f32⟩ : BufTy).Contents (Elt F) → (⟨S50000x128, .f32⟩ : BufTy).Contents (Elt F)) ]

theorem ops_c3ts_sub : (ops_c3ts : List (HloOp τ sig (Elt F))).Forall fun op => op.bufs ⊆ tcRefs τ sig := by
  unfold ops_c3ts
  exact ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem ops_c3ts_fresh : ∀ op ∈ (ops_c3ts : List (HloOp τ sig (Elt F))), op.fresh = ∅ := by
  unfold ops_c3ts
  intro _ h
  repeat (cases h with | head => rfl | tail _ h => ?_)
  exact nomatch h

/-- The buffers these operations write. -/
abbrev wr_c3ts : List (Ref sig .tc) := [main_v447, main_v448, main_v449, main_v450, main_v451, main_v452, main_v453, main_v454, main_v455, main_v456, main_c_68, main_v457, main_v458, main_c_69, main_v459, main_v460, main_v461, main_v462, main_v463, main_cst_70, main_v464, main_v465, main_v466, main_cst_71, main_v467, main_cst_72, main_v468, main_v469, main_v470, main_cst_73, main_v471, main_v472, main_v473, main_v474, main_v475, main_v476, main_v477, main_v478, main_v479, main_v480, main_v481, main_v482, main_v483]

set_option maxRecDepth 8192 in
theorem ops_c3ts_writes : (ops_c3ts : List (HloOp τ sig (Elt F))).Forall fun op =>
    op.writes ⊆ (wr_c3ts.map (Proc.devRef (τ := τ) .tc)).toFinset := by
  unfold ops_c3ts
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_c3ts (W : Valuation τ sig (Elt F)) (r : Ref sig .tc) (h : r ∉ wr_c3ts) :
    after ops_c3ts W (Proc.devRef .tc r) = W (Proc.devRef .tc r) :=
  after_of_writes_sub ops_c3ts _ ops_c3ts_writes h

set_option maxRecDepth 8192 in
set_option maxHeartbeats 4300000 in
/-- The relation's output: the mean aggregate of the source features over the edges into each destination node, through the relation's two weight matrices and bias. -/
theorem out_c3ts_v483 (W : Valuation τ sig (Elt F)) :
    after ops_c3ts W (Proc.devRef .tc main_v483) =
      Cert.Stages.sageOut (Cert.Stages.aggMean (W (Proc.devRef .tc main_v335)) (W (Proc.devRef .tc main_arg27)) (Cert.Stages.degF (W (Proc.devRef .tc main_arg27)))) (W (Proc.devRef .tc main_v333)) (Cert.Stages.wAt23 (W (Proc.devRef .tc main_arg11))) (Cert.Stages.bAt23 (W (Proc.devRef .tc main_arg12))) (Cert.Stages.wAt23 (W (Proc.devRef .tc main_arg13))) := by
  unfold ops_c3ts
  after_results_simp <;> rfl

/-! ## Layer 3: each node type's two relations averaged, the previous layer added, and rectified (operations 573 … 588 of the program). -/

/-- Layer 3: each node type's two relations averaged, the previous layer added, and rectified (operations 573 … 588 of the program). -/
def ops_cmb3 : List (HloOp τ sig (Elt F)) :=
  [ binary main_v372 main_v483 main_v484 (addf : (⟨S50000x128, .f32⟩ : BufTy).Contents (Elt F) → (⟨S50000x128, .f32⟩ : BufTy).Contents (Elt F) → (⟨S50000x128, .f32⟩ : BufTy).Contents (Elt F)),
    nullary main_cst_74 (constant S_ .f32 0x3F000000#32),
    unary main_cst_74 main_v485 (broadcastInDim S50000x128 ![] bcast_S_S50000x128 : (⟨S_, .f32⟩ : BufTy).Contents (Elt F) → (⟨S50000x128, .f32⟩ : BufTy).Contents (Elt F)),
    binary main_v484 main_v485 main_v486 (mulf : (⟨S50000x128, .f32⟩ : BufTy).Contents (Elt F) → (⟨S50000x128, .f32⟩ : BufTy).Contents (Elt F) → (⟨S50000x128, .f32⟩ : BufTy).Contents (Elt F)),
    binary main_v409 main_v446 main_v487 (addf : (⟨S50000x128, .f32⟩ : BufTy).Contents (Elt F) → (⟨S50000x128, .f32⟩ : BufTy).Contents (Elt F) → (⟨S50000x128, .f32⟩ : BufTy).Contents (Elt F)),
    nullary main_cst_75 (constant S_ .f32 0x3F000000#32),
    unary main_cst_75 main_v488 (broadcastInDim S50000x128 ![] bcast_S_S50000x128 : (⟨S_, .f32⟩ : BufTy).Contents (Elt F) → (⟨S50000x128, .f32⟩ : BufTy).Contents (Elt F)),
    binary main_v487 main_v488 main_v489 (mulf : (⟨S50000x128, .f32⟩ : BufTy).Contents (Elt F) → (⟨S50000x128, .f32⟩ : BufTy).Contents (Elt F) → (⟨S50000x128, .f32⟩ : BufTy).Contents (Elt F)),
    binary main_v486 main_v333 main_v490 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v490) (TRef.of (T := ⟨S50000x128, .f32⟩) main_call6_v0) (TRef.of (T := ⟨S50000x128, .f32⟩) main_v491) maximumf,
    binary main_v489 main_v335 main_v492 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v492) (TRef.of (T := ⟨S50000x128, .f32⟩) main_call7_v0) (TRef.of (T := ⟨S50000x128, .f32⟩) main_v493) maximumf ]

theorem ops_cmb3_sub : (ops_cmb3 : List (HloOp τ sig (Elt F))).Forall fun op => op.bufs ⊆ tcRefs τ sig := by
  unfold ops_cmb3
  exact ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem ops_cmb3_fresh : ∀ op ∈ (ops_cmb3 : List (HloOp τ sig (Elt F))), op.fresh = ∅ := by
  unfold ops_cmb3
  intro _ h
  repeat (cases h with | head => rfl | tail _ h => ?_)
  exact nomatch h

/-- The buffers these operations write. -/
abbrev wr_cmb3 : List (Ref sig .tc) := [main_v484, main_cst_74, main_v485, main_v486, main_v487, main_cst_75, main_v488, main_v489, main_v490, main_call6_cst, main_call6_v0, main_v491, main_v492, main_call7_cst, main_call7_v0, main_v493]

set_option maxRecDepth 8192 in
theorem ops_cmb3_writes : (ops_cmb3 : List (HloOp τ sig (Elt F))).Forall fun op =>
    op.writes ⊆ (wr_cmb3.map (Proc.devRef (τ := τ) .tc)).toFinset := by
  unfold ops_cmb3
  simp only [List.Forall]
  refine ⟨?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_cmb3 (W : Valuation τ sig (Elt F)) (r : Ref sig .tc) (h : r ∉ wr_cmb3) :
    after ops_cmb3 W (Proc.devRef .tc r) = W (Proc.devRef .tc r) :=
  after_of_writes_sub ops_cmb3 _ ops_cmb3_writes h

set_option maxRecDepth 8192 in
set_option maxHeartbeats 1600000 in
/-- The layer's source-node features. -/
theorem out_cmb3_v491 (W : Valuation τ sig (Elt F)) :
    after ops_cmb3 W (Proc.devRef .tc main_v491) =
      Cert.Stages.relu (addf (Cert.Stages.halfSum (W (Proc.devRef .tc main_v372)) (W (Proc.devRef .tc main_v483))) (W (Proc.devRef .tc main_v333))) := by
  unfold ops_cmb3
  after_results_simp <;> rfl

set_option maxRecDepth 8192 in
set_option maxHeartbeats 1600000 in
/-- The layer's target-node features. -/
theorem out_cmb3_v493 (W : Valuation τ sig (Elt F)) :
    after ops_cmb3 W (Proc.devRef .tc main_v493) =
      Cert.Stages.relu (addf (Cert.Stages.halfSum (W (Proc.devRef .tc main_v409)) (W (Proc.devRef .tc main_v446))) (W (Proc.devRef .tc main_v335))) := by
  unfold ops_cmb3
  after_results_simp <;> rfl

end Cert.ReferenceIdeal.RefValue

end
-- ==== Proof.RefHeadA.lean ====
import proofs.«166951_j44444321579084_2_alg».proof.Proof.Stages
import Idealize.ShloMosaic.Lib.StableHlo.Run

/-!
# The reference's edge head read back: the end points' rows

Each stretch of the reference program's host operations is read back from ANY contents `W` of the device's
buffers: the stretch's result buffer ends at the stage's function (`Cert.Stages`) of what `W` holds at the
buffers the stretch reads, and every buffer the stretch does not write keeps what `W` holds there.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The edge head's two gathers: each source→target edge's source row of the source features and target row of the target features (operations 589 … 610 of the program). -/

/-- The edge head's two gathers: each source→target edge's source row of the source features and target row of the target features (operations 589 … 610 of the program). -/
def ops_hdA : List (HloOp τ sig (Elt F)) :=
  [ unary main_arg26 main_v494 ((extractStridedSlice S1x500000 ![0, 0] · slices_S2x500000_S1x500000_0_0) : (⟨S2x500000, .i32⟩ : BufTy).Contents (Elt F) → (⟨S1x500000, .i32⟩ : BufTy).Contents (Elt F)),
    reshape main_v494 main_v495 rfl shapeCasts_S1x500000_S500000,
    unary main_arg26 main_v496 ((extractStridedSlice S1x500000 ![1, 0] · slices_S2x500000_S1x500000_1_0) : (⟨S2x500000, .i32⟩ : BufTy).Contents (Elt F) → (⟨S1x500000, .i32⟩ : BufTy).Contents (Elt F)),
    reshape main_v496 main_v497 rfl shapeCasts_S1x500000_S500000,
    nullary main_c_76 (constantI S_ 32 0#32),
    unary main_c_76 main_v498 (broadcastInDim S500000 ![] bcast_S_S500000 : (⟨S_, .i32⟩ : BufTy).Contents (Elt F) → (⟨S500000, .i32⟩ : BufTy).Contents (Elt F)),
    binary main_v495 main_v498 main_v499 (cmpi .slt : (⟨S500000, .i32⟩ : BufTy).Contents (Elt F) → (⟨S500000, .i32⟩ : BufTy).Contents (Elt F) → (⟨S500000, .i1⟩ : BufTy).Contents (Elt F)),
    nullary main_c_77 (constantI S_ 32 50000#32),
    unary main_c_77 main_v500 (broadcastInDim S500000 ![] bcast_S_S500000 : (⟨S_, .i32⟩ : BufTy).Contents (Elt F) → (⟨S500000, .i32⟩ : BufTy).Contents (Elt F)),
    binary main_v495 main_v500 main_v501 (addi : (⟨S500000, .i32⟩ : BufTy).Contents (Elt F) → (⟨S500000, .i32⟩ : BufTy).Contents (Elt F) → (⟨S500000, .i32⟩ : BufTy).Contents (Elt F)),
    ternary main_v499 main_v501 main_v495 main_v502 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v502 main_v503 (broadcastInDim S500000x1 ![0] bcast_S500000_S500000x1_0 : (⟨S500000, .i32⟩ : BufTy).Contents (Elt F) → (⟨S500000x1, .i32⟩ : BufTy).Contents (Elt F)),
    binary main_v491 main_v503 main_v504 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_c_78 (constantI S_ 32 0#32),
    unary main_c_78 main_v505 (broadcastInDim S500000 ![] bcast_S_S500000 : (⟨S_, .i32⟩ : BufTy).Contents (Elt F) → (⟨S500000, .i32⟩ : BufTy).Contents (Elt F)),
    binary main_v497 main_v505 main_v506 (cmpi .slt : (⟨S500000, .i32⟩ : BufTy).Contents (Elt F) → (⟨S500000, .i32⟩ : BufTy).Contents (Elt F) → (⟨S500000, .i1⟩ : BufTy).Contents (Elt F)),
    nullary main_c_79 (constantI S_ 32 50000#32),
    unary main_c_79 main_v507 (broadcastInDim S500000 ![] bcast_S_S500000 : (⟨S_, .i32⟩ : BufTy).Contents (Elt F) → (⟨S500000, .i32⟩ : BufTy).Contents (Elt F)),
    binary main_v497 main_v507 main_v508 (addi : (⟨S500000, .i32⟩ : BufTy).Contents (Elt F) → (⟨S500000, .i32⟩ : BufTy).Contents (Elt F) → (⟨S500000, .i32⟩ : BufTy).Contents (Elt F)),
    ternary main_v506 main_v508 main_v497 main_v509 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v509 main_v510 (broadcastInDim S500000x1 ![0] bcast_S500000_S500000x1_0 : (⟨S500000, .i32⟩ : BufTy).Contents (Elt F) → (⟨S500000x1, .i32⟩ : BufTy).Contents (Elt F)),
    binary main_v493 main_v510 main_v511 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) ]

theorem ops_hdA_sub : (ops_hdA : List (HloOp τ sig (Elt F))).Forall fun op => op.bufs ⊆ tcRefs τ sig := by
  unfold ops_hdA
  exact ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops_hdA_fresh : ∀ op ∈ (ops_hdA : List (HloOp τ sig (Elt F))), op.fresh = ∅ := by
  unfold ops_hdA
  intro _ h
  repeat (cases h with | head => rfl | tail _ h => ?_)
  exact nomatch h

/-- The buffers these operations write. -/
abbrev wr_hdA : List (Ref sig .tc) := [main_v494, main_v495, main_v496, main_v497, main_c_76, main_v498, main_v499, main_c_77, main_v500, main_v501, main_v502, main_v503, main_v504, main_c_78, main_v505, main_v506, main_c_79, main_v507, main_v508, main_v509, main_v510, main_v511]

set_option maxRecDepth 8192 in
theorem ops_hdA_writes : (ops_hdA : List (HloOp τ sig (Elt F))).Forall fun op =>
    op.writes ⊆ (wr_hdA.map (Proc.devRef (τ := τ) .tc)).toFinset := by
  unfold ops_hdA
  simp only [List.Forall]
  refine ⟨?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_hdA (W : Valuation τ sig (Elt F)) (r : Ref sig .tc) (h : r ∉ wr_hdA) :
    after ops_hdA W (Proc.devRef .tc r) = W (Proc.devRef .tc r) :=
  after_of_writes_sub ops_hdA _ ops_hdA_writes h

set_option maxRecDepth 8192 in
set_option maxHeartbeats 2200000 in
/-- The source end points' rows. -/
theorem out_hdA_v504 (W : Valuation τ sig (Elt F)) :
    after ops_hdA W (Proc.devRef .tc main_v504) =
      Cert.Stages.srcRows (W (Proc.devRef .tc main_v491)) (Cert.Stages.eiRow0 (W (Proc.devRef .tc main_arg26))) := by
  unfold ops_hdA
  after_results_simp <;> rfl

set_option maxRecDepth 8192 in
set_option maxHeartbeats 2200000 in
/-- The target end points' rows. -/
theorem out_hdA_v511 (W : Valuation τ sig (Elt F)) :
    after ops_hdA W (Proc.devRef .tc main_v511) =
      Cert.Stages.srcRows (W (Proc.devRef .tc main_v493)) (Cert.Stages.eiRow1 (W (Proc.devRef .tc main_arg26))) := by
  unfold ops_hdA
  after_results_simp <;> rfl

end Cert.ReferenceIdeal.RefValue

end
-- ==== Proof.RefHeadB.lean ====
import proofs.«166951_j44444321579084_2_alg».proof.Proof.Stages
import Idealize.ShloMosaic.Lib.StableHlo.Run

/-!
# The reference's edge head read back: the gate and the dense layers

Each stretch of the reference program's host operations is read back from ANY contents `W` of the device's
buffers: the stretch's result buffer ends at the stage's function (`Cert.Stages`) of what `W` holds at the
buffers the stretch reads, and every buffer the stretch does not write keeps what `W` holds there.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The edge head's dense part: the gate, the gated mix, the edge attributes joined, three dense layers (operations 611 … 662 of the program). -/

/-- The edge head's dense part: the gate, the gated mix, the edge attributes joined, three dense layers (operations 611 … 662 of the program). -/
def ops_hdB : List (HloOp τ sig (Elt F)) :=
  [ binary main_v504 main_v511 main_v512 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    unary main_arg14 main_v513 ((transpose S256x128 [1, 0] · transposes_S128x256_S256x128_1_0) : (⟨S128x256, .f32⟩ : BufTy).Contents (Elt F) → (⟨S256x128, .f32⟩ : BufTy).Contents (Elt F)),
    binary main_v512 main_v513 main_v514 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    unary main_arg15 main_v515 (broadcastInDim S1x128 ![1] bcast_S128_S1x128_1 : (⟨S128, .f32⟩ : BufTy).Contents (Elt F) → (⟨S1x128, .f32⟩ : BufTy).Contents (Elt F)),
    unary main_v515 main_v516 (broadcastInDim S500000x128 ![0, 1] bcast_S1x128_S500000x128_0_1 : (⟨S1x128, .f32⟩ : BufTy).Contents (Elt F) → (⟨S500000x128, .f32⟩ : BufTy).Contents (Elt F)),
    binary main_v514 main_v516 main_v517 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S500000x128, .f32⟩) main_call8_v0) (broadcastInDim S500000x128 ![] bcast_S_S500000x128),
    TRef.binary (TRef.of (T := ⟨S500000x128, .f32⟩) main_v517) (TRef.of (T := ⟨S500000x128, .f32⟩) main_call8_v0) (TRef.of (T := ⟨S500000x128, .f32⟩) main_v518) maximumf,
    unary main_arg16 main_v519 ((transpose S128x1 [1, 0] · transposes_S1x128_S128x1_1_0) : (⟨S1x128, .f32⟩ : BufTy).Contents (Elt F) → (⟨S128x1, .f32⟩ : BufTy).Contents (Elt F)),
    binary main_v518 main_v519 main_v520 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg17 main_v521 (broadcastInDim S1x1 ![1] bcast_S1_S1x1_1 : (⟨S1, .f32⟩ : BufTy).Contents (Elt F) → (⟨S1x1, .f32⟩ : BufTy).Contents (Elt F)),
    unary main_v521 main_v522 (broadcastInDim S500000x1 ![0, 1] bcast_S1x1_S500000x1_0_1 : (⟨S1x1, .f32⟩ : BufTy).Contents (Elt F) → (⟨S500000x1, .f32⟩ : BufTy).Contents (Elt F)),
    binary main_v520 main_v522 main_v523 (addf : (⟨S500000x1, .f32⟩ : BufTy).Contents (Elt F) → (⟨S500000x1, .f32⟩ : BufTy).Contents (Elt F) → (⟨S500000x1, .f32⟩ : BufTy).Contents (Elt F)),
    unary main_v523 main_v524 (Host.negf : (⟨S500000x1, .f32⟩ : BufTy).Contents (Elt F) → (⟨S500000x1, .f32⟩ : BufTy).Contents (Elt F)),
    unary main_v524 main_v525 (Host.exp : (⟨S500000x1, .f32⟩ : BufTy).Contents (Elt F) → (⟨S500000x1, .f32⟩ : BufTy).Contents (Elt F)),
    nullary main_cst_80 (constant S_ .f32 0x3F800000#32),
    unary main_cst_80 main_v526 (broadcastInDim S500000x1 ![] bcast_S_S500000x1 : (⟨S_, .f32⟩ : BufTy).Contents (Elt F) → (⟨S500000x1, .f32⟩ : BufTy).Contents (Elt F)),
    binary main_v526 main_v525 main_v527 (addf : (⟨S500000x1, .f32⟩ : BufTy).Contents (Elt F) → (⟨S500000x1, .f32⟩ : BufTy).Contents (Elt F) → (⟨S500000x1, .f32⟩ : BufTy).Contents (Elt F)),
    nullary main_cst_81 (constant S_ .f32 0x3F800000#32),
    unary main_cst_81 main_v528 (broadcastInDim S500000x1 ![] bcast_S_S500000x1 : (⟨S_, .f32⟩ : BufTy).Contents (Elt F) → (⟨S500000x1, .f32⟩ : BufTy).Contents (Elt F)),
    binary main_v528 main_v527 main_v529 (Host.divf : (⟨S500000x1, .f32⟩ : BufTy).Contents (Elt F) → (⟨S500000x1, .f32⟩ : BufTy).Contents (Elt F) → (⟨S500000x1, .f32⟩ : BufTy).Contents (Elt F)),
    unary main_v529 main_v530 (broadcastInDim S500000x128 ![0, 1] bcast_S500000x1_S500000x128_0_1 : (⟨S500000x1, .f32⟩ : BufTy).Contents (Elt F) → (⟨S500000x128, .f32⟩ : BufTy).Contents (Elt F)),
    binary main_v504 main_v530 main_v531 (mulf : (⟨S500000x128, .f32⟩ : BufTy).Contents (Elt F) → (⟨S500000x128, .f32⟩ : BufTy).Contents (Elt F) → (⟨S500000x128, .f32⟩ : BufTy).Contents (Elt F)),
    nullary main_cst_82 (constant S_ .f32 0x3F800000#32),
    unary main_cst_82 main_v532 (broadcastInDim S500000x1 ![] bcast_S_S500000x1 : (⟨S_, .f32⟩ : BufTy).Contents (Elt F) → (⟨S500000x1, .f32⟩ : BufTy).Contents (Elt F)),
    binary main_v532 main_v529 main_v533 (subf : (⟨S500000x1, .f32⟩ : BufTy).Contents (Elt F) → (⟨S500000x1, .f32⟩ : BufTy).Contents (Elt F) → (⟨S500000x1, .f32⟩ : BufTy).Contents (Elt F)),
    unary main_v533 main_v534 (broadcastInDim S500000x128 ![0, 1] bcast_S500000x1_S500000x128_0_1 : (⟨S500000x1, .f32⟩ : BufTy).Contents (Elt F) → (⟨S500000x128, .f32⟩ : BufTy).Contents (Elt F)),
    binary main_v511 main_v534 main_v535 (mulf : (⟨S500000x128, .f32⟩ : BufTy).Contents (Elt F) → (⟨S500000x128, .f32⟩ : BufTy).Contents (Elt F) → (⟨S500000x128, .f32⟩ : BufTy).Contents (Elt F)),
    binary main_v531 main_v535 main_v536 (addf : (⟨S500000x128, .f32⟩ : BufTy).Contents (Elt F) → (⟨S500000x128, .f32⟩ : BufTy).Contents (Elt F) → (⟨S500000x128, .f32⟩ : BufTy).Contents (Elt F)),
    binary main_v536 main_arg2 main_v537 ((fun a b => concatenate S500000x160 1 [⟨S500000x128, a⟩, ⟨S500000x32, b⟩] concatenates_S500000x128_S500000x32_S500000x160_d1) : (⟨S500000x128, .f32⟩ : BufTy).Contents (Elt F) → (⟨S500000x32, .f32⟩ : BufTy).Contents (Elt F) → (⟨S500000x160, .f32⟩ : BufTy).Contents (Elt F)),
    unary main_arg18 main_v538 ((transpose S160x128 [1, 0] · transposes_S128x160_S160x128_1_0) : (⟨S128x160, .f32⟩ : BufTy).Contents (Elt F) → (⟨S160x128, .f32⟩ : BufTy).Contents (Elt F)),
    binary main_v537 main_v538 main_v539 ((fun l r => Host.dotGeneral dot_S500000x160_S160x128_S500000x128_1_0_0_1_n_n none l r) : (⟨S500000x160, .f32⟩ : BufTy).Contents (Elt F) → (⟨S160x128, .f32⟩ : BufTy).Contents (Elt F) → (⟨S500000x128, .f32⟩ : BufTy).Contents (Elt F)),
    unary main_arg19 main_v540 (broadcastInDim S1x128 ![1] bcast_S128_S1x128_1 : (⟨S128, .f32⟩ : BufTy).Contents (Elt F) → (⟨S1x128, .f32⟩ : BufTy).Contents (Elt F)),
    unary main_v540 main_v541 (broadcastInDim S500000x128 ![0, 1] bcast_S1x128_S500000x128_0_1 : (⟨S1x128, .f32⟩ : BufTy).Contents (Elt F) → (⟨S500000x128, .f32⟩ : BufTy).Contents (Elt F)),
    binary main_v539 main_v541 main_v542 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S500000x128, .f32⟩) main_call9_v0) (broadcastInDim S500000x128 ![] bcast_S_S500000x128),
    TRef.binary (TRef.of (T := ⟨S500000x128, .f32⟩) main_v542) (TRef.of (T := ⟨S500000x128, .f32⟩) main_call9_v0) (TRef.of (T := ⟨S500000x128, .f32⟩) main_v543) maximumf,
    unary main_arg20 main_v544 ((transpose S128x64 [1, 0] · transposes_S64x128_S128x64_1_0) : (⟨S64x128, .f32⟩ : BufTy).Contents (Elt F) → (⟨S128x64, .f32⟩ : BufTy).Contents (Elt F)),
    binary main_v543 main_v544 main_v545 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)),
    unary main_arg21 main_v546 (broadcastInDim S1x64 ![1] bcast_S64_S1x64_1 : (⟨S64, .f32⟩ : BufTy).Contents (Elt F) → (⟨S1x64, .f32⟩ : BufTy).Contents (Elt F)),
    unary main_v546 main_v547 (broadcastInDim S500000x64 ![0, 1] bcast_S1x64_S500000x64_0_1 : (⟨S1x64, .f32⟩ : BufTy).Contents (Elt F) → (⟨S500000x64, .f32⟩ : BufTy).Contents (Elt F)),
    binary main_v545 main_v547 main_v548 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S500000x64, .f32⟩) main_call10_v0) (broadcastInDim S500000x64 ![] bcast_S_S500000x64),
    TRef.binary (TRef.of (T := ⟨S500000x64, .f32⟩) main_v548) (TRef.of (T := ⟨S500000x64, .f32⟩) main_call10_v0) (TRef.of (T := ⟨S500000x64, .f32⟩) main_v549) maximumf,
    unary main_arg22 main_v550 ((transpose S64x2 [1, 0] · transposes_S2x64_S64x2_1_0) : (⟨S2x64, .f32⟩ : BufTy).Contents (Elt F) → (⟨S64x2, .f32⟩ : BufTy).Contents (Elt F)),
    binary main_v549 main_v550 main_v551 ((fun l r => Host.dotGeneral dot_S500000x64_S64x2_S500000x2_1_0_0_1_n_n none l r) : (⟨S500000x64, .f32⟩ : BufTy).Contents (Elt F) → (⟨S64x2, .f32⟩ : BufTy).Contents (Elt F) → (⟨S500000x2, .f32⟩ : BufTy).Contents (Elt F)),
    unary main_arg23 main_v552 (broadcastInDim S1x2 ![1] bcast_S2_S1x2_1 : (⟨S2, .f32⟩ : BufTy).Contents (Elt F) → (⟨S1x2, .f32⟩ : BufTy).Contents (Elt F)),
    unary main_v552 main_v553 (broadcastInDim S500000x2 ![0, 1] bcast_S1x2_S500000x2_0_1 : (⟨S1x2, .f32⟩ : BufTy).Contents (Elt F) → (⟨S500000x2, .f32⟩ : BufTy).Contents (Elt F)),
    binary main_v551 main_v553 main_v554 (addf : (⟨S500000x2, .f32⟩ : BufTy).Contents (Elt F) → (⟨S500000x2, .f32⟩ : BufTy).Contents (Elt F) → (⟨S500000x2, .f32⟩ : BufTy).Contents (Elt F)) ]

theorem ops_hdB_sub : (ops_hdB : List (HloOp τ sig (Elt F))).Forall fun op => op.bufs ⊆ tcRefs τ sig := by
  unfold ops_hdB
  exact ⟨binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem ops_hdB_fresh : ∀ op ∈ (ops_hdB : List (HloOp τ sig (Elt F))), op.fresh = ∅ := by
  unfold ops_hdB
  intro _ h
  repeat (cases h with | head => rfl | tail _ h => ?_)
  exact nomatch h

/-- The buffers these operations write. -/
abbrev wr_hdB : List (Ref sig .tc) := [main_v512, main_v513, main_v514, main_v515, main_v516, main_v517, main_call8_cst, main_call8_v0, main_v518, main_v519, main_v520, main_v521, main_v522, main_v523, main_v524, main_v525, main_cst_80, main_v526, main_v527, main_cst_81, main_v528, main_v529, main_v530, main_v531, main_cst_82, main_v532, main_v533, main_v534, main_v535, main_v536, main_v537, main_v538, main_v539, main_v540, main_v541, main_v542, main_call9_cst, main_call9_v0, main_v543, main_v544, main_v545, main_v546, main_v547, main_v548, main_call10_cst, main_call10_v0, main_v549, main_v550, main_v551, main_v552, main_v553, main_v554]

set_option maxRecDepth 8192 in
theorem ops_hdB_writes : (ops_hdB : List (HloOp τ sig (Elt F))).Forall fun op =>
    op.writes ⊆ (wr_hdB.map (Proc.devRef (τ := τ) .tc)).toFinset := by
  unfold ops_hdB
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents through them. -/
theorem keep_hdB (W : Valuation τ sig (Elt F)) (r : Ref sig .tc) (h : r ∉ wr_hdB) :
    after ops_hdB W (Proc.devRef .tc r) = W (Proc.devRef .tc r) :=
  after_of_writes_sub ops_hdB _ ops_hdB_writes h

set_option maxRecDepth 8192 in
set_option maxHeartbeats 5200000 in
/-- The network's result. -/
theorem out_hdB_v554 (W : Valuation τ sig (Elt F)) :
    after ops_hdB W (Proc.devRef .tc main_v554) =
      Cert.Stages.headOut (W (Proc.devRef .tc main_v504)) (W (Proc.devRef .tc main_v511)) (W (Proc.devRef .tc main_arg2)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) := by
  unfold ops_hdB
  after_results_simp <;> rfl

end Cert.ReferenceIdeal.RefValue

end
-- ==== Proof.RefRun.lean ====
import proofs.«166951_j44444321579084_2_alg».proof.Defs
import proofs.«166951_j44444321579084_2_alg».proof.Proof.Gen.ReferenceIdeal
import proofs.«166951_j44444321579084_2_alg».proof.Proof.Gen.Pre_finite_inputs
import proofs.«166951_j44444321579084_2_alg».proof.Proof.Stages
import proofs.«166951_j44444321579084_2_alg».proof.Proof.RefAux
import proofs.«166951_j44444321579084_2_alg».proof.Proof.RefEnc
import proofs.«166951_j44444321579084_2_alg».proof.Proof.RefL1a
import proofs.«166951_j44444321579084_2_alg».proof.Proof.RefL1b
import proofs.«166951_j44444321579084_2_alg».proof.Proof.RefL2a
import proofs.«166951_j44444321579084_2_alg».proof.Proof.RefL2b
import proofs.«166951_j44444321579084_2_alg».proof.Proof.RefL3a
import proofs.«166951_j44444321579084_2_alg».proof.Proof.RefL3b
import proofs.«166951_j44444321579084_2_alg».proof.Proof.RefHeadA
import proofs.«166951_j44444321579084_2_alg».proof.Proof.RefHeadB

-- one declaration at a time: the membership decisions below each hold memory while they run
set_option Elab.async false

/-!
# The reference program's run

The reference is a straight line of host operations. Cut into its stages — the two encoders, per layer the four
relations' mean aggregations and the per-type combination, the edge head — its run ends with the result buffer at
the network function `Cert.Stages.netOut` of the 28 argument arrays, and leaves the arguments as they were.
Stage by stage: each stage's result is that stage's function of the buffers it reads; a buffer a later stage reads
is not written in between, so it still holds the earlier stage's result when it is read.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## No stage writes an argument -/

set_option maxRecDepth 8192 in
theorem args_enc : ∀ r ∈ argRefs, r ∉ (wr_enc : List (Ref sig .tc)) := by decide +kernel
set_option maxRecDepth 8192 in
theorem args_c1ss : ∀ r ∈ argRefs, r ∉ (wr_c1ss : List (Ref sig .tc)) := by decide +kernel
set_option maxRecDepth 8192 in
theorem args_c1tt : ∀ r ∈ argRefs, r ∉ (wr_c1tt : List (Ref sig .tc)) := by decide +kernel
set_option maxRecDepth 8192 in
theorem args_c1st : ∀ r ∈ argRefs, r ∉ (wr_c1st : List (Ref sig .tc)) := by decide +kernel
set_option maxRecDepth 8192 in
theorem args_c1ts : ∀ r ∈ argRefs, r ∉ (wr_c1ts : List (Ref sig .tc)) := by decide +kernel
set_option maxRecDepth 8192 in
theorem args_cmb1 : ∀ r ∈ argRefs, r ∉ (wr_cmb1 : List (Ref sig .tc)) := by decide +kernel
set_option maxRecDepth 8192 in
theorem args_c2ss : ∀ r ∈ argRefs, r ∉ (wr_c2ss : List (Ref sig .tc)) := by decide +kernel
set_option maxRecDepth 8192 in
theorem args_c2tt : ∀ r ∈ argRefs, r ∉ (wr_c2tt : List (Ref sig .tc)) := by decide +kernel
set_option maxRecDepth 8192 in
theorem args_c2st : ∀ r ∈ argRefs, r ∉ (wr_c2st : List (Ref sig .tc)) := by decide +kernel
set_option maxRecDepth 8192 in
theorem args_c2ts : ∀ r ∈ argRefs, r ∉ (wr_c2ts : List (Ref sig .tc)) := by decide +kernel
set_option maxRecDepth 8192 in
theorem args_cmb2 : ∀ r ∈ argRefs, r ∉ (wr_cmb2 : List (Ref sig .tc)) := by decide +kernel
set_option maxRecDepth 8192 in
theorem args_c3ss : ∀ r ∈ argRefs, r ∉ (wr_c3ss : List (Ref sig .tc)) := by decide +kernel
set_option maxRecDepth 8192 in
theorem args_c3tt : ∀ r ∈ argRefs, r ∉ (wr_c3tt : List (Ref sig .tc)) := by decide +kernel
set_option maxRecDepth 8192 in
theorem args_c3st : ∀ r ∈ argRefs, r ∉ (wr_c3st : List (Ref sig .tc)) := by decide +kernel
set_option maxRecDepth 8192 in
theorem args_c3ts : ∀ r ∈ argRefs, r ∉ (wr_c3ts : List (Ref sig .tc)) := by decide +kernel
set_option maxRecDepth 8192 in
theorem args_cmb3 : ∀ r ∈ argRefs, r ∉ (wr_cmb3 : List (Ref sig .tc)) := by decide +kernel
set_option maxRecDepth 8192 in
theorem args_hdA : ∀ r ∈ argRefs, r ∉ (wr_hdA : List (Ref sig .tc)) := by decide +kernel
set_option maxRecDepth 8192 in
theorem args_hdB : ∀ r ∈ argRefs, r ∉ (wr_hdB : List (Ref sig .tc)) := by decide +kernel

/-! ## What each stage's result is, as a function of the contents the run starts from -/

section Expected

variable (V0 : Valuation τ sig (Elt F))

/-- The contents `main_v10` ends at. -/
def e_v10 :=
  Cert.Stages.encS (V0 (Proc.devRef .tc main_arg0)) (V0 (Proc.devRef .tc main_arg3)) (V0 (Proc.devRef .tc main_arg4)) (V0 (Proc.devRef .tc main_arg5)) (V0 (Proc.devRef .tc main_arg6))

/-- The contents `main_v21` ends at. -/
def e_v21 :=
  Cert.Stages.encT (V0 (Proc.devRef .tc main_arg1)) (V0 (Proc.devRef .tc main_arg7)) (V0 (Proc.devRef .tc main_arg8)) (V0 (Proc.devRef .tc main_arg9)) (V0 (Proc.devRef .tc main_arg10))

/-- The contents `main_v58` ends at. -/
def e_v58 :=
  Cert.Stages.sageOut (Cert.Stages.aggMean (e_v10 V0) (V0 (Proc.devRef .tc main_arg24)) (Cert.Stages.degF (V0 (Proc.devRef .tc main_arg24)))) (e_v10 V0) (Cert.Stages.wAt00 (V0 (Proc.devRef .tc main_arg11))) (Cert.Stages.bAt00 (V0 (Proc.devRef .tc main_arg12))) (Cert.Stages.wAt00 (V0 (Proc.devRef .tc main_arg13)))

/-- The contents `main_v95` ends at. -/
def e_v95 :=
  Cert.Stages.sageOut (Cert.Stages.aggMean (e_v21 V0) (V0 (Proc.devRef .tc main_arg25)) (Cert.Stages.degF (V0 (Proc.devRef .tc main_arg25)))) (e_v21 V0) (Cert.Stages.wAt01 (V0 (Proc.devRef .tc main_arg11))) (Cert.Stages.bAt01 (V0 (Proc.devRef .tc main_arg12))) (Cert.Stages.wAt01 (V0 (Proc.devRef .tc main_arg13)))

/-- The contents `main_v132` ends at. -/
def e_v132 :=
  Cert.Stages.sageOut (Cert.Stages.aggMean (e_v10 V0) (V0 (Proc.devRef .tc main_arg26)) (Cert.Stages.degF (V0 (Proc.devRef .tc main_arg26)))) (e_v21 V0) (Cert.Stages.wAt02 (V0 (Proc.devRef .tc main_arg11))) (Cert.Stages.bAt02 (V0 (Proc.devRef .tc main_arg12))) (Cert.Stages.wAt02 (V0 (Proc.devRef .tc main_arg13)))

/-- The contents `main_v169` ends at. -/
def e_v169 :=
  Cert.Stages.sageOut (Cert.Stages.aggMean (e_v21 V0) (V0 (Proc.devRef .tc main_arg27)) (Cert.Stages.degF (V0 (Proc.devRef .tc main_arg27)))) (e_v10 V0) (Cert.Stages.wAt03 (V0 (Proc.devRef .tc main_arg11))) (Cert.Stages.bAt03 (V0 (Proc.devRef .tc main_arg12))) (Cert.Stages.wAt03 (V0 (Proc.devRef .tc main_arg13)))

/-- The contents `main_v176` ends at. -/
def e_v176 :=
  Cert.Stages.relu (Cert.Stages.halfSum (e_v58 V0) (e_v169 V0))

/-- The contents `main_v177` ends at. -/
def e_v177 :=
  Cert.Stages.relu (Cert.Stages.halfSum (e_v95 V0) (e_v132 V0))

/-- The contents `main_v214` ends at. -/
def e_v214 :=
  Cert.Stages.sageOut (Cert.Stages.aggMean (e_v176 V0) (V0 (Proc.devRef .tc main_arg24)) (Cert.Stages.degF (V0 (Proc.devRef .tc main_arg24)))) (e_v176 V0) (Cert.Stages.wAt10 (V0 (Proc.devRef .tc main_arg11))) (Cert.Stages.bAt10 (V0 (Proc.devRef .tc main_arg12))) (Cert.Stages.wAt10 (V0 (Proc.devRef .tc main_arg13)))

/-- The contents `main_v251` ends at. -/
def e_v251 :=
  Cert.Stages.sageOut (Cert.Stages.aggMean (e_v177 V0) (V0 (Proc.devRef .tc main_arg25)) (Cert.Stages.degF (V0 (Proc.devRef .tc main_arg25)))) (e_v177 V0) (Cert.Stages.wAt11 (V0 (Proc.devRef .tc main_arg11))) (Cert.Stages.bAt11 (V0 (Proc.devRef .tc main_arg12))) (Cert.Stages.wAt11 (V0 (Proc.devRef .tc main_arg13)))

/-- The contents `main_v288` ends at. -/
def e_v288 :=
  Cert.Stages.sageOut (Cert.Stages.aggMean (e_v176 V0) (V0 (Proc.devRef .tc main_arg26)) (Cert.Stages.degF (V0 (Proc.devRef .tc main_arg26)))) (e_v177 V0) (Cert.Stages.wAt12 (V0 (Proc.devRef .tc main_arg11))) (Cert.Stages.bAt12 (V0 (Proc.devRef .tc main_arg12))) (Cert.Stages.wAt12 (V0 (Proc.devRef .tc main_arg13)))

/-- The contents `main_v325` ends at. -/
def e_v325 :=
  Cert.Stages.sageOut (Cert.Stages.aggMean (e_v177 V0) (V0 (Proc.devRef .tc main_arg27)) (Cert.Stages.degF (V0 (Proc.devRef .tc main_arg27)))) (e_v176 V0) (Cert.Stages.wAt13 (V0 (Proc.devRef .tc main_arg11))) (Cert.Stages.bAt13 (V0 (Proc.devRef .tc main_arg12))) (Cert.Stages.wAt13 (V0 (Proc.devRef .tc main_arg13)))

/-- The contents `main_v333` ends at. -/
def e_v333 :=
  Cert.Stages.relu (addf (Cert.Stages.halfSum (e_v214 V0) (e_v325 V0)) (e_v176 V0))

/-- The contents `main_v335` ends at. -/
def e_v335 :=
  Cert.Stages.relu (addf (Cert.Stages.halfSum (e_v251 V0) (e_v288 V0)) (e_v177 V0))

/-- The contents `main_v372` ends at. -/
def e_v372 :=
  Cert.Stages.sageOut (Cert.Stages.aggMean (e_v333 V0) (V0 (Proc.devRef .tc main_arg24)) (Cert.Stages.degF (V0 (Proc.devRef .tc main_arg24)))) (e_v333 V0) (Cert.Stages.wAt20 (V0 (Proc.devRef .tc main_arg11))) (Cert.Stages.bAt20 (V0 (Proc.devRef .tc main_arg12))) (Cert.Stages.wAt20 (V0 (Proc.devRef .tc main_arg13)))

/-- The contents `main_v409` ends at. -/
def e_v409 :=
  Cert.Stages.sageOut (Cert.Stages.aggMean (e_v335 V0) (V0 (Proc.devRef .tc main_arg25)) (Cert.Stages.degF (V0 (Proc.devRef .tc main_arg25)))) (e_v335 V0) (Cert.Stages.wAt21 (V0 (Proc.devRef .tc main_arg11))) (Cert.Stages.bAt21 (V0 (Proc.devRef .tc main_arg12))) (Cert.Stages.wAt21 (V0 (Proc.devRef .tc main_arg13)))

/-- The contents `main_v446` ends at. -/
def e_v446 :=
  Cert.Stages.sageOut (Cert.Stages.aggMean (e_v333 V0) (V0 (Proc.devRef .tc main_arg26)) (Cert.Stages.degF (V0 (Proc.devRef .tc main_arg26)))) (e_v335 V0) (Cert.Stages.wAt22 (V0 (Proc.devRef .tc main_arg11))) (Cert.Stages.bAt22 (V0 (Proc.devRef .tc main_arg12))) (Cert.Stages.wAt22 (V0 (Proc.devRef .tc main_arg13)))

/-- The contents `main_v483` ends at. -/
def e_v483 :=
  Cert.Stages.sageOut (Cert.Stages.aggMean (e_v335 V0) (V0 (Proc.devRef .tc main_arg27)) (Cert.Stages.degF (V0 (Proc.devRef .tc main_arg27)))) (e_v333 V0) (Cert.Stages.wAt23 (V0 (Proc.devRef .tc main_arg11))) (Cert.Stages.bAt23 (V0 (Proc.devRef .tc main_arg12))) (Cert.Stages.wAt23 (V0 (Proc.devRef .tc main_arg13)))

/-- The contents `main_v491` ends at. -/
def e_v491 :=
  Cert.Stages.relu (addf (Cert.Stages.halfSum (e_v372 V0) (e_v483 V0)) (e_v333 V0))

/-- The contents `main_v493` ends at. -/
def e_v493 :=
  Cert.Stages.relu (addf (Cert.Stages.halfSum (e_v409 V0) (e_v446 V0)) (e_v335 V0))

/-- The contents `main_v504` ends at. -/
def e_v504 :=
  Cert.Stages.srcRows (e_v491 V0) (Cert.Stages.eiRow0 (V0 (Proc.devRef .tc main_arg26)))

/-- The contents `main_v511` ends at. -/
def e_v511 :=
  Cert.Stages.srcRows (e_v493 V0) (Cert.Stages.eiRow1 (V0 (Proc.devRef .tc main_arg26)))

/-- The contents `main_v554` ends at. -/
def e_v554 :=
  Cert.Stages.headOut (e_v504 V0) (e_v511 V0) (V0 (Proc.devRef .tc main_arg2)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23))

end Expected

/-! ## The contents after each stage -/

/-- The contents after the first 1 stage. -/
def val1 (V0 : Valuation τ sig (Elt F)) : Valuation τ sig (Elt F) := after ops_enc V0

theorem a1 (V0 : Valuation τ sig (Elt F)) (r : Ref sig .tc) (hr : r ∈ argRefs) :
    val1 V0 (Proc.devRef .tc r) = V0 (Proc.devRef .tc r) := by
  unfold val1
  exact keep_enc _ r (args_enc r hr)

theorem v1_v10 (V0 : Valuation τ sig (Elt F)) : val1 V0 (Proc.devRef .tc main_v10) = e_v10 V0 := by
  unfold val1 e_v10
  rw [out_enc_v10]

theorem v1_v21 (V0 : Valuation τ sig (Elt F)) : val1 V0 (Proc.devRef .tc main_v21) = e_v21 V0 := by
  unfold val1 e_v21
  rw [out_enc_v21]

/-- The contents after the first 2 stages. -/
def val2 (V0 : Valuation τ sig (Elt F)) : Valuation τ sig (Elt F) := after ops_c1ss (val1 V0)

theorem a2 (V0 : Valuation τ sig (Elt F)) (r : Ref sig .tc) (hr : r ∈ argRefs) :
    val2 V0 (Proc.devRef .tc r) = V0 (Proc.devRef .tc r) := by
  unfold val2
  exact (keep_c1ss _ r (args_c1ss r hr)).trans (a1 V0 r hr)

theorem v2_v10 (V0 : Valuation τ sig (Elt F)) : val2 V0 (Proc.devRef .tc main_v10) = e_v10 V0 := by
  unfold val2
  exact (keep_c1ss _ main_v10 (by decide +kernel)).trans (v1_v10 V0)

theorem v2_v21 (V0 : Valuation τ sig (Elt F)) : val2 V0 (Proc.devRef .tc main_v21) = e_v21 V0 := by
  unfold val2
  exact (keep_c1ss _ main_v21 (by decide +kernel)).trans (v1_v21 V0)

theorem v2_v58 (V0 : Valuation τ sig (Elt F)) : val2 V0 (Proc.devRef .tc main_v58) = e_v58 V0 := by
  unfold val2 e_v58
  rw [out_c1ss_v58, v1_v10 V0, a1 V0 main_arg24 (by decide +kernel), a1 V0 main_arg11 (by decide +kernel), a1 V0 main_arg12 (by decide +kernel), a1 V0 main_arg13 (by decide +kernel)]

/-- The contents after the first 3 stages. -/
def val3 (V0 : Valuation τ sig (Elt F)) : Valuation τ sig (Elt F) := after ops_c1tt (val2 V0)

theorem a3 (V0 : Valuation τ sig (Elt F)) (r : Ref sig .tc) (hr : r ∈ argRefs) :
    val3 V0 (Proc.devRef .tc r) = V0 (Proc.devRef .tc r) := by
  unfold val3
  exact (keep_c1tt _ r (args_c1tt r hr)).trans (a2 V0 r hr)

theorem v3_v10 (V0 : Valuation τ sig (Elt F)) : val3 V0 (Proc.devRef .tc main_v10) = e_v10 V0 := by
  unfold val3
  exact (keep_c1tt _ main_v10 (by decide +kernel)).trans (v2_v10 V0)

theorem v3_v21 (V0 : Valuation τ sig (Elt F)) : val3 V0 (Proc.devRef .tc main_v21) = e_v21 V0 := by
  unfold val3
  exact (keep_c1tt _ main_v21 (by decide +kernel)).trans (v2_v21 V0)

theorem v3_v58 (V0 : Valuation τ sig (Elt F)) : val3 V0 (Proc.devRef .tc main_v58) = e_v58 V0 := by
  unfold val3
  exact (keep_c1tt _ main_v58 (by decide +kernel)).trans (v2_v58 V0)

theorem v3_v95 (V0 : Valuation τ sig (Elt F)) : val3 V0 (Proc.devRef .tc main_v95) = e_v95 V0 := by
  unfold val3 e_v95
  rw [out_c1tt_v95, v2_v21 V0, a2 V0 main_arg25 (by decide +kernel), a2 V0 main_arg11 (by decide +kernel), a2 V0 main_arg12 (by decide +kernel), a2 V0 main_arg13 (by decide +kernel)]

/-- The contents after the first 4 stages. -/
def val4 (V0 : Valuation τ sig (Elt F)) : Valuation τ sig (Elt F) := after ops_c1st (val3 V0)

theorem a4 (V0 : Valuation τ sig (Elt F)) (r : Ref sig .tc) (hr : r ∈ argRefs) :
    val4 V0 (Proc.devRef .tc r) = V0 (Proc.devRef .tc r) := by
  unfold val4
  exact (keep_c1st _ r (args_c1st r hr)).trans (a3 V0 r hr)

theorem v4_v10 (V0 : Valuation τ sig (Elt F)) : val4 V0 (Proc.devRef .tc main_v10) = e_v10 V0 := by
  unfold val4
  exact (keep_c1st _ main_v10 (by decide +kernel)).trans (v3_v10 V0)

theorem v4_v21 (V0 : Valuation τ sig (Elt F)) : val4 V0 (Proc.devRef .tc main_v21) = e_v21 V0 := by
  unfold val4
  exact (keep_c1st _ main_v21 (by decide +kernel)).trans (v3_v21 V0)

theorem v4_v58 (V0 : Valuation τ sig (Elt F)) : val4 V0 (Proc.devRef .tc main_v58) = e_v58 V0 := by
  unfold val4
  exact (keep_c1st _ main_v58 (by decide +kernel)).trans (v3_v58 V0)

theorem v4_v95 (V0 : Valuation τ sig (Elt F)) : val4 V0 (Proc.devRef .tc main_v95) = e_v95 V0 := by
  unfold val4
  exact (keep_c1st _ main_v95 (by decide +kernel)).trans (v3_v95 V0)

theorem v4_v132 (V0 : Valuation τ sig (Elt F)) : val4 V0 (Proc.devRef .tc main_v132) = e_v132 V0 := by
  unfold val4 e_v132
  rw [out_c1st_v132, v3_v10 V0, a3 V0 main_arg26 (by decide +kernel), v3_v21 V0, a3 V0 main_arg11 (by decide +kernel), a3 V0 main_arg12 (by decide +kernel), a3 V0 main_arg13 (by decide +kernel)]

/-- The contents after the first 5 stages. -/
def val5 (V0 : Valuation τ sig (Elt F)) : Valuation τ sig (Elt F) := after ops_c1ts (val4 V0)

theorem a5 (V0 : Valuation τ sig (Elt F)) (r : Ref sig .tc) (hr : r ∈ argRefs) :
    val5 V0 (Proc.devRef .tc r) = V0 (Proc.devRef .tc r) := by
  unfold val5
  exact (keep_c1ts _ r (args_c1ts r hr)).trans (a4 V0 r hr)

theorem v5_v58 (V0 : Valuation τ sig (Elt F)) : val5 V0 (Proc.devRef .tc main_v58) = e_v58 V0 := by
  unfold val5
  exact (keep_c1ts _ main_v58 (by decide +kernel)).trans (v4_v58 V0)

theorem v5_v95 (V0 : Valuation τ sig (Elt F)) : val5 V0 (Proc.devRef .tc main_v95) = e_v95 V0 := by
  unfold val5
  exact (keep_c1ts _ main_v95 (by decide +kernel)).trans (v4_v95 V0)

theorem v5_v132 (V0 : Valuation τ sig (Elt F)) : val5 V0 (Proc.devRef .tc main_v132) = e_v132 V0 := by
  unfold val5
  exact (keep_c1ts _ main_v132 (by decide +kernel)).trans (v4_v132 V0)

theorem v5_v169 (V0 : Valuation τ sig (Elt F)) : val5 V0 (Proc.devRef .tc main_v169) = e_v169 V0 := by
  unfold val5 e_v169
  rw [out_c1ts_v169, v4_v21 V0, a4 V0 main_arg27 (by decide +kernel), v4_v10 V0, a4 V0 main_arg11 (by decide +kernel), a4 V0 main_arg12 (by decide +kernel), a4 V0 main_arg13 (by decide +kernel)]

/-- The contents after the first 6 stages. -/
def val6 (V0 : Valuation τ sig (Elt F)) : Valuation τ sig (Elt F) := after ops_cmb1 (val5 V0)

theorem a6 (V0 : Valuation τ sig (Elt F)) (r : Ref sig .tc) (hr : r ∈ argRefs) :
    val6 V0 (Proc.devRef .tc r) = V0 (Proc.devRef .tc r) := by
  unfold val6
  exact (keep_cmb1 _ r (args_cmb1 r hr)).trans (a5 V0 r hr)

theorem v6_v176 (V0 : Valuation τ sig (Elt F)) : val6 V0 (Proc.devRef .tc main_v176) = e_v176 V0 := by
  unfold val6 e_v176
  rw [out_cmb1_v176, v5_v58 V0, v5_v169 V0]

theorem v6_v177 (V0 : Valuation τ sig (Elt F)) : val6 V0 (Proc.devRef .tc main_v177) = e_v177 V0 := by
  unfold val6 e_v177
  rw [out_cmb1_v177, v5_v95 V0, v5_v132 V0]

/-- The contents after the first 7 stages. -/
def val7 (V0 : Valuation τ sig (Elt F)) : Valuation τ sig (Elt F) := after ops_c2ss (val6 V0)

theorem a7 (V0 : Valuation τ sig (Elt F)) (r : Ref sig .tc) (hr : r ∈ argRefs) :
    val7 V0 (Proc.devRef .tc r) = V0 (Proc.devRef .tc r) := by
  unfold val7
  exact (keep_c2ss _ r (args_c2ss r hr)).trans (a6 V0 r hr)

theorem v7_v176 (V0 : Valuation τ sig (Elt F)) : val7 V0 (Proc.devRef .tc main_v176) = e_v176 V0 := by
  unfold val7
  exact (keep_c2ss _ main_v176 (by decide +kernel)).trans (v6_v176 V0)

theorem v7_v177 (V0 : Valuation τ sig (Elt F)) : val7 V0 (Proc.devRef .tc main_v177) = e_v177 V0 := by
  unfold val7
  exact (keep_c2ss _ main_v177 (by decide +kernel)).trans (v6_v177 V0)

theorem v7_v214 (V0 : Valuation τ sig (Elt F)) : val7 V0 (Proc.devRef .tc main_v214) = e_v214 V0 := by
  unfold val7 e_v214
  rw [out_c2ss_v214, v6_v176 V0, a6 V0 main_arg24 (by decide +kernel), a6 V0 main_arg11 (by decide +kernel), a6 V0 main_arg12 (by decide +kernel), a6 V0 main_arg13 (by decide +kernel)]

/-- The contents after the first 8 stages. -/
def val8 (V0 : Valuation τ sig (Elt F)) : Valuation τ sig (Elt F) := after ops_c2tt (val7 V0)

theorem a8 (V0 : Valuation τ sig (Elt F)) (r : Ref sig .tc) (hr : r ∈ argRefs) :
    val8 V0 (Proc.devRef .tc r) = V0 (Proc.devRef .tc r) := by
  unfold val8
  exact (keep_c2tt _ r (args_c2tt r hr)).trans (a7 V0 r hr)

theorem v8_v176 (V0 : Valuation τ sig (Elt F)) : val8 V0 (Proc.devRef .tc main_v176) = e_v176 V0 := by
  unfold val8
  exact (keep_c2tt _ main_v176 (by decide +kernel)).trans (v7_v176 V0)

theorem v8_v177 (V0 : Valuation τ sig (Elt F)) : val8 V0 (Proc.devRef .tc main_v177) = e_v177 V0 := by
  unfold val8
  exact (keep_c2tt _ main_v177 (by decide +kernel)).trans (v7_v177 V0)

theorem v8_v214 (V0 : Valuation τ sig (Elt F)) : val8 V0 (Proc.devRef .tc main_v214) = e_v214 V0 := by
  unfold val8
  exact (keep_c2tt _ main_v214 (by decide +kernel)).trans (v7_v214 V0)

theorem v8_v251 (V0 : Valuation τ sig (Elt F)) : val8 V0 (Proc.devRef .tc main_v251) = e_v251 V0 := by
  unfold val8 e_v251
  rw [out_c2tt_v251, v7_v177 V0, a7 V0 main_arg25 (by decide +kernel), a7 V0 main_arg11 (by decide +kernel), a7 V0 main_arg12 (by decide +kernel), a7 V0 main_arg13 (by decide +kernel)]

/-- The contents after the first 9 stages. -/
def val9 (V0 : Valuation τ sig (Elt F)) : Valuation τ sig (Elt F) := after ops_c2st (val8 V0)

theorem a9 (V0 : Valuation τ sig (Elt F)) (r : Ref sig .tc) (hr : r ∈ argRefs) :
    val9 V0 (Proc.devRef .tc r) = V0 (Proc.devRef .tc r) := by
  unfold val9
  exact (keep_c2st _ r (args_c2st r hr)).trans (a8 V0 r hr)

theorem v9_v176 (V0 : Valuation τ sig (Elt F)) : val9 V0 (Proc.devRef .tc main_v176) = e_v176 V0 := by
  unfold val9
  exact (keep_c2st _ main_v176 (by decide +kernel)).trans (v8_v176 V0)

theorem v9_v177 (V0 : Valuation τ sig (Elt F)) : val9 V0 (Proc.devRef .tc main_v177) = e_v177 V0 := by
  unfold val9
  exact (keep_c2st _ main_v177 (by decide +kernel)).trans (v8_v177 V0)

theorem v9_v214 (V0 : Valuation τ sig (Elt F)) : val9 V0 (Proc.devRef .tc main_v214) = e_v214 V0 := by
  unfold val9
  exact (keep_c2st _ main_v214 (by decide +kernel)).trans (v8_v214 V0)

theorem v9_v251 (V0 : Valuation τ sig (Elt F)) : val9 V0 (Proc.devRef .tc main_v251) = e_v251 V0 := by
  unfold val9
  exact (keep_c2st _ main_v251 (by decide +kernel)).trans (v8_v251 V0)

theorem v9_v288 (V0 : Valuation τ sig (Elt F)) : val9 V0 (Proc.devRef .tc main_v288) = e_v288 V0 := by
  unfold val9 e_v288
  rw [out_c2st_v288, v8_v176 V0, a8 V0 main_arg26 (by decide +kernel), v8_v177 V0, a8 V0 main_arg11 (by decide +kernel), a8 V0 main_arg12 (by decide +kernel), a8 V0 main_arg13 (by decide +kernel)]

/-- The contents after the first 10 stages. -/
def val10 (V0 : Valuation τ sig (Elt F)) : Valuation τ sig (Elt F) := after ops_c2ts (val9 V0)

theorem a10 (V0 : Valuation τ sig (Elt F)) (r : Ref sig .tc) (hr : r ∈ argRefs) :
    val10 V0 (Proc.devRef .tc r) = V0 (Proc.devRef .tc r) := by
  unfold val10
  exact (keep_c2ts _ r (args_c2ts r hr)).trans (a9 V0 r hr)

theorem v10_v176 (V0 : Valuation τ sig (Elt F)) : val10 V0 (Proc.devRef .tc main_v176) = e_v176 V0 := by
  unfold val10
  exact (keep_c2ts _ main_v176 (by decide +kernel)).trans (v9_v176 V0)

theorem v10_v177 (V0 : Valuation τ sig (Elt F)) : val10 V0 (Proc.devRef .tc main_v177) = e_v177 V0 := by
  unfold val10
  exact (keep_c2ts _ main_v177 (by decide +kernel)).trans (v9_v177 V0)

theorem v10_v214 (V0 : Valuation τ sig (Elt F)) : val10 V0 (Proc.devRef .tc main_v214) = e_v214 V0 := by
  unfold val10
  exact (keep_c2ts _ main_v214 (by decide +kernel)).trans (v9_v214 V0)

theorem v10_v251 (V0 : Valuation τ sig (Elt F)) : val10 V0 (Proc.devRef .tc main_v251) = e_v251 V0 := by
  unfold val10
  exact (keep_c2ts _ main_v251 (by decide +kernel)).trans (v9_v251 V0)

theorem v10_v288 (V0 : Valuation τ sig (Elt F)) : val10 V0 (Proc.devRef .tc main_v288) = e_v288 V0 := by
  unfold val10
  exact (keep_c2ts _ main_v288 (by decide +kernel)).trans (v9_v288 V0)

theorem v10_v325 (V0 : Valuation τ sig (Elt F)) : val10 V0 (Proc.devRef .tc main_v325) = e_v325 V0 := by
  unfold val10 e_v325
  rw [out_c2ts_v325, v9_v177 V0, a9 V0 main_arg27 (by decide +kernel), v9_v176 V0, a9 V0 main_arg11 (by decide +kernel), a9 V0 main_arg12 (by decide +kernel), a9 V0 main_arg13 (by decide +kernel)]

/-- The contents after the first 11 stages. -/
def val11 (V0 : Valuation τ sig (Elt F)) : Valuation τ sig (Elt F) := after ops_cmb2 (val10 V0)

theorem a11 (V0 : Valuation τ sig (Elt F)) (r : Ref sig .tc) (hr : r ∈ argRefs) :
    val11 V0 (Proc.devRef .tc r) = V0 (Proc.devRef .tc r) := by
  unfold val11
  exact (keep_cmb2 _ r (args_cmb2 r hr)).trans (a10 V0 r hr)

theorem v11_v333 (V0 : Valuation τ sig (Elt F)) : val11 V0 (Proc.devRef .tc main_v333) = e_v333 V0 := by
  unfold val11 e_v333
  rw [out_cmb2_v333, v10_v214 V0, v10_v325 V0, v10_v176 V0]

theorem v11_v335 (V0 : Valuation τ sig (Elt F)) : val11 V0 (Proc.devRef .tc main_v335) = e_v335 V0 := by
  unfold val11 e_v335
  rw [out_cmb2_v335, v10_v251 V0, v10_v288 V0, v10_v177 V0]

/-- The contents after the first 12 stages. -/
def val12 (V0 : Valuation τ sig (Elt F)) : Valuation τ sig (Elt F) := after ops_c3ss (val11 V0)

theorem a12 (V0 : Valuation τ sig (Elt F)) (r : Ref sig .tc) (hr : r ∈ argRefs) :
    val12 V0 (Proc.devRef .tc r) = V0 (Proc.devRef .tc r) := by
  unfold val12
  exact (keep_c3ss _ r (args_c3ss r hr)).trans (a11 V0 r hr)

theorem v12_v333 (V0 : Valuation τ sig (Elt F)) : val12 V0 (Proc.devRef .tc main_v333) = e_v333 V0 := by
  unfold val12
  exact (keep_c3ss _ main_v333 (by decide +kernel)).trans (v11_v333 V0)

theorem v12_v335 (V0 : Valuation τ sig (Elt F)) : val12 V0 (Proc.devRef .tc main_v335) = e_v335 V0 := by
  unfold val12
  exact (keep_c3ss _ main_v335 (by decide +kernel)).trans (v11_v335 V0)

theorem v12_v372 (V0 : Valuation τ sig (Elt F)) : val12 V0 (Proc.devRef .tc main_v372) = e_v372 V0 := by
  unfold val12 e_v372
  rw [out_c3ss_v372, v11_v333 V0, a11 V0 main_arg24 (by decide +kernel), a11 V0 main_arg11 (by decide +kernel), a11 V0 main_arg12 (by decide +kernel), a11 V0 main_arg13 (by decide +kernel)]

/-- The contents after the first 13 stages. -/
def val13 (V0 : Valuation τ sig (Elt F)) : Valuation τ sig (Elt F) := after ops_c3tt (val12 V0)

theorem a13 (V0 : Valuation τ sig (Elt F)) (r : Ref sig .tc) (hr : r ∈ argRefs) :
    val13 V0 (Proc.devRef .tc r) = V0 (Proc.devRef .tc r) := by
  unfold val13
  exact (keep_c3tt _ r (args_c3tt r hr)).trans (a12 V0 r hr)

theorem v13_v333 (V0 : Valuation τ sig (Elt F)) : val13 V0 (Proc.devRef .tc main_v333) = e_v333 V0 := by
  unfold val13
  exact (keep_c3tt _ main_v333 (by decide +kernel)).trans (v12_v333 V0)

theorem v13_v335 (V0 : Valuation τ sig (Elt F)) : val13 V0 (Proc.devRef .tc main_v335) = e_v335 V0 := by
  unfold val13
  exact (keep_c3tt _ main_v335 (by decide +kernel)).trans (v12_v335 V0)

theorem v13_v372 (V0 : Valuation τ sig (Elt F)) : val13 V0 (Proc.devRef .tc main_v372) = e_v372 V0 := by
  unfold val13
  exact (keep_c3tt _ main_v372 (by decide +kernel)).trans (v12_v372 V0)

theorem v13_v409 (V0 : Valuation τ sig (Elt F)) : val13 V0 (Proc.devRef .tc main_v409) = e_v409 V0 := by
  unfold val13 e_v409
  rw [out_c3tt_v409, v12_v335 V0, a12 V0 main_arg25 (by decide +kernel), a12 V0 main_arg11 (by decide +kernel), a12 V0 main_arg12 (by decide +kernel), a12 V0 main_arg13 (by decide +kernel)]

/-- The contents after the first 14 stages. -/
def val14 (V0 : Valuation τ sig (Elt F)) : Valuation τ sig (Elt F) := after ops_c3st (val13 V0)

theorem a14 (V0 : Valuation τ sig (Elt F)) (r : Ref sig .tc) (hr : r ∈ argRefs) :
    val14 V0 (Proc.devRef .tc r) = V0 (Proc.devRef .tc r) := by
  unfold val14
  exact (keep_c3st _ r (args_c3st r hr)).trans (a13 V0 r hr)

theorem v14_v333 (V0 : Valuation τ sig (Elt F)) : val14 V0 (Proc.devRef .tc main_v333) = e_v333 V0 := by
  unfold val14
  exact (keep_c3st _ main_v333 (by decide +kernel)).trans (v13_v333 V0)

theorem v14_v335 (V0 : Valuation τ sig (Elt F)) : val14 V0 (Proc.devRef .tc main_v335) = e_v335 V0 := by
  unfold val14
  exact (keep_c3st _ main_v335 (by decide +kernel)).trans (v13_v335 V0)

theorem v14_v372 (V0 : Valuation τ sig (Elt F)) : val14 V0 (Proc.devRef .tc main_v372) = e_v372 V0 := by
  unfold val14
  exact (keep_c3st _ main_v372 (by decide +kernel)).trans (v13_v372 V0)

theorem v14_v409 (V0 : Valuation τ sig (Elt F)) : val14 V0 (Proc.devRef .tc main_v409) = e_v409 V0 := by
  unfold val14
  exact (keep_c3st _ main_v409 (by decide +kernel)).trans (v13_v409 V0)

theorem v14_v446 (V0 : Valuation τ sig (Elt F)) : val14 V0 (Proc.devRef .tc main_v446) = e_v446 V0 := by
  unfold val14 e_v446
  rw [out_c3st_v446, v13_v333 V0, a13 V0 main_arg26 (by decide +kernel), v13_v335 V0, a13 V0 main_arg11 (by decide +kernel), a13 V0 main_arg12 (by decide +kernel), a13 V0 main_arg13 (by decide +kernel)]

/-- The contents after the first 15 stages. -/
def val15 (V0 : Valuation τ sig (Elt F)) : Valuation τ sig (Elt F) := after ops_c3ts (val14 V0)

theorem a15 (V0 : Valuation τ sig (Elt F)) (r : Ref sig .tc) (hr : r ∈ argRefs) :
    val15 V0 (Proc.devRef .tc r) = V0 (Proc.devRef .tc r) := by
  unfold val15
  exact (keep_c3ts _ r (args_c3ts r hr)).trans (a14 V0 r hr)

theorem v15_v333 (V0 : Valuation τ sig (Elt F)) : val15 V0 (Proc.devRef .tc main_v333) = e_v333 V0 := by
  unfold val15
  exact (keep_c3ts _ main_v333 (by decide +kernel)).trans (v14_v333 V0)

theorem v15_v335 (V0 : Valuation τ sig (Elt F)) : val15 V0 (Proc.devRef .tc main_v335) = e_v335 V0 := by
  unfold val15
  exact (keep_c3ts _ main_v335 (by decide +kernel)).trans (v14_v335 V0)

theorem v15_v372 (V0 : Valuation τ sig (Elt F)) : val15 V0 (Proc.devRef .tc main_v372) = e_v372 V0 := by
  unfold val15
  exact (keep_c3ts _ main_v372 (by decide +kernel)).trans (v14_v372 V0)

theorem v15_v409 (V0 : Valuation τ sig (Elt F)) : val15 V0 (Proc.devRef .tc main_v409) = e_v409 V0 := by
  unfold val15
  exact (keep_c3ts _ main_v409 (by decide +kernel)).trans (v14_v409 V0)

theorem v15_v446 (V0 : Valuation τ sig (Elt F)) : val15 V0 (Proc.devRef .tc main_v446) = e_v446 V0 := by
  unfold val15
  exact (keep_c3ts _ main_v446 (by decide +kernel)).trans (v14_v446 V0)

theorem v15_v483 (V0 : Valuation τ sig (Elt F)) : val15 V0 (Proc.devRef .tc main_v483) = e_v483 V0 := by
  unfold val15 e_v483
  rw [out_c3ts_v483, v14_v335 V0, a14 V0 main_arg27 (by decide +kernel), v14_v333 V0, a14 V0 main_arg11 (by decide +kernel), a14 V0 main_arg12 (by decide +kernel), a14 V0 main_arg13 (by decide +kernel)]

/-- The contents after the first 16 stages. -/
def val16 (V0 : Valuation τ sig (Elt F)) : Valuation τ sig (Elt F) := after ops_cmb3 (val15 V0)

theorem a16 (V0 : Valuation τ sig (Elt F)) (r : Ref sig .tc) (hr : r ∈ argRefs) :
    val16 V0 (Proc.devRef .tc r) = V0 (Proc.devRef .tc r) := by
  unfold val16
  exact (keep_cmb3 _ r (args_cmb3 r hr)).trans (a15 V0 r hr)

theorem v16_v491 (V0 : Valuation τ sig (Elt F)) : val16 V0 (Proc.devRef .tc main_v491) = e_v491 V0 := by
  unfold val16 e_v491
  rw [out_cmb3_v491, v15_v372 V0, v15_v483 V0, v15_v333 V0]

theorem v16_v493 (V0 : Valuation τ sig (Elt F)) : val16 V0 (Proc.devRef .tc main_v493) = e_v493 V0 := by
  unfold val16 e_v493
  rw [out_cmb3_v493, v15_v409 V0, v15_v446 V0, v15_v335 V0]

/-- The contents after the first 17 stages. -/
def val17 (V0 : Valuation τ sig (Elt F)) : Valuation τ sig (Elt F) := after ops_hdA (val16 V0)

theorem a17 (V0 : Valuation τ sig (Elt F)) (r : Ref sig .tc) (hr : r ∈ argRefs) :
    val17 V0 (Proc.devRef .tc r) = V0 (Proc.devRef .tc r) := by
  unfold val17
  exact (keep_hdA _ r (args_hdA r hr)).trans (a16 V0 r hr)

theorem v17_v504 (V0 : Valuation τ sig (Elt F)) : val17 V0 (Proc.devRef .tc main_v504) = e_v504 V0 := by
  unfold val17 e_v504
  rw [out_hdA_v504, v16_v491 V0, a16 V0 main_arg26 (by decide +kernel)]

theorem v17_v511 (V0 : Valuation τ sig (Elt F)) : val17 V0 (Proc.devRef .tc main_v511) = e_v511 V0 := by
  unfold val17 e_v511
  rw [out_hdA_v511, v16_v493 V0, a16 V0 main_arg26 (by decide +kernel)]

/-- The contents after the first 18 stages. -/
def val18 (V0 : Valuation τ sig (Elt F)) : Valuation τ sig (Elt F) := after ops_hdB (val17 V0)

theorem a18 (V0 : Valuation τ sig (Elt F)) (r : Ref sig .tc) (hr : r ∈ argRefs) :
    val18 V0 (Proc.devRef .tc r) = V0 (Proc.devRef .tc r) := by
  unfold val18
  exact (keep_hdB _ r (args_hdB r hr)).trans (a17 V0 r hr)

theorem v18_v554 (V0 : Valuation τ sig (Elt F)) : val18 V0 (Proc.devRef .tc main_v554) = e_v554 V0 := by
  unfold val18 e_v554
  rw [out_hdB_v554, v17_v504 V0, v17_v511 V0, a17 V0 main_arg2 (by decide +kernel), a17 V0 main_arg14 (by decide +kernel), a17 V0 main_arg15 (by decide +kernel), a17 V0 main_arg16 (by decide +kernel), a17 V0 main_arg17 (by decide +kernel), a17 V0 main_arg18 (by decide +kernel), a17 V0 main_arg19 (by decide +kernel), a17 V0 main_arg20 (by decide +kernel), a17 V0 main_arg21 (by decide +kernel), a17 V0 main_arg22 (by decide +kernel), a17 V0 main_arg23 (by decide +kernel)]

/-! ## The whole line -/

/-- The program's operations, stage after stage. -/
def ops : List (HloOp τ sig (Elt F)) :=
  ops_enc ++ (ops_c1ss ++ (ops_c1tt ++ (ops_c1st ++ (ops_c1ts ++ (ops_cmb1 ++ (ops_c2ss ++ (ops_c2tt ++ (ops_c2st ++ (ops_c2ts ++ (ops_cmb2 ++ (ops_c3ss ++ (ops_c3tt ++ (ops_c3st ++ (ops_c3ts ++ (ops_cmb3 ++ (ops_hdA ++ (ops_hdB)))))))))))))))))

/-! ## The program is this line

The program is printed as eleven consecutive windows of statements; each window is a stretch of the line, cut at
the window's ends instead of at the stages' (a window ends inside a stage: that stage's first operations close one
window and its remaining ones open the next). -/

/-- A list cut in two and joined again, in front of a third. -/
theorem take_drop_app {α : Type} (l r : List α) (n : Nat) : l.take n ++ (l.drop n ++ r) = l ++ r := by
  rw [← List.append_assoc, List.take_append_drop]

/-- The operations of the program's window 0 (operations 1 … 64). -/
def win0 : List (HloOp τ sig (Elt F)) :=
  ops_enc ++ (ops_c1ss.take 38)

set_option maxRecDepth 8192 in
theorem part0_eq (c : Dev nD) : main_part0 (F := F) c = seq win0 := rfl

/-- The operations of the program's window 1 (operations 65 … 124). -/
def win1 : List (HloOp τ sig (Elt F)) :=
  ops_c1ss.drop 38 ++ (ops_c1tt ++ (ops_c1st.take 12))

set_option maxRecDepth 8192 in
theorem part1_eq (c : Dev nD) : main_part1 (F := F) c = seq win1 := rfl

/-- The operations of the program's window 2 (operations 125 … 184). -/
def win2 : List (HloOp τ sig (Elt F)) :=
  ops_c1st.drop 12 ++ (ops_c1ts.take 29)

set_option maxRecDepth 8192 in
theorem part2_eq (c : Dev nD) : main_part2 (F := F) c = seq win2 := rfl

/-- The operations of the program's window 3 (operations 185 … 248). -/
def win3 : List (HloOp τ sig (Elt F)) :=
  ops_c1ts.drop 29 ++ (ops_cmb1 ++ (ops_c2ss.take 36))

set_option maxRecDepth 8192 in
theorem part3_eq (c : Dev nD) : main_part3 (F := F) c = seq win3 := rfl

/-- The operations of the program's window 4 (operations 249 … 308). -/
def win4 : List (HloOp τ sig (Elt F)) :=
  ops_c2ss.drop 36 ++ (ops_c2tt ++ (ops_c2st.take 10))

set_option maxRecDepth 8192 in
theorem part4_eq (c : Dev nD) : main_part4 (F := F) c = seq win4 := rfl

/-- The operations of the program's window 5 (operations 309 … 368). -/
def win5 : List (HloOp τ sig (Elt F)) :=
  ops_c2st.drop 10 ++ (ops_c2ts.take 27)

set_option maxRecDepth 8192 in
theorem part5_eq (c : Dev nD) : main_part5 (F := F) c = seq win5 := rfl

/-- The operations of the program's window 6 (operations 369 … 432). -/
def win6 : List (HloOp τ sig (Elt F)) :=
  ops_c2ts.drop 27 ++ (ops_cmb2 ++ (ops_c3ss.take 32))

set_option maxRecDepth 8192 in
theorem part6_eq (c : Dev nD) : main_part6 (F := F) c = seq win6 := rfl

/-- The operations of the program's window 7 (operations 433 … 492). -/
def win7 : List (HloOp τ sig (Elt F)) :=
  ops_c3ss.drop 32 ++ (ops_c3tt ++ (ops_c3st.take 6))

set_option maxRecDepth 8192 in
theorem part7_eq (c : Dev nD) : main_part7 (F := F) c = seq win7 := rfl

/-- The operations of the program's window 8 (operations 493 … 552). -/
def win8 : List (HloOp τ sig (Elt F)) :=
  ops_c3st.drop 6 ++ (ops_c3ts.take 23)

set_option maxRecDepth 8192 in
theorem part8_eq (c : Dev nD) : main_part8 (F := F) c = seq win8 := rfl

/-- The operations of the program's window 9 (operations 553 … 616). -/
def win9 : List (HloOp τ sig (Elt F)) :=
  ops_c3ts.drop 23 ++ (ops_cmb3 ++ (ops_hdA ++ (ops_hdB.take 6)))

set_option maxRecDepth 8192 in
theorem part9_eq (c : Dev nD) : main_part9 (F := F) c = seq win9 := rfl

/-- The operations of the program's window 10 (operations 617 … 662). -/
def win10 : List (HloOp τ sig (Elt F)) :=
  ops_hdB.drop 6

set_option maxRecDepth 8192 in
theorem part10_eq (c : Dev nD) : main_part10 (F := F) c = seq win10 := rfl

/-- The line, cut at the windows' ends. -/
theorem ops_eq_wins : (ops : List (HloOp τ sig (Elt F))) = win0 ++ (win1 ++ (win2 ++ (win3 ++ (win4 ++ (win5 ++ (win6 ++ (win7 ++ (win8 ++ (win9 ++ (win10)))))))))) := by
  unfold ops win0 win1 win2 win3 win4 win5 win6 win7 win8 win9 win10
  simp only [List.append_assoc, take_drop_app, List.take_append_drop]

set_option maxRecDepth 8192 in
theorem main_eq (c : Dev nD) : main (F := F) c = seq ops := by
  rw [ops_eq_wins]
  simp only [seq_append, ← part0_eq c, ← part1_eq c, ← part2_eq c, ← part3_eq c, ← part4_eq c, ← part5_eq c, ← part6_eq c, ← part7_eq c, ← part8_eq c, ← part9_eq c, ← part10_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app ops_enc_sub (forall_app ops_c1ss_sub (forall_app ops_c1tt_sub (forall_app ops_c1st_sub (forall_app ops_c1ts_sub (forall_app ops_cmb1_sub (forall_app ops_c2ss_sub (forall_app ops_c2tt_sub (forall_app ops_c2st_sub (forall_app ops_c2ts_sub (forall_app ops_cmb2_sub (forall_app ops_c3ss_sub (forall_app ops_c3tt_sub (forall_app ops_c3st_sub (forall_app ops_c3ts_sub (forall_app ops_cmb3_sub (forall_app ops_hdA_sub (ops_hdB_sub)))))))))))))))))

theorem ops_fresh : ∀ op ∈ (ops : List (HloOp τ sig (Elt F))), op.fresh = ∅ :=
  fresh_app ops_enc_fresh (fresh_app ops_c1ss_fresh (fresh_app ops_c1tt_fresh (fresh_app ops_c1st_fresh (fresh_app ops_c1ts_fresh (fresh_app ops_cmb1_fresh (fresh_app ops_c2ss_fresh (fresh_app ops_c2tt_fresh (fresh_app ops_c2st_fresh (fresh_app ops_c2ts_fresh (fresh_app ops_cmb2_fresh (fresh_app ops_c3ss_fresh (fresh_app ops_c3tt_fresh (fresh_app ops_c3st_fresh (fresh_app ops_c3ts_fresh (fresh_app ops_cmb3_fresh (fresh_app ops_hdA_fresh (ops_hdB_fresh)))))))))))))))))

/-- The contents after the whole line are the contents after the last stage. -/
theorem after_ops (V0 : Valuation τ sig (Elt F)) : after ops V0 = val18 V0 := by
  unfold ops val18 val17 val16 val15 val14 val13 val12 val11 val10 val9 val8 val7 val6 val5 val4 val3 val2 val1
  simp only [after_app]

/-- The last stage's result is the network function of the 28 arguments. -/
theorem e_out_eq (V0 : Valuation τ sig (Elt F)) :
    e_v554 V0 = Cert.Stages.netOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) := rfl

set_option maxRecDepth 8192 in
/-- On every device, for any float values, from any memory with zero counters: every weakly fair execution of the
    reference terminates with its result at the network function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v554) = Cert.Stages.netOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v554).trans (by simp only [after_ops]; exact (v18_v554 (launchContents m c)).trans (e_out_eq _)),
      (h c main_arg0).trans (by simp only [after_ops]; exact a18 (launchContents m c) main_arg0 (by decide +kernel)),
      (h c main_arg1).trans (by simp only [after_ops]; exact a18 (launchContents m c) main_arg1 (by decide +kernel)),
      (h c main_arg2).trans (by simp only [after_ops]; exact a18 (launchContents m c) main_arg2 (by decide +kernel)),
      (h c main_arg3).trans (by simp only [after_ops]; exact a18 (launchContents m c) main_arg3 (by decide +kernel)),
      (h c main_arg4).trans (by simp only [after_ops]; exact a18 (launchContents m c) main_arg4 (by decide +kernel)),
      (h c main_arg5).trans (by simp only [after_ops]; exact a18 (launchContents m c) main_arg5 (by decide +kernel)),
      (h c main_arg6).trans (by simp only [after_ops]; exact a18 (launchContents m c) main_arg6 (by decide +kernel)),
      (h c main_arg7).trans (by simp only [after_ops]; exact a18 (launchContents m c) main_arg7 (by decide +kernel)),
      (h c main_arg8).trans (by simp only [after_ops]; exact a18 (launchContents m c) main_arg8 (by decide +kernel)),
      (h c main_arg9).trans (by simp only [after_ops]; exact a18 (launchContents m c) main_arg9 (by decide +kernel)),
      (h c main_arg10).trans (by simp only [after_ops]; exact a18 (launchContents m c) main_arg10 (by decide +kernel)),
      (h c main_arg11).trans (by simp only [after_ops]; exact a18 (launchContents m c) main_arg11 (by decide +kernel)),
      (h c main_arg12).trans (by simp only [after_ops]; exact a18 (launchContents m c) main_arg12 (by decide +kernel)),
      (h c main_arg13).trans (by simp only [after_ops]; exact a18 (launchContents m c) main_arg13 (by decide +kernel)),
      (h c main_arg14).trans (by simp only [after_ops]; exact a18 (launchContents m c) main_arg14 (by decide +kernel)),
      (h c main_arg15).trans (by simp only [after_ops]; exact a18 (launchContents m c) main_arg15 (by decide +kernel)),
      (h c main_arg16).trans (by simp only [after_ops]; exact a18 (launchContents m c) main_arg16 (by decide +kernel)),
      (h c main_arg17).trans (by simp only [after_ops]; exact a18 (launchContents m c) main_arg17 (by decide +kernel)),
      (h c main_arg18).trans (by simp only [after_ops]; exact a18 (launchContents m c) main_arg18 (by decide +kernel)),
      (h c main_arg19).trans (by simp only [after_ops]; exact a18 (launchContents m c) main_arg19 (by decide +kernel)),
      (h c main_arg20).trans (by simp only [after_ops]; exact a18 (launchContents m c) main_arg20 (by decide +kernel)),
      (h c main_arg21).trans (by simp only [after_ops]; exact a18 (launchContents m c) main_arg21 (by decide +kernel)),
      (h c main_arg22).trans (by simp only [after_ops]; exact a18 (launchContents m c) main_arg22 (by decide +kernel)),
      (h c main_arg23).trans (by simp only [after_ops]; exact a18 (launchContents m c) main_arg23 (by decide +kernel)),
      (h c main_arg24).trans (by simp only [after_ops]; exact a18 (launchContents m c) main_arg24 (by decide +kernel)),
      (h c main_arg25).trans (by simp only [after_ops]; exact a18 (launchContents m c) main_arg25 (by decide +kernel)),
      (h c main_arg26).trans (by simp only [after_ops]; exact a18 (launchContents m c) main_arg26 (by decide +kernel)),
      (h c main_arg27).trans (by simp only [after_ops]; exact a18 (launchContents m c) main_arg27 (by decide +kernel))⟩)
    (run_seq scopedRefs_eq scopedSems_eq defs main (fun _ => ops) main_eq (fun _ => ops_sub) m ρ (fun _ => ops_fresh))

/-- The reference runs to the end, faults nowhere, and leaves its arguments unchanged. -/
theorem frame_ri : Cert.frame_ReferenceIdeal := fun m ρ _ =>
  (θ_run Cert.ReferenceIdeal.defs _ _).mono (fun _ h c => (h c).2) (run (F := Ideal) m ρ)

end Cert.ReferenceIdeal.RefValue

end
-- ==== Proof.lean ====
/-
  The certificate of a three-layer heterogeneous GraphSAGE network with an edge head, computed by nine fused
  kernels among host gathers and scatter-adds, against the same network written as plain array operations.

  * The two kernel programs' frames: @main is cut into its 27 items (host stretches and kernel regions); every region's
    body is run symbolically, every host stretch is a fold over the buffers' contents, and no item writes an argument.
    The word-level program's last region has clipped edge blocks whose overhang reaches its output through matrix
    products, so its frame forgets that output's contents; at the ideal instance the products are plain sums and the
    overhang provably never reaches the part of the block that is written back.
  * The reference's frame and value: its run, stage by stage, is the network `Cert.Stages.netOut` of the arguments.
  * The kernel program's value: each region's output array is a closed function of its operand arrays; the host glue
    between regions is the reference's own operations; the integer in-degree equals the float one; each fused kernel
    equals the reference's stage (sums only regrouped, format changes the identity on extended reals). Hence the kernel
    program's result is the same `Cert.Stages.netOut` of the arguments.
-/
import proofs.«166951_j44444321579084_2_alg».proof.Defs
import proofs.«166951_j44444321579084_2_alg».proof.Proof.Gen.Kernel
import proofs.«166951_j44444321579084_2_alg».proof.Proof.Gen.KernelIdeal
import proofs.«166951_j44444321579084_2_alg».proof.Proof.Gen.ReferenceIdeal
import proofs.«166951_j44444321579084_2_alg».proof.Proof.Gen.Pre_finite_inputs
import proofs.«166951_j44444321579084_2_alg».proof.Proof.KRun
import proofs.«166951_j44444321579084_2_alg».proof.Proof.KIRun
import proofs.«166951_j44444321579084_2_alg».proof.Proof.KIBridge
import proofs.«166951_j44444321579084_2_alg».proof.Proof.RefRun

noncomputable section

namespace Cert.Proof

open Idealize.ShloMosaic Idealize.SL.Sem

/-- The word-level program runs to the end, faults nowhere and leaves its arguments unchanged. -/
theorem frame_p : Cert.frame_Kernel := fun m ρ _ => Cert.Kernel.Hand.frame (F := Bits) m ρ

/-- So does its idealization. -/
theorem frame_pi : Cert.frame_KernelIdeal := fun m ρ _ => Cert.KernelIdeal.Hand.frame m ρ

/-- And the reference. -/
theorem frame_ri : Cert.frame_ReferenceIdeal := Cert.ReferenceIdeal.RefValue.frame_ri

/-- The ideal pass rewrote nothing. -/
theorem preserves : Cert.preserves_Kernel_KernelIdeal := trivial

/-- The network's value of the 28 argument arrays a memory of the kernel program holds, on device c. -/
abbrev netOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v430) :=
  Cert.Stages.netOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))

/-- The idealized kernel program ends with the network's value of its arguments in its result buffer, the arguments
    unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v430) = netOf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)) :=
  (θ_run Cert.KernelIdeal.defs _ _).mono (fun r h c =>
      ⟨(h c _ (Cert.KernelIdeal.Hand.mem_uc Cert.KernelIdeal.main_v430 (by decide))).trans (Cert.KernelIdeal.Hand.kernel_result m ρ c),
        (h c _ (Cert.KernelIdeal.Hand.mem_uc Cert.KernelIdeal.main_arg0 (by decide))).trans (Cert.KernelIdeal.Hand.W27_main_arg0 m ρ c),
        (h c _ (Cert.KernelIdeal.Hand.mem_uc Cert.KernelIdeal.main_arg1 (by decide))).trans (Cert.KernelIdeal.Hand.W27_main_arg1 m ρ c),
        (h c _ (Cert.KernelIdeal.Hand.mem_uc Cert.KernelIdeal.main_arg2 (by decide))).trans (Cert.KernelIdeal.Hand.W27_main_arg2 m ρ c),
        (h c _ (Cert.KernelIdeal.Hand.mem_uc Cert.KernelIdeal.main_arg3 (by decide))).trans (Cert.KernelIdeal.Hand.W27_main_arg3 m ρ c),
        (h c _ (Cert.KernelIdeal.Hand.mem_uc Cert.KernelIdeal.main_arg4 (by decide))).trans (Cert.KernelIdeal.Hand.W27_main_arg4 m ρ c),
        (h c _ (Cert.KernelIdeal.Hand.mem_uc Cert.KernelIdeal.main_arg5 (by decide))).trans (Cert.KernelIdeal.Hand.W27_main_arg5 m ρ c),
        (h c _ (Cert.KernelIdeal.Hand.mem_uc Cert.KernelIdeal.main_arg6 (by decide))).trans (Cert.KernelIdeal.Hand.W27_main_arg6 m ρ c),
        (h c _ (Cert.KernelIdeal.Hand.mem_uc Cert.KernelIdeal.main_arg7 (by decide))).trans (Cert.KernelIdeal.Hand.W27_main_arg7 m ρ c),
        (h c _ (Cert.KernelIdeal.Hand.mem_uc Cert.KernelIdeal.main_arg8 (by decide))).trans (Cert.KernelIdeal.Hand.W27_main_arg8 m ρ c),
        (h c _ (Cert.KernelIdeal.Hand.mem_uc Cert.KernelIdeal.main_arg9 (by decide))).trans (Cert.KernelIdeal.Hand.W27_main_arg9 m ρ c),
        (h c _ (Cert.KernelIdeal.Hand.mem_uc Cert.KernelIdeal.main_arg10 (by decide))).trans (Cert.KernelIdeal.Hand.W27_main_arg10 m ρ c),
        (h c _ (Cert.KernelIdeal.Hand.mem_uc Cert.KernelIdeal.main_arg11 (by decide))).trans (Cert.KernelIdeal.Hand.W27_main_arg11 m ρ c),
        (h c _ (Cert.KernelIdeal.Hand.mem_uc Cert.KernelIdeal.main_arg12 (by decide))).trans (Cert.KernelIdeal.Hand.W27_main_arg12 m ρ c),
        (h c _ (Cert.KernelIdeal.Hand.mem_uc Cert.KernelIdeal.main_arg13 (by decide))).trans (Cert.KernelIdeal.Hand.W27_main_arg13 m ρ c),
        (h c _ (Cert.KernelIdeal.Hand.mem_uc Cert.KernelIdeal.main_arg14 (by decide))).trans (Cert.KernelIdeal.Hand.W27_main_arg14 m ρ c),
        (h c _ (Cert.KernelIdeal.Hand.mem_uc Cert.KernelIdeal.main_arg15 (by decide))).trans (Cert.KernelIdeal.Hand.W27_main_arg15 m ρ c),
        (h c _ (Cert.KernelIdeal.Hand.mem_uc Cert.KernelIdeal.main_arg16 (by decide))).trans (Cert.KernelIdeal.Hand.W27_main_arg16 m ρ c),
        (h c _ (Cert.KernelIdeal.Hand.mem_uc Cert.KernelIdeal.main_arg17 (by decide))).trans (Cert.KernelIdeal.Hand.W27_main_arg17 m ρ c),
        (h c _ (Cert.KernelIdeal.Hand.mem_uc Cert.KernelIdeal.main_arg18 (by decide))).trans (Cert.KernelIdeal.Hand.W27_main_arg18 m ρ c),
        (h c _ (Cert.KernelIdeal.Hand.mem_uc Cert.KernelIdeal.main_arg19 (by decide))).trans (Cert.KernelIdeal.Hand.W27_main_arg19 m ρ c),
        (h c _ (Cert.KernelIdeal.Hand.mem_uc Cert.KernelIdeal.main_arg20 (by decide))).trans (Cert.KernelIdeal.Hand.W27_main_arg20 m ρ c),
        (h c _ (Cert.KernelIdeal.Hand.mem_uc Cert.KernelIdeal.main_arg21 (by decide))).trans (Cert.KernelIdeal.Hand.W27_main_arg21 m ρ c),
        (h c _ (Cert.KernelIdeal.Hand.mem_uc Cert.KernelIdeal.main_arg22 (by decide))).trans (Cert.KernelIdeal.Hand.W27_main_arg22 m ρ c),
        (h c _ (Cert.KernelIdeal.Hand.mem_uc Cert.KernelIdeal.main_arg23 (by decide))).trans (Cert.KernelIdeal.Hand.W27_main_arg23 m ρ c),
        (h c _ (Cert.KernelIdeal.Hand.mem_uc Cert.KernelIdeal.main_arg24 (by decide))).trans (Cert.KernelIdeal.Hand.W27_main_arg24 m ρ c),
        (h c _ (Cert.KernelIdeal.Hand.mem_uc Cert.KernelIdeal.main_arg25 (by decide))).trans (Cert.KernelIdeal.Hand.W27_main_arg25 m ρ c),
        (h c _ (Cert.KernelIdeal.Hand.mem_uc Cert.KernelIdeal.main_arg26 (by decide))).trans (Cert.KernelIdeal.Hand.W27_main_arg26 m ρ c),
        (h c _ (Cert.KernelIdeal.Hand.mem_uc Cert.KernelIdeal.main_arg27 (by decide))).trans (Cert.KernelIdeal.Hand.W27_main_arg27 m ρ c)⟩)
    (Cert.KernelIdeal.Hand.run_all m ρ)

/-- The idealized reference, from a memory that agrees with the kernel program's on the arguments, ends with the same
    value in its result buffer, its arguments unchanged. -/
theorem reference_run (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v554) = netOf m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)) := by
  refine (θ_run Cert.ReferenceIdeal.defs _ _).mono (fun r h c => ⟨(h c).1.trans ?_, (h c).2⟩)
    (Cert.ReferenceIdeal.RefValue.run (F := Ideal) m' ρ')
  obtain ⟨h0, h1, h2, h3, h4, h5, h6, h7, h8, h9, h10, h11, h12, h13, h14, h15, h16, h17, h18, h19, h20, h21, h22, h23, h24, h25, h26, h27⟩ := hagree c
  rw [h0, h1, h2, h3, h4, h5, h6, h7, h8, h9, h10, h11, h12, h13, h14, h15, h16, h17, h18, h19, h20, h21, h22, h23, h24, h25, h26, h27]

/-- Both idealized programs end with the network's value of the (agreeing) arguments in their result buffer. -/
theorem algebraic : Cert.algebraic_KernelIdeal_ReferenceIdeal :=
  fun m ρ m' ρ' _ hagree => ⟨netOf m, kernel_run m ρ, reference_run m m' ρ' hagree⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
